-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256 : Shape := ⟨3, ![4, 256, 256]⟩
abbrev S256x128 : Shape := ⟨2, ![256, 128]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S4x256x256 .f32) (main_arg1 : FVec F S256x128 .f32) (main_arg2 : FVec F S256x128 .f32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S4x256x256 : Shape := ⟨3, ![4, 256, 256]⟩
abbrev S256x128 : Shape := ⟨2, ![256, 128]⟩
abbrev S128x256 : Shape := ⟨2, ![128, 256]⟩
abbrev S4x256x256x256 : Shape := ⟨4, ![4, 256, 256, 256]⟩
abbrev S8x256 : Shape := ⟨2, ![8, 256]⟩
abbrev S_ : Shape := ⟨0, ![]⟩
abbrev S4x256 : Shape := ⟨2, ![4, 256]⟩
abbrev S1x16 : Shape := ⟨2, ![1, 16]⟩
abbrev S16 : Shape := ⟨1, ![16]⟩
abbrev S1x1x128x256 : Shape := ⟨4, ![1, 1, 128, 256]⟩
abbrev S1 : Shape := ⟨1, ![1]⟩

abbrev nBuf : Table → Nat
  | .hbm => 6
  | .local .scVector .vmem => 3
  | _ => 0

abbrev bufTy : (tb : Table) → Fin (nBuf tb) → BufTy
  | .hbm, ⟨0, _⟩ => ⟨S4x256x256, .f32⟩
  | .hbm, ⟨1, _⟩ => ⟨S256x128, .f32⟩
  | .hbm, ⟨2, _⟩ => ⟨S256x128, .f32⟩
  | .hbm, ⟨3, _⟩ => ⟨S128x256, .f32⟩
  | .hbm, ⟨4, _⟩ => ⟨S128x256, .f32⟩
  | .hbm, ⟨5, _⟩ => ⟨S4x256x256x256, .f32⟩
  | .local .scVector .vmem, ⟨0, _⟩ => ⟨S8x256, .f32⟩
  | .local .scVector .vmem, ⟨1, _⟩ => ⟨S128x256, .f32⟩
  | .local .scVector .vmem, ⟨2, _⟩ => ⟨S128x256, .f32⟩
  | _, _ => ⟨S4x256x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_10_r0 : BitVec 32 := 0#32
  ![v2.toNat, 0]
@[reducible] def k0_t1_loop : Scf.Loop 32 :=
  let c0_i32_0 : BitVec 32 := 0#32
  let c2_i32_1 : BitVec 32 := 2#32
  let v3 : BitVec 32 := Scalar.addi c0_i32_0 c2_i32_1
  let c1_i32 : BitVec 32 := 1#32
  ⟨c0_i32_0, v3, c1_i32⟩
def k0_off2 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v13 : Index := Scalar.indexCast v11
  let c0 : Index := 0#32
  ![v13.toNat, 0]
def k0_off3 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v16 : Index := Scalar.indexCast v11
  let c16 : Index := 16#32
  ![v16.toNat, 16]
def k0_off4 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v19 : Index := Scalar.indexCast v11
  let c32 : Index := 32#32
  ![v19.toNat, 32]
def k0_off5 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v22 : Index := Scalar.indexCast v11
  let c48 : Index := 48#32
  ![v22.toNat, 48]
def k0_off6 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v25 : Index := Scalar.indexCast v11
  let c64 : Index := 64#32
  ![v25.toNat, 64]
def k0_off7 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v28 : Index := Scalar.indexCast v11
  let c80 : Index := 80#32
  ![v28.toNat, 80]
def k0_off8 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v31 : Index := Scalar.indexCast v11
  let c96 : Index := 96#32
  ![v31.toNat, 96]
def k0_off9 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v34 : Index := Scalar.indexCast v11
  let c112 : Index := 112#32
  ![v34.toNat, 112]
def k0_off10 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v37 : Index := Scalar.indexCast v11
  let c128 : Index := 128#32
  ![v37.toNat, 128]
def k0_off11 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v40 : Index := Scalar.indexCast v11
  let c144 : Index := 144#32
  ![v40.toNat, 144]
def k0_off12 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v43 : Index := Scalar.indexCast v11
  let c160 : Index := 160#32
  ![v43.toNat, 160]
def k0_off13 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v46 : Index := Scalar.indexCast v11
  let c176 : Index := 176#32
  ![v46.toNat, 176]
def k0_off14 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v49 : Index := Scalar.indexCast v11
  let c192 : Index := 192#32
  ![v49.toNat, 192]
def k0_off15 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v52 : Index := Scalar.indexCast v11
  let c208 : Index := 208#32
  ![v52.toNat, 208]
def k0_off16 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v55 : Index := Scalar.indexCast v11
  let c224 : Index := 224#32
  ![v55.toNat, 224]
def k0_off17 (k0_t1 : Fin k0_t1_loop.trips) (c0_i32_11 : BitVec 32) : Fin 2 → Nat :=
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v58 : Index := Scalar.indexCast v11
  let c240 : Index := 240#32
  ![v58.toNat, 240]
@[reducible] def k0_t2_loop : Scf.Loop 32 :=
  let c0_i32_13 : BitVec 32 := 0#32
  let c128_i32 : BitVec 32 := 128#32
  let v61 : BitVec 32 := Scalar.addi c0_i32_13 c128_i32
  let c1_i32_14 : BitVec 32 := 1#32
  ⟨c0_i32_13, v61, c1_i32_14⟩
def k0_off18 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v183 : Index := Scalar.indexCast arg12
  let c0_121 : Index := 0#32
  ![v183.toNat, 0]
def k0_off19 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v187 : Index := Scalar.indexCast arg12
  let c16_122 : Index := 16#32
  ![v187.toNat, 16]
def k0_off20 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v191 : Index := Scalar.indexCast arg12
  let c32_123 : Index := 32#32
  ![v191.toNat, 32]
def k0_off21 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v195 : Index := Scalar.indexCast arg12
  let c48_124 : Index := 48#32
  ![v195.toNat, 48]
def k0_off22 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v199 : Index := Scalar.indexCast arg12
  let c64_125 : Index := 64#32
  ![v199.toNat, 64]
def k0_off23 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v203 : Index := Scalar.indexCast arg12
  let c80_126 : Index := 80#32
  ![v203.toNat, 80]
def k0_off24 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v207 : Index := Scalar.indexCast arg12
  let c96_127 : Index := 96#32
  ![v207.toNat, 96]
def k0_off25 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v211 : Index := Scalar.indexCast arg12
  let c112_128 : Index := 112#32
  ![v211.toNat, 112]
def k0_off26 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v215 : Index := Scalar.indexCast arg12
  let c128_129 : Index := 128#32
  ![v215.toNat, 128]
def k0_off27 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v219 : Index := Scalar.indexCast arg12
  let c144_130 : Index := 144#32
  ![v219.toNat, 144]
def k0_off28 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v223 : Index := Scalar.indexCast arg12
  let c160_131 : Index := 160#32
  ![v223.toNat, 160]
def k0_off29 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v227 : Index := Scalar.indexCast arg12
  let c176_132 : Index := 176#32
  ![v227.toNat, 176]
def k0_off30 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v231 : Index := Scalar.indexCast arg12
  let c192_133 : Index := 192#32
  ![v231.toNat, 192]
def k0_off31 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v235 : Index := Scalar.indexCast arg12
  let c208_134 : Index := 208#32
  ![v235.toNat, 208]
def k0_off32 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v239 : Index := Scalar.indexCast arg12
  let c224_135 : Index := 224#32
  ![v239.toNat, 224]
def k0_off33 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let v243 : Index := Scalar.indexCast arg12
  let c240_136 : Index := 240#32
  ![v243.toNat, 240]
def k0_off34 (i : grid0.Coords) (k0_t1 : Fin k0_t1_loop.trips) (c0_i32_11 : BitVec 32) : Fin 4 → Nat :=
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v12 : BitVec 32 := Scalar.addi v2 v11
  let c0_i32_17 : BitVec 32 := 0#32
  let c0_i32_18 : BitVec 32 := 0#32
  ![0, v12.toNat, 0, 0]
def k0_off35 (i : grid0.Coords) (k0_t1 : Fin k0_t1_loop.trips) (c0_i32_11 : BitVec 32) : Fin 4 → Nat :=
  let c0_i32_21 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v12 : BitVec 32 := Scalar.addi v2 v11
  let c128_i32_22 : BitVec 32 := 128#32
  let c0_i32_23 : BitVec 32 := 0#32
  ![0, v12.toNat, 128, 0]
def k0_off36 (i : grid0.Coords) (k0_t1 : Fin k0_t1_loop.trips) (c0_i32_11 : BitVec 32) : Fin 4 → Nat :=
  let c1_i32_26 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v12 : BitVec 32 := Scalar.addi v2 v11
  let c0_i32_27 : BitVec 32 := 0#32
  let c0_i32_28 : BitVec 32 := 0#32
  ![1, v12.toNat, 0, 0]
def k0_off37 (i : grid0.Coords) (k0_t1 : Fin k0_t1_loop.trips) (c0_i32_11 : BitVec 32) : Fin 4 → Nat :=
  let c1_i32_31 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v12 : BitVec 32 := Scalar.addi v2 v11
  let c128_i32_32 : BitVec 32 := 128#32
  let c0_i32_33 : BitVec 32 := 0#32
  ![1, v12.toNat, 128, 0]
def k0_off38 (i : grid0.Coords) (k0_t1 : Fin k0_t1_loop.trips) (c0_i32_11 : BitVec 32) : Fin 4 → Nat :=
  let c2_i32_36 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v12 : BitVec 32 := Scalar.addi v2 v11
  let c0_i32_37 : BitVec 32 := 0#32
  let c0_i32_38 : BitVec 32 := 0#32
  ![2, v12.toNat, 0, 0]
def k0_off39 (i : grid0.Coords) (k0_t1 : Fin k0_t1_loop.trips) (c0_i32_11 : BitVec 32) : Fin 4 → Nat :=
  let c2_i32_41 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v12 : BitVec 32 := Scalar.addi v2 v11
  let c128_i32_42 : BitVec 32 := 128#32
  let c0_i32_43 : BitVec 32 := 0#32
  ![2, v12.toNat, 128, 0]
def k0_off40 (i : grid0.Coords) (k0_t1 : Fin k0_t1_loop.trips) (c0_i32_11 : BitVec 32) : Fin 4 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v12 : BitVec 32 := Scalar.addi v2 v11
  let c0_i32_46 : BitVec 32 := 0#32
  let c0_i32_47 : BitVec 32 := 0#32
  ![3, v12.toNat, 0, 0]
def k0_off41 (i : grid0.Coords) (k0_t1 : Fin k0_t1_loop.trips) (c0_i32_11 : BitVec 32) : Fin 4 → Nat :=
  let c3_i32_50 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c2_i32_10 : BitVec 32 := 2#32
  let c0_i32_0 : BitVec 32 := 0#32
  let c1_i32 : BitVec 32 := 1#32
  let arg10 : BitVec 32 := Scf.iv c0_i32_0 c1_i32 k0_t1
  let v10 : BitVec 32 := Scalar.muli c2_i32_10 arg10
  let v11 : BitVec 32 := Scalar.addi v10 c0_i32_11
  let v12 : BitVec 32 := Scalar.addi v2 v11
  let c128_i32_51 : BitVec 32 := 128#32
  let c0_i32_52 : BitVec 32 := 0#32
  ![3, v12.toNat, 128, 0]
@[reducible] def k0_t3_loop : Scf.Loop 32 :=
  let c0_i32_76 : BitVec 32 := 0#32
  let c128_i32_77 : BitVec 32 := 128#32
  let v149 : BitVec 32 := Scalar.addi c0_i32_76 c128_i32_77
  let c1_i32_78 : BitVec 32 := 1#32
  ⟨c0_i32_76, v149, c1_i32_78⟩
def k0_off42 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v183 : Index := Scalar.indexCast arg12
  let c0_121 : Index := 0#32
  ![v183.toNat, 0]
def k0_off43 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v187 : Index := Scalar.indexCast arg12
  let c16_122 : Index := 16#32
  ![v187.toNat, 16]
def k0_off44 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v191 : Index := Scalar.indexCast arg12
  let c32_123 : Index := 32#32
  ![v191.toNat, 32]
def k0_off45 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v195 : Index := Scalar.indexCast arg12
  let c48_124 : Index := 48#32
  ![v195.toNat, 48]
def k0_off46 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v199 : Index := Scalar.indexCast arg12
  let c64_125 : Index := 64#32
  ![v199.toNat, 64]
def k0_off47 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v203 : Index := Scalar.indexCast arg12
  let c80_126 : Index := 80#32
  ![v203.toNat, 80]
def k0_off48 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v207 : Index := Scalar.indexCast arg12
  let c96_127 : Index := 96#32
  ![v207.toNat, 96]
def k0_off49 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v211 : Index := Scalar.indexCast arg12
  let c112_128 : Index := 112#32
  ![v211.toNat, 112]
def k0_off50 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v215 : Index := Scalar.indexCast arg12
  let c128_129 : Index := 128#32
  ![v215.toNat, 128]
def k0_off51 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v219 : Index := Scalar.indexCast arg12
  let c144_130 : Index := 144#32
  ![v219.toNat, 144]
def k0_off52 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v223 : Index := Scalar.indexCast arg12
  let c160_131 : Index := 160#32
  ![v223.toNat, 160]
def k0_off53 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v227 : Index := Scalar.indexCast arg12
  let c176_132 : Index := 176#32
  ![v227.toNat, 176]
def k0_off54 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v231 : Index := Scalar.indexCast arg12
  let c192_133 : Index := 192#32
  ![v231.toNat, 192]
def k0_off55 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v235 : Index := Scalar.indexCast arg12
  let c208_134 : Index := 208#32
  ![v235.toNat, 208]
def k0_off56 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v239 : Index := Scalar.indexCast arg12
  let c224_135 : Index := 224#32
  ![v239.toNat, 224]
def k0_off57 (k0_t3 : Fin k0_t3_loop.trips) : Fin 2 → Nat :=
  let c0_i32_76 : BitVec 32 := 0#32
  let c1_i32_78 : BitVec 32 := 1#32
  let arg12 : BitVec 32 := Scf.iv c0_i32_76 c1_i32_78 k0_t3
  let v243 : Index := Scalar.indexCast arg12
  let c240_136 : Index := 240#32
  ![v243.toNat, 240]
@[reducible] def k0_t4_loop : Scf.Loop 32 :=
  let c0_i32_4 : BitVec 32 := 0#32
  let c4_i32_5 : BitVec 32 := 4#32
  let v5 : BitVec 32 := Scalar.addi c0_i32_4 c4_i32_5
  let c1_i32_6 : BitVec 32 := 1#32
  ⟨c0_i32_4, v5, c1_i32_6⟩
@[reducible] def k0_t5_loop : Scf.Loop 32 :=
  let c0_i32_30 : BitVec 32 := 0#32
  let c8_i32 : BitVec 32 := 8#32
  let v46 : BitVec 32 := Scalar.addi c0_i32_30 c8_i32
  let c1_i32_31 : BitVec 32 := 1#32
  ⟨c0_i32_30, v46, c1_i32_31⟩
def k0_off58 (k0_t4 : Fin k0_t4_loop.trips) (k0_t5 : Fin k0_t5_loop.trips) : Fin 2 → Nat :=
  let c4_i32_28 : BitVec 32 := 4#32
  let c2_i32_12 : BitVec 32 := 2#32
  let c0_i32_4 : BitVec 32 := 0#32
  let c1_i32_6 : BitVec 32 := 1#32
  let arg10 : BitVec 32 := Scf.iv c0_i32_4 c1_i32_6 k0_t4
  let v13 : BitVec 32 := Scalar.muli c2_i32_12 arg10
  let c0_i32_13 : BitVec 32 := 0#32
  let v14 : BitVec 32 := Scalar.addi v13 c0_i32_13
  let c0_i32_15 : BitVec 32 := 0#32
  let v16 : BitVec 1 := Scalar.cmpi .sgt v14 c0_i32_15
  let v17 : BitVec 32 := Scalar.extui v16
  let c0_i32_16 : BitVec 32 := 0#32
  let v18 : BitVec 1 := Scalar.cmpi .slt v14 c0_i32_16
  let v19 : BitVec 32 := Scalar.extui v18
  let v20 : BitVec 32 := Scalar.subi v17 v19
  let c2_i32_14 : BitVec 32 := 2#32
  let c0_i32_17 : BitVec 32 := 0#32
  let v21 : BitVec 1 := Scalar.cmpi .sgt c2_i32_14 c0_i32_17
  let v22 : BitVec 32 := Scalar.extui v21
  let c0_i32_18 : BitVec 32 := 0#32
  let v23 : BitVec 1 := Scalar.cmpi .slt c2_i32_14 c0_i32_18
  let v24 : BitVec 32 := Scalar.extui v23
  let v25 : BitVec 32 := Scalar.subi v22 v24
  let v26 : BitVec 1 := Scalar.cmpi .ne v20 v25
  let v27 : BitVec 32 := Scalar.remsi v14 c2_i32_14
  let c0_i32_19 : BitVec 32 := 0#32
  let v28 : BitVec 1 := Scalar.cmpi .ne v27 c0_i32_19
  let v29 : BitVec 1 := Scalar.andi v26 v28
  let v15 : BitVec 32 := Scalar.divsi v14 c2_i32_14
  let c1_i32_20 : BitVec 32 := 1#32
  let v30 : BitVec 32 := Scalar.subi v15 c1_i32_20
  let v31 : BitVec 32 := Scalar.select v29 v30 v15
  let v45 : BitVec 32 := Scalar.addi c4_i32_28 v31
  let v123 : Index := Scalar.indexCast v45
  let c2_i32_21 : BitVec 32 := 2#32
  let c0_i32_22 : BitVec 32 := 0#32
  let v34 : BitVec 1 := Scalar.cmpi .eq c2_i32_21 c0_i32_22
  let c1_i32_23 : BitVec 32 := 1#32
  let v35 : BitVec 32 := Scalar.select v34 c1_i32_23 c2_i32_21
  let v36 : BitVec 32 := Scalar.remsi v14 v35
  let c0_i32_25 : BitVec 32 := 0#32
  let v38 : BitVec 1 := Scalar.cmpi .slt v36 c0_i32_25
  let c0_i32_26 : BitVec 32 := 0#32
  let v39 : BitVec 1 := Scalar.cmpi .slt v35 c0_i32_26
  let v40 : BitVec 1 := Scalar.xori v38 v39
  let c0_i32_24 : BitVec 32 := 0#32
  let v37 : BitVec 1 := Scalar.cmpi .ne v36 c0_i32_24
  let v41 : BitVec 1 := Scalar.andi v40 v37
  let v42 : BitVec 32 := Scalar.addi v36 v35
  let v43 : BitVec 32 := Scalar.select v41 v42 v36
  let c128_i32_27 : BitVec 32 := 128#32
  let v44 : BitVec 32 := Scalar.muli v43 c128_i32_27
  let c0_i32_30 : BitVec 32 := 0#32
  let c1_i32_31 : BitVec 32 := 1#32
  let arg12 : BitVec 32 := Scf.iv c0_i32_30 c1_i32_31 k0_t5
  let c16_i32 : BitVec 32 := 16#32
  let v121 : BitVec 32 := Scalar.muli arg12 c16_i32
  let v122 : BitVec 32 := Scalar.addi v44 v121
  let v124 : Index := Scalar.indexCast v122
  ![v123.toNat, v124.toNat]
def k0_off59 (k0_t5 : Fin k0_t5_loop.trips) (c0_i32_85 : BitVec 32) : Fin 2 → Nat :=
  let c0_i32_30 : BitVec 32 := 0#32
  let c1_i32_31 : BitVec 32 := 1#32
  let arg12 : BitVec 32 := Scf.iv c0_i32_30 c1_i32_31 k0_t5
  let c16_i32_84 : BitVec 32 := 16#32
  let v130 : BitVec 32 := Scalar.muli arg12 c16_i32_84
  let v131 : BitVec 32 := Scalar.addi v130 c0_i32_85
  let v132 : Index := Scalar.indexCast v131
  let c0 : Index := 0#32
  ![v132.toNat, 0]
def k0_off60 (k0_t5 : Fin k0_t5_loop.trips) (c0_i32_87 : BitVec 32) : Fin 2 → Nat :=
  let c0_i32_30 : BitVec 32 := 0#32
  let c1_i32_31 : BitVec 32 := 1#32
  let arg12 : BitVec 32 := Scf.iv c0_i32_30 c1_i32_31 k0_t5
  let c16_i32_86 : BitVec 32 := 16#32
  let v136 : BitVec 32 := Scalar.muli arg12 c16_i32_86
  let v137 : BitVec 32 := Scalar.addi v136 c0_i32_87
  let v138 : Index := Scalar.indexCast v137
  let c16 : Index := 16#32
  ![v138.toNat, 16]
def k0_off61 (k0_t5 : Fin k0_t5_loop.trips) (c0_i32_89 : BitVec 32) : Fin 2 → Nat :=
  let c0_i32_30 : BitVec 32 := 0#32
  let c1_i32_31 : BitVec 32 := 1#32
  let arg12 : BitVec 32 := Scf.iv c0_i32_30 c1_i32_31 k0_t5
  let c16_i32_88 : BitVec 32 := 16#32
  let v142 : BitVec 32 := Scalar.muli arg12 c16_i32_88
  let v143 : BitVec 32 := Scalar.addi v142 c0_i32_89
  let v144 : Index := Scalar.indexCast v143
  let c32 : Index := 32#32
  ![v144.toNat, 32]
def k0_off62 (k0_t5 : Fin k0_t5_loop.trips) (c0_i32_91 : BitVec 32) : Fin 2 → Nat :=
  let c0_i32_30 : BitVec 32 := 0#32
  let c1_i32_31 : BitVec 32 := 1#32
  let arg12 : BitVec 32 := Scf.iv c0_i32_30 c1_i32_31 k0_t5
  let c16_i32_90 : BitVec 32 := 16#32
  let v148 : BitVec 32 := Scalar.muli arg12 c16_i32_90
  let v149 : BitVec 32 := Scalar.addi v148 c0_i32_91
  let v150 : Index := Scalar.indexCast v149
  let c48 : Index := 48#32
  ![v150.toNat, 48]
def k0_off63 (k0_t5 : Fin k0_t5_loop.trips) (c0_i32_93 : BitVec 32) : Fin 2 → Nat :=
  let c0_i32_30 : BitVec 32 := 0#32
  let c1_i32_31 : BitVec 32 := 1#32
  let arg12 : BitVec 32 := Scf.iv c0_i32_30 c1_i32_31 k0_t5
  let c16_i32_92 : BitVec 32 := 16#32
  let v154 : BitVec 32 := Scalar.muli arg12 c16_i32_92
  let v155 : BitVec 32 := Scalar.addi v154 c0_i32_93
  let v156 : Index := Scalar.indexCast v155
  let c64 : Index := 64#32
  ![v156.toNat, 64]
def k0_off64 (k0_t5 : Fin k0_t5_loop.trips) (c0_i32_95 : BitVec 32) : Fin 2 → Nat :=
  let c0_i32_30 : BitVec 32 := 0#32
  let c1_i32_31 : BitVec 32 := 1#32
  let arg12 : BitVec 32 := Scf.iv c0_i32_30 c1_i32_31 k0_t5
  let c16_i32_94 : BitVec 32 := 16#32
  let v160 : BitVec 32 := Scalar.muli arg12 c16_i32_94
  let v161 : BitVec 32 := Scalar.addi v160 c0_i32_95
  let v162 : Index := Scalar.indexCast v161
  let c80 : Index := 80#32
  ![v162.toNat, 80]
def k0_off65 (k0_t5 : Fin k0_t5_loop.trips) (c0_i32_97 : BitVec 32) : Fin 2 → Nat :=
  let c0_i32_30 : BitVec 32 := 0#32
  let c1_i32_31 : BitVec 32 := 1#32
  let arg12 : BitVec 32 := Scf.iv c0_i32_30 c1_i32_31 k0_t5
  let c16_i32_96 : BitVec 32 := 16#32
  let v166 : BitVec 32 := Scalar.muli arg12 c16_i32_96
  let v167 : BitVec 32 := Scalar.addi v166 c0_i32_97
  let v168 : Index := Scalar.indexCast v167
  let c96 : Index := 96#32
  ![v168.toNat, 96]
def k0_off66 (k0_t5 : Fin k0_t5_loop.trips) (c0_i32_99 : BitVec 32) : Fin 2 → Nat :=
  let c0_i32_30 : BitVec 32 := 0#32
  let c1_i32_31 : BitVec 32 := 1#32
  let arg12 : BitVec 32 := Scf.iv c0_i32_30 c1_i32_31 k0_t5
  let c16_i32_98 : BitVec 32 := 16#32
  let v172 : BitVec 32 := Scalar.muli arg12 c16_i32_98
  let v173 : BitVec 32 := Scalar.addi v172 c0_i32_99
  let v174 : Index := Scalar.indexCast v173
  let c112 : Index := 112#32
  ![v174.toNat, 112]
def k0_off67 (k0_t5 : Fin k0_t5_loop.trips) (c0_i32_101 : BitVec 32) : Fin 2 → Nat :=
  let c0_i32_30 : BitVec 32 := 0#32
  let c1_i32_31 : BitVec 32 := 1#32
  let arg12 : BitVec 32 := Scf.iv c0_i32_30 c1_i32_31 k0_t5
  let c16_i32_100 : BitVec 32 := 16#32
  let v178 : BitVec 32 := Scalar.muli arg12 c16_i32_100
  let v179 : BitVec 32 := Scalar.addi v178 c0_i32_101
  let v180 : Index := Scalar.indexCast v179
  let c128 : Index := 128#32
  ![v180.toNat, 128]
def k0_off68 (k0_t5 : Fin k0_t5_loop.trips) (c0_i32_103 : BitVec 32) : Fin 2 → Nat :=
  let c0_i32_30 : BitVec 32 := 0#32
  let c1_i32_31 : BitVec 32 := 1#32
  let arg12 : BitVec 32 := Scf.iv c0_i32_30 c1_i32_31 k0_t5
  let c16_i32_102 : BitVec 32 := 16#32
  let v184 : BitVec 32 := Scalar.muli arg12 c16_i32_102
  let v185 : BitVec 32 := Scalar.addi v184 c0_i32_103
  let v186 : Index := Scalar.indexCast v185
  let c144 : Index := 144#32
  ![v186.toNat, 144]
def k0_off69 (k0_t5 : Fin k0_t5_loop.trips) (c0_i32_105 : BitVec 32) : Fin 2 → Nat :=
  let c0_i32_30 : BitVec 32 := 0#32
  let c1_i32_31 : BitVec 32 := 1#32
  let arg12 : BitVec 32 := Scf.iv c0_i32_30 c1_i32_31 k0_t5
  let c16_i32_104 : BitVec 32 := 16#32
  let v190 : BitVec 32 := Scalar.muli arg12 c16_i32_104
  let v191 : BitVec 32 := Scalar.addi v190 c0_i32_105
  let v192 : Index := Scalar.indexCast v191
  let c160 : Index := 160#32
  ![v192.toNat, 160]
def k0_off70 (k0_t5 : Fin k0_t5_loop.trips) (c0_i32_107 : BitVec 32) : Fin 2 → Nat :=
  let c0_i32_30 : BitVec 32 := 0#32
  let c1_i32_31 : BitVec 32 := 1#32
  let arg12 : BitVec 32 := Scf.iv c0_i32_30 c1_i32_31 k0_t5
  let c16_i32_106 : BitVec 32 := 16#32
  let v196 : BitVec 32 := Scalar.muli arg12 c16_i32_106
  let v197 : BitVec 32 := Scalar.addi v196 c0_i32_107
  let v198 : Index := Scalar.indexCast v197
  let c176 : Index := 176#32
  ![v198.toNat, 176]
def k0_off71 (k0_t5 : Fin k0_t5_loop.trips) (c0_i32_109 : BitVec 32) : Fin 2 → Nat :=
  let c0_i32_30 : BitVec 32 := 0#32
  let c1_i32_31 : BitVec 32 := 1#32
  let arg12 : BitVec 32 := Scf.iv c0_i32_30 c1_i32_31 k0_t5
  let c16_i32_108 : BitVec 32 := 16#32
  let v202 : BitVec 32 := Scalar.muli arg12 c16_i32_108
  let v203 : BitVec 32 := Scalar.addi v202 c0_i32_109
  let v204 : Index := Scalar.indexCast v203
  let c192 : Index := 192#32
  ![v204.toNat, 192]
def k0_off72 (k0_t5 : Fin k0_t5_loop.trips) (c0_i32_111 : BitVec 32) : Fin 2 → Nat :=
  let c0_i32_30 : BitVec 32 := 0#32
  let c1_i32_31 : BitVec 32 := 1#32
  let arg12 : BitVec 32 := Scf.iv c0_i32_30 c1_i32_31 k0_t5
  let c16_i32_110 : BitVec 32 := 16#32
  let v208 : BitVec 32 := Scalar.muli arg12 c16_i32_110
  let v209 : BitVec 32 := Scalar.addi v208 c0_i32_111
  let v210 : Index := Scalar.indexCast v209
  let c208 : Index := 208#32
  ![v210.toNat, 208]
def k0_off73 (k0_t5 : Fin k0_t5_loop.trips) (c0_i32_113 : BitVec 32) : Fin 2 → Nat :=
  let c0_i32_30 : BitVec 32 := 0#32
  let c1_i32_31 : BitVec 32 := 1#32
  let arg12 : BitVec 32 := Scf.iv c0_i32_30 c1_i32_31 k0_t5
  let c16_i32_112 : BitVec 32 := 16#32
  let v214 : BitVec 32 := Scalar.muli arg12 c16_i32_112
  let v215 : BitVec 32 := Scalar.addi v214 c0_i32_113
  let v216 : Index := Scalar.indexCast v215
  let c224 : Index := 224#32
  ![v216.toNat, 224]
def k0_off74 (k0_t5 : Fin k0_t5_loop.trips) (c0_i32_115 : BitVec 32) : Fin 2 → Nat :=
  let c0_i32_30 : BitVec 32 := 0#32
  let c1_i32_31 : BitVec 32 := 1#32
  let arg12 : BitVec 32 := Scf.iv c0_i32_30 c1_i32_31 k0_t5
  let c16_i32_114 : BitVec 32 := 16#32
  let v220 : BitVec 32 := Scalar.muli arg12 c16_i32_114
  let v221 : BitVec 32 := Scalar.addi v220 c0_i32_115
  let v222 : Index := Scalar.indexCast v221
  let c240 : Index := 240#32
  ![v222.toNat, 240]
def k0_off75 (i : grid0.Coords) (k0_t4 : Fin k0_t4_loop.trips) (c0_i32_13 : BitVec 32) : Fin 4 → Nat :=
  let c0_i32_33 : BitVec 32 := 0#32
  let c128_i32 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v32 : BitVec 32 := Scalar.addi c128_i32 v2
  let c2_i32_12 : BitVec 32 := 2#32
  let c0_i32_4 : BitVec 32 := 0#32
  let c1_i32_6 : BitVec 32 := 1#32
  let arg10 : BitVec 32 := Scf.iv c0_i32_4 c1_i32_6 k0_t4
  let v13 : BitVec 32 := Scalar.muli c2_i32_12 arg10
  let v14 : BitVec 32 := Scalar.addi v13 c0_i32_13
  let c0_i32_15 : BitVec 32 := 0#32
  let v16 : BitVec 1 := Scalar.cmpi .sgt v14 c0_i32_15
  let v17 : BitVec 32 := Scalar.extui v16
  let c0_i32_16 : BitVec 32 := 0#32
  let v18 : BitVec 1 := Scalar.cmpi .slt v14 c0_i32_16
  let v19 : BitVec 32 := Scalar.extui v18
  let v20 : BitVec 32 := Scalar.subi v17 v19
  let c2_i32_14 : BitVec 32 := 2#32
  let c0_i32_17 : BitVec 32 := 0#32
  let v21 : BitVec 1 := Scalar.cmpi .sgt c2_i32_14 c0_i32_17
  let v22 : BitVec 32 := Scalar.extui v21
  let c0_i32_18 : BitVec 32 := 0#32
  let v23 : BitVec 1 := Scalar.cmpi .slt c2_i32_14 c0_i32_18
  let v24 : BitVec 32 := Scalar.extui v23
  let v25 : BitVec 32 := Scalar.subi v22 v24
  let v26 : BitVec 1 := Scalar.cmpi .ne v20 v25
  let v27 : BitVec 32 := Scalar.remsi v14 c2_i32_14
  let c0_i32_19 : BitVec 32 := 0#32
  let v28 : BitVec 1 := Scalar.cmpi .ne v27 c0_i32_19
  let v29 : BitVec 1 := Scalar.andi v26 v28
  let v15 : BitVec 32 := Scalar.divsi v14 c2_i32_14
  let c1_i32_20 : BitVec 32 := 1#32
  let v30 : BitVec 32 := Scalar.subi v15 c1_i32_20
  let v31 : BitVec 32 := Scalar.select v29 v30 v15
  let v33 : BitVec 32 := Scalar.addi v32 v31
  let c2_i32_21 : BitVec 32 := 2#32
  let c0_i32_22 : BitVec 32 := 0#32
  let v34 : BitVec 1 := Scalar.cmpi .eq c2_i32_21 c0_i32_22
  let c1_i32_23 : BitVec 32 := 1#32
  let v35 : BitVec 32 := Scalar.select v34 c1_i32_23 c2_i32_21
  let v36 : BitVec 32 := Scalar.remsi v14 v35
  let c0_i32_25 : BitVec 32 := 0#32
  let v38 : BitVec 1 := Scalar.cmpi .slt v36 c0_i32_25
  let c0_i32_26 : BitVec 32 := 0#32
  let v39 : BitVec 1 := Scalar.cmpi .slt v35 c0_i32_26
  let v40 : BitVec 1 := Scalar.xori v38 v39
  let c0_i32_24 : BitVec 32 := 0#32
  let v37 : BitVec 1 := Scalar.cmpi .ne v36 c0_i32_24
  let v41 : BitVec 1 := Scalar.andi v40 v37
  let v42 : BitVec 32 := Scalar.addi v36 v35
  let v43 : BitVec 32 := Scalar.select v41 v42 v36
  let c128_i32_27 : BitVec 32 := 128#32
  let v44 : BitVec 32 := Scalar.muli v43 c128_i32_27
  let c0_i32_34 : BitVec 32 := 0#32
  ![0, v33.toNat, v44.toNat, 0]
def k0_off76 (i : grid0.Coords) (k0_t4 : Fin k0_t4_loop.trips) (c0_i32_13 : BitVec 32) : Fin 4 → Nat :=
  let c1_i32_36 : BitVec 32 := 1#32
  let c128_i32 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v32 : BitVec 32 := Scalar.addi c128_i32 v2
  let c2_i32_12 : BitVec 32 := 2#32
  let c0_i32_4 : BitVec 32 := 0#32
  let c1_i32_6 : BitVec 32 := 1#32
  let arg10 : BitVec 32 := Scf.iv c0_i32_4 c1_i32_6 k0_t4
  let v13 : BitVec 32 := Scalar.muli c2_i32_12 arg10
  let v14 : BitVec 32 := Scalar.addi v13 c0_i32_13
  let c0_i32_15 : BitVec 32 := 0#32
  let v16 : BitVec 1 := Scalar.cmpi .sgt v14 c0_i32_15
  let v17 : BitVec 32 := Scalar.extui v16
  let c0_i32_16 : BitVec 32 := 0#32
  let v18 : BitVec 1 := Scalar.cmpi .slt v14 c0_i32_16
  let v19 : BitVec 32 := Scalar.extui v18
  let v20 : BitVec 32 := Scalar.subi v17 v19
  let c2_i32_14 : BitVec 32 := 2#32
  let c0_i32_17 : BitVec 32 := 0#32
  let v21 : BitVec 1 := Scalar.cmpi .sgt c2_i32_14 c0_i32_17
  let v22 : BitVec 32 := Scalar.extui v21
  let c0_i32_18 : BitVec 32 := 0#32
  let v23 : BitVec 1 := Scalar.cmpi .slt c2_i32_14 c0_i32_18
  let v24 : BitVec 32 := Scalar.extui v23
  let v25 : BitVec 32 := Scalar.subi v22 v24
  let v26 : BitVec 1 := Scalar.cmpi .ne v20 v25
  let v27 : BitVec 32 := Scalar.remsi v14 c2_i32_14
  let c0_i32_19 : BitVec 32 := 0#32
  let v28 : BitVec 1 := Scalar.cmpi .ne v27 c0_i32_19
  let v29 : BitVec 1 := Scalar.andi v26 v28
  let v15 : BitVec 32 := Scalar.divsi v14 c2_i32_14
  let c1_i32_20 : BitVec 32 := 1#32
  let v30 : BitVec 32 := Scalar.subi v15 c1_i32_20
  let v31 : BitVec 32 := Scalar.select v29 v30 v15
  let v33 : BitVec 32 := Scalar.addi v32 v31
  let c2_i32_21 : BitVec 32 := 2#32
  let c0_i32_22 : BitVec 32 := 0#32
  let v34 : BitVec 1 := Scalar.cmpi .eq c2_i32_21 c0_i32_22
  let c1_i32_23 : BitVec 32 := 1#32
  let v35 : BitVec 32 := Scalar.select v34 c1_i32_23 c2_i32_21
  let v36 : BitVec 32 := Scalar.remsi v14 v35
  let c0_i32_25 : BitVec 32 := 0#32
  let v38 : BitVec 1 := Scalar.cmpi .slt v36 c0_i32_25
  let c0_i32_26 : BitVec 32 := 0#32
  let v39 : BitVec 1 := Scalar.cmpi .slt v35 c0_i32_26
  let v40 : BitVec 1 := Scalar.xori v38 v39
  let c0_i32_24 : BitVec 32 := 0#32
  let v37 : BitVec 1 := Scalar.cmpi .ne v36 c0_i32_24
  let v41 : BitVec 1 := Scalar.andi v40 v37
  let v42 : BitVec 32 := Scalar.addi v36 v35
  let v43 : BitVec 32 := Scalar.select v41 v42 v36
  let c128_i32_27 : BitVec 32 := 128#32
  let v44 : BitVec 32 := Scalar.muli v43 c128_i32_27
  let c0_i32_37 : BitVec 32 := 0#32
  ![1, v33.toNat, v44.toNat, 0]
def k0_off77 (i : grid0.Coords) (k0_t4 : Fin k0_t4_loop.trips) (c0_i32_13 : BitVec 32) : Fin 4 → Nat :=
  let c2_i32_39 : BitVec 32 := 2#32
  let c128_i32 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v32 : BitVec 32 := Scalar.addi c128_i32 v2
  let c2_i32_12 : BitVec 32 := 2#32
  let c0_i32_4 : BitVec 32 := 0#32
  let c1_i32_6 : BitVec 32 := 1#32
  let arg10 : BitVec 32 := Scf.iv c0_i32_4 c1_i32_6 k0_t4
  let v13 : BitVec 32 := Scalar.muli c2_i32_12 arg10
  let v14 : BitVec 32 := Scalar.addi v13 c0_i32_13
  let c0_i32_15 : BitVec 32 := 0#32
  let v16 : BitVec 1 := Scalar.cmpi .sgt v14 c0_i32_15
  let v17 : BitVec 32 := Scalar.extui v16
  let c0_i32_16 : BitVec 32 := 0#32
  let v18 : BitVec 1 := Scalar.cmpi .slt v14 c0_i32_16
  let v19 : BitVec 32 := Scalar.extui v18
  let v20 : BitVec 32 := Scalar.subi v17 v19
  let c2_i32_14 : BitVec 32 := 2#32
  let c0_i32_17 : BitVec 32 := 0#32
  let v21 : BitVec 1 := Scalar.cmpi .sgt c2_i32_14 c0_i32_17
  let v22 : BitVec 32 := Scalar.extui v21
  let c0_i32_18 : BitVec 32 := 0#32
  let v23 : BitVec 1 := Scalar.cmpi .slt c2_i32_14 c0_i32_18
  let v24 : BitVec 32 := Scalar.extui v23
  let v25 : BitVec 32 := Scalar.subi v22 v24
  let v26 : BitVec 1 := Scalar.cmpi .ne v20 v25
  let v27 : BitVec 32 := Scalar.remsi v14 c2_i32_14
  let c0_i32_19 : BitVec 32 := 0#32
  let v28 : BitVec 1 := Scalar.cmpi .ne v27 c0_i32_19
  let v29 : BitVec 1 := Scalar.andi v26 v28
  let v15 : BitVec 32 := Scalar.divsi v14 c2_i32_14
  let c1_i32_20 : BitVec 32 := 1#32
  let v30 : BitVec 32 := Scalar.subi v15 c1_i32_20
  let v31 : BitVec 32 := Scalar.select v29 v30 v15
  let v33 : BitVec 32 := Scalar.addi v32 v31
  let c2_i32_21 : BitVec 32 := 2#32
  let c0_i32_22 : BitVec 32 := 0#32
  let v34 : BitVec 1 := Scalar.cmpi .eq c2_i32_21 c0_i32_22
  let c1_i32_23 : BitVec 32 := 1#32
  let v35 : BitVec 32 := Scalar.select v34 c1_i32_23 c2_i32_21
  let v36 : BitVec 32 := Scalar.remsi v14 v35
  let c0_i32_25 : BitVec 32 := 0#32
  let v38 : BitVec 1 := Scalar.cmpi .slt v36 c0_i32_25
  let c0_i32_26 : BitVec 32 := 0#32
  let v39 : BitVec 1 := Scalar.cmpi .slt v35 c0_i32_26
  let v40 : BitVec 1 := Scalar.xori v38 v39
  let c0_i32_24 : BitVec 32 := 0#32
  let v37 : BitVec 1 := Scalar.cmpi .ne v36 c0_i32_24
  let v41 : BitVec 1 := Scalar.andi v40 v37
  let v42 : BitVec 32 := Scalar.addi v36 v35
  let v43 : BitVec 32 := Scalar.select v41 v42 v36
  let c128_i32_27 : BitVec 32 := 128#32
  let v44 : BitVec 32 := Scalar.muli v43 c128_i32_27
  let c0_i32_40 : BitVec 32 := 0#32
  ![2, v33.toNat, v44.toNat, 0]
def k0_off78 (i : grid0.Coords) (k0_t4 : Fin k0_t4_loop.trips) (c0_i32_13 : BitVec 32) : Fin 4 → Nat :=
  let c3_i32 : BitVec 32 := 3#32
  let c128_i32 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v32 : BitVec 32 := Scalar.addi c128_i32 v2
  let c2_i32_12 : BitVec 32 := 2#32
  let c0_i32_4 : BitVec 32 := 0#32
  let c1_i32_6 : BitVec 32 := 1#32
  let arg10 : BitVec 32 := Scf.iv c0_i32_4 c1_i32_6 k0_t4
  let v13 : BitVec 32 := Scalar.muli c2_i32_12 arg10
  let v14 : BitVec 32 := Scalar.addi v13 c0_i32_13
  let c0_i32_15 : BitVec 32 := 0#32
  let v16 : BitVec 1 := Scalar.cmpi .sgt v14 c0_i32_15
  let v17 : BitVec 32 := Scalar.extui v16
  let c0_i32_16 : BitVec 32 := 0#32
  let v18 : BitVec 1 := Scalar.cmpi .slt v14 c0_i32_16
  let v19 : BitVec 32 := Scalar.extui v18
  let v20 : BitVec 32 := Scalar.subi v17 v19
  let c2_i32_14 : BitVec 32 := 2#32
  let c0_i32_17 : BitVec 32 := 0#32
  let v21 : BitVec 1 := Scalar.cmpi .sgt c2_i32_14 c0_i32_17
  let v22 : BitVec 32 := Scalar.extui v21
  let c0_i32_18 : BitVec 32 := 0#32
  let v23 : BitVec 1 := Scalar.cmpi .slt c2_i32_14 c0_i32_18
  let v24 : BitVec 32 := Scalar.extui v23
  let v25 : BitVec 32 := Scalar.subi v22 v24
  let v26 : BitVec 1 := Scalar.cmpi .ne v20 v25
  let v27 : BitVec 32 := Scalar.remsi v14 c2_i32_14
  let c0_i32_19 : BitVec 32 := 0#32
  let v28 : BitVec 1 := Scalar.cmpi .ne v27 c0_i32_19
  let v29 : BitVec 1 := Scalar.andi v26 v28
  let v15 : BitVec 32 := Scalar.divsi v14 c2_i32_14
  let c1_i32_20 : BitVec 32 := 1#32
  let v30 : BitVec 32 := Scalar.subi v15 c1_i32_20
  let v31 : BitVec 32 := Scalar.select v29 v30 v15
  let v33 : BitVec 32 := Scalar.addi v32 v31
  let c2_i32_21 : BitVec 32 := 2#32
  let c0_i32_22 : BitVec 32 := 0#32
  let v34 : BitVec 1 := Scalar.cmpi .eq c2_i32_21 c0_i32_22
  let c1_i32_23 : BitVec 32 := 1#32
  let v35 : BitVec 32 := Scalar.select v34 c1_i32_23 c2_i32_21
  let v36 : BitVec 32 := Scalar.remsi v14 v35
  let c0_i32_25 : BitVec 32 := 0#32
  let v38 : BitVec 1 := Scalar.cmpi .slt v36 c0_i32_25
  let c0_i32_26 : BitVec 32 := 0#32
  let v39 : BitVec 1 := Scalar.cmpi .slt v35 c0_i32_26
  let v40 : BitVec 1 := Scalar.xori v38 v39
  let c0_i32_24 : BitVec 32 := 0#32
  let v37 : BitVec 1 := Scalar.cmpi .ne v36 c0_i32_24
  let v41 : BitVec 1 := Scalar.andi v40 v37
  let v42 : BitVec 32 := Scalar.addi v36 v35
  let v43 : BitVec 32 := Scalar.select v41 v42 v36
  let c128_i32_27 : BitVec 32 := 128#32
  let v44 : BitVec 32 := Scalar.muli v43 c128_i32_27
  let c0_i32_42 : BitVec 32 := 0#32
  ![3, v33.toNat, v44.toNat, 0]
@[reducible] def k0_t6_loop : Scf.Loop 32 :=
  let c0_i32_67 : BitVec 32 := 0#32
  let c8_i32_68 : BitVec 32 := 8#32
  let v103 : BitVec 32 := Scalar.addi c0_i32_67 c8_i32_68
  let c1_i32_69 : BitVec 32 := 1#32
  ⟨c0_i32_67, v103, c1_i32_69⟩
def k0_off79 (k0_t4 : Fin k0_t4_loop.trips) (k0_t6 : Fin k0_t6_loop.trips) : Fin 2 → Nat :=
  let c4_i32_65 : BitVec 32 := 4#32
  let c2_i32_48 : BitVec 32 := 2#32
  let c0_i32_4 : BitVec 32 := 0#32
  let c1_i32_6 : BitVec 32 := 1#32
  let arg10 : BitVec 32 := Scf.iv c0_i32_4 c1_i32_6 k0_t4
  let v70 : BitVec 32 := Scalar.muli c2_i32_48 arg10
  let c1_i32_49 : BitVec 32 := 1#32
  let v71 : BitVec 32 := Scalar.addi v70 c1_i32_49
  let c0_i32_51 : BitVec 32 := 0#32
  let v73 : BitVec 1 := Scalar.cmpi .sgt v71 c0_i32_51
  let v74 : BitVec 32 := Scalar.extui v73
  let c0_i32_52 : BitVec 32 := 0#32
  let v75 : BitVec 1 := Scalar.cmpi .slt v71 c0_i32_52
  let v76 : BitVec 32 := Scalar.extui v75
  let v77 : BitVec 32 := Scalar.subi v74 v76
  let c2_i32_50 : BitVec 32 := 2#32
  let c0_i32_53 : BitVec 32 := 0#32
  let v78 : BitVec 1 := Scalar.cmpi .sgt c2_i32_50 c0_i32_53
  let v79 : BitVec 32 := Scalar.extui v78
  let c0_i32_54 : BitVec 32 := 0#32
  let v80 : BitVec 1 := Scalar.cmpi .slt c2_i32_50 c0_i32_54
  let v81 : BitVec 32 := Scalar.extui v80
  let v82 : BitVec 32 := Scalar.subi v79 v81
  let v83 : BitVec 1 := Scalar.cmpi .ne v77 v82
  let v84 : BitVec 32 := Scalar.remsi v71 c2_i32_50
  let c0_i32_55 : BitVec 32 := 0#32
  let v85 : BitVec 1 := Scalar.cmpi .ne v84 c0_i32_55
  let v86 : BitVec 1 := Scalar.andi v83 v85
  let v72 : BitVec 32 := Scalar.divsi v71 c2_i32_50
  let c1_i32_56 : BitVec 32 := 1#32
  let v87 : BitVec 32 := Scalar.subi v72 c1_i32_56
  let v88 : BitVec 32 := Scalar.select v86 v87 v72
  let v102 : BitVec 32 := Scalar.addi c4_i32_65 v88
  let v123 : Index := Scalar.indexCast v102
  let c2_i32_58 : BitVec 32 := 2#32
  let c0_i32_59 : BitVec 32 := 0#32
  let v91 : BitVec 1 := Scalar.cmpi .eq c2_i32_58 c0_i32_59
  let c1_i32_60 : BitVec 32 := 1#32
  let v92 : BitVec 32 := Scalar.select v91 c1_i32_60 c2_i32_58
  let v93 : BitVec 32 := Scalar.remsi v71 v92
  let c0_i32_62 : BitVec 32 := 0#32
  let v95 : BitVec 1 := Scalar.cmpi .slt v93 c0_i32_62
  let c0_i32_63 : BitVec 32 := 0#32
  let v96 : BitVec 1 := Scalar.cmpi .slt v92 c0_i32_63
  let v97 : BitVec 1 := Scalar.xori v95 v96
  let c0_i32_61 : BitVec 32 := 0#32
  let v94 : BitVec 1 := Scalar.cmpi .ne v93 c0_i32_61
  let v98 : BitVec 1 := Scalar.andi v97 v94
  let v99 : BitVec 32 := Scalar.addi v93 v92
  let v100 : BitVec 32 := Scalar.select v98 v99 v93
  let c128_i32_64 : BitVec 32 := 128#32
  let v101 : BitVec 32 := Scalar.muli v100 c128_i32_64
  let c0_i32_67 : BitVec 32 := 0#32
  let c1_i32_69 : BitVec 32 := 1#32
  let arg12 : BitVec 32 := Scf.iv c0_i32_67 c1_i32_69 k0_t6
  let c16_i32 : BitVec 32 := 16#32
  let v121 : BitVec 32 := Scalar.muli arg12 c16_i32
  let v122 : BitVec 32 := Scalar.addi v101 v121
  let v124 : Index := Scalar.indexCast v122
  ![v123.toNat, v124.toNat]
def k0_off80 (k0_t6 : Fin k0_t6_loop.trips) (c0_i32_85 : BitVec 32) : Fin 2 → Nat :=
  let c0_i32_67 : BitVec 32 := 0#32
  let c1_i32_69 : BitVec 32 := 1#32
  let arg12 : BitVec 32 := Scf.iv c0_i32_67 c1_i32_69 k0_t6
  let c16_i32_84 : BitVec 32 := 16#32
  let v130 : BitVec 32 := Scalar.muli arg12 c16_i32_84
  let v131 : BitVec 32 := Scalar.addi v130 c0_i32_85
  let v132 : Index := Scalar.indexCast v131
  let c0 : Index := 0#32
  ![v132.toNat, 0]
def k0_off81 (k0_t6 : Fin k0_t6_loop.trips) (c0_i32_87 : BitVec 32) : Fin 2 → Nat :=
  let c0_i32_67 : BitVec 32 := 0#32
  let c1_i32_69 : BitVec 32 := 1#32
  let arg12 : BitVec 32 := Scf.iv c0_i32_67 c1_i32_69 k0_t6
  let c16_i32_86 : BitVec 32 := 16#32
  let v136 : BitVec 32 := Scalar.muli arg12 c16_i32_86
  let v137 : BitVec 32 := Scalar.addi v136 c0_i32_87
  let v138 : Index := Scalar.indexCast v137
  let c16 : Index := 16#32
  ![v138.toNat, 16]
def k0_off82 (k0_t6 : Fin k0_t6_loop.trips) (c0_i32_89 : BitVec 32) : Fin 2 → Nat :=
  let c0_i32_67 : BitVec 32 := 0#32
  let c1_i32_69 : BitVec 32 := 1#32
  let arg12 : BitVec 32 := Scf.iv c0_i32_67 c1_i32_69 k0_t6
  let c16_i32_88 : BitVec 32 := 16#32
  let v142 : BitVec 32 := Scalar.muli arg12 c16_i32_88
  let v143 : BitVec 32 := Scalar.addi v142 c0_i32_89
  let v144 : Index := Scalar.indexCast v143
  let c32 : Index := 32#32
  ![v144.toNat, 32]
def k0_off83 (k0_t6 : Fin k0_t6_loop.trips) (c0_i32_91 : BitVec 32) : Fin 2 → Nat :=
  let c0_i32_67 : BitVec 32 := 0#32
  let c1_i32_69 : BitVec 32 := 1#32
  let arg12 : BitVec 32 := Scf.iv c0_i32_67 c1_i32_69 k0_t6
  let c16_i32_90 : BitVec 32 := 16#32
  let v148 : BitVec 32 := Scalar.muli arg12 c16_i32_90
  let v149 : BitVec 32 := Scalar.addi v148 c0_i32_91
  let v150 : Index := Scalar.indexCast v149
  let c48 : Index := 48#32
  ![v150.toNat, 48]
def k0_off84 (k0_t6 : Fin k0_t6_loop.trips) (c0_i32_93 : BitVec 32) : Fin 2 → Nat :=
  let c0_i32_67 : BitVec 32 := 0#32
  let c1_i32_69 : BitVec 32 := 1#32
  let arg12 : BitVec 32 := Scf.iv c0_i32_67 c1_i32_69 k0_t6
  let c16_i32_92 : BitVec 32 := 16#32
  let v154 : BitVec 32 := Scalar.muli arg12 c16_i32_92
  let v155 : BitVec 32 := Scalar.addi v154 c0_i32_93
  let v156 : Index := Scalar.indexCast v155
  let c64 : Index := 64#32
  ![v156.toNat, 64]
def k0_off85 (k0_t6 : Fin k0_t6_loop.trips) (c0_i32_95 : BitVec 32) : Fin 2 → Nat :=
  let c0_i32_67 : BitVec 32 := 0#32
  let c1_i32_69 : BitVec 32 := 1#32
  let arg12 : BitVec 32 := Scf.iv c0_i32_67 c1_i32_69 k0_t6
  let c16_i32_94 : BitVec 32 := 16#32
  let v160 : BitVec 32 := Scalar.muli arg12 c16_i32_94
  let v161 : BitVec 32 := Scalar.addi v160 c0_i32_95
  let v162 : Index := Scalar.indexCast v161
  let c80 : Index := 80#32
  ![v162.toNat, 80]
def k0_off86 (k0_t6 : Fin k0_t6_loop.trips) (c0_i32_97 : BitVec 32) : Fin 2 → Nat :=
  let c0_i32_67 : BitVec 32 := 0#32
  let c1_i32_69 : BitVec 32 := 1#32
  let arg12 : BitVec 32 := Scf.iv c0_i32_67 c1_i32_69 k0_t6
  let c16_i32_96 : BitVec 32 := 16#32
  let v166 : BitVec 32 := Scalar.muli arg12 c16_i32_96
  let v167 : BitVec 32 := Scalar.addi v166 c0_i32_97
  let v168 : Index := Scalar.indexCast v167
  let c96 : Index := 96#32
  ![v168.toNat, 96]
def k0_off87 (k0_t6 : Fin k0_t6_loop.trips) (c0_i32_99 : BitVec 32) : Fin 2 → Nat :=
  let c0_i32_67 : BitVec 32 := 0#32
  let c1_i32_69 : BitVec 32 := 1#32
  let arg12 : BitVec 32 := Scf.iv c0_i32_67 c1_i32_69 k0_t6
  let c16_i32_98 : BitVec 32 := 16#32
  let v172 : BitVec 32 := Scalar.muli arg12 c16_i32_98
  let v173 : BitVec 32 := Scalar.addi v172 c0_i32_99
  let v174 : Index := Scalar.indexCast v173
  let c112 : Index := 112#32
  ![v174.toNat, 112]
def k0_off88 (k0_t6 : Fin k0_t6_loop.trips) (c0_i32_101 : BitVec 32) : Fin 2 → Nat :=
  let c0_i32_67 : BitVec 32 := 0#32
  let c1_i32_69 : BitVec 32 := 1#32
  let arg12 : BitVec 32 := Scf.iv c0_i32_67 c1_i32_69 k0_t6
  let c16_i32_100 : BitVec 32 := 16#32
  let v178 : BitVec 32 := Scalar.muli arg12 c16_i32_100
  let v179 : BitVec 32 := Scalar.addi v178 c0_i32_101
  let v180 : Index := Scalar.indexCast v179
  let c128 : Index := 128#32
  ![v180.toNat, 128]
def k0_off89 (k0_t6 : Fin k0_t6_loop.trips) (c0_i32_103 : BitVec 32) : Fin 2 → Nat :=
  let c0_i32_67 : BitVec 32 := 0#32
  let c1_i32_69 : BitVec 32 := 1#32
  let arg12 : BitVec 32 := Scf.iv c0_i32_67 c1_i32_69 k0_t6
  let c16_i32_102 : BitVec 32 := 16#32
  let v184 : BitVec 32 := Scalar.muli arg12 c16_i32_102
  let v185 : BitVec 32 := Scalar.addi v184 c0_i32_103
  let v186 : Index := Scalar.indexCast v185
  let c144 : Index := 144#32
  ![v186.toNat, 144]
def k0_off90 (k0_t6 : Fin k0_t6_loop.trips) (c0_i32_105 : BitVec 32) : Fin 2 → Nat :=
  let c0_i32_67 : BitVec 32 := 0#32
  let c1_i32_69 : BitVec 32 := 1#32
  let arg12 : BitVec 32 := Scf.iv c0_i32_67 c1_i32_69 k0_t6
  let c16_i32_104 : BitVec 32 := 16#32
  let v190 : BitVec 32 := Scalar.muli arg12 c16_i32_104
  let v191 : BitVec 32 := Scalar.addi v190 c0_i32_105
  let v192 : Index := Scalar.indexCast v191
  let c160 : Index := 160#32
  ![v192.toNat, 160]
def k0_off91 (k0_t6 : Fin k0_t6_loop.trips) (c0_i32_107 : BitVec 32) : Fin 2 → Nat :=
  let c0_i32_67 : BitVec 32 := 0#32
  let c1_i32_69 : BitVec 32 := 1#32
  let arg12 : BitVec 32 := Scf.iv c0_i32_67 c1_i32_69 k0_t6
  let c16_i32_106 : BitVec 32 := 16#32
  let v196 : BitVec 32 := Scalar.muli arg12 c16_i32_106
  let v197 : BitVec 32 := Scalar.addi v196 c0_i32_107
  let v198 : Index := Scalar.indexCast v197
  let c176 : Index := 176#32
  ![v198.toNat, 176]
def k0_off92 (k0_t6 : Fin k0_t6_loop.trips) (c0_i32_109 : BitVec 32) : Fin 2 → Nat :=
  let c0_i32_67 : BitVec 32 := 0#32
  let c1_i32_69 : BitVec 32 := 1#32
  let arg12 : BitVec 32 := Scf.iv c0_i32_67 c1_i32_69 k0_t6
  let c16_i32_108 : BitVec 32 := 16#32
  let v202 : BitVec 32 := Scalar.muli arg12 c16_i32_108
  let v203 : BitVec 32 := Scalar.addi v202 c0_i32_109
  let v204 : Index := Scalar.indexCast v203
  let c192 : Index := 192#32
  ![v204.toNat, 192]
def k0_off93 (k0_t6 : Fin k0_t6_loop.trips) (c0_i32_111 : BitVec 32) : Fin 2 → Nat :=
  let c0_i32_67 : BitVec 32 := 0#32
  let c1_i32_69 : BitVec 32 := 1#32
  let arg12 : BitVec 32 := Scf.iv c0_i32_67 c1_i32_69 k0_t6
  let c16_i32_110 : BitVec 32 := 16#32
  let v208 : BitVec 32 := Scalar.muli arg12 c16_i32_110
  let v209 : BitVec 32 := Scalar.addi v208 c0_i32_111
  let v210 : Index := Scalar.indexCast v209
  let c208 : Index := 208#32
  ![v210.toNat, 208]
def k0_off94 (k0_t6 : Fin k0_t6_loop.trips) (c0_i32_113 : BitVec 32) : Fin 2 → Nat :=
  let c0_i32_67 : BitVec 32 := 0#32
  let c1_i32_69 : BitVec 32 := 1#32
  let arg12 : BitVec 32 := Scf.iv c0_i32_67 c1_i32_69 k0_t6
  let c16_i32_112 : BitVec 32 := 16#32
  let v214 : BitVec 32 := Scalar.muli arg12 c16_i32_112
  let v215 : BitVec 32 := Scalar.addi v214 c0_i32_113
  let v216 : Index := Scalar.indexCast v215
  let c224 : Index := 224#32
  ![v216.toNat, 224]
def k0_off95 (k0_t6 : Fin k0_t6_loop.trips) (c0_i32_115 : BitVec 32) : Fin 2 → Nat :=
  let c0_i32_67 : BitVec 32 := 0#32
  let c1_i32_69 : BitVec 32 := 1#32
  let arg12 : BitVec 32 := Scf.iv c0_i32_67 c1_i32_69 k0_t6
  let c16_i32_114 : BitVec 32 := 16#32
  let v220 : BitVec 32 := Scalar.muli arg12 c16_i32_114
  let v221 : BitVec 32 := Scalar.addi v220 c0_i32_115
  let v222 : Index := Scalar.indexCast v221
  let c240 : Index := 240#32
  ![v222.toNat, 240]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S256x128_S128x256_1_0 : S256x128.Transposes [1, 0] S128x256
  inb_S8x256_S4x256_0_0 : ∀ a, (![0, 0] : Fin 2 → Nat) a + S4x256.size a ≤ S8x256.size a
  inb_S8x256_S4x256_4_0 : ∀ a, (![4, 0] : Fin 2 → Nat) a + S4x256.size a ≤ S8x256.size a
  h_S1x16 : 0 < S1x16.numel
  shapeCasts_S1x16_S16 : S1x16.ShapeCasts S16
  shapeCasts_S16_S1x16 : S16.ShapeCasts S1x16
  squeezes_S1x1x128x256_S128x256 : S1x1x128x256.Squeezes S128x256
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  hcc0_scratch3 : 0 + S_.numel ≤ 4
  hcc0_scratch4 : 1 + S_.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S4x256.size a ≤ S128x256.size a
  k0_t1_ok : k0_t1_loop.OK
  k0_off2_inb : ∀ k0_t1 : Fin k0_t1_loop.trips, ∀ (r : Fin 2), ∀ a, (k0_off2 k0_t1 (BitVec.ofNat 32 r.val)) a + S1x16.size a ≤ S8x256.size a
  k0_off3_inb : ∀ k0_t1 : Fin k0_t1_loop.trips, ∀ (r : Fin 2), ∀ a, (k0_off3 k0_t1 (BitVec.ofNat 32 r.val)) a + S1x16.size a ≤ S8x256.size a
  k0_off4_inb : ∀ k0_t1 : Fin k0_t1_loop.trips, ∀ (r : Fin 2), ∀ a, (k0_off4 k0_t1 (BitVec.ofNat 32 r.val)) a + S1x16.size a ≤ S8x256.size a
  k0_off5_inb : ∀ k0_t1 : Fin k0_t1_loop.trips, ∀ (r : Fin 2), ∀ a, (k0_off5 k0_t1 (BitVec.ofNat 32 r.val)) a + S1x16.size a ≤ S8x256.size a
  k0_off6_inb : ∀ k0_t1 : Fin k0_t1_loop.trips, ∀ (r : Fin 2), ∀ a, (k0_off6 k0_t1 (BitVec.ofNat 32 r.val)) a + S1x16.size a ≤ S8x256.size a
  k0_off7_inb : ∀ k0_t1 : Fin k0_t1_loop.trips, ∀ (r : Fin 2), ∀ a, (k0_off7 k0_t1 (BitVec.ofNat 32 r.val)) a + S1x16.size a ≤ S8x256.size a
  k0_off8_inb : ∀ k0_t1 : Fin k0_t1_loop.trips, ∀ (r : Fin 2), ∀ a, (k0_off8 k0_t1 (BitVec.ofNat 32 r.val)) a + S1x16.size a ≤ S8x256.size a
  k0_off9_inb : ∀ k0_t1 : Fin k0_t1_loop.trips, ∀ (r : Fin 2), ∀ a, (k0_off9 k0_t1 (BitVec.ofNat 32 r.val)) a + S1x16.size a ≤ S8x256.size a
  k0_off10_inb : ∀ k0_t1 : Fin k0_t1_loop.trips, ∀ (r : Fin 2), ∀ a, (k0_off10 k0_t1 (BitVec.ofNat 32 r.val)) a + S1x16.size a ≤ S8x256.size a
  k0_off11_inb : ∀ k0_t1 : Fin k0_t1_loop.trips, ∀ (r : Fin 2), ∀ a, (k0_off11 k0_t1 (BitVec.ofNat 32 r.val)) a + S1x16.size a ≤ S8x256.size a
  k0_off12_inb : ∀ k0_t1 : Fin k0_t1_loop.trips, ∀ (r : Fin 2), ∀ a, (k0_off12 k0_t1 (BitVec.ofNat 32 r.val)) a + S1x16.size a ≤ S8x256.size a
  k0_off13_inb : ∀ k0_t1 : Fin k0_t1_loop.trips, ∀ (r : Fin 2), ∀ a, (k0_off13 k0_t1 (BitVec.ofNat 32 r.val)) a + S1x16.size a ≤ S8x256.size a
  k0_off14_inb : ∀ k0_t1 : Fin k0_t1_loop.trips, ∀ (r : Fin 2), ∀ a, (k0_off14 k0_t1 (BitVec.ofNat 32 r.val)) a + S1x16.size a ≤ S8x256.size a
  k0_off15_inb : ∀ k0_t1 : Fin k0_t1_loop.trips, ∀ (r : Fin 2), ∀ a, (k0_off15 k0_t1 (BitVec.ofNat 32 r.val)) a + S1x16.size a ≤ S8x256.size a
  k0_off16_inb : ∀ k0_t1 : Fin k0_t1_loop.trips, ∀ (r : Fin 2), ∀ a, (k0_off16 k0_t1 (BitVec.ofNat 32 r.val)) a + S1x16.size a ≤ S8x256.size a
  k0_off17_inb : ∀ k0_t1 : Fin k0_t1_loop.trips, ∀ (r : Fin 2), ∀ a, (k0_off17 k0_t1 (BitVec.ofNat 32 r.val)) a + S1x16.size a ≤ S8x256.size a
  k0_t2_ok : k0_t2_loop.OK
  k0_off18_inb : ∀ k0_t2 : Fin k0_t2_loop.trips, ∀ a, (k0_off18 k0_t2) a + S1x16.size a ≤ S128x256.size a
  k0_off19_inb : ∀ k0_t2 : Fin k0_t2_loop.trips, ∀ a, (k0_off19 k0_t2) a + S1x16.size a ≤ S128x256.size a
  k0_off20_inb : ∀ k0_t2 : Fin k0_t2_loop.trips, ∀ a, (k0_off20 k0_t2) a + S1x16.size a ≤ S128x256.size a
  k0_off21_inb : ∀ k0_t2 : Fin k0_t2_loop.trips, ∀ a, (k0_off21 k0_t2) a + S1x16.size a ≤ S128x256.size a
  k0_off22_inb : ∀ k0_t2 : Fin k0_t2_loop.trips, ∀ a, (k0_off22 k0_t2) a + S1x16.size a ≤ S128x256.size a
  k0_off23_inb : ∀ k0_t2 : Fin k0_t2_loop.trips, ∀ a, (k0_off23 k0_t2) a + S1x16.size a ≤ S128x256.size a
  k0_off24_inb : ∀ k0_t2 : Fin k0_t2_loop.trips, ∀ a, (k0_off24 k0_t2) a + S1x16.size a ≤ S128x256.size a
  k0_off25_inb : ∀ k0_t2 : Fin k0_t2_loop.trips, ∀ a, (k0_off25 k0_t2) a + S1x16.size a ≤ S128x256.size a
  k0_off26_inb : ∀ k0_t2 : Fin k0_t2_loop.trips, ∀ a, (k0_off26 k0_t2) a + S1x16.size a ≤ S128x256.size a
  k0_off27_inb : ∀ k0_t2 : Fin k0_t2_loop.trips, ∀ a, (k0_off27 k0_t2) a + S1x16.size a ≤ S128x256.size a
  k0_off28_inb : ∀ k0_t2 : Fin k0_t2_loop.trips, ∀ a, (k0_off28 k0_t2) a + S1x16.size a ≤ S128x256.size a
  k0_off29_inb : ∀ k0_t2 : Fin k0_t2_loop.trips, ∀ a, (k0_off29 k0_t2) a + S1x16.size a ≤ S128x256.size a
  k0_off30_inb : ∀ k0_t2 : Fin k0_t2_loop.trips, ∀ a, (k0_off30 k0_t2) a + S1x16.size a ≤ S128x256.size a
  k0_off31_inb : ∀ k0_t2 : Fin k0_t2_loop.trips, ∀ a, (k0_off31 k0_t2) a + S1x16.size a ≤ S128x256.size a
  k0_off32_inb : ∀ k0_t2 : Fin k0_t2_loop.trips, ∀ a, (k0_off32 k0_t2) a + S1x16.size a ≤ S128x256.size a
  k0_off33_inb : ∀ k0_t2 : Fin k0_t2_loop.trips, ∀ a, (k0_off33 k0_t2) a + S1x16.size a ≤ S128x256.size a
  k0_off34_inb : ∀ (i : grid0.Coords) (k0_t1 : Fin k0_t1_loop.trips), ∀ (r : Fin 2), ∀ a, (k0_off34 i k0_t1 (BitVec.ofNat 32 r.val)) a + S1x1x128x256.size a ≤ S4x256x256x256.size a
  k0_off35_inb : ∀ (i : grid0.Coords) (k0_t1 : Fin k0_t1_loop.trips), ∀ (r : Fin 2), ∀ a, (k0_off35 i k0_t1 (BitVec.ofNat 32 r.val)) a + S1x1x128x256.size a ≤ S4x256x256x256.size a
  k0_off36_inb : ∀ (i : grid0.Coords) (k0_t1 : Fin k0_t1_loop.trips), ∀ (r : Fin 2), ∀ a, (k0_off36 i k0_t1 (BitVec.ofNat 32 r.val)) a + S1x1x128x256.size a ≤ S4x256x256x256.size a
  k0_off37_inb : ∀ (i : grid0.Coords) (k0_t1 : Fin k0_t1_loop.trips), ∀ (r : Fin 2), ∀ a, (k0_off37 i k0_t1 (BitVec.ofNat 32 r.val)) a + S1x1x128x256.size a ≤ S4x256x256x256.size a
  k0_off38_inb : ∀ (i : grid0.Coords) (k0_t1 : Fin k0_t1_loop.trips), ∀ (r : Fin 2), ∀ a, (k0_off38 i k0_t1 (BitVec.ofNat 32 r.val)) a + S1x1x128x256.size a ≤ S4x256x256x256.size a
  k0_off39_inb : ∀ (i : grid0.Coords) (k0_t1 : Fin k0_t1_loop.trips), ∀ (r : Fin 2), ∀ a, (k0_off39 i k0_t1 (BitVec.ofNat 32 r.val)) a + S1x1x128x256.size a ≤ S4x256x256x256.size a
  k0_off40_inb : ∀ (i : grid0.Coords) (k0_t1 : Fin k0_t1_loop.trips), ∀ (r : Fin 2), ∀ a, (k0_off40 i k0_t1 (BitVec.ofNat 32 r.val)) a + S1x1x128x256.size a ≤ S4x256x256x256.size a
  k0_off41_inb : ∀ (i : grid0.Coords) (k0_t1 : Fin k0_t1_loop.trips), ∀ (r : Fin 2), ∀ a, (k0_off41 i k0_t1 (BitVec.ofNat 32 r.val)) a + S1x1x128x256.size a ≤ S4x256x256x256.size a
  k0_t3_ok : k0_t3_loop.OK
  k0_off42_inb : ∀ k0_t3 : Fin k0_t3_loop.trips, ∀ a, (k0_off42 k0_t3) a + S1x16.size a ≤ S128x256.size a
  k0_off43_inb : ∀ k0_t3 : Fin k0_t3_loop.trips, ∀ a, (k0_off43 k0_t3) a + S1x16.size a ≤ S128x256.size a
  k0_off44_inb : ∀ k0_t3 : Fin k0_t3_loop.trips, ∀ a, (k0_off44 k0_t3) a + S1x16.size a ≤ S128x256.size a
  k0_off45_inb : ∀ k0_t3 : Fin k0_t3_loop.trips, ∀ a, (k0_off45 k0_t3) a + S1x16.size a ≤ S128x256.size a
  k0_off46_inb : ∀ k0_t3 : Fin k0_t3_loop.trips, ∀ a, (k0_off46 k0_t3) a + S1x16.size a ≤ S128x256.size a
  k0_off47_inb : ∀ k0_t3 : Fin k0_t3_loop.trips, ∀ a, (k0_off47 k0_t3) a + S1x16.size a ≤ S128x256.size a
  k0_off48_inb : ∀ k0_t3 : Fin k0_t3_loop.trips, ∀ a, (k0_off48 k0_t3) a + S1x16.size a ≤ S128x256.size a
  k0_off49_inb : ∀ k0_t3 : Fin k0_t3_loop.trips, ∀ a, (k0_off49 k0_t3) a + S1x16.size a ≤ S128x256.size a
  k0_off50_inb : ∀ k0_t3 : Fin k0_t3_loop.trips, ∀ a, (k0_off50 k0_t3) a + S1x16.size a ≤ S128x256.size a
  k0_off51_inb : ∀ k0_t3 : Fin k0_t3_loop.trips, ∀ a, (k0_off51 k0_t3) a + S1x16.size a ≤ S128x256.size a
  k0_off52_inb : ∀ k0_t3 : Fin k0_t3_loop.trips, ∀ a, (k0_off52 k0_t3) a + S1x16.size a ≤ S128x256.size a
  k0_off53_inb : ∀ k0_t3 : Fin k0_t3_loop.trips, ∀ a, (k0_off53 k0_t3) a + S1x16.size a ≤ S128x256.size a
  k0_off54_inb : ∀ k0_t3 : Fin k0_t3_loop.trips, ∀ a, (k0_off54 k0_t3) a + S1x16.size a ≤ S128x256.size a
  k0_off55_inb : ∀ k0_t3 : Fin k0_t3_loop.trips, ∀ a, (k0_off55 k0_t3) a + S1x16.size a ≤ S128x256.size a
  k0_off56_inb : ∀ k0_t3 : Fin k0_t3_loop.trips, ∀ a, (k0_off56 k0_t3) a + S1x16.size a ≤ S128x256.size a
  k0_off57_inb : ∀ k0_t3 : Fin k0_t3_loop.trips, ∀ a, (k0_off57 k0_t3) a + S1x16.size a ≤ S128x256.size a
  k0_t4_ok : k0_t4_loop.OK
  k0_t5_ok : k0_t5_loop.OK
  k0_off58_inb : ∀ (k0_t4 : Fin k0_t4_loop.trips) (k0_t5 : Fin k0_t5_loop.trips), ∀ a, (k0_off58 k0_t4 k0_t5) a + S1x16.size a ≤ S8x256.size a
  k0_off59_inb : ∀ k0_t5 : Fin k0_t5_loop.trips, ∀ (r : Fin 16), ∀ a, (k0_off59 k0_t5 (BitVec.ofNat 32 r.val)) a + S1x16.size a ≤ S128x256.size a
  k0_off60_inb : ∀ k0_t5 : Fin k0_t5_loop.trips, ∀ (r : Fin 16), ∀ a, (k0_off60 k0_t5 (BitVec.ofNat 32 r.val)) a + S1x16.size a ≤ S128x256.size a
  k0_off61_inb : ∀ k0_t5 : Fin k0_t5_loop.trips, ∀ (r : Fin 16), ∀ a, (k0_off61 k0_t5 (BitVec.ofNat 32 r.val)) a + S1x16.size a ≤ S128x256.size a
  k0_off62_inb : ∀ k0_t5 : Fin k0_t5_loop.trips, ∀ (r : Fin 16), ∀ a, (k0_off62 k0_t5 (BitVec.ofNat 32 r.val)) a + S1x16.size a ≤ S128x256.size a
  k0_off63_inb : ∀ k0_t5 : Fin k0_t5_loop.trips, ∀ (r : Fin 16), ∀ a, (k0_off63 k0_t5 (BitVec.ofNat 32 r.val)) a + S1x16.size a ≤ S128x256.size a
  k0_off64_inb : ∀ k0_t5 : Fin k0_t5_loop.trips, ∀ (r : Fin 16), ∀ a, (k0_off64 k0_t5 (BitVec.ofNat 32 r.val)) a + S1x16.size a ≤ S128x256.size a
  k0_off65_inb : ∀ k0_t5 : Fin k0_t5_loop.trips, ∀ (r : Fin 16), ∀ a, (k0_off65 k0_t5 (BitVec.ofNat 32 r.val)) a + S1x16.size a ≤ S128x256.size a
  k0_off66_inb : ∀ k0_t5 : Fin k0_t5_loop.trips, ∀ (r : Fin 16), ∀ a, (k0_off66 k0_t5 (BitVec.ofNat 32 r.val)) a + S1x16.size a ≤ S128x256.size a
  k0_off67_inb : ∀ k0_t5 : Fin k0_t5_loop.trips, ∀ (r : Fin 16), ∀ a, (k0_off67 k0_t5 (BitVec.ofNat 32 r.val)) a + S1x16.size a ≤ S128x256.size a
  k0_off68_inb : ∀ k0_t5 : Fin k0_t5_loop.trips, ∀ (r : Fin 16), ∀ a, (k0_off68 k0_t5 (BitVec.ofNat 32 r.val)) a + S1x16.size a ≤ S128x256.size a
  k0_off69_inb : ∀ k0_t5 : Fin k0_t5_loop.trips, ∀ (r : Fin 16), ∀ a, (k0_off69 k0_t5 (BitVec.ofNat 32 r.val)) a + S1x16.size a ≤ S128x256.size a
  k0_off70_inb : ∀ k0_t5 : Fin k0_t5_loop.trips, ∀ (r : Fin 16), ∀ a, (k0_off70 k0_t5 (BitVec.ofNat 32 r.val)) a + S1x16.size a ≤ S128x256.size a
  k0_off71_inb : ∀ k0_t5 : Fin k0_t5_loop.trips, ∀ (r : Fin 16), ∀ a, (k0_off71 k0_t5 (BitVec.ofNat 32 r.val)) a + S1x16.size a ≤ S128x256.size a
  k0_off72_inb : ∀ k0_t5 : Fin k0_t5_loop.trips, ∀ (r : Fin 16), ∀ a, (k0_off72 k0_t5 (BitVec.ofNat 32 r.val)) a + S1x16.size a ≤ S128x256.size a
  k0_off73_inb : ∀ k0_t5 : Fin k0_t5_loop.trips, ∀ (r : Fin 16), ∀ a, (k0_off73 k0_t5 (BitVec.ofNat 32 r.val)) a + S1x16.size a ≤ S128x256.size a
  k0_off74_inb : ∀ k0_t5 : Fin k0_t5_loop.trips, ∀ (r : Fin 16), ∀ a, (k0_off74 k0_t5 (BitVec.ofNat 32 r.val)) a + S1x16.size a ≤ S128x256.size a
  k0_off75_inb : ∀ (i : grid0.Coords) (k0_t4 : Fin k0_t4_loop.trips), ∀ (r : Fin 2), ∀ a, (k0_off75 i k0_t4 (BitVec.ofNat 32 r.val)) a + S1x1x128x256.size a ≤ S4x256x256x256.size a
  k0_off76_inb : ∀ (i : grid0.Coords) (k0_t4 : Fin k0_t4_loop.trips), ∀ (r : Fin 2), ∀ a, (k0_off76 i k0_t4 (BitVec.ofNat 32 r.val)) a + S1x1x128x256.size a ≤ S4x256x256x256.size a
  k0_off77_inb : ∀ (i : grid0.Coords) (k0_t4 : Fin k0_t4_loop.trips), ∀ (r : Fin 2), ∀ a, (k0_off77 i k0_t4 (BitVec.ofNat 32 r.val)) a + S1x1x128x256.size a ≤ S4x256x256x256.size a
  k0_off78_inb : ∀ (i : grid0.Coords) (k0_t4 : Fin k0_t4_loop.trips), ∀ (r : Fin 2), ∀ a, (k0_off78 i k0_t4 (BitVec.ofNat 32 r.val)) a + S1x1x128x256.size a ≤ S4x256x256x256.size a
  k0_t6_ok : k0_t6_loop.OK
  k0_off79_inb : ∀ (k0_t4 : Fin k0_t4_loop.trips) (k0_t6 : Fin k0_t6_loop.trips), ∀ a, (k0_off79 k0_t4 k0_t6) a + S1x16.size a ≤ S8x256.size a
  k0_off80_inb : ∀ k0_t6 : Fin k0_t6_loop.trips, ∀ (r : Fin 16), ∀ a, (k0_off80 k0_t6 (BitVec.ofNat 32 r.val)) a + S1x16.size a ≤ S128x256.size a
  k0_off81_inb : ∀ k0_t6 : Fin k0_t6_loop.trips, ∀ (r : Fin 16), ∀ a, (k0_off81 k0_t6 (BitVec.ofNat 32 r.val)) a + S1x16.size a ≤ S128x256.size a
  k0_off82_inb : ∀ k0_t6 : Fin k0_t6_loop.trips, ∀ (r : Fin 16), ∀ a, (k0_off82 k0_t6 (BitVec.ofNat 32 r.val)) a + S1x16.size a ≤ S128x256.size a
  k0_off83_inb : ∀ k0_t6 : Fin k0_t6_loop.trips, ∀ (r : Fin 16), ∀ a, (k0_off83 k0_t6 (BitVec.ofNat 32 r.val)) a + S1x16.size a ≤ S128x256.size a
  k0_off84_inb : ∀ k0_t6 : Fin k0_t6_loop.trips, ∀ (r : Fin 16), ∀ a, (k0_off84 k0_t6 (BitVec.ofNat 32 r.val)) a + S1x16.size a ≤ S128x256.size a
  k0_off85_inb : ∀ k0_t6 : Fin k0_t6_loop.trips, ∀ (r : Fin 16), ∀ a, (k0_off85 k0_t6 (BitVec.ofNat 32 r.val)) a + S1x16.size a ≤ S128x256.size a
  k0_off86_inb : ∀ k0_t6 : Fin k0_t6_loop.trips, ∀ (r : Fin 16), ∀ a, (k0_off86 k0_t6 (BitVec.ofNat 32 r.val)) a + S1x16.size a ≤ S128x256.size a
  k0_off87_inb : ∀ k0_t6 : Fin k0_t6_loop.trips, ∀ (r : Fin 16), ∀ a, (k0_off87 k0_t6 (BitVec.ofNat 32 r.val)) a + S1x16.size a ≤ S128x256.size a
  k0_off88_inb : ∀ k0_t6 : Fin k0_t6_loop.trips, ∀ (r : Fin 16), ∀ a, (k0_off88 k0_t6 (BitVec.ofNat 32 r.val)) a + S1x16.size a ≤ S128x256.size a
  k0_off89_inb : ∀ k0_t6 : Fin k0_t6_loop.trips, ∀ (r : Fin 16), ∀ a, (k0_off89 k0_t6 (BitVec.ofNat 32 r.val)) a + S1x16.size a ≤ S128x256.size a
  k0_off90_inb : ∀ k0_t6 : Fin k0_t6_loop.trips, ∀ (r : Fin 16), ∀ a, (k0_off90 k0_t6 (BitVec.ofNat 32 r.val)) a + S1x16.size a ≤ S128x256.size a
  k0_off91_inb : ∀ k0_t6 : Fin k0_t6_loop.trips, ∀ (r : Fin 16), ∀ a, (k0_off91 k0_t6 (BitVec.ofNat 32 r.val)) a + S1x16.size a ≤ S128x256.size a
  k0_off92_inb : ∀ k0_t6 : Fin k0_t6_loop.trips, ∀ (r : Fin 16), ∀ a, (k0_off92 k0_t6 (BitVec.ofNat 32 r.val)) a + S1x16.size a ≤ S128x256.size a
  k0_off93_inb : ∀ k0_t6 : Fin k0_t6_loop.trips, ∀ (r : Fin 16), ∀ a, (k0_off93 k0_t6 (BitVec.ofNat 32 r.val)) a + S1x16.size a ≤ S128x256.size a
  k0_off94_inb : ∀ k0_t6 : Fin k0_t6_loop.trips, ∀ (r : Fin 16), ∀ a, (k0_off94 k0_t6 (BitVec.ofNat 32 r.val)) a + S1x16.size a ≤ S128x256.size a
  k0_off95_inb : ∀ k0_t6 : Fin k0_t6_loop.trips, ∀ (r : Fin 16), ∀ a, (k0_off95 k0_t6 (BitVec.ofNat 32 r.val)) a + S1x16.size a ≤ S128x256.size a

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
abbrev cc0_scoped1 : DmaSems sig S_ := SemArray.consecutive 3 S_ hcc0_scoped1

class Facts : Prop extends Facts₀ where

variable [Facts]
-- ==== ReferenceIdeal.lean ====
abbrev S4x256x256 : Shape := ⟨3, ![4, 256, 256]⟩
abbrev S256x128 : Shape := ⟨2, ![256, 128]⟩
abbrev S256 : Shape := ⟨1, ![256]⟩
abbrev S_ : Shape := ⟨0, ![]⟩
abbrev S256x1 : Shape := ⟨2, ![256, 1]⟩
abbrev S1 : Shape := ⟨1, ![1]⟩
abbrev S1x1 : Shape := ⟨2, ![1, 1]⟩
abbrev S1x256x128 : Shape := ⟨3, ![1, 256, 128]⟩
abbrev S256x256x128 : Shape := ⟨3, ![256, 256, 128]⟩
abbrev S256x1x128 : Shape := ⟨3, ![256, 1, 128]⟩
abbrev S256x256x256 : Shape := ⟨3, ![256, 256, 256]⟩
abbrev S1x256x256x256 : Shape := ⟨4, ![1, 256, 256, 256]⟩
abbrev S4x256x256x256 : Shape := ⟨4, ![4, 256, 256, 256]⟩

abbrev nBuf : Space → Nat
  | .hbm => 59
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S256x128, .f32⟩
  | .hbm, ⟨2, _⟩ => ⟨S256x128, .f32⟩
  | .hbm, ⟨3, _⟩ => ⟨S256, .i32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256x1, .i32⟩
  | .hbm, ⟨13, _⟩ => ⟨S1, .i32⟩
  | .hbm, ⟨14, _⟩ => ⟨S_, .i32⟩
  | .hbm, ⟨15, _⟩ => ⟨S256x1, .i32⟩
  | .hbm, ⟨16, _⟩ => ⟨S256x1, .i1⟩
  | .hbm, ⟨17, _⟩ => ⟨S1x1, .i32⟩
  | .hbm, ⟨18, _⟩ => ⟨S256x1, .i32⟩
  | .hbm, ⟨19, _⟩ => ⟨S256x1, .i1⟩
  | .hbm, ⟨20, _⟩ => ⟨S256x1, .i1⟩
  | .hbm, ⟨21, _⟩ => ⟨S_, .i1⟩
  | .hbm, ⟨22, _⟩ => ⟨S256, .i1⟩
  | .hbm, ⟨23, _⟩ => ⟨S256x128, .f32⟩
  | .hbm, ⟨24, _⟩ => ⟨S256x128, .i1⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S256x1, .i32⟩
  | .hbm, ⟨36, _⟩ => ⟨S1, .i32⟩
  | .hbm, ⟨37, _⟩ => ⟨S_, .i32⟩
  | .hbm, ⟨38, _⟩ => ⟨S256x1, .i32⟩
  | .hbm, ⟨39, _⟩ => ⟨S256x1, .i1⟩
  | .hbm, ⟨40, _⟩ => ⟨S1x1, .i32⟩
  | .hbm, ⟨41, _⟩ => ⟨S256x1, .i32⟩
  | .hbm, ⟨42, _⟩ => ⟨S256x1, .i1⟩
  | .hbm, ⟨43, _⟩ => ⟨S256x1, .i1⟩
  | .hbm, ⟨44, _⟩ => ⟨S_, .i1⟩
  | .hbm, ⟨45, _⟩ => ⟨S256, .i1⟩
  | .hbm, ⟨46, _⟩ => ⟨S256x128, .f32⟩
  | .hbm, ⟨47, _⟩ => ⟨S256x128, .i1⟩
  | .hbm, ⟨48, _⟩ => ⟨S_, .f32⟩
  | .hbm, ⟨49, _⟩ => ⟨S256x128, .f32⟩
  | .hbm, ⟨50, _⟩ => ⟨S256x128, .f32⟩
  | .hbm, ⟨51, _⟩ => ⟨S1x256x128, .f32⟩
  | .hbm, ⟨52, _⟩ => ⟨S256x256x128, .f32⟩
  | .hbm, ⟨53, _⟩ => ⟨S256x1x128, .f32⟩
  | .hbm, ⟨54, _⟩ => ⟨S256x256x128, .f32⟩
  | .hbm, ⟨55, _⟩ => ⟨S256x256x256, .f32⟩
  | .hbm, ⟨56, _⟩ => ⟨S256x256x256, .f32⟩
  | .hbm, ⟨57, _⟩ => ⟨S1x256x256x256, .f32⟩
  | .hbm, ⟨58, _⟩ => ⟨S4x256x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  h_S_ : 0 < S_.numel
  bcast_S256_S256x128_0 : S256.BroadcastsInDim S256x128 (![0] : Fin 1 → Fin S256x128.rank)
  bcast_S_S256x128 : S_.BroadcastsInDim S256x128 (![] : Fin 0 → Fin S256x128.rank)
  bcast_S256x128_S1x256x128_1_2 : S256x128.BroadcastsInDim S1x256x128 (![1, 2] : Fin 2 → Fin S1x256x128.rank)
  bcast_S1x256x128_S256x256x128_0_1_2 : S1x256x128.BroadcastsInDim S256x256x128 (![0, 1, 2] : Fin 3 → Fin S256x256x128.rank)
  bcast_S256x128_S256x1x128_0_2 : S256x128.BroadcastsInDim S256x1x128 (![0, 2] : Fin 2 → Fin S256x1x128.rank)
  bcast_S256x1x128_S256x256x128_0_1_2 : S256x1x128.BroadcastsInDim S256x256x128 (![0, 1, 2] : Fin 3 → Fin S256x256x128.rank)
  concatenates_S256x256x128_S256x256x128_S256x256x256_d2 : Shape.Concatenates [S256x256x128, S256x256x128] S256x256x256 2
  transposes_S256x256x256_S256x256x256_2_0_1 : S256x256x256.Transposes [2, 0, 1] S256x256x256
  bcast_S256x256x256_S1x256x256x256_1_2_3 : S256x256x256.BroadcastsInDim S1x256x256x256 (![1, 2, 3] : Fin 3 → Fin S1x256x256x256.rank)
  bcast_S1x256x256x256_S4x256x256x256_0_1_2_3 : S1x256x256x256.BroadcastsInDim S4x256x256x256 (![0, 1, 2, 3] : Fin 4 → Fin S4x256x256x256.rank)
  gather_S256x128_S256x1_S256x128_1_0_n_n_0_1_1128_wf : GatherDims.WF S256x128 S256x1 S256x128 [1] [0] [] [0] [] 1 ![1, 128]

variable [Facts₀]

def gather_S256x128_S256x1_S256x128_1_0_n_n_0_1_1128 : GatherDims S256x128 S256x1 S256x128 where
  offsetDims := [1]
  collapsedSliceDims := [0]
  operandBatchingDims := []
  startIndicesBatchingDims := []
  startIndexMap := [0]
  indexVectorDim := 1
  sliceSizes := ![1, 128]
  wf := gather_S256x128_S256x1_S256x128_1_0_n_n_0_1_1128_wf

class Facts : Prop extends Facts₀ where

variable [Facts]
-- ==== Proof.PosEmbedSpec.lean ====
/-
  The position embedding as ONE function of the two tables, index by index.

  The result has shape [4, 256, 256, 256], read as (batch b, channel c, row h, column w). A channel below 128 is a
  COLUMN channel: its plane repeats the column table's column c along every row, so the entry is col[w, c]. A channel
  from 128 up is a ROW channel: its plane repeats the row table's column c - 128 along every column, so the entry is
  row[h, c - 128]. The batch coordinate is not read: the four batch slabs are equal. Nothing is computed, so the
  function is stated for any type of entries.
-/
import Idealize.ShloMosaic.Lib.ValueIdx

namespace Cert.PosEmbed

open Idealize.ShloMosaic Idealize.ShloMosaic.ValueIdx

/-- Entry (b, c, h, w) of the position embedding of a row table and a column table, both [256, 128]:
    col[w, c] for c < 128, row[h, c - 128] for c ≥ 128. -/
def posEmbed {α : Type} (row col : (⟨2, ![256, 128]⟩ : Shape).Idx → α) :
    (⟨4, ![4, 256, 256, 256]⟩ : Shape).Idx → α :=
  fun j =>
    if h : (j 1).val < 128 then col (ix2 (n0 := 256) (n1 := 128) (j 3) ⟨(j 1).val, h⟩)
    else row (ix2 (n0 := 256) (n1 := 128) (j 2)
      ⟨(j 1).val - 128, by have h1 : (j 1).val < 256 := (j 1).isLt; omega⟩)

/-- A column channel reads the column table at (w, c). -/
theorem posEmbed_col {α : Type} (row col : (⟨2, ![256, 128]⟩ : Shape).Idx → α)
    (b : Fin 4) (c : Fin 256) (h w : Fin 256) (hc : c.val < 128) :
    posEmbed row col (ix4 b c h w) = col (ix2 w ⟨c.val, hc⟩) := by
  unfold posEmbed
  exact dif_pos hc

/-- A row channel reads the row table at (h, c - 128). -/
theorem posEmbed_row {α : Type} (row col : (⟨2, ![256, 128]⟩ : Shape).Idx → α)
    (b : Fin 4) (c : Fin 256) (h w : Fin 256) (hc : ¬ c.val < 128) :
    posEmbed row col (ix4 b c h w) = row (ix2 h ⟨c.val - 128, by have := c.isLt; omega⟩) := by
  unfold posEmbed
  exact dif_neg hc

/-- The same embedding read off the TRANSPOSED tables, both [128, 256] (table column first): entry (b, c, h, w) is
    colT[c, w] for c < 128 and rowT[c - 128, h] for c ≥ 128. This is the form in which a program that is handed the
    transposes produces it. -/
def posEmbedT {α : Type} (colT rowT : (⟨2, ![128, 256]⟩ : Shape).Idx → α) :
    (⟨4, ![4, 256, 256, 256]⟩ : Shape).Idx → α :=
  fun j =>
    if h : (j 1).val < 128 then colT (ix2 (n0 := 128) (n1 := 256) ⟨(j 1).val, h⟩ (j 3))
    else rowT (ix2 (n0 := 128) (n1 := 256)
      ⟨(j 1).val - 128, by have h1 : (j 1).val < 256 := (j 1).isLt; omega⟩ (j 2))

/-- With each transposed table the transpose of its table (entry (c, x) of the transpose is entry (x, c) of the
    table), the two forms are one function. -/
theorem posEmbedT_eq {α : Type} (row col : (⟨2, ![256, 128]⟩ : Shape).Idx → α)
    (colT rowT : (⟨2, ![128, 256]⟩ : Shape).Idx → α)
    (hc : ∀ (c : Fin 128) (x : Fin 256), colT (ix2 c x) = col (ix2 x c))
    (hr : ∀ (c : Fin 128) (x : Fin 256), rowT (ix2 c x) = row (ix2 x c)) :
    posEmbedT colT rowT = posEmbed row col := by
  funext j
  unfold posEmbedT posEmbed
  by_cases h : (j 1).val < 128
  · rw [dif_pos h, dif_pos h]; exact hc _ _
  · rw [dif_neg h, dif_neg h]; exact hr _ _

end Cert.PosEmbed
-- ==== Proof.KBSetup.lean ====
/-
  The kernel as its launch sees it, and how its arrays divide among the thirty-two vector subcores.

  The device has two SparseCores of sixteen vector subcores. Subcore s of SparseCore c is WORKER w = 2 s + c and works on
  table columns 4 w .. 4 w + 3: it reads rows 4 w .. 4 w + 3 of each transposed table ([128, 256], one row per table
  column) and writes, for every batch, the four column channels 4 w + i and the four row channels 128 + 4 w + i of the
  result [4, 256, 256, 256]. So the transposed tables divide among the workers by blocks of four rows, the result by
  the channels each worker owns; nothing is shared. Each worker is handed its two blocks and its channels at the
  contents the call starts from, and hands them back with its channels holding the position embedding read off the
  transposed tables.
-/
import proofs.«210098_g2860448219651_cont_9to1_994_18_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«210098_g2860448219651_cont_9to1_994_18_alg».proof.Proof.Gen.Kernel
import proofs.«210098_g2860448219651_cont_9to1_994_18_alg».proof.Proof.Gen.Kernel.Skeleton
import proofs.«210098_g2860448219651_cont_9to1_994_18_alg».proof.Proof.PosEmbedSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its launch configuration -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The three arguments (the mask, the row table, the column table), the two transposed tables and the result, as
    locations of device `d`. -/
abbrev aLoc (d : Dev nD) : Loc nD τ sig := (SparseCore.T d).loc main_arg0
abbrev rLoc (d : Dev nD) : Loc nD τ sig := (SparseCore.T d).loc main_arg1
abbrev cLoc (d : Dev nD) : Loc nD τ sig := (SparseCore.T d).loc main_arg2
abbrev ctLoc (d : Dev nD) : Loc nD τ sig := (SparseCore.T d).loc main_v0
abbrev rtLoc (d : Dev nD) : Loc nD τ sig := (SparseCore.T d).loc main_v1
abbrev oLoc (d : Dev nD) : Loc nD τ sig := (SparseCore.T d).loc main_v2

/-- Worker number of vector subcore `s` of SparseCore `c`. -/
def wid (c : Fin 2) (s : Fin 16) : Fin 32 := ⟨2 * s.val + c.val, by have := c.isLt; have := s.isLt; omega⟩

/-- The rows of a transposed table worker `w` reads: rows 4 w .. 4 w + 3. -/
def tblSet (w : Fin 32) : Finset S128x256.Idx := Finset.univ.filter fun j => (j 0).val / 4 = w.val

/-- The entries of the result worker `w` writes: every batch, the channels c with (c mod 128) / 4 = w. -/
def tileSet (w : Fin 32) : Finset S4x256x256x256.Idx := Finset.univ.filter fun j => ((j 1).val % 128) / 4 = w.val

variable [FloatOps F]

/-- What a worker is handed: its rows of the two transposed tables at contents `ct`, `rt`, its entries of the
    result at contents `fo`. -/
def tileIn (d : Dev nD) (w : Fin 32) (ct : Buf (Elt F) (ctLoc d)) (rt : Buf (Elt F) (rtLoc d)) (fo : Buf (Elt F) (oLoc d)) : sProp 𝕄 :=
  iprop((ctLoc d ↦[tblSet w]{fullShare} ct) ∗ (rtLoc d ↦[tblSet w]{fullShare} rt) ∗ (oLoc d ↦[tileSet w]{fullShare} fo))

/-- What it hands back: the same rows unchanged, its entries of the result at the position embedding of the two
    transposed tables. -/
def tileOut (d : Dev nD) (w : Fin 32) (ct : Buf (Elt F) (ctLoc d)) (rt : Buf (Elt F) (rtLoc d)) : sProp 𝕄 :=
  iprop((ctLoc d ↦[tblSet w]{fullShare} ct) ∗ (rtLoc d ↦[tblSet w]{fullShare} rt)
    ∗ (oLoc d ↦[tileSet w]{fullShare} (Cert.PosEmbed.posEmbedT ct rt : Buf (Elt F) (oLoc d))))

instance tileIn_storable (d : Dev nD) (w : Fin 32) ct rt fo : BI.Storable (upEmb : UEmb _ 𝕄) (tileIn (F := F) d w ct rt fo) := by
  unfold tileIn; infer_instance
instance tileOut_storable (d : Dev nD) (w : Fin 32) ct rt : BI.Storable (upEmb : UEmb _ 𝕄) (tileOut (F := F) d w ct rt) := by
  unfold tileOut; infer_instance

/-- The transposed tables as @main computes them before the call. -/
def ctOf (d : Dev nD) : Buf (Elt F) (ctLoc d) :=
  (transpose S128x256 [1, 0] (m (cLoc d) : (⟨S256x128, .f32⟩ : BufTy).Contents (Elt F)) Facts₀.transposes_S256x128_S128x256_1_0 : (⟨S128x256, .f32⟩ : BufTy).Contents (Elt F))
def rtOf (d : Dev nD) : Buf (Elt F) (rtLoc d) :=
  (transpose S128x256 [1, 0] (m (rLoc d) : (⟨S256x128, .f32⟩ : BufTy).Contents (Elt F)) Facts₀.transposes_S256x128_S128x256_1_0 : (⟨S128x256, .f32⟩ : BufTy).Contents (Elt F))

/-! ## What the handshakes carry -/

/-- The one call hands SparseCore `c` its sixteen workers' parts, each subcore its worker's part, and takes them back
    with the result's entries written. -/
def P : (K (F := F)).Pay (nD := nD) (Val := Elt F) (Name := ℕ) (U := UU) where
  st := fun q d c => match q with
    | 0 => bigSep Finset.univ fun s : Fin 16 => tileIn d (wid (Fin.cast nCore_zero c) s) (ctOf m d) (rtOf m d) (m (oLoc d))
  dn := fun q d c => match q with
    | 0 => bigSep Finset.univ fun s : Fin 16 => tileOut d (wid (Fin.cast nCore_zero c) s) (ctOf m d) (rtOf m d)
  go := fun q d c i => match q with
    | 0 => tileIn d (wid (Fin.cast nCore_zero c) (Fin.cast nSub_zero i)) (ctOf m d) (rtOf m d) (m (oLoc d))
  td := fun q d c i => match q with
    | 0 => tileOut d (wid (Fin.cast nCore_zero c) (Fin.cast nSub_zero i)) (ctOf m d) (rtOf m d)
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-! ## A worker's thread and coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker at grid coordinates `L` (SparseCore `L 0`, subcore `L 1`). -/
abbrev wL (L : grid0.Coords) : Fin 32 := wid (Fin.cast bound_zero (L 0)) (Fin.cast bound_one (L 1))

def coordsV (c : Fin (grid0.bound 0)) (s : Fin (grid0.bound 1)) : grid0.Coords :=
  fun | 0 => c | 1 => s | ⟨_ + 2, h⟩ => absurd h (Nat.not_lt.2 (Nat.le_add_left _ _))

end Cert.Proof.KB

end
-- ==== Proof.KBOwn.lean ====
/-
  What a vector subcore owns during its task, in the spelling its body reads: its four DMA semaphores at zero, its
  three scratch buffers, and its four rows of each transposed table as the body slices them (rows 4 w .. 4 w + 3 for
  worker w = 2 s + c: the body's slice starts at row 8 s + 4 c).
-/
import proofs.«210098_g2860448219651_cont_9to1_994_18_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "ctV" => (Memref.whole Cert.Kernel.main_v0_scv : Memref Cert.Kernel.sig Kind.scVector Space.hbm Cert.Kernel.S128x256 EltTy.f32)
local notation "rtV" => (Memref.whole Cert.Kernel.main_v1_scv : Memref Cert.Kernel.sig Kind.scVector Space.hbm Cert.Kernel.S128x256 EltTy.f32)
local notation "oV" => (Memref.whole Cert.Kernel.main_v2_scv : Memref Cert.Kernel.sig Kind.scVector Space.hbm Cert.Kernel.S4x256x256x256 EltTy.f32)
local notation "stV" => (Memref.whole Cert.Kernel.cc0_scratch0 : Memref Cert.Kernel.sig Kind.scVector Space.vmem Cert.Kernel.S8x256 EltTy.f32)
local notation "b0V" => (Memref.whole Cert.Kernel.cc0_scratch1 : Memref Cert.Kernel.sig Kind.scVector Space.vmem Cert.Kernel.S128x256 EltTy.f32)
local notation "b1V" => (Memref.whole Cert.Kernel.cc0_scratch2 : Memref Cert.Kernel.sig Kind.scVector Space.vmem Cert.Kernel.S128x256 EltTy.f32)

/-! ## A worker's own semaphores and scratch -/

section Own

variable (d : Dev nD) (L : grid0.Coords)

abbrev sAcell (d : Dev nD) (c : Fin τ.nSC) (i : Fin τ.nSub) : GSem nD τ sig := (V d c i, .dma cc0_scratch3.sem)
abbrev sBcell (d : Dev nD) (c : Fin τ.nSC) (i : Fin τ.nSub) : GSem nD τ sig := (V d c i, .dma cc0_scratch4.sem)
abbrev sCcell (d : Dev nD) (c : Fin τ.nSC) (i : Fin τ.nSub) : GSem nD τ sig := (V d c i, .dma cc0_scoped0.sem)
abbrev sDcell (d : Dev nD) (c : Fin τ.nSC) (i : Fin τ.nSub) : GSem nD τ sig := (V d c i, .dma cc0_scoped1.sem)

/-- The four DMA semaphores the task names are among the subcore's own, each at zero; and the rest. -/
theorem ownSems0_V :
    (ownSems0 (V d (cV L) (jV L)) : sProp 𝕄)
      = iprop(semVal (sAcell d (cV L) (jV L)) 0 ∗ semVal (sBcell d (cV L) (jV L)) 0 ∗ semVal (sCcell d (cV L) (jV L)) 0 ∗ semVal (sDcell d (cV L) (jV L)) 0
          ∗ bigSep (((((ownCells (V d (cV L) (jV L))).erase (sAcell d (cV L) (jV L))).erase (sBcell d (cV L) (jV L))).erase (sCcell d (cV L) (jV L))).erase (sDcell d (cV L) (jV L))) fun g => semVal g 0) := by
  unfold SparseCore.Cfg.ownSems0
  rw [SparseCore.bigSep_erase' ((mem_ownCells (g := sAcell d (cV L) (jV L))).mpr ⟨rfl, by
      show (SemLoc.dma cc0_scratch3.sem : SemLoc sig).isScoped .scVector = true; decide⟩),
    SparseCore.bigSep_erase' (Finset.mem_erase.mpr ⟨by simp [sAcell, sBcell]; decide, (mem_ownCells (g := sBcell d (cV L) (jV L))).mpr ⟨rfl, by
      show (SemLoc.dma cc0_scratch4.sem : SemLoc sig).isScoped .scVector = true; decide⟩⟩),
    SparseCore.bigSep_erase' (Finset.mem_erase.mpr ⟨by simp [sBcell, sCcell]; decide, Finset.mem_erase.mpr ⟨by simp [sAcell, sCcell]; decide,
      (mem_ownCells (g := sCcell d (cV L) (jV L))).mpr ⟨rfl, by show (SemLoc.dma cc0_scoped0.sem : SemLoc sig).isScoped .scVector = true; decide⟩⟩⟩),
    SparseCore.bigSep_erase' (Finset.mem_erase.mpr ⟨by simp [sCcell, sDcell]; decide, Finset.mem_erase.mpr ⟨by simp [sBcell, sDcell]; decide, Finset.mem_erase.mpr ⟨by simp [sAcell, sDcell]; decide,
      (mem_ownCells (g := sDcell d (cV L) (jV L))).mpr ⟨rfl, by show (SemLoc.dma cc0_scoped1.sem : SemLoc sig).isScoped .scVector = true; decide⟩⟩⟩⟩)]

/-- The three scratch buffers are among the subcore's own, each at some contents; and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The worker's rows of the transposed tables, as the task slices them -/

abbrev tblRectK (L : grid0.Coords) : Rect S128x256 := Rect.unit (s := S128x256) (k0_off1 L) S4x256.size (k0_off1_inb L)
abbrev ctRowK (L : grid0.Coords) : Memref sig .scVector .hbm S4x256 .f32 := (ctV).slice (tblRectK L) (fun _ => rfl)
abbrev rtRowK (L : grid0.Coords) : Memref sig .scVector .hbm S4x256 .f32 := (rtV).slice (tblRectK L) (fun _ => rfl)

/-- The rows the task slices are the worker's rows: rows 4 w .. 4 w + 3 with w = 2 (L 1) + (L 0). -/
theorem tblRectK_set : (tblRectK L).set = tblSet (wL L) := by
  ext j
  have h0 : (L 0).val < 2 := (L 0).isLt
  have h1 : (L 1).val < 16 := (L 1).isLt
  have hj0 : (j 0).val < 128 := (j 0).isLt
  have hj1 : (j 1).val < 256 := (j 1).isLt
  have hw : (wL L).val = 2 * (L 1).val + (L 0).val := rfl
  rw [Rect.mem_set_unit]
  simp only [tblSet, Finset.mem_filter, Finset.mem_univ, true_and, k0_off1_eq, hw]
  constructor
  · intro h
    have a0 : 8 * (L 1).val + 4 * (L 0).val ≤ (j 0).val ∧ (j 0).val < 8 * (L 1).val + 4 * (L 0).val + 4 := h 0
    omega
  · intro h a
    match a with
    | 0 => show 8 * (L 1).val + 4 * (L 0).val ≤ (j 0).val ∧ (j 0).val < 8 * (L 1).val + 4 * (L 0).val + 4; omega
    | 1 => show 0 ≤ (j 1).val ∧ (j 1).val < 0 + 256; omega

theorem set_ctRowK : (ctRowK L).view.set = tblSet (wL L) := by
  show ((View.whole (main_v0_scv : Ref sig .scVector)).slice (tblRectK L)).set = _
  rw [View.set_slice_whole]; exact tblRectK_set L
theorem set_rtRowK : (rtRowK L).view.set = tblSet (wL L) := by
  show ((View.whole (main_v1_scv : Ref sig .scVector)).slice (tblRectK L)).set = _
  rw [View.set_slice_whole]; exact tblRectK_set L

theorem pts_ctRowK (f : Buf (Elt F) (ctLoc d)) :
    ((ctRowK L).view.loc (V d (cV L) (jV L)) ↦[(ctRowK L).view.set]{fullShare} f : sProp 𝕄) = ctLoc d ↦[tblSet (wL L)]{fullShare} f := by
  rw [set_ctRowK]
theorem pts_rtRowK (f : Buf (Elt F) (rtLoc d)) :
    ((rtRowK L).view.loc (V d (cV L) (jV L)) ↦[(rtRowK L).view.set]{fullShare} f : sProp 𝕄) = rtLoc d ↦[tblSet (wL L)]{fullShare} f := by
  rw [set_rtRowK]
theorem pts_stV (f : Buf (Elt F) ((V d (cV L) (jV L)).loc cc0_scratch0)) :
    ((stV).view.loc (V d (cV L) (jV L)) ↦[(stV).view.set]{fullShare} f : sProp 𝕄) = (V d (cV L) (jV L)).loc cc0_scratch0 ↦{fullShare} f := by
  simp only [Memref.view_whole, View.set_whole]
theorem pts_b0V (f : Buf (Elt F) ((V d (cV L) (jV L)).loc cc0_scratch1)) :
    ((b0V).view.loc (V d (cV L) (jV L)) ↦[(b0V).view.set]{fullShare} f : sProp 𝕄) = (V d (cV L) (jV L)).loc cc0_scratch1 ↦{fullShare} f := by
  simp only [Memref.view_whole, View.set_whole]
theorem pts_b1V (f : Buf (Elt F) ((V d (cV L) (jV L)).loc cc0_scratch2)) :
    ((b1V).view.loc (V d (cV L) (jV L)) ↦[(b1V).view.set]{fullShare} f : sProp 𝕄) = (V d (cV L) (jV L)).loc cc0_scratch2 ↦{fullShare} f := by
  simp only [Memref.view_whole, View.set_whole]

/-! ## The planes of the result, as the task slices them -/

/-- The 128 x 256 half plane at offsets `off` of the result, squeezed, as the body addresses a copy's destination. -/
abbrev oSl (off : Fin 4 → Nat) (inb : ∀ a, off a + S1x1x128x256.size a ≤ S4x256x256x256.size a) : Memref sig .scVector .hbm S128x256 .f32 :=
  ((oV).slice (Rect.unit (s := S4x256x256x256) off S1x1x128x256.size inb) (fun _ => rfl)).squeeze S128x256 squeezes_S1x1x128x256_S128x256

end Own

end Cert.Proof.KB

end
-- ==== Proof.KBFill.lean ====
/-
  What a fill loop leaves in its buffer, read at an index.

  A fill loop's trips write pieces that all agree with ONE function of the buffer's index, and between them the trips
  cover every row. So after the last trip the buffer reads as that function everywhere, whatever it held before.
  Here: the statement for any loop whose pieces are threaded trip by trip, and the geometry of one 16-lane store.
-/
import proofs.«210098_g2860448219651_cont_9to1_994_18_alg».proof.Proof.KBSetup
import Idealize.ShloMosaic.Lib.Writes
import Idealize.ShloMosaic.Lib.ValueIdx

noncomputable section

namespace Cert.Proof.KB

open Cert.Kernel Cert.Kernel.Gen

open Idealize.ShloMosaic Idealize.ShloMosaic.ValueIdx

/-! ### Pieces threaded trip by trip -/

section Trips

variable {sig : RefSig} {κ : Kind} {sp : Space} {s : Shape} {e : EltTy} {Val : EltTy → Type}

/-- If the pieces of every trip agree with one function `G` of the buffer's index and trip `k` covers the indices
    whose trip number (`row`) is `k`, then the pieces of the trips before `m` agree with `G` and cover the indices
    of trip number below `m`. -/
theorem pieces_of_trips (G : s.Idx → Val e) (n : ℕ) (pb : ℕ → List (View.Piece Val s e))
    (tripL : Fin n → List (View.Piece Val s e)) (h0 : pb 0 = [])
    (hs : ∀ k : Fin n, pb (k.val + 1) = tripL k ++ pb k.val) (row : s.Idx → ℕ)
    (hagree : ∀ k : Fin n, ∀ p ∈ tripL k, ∀ x : p.1.shape.Idx, p.2 x = G (p.1.emb x))
    (hcover : ∀ k : Fin n, ∀ y : s.Idx, row y = k.val → ∃ p ∈ tripL k, y ∈ p.1.set) :
    ∀ m, m ≤ n → (∀ p ∈ pb m, ∀ x : p.1.shape.Idx, p.2 x = G (p.1.emb x))
      ∧ ∀ y : s.Idx, row y < m → ∃ p ∈ pb m, y ∈ p.1.set
  | 0, _ => by
    rw [h0]
    exact ⟨fun p hp => absurd hp List.not_mem_nil, fun y hy => absurd hy (Nat.not_lt_zero _)⟩
  | m + 1, hm => by
    have ih := pieces_of_trips G n pb tripL h0 hs row hagree hcover m (Nat.le_of_succ_le hm)
    have e := hs ⟨m, hm⟩
    simp only at e
    rw [e]
    refine ⟨fun p hp => ?_, fun y hy => ?_⟩
    · rcases List.mem_append.mp hp with h | h
      · exact hagree ⟨m, hm⟩ p h
      · exact ih.1 p h
    · by_cases hy' : row y = m
      · obtain ⟨p, hp, hyp⟩ := hcover ⟨m, hm⟩ y hy'
        exact ⟨p, List.mem_append_left _ hp, hyp⟩
      · obtain ⟨p, hp, hyp⟩ := ih.2 y (by omega)
        exact ⟨p, List.mem_append_right _ hp, hyp⟩

/-- So after all the trips the buffer reads `G` at every index whose trip number is below the trip count, whatever it
    held before. -/
theorem read_of_trips (v : View sig κ sp s e) (f : v.ty.Contents Val) (G : s.Idx → Val e) (n : ℕ)
    (pb : ℕ → List (View.Piece Val s e)) (tripL : Fin n → List (View.Piece Val s e)) (h0 : pb 0 = [])
    (hs : ∀ k : Fin n, pb (k.val + 1) = tripL k ++ pb k.val) (row : s.Idx → ℕ)
    (hagree : ∀ k : Fin n, ∀ p ∈ tripL k, ∀ x : p.1.shape.Idx, p.2 x = G (p.1.emb x))
    (hcover : ∀ k : Fin n, ∀ y : s.Idx, row y = k.val → ∃ p ∈ tripL k, y ∈ p.1.set)
    (y : s.Idx) (hy : row y < n) : v.read Val (v.writes Val f (pb n)) y = G y :=
  have h := pieces_of_trips G n pb tripL h0 hs row hagree hcover n (Nat.le_refl n)
  View.read_writes_apply_of_pieces v f G (pb n) h.1 y (h.2 y hy)

end Trips

variable {F : FTy → Type}

/-! ### A buffer whose rows are all one vector -/

/-- The buffer every row of which is the 256-entry vector given as sixteen 16-lane pieces `u 0 … u 15`. -/
def colG (u : Fin 16 → (S1x16.Idx → Elt F .f32)) : S128x256.Idx → Elt F .f32 :=
  fun y => u ⟨(y 1).val / 16, by have := idx2_lt1 y; omega⟩ (ix2 (0 : Fin 1) ⟨(y 1).val % 16, Nat.mod_lt _ (by decide)⟩)

/-- A 16-lane store at row `r`, column `c` (a multiple of 16) of the piece `u (c / 16)` agrees with `colG u`. -/
theorem colG_piece (u : Fin 16 → (S1x16.Idx → Elt F .f32)) (off : Fin 2 → ℕ)
    (inb : ∀ a, off a + S1x16.size a ≤ S128x256.size a) (r c : ℕ) (h : off = ![r, c]) (hc : c % 16 = 0) (hc' : c / 16 < 16)
    (w : S1x16.Idx → Elt F .f32) (hw : w = u ⟨c / 16, hc'⟩) (x : S1x16.Idx) :
    w x = colG u ((Rect.unit (s := S128x256) off S1x16.size inb).emb x) := by
  subst hw
  obtain ⟨a, b, rfl⟩ : ∃ (a : Fin 1) (b : Fin 16), x = ix2 a b := ⟨x 0, x 1, eq_ix2 x⟩
  have ha : a = 0 := Subsingleton.elim _ _
  subst ha
  have hv : (((Rect.unit (s := S128x256) off S1x16.size inb).emb (ix2 (0 : Fin 1) b)) 1).val = c + b.val := by
    rw [Rect.emb_apply]
    show off 1 + 1 * b.val = _
    rw [h, Nat.one_mul]; rfl
  have key : ∀ (n : ℕ) (hn : n = c + b.val) (p1 : n / 16 < 16) (p2 : n % 16 < 16),
      u ⟨c / 16, hc'⟩ (ix2 (0 : Fin 1) b) = u ⟨n / 16, p1⟩ (ix2 (0 : Fin 1) ⟨n % 16, p2⟩) := by
    intro n hn p1 p2
    have hb := b.isLt
    have e1 : (⟨n / 16, p1⟩ : Fin 16) = ⟨c / 16, hc'⟩ := Fin.ext (by simp only; omega)
    have e2 : (⟨n % 16, p2⟩ : Fin 16) = b := Fin.ext (by simp only; omega)
    rw [e1, e2]
  exact key _ hv _ _

/-- Sixteen 16-lane unit-stride pieces at row `r`, one per column block, cover row `r`. -/
theorem cover_row16 {Val : EltTy → Type} (L : List (View.Piece Val S128x256 .f32)) (r : ℕ)
    (h : ∀ j : Fin 16, ∃ p ∈ L, p.1.off = ![r, 16 * j.val] ∧ p.1.size = S1x16.size ∧ ∀ a, p.1.stride a = 1)
    (y : S128x256.Idx) (hy : (y 0).val = r) : ∃ p ∈ L, y ∈ p.1.set := by
  have h1 := idx2_lt1 y
  obtain ⟨p, hp, hoff, hsize, hstride⟩ := h ⟨(y 1).val / 16, by omega⟩
  refine ⟨p, hp, p.1.mem_set.mpr fun a => ?_⟩
  rw [hoff, hsize, hstride]
  match a with
  | ⟨0, _⟩ => exact ⟨0, Nat.one_pos, by show (y 0).val = r + 1 * 0; omega⟩
  | ⟨1, _⟩ =>
    exact ⟨(y 1).val % 16, Nat.mod_lt _ (by decide), by
      show (y 1).val = 16 * ((y 1).val / 16) + 1 * ((y 1).val % 16); omega⟩

end Cert.Proof.KB

end
-- ==== Proof.KBLoopA0.lean ====
/-
  The fill loops of a worker's task, each by an invariant.

  A fill loop writes one of the two 128 x 256 buffers a row (or sixteen rows) per trip and touches nothing else, so
  before trip k the buffer is its contents at the loop's entry overwritten by the pieces of the trips before k. One
  trip is taken at a symbolic k, with the pieces its stores write.
-/
import proofs.«210098_g2860448219651_cont_9to1_994_18_alg».proof.Proof.KBSetup
import proofs.«210098_g2860448219651_cont_9to1_994_18_alg».proof.Proof.KBFill
import Idealize.ShloMosaic.Lib.ValueLayout

set_option maxRecDepth 8192
set_option maxHeartbeats 4000000

noncomputable section

namespace Cert.Proof.KB

open Cert.Kernel Cert.Kernel.Gen

open Idealize.ShloMosaic Idealize.ShloMosaic.Tactic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-! ### The loop `k0_t2_loop`: each trip stores sixteen fixed lane vectors across row k of the first buffer -/

/-- The sixteen 16-lane pieces a trip stores, in column-block order. -/
def u2 (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) : Fin 16 → (S1x16.Idx → Elt F .f32) :=
  ![k0_pay1 v15, k0_pay2 v18, k0_pay3 v21, k0_pay4 v24, k0_pay5 v27, k0_pay6 v30, k0_pay7 v33, k0_pay8 v36, k0_pay9 v39, k0_pay10 v42, k0_pay33 v45, k0_pay34 v48, k0_pay35 v50, k0_pay36 v53, k0_pay37 v56, k0_pay38 v59]

/-- One trip at a symbolic `k`, with the pieces its stores write; each is a block of the buffer whose rows are all
    the sixteen pieces side by side, and together they cover row `k`. -/
@[irreducible] def trip_t2 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (k : Fin k0_t2_loop.trips) :
    { Lw : List (View.Piece (Elt F) S128x256 .f32) // (∀ (E : Set ℕ) (fw : BufTy.Contents (Elt F) arg6.view.ty) (acc : BitVec 32),
      (iprop((arg6.view.loc (V d (cV i) (jV i)) ↦[arg6.view.set]{fullShare} fw)) : sProp 𝕄)
      ⊢ wp frame (wpE (defs₀ (F := F)) 𝒱 (V d (cV i) (jV i)) bd) E (k0_t2_body (F := F) i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k acc)
          (fun _ => iprop((arg6.view.loc (V d (cV i) (jV i)) ↦[arg6.view.set]{fullShare} arg6.view.writes (Elt F) fw Lw))))
      ∧ (∀ p ∈ Lw, ∀ x : p.1.shape.Idx, p.2 x = colG (u2 v15 v18 v21 v24 v27 v30 v33 v36 v39 v42 v45 v48 v50 v53 v56 v59) (p.1.emb x))
      ∧ (∀ y : S128x256.Idx, (y 0).val = k.val → ∃ p ∈ Lw, y ∈ p.1.set) } := by
  have hk : k.val < 128 := Nat.lt_of_lt_of_le k.isLt k0_t2_abs.2.1
  refine ⟨?_, fun E fw acc => ?run, ?agree, ?cover⟩
  case run =>
    unfold k0_t2_body
    iintro HW
    sl_exec
    sl_step
    sl_close
  case agree =>
    repeat' (first | exact fun _ h => absurd h List.not_mem_nil | refine List.forall_mem_cons.mpr ⟨?_, ?_⟩)
    · exact colG_piece _ (k0_off33 k) (k0_off33_inb k) _ _ (k0_off33_eq k) (by decide) (by decide) _ rfl
    · exact colG_piece _ (k0_off32 k) (k0_off32_inb k) _ _ (k0_off32_eq k) (by decide) (by decide) _ rfl
    · exact colG_piece _ (k0_off31 k) (k0_off31_inb k) _ _ (k0_off31_eq k) (by decide) (by decide) _ rfl
    · exact colG_piece _ (k0_off30 k) (k0_off30_inb k) _ _ (k0_off30_eq k) (by decide) (by decide) _ rfl
    · exact colG_piece _ (k0_off29 k) (k0_off29_inb k) _ _ (k0_off29_eq k) (by decide) (by decide) _ rfl
    · exact colG_piece _ (k0_off28 k) (k0_off28_inb k) _ _ (k0_off28_eq k) (by decide) (by decide) _ rfl
    · exact colG_piece _ (k0_off27 k) (k0_off27_inb k) _ _ (k0_off27_eq k) (by decide) (by decide) _ rfl
    · exact colG_piece _ (k0_off26 k) (k0_off26_inb k) _ _ (k0_off26_eq k) (by decide) (by decide) _ rfl
    · exact colG_piece _ (k0_off25 k) (k0_off25_inb k) _ _ (k0_off25_eq k) (by decide) (by decide) _ rfl
    · exact colG_piece _ (k0_off24 k) (k0_off24_inb k) _ _ (k0_off24_eq k) (by decide) (by decide) _ rfl
    · exact colG_piece _ (k0_off23 k) (k0_off23_inb k) _ _ (k0_off23_eq k) (by decide) (by decide) _ rfl
    · exact colG_piece _ (k0_off22 k) (k0_off22_inb k) _ _ (k0_off22_eq k) (by decide) (by decide) _ rfl
    · exact colG_piece _ (k0_off21 k) (k0_off21_inb k) _ _ (k0_off21_eq k) (by decide) (by decide) _ rfl
    · exact colG_piece _ (k0_off20 k) (k0_off20_inb k) _ _ (k0_off20_eq k) (by decide) (by decide) _ rfl
    · exact colG_piece _ (k0_off19 k) (k0_off19_inb k) _ _ (k0_off19_eq k) (by decide) (by decide) _ rfl
    · exact colG_piece _ (k0_off18 k) (k0_off18_inb k) _ _ (k0_off18_eq k) (by decide) (by decide) _ rfl
  case cover =>
    refine cover_row16 _ k.val fun j => ?_
    fin_cases j
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), k0_off18_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), k0_off19_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), k0_off20_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), k0_off21_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), k0_off22_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), k0_off23_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), k0_off24_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), k0_off25_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), k0_off26_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_self)))))), k0_off27_eq k, rfl, fun _ => rfl⟩
    · exact ⟨_, List.mem_cons_of_mem _ (List.mem_cons_of_mem _ (List.mem_cons_of_mem _ (List.mem_cons_of_mem _ (List.mem_cons_of_mem _ (List.mem_cons_self))))), k0_off28_eq k, rfl, fun _ => rfl⟩
    · exact ⟨_, List.mem_cons_of_mem _ (List.mem_cons_of_mem _ (List.mem_cons_of_mem _ (List.mem_cons_of_mem _ (List.mem_cons_self)))), k0_off29_eq k, rfl, fun _ => rfl⟩
    · exact ⟨_, List.mem_cons_of_mem _ (List.mem_cons_of_mem _ (List.mem_cons_of_mem _ (List.mem_cons_self))), k0_off30_eq k, rfl, fun _ => rfl⟩
    · exact ⟨_, List.mem_cons_of_mem _ (List.mem_cons_of_mem _ (List.mem_cons_self)), k0_off31_eq k, rfl, fun _ => rfl⟩
    · exact ⟨_, List.mem_cons_of_mem _ (List.mem_cons_self), k0_off32_eq k, rfl, fun _ => rfl⟩
    · exact ⟨_, List.mem_cons_self, k0_off33_eq k, rfl, fun _ => rfl⟩

/-- The pieces of trip `k`. -/
abbrev tripL_t2 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (k : Fin k0_t2_loop.trips) : List (View.Piece (Elt F) S128x256 .f32) :=
  (trip_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k).1

/-- Trip `k`'s pieces in front of those before it; past the last trip, nothing more. -/
@[irreducible] def pb_t2Step (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (k : ℕ) (prev : List (View.Piece (Elt F) S128x256 .f32)) : List (View.Piece (Elt F) S128x256 .f32) :=
  if h : k < k0_t2_loop.trips then (tripL_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 ⟨k, h⟩) ++ prev else prev

/-- The pieces of the trips before `k`, last first. -/
def pb_t2 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) : ℕ → List (View.Piece (Elt F) S128x256 .f32)
  | 0 => []
  | k + 1 => pb_t2Step 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k (pb_t2 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k)

theorem pb_t2_succ (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (k : Fin k0_t2_loop.trips) :
    pb_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 (k.val + 1) = (tripL_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k) ++ (pb_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k.val) := by
  rw [pb_t2.eq_2]; unfold pb_t2Step; exact dif_pos k.isLt

/-- Before trip `k` the written buffer holds the pieces of the trips before `k` over its contents `G` at the loop's entry. -/
abbrev inv_t2 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (G : BufTy.Contents (Elt F) arg6.view.ty) (k : ℕ) (_a : BitVec 32) : sProp 𝕄 :=
  iprop((∃ f, (arg6.view.loc (V d (cV i) (jV i)) ↦[arg6.view.set]{fullShare} f) ∗ ⌜f = arg6.view.writes (Elt F) G (pb_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k)⌝))

set_option warn.classDefReducibility false in
/-- The loop by that invariant. -/
@[sl_loop] def loopInv_t2 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (E : Set ℕ) (G : BufTy.Contents (Elt F) arg6.view.ty) :
    LoopInv (M := MT nD τ sig (HIx 1) (Elt F) ℕ UU ℕ) Idealize.ShloMosaic.frame (wpE (defs₀ (F := F)) 𝒱 (V d (cV i) (jV i)) bd) E
      k0_t2_loop.lb k0_t2_loop.ub k0_t2_loop.st k0_t2_ok (0#32) (k0_t2_body (F := F) i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59) where
  inv := inv_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 G
  step k acc := by
    iintro ⟨%fw, HW, %hw⟩
    iapply (wp_wand_r Idealize.ShloMosaic.frame (wpE (defs₀ (F := F)) 𝒱 (V d (cV i) (jV i)) bd) E)
    isplitl [HW]
    · iapply ((trip_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k).2.1 E fw acc)
      iexact HW
    · iintro %_ HW
      unfold inv_t2
      rw [pb_t2_succ]
      iexists _; isplitl [HW]; · iexact HW
      ipureintro; rw [hw, ← View.writes_append]

/-! ### What the loop leaves -/

/-- The loop runs 128 trips, one per row. -/
theorem trips_t2 : k0_t2_loop.trips = 128 := by decide +kernel

/-- After the loop every row of the written buffer is the sixteen pieces side by side, whatever it held before. -/
theorem fill_t2 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (G0 : BufTy.Contents (Elt F) arg6.view.ty) (y : S128x256.Idx) :
    arg6.view.read (Elt F) (arg6.view.writes (Elt F) G0 (pb_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 (Scf.trips k0_t2_loop.lb k0_t2_loop.ub k0_t2_loop.st))) y
      = colG (u2 v15 v18 v21 v24 v27 v30 v33 v36 v39 v42 v45 v48 v50 v53 v56 v59) y :=
  read_of_trips arg6.view G0 (colG (u2 v15 v18 v21 v24 v27 v30 v33 v36 v39 v42 v45 v48 v50 v53 v56 v59)) k0_t2_loop.trips (pb_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59) (tripL_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59) rfl
    (pb_t2_succ (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59) (fun y => (y 0).val)
    (fun k => (trip_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k).2.2.1) (fun k => (trip_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k).2.2.2) y
    (by rw [trips_t2]; exact idx2_lt0 y)

/-- A lane of a piece, in terms of the vectors the loop was given. -/
theorem u2_apply (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (j : Fin 16) (x : Fin 16) :
    u2 v15 v18 v21 v24 v27 v30 v33 v36 v39 v42 v45 v48 v50 v53 v56 v59 j (ix2 (0 : Fin 1) x) = (![v15 (ix1 x), v18 (ix1 x), v21 (ix1 x), v24 (ix1 x), v27 (ix1 x), v30 (ix1 x), v33 (ix1 x), v36 (ix1 x), v39 (ix1 x), v42 (ix1 x), v45 (ix1 x), v48 (ix1 x), v50 (ix2 (0 : Fin 1) x), v53 (ix2 (0 : Fin 1) x), v56 (ix2 (0 : Fin 1) x), v59 (ix2 (0 : Fin 1) x)] : Fin 16 → Elt F .f32) j := by
  fin_cases j
  · exact shapeCast_a_1a_apply v15 _ 0 x
  · exact shapeCast_a_1a_apply v18 _ 0 x
  · exact shapeCast_a_1a_apply v21 _ 0 x
  · exact shapeCast_a_1a_apply v24 _ 0 x
  · exact shapeCast_a_1a_apply v27 _ 0 x
  · exact shapeCast_a_1a_apply v30 _ 0 x
  · exact shapeCast_a_1a_apply v33 _ 0 x
  · exact shapeCast_a_1a_apply v36 _ 0 x
  · exact shapeCast_a_1a_apply v39 _ 0 x
  · exact shapeCast_a_1a_apply v42 _ 0 x
  · exact shapeCast_a_1a_apply v45 _ 0 x
  · exact shapeCast_a_1a_apply v48 _ 0 x
  · exact (shapeCast_a_1a_apply _ _ 0 x).trans (shapeCast_1a_a_apply v50 _ x)
  · exact (shapeCast_a_1a_apply _ _ 0 x).trans (shapeCast_1a_a_apply v53 _ x)
  · exact (shapeCast_a_1a_apply _ _ 0 x).trans (shapeCast_1a_a_apply v56 _ x)
  · exact (shapeCast_a_1a_apply _ _ 0 x).trans (shapeCast_1a_a_apply v59 _ x)

end Cert.Proof.KB

end
-- ==== Proof.KBLoopA1.lean ====
/-
  The fill loops of a worker's task, each by an invariant.

  A fill loop writes one of the two 128 x 256 buffers a row (or sixteen rows) per trip and touches nothing else, so
  before trip k the buffer is its contents at the loop's entry overwritten by the pieces of the trips before k. One
  trip is taken at a symbolic k, with the pieces its stores write.
-/
import proofs.«210098_g2860448219651_cont_9to1_994_18_alg».proof.Proof.KBSetup
import proofs.«210098_g2860448219651_cont_9to1_994_18_alg».proof.Proof.KBFill
import Idealize.ShloMosaic.Lib.ValueLayout

set_option maxRecDepth 8192
set_option maxHeartbeats 4000000

noncomputable section

namespace Cert.Proof.KB

open Cert.Kernel Cert.Kernel.Gen

open Idealize.ShloMosaic Idealize.ShloMosaic.Tactic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-! ### The loop `k0_t3_loop`: each trip stores sixteen fixed lane vectors across row k of the second buffer -/

/-- The sixteen 16-lane pieces a trip stores, in column-block order. -/
def u3 (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) : Fin 16 → (S1x16.Idx → Elt F .f32) :=
  ![k0_pay11 v103, k0_pay12 v106, k0_pay13 v109, k0_pay14 v112, k0_pay15 v115, k0_pay16 v118, k0_pay17 v121, k0_pay18 v124, k0_pay19 v127, k0_pay20 v130, k0_pay55 v133, k0_pay56 v136, k0_pay57 v139, k0_pay58 v142, k0_pay59 v145, k0_pay60 v148]

/-- One trip at a symbolic `k`, with the pieces its stores write; each is a block of the buffer whose rows are all
    the sixteen pieces side by side, and together they cover row `k`. -/
@[irreducible] def trip_t3 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (k : Fin k0_t3_loop.trips) :
    { Lw : List (View.Piece (Elt F) S128x256 .f32) // (∀ (E : Set ℕ) (fw : BufTy.Contents (Elt F) arg7.view.ty) (acc : BitVec 32),
      (iprop((arg7.view.loc (V d (cV i) (jV i)) ↦[arg7.view.set]{fullShare} fw)) : sProp 𝕄)
      ⊢ wp frame (wpE (defs₀ (F := F)) 𝒱 (V d (cV i) (jV i)) bd) E (k0_t3_body (F := F) i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k acc)
          (fun _ => iprop((arg7.view.loc (V d (cV i) (jV i)) ↦[arg7.view.set]{fullShare} arg7.view.writes (Elt F) fw Lw))))
      ∧ (∀ p ∈ Lw, ∀ x : p.1.shape.Idx, p.2 x = colG (u3 v103 v106 v109 v112 v115 v118 v121 v124 v127 v130 v133 v136 v139 v142 v145 v148) (p.1.emb x))
      ∧ (∀ y : S128x256.Idx, (y 0).val = k.val → ∃ p ∈ Lw, y ∈ p.1.set) } := by
  have hk : k.val < 128 := Nat.lt_of_lt_of_le k.isLt k0_t3_abs.2.1
  refine ⟨?_, fun E fw acc => ?run, ?agree, ?cover⟩
  case run =>
    unfold k0_t3_body
    iintro HW
    sl_exec
    sl_step
    sl_close
  case agree =>
    repeat' (first | exact fun _ h => absurd h List.not_mem_nil | refine List.forall_mem_cons.mpr ⟨?_, ?_⟩)
    · exact colG_piece _ (k0_off57 k) (k0_off57_inb k) _ _ (k0_off57_eq k) (by decide) (by decide) _ rfl
    · exact colG_piece _ (k0_off56 k) (k0_off56_inb k) _ _ (k0_off56_eq k) (by decide) (by decide) _ rfl
    · exact colG_piece _ (k0_off55 k) (k0_off55_inb k) _ _ (k0_off55_eq k) (by decide) (by decide) _ rfl
    · exact colG_piece _ (k0_off54 k) (k0_off54_inb k) _ _ (k0_off54_eq k) (by decide) (by decide) _ rfl
    · exact colG_piece _ (k0_off53 k) (k0_off53_inb k) _ _ (k0_off53_eq k) (by decide) (by decide) _ rfl
    · exact colG_piece _ (k0_off52 k) (k0_off52_inb k) _ _ (k0_off52_eq k) (by decide) (by decide) _ rfl
    · exact colG_piece _ (k0_off51 k) (k0_off51_inb k) _ _ (k0_off51_eq k) (by decide) (by decide) _ rfl
    · exact colG_piece _ (k0_off50 k) (k0_off50_inb k) _ _ (k0_off50_eq k) (by decide) (by decide) _ rfl
    · exact colG_piece _ (k0_off49 k) (k0_off49_inb k) _ _ (k0_off49_eq k) (by decide) (by decide) _ rfl
    · exact colG_piece _ (k0_off48 k) (k0_off48_inb k) _ _ (k0_off48_eq k) (by decide) (by decide) _ rfl
    · exact colG_piece _ (k0_off47 k) (k0_off47_inb k) _ _ (k0_off47_eq k) (by decide) (by decide) _ rfl
    · exact colG_piece _ (k0_off46 k) (k0_off46_inb k) _ _ (k0_off46_eq k) (by decide) (by decide) _ rfl
    · exact colG_piece _ (k0_off45 k) (k0_off45_inb k) _ _ (k0_off45_eq k) (by decide) (by decide) _ rfl
    · exact colG_piece _ (k0_off44 k) (k0_off44_inb k) _ _ (k0_off44_eq k) (by decide) (by decide) _ rfl
    · exact colG_piece _ (k0_off43 k) (k0_off43_inb k) _ _ (k0_off43_eq k) (by decide) (by decide) _ rfl
    · exact colG_piece _ (k0_off42 k) (k0_off42_inb k) _ _ (k0_off42_eq k) (by decide) (by decide) _ rfl
  case cover =>
    refine cover_row16 _ k.val fun j => ?_
    fin_cases j
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), k0_off42_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), k0_off43_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), k0_off44_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), k0_off45_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), k0_off46_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), k0_off47_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), k0_off48_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), k0_off49_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), k0_off50_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_self)))))), k0_off51_eq k, rfl, fun _ => rfl⟩
    · exact ⟨_, List.mem_cons_of_mem _ (List.mem_cons_of_mem _ (List.mem_cons_of_mem _ (List.mem_cons_of_mem _ (List.mem_cons_of_mem _ (List.mem_cons_self))))), k0_off52_eq k, rfl, fun _ => rfl⟩
    · exact ⟨_, List.mem_cons_of_mem _ (List.mem_cons_of_mem _ (List.mem_cons_of_mem _ (List.mem_cons_of_mem _ (List.mem_cons_self)))), k0_off53_eq k, rfl, fun _ => rfl⟩
    · exact ⟨_, List.mem_cons_of_mem _ (List.mem_cons_of_mem _ (List.mem_cons_of_mem _ (List.mem_cons_self))), k0_off54_eq k, rfl, fun _ => rfl⟩
    · exact ⟨_, List.mem_cons_of_mem _ (List.mem_cons_of_mem _ (List.mem_cons_self)), k0_off55_eq k, rfl, fun _ => rfl⟩
    · exact ⟨_, List.mem_cons_of_mem _ (List.mem_cons_self), k0_off56_eq k, rfl, fun _ => rfl⟩
    · exact ⟨_, List.mem_cons_self, k0_off57_eq k, rfl, fun _ => rfl⟩

/-- The pieces of trip `k`. -/
abbrev tripL_t3 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (k : Fin k0_t3_loop.trips) : List (View.Piece (Elt F) S128x256 .f32) :=
  (trip_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k).1

/-- Trip `k`'s pieces in front of those before it; past the last trip, nothing more. -/
@[irreducible] def pb_t3Step (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (k : ℕ) (prev : List (View.Piece (Elt F) S128x256 .f32)) : List (View.Piece (Elt F) S128x256 .f32) :=
  if h : k < k0_t3_loop.trips then (tripL_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 ⟨k, h⟩) ++ prev else prev

/-- The pieces of the trips before `k`, last first. -/
def pb_t3 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) : ℕ → List (View.Piece (Elt F) S128x256 .f32)
  | 0 => []
  | k + 1 => pb_t3Step 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k (pb_t3 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k)

theorem pb_t3_succ (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (k : Fin k0_t3_loop.trips) :
    pb_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 (k.val + 1) = (tripL_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k) ++ (pb_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k.val) := by
  rw [pb_t3.eq_2]; unfold pb_t3Step; exact dif_pos k.isLt

/-- Before trip `k` the written buffer holds the pieces of the trips before `k` over its contents `G` at the loop's entry. -/
abbrev inv_t3 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (G : BufTy.Contents (Elt F) arg7.view.ty) (k : ℕ) (_a : BitVec 32) : sProp 𝕄 :=
  iprop((∃ f, (arg7.view.loc (V d (cV i) (jV i)) ↦[arg7.view.set]{fullShare} f) ∗ ⌜f = arg7.view.writes (Elt F) G (pb_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k)⌝))

set_option warn.classDefReducibility false in
/-- The loop by that invariant. -/
@[sl_loop] def loopInv_t3 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (E : Set ℕ) (G : BufTy.Contents (Elt F) arg7.view.ty) :
    LoopInv (M := MT nD τ sig (HIx 1) (Elt F) ℕ UU ℕ) Idealize.ShloMosaic.frame (wpE (defs₀ (F := F)) 𝒱 (V d (cV i) (jV i)) bd) E
      k0_t3_loop.lb k0_t3_loop.ub k0_t3_loop.st k0_t3_ok (c0_i32_75) (k0_t3_body (F := F) i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76) where
  inv := inv_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 G
  step k acc := by
    iintro ⟨%fw, HW, %hw⟩
    iapply (wp_wand_r Idealize.ShloMosaic.frame (wpE (defs₀ (F := F)) 𝒱 (V d (cV i) (jV i)) bd) E)
    isplitl [HW]
    · iapply ((trip_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k).2.1 E fw acc)
      iexact HW
    · iintro %_ HW
      unfold inv_t3
      rw [pb_t3_succ]
      iexists _; isplitl [HW]; · iexact HW
      ipureintro; rw [hw, ← View.writes_append]

/-! ### What the loop leaves -/

/-- The loop runs 128 trips, one per row. -/
theorem trips_t3 : k0_t3_loop.trips = 128 := by decide +kernel

/-- After the loop every row of the written buffer is the sixteen pieces side by side, whatever it held before. -/
theorem fill_t3 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (G0 : BufTy.Contents (Elt F) arg7.view.ty) (y : S128x256.Idx) :
    arg7.view.read (Elt F) (arg7.view.writes (Elt F) G0 (pb_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 (Scf.trips k0_t3_loop.lb k0_t3_loop.ub k0_t3_loop.st))) y
      = colG (u3 v103 v106 v109 v112 v115 v118 v121 v124 v127 v130 v133 v136 v139 v142 v145 v148) y :=
  read_of_trips arg7.view G0 (colG (u3 v103 v106 v109 v112 v115 v118 v121 v124 v127 v130 v133 v136 v139 v142 v145 v148)) k0_t3_loop.trips (pb_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76) (tripL_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76) rfl
    (pb_t3_succ (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76) (fun y => (y 0).val)
    (fun k => (trip_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k).2.2.1) (fun k => (trip_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k).2.2.2) y
    (by rw [trips_t3]; exact idx2_lt0 y)

/-- A lane of a piece, in terms of the vectors the loop was given. -/
theorem u3_apply (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (j : Fin 16) (x : Fin 16) :
    u3 v103 v106 v109 v112 v115 v118 v121 v124 v127 v130 v133 v136 v139 v142 v145 v148 j (ix2 (0 : Fin 1) x) = (![v103 (ix1 x), v106 (ix1 x), v109 (ix1 x), v112 (ix1 x), v115 (ix1 x), v118 (ix1 x), v121 (ix1 x), v124 (ix1 x), v127 (ix1 x), v130 (ix1 x), v133 (ix1 x), v136 (ix1 x), v139 (ix1 x), v142 (ix1 x), v145 (ix1 x), v148 (ix1 x)] : Fin 16 → Elt F .f32) j := by
  fin_cases j
  · exact shapeCast_a_1a_apply v103 _ 0 x
  · exact shapeCast_a_1a_apply v106 _ 0 x
  · exact shapeCast_a_1a_apply v109 _ 0 x
  · exact shapeCast_a_1a_apply v112 _ 0 x
  · exact shapeCast_a_1a_apply v115 _ 0 x
  · exact shapeCast_a_1a_apply v118 _ 0 x
  · exact shapeCast_a_1a_apply v121 _ 0 x
  · exact shapeCast_a_1a_apply v124 _ 0 x
  · exact shapeCast_a_1a_apply v127 _ 0 x
  · exact shapeCast_a_1a_apply v130 _ 0 x
  · exact shapeCast_a_1a_apply v133 _ 0 x
  · exact shapeCast_a_1a_apply v136 _ 0 x
  · exact shapeCast_a_1a_apply v139 _ 0 x
  · exact shapeCast_a_1a_apply v142 _ 0 x
  · exact shapeCast_a_1a_apply v145 _ 0 x
  · exact shapeCast_a_1a_apply v148 _ 0 x

end Cert.Proof.KB

end
-- ==== Proof.KBFillRow.lean ====
/-
  A buffer filled row by row with one entry per row, and the value of one splat lane.

  A row-fill trip loads sixteen staged entries once and, for each lane, stores that entry splat across one row of the
  buffer in sixteen 16-lane pieces. So the buffer reads, at row r and any column, entry r of the staged vector.
-/
import proofs.«210098_g2860448219651_cont_9to1_994_18_alg».proof.Proof.KBFill
import Idealize.ShloMosaic.Lib.ValueLayout

noncomputable section

namespace Cert.Proof.KB

open Cert.Kernel Cert.Kernel.Gen

open Idealize.ShloMosaic Idealize.ShloMosaic.ValueIdx

variable {F : FTy → Type}

/-- The buffer whose row `r` holds entry `r` of a 128-entry vector at every column. -/
def rowG (ent : Fin 128 → Elt F .f32) : S128x256.Idx → Elt F .f32 := fun y => ent ⟨(y 0).val, idx2_lt0 y⟩

/-- A 16-lane store at row `r` of a payload that is entry `r` at every lane agrees with `rowG ent`. -/
theorem rowG_piece (ent : Fin 128 → Elt F .f32) (off : Fin 2 → ℕ)
    (inb : ∀ a, off a + S1x16.size a ≤ S128x256.size a) (r c : ℕ) (h : off = ![r, c]) (hr : r < 128)
    (w : S1x16.Idx → Elt F .f32) (hw : ∀ x, w x = ent ⟨r, hr⟩) (x : S1x16.Idx) :
    w x = rowG ent ((Rect.unit (s := S128x256) off S1x16.size inb).emb x) := by
  rw [hw x]
  obtain ⟨a, b, rfl⟩ : ∃ (a : Fin 1) (b : Fin 16), x = ix2 a b := ⟨x 0, x 1, eq_ix2 x⟩
  have hv : (((Rect.unit (s := S128x256) off S1x16.size inb).emb (ix2 a b)) 0).val = r := by
    rw [Rect.emb_apply]
    show off 0 + 1 * a.val = _
    have ha := a.isLt
    rw [h]; show r + 1 * a.val = r; omega
  have key : ∀ (n : ℕ) (hn : n = r) (p : n < 128), ent ⟨r, hr⟩ = ent ⟨n, p⟩ := by
    intro n hn p; subst hn; rfl
  exact key _ hv _

/-- Sixteen rows from `r0` (a multiple of 16), each in sixteen 16-lane unit-stride pieces, cover every index whose row is
    in that block of sixteen. The piece of row `r0 + l`, column block `j` is looked up at position
    `(15 - l) * 16 + (15 - j)` of the list (the last store first). -/
theorem cover_rows16 {Val : EltTy → Type} (L : List (View.Piece Val S128x256 .f32)) (k : ℕ)
    (h : ∀ l j : Fin 16, ∃ p, L[(15 - l.val) * 16 + (15 - j.val)]? = some p ∧ p.1.off = ![16 * k + l.val, 16 * j.val]
      ∧ p.1.size = S1x16.size ∧ ∀ a, p.1.stride a = 1)
    (y : S128x256.Idx) (hy : (y 0).val / 16 = k) : ∃ p ∈ L, y ∈ p.1.set := by
  refine cover_row16 L (y 0).val (fun j => ?_) y rfl
  obtain ⟨p, hp, hoff, hsize, hstride⟩ := h ⟨(y 0).val % 16, Nat.mod_lt _ (by decide)⟩ j
  refine ⟨p, List.mem_of_getElem? hp, ?_, hsize, hstride⟩
  rw [hoff]
  have e : 16 * k + (y 0).val % 16 = (y 0).val := by omega
  show ![16 * k + (y 0).val % 16, 16 * j.val] = _
  rw [e]

/-- Lane `l` of a 16-lane vector, extracted and splat over sixteen lanes, is that lane's entry at every lane. -/
theorem lane_splat_apply {α : Type} (v : S1x16.Idx → α) (l : ℕ) (hl : l < 16) (hc1 : S1x16.ShapeCasts S16)
    (hs : S16.Slices ![l] S1) (hp : ∀ a, (![0] : Fin S1.rank → ℕ) a < S1.size a) (hc2 : S16.ShapeCasts S1x16)
    (x : S1x16.Idx) :
    shapeCast S1x16 (broadcast S16 (extractAt ![0] (extractStridedSlice S1 ![l] (shapeCast S16 v hc1) hs) hp)) hc2 x
      = v (ix2 (0 : Fin 1) ⟨l, hl⟩) := by
  show extractStridedSlice S1 ![l] (shapeCast S16 v hc1) hs (fun a => ⟨![0] a, hp a⟩) = v (ix2 (0 : Fin 1) ⟨l, hl⟩)
  rw [extractStridedSlice_apply ![l] (shapeCast S16 v hc1) hs _ (ix1 (⟨l, hl⟩ : Fin 16))
    (fun a => by match a with | ⟨0, _⟩ => rfl)]
  exact shapeCast_1a_a_apply v hc1 ⟨l, hl⟩

/-! ### The staged entries a row fill spreads -/

/-- The outer loop runs four trips, one per staged row of the second table. -/
theorem trips_t4 : k0_t4_loop.trips = 4 := by decide +kernel

/-- Its trip `t4` uses staged row `4 + t4` of the eight. -/
theorem row_t4_lt (t4 : Fin k0_t4_loop.trips) : 4 + t4.val < 8 := by
  have h : t4.val < 4 := Nat.lt_of_lt_of_eq t4.isLt trips_t4
  omega

section Staged

variable {sig : RefSig} {κ : Kind} {sp : Space} {Val : EltTy → Type}

/-- Entries `c0 .. c0 + 127` of row `r` of the staging scratch as it reads at contents `X`. -/
def entRow (v : View sig κ sp S8x256 .f32) (X : v.ty.Contents Val) (r : Fin 8) (c0 : ℕ) (hc0 : c0 + 128 ≤ 256) :
    Fin 128 → Val .f32 :=
  fun n => v.read Val X (ix2 r ⟨c0 + n.val, by have := n.isLt; omega⟩)

/-- Lane `l` of a 16-lane load at row `r`, column `c` of the staging scratch is its entry at column `c + l`. -/
theorem readAt_lane (v : View sig κ sp S8x256 .f32) (X : v.ty.Contents Val) (off : Fin 2 → ℕ)
    (inb : ∀ a, off a + S1x16.size a ≤ S8x256.size a) (r c : ℕ) (h : off = ![r, c]) (l : ℕ) (hl : l < 16) (hr : r < 8)
    (hc : c + l < 256) :
    v.readAt Val (Rect.unit (s := S8x256) off S1x16.size inb).toLoadRect X (ix2 (0 : Fin 1) ⟨l, hl⟩)
      = v.read Val X (ix2 ⟨r, hr⟩ ⟨c + l, hc⟩) := by
  rw [View.readAt_apply]
  refine congrArg _ (funext fun a => Fin.ext ?_)
  match a with
  | ⟨0, _⟩ => show off 0 + 1 * 0 = r; rw [h]; rfl
  | ⟨1, _⟩ => show off 1 + 1 * l = c + l; rw [h, Nat.one_mul]; rfl

end Staged

end Cert.Proof.KB

end
-- ==== Proof.KBLoopB0.lean ====
/-
  The fill loops of a worker's task, each by an invariant.

  A fill loop writes one of the two 128 x 256 buffers a row (or sixteen rows) per trip and touches nothing else, so
  before trip k the buffer is its contents at the loop's entry overwritten by the pieces of the trips before k. One
  trip is taken at a symbolic k, with the pieces its stores write.
-/
import proofs.«210098_g2860448219651_cont_9to1_994_18_alg».proof.Proof.KBSetup
import proofs.«210098_g2860448219651_cont_9to1_994_18_alg».proof.Proof.KBFillRow

set_option maxRecDepth 8192
set_option maxHeartbeats 4000000

noncomputable section

namespace Cert.Proof.KB

open Cert.Kernel Cert.Kernel.Gen

open Idealize.ShloMosaic Idealize.ShloMosaic.Tactic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-! ### The loop `k0_t5_loop`: each trip reads sixteen staged entries and spreads each along one of rows 16 k .. 16 k + 15 of the first buffer -/

/-- The trip's one load reads sixteen entries of staged row `4 + t4` from column `16 k`. -/
theorem k0_off58_eq' : ∀ (t4 : Fin k0_t4_loop.trips) (k : Fin k0_t5_loop.trips), k0_off58 t4 k = ![4 + t4.val, 16 * k.val] := by
  decide +kernel

/-- The sixteen staged entries trip `k` loads. -/
abbrev ld_t5 (arg5 : Memref sig .scVector .vmem S8x256 .f32) (k0_t4 : Fin k0_t4_loop.trips) (X_arg5 : BufTy.Contents (Elt F) arg5.view.ty) (k : Fin k0_t5_loop.trips) : S1x16.Idx → Elt F .f32 :=
  View.readAt (Elt F) arg5.view (Rect.unit (s := S8x256) (k0_off58 k0_t4 k) S1x16.size (k0_off58_inb k0_t4 k)).toLoadRect X_arg5

/-- Lane `l` of them, extracted and splat, is staged entry `16 k + l` at every lane. -/
theorem lane_t5 (arg5 : Memref sig .scVector .vmem S8x256 .f32) (k0_t4 : Fin k0_t4_loop.trips) (X_arg5 : BufTy.Contents (Elt F) arg5.view.ty) (k : Fin k0_t5_loop.trips)
    (l : ℕ) (hl : l < 16) (hr : 16 * k.val + l < 128) (hc1 : S1x16.ShapeCasts S16) (hs : S16.Slices ![l] S1) (hp : ∀ a, (![0] : Fin S1.rank → ℕ) a < S1.size a)
    (hc2 : S16.ShapeCasts S1x16) (x : S1x16.Idx) :
    shapeCast S1x16 (broadcast S16 (extractAt ![0] (extractStridedSlice S1 ![l] (shapeCast S16 (ld_t5 (F := F) arg5 k0_t4 X_arg5 k) hc1) hs) hp)) hc2 x
      = entRow arg5.view X_arg5 ⟨4 + k0_t4.val, row_t4_lt k0_t4⟩ 0 (by decide) ⟨16 * k.val + l, hr⟩ :=
  (lane_splat_apply _ l hl hc1 hs hp hc2 x).trans
    ((readAt_lane arg5.view X_arg5 _ _ (4 + k0_t4.val) (16 * k.val) (k0_off58_eq' k0_t4 k) l hl (row_t4_lt k0_t4) (by omega)).trans
      (congrArg (fun c => arg5.view.read (Elt F) X_arg5 (ix2 (⟨4 + k0_t4.val, row_t4_lt k0_t4⟩ : Fin 8) c)) (Fin.ext (by simp only; omega))))

/-- One trip at a symbolic `k`, with the pieces its stores write; each is a block of the buffer whose row `r` holds
    staged entry `r` at every column, and together they cover rows `16 k .. 16 k + 15`. -/
@[irreducible] def trip_t5 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (k : Fin k0_t5_loop.trips) :
    { Lw : List (View.Piece (Elt F) S128x256 .f32) // (∀ (E : Set ℕ) (fw : BufTy.Contents (Elt F) arg6.view.ty) (acc : BitVec 32),
      (iprop((arg5.view.loc (V d (cV i) (jV i)) ↦[arg5.view.set]{fullShare} X_arg5) ∗ (arg6.view.loc (V d (cV i) (jV i)) ↦[arg6.view.set]{fullShare} fw)) : sProp 𝕄)
      ⊢ wp frame (wpE (defs₀ (F := F)) 𝒱 (V d (cV i) (jV i)) bd) E (k0_t5_body (F := F) i arg2 harg2 arg3 harg3 arg4 harg4 arg5 harg5 arg6 harg6 arg7 harg7 arg8 arg9 v7_r0 v7_r1 k0_t4 arg10 v31 v43 v44 v45 k acc)
          (fun _ => iprop((arg5.view.loc (V d (cV i) (jV i)) ↦[arg5.view.set]{fullShare} X_arg5) ∗ (arg6.view.loc (V d (cV i) (jV i)) ↦[arg6.view.set]{fullShare} arg6.view.writes (Elt F) fw Lw))))
      ∧ (∀ p ∈ Lw, ∀ x : p.1.shape.Idx, p.2 x = rowG (entRow arg5.view X_arg5 ⟨4 + k0_t4.val, row_t4_lt k0_t4⟩ 0 (by decide)) (p.1.emb x))
      ∧ (∀ y : S128x256.Idx, (y 0).val / 16 = k.val → ∃ p ∈ Lw, y ∈ p.1.set) } := by
  have hk : k.val < 8 := Nat.lt_of_lt_of_le k.isLt k0_t5_abs.2.1
  refine ⟨?_, fun E fw acc => ?run, ?agree, ?cover⟩
  case run =>
    unfold k0_t5_body
    iintro ⟨HR, HW⟩
    sl_exec_parts
    sl_step
    sl_close
  case agree =>
    sl_unfold_run_names
    have hr0 : 16 * k.val + 0 < 128 := by omega
    have hr1 : 16 * k.val + 1 < 128 := by omega
    have hr2 : 16 * k.val + 2 < 128 := by omega
    have hr3 : 16 * k.val + 3 < 128 := by omega
    have hr4 : 16 * k.val + 4 < 128 := by omega
    have hr5 : 16 * k.val + 5 < 128 := by omega
    have hr6 : 16 * k.val + 6 < 128 := by omega
    have hr7 : 16 * k.val + 7 < 128 := by omega
    have hr8 : 16 * k.val + 8 < 128 := by omega
    have hr9 : 16 * k.val + 9 < 128 := by omega
    have hr10 : 16 * k.val + 10 < 128 := by omega
    have hr11 : 16 * k.val + 11 < 128 := by omega
    have hr12 : 16 * k.val + 12 < 128 := by omega
    have hr13 : 16 * k.val + 13 < 128 := by omega
    have hr14 : 16 * k.val + 14 < 128 := by omega
    have hr15 : 16 * k.val + 15 < 128 := by omega
    have hL0 := lane_t5 (F := F) arg5 k0_t4 X_arg5 k 0 (by decide) hr0 (by decide) (by decide) (by decide) (by decide)
    have hL1 := lane_t5 (F := F) arg5 k0_t4 X_arg5 k 1 (by decide) hr1 (by decide) (by decide) (by decide) (by decide)
    have hL2 := lane_t5 (F := F) arg5 k0_t4 X_arg5 k 2 (by decide) hr2 (by decide) (by decide) (by decide) (by decide)
    have hL3 := lane_t5 (F := F) arg5 k0_t4 X_arg5 k 3 (by decide) hr3 (by decide) (by decide) (by decide) (by decide)
    have hL4 := lane_t5 (F := F) arg5 k0_t4 X_arg5 k 4 (by decide) hr4 (by decide) (by decide) (by decide) (by decide)
    have hL5 := lane_t5 (F := F) arg5 k0_t4 X_arg5 k 5 (by decide) hr5 (by decide) (by decide) (by decide) (by decide)
    have hL6 := lane_t5 (F := F) arg5 k0_t4 X_arg5 k 6 (by decide) hr6 (by decide) (by decide) (by decide) (by decide)
    have hL7 := lane_t5 (F := F) arg5 k0_t4 X_arg5 k 7 (by decide) hr7 (by decide) (by decide) (by decide) (by decide)
    have hL8 := lane_t5 (F := F) arg5 k0_t4 X_arg5 k 8 (by decide) hr8 (by decide) (by decide) (by decide) (by decide)
    have hL9 := lane_t5 (F := F) arg5 k0_t4 X_arg5 k 9 (by decide) hr9 (by decide) (by decide) (by decide) (by decide)
    have hL10 := lane_t5 (F := F) arg5 k0_t4 X_arg5 k 10 (by decide) hr10 (by decide) (by decide) (by decide) (by decide)
    have hL11 := lane_t5 (F := F) arg5 k0_t4 X_arg5 k 11 (by decide) hr11 (by decide) (by decide) (by decide) (by decide)
    have hL12 := lane_t5 (F := F) arg5 k0_t4 X_arg5 k 12 (by decide) hr12 (by decide) (by decide) (by decide) (by decide)
    have hL13 := lane_t5 (F := F) arg5 k0_t4 X_arg5 k 13 (by decide) hr13 (by decide) (by decide) (by decide) (by decide)
    have hL14 := lane_t5 (F := F) arg5 k0_t4 X_arg5 k 14 (by decide) hr14 (by decide) (by decide) (by decide) (by decide)
    have hL15 := lane_t5 (F := F) arg5 k0_t4 X_arg5 k 15 (by decide) hr15 (by decide) (by decide) (by decide) (by decide)
    repeat' (first | exact fun _ h => absurd h List.not_mem_nil | refine List.forall_mem_cons.mpr ⟨?_, ?_⟩)
    · exact rowG_piece _ (k0_off74 k 15#32) (k0_off74_inb k 15) (16 * k.val + 15) 240 (k0_off74_eq k 15) hr15 _ hL15
    · exact rowG_piece _ (k0_off73 k 15#32) (k0_off73_inb k 15) (16 * k.val + 15) 224 (k0_off73_eq k 15) hr15 _ hL15
    · exact rowG_piece _ (k0_off72 k 15#32) (k0_off72_inb k 15) (16 * k.val + 15) 208 (k0_off72_eq k 15) hr15 _ hL15
    · exact rowG_piece _ (k0_off71 k 15#32) (k0_off71_inb k 15) (16 * k.val + 15) 192 (k0_off71_eq k 15) hr15 _ hL15
    · exact rowG_piece _ (k0_off70 k 15#32) (k0_off70_inb k 15) (16 * k.val + 15) 176 (k0_off70_eq k 15) hr15 _ hL15
    · exact rowG_piece _ (k0_off69 k 15#32) (k0_off69_inb k 15) (16 * k.val + 15) 160 (k0_off69_eq k 15) hr15 _ hL15
    · exact rowG_piece _ (k0_off68 k 15#32) (k0_off68_inb k 15) (16 * k.val + 15) 144 (k0_off68_eq k 15) hr15 _ hL15
    · exact rowG_piece _ (k0_off67 k 15#32) (k0_off67_inb k 15) (16 * k.val + 15) 128 (k0_off67_eq k 15) hr15 _ hL15
    · exact rowG_piece _ (k0_off66 k 15#32) (k0_off66_inb k 15) (16 * k.val + 15) 112 (k0_off66_eq k 15) hr15 _ hL15
    · exact rowG_piece _ (k0_off65 k 15#32) (k0_off65_inb k 15) (16 * k.val + 15) 96 (k0_off65_eq k 15) hr15 _ hL15
    · exact rowG_piece _ (k0_off64 k 15#32) (k0_off64_inb k 15) (16 * k.val + 15) 80 (k0_off64_eq k 15) hr15 _ hL15
    · exact rowG_piece _ (k0_off63 k 15#32) (k0_off63_inb k 15) (16 * k.val + 15) 64 (k0_off63_eq k 15) hr15 _ hL15
    · exact rowG_piece _ (k0_off62 k 15#32) (k0_off62_inb k 15) (16 * k.val + 15) 48 (k0_off62_eq k 15) hr15 _ hL15
    · exact rowG_piece _ (k0_off61 k 15#32) (k0_off61_inb k 15) (16 * k.val + 15) 32 (k0_off61_eq k 15) hr15 _ hL15
    · exact rowG_piece _ (k0_off60 k 15#32) (k0_off60_inb k 15) (16 * k.val + 15) 16 (k0_off60_eq k 15) hr15 _ hL15
    · exact rowG_piece _ (k0_off59 k 15#32) (k0_off59_inb k 15) (16 * k.val + 15) 0 (k0_off59_eq k 15) hr15 _ hL15
    · exact rowG_piece _ (k0_off74 k 14#32) (k0_off74_inb k 14) (16 * k.val + 14) 240 (k0_off74_eq k 14) hr14 _ hL14
    · exact rowG_piece _ (k0_off73 k 14#32) (k0_off73_inb k 14) (16 * k.val + 14) 224 (k0_off73_eq k 14) hr14 _ hL14
    · exact rowG_piece _ (k0_off72 k 14#32) (k0_off72_inb k 14) (16 * k.val + 14) 208 (k0_off72_eq k 14) hr14 _ hL14
    · exact rowG_piece _ (k0_off71 k 14#32) (k0_off71_inb k 14) (16 * k.val + 14) 192 (k0_off71_eq k 14) hr14 _ hL14
    · exact rowG_piece _ (k0_off70 k 14#32) (k0_off70_inb k 14) (16 * k.val + 14) 176 (k0_off70_eq k 14) hr14 _ hL14
    · exact rowG_piece _ (k0_off69 k 14#32) (k0_off69_inb k 14) (16 * k.val + 14) 160 (k0_off69_eq k 14) hr14 _ hL14
    · exact rowG_piece _ (k0_off68 k 14#32) (k0_off68_inb k 14) (16 * k.val + 14) 144 (k0_off68_eq k 14) hr14 _ hL14
    · exact rowG_piece _ (k0_off67 k 14#32) (k0_off67_inb k 14) (16 * k.val + 14) 128 (k0_off67_eq k 14) hr14 _ hL14
    · exact rowG_piece _ (k0_off66 k 14#32) (k0_off66_inb k 14) (16 * k.val + 14) 112 (k0_off66_eq k 14) hr14 _ hL14
    · exact rowG_piece _ (k0_off65 k 14#32) (k0_off65_inb k 14) (16 * k.val + 14) 96 (k0_off65_eq k 14) hr14 _ hL14
    · exact rowG_piece _ (k0_off64 k 14#32) (k0_off64_inb k 14) (16 * k.val + 14) 80 (k0_off64_eq k 14) hr14 _ hL14
    · exact rowG_piece _ (k0_off63 k 14#32) (k0_off63_inb k 14) (16 * k.val + 14) 64 (k0_off63_eq k 14) hr14 _ hL14
    · exact rowG_piece _ (k0_off62 k 14#32) (k0_off62_inb k 14) (16 * k.val + 14) 48 (k0_off62_eq k 14) hr14 _ hL14
    · exact rowG_piece _ (k0_off61 k 14#32) (k0_off61_inb k 14) (16 * k.val + 14) 32 (k0_off61_eq k 14) hr14 _ hL14
    · exact rowG_piece _ (k0_off60 k 14#32) (k0_off60_inb k 14) (16 * k.val + 14) 16 (k0_off60_eq k 14) hr14 _ hL14
    · exact rowG_piece _ (k0_off59 k 14#32) (k0_off59_inb k 14) (16 * k.val + 14) 0 (k0_off59_eq k 14) hr14 _ hL14
    · exact rowG_piece _ (k0_off74 k 13#32) (k0_off74_inb k 13) (16 * k.val + 13) 240 (k0_off74_eq k 13) hr13 _ hL13
    · exact rowG_piece _ (k0_off73 k 13#32) (k0_off73_inb k 13) (16 * k.val + 13) 224 (k0_off73_eq k 13) hr13 _ hL13
    · exact rowG_piece _ (k0_off72 k 13#32) (k0_off72_inb k 13) (16 * k.val + 13) 208 (k0_off72_eq k 13) hr13 _ hL13
    · exact rowG_piece _ (k0_off71 k 13#32) (k0_off71_inb k 13) (16 * k.val + 13) 192 (k0_off71_eq k 13) hr13 _ hL13
    · exact rowG_piece _ (k0_off70 k 13#32) (k0_off70_inb k 13) (16 * k.val + 13) 176 (k0_off70_eq k 13) hr13 _ hL13
    · exact rowG_piece _ (k0_off69 k 13#32) (k0_off69_inb k 13) (16 * k.val + 13) 160 (k0_off69_eq k 13) hr13 _ hL13
    · exact rowG_piece _ (k0_off68 k 13#32) (k0_off68_inb k 13) (16 * k.val + 13) 144 (k0_off68_eq k 13) hr13 _ hL13
    · exact rowG_piece _ (k0_off67 k 13#32) (k0_off67_inb k 13) (16 * k.val + 13) 128 (k0_off67_eq k 13) hr13 _ hL13
    · exact rowG_piece _ (k0_off66 k 13#32) (k0_off66_inb k 13) (16 * k.val + 13) 112 (k0_off66_eq k 13) hr13 _ hL13
    · exact rowG_piece _ (k0_off65 k 13#32) (k0_off65_inb k 13) (16 * k.val + 13) 96 (k0_off65_eq k 13) hr13 _ hL13
    · exact rowG_piece _ (k0_off64 k 13#32) (k0_off64_inb k 13) (16 * k.val + 13) 80 (k0_off64_eq k 13) hr13 _ hL13
    · exact rowG_piece _ (k0_off63 k 13#32) (k0_off63_inb k 13) (16 * k.val + 13) 64 (k0_off63_eq k 13) hr13 _ hL13
    · exact rowG_piece _ (k0_off62 k 13#32) (k0_off62_inb k 13) (16 * k.val + 13) 48 (k0_off62_eq k 13) hr13 _ hL13
    · exact rowG_piece _ (k0_off61 k 13#32) (k0_off61_inb k 13) (16 * k.val + 13) 32 (k0_off61_eq k 13) hr13 _ hL13
    · exact rowG_piece _ (k0_off60 k 13#32) (k0_off60_inb k 13) (16 * k.val + 13) 16 (k0_off60_eq k 13) hr13 _ hL13
    · exact rowG_piece _ (k0_off59 k 13#32) (k0_off59_inb k 13) (16 * k.val + 13) 0 (k0_off59_eq k 13) hr13 _ hL13
    · exact rowG_piece _ (k0_off74 k 12#32) (k0_off74_inb k 12) (16 * k.val + 12) 240 (k0_off74_eq k 12) hr12 _ hL12
    · exact rowG_piece _ (k0_off73 k 12#32) (k0_off73_inb k 12) (16 * k.val + 12) 224 (k0_off73_eq k 12) hr12 _ hL12
    · exact rowG_piece _ (k0_off72 k 12#32) (k0_off72_inb k 12) (16 * k.val + 12) 208 (k0_off72_eq k 12) hr12 _ hL12
    · exact rowG_piece _ (k0_off71 k 12#32) (k0_off71_inb k 12) (16 * k.val + 12) 192 (k0_off71_eq k 12) hr12 _ hL12
    · exact rowG_piece _ (k0_off70 k 12#32) (k0_off70_inb k 12) (16 * k.val + 12) 176 (k0_off70_eq k 12) hr12 _ hL12
    · exact rowG_piece _ (k0_off69 k 12#32) (k0_off69_inb k 12) (16 * k.val + 12) 160 (k0_off69_eq k 12) hr12 _ hL12
    · exact rowG_piece _ (k0_off68 k 12#32) (k0_off68_inb k 12) (16 * k.val + 12) 144 (k0_off68_eq k 12) hr12 _ hL12
    · exact rowG_piece _ (k0_off67 k 12#32) (k0_off67_inb k 12) (16 * k.val + 12) 128 (k0_off67_eq k 12) hr12 _ hL12
    · exact rowG_piece _ (k0_off66 k 12#32) (k0_off66_inb k 12) (16 * k.val + 12) 112 (k0_off66_eq k 12) hr12 _ hL12
    · exact rowG_piece _ (k0_off65 k 12#32) (k0_off65_inb k 12) (16 * k.val + 12) 96 (k0_off65_eq k 12) hr12 _ hL12
    · exact rowG_piece _ (k0_off64 k 12#32) (k0_off64_inb k 12) (16 * k.val + 12) 80 (k0_off64_eq k 12) hr12 _ hL12
    · exact rowG_piece _ (k0_off63 k 12#32) (k0_off63_inb k 12) (16 * k.val + 12) 64 (k0_off63_eq k 12) hr12 _ hL12
    · exact rowG_piece _ (k0_off62 k 12#32) (k0_off62_inb k 12) (16 * k.val + 12) 48 (k0_off62_eq k 12) hr12 _ hL12
    · exact rowG_piece _ (k0_off61 k 12#32) (k0_off61_inb k 12) (16 * k.val + 12) 32 (k0_off61_eq k 12) hr12 _ hL12
    · exact rowG_piece _ (k0_off60 k 12#32) (k0_off60_inb k 12) (16 * k.val + 12) 16 (k0_off60_eq k 12) hr12 _ hL12
    · exact rowG_piece _ (k0_off59 k 12#32) (k0_off59_inb k 12) (16 * k.val + 12) 0 (k0_off59_eq k 12) hr12 _ hL12
    · exact rowG_piece _ (k0_off74 k 11#32) (k0_off74_inb k 11) (16 * k.val + 11) 240 (k0_off74_eq k 11) hr11 _ hL11
    · exact rowG_piece _ (k0_off73 k 11#32) (k0_off73_inb k 11) (16 * k.val + 11) 224 (k0_off73_eq k 11) hr11 _ hL11
    · exact rowG_piece _ (k0_off72 k 11#32) (k0_off72_inb k 11) (16 * k.val + 11) 208 (k0_off72_eq k 11) hr11 _ hL11
    · exact rowG_piece _ (k0_off71 k 11#32) (k0_off71_inb k 11) (16 * k.val + 11) 192 (k0_off71_eq k 11) hr11 _ hL11
    · exact rowG_piece _ (k0_off70 k 11#32) (k0_off70_inb k 11) (16 * k.val + 11) 176 (k0_off70_eq k 11) hr11 _ hL11
    · exact rowG_piece _ (k0_off69 k 11#32) (k0_off69_inb k 11) (16 * k.val + 11) 160 (k0_off69_eq k 11) hr11 _ hL11
    · exact rowG_piece _ (k0_off68 k 11#32) (k0_off68_inb k 11) (16 * k.val + 11) 144 (k0_off68_eq k 11) hr11 _ hL11
    · exact rowG_piece _ (k0_off67 k 11#32) (k0_off67_inb k 11) (16 * k.val + 11) 128 (k0_off67_eq k 11) hr11 _ hL11
    · exact rowG_piece _ (k0_off66 k 11#32) (k0_off66_inb k 11) (16 * k.val + 11) 112 (k0_off66_eq k 11) hr11 _ hL11
    · exact rowG_piece _ (k0_off65 k 11#32) (k0_off65_inb k 11) (16 * k.val + 11) 96 (k0_off65_eq k 11) hr11 _ hL11
    · exact rowG_piece _ (k0_off64 k 11#32) (k0_off64_inb k 11) (16 * k.val + 11) 80 (k0_off64_eq k 11) hr11 _ hL11
    · exact rowG_piece _ (k0_off63 k 11#32) (k0_off63_inb k 11) (16 * k.val + 11) 64 (k0_off63_eq k 11) hr11 _ hL11
    · exact rowG_piece _ (k0_off62 k 11#32) (k0_off62_inb k 11) (16 * k.val + 11) 48 (k0_off62_eq k 11) hr11 _ hL11
    · exact rowG_piece _ (k0_off61 k 11#32) (k0_off61_inb k 11) (16 * k.val + 11) 32 (k0_off61_eq k 11) hr11 _ hL11
    · exact rowG_piece _ (k0_off60 k 11#32) (k0_off60_inb k 11) (16 * k.val + 11) 16 (k0_off60_eq k 11) hr11 _ hL11
    · exact rowG_piece _ (k0_off59 k 11#32) (k0_off59_inb k 11) (16 * k.val + 11) 0 (k0_off59_eq k 11) hr11 _ hL11
    · exact rowG_piece _ (k0_off74 k 10#32) (k0_off74_inb k 10) (16 * k.val + 10) 240 (k0_off74_eq k 10) hr10 _ hL10
    · exact rowG_piece _ (k0_off73 k 10#32) (k0_off73_inb k 10) (16 * k.val + 10) 224 (k0_off73_eq k 10) hr10 _ hL10
    · exact rowG_piece _ (k0_off72 k 10#32) (k0_off72_inb k 10) (16 * k.val + 10) 208 (k0_off72_eq k 10) hr10 _ hL10
    · exact rowG_piece _ (k0_off71 k 10#32) (k0_off71_inb k 10) (16 * k.val + 10) 192 (k0_off71_eq k 10) hr10 _ hL10
    · exact rowG_piece _ (k0_off70 k 10#32) (k0_off70_inb k 10) (16 * k.val + 10) 176 (k0_off70_eq k 10) hr10 _ hL10
    · exact rowG_piece _ (k0_off69 k 10#32) (k0_off69_inb k 10) (16 * k.val + 10) 160 (k0_off69_eq k 10) hr10 _ hL10
    · exact rowG_piece _ (k0_off68 k 10#32) (k0_off68_inb k 10) (16 * k.val + 10) 144 (k0_off68_eq k 10) hr10 _ hL10
    · exact rowG_piece _ (k0_off67 k 10#32) (k0_off67_inb k 10) (16 * k.val + 10) 128 (k0_off67_eq k 10) hr10 _ hL10
    · exact rowG_piece _ (k0_off66 k 10#32) (k0_off66_inb k 10) (16 * k.val + 10) 112 (k0_off66_eq k 10) hr10 _ hL10
    · exact rowG_piece _ (k0_off65 k 10#32) (k0_off65_inb k 10) (16 * k.val + 10) 96 (k0_off65_eq k 10) hr10 _ hL10
    · exact rowG_piece _ (k0_off64 k 10#32) (k0_off64_inb k 10) (16 * k.val + 10) 80 (k0_off64_eq k 10) hr10 _ hL10
    · exact rowG_piece _ (k0_off63 k 10#32) (k0_off63_inb k 10) (16 * k.val + 10) 64 (k0_off63_eq k 10) hr10 _ hL10
    · exact rowG_piece _ (k0_off62 k 10#32) (k0_off62_inb k 10) (16 * k.val + 10) 48 (k0_off62_eq k 10) hr10 _ hL10
    · exact rowG_piece _ (k0_off61 k 10#32) (k0_off61_inb k 10) (16 * k.val + 10) 32 (k0_off61_eq k 10) hr10 _ hL10
    · exact rowG_piece _ (k0_off60 k 10#32) (k0_off60_inb k 10) (16 * k.val + 10) 16 (k0_off60_eq k 10) hr10 _ hL10
    · exact rowG_piece _ (k0_off59 k 10#32) (k0_off59_inb k 10) (16 * k.val + 10) 0 (k0_off59_eq k 10) hr10 _ hL10
    · exact rowG_piece _ (k0_off74 k 9#32) (k0_off74_inb k 9) (16 * k.val + 9) 240 (k0_off74_eq k 9) hr9 _ hL9
    · exact rowG_piece _ (k0_off73 k 9#32) (k0_off73_inb k 9) (16 * k.val + 9) 224 (k0_off73_eq k 9) hr9 _ hL9
    · exact rowG_piece _ (k0_off72 k 9#32) (k0_off72_inb k 9) (16 * k.val + 9) 208 (k0_off72_eq k 9) hr9 _ hL9
    · exact rowG_piece _ (k0_off71 k 9#32) (k0_off71_inb k 9) (16 * k.val + 9) 192 (k0_off71_eq k 9) hr9 _ hL9
    · exact rowG_piece _ (k0_off70 k 9#32) (k0_off70_inb k 9) (16 * k.val + 9) 176 (k0_off70_eq k 9) hr9 _ hL9
    · exact rowG_piece _ (k0_off69 k 9#32) (k0_off69_inb k 9) (16 * k.val + 9) 160 (k0_off69_eq k 9) hr9 _ hL9
    · exact rowG_piece _ (k0_off68 k 9#32) (k0_off68_inb k 9) (16 * k.val + 9) 144 (k0_off68_eq k 9) hr9 _ hL9
    · exact rowG_piece _ (k0_off67 k 9#32) (k0_off67_inb k 9) (16 * k.val + 9) 128 (k0_off67_eq k 9) hr9 _ hL9
    · exact rowG_piece _ (k0_off66 k 9#32) (k0_off66_inb k 9) (16 * k.val + 9) 112 (k0_off66_eq k 9) hr9 _ hL9
    · exact rowG_piece _ (k0_off65 k 9#32) (k0_off65_inb k 9) (16 * k.val + 9) 96 (k0_off65_eq k 9) hr9 _ hL9
    · exact rowG_piece _ (k0_off64 k 9#32) (k0_off64_inb k 9) (16 * k.val + 9) 80 (k0_off64_eq k 9) hr9 _ hL9
    · exact rowG_piece _ (k0_off63 k 9#32) (k0_off63_inb k 9) (16 * k.val + 9) 64 (k0_off63_eq k 9) hr9 _ hL9
    · exact rowG_piece _ (k0_off62 k 9#32) (k0_off62_inb k 9) (16 * k.val + 9) 48 (k0_off62_eq k 9) hr9 _ hL9
    · exact rowG_piece _ (k0_off61 k 9#32) (k0_off61_inb k 9) (16 * k.val + 9) 32 (k0_off61_eq k 9) hr9 _ hL9
    · exact rowG_piece _ (k0_off60 k 9#32) (k0_off60_inb k 9) (16 * k.val + 9) 16 (k0_off60_eq k 9) hr9 _ hL9
    · exact rowG_piece _ (k0_off59 k 9#32) (k0_off59_inb k 9) (16 * k.val + 9) 0 (k0_off59_eq k 9) hr9 _ hL9
    · exact rowG_piece _ (k0_off74 k 8#32) (k0_off74_inb k 8) (16 * k.val + 8) 240 (k0_off74_eq k 8) hr8 _ hL8
    · exact rowG_piece _ (k0_off73 k 8#32) (k0_off73_inb k 8) (16 * k.val + 8) 224 (k0_off73_eq k 8) hr8 _ hL8
    · exact rowG_piece _ (k0_off72 k 8#32) (k0_off72_inb k 8) (16 * k.val + 8) 208 (k0_off72_eq k 8) hr8 _ hL8
    · exact rowG_piece _ (k0_off71 k 8#32) (k0_off71_inb k 8) (16 * k.val + 8) 192 (k0_off71_eq k 8) hr8 _ hL8
    · exact rowG_piece _ (k0_off70 k 8#32) (k0_off70_inb k 8) (16 * k.val + 8) 176 (k0_off70_eq k 8) hr8 _ hL8
    · exact rowG_piece _ (k0_off69 k 8#32) (k0_off69_inb k 8) (16 * k.val + 8) 160 (k0_off69_eq k 8) hr8 _ hL8
    · exact rowG_piece _ (k0_off68 k 8#32) (k0_off68_inb k 8) (16 * k.val + 8) 144 (k0_off68_eq k 8) hr8 _ hL8
    · exact rowG_piece _ (k0_off67 k 8#32) (k0_off67_inb k 8) (16 * k.val + 8) 128 (k0_off67_eq k 8) hr8 _ hL8
    · exact rowG_piece _ (k0_off66 k 8#32) (k0_off66_inb k 8) (16 * k.val + 8) 112 (k0_off66_eq k 8) hr8 _ hL8
    · exact rowG_piece _ (k0_off65 k 8#32) (k0_off65_inb k 8) (16 * k.val + 8) 96 (k0_off65_eq k 8) hr8 _ hL8
    · exact rowG_piece _ (k0_off64 k 8#32) (k0_off64_inb k 8) (16 * k.val + 8) 80 (k0_off64_eq k 8) hr8 _ hL8
    · exact rowG_piece _ (k0_off63 k 8#32) (k0_off63_inb k 8) (16 * k.val + 8) 64 (k0_off63_eq k 8) hr8 _ hL8
    · exact rowG_piece _ (k0_off62 k 8#32) (k0_off62_inb k 8) (16 * k.val + 8) 48 (k0_off62_eq k 8) hr8 _ hL8
    · exact rowG_piece _ (k0_off61 k 8#32) (k0_off61_inb k 8) (16 * k.val + 8) 32 (k0_off61_eq k 8) hr8 _ hL8
    · exact rowG_piece _ (k0_off60 k 8#32) (k0_off60_inb k 8) (16 * k.val + 8) 16 (k0_off60_eq k 8) hr8 _ hL8
    · exact rowG_piece _ (k0_off59 k 8#32) (k0_off59_inb k 8) (16 * k.val + 8) 0 (k0_off59_eq k 8) hr8 _ hL8
    · exact rowG_piece _ (k0_off74 k 7#32) (k0_off74_inb k 7) (16 * k.val + 7) 240 (k0_off74_eq k 7) hr7 _ hL7
    · exact rowG_piece _ (k0_off73 k 7#32) (k0_off73_inb k 7) (16 * k.val + 7) 224 (k0_off73_eq k 7) hr7 _ hL7
    · exact rowG_piece _ (k0_off72 k 7#32) (k0_off72_inb k 7) (16 * k.val + 7) 208 (k0_off72_eq k 7) hr7 _ hL7
    · exact rowG_piece _ (k0_off71 k 7#32) (k0_off71_inb k 7) (16 * k.val + 7) 192 (k0_off71_eq k 7) hr7 _ hL7
    · exact rowG_piece _ (k0_off70 k 7#32) (k0_off70_inb k 7) (16 * k.val + 7) 176 (k0_off70_eq k 7) hr7 _ hL7
    · exact rowG_piece _ (k0_off69 k 7#32) (k0_off69_inb k 7) (16 * k.val + 7) 160 (k0_off69_eq k 7) hr7 _ hL7
    · exact rowG_piece _ (k0_off68 k 7#32) (k0_off68_inb k 7) (16 * k.val + 7) 144 (k0_off68_eq k 7) hr7 _ hL7
    · exact rowG_piece _ (k0_off67 k 7#32) (k0_off67_inb k 7) (16 * k.val + 7) 128 (k0_off67_eq k 7) hr7 _ hL7
    · exact rowG_piece _ (k0_off66 k 7#32) (k0_off66_inb k 7) (16 * k.val + 7) 112 (k0_off66_eq k 7) hr7 _ hL7
    · exact rowG_piece _ (k0_off65 k 7#32) (k0_off65_inb k 7) (16 * k.val + 7) 96 (k0_off65_eq k 7) hr7 _ hL7
    · exact rowG_piece _ (k0_off64 k 7#32) (k0_off64_inb k 7) (16 * k.val + 7) 80 (k0_off64_eq k 7) hr7 _ hL7
    · exact rowG_piece _ (k0_off63 k 7#32) (k0_off63_inb k 7) (16 * k.val + 7) 64 (k0_off63_eq k 7) hr7 _ hL7
    · exact rowG_piece _ (k0_off62 k 7#32) (k0_off62_inb k 7) (16 * k.val + 7) 48 (k0_off62_eq k 7) hr7 _ hL7
    · exact rowG_piece _ (k0_off61 k 7#32) (k0_off61_inb k 7) (16 * k.val + 7) 32 (k0_off61_eq k 7) hr7 _ hL7
    · exact rowG_piece _ (k0_off60 k 7#32) (k0_off60_inb k 7) (16 * k.val + 7) 16 (k0_off60_eq k 7) hr7 _ hL7
    · exact rowG_piece _ (k0_off59 k 7#32) (k0_off59_inb k 7) (16 * k.val + 7) 0 (k0_off59_eq k 7) hr7 _ hL7
    · exact rowG_piece _ (k0_off74 k 6#32) (k0_off74_inb k 6) (16 * k.val + 6) 240 (k0_off74_eq k 6) hr6 _ hL6
    · exact rowG_piece _ (k0_off73 k 6#32) (k0_off73_inb k 6) (16 * k.val + 6) 224 (k0_off73_eq k 6) hr6 _ hL6
    · exact rowG_piece _ (k0_off72 k 6#32) (k0_off72_inb k 6) (16 * k.val + 6) 208 (k0_off72_eq k 6) hr6 _ hL6
    · exact rowG_piece _ (k0_off71 k 6#32) (k0_off71_inb k 6) (16 * k.val + 6) 192 (k0_off71_eq k 6) hr6 _ hL6
    · exact rowG_piece _ (k0_off70 k 6#32) (k0_off70_inb k 6) (16 * k.val + 6) 176 (k0_off70_eq k 6) hr6 _ hL6
    · exact rowG_piece _ (k0_off69 k 6#32) (k0_off69_inb k 6) (16 * k.val + 6) 160 (k0_off69_eq k 6) hr6 _ hL6
    · exact rowG_piece _ (k0_off68 k 6#32) (k0_off68_inb k 6) (16 * k.val + 6) 144 (k0_off68_eq k 6) hr6 _ hL6
    · exact rowG_piece _ (k0_off67 k 6#32) (k0_off67_inb k 6) (16 * k.val + 6) 128 (k0_off67_eq k 6) hr6 _ hL6
    · exact rowG_piece _ (k0_off66 k 6#32) (k0_off66_inb k 6) (16 * k.val + 6) 112 (k0_off66_eq k 6) hr6 _ hL6
    · exact rowG_piece _ (k0_off65 k 6#32) (k0_off65_inb k 6) (16 * k.val + 6) 96 (k0_off65_eq k 6) hr6 _ hL6
    · exact rowG_piece _ (k0_off64 k 6#32) (k0_off64_inb k 6) (16 * k.val + 6) 80 (k0_off64_eq k 6) hr6 _ hL6
    · exact rowG_piece _ (k0_off63 k 6#32) (k0_off63_inb k 6) (16 * k.val + 6) 64 (k0_off63_eq k 6) hr6 _ hL6
    · exact rowG_piece _ (k0_off62 k 6#32) (k0_off62_inb k 6) (16 * k.val + 6) 48 (k0_off62_eq k 6) hr6 _ hL6
    · exact rowG_piece _ (k0_off61 k 6#32) (k0_off61_inb k 6) (16 * k.val + 6) 32 (k0_off61_eq k 6) hr6 _ hL6
    · exact rowG_piece _ (k0_off60 k 6#32) (k0_off60_inb k 6) (16 * k.val + 6) 16 (k0_off60_eq k 6) hr6 _ hL6
    · exact rowG_piece _ (k0_off59 k 6#32) (k0_off59_inb k 6) (16 * k.val + 6) 0 (k0_off59_eq k 6) hr6 _ hL6
    · exact rowG_piece _ (k0_off74 k 5#32) (k0_off74_inb k 5) (16 * k.val + 5) 240 (k0_off74_eq k 5) hr5 _ hL5
    · exact rowG_piece _ (k0_off73 k 5#32) (k0_off73_inb k 5) (16 * k.val + 5) 224 (k0_off73_eq k 5) hr5 _ hL5
    · exact rowG_piece _ (k0_off72 k 5#32) (k0_off72_inb k 5) (16 * k.val + 5) 208 (k0_off72_eq k 5) hr5 _ hL5
    · exact rowG_piece _ (k0_off71 k 5#32) (k0_off71_inb k 5) (16 * k.val + 5) 192 (k0_off71_eq k 5) hr5 _ hL5
    · exact rowG_piece _ (k0_off70 k 5#32) (k0_off70_inb k 5) (16 * k.val + 5) 176 (k0_off70_eq k 5) hr5 _ hL5
    · exact rowG_piece _ (k0_off69 k 5#32) (k0_off69_inb k 5) (16 * k.val + 5) 160 (k0_off69_eq k 5) hr5 _ hL5
    · exact rowG_piece _ (k0_off68 k 5#32) (k0_off68_inb k 5) (16 * k.val + 5) 144 (k0_off68_eq k 5) hr5 _ hL5
    · exact rowG_piece _ (k0_off67 k 5#32) (k0_off67_inb k 5) (16 * k.val + 5) 128 (k0_off67_eq k 5) hr5 _ hL5
    · exact rowG_piece _ (k0_off66 k 5#32) (k0_off66_inb k 5) (16 * k.val + 5) 112 (k0_off66_eq k 5) hr5 _ hL5
    · exact rowG_piece _ (k0_off65 k 5#32) (k0_off65_inb k 5) (16 * k.val + 5) 96 (k0_off65_eq k 5) hr5 _ hL5
    · exact rowG_piece _ (k0_off64 k 5#32) (k0_off64_inb k 5) (16 * k.val + 5) 80 (k0_off64_eq k 5) hr5 _ hL5
    · exact rowG_piece _ (k0_off63 k 5#32) (k0_off63_inb k 5) (16 * k.val + 5) 64 (k0_off63_eq k 5) hr5 _ hL5
    · exact rowG_piece _ (k0_off62 k 5#32) (k0_off62_inb k 5) (16 * k.val + 5) 48 (k0_off62_eq k 5) hr5 _ hL5
    · exact rowG_piece _ (k0_off61 k 5#32) (k0_off61_inb k 5) (16 * k.val + 5) 32 (k0_off61_eq k 5) hr5 _ hL5
    · exact rowG_piece _ (k0_off60 k 5#32) (k0_off60_inb k 5) (16 * k.val + 5) 16 (k0_off60_eq k 5) hr5 _ hL5
    · exact rowG_piece _ (k0_off59 k 5#32) (k0_off59_inb k 5) (16 * k.val + 5) 0 (k0_off59_eq k 5) hr5 _ hL5
    · exact rowG_piece _ (k0_off74 k 4#32) (k0_off74_inb k 4) (16 * k.val + 4) 240 (k0_off74_eq k 4) hr4 _ hL4
    · exact rowG_piece _ (k0_off73 k 4#32) (k0_off73_inb k 4) (16 * k.val + 4) 224 (k0_off73_eq k 4) hr4 _ hL4
    · exact rowG_piece _ (k0_off72 k 4#32) (k0_off72_inb k 4) (16 * k.val + 4) 208 (k0_off72_eq k 4) hr4 _ hL4
    · exact rowG_piece _ (k0_off71 k 4#32) (k0_off71_inb k 4) (16 * k.val + 4) 192 (k0_off71_eq k 4) hr4 _ hL4
    · exact rowG_piece _ (k0_off70 k 4#32) (k0_off70_inb k 4) (16 * k.val + 4) 176 (k0_off70_eq k 4) hr4 _ hL4
    · exact rowG_piece _ (k0_off69 k 4#32) (k0_off69_inb k 4) (16 * k.val + 4) 160 (k0_off69_eq k 4) hr4 _ hL4
    · exact rowG_piece _ (k0_off68 k 4#32) (k0_off68_inb k 4) (16 * k.val + 4) 144 (k0_off68_eq k 4) hr4 _ hL4
    · exact rowG_piece _ (k0_off67 k 4#32) (k0_off67_inb k 4) (16 * k.val + 4) 128 (k0_off67_eq k 4) hr4 _ hL4
    · exact rowG_piece _ (k0_off66 k 4#32) (k0_off66_inb k 4) (16 * k.val + 4) 112 (k0_off66_eq k 4) hr4 _ hL4
    · exact rowG_piece _ (k0_off65 k 4#32) (k0_off65_inb k 4) (16 * k.val + 4) 96 (k0_off65_eq k 4) hr4 _ hL4
    · exact rowG_piece _ (k0_off64 k 4#32) (k0_off64_inb k 4) (16 * k.val + 4) 80 (k0_off64_eq k 4) hr4 _ hL4
    · exact rowG_piece _ (k0_off63 k 4#32) (k0_off63_inb k 4) (16 * k.val + 4) 64 (k0_off63_eq k 4) hr4 _ hL4
    · exact rowG_piece _ (k0_off62 k 4#32) (k0_off62_inb k 4) (16 * k.val + 4) 48 (k0_off62_eq k 4) hr4 _ hL4
    · exact rowG_piece _ (k0_off61 k 4#32) (k0_off61_inb k 4) (16 * k.val + 4) 32 (k0_off61_eq k 4) hr4 _ hL4
    · exact rowG_piece _ (k0_off60 k 4#32) (k0_off60_inb k 4) (16 * k.val + 4) 16 (k0_off60_eq k 4) hr4 _ hL4
    · exact rowG_piece _ (k0_off59 k 4#32) (k0_off59_inb k 4) (16 * k.val + 4) 0 (k0_off59_eq k 4) hr4 _ hL4
    · exact rowG_piece _ (k0_off74 k 3#32) (k0_off74_inb k 3) (16 * k.val + 3) 240 (k0_off74_eq k 3) hr3 _ hL3
    · exact rowG_piece _ (k0_off73 k 3#32) (k0_off73_inb k 3) (16 * k.val + 3) 224 (k0_off73_eq k 3) hr3 _ hL3
    · exact rowG_piece _ (k0_off72 k 3#32) (k0_off72_inb k 3) (16 * k.val + 3) 208 (k0_off72_eq k 3) hr3 _ hL3
    · exact rowG_piece _ (k0_off71 k 3#32) (k0_off71_inb k 3) (16 * k.val + 3) 192 (k0_off71_eq k 3) hr3 _ hL3
    · exact rowG_piece _ (k0_off70 k 3#32) (k0_off70_inb k 3) (16 * k.val + 3) 176 (k0_off70_eq k 3) hr3 _ hL3
    · exact rowG_piece _ (k0_off69 k 3#32) (k0_off69_inb k 3) (16 * k.val + 3) 160 (k0_off69_eq k 3) hr3 _ hL3
    · exact rowG_piece _ (k0_off68 k 3#32) (k0_off68_inb k 3) (16 * k.val + 3) 144 (k0_off68_eq k 3) hr3 _ hL3
    · exact rowG_piece _ (k0_off67 k 3#32) (k0_off67_inb k 3) (16 * k.val + 3) 128 (k0_off67_eq k 3) hr3 _ hL3
    · exact rowG_piece _ (k0_off66 k 3#32) (k0_off66_inb k 3) (16 * k.val + 3) 112 (k0_off66_eq k 3) hr3 _ hL3
    · exact rowG_piece _ (k0_off65 k 3#32) (k0_off65_inb k 3) (16 * k.val + 3) 96 (k0_off65_eq k 3) hr3 _ hL3
    · exact rowG_piece _ (k0_off64 k 3#32) (k0_off64_inb k 3) (16 * k.val + 3) 80 (k0_off64_eq k 3) hr3 _ hL3
    · exact rowG_piece _ (k0_off63 k 3#32) (k0_off63_inb k 3) (16 * k.val + 3) 64 (k0_off63_eq k 3) hr3 _ hL3
    · exact rowG_piece _ (k0_off62 k 3#32) (k0_off62_inb k 3) (16 * k.val + 3) 48 (k0_off62_eq k 3) hr3 _ hL3
    · exact rowG_piece _ (k0_off61 k 3#32) (k0_off61_inb k 3) (16 * k.val + 3) 32 (k0_off61_eq k 3) hr3 _ hL3
    · exact rowG_piece _ (k0_off60 k 3#32) (k0_off60_inb k 3) (16 * k.val + 3) 16 (k0_off60_eq k 3) hr3 _ hL3
    · exact rowG_piece _ (k0_off59 k 3#32) (k0_off59_inb k 3) (16 * k.val + 3) 0 (k0_off59_eq k 3) hr3 _ hL3
    · exact rowG_piece _ (k0_off74 k 2#32) (k0_off74_inb k 2) (16 * k.val + 2) 240 (k0_off74_eq k 2) hr2 _ hL2
    · exact rowG_piece _ (k0_off73 k 2#32) (k0_off73_inb k 2) (16 * k.val + 2) 224 (k0_off73_eq k 2) hr2 _ hL2
    · exact rowG_piece _ (k0_off72 k 2#32) (k0_off72_inb k 2) (16 * k.val + 2) 208 (k0_off72_eq k 2) hr2 _ hL2
    · exact rowG_piece _ (k0_off71 k 2#32) (k0_off71_inb k 2) (16 * k.val + 2) 192 (k0_off71_eq k 2) hr2 _ hL2
    · exact rowG_piece _ (k0_off70 k 2#32) (k0_off70_inb k 2) (16 * k.val + 2) 176 (k0_off70_eq k 2) hr2 _ hL2
    · exact rowG_piece _ (k0_off69 k 2#32) (k0_off69_inb k 2) (16 * k.val + 2) 160 (k0_off69_eq k 2) hr2 _ hL2
    · exact rowG_piece _ (k0_off68 k 2#32) (k0_off68_inb k 2) (16 * k.val + 2) 144 (k0_off68_eq k 2) hr2 _ hL2
    · exact rowG_piece _ (k0_off67 k 2#32) (k0_off67_inb k 2) (16 * k.val + 2) 128 (k0_off67_eq k 2) hr2 _ hL2
    · exact rowG_piece _ (k0_off66 k 2#32) (k0_off66_inb k 2) (16 * k.val + 2) 112 (k0_off66_eq k 2) hr2 _ hL2
    · exact rowG_piece _ (k0_off65 k 2#32) (k0_off65_inb k 2) (16 * k.val + 2) 96 (k0_off65_eq k 2) hr2 _ hL2
    · exact rowG_piece _ (k0_off64 k 2#32) (k0_off64_inb k 2) (16 * k.val + 2) 80 (k0_off64_eq k 2) hr2 _ hL2
    · exact rowG_piece _ (k0_off63 k 2#32) (k0_off63_inb k 2) (16 * k.val + 2) 64 (k0_off63_eq k 2) hr2 _ hL2
    · exact rowG_piece _ (k0_off62 k 2#32) (k0_off62_inb k 2) (16 * k.val + 2) 48 (k0_off62_eq k 2) hr2 _ hL2
    · exact rowG_piece _ (k0_off61 k 2#32) (k0_off61_inb k 2) (16 * k.val + 2) 32 (k0_off61_eq k 2) hr2 _ hL2
    · exact rowG_piece _ (k0_off60 k 2#32) (k0_off60_inb k 2) (16 * k.val + 2) 16 (k0_off60_eq k 2) hr2 _ hL2
    · exact rowG_piece _ (k0_off59 k 2#32) (k0_off59_inb k 2) (16 * k.val + 2) 0 (k0_off59_eq k 2) hr2 _ hL2
    · exact rowG_piece _ (k0_off74 k 1#32) (k0_off74_inb k 1) (16 * k.val + 1) 240 (k0_off74_eq k 1) hr1 _ hL1
    · exact rowG_piece _ (k0_off73 k 1#32) (k0_off73_inb k 1) (16 * k.val + 1) 224 (k0_off73_eq k 1) hr1 _ hL1
    · exact rowG_piece _ (k0_off72 k 1#32) (k0_off72_inb k 1) (16 * k.val + 1) 208 (k0_off72_eq k 1) hr1 _ hL1
    · exact rowG_piece _ (k0_off71 k 1#32) (k0_off71_inb k 1) (16 * k.val + 1) 192 (k0_off71_eq k 1) hr1 _ hL1
    · exact rowG_piece _ (k0_off70 k 1#32) (k0_off70_inb k 1) (16 * k.val + 1) 176 (k0_off70_eq k 1) hr1 _ hL1
    · exact rowG_piece _ (k0_off69 k 1#32) (k0_off69_inb k 1) (16 * k.val + 1) 160 (k0_off69_eq k 1) hr1 _ hL1
    · exact rowG_piece _ (k0_off68 k 1#32) (k0_off68_inb k 1) (16 * k.val + 1) 144 (k0_off68_eq k 1) hr1 _ hL1
    · exact rowG_piece _ (k0_off67 k 1#32) (k0_off67_inb k 1) (16 * k.val + 1) 128 (k0_off67_eq k 1) hr1 _ hL1
    · exact rowG_piece _ (k0_off66 k 1#32) (k0_off66_inb k 1) (16 * k.val + 1) 112 (k0_off66_eq k 1) hr1 _ hL1
    · exact rowG_piece _ (k0_off65 k 1#32) (k0_off65_inb k 1) (16 * k.val + 1) 96 (k0_off65_eq k 1) hr1 _ hL1
    · exact rowG_piece _ (k0_off64 k 1#32) (k0_off64_inb k 1) (16 * k.val + 1) 80 (k0_off64_eq k 1) hr1 _ hL1
    · exact rowG_piece _ (k0_off63 k 1#32) (k0_off63_inb k 1) (16 * k.val + 1) 64 (k0_off63_eq k 1) hr1 _ hL1
    · exact rowG_piece _ (k0_off62 k 1#32) (k0_off62_inb k 1) (16 * k.val + 1) 48 (k0_off62_eq k 1) hr1 _ hL1
    · exact rowG_piece _ (k0_off61 k 1#32) (k0_off61_inb k 1) (16 * k.val + 1) 32 (k0_off61_eq k 1) hr1 _ hL1
    · exact rowG_piece _ (k0_off60 k 1#32) (k0_off60_inb k 1) (16 * k.val + 1) 16 (k0_off60_eq k 1) hr1 _ hL1
    · exact rowG_piece _ (k0_off59 k 1#32) (k0_off59_inb k 1) (16 * k.val + 1) 0 (k0_off59_eq k 1) hr1 _ hL1
    · exact rowG_piece _ (k0_off74 k 0#32) (k0_off74_inb k 0) (16 * k.val + 0) 240 (k0_off74_eq k 0) hr0 _ hL0
    · exact rowG_piece _ (k0_off73 k 0#32) (k0_off73_inb k 0) (16 * k.val + 0) 224 (k0_off73_eq k 0) hr0 _ hL0
    · exact rowG_piece _ (k0_off72 k 0#32) (k0_off72_inb k 0) (16 * k.val + 0) 208 (k0_off72_eq k 0) hr0 _ hL0
    · exact rowG_piece _ (k0_off71 k 0#32) (k0_off71_inb k 0) (16 * k.val + 0) 192 (k0_off71_eq k 0) hr0 _ hL0
    · exact rowG_piece _ (k0_off70 k 0#32) (k0_off70_inb k 0) (16 * k.val + 0) 176 (k0_off70_eq k 0) hr0 _ hL0
    · exact rowG_piece _ (k0_off69 k 0#32) (k0_off69_inb k 0) (16 * k.val + 0) 160 (k0_off69_eq k 0) hr0 _ hL0
    · exact rowG_piece _ (k0_off68 k 0#32) (k0_off68_inb k 0) (16 * k.val + 0) 144 (k0_off68_eq k 0) hr0 _ hL0
    · exact rowG_piece _ (k0_off67 k 0#32) (k0_off67_inb k 0) (16 * k.val + 0) 128 (k0_off67_eq k 0) hr0 _ hL0
    · exact rowG_piece _ (k0_off66 k 0#32) (k0_off66_inb k 0) (16 * k.val + 0) 112 (k0_off66_eq k 0) hr0 _ hL0
    · exact rowG_piece _ (k0_off65 k 0#32) (k0_off65_inb k 0) (16 * k.val + 0) 96 (k0_off65_eq k 0) hr0 _ hL0
    · exact rowG_piece _ (k0_off64 k 0#32) (k0_off64_inb k 0) (16 * k.val + 0) 80 (k0_off64_eq k 0) hr0 _ hL0
    · exact rowG_piece _ (k0_off63 k 0#32) (k0_off63_inb k 0) (16 * k.val + 0) 64 (k0_off63_eq k 0) hr0 _ hL0
    · exact rowG_piece _ (k0_off62 k 0#32) (k0_off62_inb k 0) (16 * k.val + 0) 48 (k0_off62_eq k 0) hr0 _ hL0
    · exact rowG_piece _ (k0_off61 k 0#32) (k0_off61_inb k 0) (16 * k.val + 0) 32 (k0_off61_eq k 0) hr0 _ hL0
    · exact rowG_piece _ (k0_off60 k 0#32) (k0_off60_inb k 0) (16 * k.val + 0) 16 (k0_off60_eq k 0) hr0 _ hL0
    · exact rowG_piece _ (k0_off59 k 0#32) (k0_off59_inb k 0) (16 * k.val + 0) 0 (k0_off59_eq k 0) hr0 _ hL0
  case cover =>
    sl_unfold_run_names
    intro y hy
    refine cover_rows16 _ k.val (fun l j => ?_) y hy
    fin_cases l <;> fin_cases j
    · exact ⟨_, rfl, k0_off59_eq k 0, rfl, fun _ => rfl⟩
    · exact ⟨_, rfl, k0_off60_eq k 0, rfl, fun _ => rfl⟩
    · exact ⟨_, rfl, k0_off61_eq k 0, rfl, fun _ => rfl⟩
    · exact ⟨_, rfl, k0_off62_eq k 0, rfl, fun _ => rfl⟩
    · exact ⟨_, rfl, k0_off63_eq k 0, rfl, fun _ => rfl⟩
    · exact ⟨_, rfl, k0_off64_eq k 0, rfl, fun _ => rfl⟩
    · exact ⟨_, rfl, k0_off65_eq k 0, rfl, fun _ => rfl⟩
    · exact ⟨_, rfl, k0_off66_eq k 0, rfl, fun _ => rfl⟩
    · exact ⟨_, rfl, k0_off67_eq k 0, rfl, fun _ => rfl⟩
    · exact ⟨_, rfl, k0_off68_eq k 0, rfl, fun _ => rfl⟩
    · exact ⟨_, rfl, k0_off69_eq k 0, rfl, fun _ => rfl⟩
    · exact ⟨_, rfl, k0_off70_eq k 0, rfl, fun _ => rfl⟩
    · exact ⟨_, rfl, k0_off71_eq k 0, rfl, fun _ => rfl⟩
    · exact ⟨_, rfl, k0_off72_eq k 0, rfl, fun _ => rfl⟩
    · exact ⟨_, rfl, k0_off73_eq k 0, rfl, fun _ => rfl⟩
    · exact ⟨_, rfl, k0_off74_eq k 0, rfl, fun _ => rfl⟩
    · exact ⟨_, rfl, k0_off59_eq k 1, rfl, fun _ => rfl⟩
    · exact ⟨_, rfl, k0_off60_eq k 1, rfl, fun _ => rfl⟩
    · exact ⟨_, rfl, k0_off61_eq k 1, rfl, fun _ => rfl⟩
    · exact ⟨_, rfl, k0_off62_eq k 1, rfl, fun _ => rfl⟩
    · exact ⟨_, rfl, k0_off63_eq k 1, rfl, fun _ => rfl⟩
    · exact ⟨_, rfl, k0_off64_eq k 1, rfl, fun _ => rfl⟩
    · exact ⟨_, rfl, k0_off65_eq k 1, rfl, fun _ => rfl⟩
    · exact ⟨_, rfl, k0_off66_eq k 1, rfl, fun _ => rfl⟩
    · exact ⟨_, rfl, k0_off67_eq k 1, rfl, fun _ => rfl⟩
    · exact ⟨_, rfl, k0_off68_eq k 1, rfl, fun _ => rfl⟩
    · exact ⟨_, rfl, k0_off69_eq k 1, rfl, fun _ => rfl⟩
    · exact ⟨_, rfl, k0_off70_eq k 1, rfl, fun _ => rfl⟩
    · exact ⟨_, rfl, k0_off71_eq k 1, rfl, fun _ => rfl⟩
    · exact ⟨_, rfl, k0_off72_eq k 1, rfl, fun _ => rfl⟩
    · exact ⟨_, rfl, k0_off73_eq k 1, rfl, fun _ => rfl⟩
    · exact ⟨_, rfl, k0_off74_eq k 1, rfl, fun _ => rfl⟩
    · exact ⟨_, rfl, k0_off59_eq k 2, rfl, fun _ => rfl⟩
    · exact ⟨_, rfl, k0_off60_eq k 2, rfl, fun _ => rfl⟩
    · exact ⟨_, rfl, k0_off61_eq k 2, rfl, fun _ => rfl⟩
    · exact ⟨_, rfl, k0_off62_eq k 2, rfl, fun _ => rfl⟩
    · exact ⟨_, rfl, k0_off63_eq k 2, rfl, fun _ => rfl⟩
    · exact ⟨_, rfl, k0_off64_eq k 2, rfl, fun _ => rfl⟩
    · exact ⟨_, rfl, k0_off65_eq k 2, rfl, fun _ => rfl⟩
    · exact ⟨_, rfl, k0_off66_eq k 2, rfl, fun _ => rfl⟩
    · exact ⟨_, rfl, k0_off67_eq k 2, rfl, fun _ => rfl⟩
    · exact ⟨_, rfl, k0_off68_eq k 2, rfl, fun _ => rfl⟩
    · exact ⟨_, rfl, k0_off69_eq k 2, rfl, fun _ => rfl⟩
    · exact ⟨_, rfl, k0_off70_eq k 2, rfl, fun _ => rfl⟩
    · exact ⟨_, rfl, k0_off71_eq k 2, rfl, fun _ => rfl⟩
    · exact ⟨_, rfl, k0_off72_eq k 2, rfl, fun _ => rfl⟩
    · exact ⟨_, rfl, k0_off73_eq k 2, rfl, fun _ => rfl⟩
    · exact ⟨_, rfl, k0_off74_eq k 2, rfl, fun _ => rfl⟩
    · exact ⟨_, rfl, k0_off59_eq k 3, rfl, fun _ => rfl⟩
    · exact ⟨_, rfl, k0_off60_eq k 3, rfl, fun _ => rfl⟩
    · exact ⟨_, rfl, k0_off61_eq k 3, rfl, fun _ => rfl⟩
    · exact ⟨_, rfl, k0_off62_eq k 3, rfl, fun _ => rfl⟩
    · exact ⟨_, rfl, k0_off63_eq k 3, rfl, fun _ => rfl⟩
    · exact ⟨_, rfl, k0_off64_eq k 3, rfl, fun _ => rfl⟩
    · exact ⟨_, rfl, k0_off65_eq k 3, rfl, fun _ => rfl⟩
    · exact ⟨_, rfl, k0_off66_eq k 3, rfl, fun _ => rfl⟩
    · exact ⟨_, rfl, k0_off67_eq k 3, rfl, fun _ => rfl⟩
    · exact ⟨_, rfl, k0_off68_eq k 3, rfl, fun _ => rfl⟩
    · exact ⟨_, rfl, k0_off69_eq k 3, rfl, fun _ => rfl⟩
    · exact ⟨_, rfl, k0_off70_eq k 3, rfl, fun _ => rfl⟩
    · exact ⟨_, rfl, k0_off71_eq k 3, rfl, fun _ => rfl⟩
    · exact ⟨_, rfl, k0_off72_eq k 3, rfl, fun _ => rfl⟩
    · exact ⟨_, rfl, k0_off73_eq k 3, rfl, fun _ => rfl⟩
    · exact ⟨_, rfl, k0_off74_eq k 3, rfl, fun _ => rfl⟩
    · exact ⟨_, rfl, k0_off59_eq k 4, rfl, fun _ => rfl⟩
    · exact ⟨_, rfl, k0_off60_eq k 4, rfl, fun _ => rfl⟩
    · exact ⟨_, rfl, k0_off61_eq k 4, rfl, fun _ => rfl⟩
    · exact ⟨_, rfl, k0_off62_eq k 4, rfl, fun _ => rfl⟩
    · exact ⟨_, rfl, k0_off63_eq k 4, rfl, fun _ => rfl⟩
    · exact ⟨_, rfl, k0_off64_eq k 4, rfl, fun _ => rfl⟩
    · exact ⟨_, rfl, k0_off65_eq k 4, rfl, fun _ => rfl⟩
    · exact ⟨_, rfl, k0_off66_eq k 4, rfl, fun _ => rfl⟩
    · exact ⟨_, rfl, k0_off67_eq k 4, rfl, fun _ => rfl⟩
    · exact ⟨_, rfl, k0_off68_eq k 4, rfl, fun _ => rfl⟩
    · exact ⟨_, rfl, k0_off69_eq k 4, rfl, fun _ => rfl⟩
    · exact ⟨_, rfl, k0_off70_eq k 4, rfl, fun _ => rfl⟩
    · exact ⟨_, rfl, k0_off71_eq k 4, rfl, fun _ => rfl⟩
    · exact ⟨_, rfl, k0_off72_eq k 4, rfl, fun _ => rfl⟩
    · exact ⟨_, rfl, k0_off73_eq k 4, rfl, fun _ => rfl⟩
    · exact ⟨_, rfl, k0_off74_eq k 4, rfl, fun _ => rfl⟩
    · exact ⟨_, rfl, k0_off59_eq k 5, rfl, fun _ => rfl⟩
    · exact ⟨_, rfl, k0_off60_eq k 5, rfl, fun _ => rfl⟩
    · exact ⟨_, rfl, k0_off61_eq k 5, rfl, fun _ => rfl⟩
    · exact ⟨_, rfl, k0_off62_eq k 5, rfl, fun _ => rfl⟩
    · exact ⟨_, rfl, k0_off63_eq k 5, rfl, fun _ => rfl⟩
    · exact ⟨_, rfl, k0_off64_eq k 5, rfl, fun _ => rfl⟩
    · exact ⟨_, rfl, k0_off65_eq k 5, rfl, fun _ => rfl⟩
    · exact ⟨_, rfl, k0_off66_eq k 5, rfl, fun _ => rfl⟩
    · exact ⟨_, rfl, k0_off67_eq k 5, rfl, fun _ => rfl⟩
    · exact ⟨_, rfl, k0_off68_eq k 5, rfl, fun _ => rfl⟩
    · exact ⟨_, rfl, k0_off69_eq k 5, rfl, fun _ => rfl⟩
    · exact ⟨_, rfl, k0_off70_eq k 5, rfl, fun _ => rfl⟩
    · exact ⟨_, rfl, k0_off71_eq k 5, rfl, fun _ => rfl⟩
    · exact ⟨_, rfl, k0_off72_eq k 5, rfl, fun _ => rfl⟩
    · exact ⟨_, rfl, k0_off73_eq k 5, rfl, fun _ => rfl⟩
    · exact ⟨_, rfl, k0_off74_eq k 5, rfl, fun _ => rfl⟩
    · exact ⟨_, rfl, k0_off59_eq k 6, rfl, fun _ => rfl⟩
    · exact ⟨_, rfl, k0_off60_eq k 6, rfl, fun _ => rfl⟩
    · exact ⟨_, rfl, k0_off61_eq k 6, rfl, fun _ => rfl⟩
    · exact ⟨_, rfl, k0_off62_eq k 6, rfl, fun _ => rfl⟩
    · exact ⟨_, rfl, k0_off63_eq k 6, rfl, fun _ => rfl⟩
    · exact ⟨_, rfl, k0_off64_eq k 6, rfl, fun _ => rfl⟩
    · exact ⟨_, rfl, k0_off65_eq k 6, rfl, fun _ => rfl⟩
    · exact ⟨_, rfl, k0_off66_eq k 6, rfl, fun _ => rfl⟩
    · exact ⟨_, rfl, k0_off67_eq k 6, rfl, fun _ => rfl⟩
    · exact ⟨_, rfl, k0_off68_eq k 6, rfl, fun _ => rfl⟩
    · exact ⟨_, rfl, k0_off69_eq k 6, rfl, fun _ => rfl⟩
    · exact ⟨_, rfl, k0_off70_eq k 6, rfl, fun _ => rfl⟩
    · exact ⟨_, rfl, k0_off71_eq k 6, rfl, fun _ => rfl⟩
    · exact ⟨_, rfl, k0_off72_eq k 6, rfl, fun _ => rfl⟩
    · exact ⟨_, rfl, k0_off73_eq k 6, rfl, fun _ => rfl⟩
    · exact ⟨_, rfl, k0_off74_eq k 6, rfl, fun _ => rfl⟩
    · exact ⟨_, rfl, k0_off59_eq k 7, rfl, fun _ => rfl⟩
    · exact ⟨_, rfl, k0_off60_eq k 7, rfl, fun _ => rfl⟩
    · exact ⟨_, rfl, k0_off61_eq k 7, rfl, fun _ => rfl⟩
    · exact ⟨_, rfl, k0_off62_eq k 7, rfl, fun _ => rfl⟩
    · exact ⟨_, rfl, k0_off63_eq k 7, rfl, fun _ => rfl⟩
    · exact ⟨_, rfl, k0_off64_eq k 7, rfl, fun _ => rfl⟩
    · exact ⟨_, rfl, k0_off65_eq k 7, rfl, fun _ => rfl⟩
    · exact ⟨_, rfl, k0_off66_eq k 7, rfl, fun _ => rfl⟩
    · exact ⟨_, rfl, k0_off67_eq k 7, rfl, fun _ => rfl⟩
    · exact ⟨_, rfl, k0_off68_eq k 7, rfl, fun _ => rfl⟩
    · exact ⟨_, rfl, k0_off69_eq k 7, rfl, fun _ => rfl⟩
    · exact ⟨_, rfl, k0_off70_eq k 7, rfl, fun _ => rfl⟩
    · exact ⟨_, rfl, k0_off71_eq k 7, rfl, fun _ => rfl⟩
    · exact ⟨_, rfl, k0_off72_eq k 7, rfl, fun _ => rfl⟩
    · exact ⟨_, rfl, k0_off73_eq k 7, rfl, fun _ => rfl⟩
    · exact ⟨_, rfl, k0_off74_eq k 7, rfl, fun _ => rfl⟩
    · exact ⟨_, rfl, k0_off59_eq k 8, rfl, fun _ => rfl⟩
    · exact ⟨_, rfl, k0_off60_eq k 8, rfl, fun _ => rfl⟩
    · exact ⟨_, rfl, k0_off61_eq k 8, rfl, fun _ => rfl⟩
    · exact ⟨_, rfl, k0_off62_eq k 8, rfl, fun _ => rfl⟩
    · exact ⟨_, rfl, k0_off63_eq k 8, rfl, fun _ => rfl⟩
    · exact ⟨_, rfl, k0_off64_eq k 8, rfl, fun _ => rfl⟩
    · exact ⟨_, rfl, k0_off65_eq k 8, rfl, fun _ => rfl⟩
    · exact ⟨_, rfl, k0_off66_eq k 8, rfl, fun _ => rfl⟩
    · exact ⟨_, rfl, k0_off67_eq k 8, rfl, fun _ => rfl⟩
    · exact ⟨_, rfl, k0_off68_eq k 8, rfl, fun _ => rfl⟩
    · exact ⟨_, rfl, k0_off69_eq k 8, rfl, fun _ => rfl⟩
    · exact ⟨_, rfl, k0_off70_eq k 8, rfl, fun _ => rfl⟩
    · exact ⟨_, rfl, k0_off71_eq k 8, rfl, fun _ => rfl⟩
    · exact ⟨_, rfl, k0_off72_eq k 8, rfl, fun _ => rfl⟩
    · exact ⟨_, rfl, k0_off73_eq k 8, rfl, fun _ => rfl⟩
    · exact ⟨_, rfl, k0_off74_eq k 8, rfl, fun _ => rfl⟩
    · exact ⟨_, rfl, k0_off59_eq k 9, rfl, fun _ => rfl⟩
    · exact ⟨_, rfl, k0_off60_eq k 9, rfl, fun _ => rfl⟩
    · exact ⟨_, rfl, k0_off61_eq k 9, rfl, fun _ => rfl⟩
    · exact ⟨_, rfl, k0_off62_eq k 9, rfl, fun _ => rfl⟩
    · exact ⟨_, rfl, k0_off63_eq k 9, rfl, fun _ => rfl⟩
    · exact ⟨_, rfl, k0_off64_eq k 9, rfl, fun _ => rfl⟩
    · exact ⟨_, rfl, k0_off65_eq k 9, rfl, fun _ => rfl⟩
    · exact ⟨_, rfl, k0_off66_eq k 9, rfl, fun _ => rfl⟩
    · exact ⟨_, rfl, k0_off67_eq k 9, rfl, fun _ => rfl⟩
    · exact ⟨_, rfl, k0_off68_eq k 9, rfl, fun _ => rfl⟩
    · exact ⟨_, rfl, k0_off69_eq k 9, rfl, fun _ => rfl⟩
    · exact ⟨_, rfl, k0_off70_eq k 9, rfl, fun _ => rfl⟩
    · exact ⟨_, rfl, k0_off71_eq k 9, rfl, fun _ => rfl⟩
    · exact ⟨_, rfl, k0_off72_eq k 9, rfl, fun _ => rfl⟩
    · exact ⟨_, rfl, k0_off73_eq k 9, rfl, fun _ => rfl⟩
    · exact ⟨_, rfl, k0_off74_eq k 9, rfl, fun _ => rfl⟩
    · exact ⟨_, rfl, k0_off59_eq k 10, rfl, fun _ => rfl⟩
    · exact ⟨_, rfl, k0_off60_eq k 10, rfl, fun _ => rfl⟩
    · exact ⟨_, rfl, k0_off61_eq k 10, rfl, fun _ => rfl⟩
    · exact ⟨_, rfl, k0_off62_eq k 10, rfl, fun _ => rfl⟩
    · exact ⟨_, rfl, k0_off63_eq k 10, rfl, fun _ => rfl⟩
    · exact ⟨_, rfl, k0_off64_eq k 10, rfl, fun _ => rfl⟩
    · exact ⟨_, rfl, k0_off65_eq k 10, rfl, fun _ => rfl⟩
    · exact ⟨_, rfl, k0_off66_eq k 10, rfl, fun _ => rfl⟩
    · exact ⟨_, rfl, k0_off67_eq k 10, rfl, fun _ => rfl⟩
    · exact ⟨_, rfl, k0_off68_eq k 10, rfl, fun _ => rfl⟩
    · exact ⟨_, rfl, k0_off69_eq k 10, rfl, fun _ => rfl⟩
    · exact ⟨_, rfl, k0_off70_eq k 10, rfl, fun _ => rfl⟩
    · exact ⟨_, rfl, k0_off71_eq k 10, rfl, fun _ => rfl⟩
    · exact ⟨_, rfl, k0_off72_eq k 10, rfl, fun _ => rfl⟩
    · exact ⟨_, rfl, k0_off73_eq k 10, rfl, fun _ => rfl⟩
    · exact ⟨_, rfl, k0_off74_eq k 10, rfl, fun _ => rfl⟩
    · exact ⟨_, rfl, k0_off59_eq k 11, rfl, fun _ => rfl⟩
    · exact ⟨_, rfl, k0_off60_eq k 11, rfl, fun _ => rfl⟩
    · exact ⟨_, rfl, k0_off61_eq k 11, rfl, fun _ => rfl⟩
    · exact ⟨_, rfl, k0_off62_eq k 11, rfl, fun _ => rfl⟩
    · exact ⟨_, rfl, k0_off63_eq k 11, rfl, fun _ => rfl⟩
    · exact ⟨_, rfl, k0_off64_eq k 11, rfl, fun _ => rfl⟩
    · exact ⟨_, rfl, k0_off65_eq k 11, rfl, fun _ => rfl⟩
    · exact ⟨_, rfl, k0_off66_eq k 11, rfl, fun _ => rfl⟩
    · exact ⟨_, rfl, k0_off67_eq k 11, rfl, fun _ => rfl⟩
    · exact ⟨_, rfl, k0_off68_eq k 11, rfl, fun _ => rfl⟩
    · exact ⟨_, rfl, k0_off69_eq k 11, rfl, fun _ => rfl⟩
    · exact ⟨_, rfl, k0_off70_eq k 11, rfl, fun _ => rfl⟩
    · exact ⟨_, rfl, k0_off71_eq k 11, rfl, fun _ => rfl⟩
    · exact ⟨_, rfl, k0_off72_eq k 11, rfl, fun _ => rfl⟩
    · exact ⟨_, rfl, k0_off73_eq k 11, rfl, fun _ => rfl⟩
    · exact ⟨_, rfl, k0_off74_eq k 11, rfl, fun _ => rfl⟩
    · exact ⟨_, rfl, k0_off59_eq k 12, rfl, fun _ => rfl⟩
    · exact ⟨_, rfl, k0_off60_eq k 12, rfl, fun _ => rfl⟩
    · exact ⟨_, rfl, k0_off61_eq k 12, rfl, fun _ => rfl⟩
    · exact ⟨_, rfl, k0_off62_eq k 12, rfl, fun _ => rfl⟩
    · exact ⟨_, rfl, k0_off63_eq k 12, rfl, fun _ => rfl⟩
    · exact ⟨_, rfl, k0_off64_eq k 12, rfl, fun _ => rfl⟩
    · exact ⟨_, rfl, k0_off65_eq k 12, rfl, fun _ => rfl⟩
    · exact ⟨_, rfl, k0_off66_eq k 12, rfl, fun _ => rfl⟩
    · exact ⟨_, rfl, k0_off67_eq k 12, rfl, fun _ => rfl⟩
    · exact ⟨_, rfl, k0_off68_eq k 12, rfl, fun _ => rfl⟩
    · exact ⟨_, rfl, k0_off69_eq k 12, rfl, fun _ => rfl⟩
    · exact ⟨_, rfl, k0_off70_eq k 12, rfl, fun _ => rfl⟩
    · exact ⟨_, rfl, k0_off71_eq k 12, rfl, fun _ => rfl⟩
    · exact ⟨_, rfl, k0_off72_eq k 12, rfl, fun _ => rfl⟩
    · exact ⟨_, rfl, k0_off73_eq k 12, rfl, fun _ => rfl⟩
    · exact ⟨_, rfl, k0_off74_eq k 12, rfl, fun _ => rfl⟩
    · exact ⟨_, rfl, k0_off59_eq k 13, rfl, fun _ => rfl⟩
    · exact ⟨_, rfl, k0_off60_eq k 13, rfl, fun _ => rfl⟩
    · exact ⟨_, rfl, k0_off61_eq k 13, rfl, fun _ => rfl⟩
    · exact ⟨_, rfl, k0_off62_eq k 13, rfl, fun _ => rfl⟩
    · exact ⟨_, rfl, k0_off63_eq k 13, rfl, fun _ => rfl⟩
    · exact ⟨_, rfl, k0_off64_eq k 13, rfl, fun _ => rfl⟩
    · exact ⟨_, rfl, k0_off65_eq k 13, rfl, fun _ => rfl⟩
    · exact ⟨_, rfl, k0_off66_eq k 13, rfl, fun _ => rfl⟩
    · exact ⟨_, rfl, k0_off67_eq k 13, rfl, fun _ => rfl⟩
    · exact ⟨_, rfl, k0_off68_eq k 13, rfl, fun _ => rfl⟩
    · exact ⟨_, rfl, k0_off69_eq k 13, rfl, fun _ => rfl⟩
    · exact ⟨_, rfl, k0_off70_eq k 13, rfl, fun _ => rfl⟩
    · exact ⟨_, rfl, k0_off71_eq k 13, rfl, fun _ => rfl⟩
    · exact ⟨_, rfl, k0_off72_eq k 13, rfl, fun _ => rfl⟩
    · exact ⟨_, rfl, k0_off73_eq k 13, rfl, fun _ => rfl⟩
    · exact ⟨_, rfl, k0_off74_eq k 13, rfl, fun _ => rfl⟩
    · exact ⟨_, rfl, k0_off59_eq k 14, rfl, fun _ => rfl⟩
    · exact ⟨_, rfl, k0_off60_eq k 14, rfl, fun _ => rfl⟩
    · exact ⟨_, rfl, k0_off61_eq k 14, rfl, fun _ => rfl⟩
    · exact ⟨_, rfl, k0_off62_eq k 14, rfl, fun _ => rfl⟩
    · exact ⟨_, rfl, k0_off63_eq k 14, rfl, fun _ => rfl⟩
    · exact ⟨_, rfl, k0_off64_eq k 14, rfl, fun _ => rfl⟩
    · exact ⟨_, rfl, k0_off65_eq k 14, rfl, fun _ => rfl⟩
    · exact ⟨_, rfl, k0_off66_eq k 14, rfl, fun _ => rfl⟩
    · exact ⟨_, rfl, k0_off67_eq k 14, rfl, fun _ => rfl⟩
    · exact ⟨_, rfl, k0_off68_eq k 14, rfl, fun _ => rfl⟩
    · exact ⟨_, rfl, k0_off69_eq k 14, rfl, fun _ => rfl⟩
    · exact ⟨_, rfl, k0_off70_eq k 14, rfl, fun _ => rfl⟩
    · exact ⟨_, rfl, k0_off71_eq k 14, rfl, fun _ => rfl⟩
    · exact ⟨_, rfl, k0_off72_eq k 14, rfl, fun _ => rfl⟩
    · exact ⟨_, rfl, k0_off73_eq k 14, rfl, fun _ => rfl⟩
    · exact ⟨_, rfl, k0_off74_eq k 14, rfl, fun _ => rfl⟩
    · exact ⟨_, rfl, k0_off59_eq k 15, rfl, fun _ => rfl⟩
    · exact ⟨_, rfl, k0_off60_eq k 15, rfl, fun _ => rfl⟩
    · exact ⟨_, rfl, k0_off61_eq k 15, rfl, fun _ => rfl⟩
    · exact ⟨_, rfl, k0_off62_eq k 15, rfl, fun _ => rfl⟩
    · exact ⟨_, rfl, k0_off63_eq k 15, rfl, fun _ => rfl⟩
    · exact ⟨_, rfl, k0_off64_eq k 15, rfl, fun _ => rfl⟩
    · exact ⟨_, rfl, k0_off65_eq k 15, rfl, fun _ => rfl⟩
    · exact ⟨_, rfl, k0_off66_eq k 15, rfl, fun _ => rfl⟩
    · exact ⟨_, rfl, k0_off67_eq k 15, rfl, fun _ => rfl⟩
    · exact ⟨_, rfl, k0_off68_eq k 15, rfl, fun _ => rfl⟩
    · exact ⟨_, rfl, k0_off69_eq k 15, rfl, fun _ => rfl⟩
    · exact ⟨_, rfl, k0_off70_eq k 15, rfl, fun _ => rfl⟩
    · exact ⟨_, rfl, k0_off71_eq k 15, rfl, fun _ => rfl⟩
    · exact ⟨_, rfl, k0_off72_eq k 15, rfl, fun _ => rfl⟩
    · exact ⟨_, rfl, k0_off73_eq k 15, rfl, fun _ => rfl⟩
    · exact ⟨_, rfl, k0_off74_eq k 15, rfl, fun _ => rfl⟩

/-- The pieces of trip `k`. -/
abbrev tripL_t5 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (k : Fin k0_t5_loop.trips) : List (View.Piece (Elt F) S128x256 .f32) :=
  (trip_t5 (F := F) 𝒱 d bd i arg2 harg2 arg3 harg3 arg4 harg4 arg5 harg5 arg6 harg6 arg7 harg7 arg8 arg9 v7_r0 v7_r1 k0_t4 arg10 v31 v43 v44 v45 X_arg5 k).1

/-- Trip `k`'s pieces in front of those before it; past the last trip, nothing more. -/
@[irreducible] def pb_t5Step (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (k : ℕ) (prev : List (View.Piece (Elt F) S128x256 .f32)) : List (View.Piece (Elt F) S128x256 .f32) :=
  if h : k < k0_t5_loop.trips then (tripL_t5 (F := F) 𝒱 d bd i arg2 harg2 arg3 harg3 arg4 harg4 arg5 harg5 arg6 harg6 arg7 harg7 arg8 arg9 v7_r0 v7_r1 k0_t4 arg10 v31 v43 v44 v45 X_arg5 ⟨k, h⟩) ++ prev else prev

/-- The pieces of the trips before `k`, last first. -/
def pb_t5 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) : ℕ → List (View.Piece (Elt F) S128x256 .f32)
  | 0 => []
  | k + 1 => pb_t5Step 𝒱 d bd i arg2 harg2 arg3 harg3 arg4 harg4 arg5 harg5 arg6 harg6 arg7 harg7 arg8 arg9 v7_r0 v7_r1 k0_t4 arg10 v31 v43 v44 v45 X_arg5 k (pb_t5 𝒱 d bd i arg2 harg2 arg3 harg3 arg4 harg4 arg5 harg5 arg6 harg6 arg7 harg7 arg8 arg9 v7_r0 v7_r1 k0_t4 arg10 v31 v43 v44 v45 X_arg5 k)

theorem pb_t5_succ (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (k : Fin k0_t5_loop.trips) :
    pb_t5 (F := F) 𝒱 d bd i arg2 harg2 arg3 harg3 arg4 harg4 arg5 harg5 arg6 harg6 arg7 harg7 arg8 arg9 v7_r0 v7_r1 k0_t4 arg10 v31 v43 v44 v45 X_arg5 (k.val + 1) = (tripL_t5 (F := F) 𝒱 d bd i arg2 harg2 arg3 harg3 arg4 harg4 arg5 harg5 arg6 harg6 arg7 harg7 arg8 arg9 v7_r0 v7_r1 k0_t4 arg10 v31 v43 v44 v45 X_arg5 k) ++ (pb_t5 (F := F) 𝒱 d bd i arg2 harg2 arg3 harg3 arg4 harg4 arg5 harg5 arg6 harg6 arg7 harg7 arg8 arg9 v7_r0 v7_r1 k0_t4 arg10 v31 v43 v44 v45 X_arg5 k.val) := by
  rw [pb_t5.eq_2]; unfold pb_t5Step; exact dif_pos k.isLt

/-- Before trip `k` the written buffer holds the pieces of the trips before `k` over its contents `G` at the loop's entry. -/
abbrev inv_t5 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (G : BufTy.Contents (Elt F) arg6.view.ty) (k : ℕ) (_a : BitVec 32) : sProp 𝕄 :=
  iprop((arg5.view.loc (V d (cV i) (jV i)) ↦[arg5.view.set]{fullShare} X_arg5) ∗ (∃ f, (arg6.view.loc (V d (cV i) (jV i)) ↦[arg6.view.set]{fullShare} f) ∗ ⌜f = arg6.view.writes (Elt F) G (pb_t5 (F := F) 𝒱 d bd i arg2 harg2 arg3 harg3 arg4 harg4 arg5 harg5 arg6 harg6 arg7 harg7 arg8 arg9 v7_r0 v7_r1 k0_t4 arg10 v31 v43 v44 v45 X_arg5 k)⌝))

set_option warn.classDefReducibility false in
/-- The loop by that invariant. -/
@[sl_loop] def loopInv_t5 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (E : Set ℕ) (G : BufTy.Contents (Elt F) arg6.view.ty) :
    LoopInv (M := MT nD τ sig (HIx 1) (Elt F) ℕ UU ℕ) Idealize.ShloMosaic.frame (wpE (defs₀ (F := F)) 𝒱 (V d (cV i) (jV i)) bd) E
      k0_t5_loop.lb k0_t5_loop.ub k0_t5_loop.st k0_t5_ok (0#32) (k0_t5_body (F := F) i arg2 harg2 arg3 harg3 arg4 harg4 arg5 harg5 arg6 harg6 arg7 harg7 arg8 arg9 v7_r0 v7_r1 k0_t4 arg10 v31 v43 v44 v45) where
  inv := inv_t5 (F := F) 𝒱 d bd i arg2 harg2 arg3 harg3 arg4 harg4 arg5 harg5 arg6 harg6 arg7 harg7 arg8 arg9 v7_r0 v7_r1 k0_t4 arg10 v31 v43 v44 v45 X_arg5 G
  step k acc := by
    iintro ⟨HR, ⟨%fw, HW, %hw⟩⟩
    iapply (wp_wand_r Idealize.ShloMosaic.frame (wpE (defs₀ (F := F)) 𝒱 (V d (cV i) (jV i)) bd) E)
    isplitl [HR HW]
    · iapply ((trip_t5 (F := F) 𝒱 d bd i arg2 harg2 arg3 harg3 arg4 harg4 arg5 harg5 arg6 harg6 arg7 harg7 arg8 arg9 v7_r0 v7_r1 k0_t4 arg10 v31 v43 v44 v45 X_arg5 k).2.1 E fw acc)
      isplitl [HR]; · iexact HR
      iexact HW
    · iintro %_ ⟨HR, HW⟩
      unfold inv_t5
      isplitl [HR]; · iexact HR
      rw [pb_t5_succ]
      iexists _; isplitl [HW]; · iexact HW
      ipureintro; rw [hw, ← View.writes_append]

/-! ### What the loop leaves -/

/-- The loop runs eight trips, sixteen rows each. -/
theorem trips_t5 : k0_t5_loop.trips = 8 := by decide +kernel

/-- After the loop row `r` of the written buffer holds, at every column, entry `r` of staged row `4 + t4`, whatever
    the buffer held before. -/
theorem fill_t5 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (G0 : BufTy.Contents (Elt F) arg6.view.ty) (y : S128x256.Idx) :
    arg6.view.read (Elt F) (arg6.view.writes (Elt F) G0 (pb_t5 (F := F) 𝒱 d bd i arg2 harg2 arg3 harg3 arg4 harg4 arg5 harg5 arg6 harg6 arg7 harg7 arg8 arg9 v7_r0 v7_r1 k0_t4 arg10 v31 v43 v44 v45 X_arg5 (Scf.trips k0_t5_loop.lb k0_t5_loop.ub k0_t5_loop.st))) y
      = arg5.view.read (Elt F) X_arg5 (ix2 (⟨4 + k0_t4.val, row_t4_lt k0_t4⟩ : Fin 8) (⟨(y 0).val, by have := idx2_lt0 y; omega⟩ : Fin 256)) :=
  (read_of_trips arg6.view G0 (rowG (entRow arg5.view X_arg5 ⟨4 + k0_t4.val, row_t4_lt k0_t4⟩ 0 (by decide))) k0_t5_loop.trips (pb_t5 (F := F) 𝒱 d bd i arg2 harg2 arg3 harg3 arg4 harg4 arg5 harg5 arg6 harg6 arg7 harg7 arg8 arg9 v7_r0 v7_r1 k0_t4 arg10 v31 v43 v44 v45 X_arg5) (tripL_t5 (F := F) 𝒱 d bd i arg2 harg2 arg3 harg3 arg4 harg4 arg5 harg5 arg6 harg6 arg7 harg7 arg8 arg9 v7_r0 v7_r1 k0_t4 arg10 v31 v43 v44 v45 X_arg5) rfl
    (pb_t5_succ (F := F) 𝒱 d bd i arg2 harg2 arg3 harg3 arg4 harg4 arg5 harg5 arg6 harg6 arg7 harg7 arg8 arg9 v7_r0 v7_r1 k0_t4 arg10 v31 v43 v44 v45 X_arg5) (fun y => (y 0).val / 16)
    (fun k => (trip_t5 (F := F) 𝒱 d bd i arg2 harg2 arg3 harg3 arg4 harg4 arg5 harg5 arg6 harg6 arg7 harg7 arg8 arg9 v7_r0 v7_r1 k0_t4 arg10 v31 v43 v44 v45 X_arg5 k).2.2.1) (fun k => (trip_t5 (F := F) 𝒱 d bd i arg2 harg2 arg3 harg3 arg4 harg4 arg5 harg5 arg6 harg6 arg7 harg7 arg8 arg9 v7_r0 v7_r1 k0_t4 arg10 v31 v43 v44 v45 X_arg5 k).2.2.2) y
    (by rw [trips_t5]; have := idx2_lt0 y; omega)).trans
    (congrArg (fun c => arg5.view.read (Elt F) X_arg5 (ix2 (⟨4 + k0_t4.val, row_t4_lt k0_t4⟩ : Fin 8) c)) (Fin.ext (by simp only; omega)))

end Cert.Proof.KB

end
-- ==== Proof.KBLoopB1.lean ====
/-
  The fill loops of a worker's task, each by an invariant.

  A fill loop writes one of the two 128 x 256 buffers a row (or sixteen rows) per trip and touches nothing else, so
  before trip k the buffer is its contents at the loop's entry overwritten by the pieces of the trips before k. One
  trip is taken at a symbolic k, with the pieces its stores write.
-/
import proofs.«210098_g2860448219651_cont_9to1_994_18_alg».proof.Proof.KBSetup
import proofs.«210098_g2860448219651_cont_9to1_994_18_alg».proof.Proof.KBFillRow

set_option maxRecDepth 8192
set_option maxHeartbeats 4000000

noncomputable section

namespace Cert.Proof.KB

open Cert.Kernel Cert.Kernel.Gen

open Idealize.ShloMosaic Idealize.ShloMosaic.Tactic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-! ### The loop `k0_t6_loop`: each trip reads sixteen staged entries and spreads each along one of rows 16 k .. 16 k + 15 of the second buffer -/

/-- The trip's one load reads sixteen entries of staged row `4 + t4` from column `128 + 16 k`. -/
theorem k0_off79_eq' : ∀ (t4 : Fin k0_t4_loop.trips) (k : Fin k0_t6_loop.trips), k0_off79 t4 k = ![4 + t4.val, 128 + 16 * k.val] := by
  decide +kernel

/-- The sixteen staged entries trip `k` loads. -/
abbrev ld_t6 (arg5 : Memref sig .scVector .vmem S8x256 .f32) (k0_t4 : Fin k0_t4_loop.trips) (X_arg5 : BufTy.Contents (Elt F) arg5.view.ty) (k : Fin k0_t6_loop.trips) : S1x16.Idx → Elt F .f32 :=
  View.readAt (Elt F) arg5.view (Rect.unit (s := S8x256) (k0_off79 k0_t4 k) S1x16.size (k0_off79_inb k0_t4 k)).toLoadRect X_arg5

/-- Lane `l` of them, extracted and splat, is staged entry `128 + 16 k + l` at every lane. -/
theorem lane_t6 (arg5 : Memref sig .scVector .vmem S8x256 .f32) (k0_t4 : Fin k0_t4_loop.trips) (X_arg5 : BufTy.Contents (Elt F) arg5.view.ty) (k : Fin k0_t6_loop.trips)
    (l : ℕ) (hl : l < 16) (hr : 16 * k.val + l < 128) (hc1 : S1x16.ShapeCasts S16) (hs : S16.Slices ![l] S1) (hp : ∀ a, (![0] : Fin S1.rank → ℕ) a < S1.size a)
    (hc2 : S16.ShapeCasts S1x16) (x : S1x16.Idx) :
    shapeCast S1x16 (broadcast S16 (extractAt ![0] (extractStridedSlice S1 ![l] (shapeCast S16 (ld_t6 (F := F) arg5 k0_t4 X_arg5 k) hc1) hs) hp)) hc2 x
      = entRow arg5.view X_arg5 ⟨4 + k0_t4.val, row_t4_lt k0_t4⟩ 128 (by decide) ⟨16 * k.val + l, hr⟩ :=
  (lane_splat_apply _ l hl hc1 hs hp hc2 x).trans
    ((readAt_lane arg5.view X_arg5 _ _ (4 + k0_t4.val) (128 + 16 * k.val) (k0_off79_eq' k0_t4 k) l hl (row_t4_lt k0_t4) (by omega)).trans
      (congrArg (fun c => arg5.view.read (Elt F) X_arg5 (ix2 (⟨4 + k0_t4.val, row_t4_lt k0_t4⟩ : Fin 8) c)) (Fin.ext (by simp only; omega))))

/-- One trip at a symbolic `k`, with the pieces its stores write; each is a block of the buffer whose row `r` holds
    staged entry `128 + r` at every column, and together they cover rows `16 k .. 16 k + 15`. -/
@[irreducible] def trip_t6 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (k : Fin k0_t6_loop.trips) :
    { Lw : List (View.Piece (Elt F) S128x256 .f32) // (∀ (E : Set ℕ) (fw : BufTy.Contents (Elt F) arg7.view.ty) (acc : BitVec 32),
      (iprop((arg5.view.loc (V d (cV i) (jV i)) ↦[arg5.view.set]{fullShare} X_arg5) ∗ (arg7.view.loc (V d (cV i) (jV i)) ↦[arg7.view.set]{fullShare} fw)) : sProp 𝕄)
      ⊢ wp frame (wpE (defs₀ (F := F)) 𝒱 (V d (cV i) (jV i)) bd) E (k0_t6_body (F := F) i arg2 harg2 arg3 harg3 arg4 harg4 arg5 harg5 arg6 harg6 arg7 harg7 arg8 arg9 v7_r0 v7_r1 v2 k0_t4 v71 c2_i32_50 v101 v102 k acc)
          (fun _ => iprop((arg5.view.loc (V d (cV i) (jV i)) ↦[arg5.view.set]{fullShare} X_arg5) ∗ (arg7.view.loc (V d (cV i) (jV i)) ↦[arg7.view.set]{fullShare} arg7.view.writes (Elt F) fw Lw))))
      ∧ (∀ p ∈ Lw, ∀ x : p.1.shape.Idx, p.2 x = rowG (entRow arg5.view X_arg5 ⟨4 + k0_t4.val, row_t4_lt k0_t4⟩ 128 (by decide)) (p.1.emb x))
      ∧ (∀ y : S128x256.Idx, (y 0).val / 16 = k.val → ∃ p ∈ Lw, y ∈ p.1.set) } := by
  have hk : k.val < 8 := Nat.lt_of_lt_of_le k.isLt k0_t6_abs.2.1
  refine ⟨?_, fun E fw acc => ?run, ?agree, ?cover⟩
  case run =>
    unfold k0_t6_body
    iintro ⟨HR, HW⟩
    sl_exec_parts
    sl_step
    sl_close
  case agree =>
    sl_unfold_run_names
    have hr0 : 16 * k.val + 0 < 128 := by omega
    have hr1 : 16 * k.val + 1 < 128 := by omega
    have hr2 : 16 * k.val + 2 < 128 := by omega
    have hr3 : 16 * k.val + 3 < 128 := by omega
    have hr4 : 16 * k.val + 4 < 128 := by omega
    have hr5 : 16 * k.val + 5 < 128 := by omega
    have hr6 : 16 * k.val + 6 < 128 := by omega
    have hr7 : 16 * k.val + 7 < 128 := by omega
    have hr8 : 16 * k.val + 8 < 128 := by omega
    have hr9 : 16 * k.val + 9 < 128 := by omega
    have hr10 : 16 * k.val + 10 < 128 := by omega
    have hr11 : 16 * k.val + 11 < 128 := by omega
    have hr12 : 16 * k.val + 12 < 128 := by omega
    have hr13 : 16 * k.val + 13 < 128 := by omega
    have hr14 : 16 * k.val + 14 < 128 := by omega
    have hr15 : 16 * k.val + 15 < 128 := by omega
    have hL0 := lane_t6 (F := F) arg5 k0_t4 X_arg5 k 0 (by decide) hr0 (by decide) (by decide) (by decide) (by decide)
    have hL1 := lane_t6 (F := F) arg5 k0_t4 X_arg5 k 1 (by decide) hr1 (by decide) (by decide) (by decide) (by decide)
    have hL2 := lane_t6 (F := F) arg5 k0_t4 X_arg5 k 2 (by decide) hr2 (by decide) (by decide) (by decide) (by decide)
    have hL3 := lane_t6 (F := F) arg5 k0_t4 X_arg5 k 3 (by decide) hr3 (by decide) (by decide) (by decide) (by decide)
    have hL4 := lane_t6 (F := F) arg5 k0_t4 X_arg5 k 4 (by decide) hr4 (by decide) (by decide) (by decide) (by decide)
    have hL5 := lane_t6 (F := F) arg5 k0_t4 X_arg5 k 5 (by decide) hr5 (by decide) (by decide) (by decide) (by decide)
    have hL6 := lane_t6 (F := F) arg5 k0_t4 X_arg5 k 6 (by decide) hr6 (by decide) (by decide) (by decide) (by decide)
    have hL7 := lane_t6 (F := F) arg5 k0_t4 X_arg5 k 7 (by decide) hr7 (by decide) (by decide) (by decide) (by decide)
    have hL8 := lane_t6 (F := F) arg5 k0_t4 X_arg5 k 8 (by decide) hr8 (by decide) (by decide) (by decide) (by decide)
    have hL9 := lane_t6 (F := F) arg5 k0_t4 X_arg5 k 9 (by decide) hr9 (by decide) (by decide) (by decide) (by decide)
    have hL10 := lane_t6 (F := F) arg5 k0_t4 X_arg5 k 10 (by decide) hr10 (by decide) (by decide) (by decide) (by decide)
    have hL11 := lane_t6 (F := F) arg5 k0_t4 X_arg5 k 11 (by decide) hr11 (by decide) (by decide) (by decide) (by decide)
    have hL12 := lane_t6 (F := F) arg5 k0_t4 X_arg5 k 12 (by decide) hr12 (by decide) (by decide) (by decide) (by decide)
    have hL13 := lane_t6 (F := F) arg5 k0_t4 X_arg5 k 13 (by decide) hr13 (by decide) (by decide) (by decide) (by decide)
    have hL14 := lane_t6 (F := F) arg5 k0_t4 X_arg5 k 14 (by decide) hr14 (by decide) (by decide) (by decide) (by decide)
    have hL15 := lane_t6 (F := F) arg5 k0_t4 X_arg5 k 15 (by decide) hr15 (by decide) (by decide) (by decide) (by decide)
    repeat' (first | exact fun _ h => absurd h List.not_mem_nil | refine List.forall_mem_cons.mpr ⟨?_, ?_⟩)
    · exact rowG_piece _ (k0_off95 k 15#32) (k0_off95_inb k 15) (16 * k.val + 15) 240 (k0_off95_eq k 15) hr15 _ hL15
    · exact rowG_piece _ (k0_off94 k 15#32) (k0_off94_inb k 15) (16 * k.val + 15) 224 (k0_off94_eq k 15) hr15 _ hL15
    · exact rowG_piece _ (k0_off93 k 15#32) (k0_off93_inb k 15) (16 * k.val + 15) 208 (k0_off93_eq k 15) hr15 _ hL15
    · exact rowG_piece _ (k0_off92 k 15#32) (k0_off92_inb k 15) (16 * k.val + 15) 192 (k0_off92_eq k 15) hr15 _ hL15
    · exact rowG_piece _ (k0_off91 k 15#32) (k0_off91_inb k 15) (16 * k.val + 15) 176 (k0_off91_eq k 15) hr15 _ hL15
    · exact rowG_piece _ (k0_off90 k 15#32) (k0_off90_inb k 15) (16 * k.val + 15) 160 (k0_off90_eq k 15) hr15 _ hL15
    · exact rowG_piece _ (k0_off89 k 15#32) (k0_off89_inb k 15) (16 * k.val + 15) 144 (k0_off89_eq k 15) hr15 _ hL15
    · exact rowG_piece _ (k0_off88 k 15#32) (k0_off88_inb k 15) (16 * k.val + 15) 128 (k0_off88_eq k 15) hr15 _ hL15
    · exact rowG_piece _ (k0_off87 k 15#32) (k0_off87_inb k 15) (16 * k.val + 15) 112 (k0_off87_eq k 15) hr15 _ hL15
    · exact rowG_piece _ (k0_off86 k 15#32) (k0_off86_inb k 15) (16 * k.val + 15) 96 (k0_off86_eq k 15) hr15 _ hL15
    · exact rowG_piece _ (k0_off85 k 15#32) (k0_off85_inb k 15) (16 * k.val + 15) 80 (k0_off85_eq k 15) hr15 _ hL15
    · exact rowG_piece _ (k0_off84 k 15#32) (k0_off84_inb k 15) (16 * k.val + 15) 64 (k0_off84_eq k 15) hr15 _ hL15
    · exact rowG_piece _ (k0_off83 k 15#32) (k0_off83_inb k 15) (16 * k.val + 15) 48 (k0_off83_eq k 15) hr15 _ hL15
    · exact rowG_piece _ (k0_off82 k 15#32) (k0_off82_inb k 15) (16 * k.val + 15) 32 (k0_off82_eq k 15) hr15 _ hL15
    · exact rowG_piece _ (k0_off81 k 15#32) (k0_off81_inb k 15) (16 * k.val + 15) 16 (k0_off81_eq k 15) hr15 _ hL15
    · exact rowG_piece _ (k0_off80 k 15#32) (k0_off80_inb k 15) (16 * k.val + 15) 0 (k0_off80_eq k 15) hr15 _ hL15
    · exact rowG_piece _ (k0_off95 k 14#32) (k0_off95_inb k 14) (16 * k.val + 14) 240 (k0_off95_eq k 14) hr14 _ hL14
    · exact rowG_piece _ (k0_off94 k 14#32) (k0_off94_inb k 14) (16 * k.val + 14) 224 (k0_off94_eq k 14) hr14 _ hL14
    · exact rowG_piece _ (k0_off93 k 14#32) (k0_off93_inb k 14) (16 * k.val + 14) 208 (k0_off93_eq k 14) hr14 _ hL14
    · exact rowG_piece _ (k0_off92 k 14#32) (k0_off92_inb k 14) (16 * k.val + 14) 192 (k0_off92_eq k 14) hr14 _ hL14
    · exact rowG_piece _ (k0_off91 k 14#32) (k0_off91_inb k 14) (16 * k.val + 14) 176 (k0_off91_eq k 14) hr14 _ hL14
    · exact rowG_piece _ (k0_off90 k 14#32) (k0_off90_inb k 14) (16 * k.val + 14) 160 (k0_off90_eq k 14) hr14 _ hL14
    · exact rowG_piece _ (k0_off89 k 14#32) (k0_off89_inb k 14) (16 * k.val + 14) 144 (k0_off89_eq k 14) hr14 _ hL14
    · exact rowG_piece _ (k0_off88 k 14#32) (k0_off88_inb k 14) (16 * k.val + 14) 128 (k0_off88_eq k 14) hr14 _ hL14
    · exact rowG_piece _ (k0_off87 k 14#32) (k0_off87_inb k 14) (16 * k.val + 14) 112 (k0_off87_eq k 14) hr14 _ hL14
    · exact rowG_piece _ (k0_off86 k 14#32) (k0_off86_inb k 14) (16 * k.val + 14) 96 (k0_off86_eq k 14) hr14 _ hL14
    · exact rowG_piece _ (k0_off85 k 14#32) (k0_off85_inb k 14) (16 * k.val + 14) 80 (k0_off85_eq k 14) hr14 _ hL14
    · exact rowG_piece _ (k0_off84 k 14#32) (k0_off84_inb k 14) (16 * k.val + 14) 64 (k0_off84_eq k 14) hr14 _ hL14
    · exact rowG_piece _ (k0_off83 k 14#32) (k0_off83_inb k 14) (16 * k.val + 14) 48 (k0_off83_eq k 14) hr14 _ hL14
    · exact rowG_piece _ (k0_off82 k 14#32) (k0_off82_inb k 14) (16 * k.val + 14) 32 (k0_off82_eq k 14) hr14 _ hL14
    · exact rowG_piece _ (k0_off81 k 14#32) (k0_off81_inb k 14) (16 * k.val + 14) 16 (k0_off81_eq k 14) hr14 _ hL14
    · exact rowG_piece _ (k0_off80 k 14#32) (k0_off80_inb k 14) (16 * k.val + 14) 0 (k0_off80_eq k 14) hr14 _ hL14
    · exact rowG_piece _ (k0_off95 k 13#32) (k0_off95_inb k 13) (16 * k.val + 13) 240 (k0_off95_eq k 13) hr13 _ hL13
    · exact rowG_piece _ (k0_off94 k 13#32) (k0_off94_inb k 13) (16 * k.val + 13) 224 (k0_off94_eq k 13) hr13 _ hL13
    · exact rowG_piece _ (k0_off93 k 13#32) (k0_off93_inb k 13) (16 * k.val + 13) 208 (k0_off93_eq k 13) hr13 _ hL13
    · exact rowG_piece _ (k0_off92 k 13#32) (k0_off92_inb k 13) (16 * k.val + 13) 192 (k0_off92_eq k 13) hr13 _ hL13
    · exact rowG_piece _ (k0_off91 k 13#32) (k0_off91_inb k 13) (16 * k.val + 13) 176 (k0_off91_eq k 13) hr13 _ hL13
    · exact rowG_piece _ (k0_off90 k 13#32) (k0_off90_inb k 13) (16 * k.val + 13) 160 (k0_off90_eq k 13) hr13 _ hL13
    · exact rowG_piece _ (k0_off89 k 13#32) (k0_off89_inb k 13) (16 * k.val + 13) 144 (k0_off89_eq k 13) hr13 _ hL13
    · exact rowG_piece _ (k0_off88 k 13#32) (k0_off88_inb k 13) (16 * k.val + 13) 128 (k0_off88_eq k 13) hr13 _ hL13
    · exact rowG_piece _ (k0_off87 k 13#32) (k0_off87_inb k 13) (16 * k.val + 13) 112 (k0_off87_eq k 13) hr13 _ hL13
    · exact rowG_piece _ (k0_off86 k 13#32) (k0_off86_inb k 13) (16 * k.val + 13) 96 (k0_off86_eq k 13) hr13 _ hL13
    · exact rowG_piece _ (k0_off85 k 13#32) (k0_off85_inb k 13) (16 * k.val + 13) 80 (k0_off85_eq k 13) hr13 _ hL13
    · exact rowG_piece _ (k0_off84 k 13#32) (k0_off84_inb k 13) (16 * k.val + 13) 64 (k0_off84_eq k 13) hr13 _ hL13
    · exact rowG_piece _ (k0_off83 k 13#32) (k0_off83_inb k 13) (16 * k.val + 13) 48 (k0_off83_eq k 13) hr13 _ hL13
    · exact rowG_piece _ (k0_off82 k 13#32) (k0_off82_inb k 13) (16 * k.val + 13) 32 (k0_off82_eq k 13) hr13 _ hL13
    · exact rowG_piece _ (k0_off81 k 13#32) (k0_off81_inb k 13) (16 * k.val + 13) 16 (k0_off81_eq k 13) hr13 _ hL13
    · exact rowG_piece _ (k0_off80 k 13#32) (k0_off80_inb k 13) (16 * k.val + 13) 0 (k0_off80_eq k 13) hr13 _ hL13
    · exact rowG_piece _ (k0_off95 k 12#32) (k0_off95_inb k 12) (16 * k.val + 12) 240 (k0_off95_eq k 12) hr12 _ hL12
    · exact rowG_piece _ (k0_off94 k 12#32) (k0_off94_inb k 12) (16 * k.val + 12) 224 (k0_off94_eq k 12) hr12 _ hL12
    · exact rowG_piece _ (k0_off93 k 12#32) (k0_off93_inb k 12) (16 * k.val + 12) 208 (k0_off93_eq k 12) hr12 _ hL12
    · exact rowG_piece _ (k0_off92 k 12#32) (k0_off92_inb k 12) (16 * k.val + 12) 192 (k0_off92_eq k 12) hr12 _ hL12
    · exact rowG_piece _ (k0_off91 k 12#32) (k0_off91_inb k 12) (16 * k.val + 12) 176 (k0_off91_eq k 12) hr12 _ hL12
    · exact rowG_piece _ (k0_off90 k 12#32) (k0_off90_inb k 12) (16 * k.val + 12) 160 (k0_off90_eq k 12) hr12 _ hL12
    · exact rowG_piece _ (k0_off89 k 12#32) (k0_off89_inb k 12) (16 * k.val + 12) 144 (k0_off89_eq k 12) hr12 _ hL12
    · exact rowG_piece _ (k0_off88 k 12#32) (k0_off88_inb k 12) (16 * k.val + 12) 128 (k0_off88_eq k 12) hr12 _ hL12
    · exact rowG_piece _ (k0_off87 k 12#32) (k0_off87_inb k 12) (16 * k.val + 12) 112 (k0_off87_eq k 12) hr12 _ hL12
    · exact rowG_piece _ (k0_off86 k 12#32) (k0_off86_inb k 12) (16 * k.val + 12) 96 (k0_off86_eq k 12) hr12 _ hL12
    · exact rowG_piece _ (k0_off85 k 12#32) (k0_off85_inb k 12) (16 * k.val + 12) 80 (k0_off85_eq k 12) hr12 _ hL12
    · exact rowG_piece _ (k0_off84 k 12#32) (k0_off84_inb k 12) (16 * k.val + 12) 64 (k0_off84_eq k 12) hr12 _ hL12
    · exact rowG_piece _ (k0_off83 k 12#32) (k0_off83_inb k 12) (16 * k.val + 12) 48 (k0_off83_eq k 12) hr12 _ hL12
    · exact rowG_piece _ (k0_off82 k 12#32) (k0_off82_inb k 12) (16 * k.val + 12) 32 (k0_off82_eq k 12) hr12 _ hL12
    · exact rowG_piece _ (k0_off81 k 12#32) (k0_off81_inb k 12) (16 * k.val + 12) 16 (k0_off81_eq k 12) hr12 _ hL12
    · exact rowG_piece _ (k0_off80 k 12#32) (k0_off80_inb k 12) (16 * k.val + 12) 0 (k0_off80_eq k 12) hr12 _ hL12
    · exact rowG_piece _ (k0_off95 k 11#32) (k0_off95_inb k 11) (16 * k.val + 11) 240 (k0_off95_eq k 11) hr11 _ hL11
    · exact rowG_piece _ (k0_off94 k 11#32) (k0_off94_inb k 11) (16 * k.val + 11) 224 (k0_off94_eq k 11) hr11 _ hL11
    · exact rowG_piece _ (k0_off93 k 11#32) (k0_off93_inb k 11) (16 * k.val + 11) 208 (k0_off93_eq k 11) hr11 _ hL11
    · exact rowG_piece _ (k0_off92 k 11#32) (k0_off92_inb k 11) (16 * k.val + 11) 192 (k0_off92_eq k 11) hr11 _ hL11
    · exact rowG_piece _ (k0_off91 k 11#32) (k0_off91_inb k 11) (16 * k.val + 11) 176 (k0_off91_eq k 11) hr11 _ hL11
    · exact rowG_piece _ (k0_off90 k 11#32) (k0_off90_inb k 11) (16 * k.val + 11) 160 (k0_off90_eq k 11) hr11 _ hL11
    · exact rowG_piece _ (k0_off89 k 11#32) (k0_off89_inb k 11) (16 * k.val + 11) 144 (k0_off89_eq k 11) hr11 _ hL11
    · exact rowG_piece _ (k0_off88 k 11#32) (k0_off88_inb k 11) (16 * k.val + 11) 128 (k0_off88_eq k 11) hr11 _ hL11
    · exact rowG_piece _ (k0_off87 k 11#32) (k0_off87_inb k 11) (16 * k.val + 11) 112 (k0_off87_eq k 11) hr11 _ hL11
    · exact rowG_piece _ (k0_off86 k 11#32) (k0_off86_inb k 11) (16 * k.val + 11) 96 (k0_off86_eq k 11) hr11 _ hL11
    · exact rowG_piece _ (k0_off85 k 11#32) (k0_off85_inb k 11) (16 * k.val + 11) 80 (k0_off85_eq k 11) hr11 _ hL11
    · exact rowG_piece _ (k0_off84 k 11#32) (k0_off84_inb k 11) (16 * k.val + 11) 64 (k0_off84_eq k 11) hr11 _ hL11
    · exact rowG_piece _ (k0_off83 k 11#32) (k0_off83_inb k 11) (16 * k.val + 11) 48 (k0_off83_eq k 11) hr11 _ hL11
    · exact rowG_piece _ (k0_off82 k 11#32) (k0_off82_inb k 11) (16 * k.val + 11) 32 (k0_off82_eq k 11) hr11 _ hL11
    · exact rowG_piece _ (k0_off81 k 11#32) (k0_off81_inb k 11) (16 * k.val + 11) 16 (k0_off81_eq k 11) hr11 _ hL11
    · exact rowG_piece _ (k0_off80 k 11#32) (k0_off80_inb k 11) (16 * k.val + 11) 0 (k0_off80_eq k 11) hr11 _ hL11
    · exact rowG_piece _ (k0_off95 k 10#32) (k0_off95_inb k 10) (16 * k.val + 10) 240 (k0_off95_eq k 10) hr10 _ hL10
    · exact rowG_piece _ (k0_off94 k 10#32) (k0_off94_inb k 10) (16 * k.val + 10) 224 (k0_off94_eq k 10) hr10 _ hL10
    · exact rowG_piece _ (k0_off93 k 10#32) (k0_off93_inb k 10) (16 * k.val + 10) 208 (k0_off93_eq k 10) hr10 _ hL10
    · exact rowG_piece _ (k0_off92 k 10#32) (k0_off92_inb k 10) (16 * k.val + 10) 192 (k0_off92_eq k 10) hr10 _ hL10
    · exact rowG_piece _ (k0_off91 k 10#32) (k0_off91_inb k 10) (16 * k.val + 10) 176 (k0_off91_eq k 10) hr10 _ hL10
    · exact rowG_piece _ (k0_off90 k 10#32) (k0_off90_inb k 10) (16 * k.val + 10) 160 (k0_off90_eq k 10) hr10 _ hL10
    · exact rowG_piece _ (k0_off89 k 10#32) (k0_off89_inb k 10) (16 * k.val + 10) 144 (k0_off89_eq k 10) hr10 _ hL10
    · exact rowG_piece _ (k0_off88 k 10#32) (k0_off88_inb k 10) (16 * k.val + 10) 128 (k0_off88_eq k 10) hr10 _ hL10
    · exact rowG_piece _ (k0_off87 k 10#32) (k0_off87_inb k 10) (16 * k.val + 10) 112 (k0_off87_eq k 10) hr10 _ hL10
    · exact rowG_piece _ (k0_off86 k 10#32) (k0_off86_inb k 10) (16 * k.val + 10) 96 (k0_off86_eq k 10) hr10 _ hL10
    · exact rowG_piece _ (k0_off85 k 10#32) (k0_off85_inb k 10) (16 * k.val + 10) 80 (k0_off85_eq k 10) hr10 _ hL10
    · exact rowG_piece _ (k0_off84 k 10#32) (k0_off84_inb k 10) (16 * k.val + 10) 64 (k0_off84_eq k 10) hr10 _ hL10
    · exact rowG_piece _ (k0_off83 k 10#32) (k0_off83_inb k 10) (16 * k.val + 10) 48 (k0_off83_eq k 10) hr10 _ hL10
    · exact rowG_piece _ (k0_off82 k 10#32) (k0_off82_inb k 10) (16 * k.val + 10) 32 (k0_off82_eq k 10) hr10 _ hL10
    · exact rowG_piece _ (k0_off81 k 10#32) (k0_off81_inb k 10) (16 * k.val + 10) 16 (k0_off81_eq k 10) hr10 _ hL10
    · exact rowG_piece _ (k0_off80 k 10#32) (k0_off80_inb k 10) (16 * k.val + 10) 0 (k0_off80_eq k 10) hr10 _ hL10
    · exact rowG_piece _ (k0_off95 k 9#32) (k0_off95_inb k 9) (16 * k.val + 9) 240 (k0_off95_eq k 9) hr9 _ hL9
    · exact rowG_piece _ (k0_off94 k 9#32) (k0_off94_inb k 9) (16 * k.val + 9) 224 (k0_off94_eq k 9) hr9 _ hL9
    · exact rowG_piece _ (k0_off93 k 9#32) (k0_off93_inb k 9) (16 * k.val + 9) 208 (k0_off93_eq k 9) hr9 _ hL9
    · exact rowG_piece _ (k0_off92 k 9#32) (k0_off92_inb k 9) (16 * k.val + 9) 192 (k0_off92_eq k 9) hr9 _ hL9
    · exact rowG_piece _ (k0_off91 k 9#32) (k0_off91_inb k 9) (16 * k.val + 9) 176 (k0_off91_eq k 9) hr9 _ hL9
    · exact rowG_piece _ (k0_off90 k 9#32) (k0_off90_inb k 9) (16 * k.val + 9) 160 (k0_off90_eq k 9) hr9 _ hL9
    · exact rowG_piece _ (k0_off89 k 9#32) (k0_off89_inb k 9) (16 * k.val + 9) 144 (k0_off89_eq k 9) hr9 _ hL9
    · exact rowG_piece _ (k0_off88 k 9#32) (k0_off88_inb k 9) (16 * k.val + 9) 128 (k0_off88_eq k 9) hr9 _ hL9
    · exact rowG_piece _ (k0_off87 k 9#32) (k0_off87_inb k 9) (16 * k.val + 9) 112 (k0_off87_eq k 9) hr9 _ hL9
    · exact rowG_piece _ (k0_off86 k 9#32) (k0_off86_inb k 9) (16 * k.val + 9) 96 (k0_off86_eq k 9) hr9 _ hL9
    · exact rowG_piece _ (k0_off85 k 9#32) (k0_off85_inb k 9) (16 * k.val + 9) 80 (k0_off85_eq k 9) hr9 _ hL9
    · exact rowG_piece _ (k0_off84 k 9#32) (k0_off84_inb k 9) (16 * k.val + 9) 64 (k0_off84_eq k 9) hr9 _ hL9
    · exact rowG_piece _ (k0_off83 k 9#32) (k0_off83_inb k 9) (16 * k.val + 9) 48 (k0_off83_eq k 9) hr9 _ hL9
    · exact rowG_piece _ (k0_off82 k 9#32) (k0_off82_inb k 9) (16 * k.val + 9) 32 (k0_off82_eq k 9) hr9 _ hL9
    · exact rowG_piece _ (k0_off81 k 9#32) (k0_off81_inb k 9) (16 * k.val + 9) 16 (k0_off81_eq k 9) hr9 _ hL9
    · exact rowG_piece _ (k0_off80 k 9#32) (k0_off80_inb k 9) (16 * k.val + 9) 0 (k0_off80_eq k 9) hr9 _ hL9
    · exact rowG_piece _ (k0_off95 k 8#32) (k0_off95_inb k 8) (16 * k.val + 8) 240 (k0_off95_eq k 8) hr8 _ hL8
    · exact rowG_piece _ (k0_off94 k 8#32) (k0_off94_inb k 8) (16 * k.val + 8) 224 (k0_off94_eq k 8) hr8 _ hL8
    · exact rowG_piece _ (k0_off93 k 8#32) (k0_off93_inb k 8) (16 * k.val + 8) 208 (k0_off93_eq k 8) hr8 _ hL8
    · exact rowG_piece _ (k0_off92 k 8#32) (k0_off92_inb k 8) (16 * k.val + 8) 192 (k0_off92_eq k 8) hr8 _ hL8
    · exact rowG_piece _ (k0_off91 k 8#32) (k0_off91_inb k 8) (16 * k.val + 8) 176 (k0_off91_eq k 8) hr8 _ hL8
    · exact rowG_piece _ (k0_off90 k 8#32) (k0_off90_inb k 8) (16 * k.val + 8) 160 (k0_off90_eq k 8) hr8 _ hL8
    · exact rowG_piece _ (k0_off89 k 8#32) (k0_off89_inb k 8) (16 * k.val + 8) 144 (k0_off89_eq k 8) hr8 _ hL8
    · exact rowG_piece _ (k0_off88 k 8#32) (k0_off88_inb k 8) (16 * k.val + 8) 128 (k0_off88_eq k 8) hr8 _ hL8
    · exact rowG_piece _ (k0_off87 k 8#32) (k0_off87_inb k 8) (16 * k.val + 8) 112 (k0_off87_eq k 8) hr8 _ hL8
    · exact rowG_piece _ (k0_off86 k 8#32) (k0_off86_inb k 8) (16 * k.val + 8) 96 (k0_off86_eq k 8) hr8 _ hL8
    · exact rowG_piece _ (k0_off85 k 8#32) (k0_off85_inb k 8) (16 * k.val + 8) 80 (k0_off85_eq k 8) hr8 _ hL8
    · exact rowG_piece _ (k0_off84 k 8#32) (k0_off84_inb k 8) (16 * k.val + 8) 64 (k0_off84_eq k 8) hr8 _ hL8
    · exact rowG_piece _ (k0_off83 k 8#32) (k0_off83_inb k 8) (16 * k.val + 8) 48 (k0_off83_eq k 8) hr8 _ hL8
    · exact rowG_piece _ (k0_off82 k 8#32) (k0_off82_inb k 8) (16 * k.val + 8) 32 (k0_off82_eq k 8) hr8 _ hL8
    · exact rowG_piece _ (k0_off81 k 8#32) (k0_off81_inb k 8) (16 * k.val + 8) 16 (k0_off81_eq k 8) hr8 _ hL8
    · exact rowG_piece _ (k0_off80 k 8#32) (k0_off80_inb k 8) (16 * k.val + 8) 0 (k0_off80_eq k 8) hr8 _ hL8
    · exact rowG_piece _ (k0_off95 k 7#32) (k0_off95_inb k 7) (16 * k.val + 7) 240 (k0_off95_eq k 7) hr7 _ hL7
    · exact rowG_piece _ (k0_off94 k 7#32) (k0_off94_inb k 7) (16 * k.val + 7) 224 (k0_off94_eq k 7) hr7 _ hL7
    · exact rowG_piece _ (k0_off93 k 7#32) (k0_off93_inb k 7) (16 * k.val + 7) 208 (k0_off93_eq k 7) hr7 _ hL7
    · exact rowG_piece _ (k0_off92 k 7#32) (k0_off92_inb k 7) (16 * k.val + 7) 192 (k0_off92_eq k 7) hr7 _ hL7
    · exact rowG_piece _ (k0_off91 k 7#32) (k0_off91_inb k 7) (16 * k.val + 7) 176 (k0_off91_eq k 7) hr7 _ hL7
    · exact rowG_piece _ (k0_off90 k 7#32) (k0_off90_inb k 7) (16 * k.val + 7) 160 (k0_off90_eq k 7) hr7 _ hL7
    · exact rowG_piece _ (k0_off89 k 7#32) (k0_off89_inb k 7) (16 * k.val + 7) 144 (k0_off89_eq k 7) hr7 _ hL7
    · exact rowG_piece _ (k0_off88 k 7#32) (k0_off88_inb k 7) (16 * k.val + 7) 128 (k0_off88_eq k 7) hr7 _ hL7
    · exact rowG_piece _ (k0_off87 k 7#32) (k0_off87_inb k 7) (16 * k.val + 7) 112 (k0_off87_eq k 7) hr7 _ hL7
    · exact rowG_piece _ (k0_off86 k 7#32) (k0_off86_inb k 7) (16 * k.val + 7) 96 (k0_off86_eq k 7) hr7 _ hL7
    · exact rowG_piece _ (k0_off85 k 7#32) (k0_off85_inb k 7) (16 * k.val + 7) 80 (k0_off85_eq k 7) hr7 _ hL7
    · exact rowG_piece _ (k0_off84 k 7#32) (k0_off84_inb k 7) (16 * k.val + 7) 64 (k0_off84_eq k 7) hr7 _ hL7
    · exact rowG_piece _ (k0_off83 k 7#32) (k0_off83_inb k 7) (16 * k.val + 7) 48 (k0_off83_eq k 7) hr7 _ hL7
    · exact rowG_piece _ (k0_off82 k 7#32) (k0_off82_inb k 7) (16 * k.val + 7) 32 (k0_off82_eq k 7) hr7 _ hL7
    · exact rowG_piece _ (k0_off81 k 7#32) (k0_off81_inb k 7) (16 * k.val + 7) 16 (k0_off81_eq k 7) hr7 _ hL7
    · exact rowG_piece _ (k0_off80 k 7#32) (k0_off80_inb k 7) (16 * k.val + 7) 0 (k0_off80_eq k 7) hr7 _ hL7
    · exact rowG_piece _ (k0_off95 k 6#32) (k0_off95_inb k 6) (16 * k.val + 6) 240 (k0_off95_eq k 6) hr6 _ hL6
    · exact rowG_piece _ (k0_off94 k 6#32) (k0_off94_inb k 6) (16 * k.val + 6) 224 (k0_off94_eq k 6) hr6 _ hL6
    · exact rowG_piece _ (k0_off93 k 6#32) (k0_off93_inb k 6) (16 * k.val + 6) 208 (k0_off93_eq k 6) hr6 _ hL6
    · exact rowG_piece _ (k0_off92 k 6#32) (k0_off92_inb k 6) (16 * k.val + 6) 192 (k0_off92_eq k 6) hr6 _ hL6
    · exact rowG_piece _ (k0_off91 k 6#32) (k0_off91_inb k 6) (16 * k.val + 6) 176 (k0_off91_eq k 6) hr6 _ hL6
    · exact rowG_piece _ (k0_off90 k 6#32) (k0_off90_inb k 6) (16 * k.val + 6) 160 (k0_off90_eq k 6) hr6 _ hL6
    · exact rowG_piece _ (k0_off89 k 6#32) (k0_off89_inb k 6) (16 * k.val + 6) 144 (k0_off89_eq k 6) hr6 _ hL6
    · exact rowG_piece _ (k0_off88 k 6#32) (k0_off88_inb k 6) (16 * k.val + 6) 128 (k0_off88_eq k 6) hr6 _ hL6
    · exact rowG_piece _ (k0_off87 k 6#32) (k0_off87_inb k 6) (16 * k.val + 6) 112 (k0_off87_eq k 6) hr6 _ hL6
    · exact rowG_piece _ (k0_off86 k 6#32) (k0_off86_inb k 6) (16 * k.val + 6) 96 (k0_off86_eq k 6) hr6 _ hL6
    · exact rowG_piece _ (k0_off85 k 6#32) (k0_off85_inb k 6) (16 * k.val + 6) 80 (k0_off85_eq k 6) hr6 _ hL6
    · exact rowG_piece _ (k0_off84 k 6#32) (k0_off84_inb k 6) (16 * k.val + 6) 64 (k0_off84_eq k 6) hr6 _ hL6
    · exact rowG_piece _ (k0_off83 k 6#32) (k0_off83_inb k 6) (16 * k.val + 6) 48 (k0_off83_eq k 6) hr6 _ hL6
    · exact rowG_piece _ (k0_off82 k 6#32) (k0_off82_inb k 6) (16 * k.val + 6) 32 (k0_off82_eq k 6) hr6 _ hL6
    · exact rowG_piece _ (k0_off81 k 6#32) (k0_off81_inb k 6) (16 * k.val + 6) 16 (k0_off81_eq k 6) hr6 _ hL6
    · exact rowG_piece _ (k0_off80 k 6#32) (k0_off80_inb k 6) (16 * k.val + 6) 0 (k0_off80_eq k 6) hr6 _ hL6
    · exact rowG_piece _ (k0_off95 k 5#32) (k0_off95_inb k 5) (16 * k.val + 5) 240 (k0_off95_eq k 5) hr5 _ hL5
    · exact rowG_piece _ (k0_off94 k 5#32) (k0_off94_inb k 5) (16 * k.val + 5) 224 (k0_off94_eq k 5) hr5 _ hL5
    · exact rowG_piece _ (k0_off93 k 5#32) (k0_off93_inb k 5) (16 * k.val + 5) 208 (k0_off93_eq k 5) hr5 _ hL5
    · exact rowG_piece _ (k0_off92 k 5#32) (k0_off92_inb k 5) (16 * k.val + 5) 192 (k0_off92_eq k 5) hr5 _ hL5
    · exact rowG_piece _ (k0_off91 k 5#32) (k0_off91_inb k 5) (16 * k.val + 5) 176 (k0_off91_eq k 5) hr5 _ hL5
    · exact rowG_piece _ (k0_off90 k 5#32) (k0_off90_inb k 5) (16 * k.val + 5) 160 (k0_off90_eq k 5) hr5 _ hL5
    · exact rowG_piece _ (k0_off89 k 5#32) (k0_off89_inb k 5) (16 * k.val + 5) 144 (k0_off89_eq k 5) hr5 _ hL5
    · exact rowG_piece _ (k0_off88 k 5#32) (k0_off88_inb k 5) (16 * k.val + 5) 128 (k0_off88_eq k 5) hr5 _ hL5
    · exact rowG_piece _ (k0_off87 k 5#32) (k0_off87_inb k 5) (16 * k.val + 5) 112 (k0_off87_eq k 5) hr5 _ hL5
    · exact rowG_piece _ (k0_off86 k 5#32) (k0_off86_inb k 5) (16 * k.val + 5) 96 (k0_off86_eq k 5) hr5 _ hL5
    · exact rowG_piece _ (k0_off85 k 5#32) (k0_off85_inb k 5) (16 * k.val + 5) 80 (k0_off85_eq k 5) hr5 _ hL5
    · exact rowG_piece _ (k0_off84 k 5#32) (k0_off84_inb k 5) (16 * k.val + 5) 64 (k0_off84_eq k 5) hr5 _ hL5
    · exact rowG_piece _ (k0_off83 k 5#32) (k0_off83_inb k 5) (16 * k.val + 5) 48 (k0_off83_eq k 5) hr5 _ hL5
    · exact rowG_piece _ (k0_off82 k 5#32) (k0_off82_inb k 5) (16 * k.val + 5) 32 (k0_off82_eq k 5) hr5 _ hL5
    · exact rowG_piece _ (k0_off81 k 5#32) (k0_off81_inb k 5) (16 * k.val + 5) 16 (k0_off81_eq k 5) hr5 _ hL5
    · exact rowG_piece _ (k0_off80 k 5#32) (k0_off80_inb k 5) (16 * k.val + 5) 0 (k0_off80_eq k 5) hr5 _ hL5
    · exact rowG_piece _ (k0_off95 k 4#32) (k0_off95_inb k 4) (16 * k.val + 4) 240 (k0_off95_eq k 4) hr4 _ hL4
    · exact rowG_piece _ (k0_off94 k 4#32) (k0_off94_inb k 4) (16 * k.val + 4) 224 (k0_off94_eq k 4) hr4 _ hL4
    · exact rowG_piece _ (k0_off93 k 4#32) (k0_off93_inb k 4) (16 * k.val + 4) 208 (k0_off93_eq k 4) hr4 _ hL4
    · exact rowG_piece _ (k0_off92 k 4#32) (k0_off92_inb k 4) (16 * k.val + 4) 192 (k0_off92_eq k 4) hr4 _ hL4
    · exact rowG_piece _ (k0_off91 k 4#32) (k0_off91_inb k 4) (16 * k.val + 4) 176 (k0_off91_eq k 4) hr4 _ hL4
    · exact rowG_piece _ (k0_off90 k 4#32) (k0_off90_inb k 4) (16 * k.val + 4) 160 (k0_off90_eq k 4) hr4 _ hL4
    · exact rowG_piece _ (k0_off89 k 4#32) (k0_off89_inb k 4) (16 * k.val + 4) 144 (k0_off89_eq k 4) hr4 _ hL4
    · exact rowG_piece _ (k0_off88 k 4#32) (k0_off88_inb k 4) (16 * k.val + 4) 128 (k0_off88_eq k 4) hr4 _ hL4
    · exact rowG_piece _ (k0_off87 k 4#32) (k0_off87_inb k 4) (16 * k.val + 4) 112 (k0_off87_eq k 4) hr4 _ hL4
    · exact rowG_piece _ (k0_off86 k 4#32) (k0_off86_inb k 4) (16 * k.val + 4) 96 (k0_off86_eq k 4) hr4 _ hL4
    · exact rowG_piece _ (k0_off85 k 4#32) (k0_off85_inb k 4) (16 * k.val + 4) 80 (k0_off85_eq k 4) hr4 _ hL4
    · exact rowG_piece _ (k0_off84 k 4#32) (k0_off84_inb k 4) (16 * k.val + 4) 64 (k0_off84_eq k 4) hr4 _ hL4
    · exact rowG_piece _ (k0_off83 k 4#32) (k0_off83_inb k 4) (16 * k.val + 4) 48 (k0_off83_eq k 4) hr4 _ hL4
    · exact rowG_piece _ (k0_off82 k 4#32) (k0_off82_inb k 4) (16 * k.val + 4) 32 (k0_off82_eq k 4) hr4 _ hL4
    · exact rowG_piece _ (k0_off81 k 4#32) (k0_off81_inb k 4) (16 * k.val + 4) 16 (k0_off81_eq k 4) hr4 _ hL4
    · exact rowG_piece _ (k0_off80 k 4#32) (k0_off80_inb k 4) (16 * k.val + 4) 0 (k0_off80_eq k 4) hr4 _ hL4
    · exact rowG_piece _ (k0_off95 k 3#32) (k0_off95_inb k 3) (16 * k.val + 3) 240 (k0_off95_eq k 3) hr3 _ hL3
    · exact rowG_piece _ (k0_off94 k 3#32) (k0_off94_inb k 3) (16 * k.val + 3) 224 (k0_off94_eq k 3) hr3 _ hL3
    · exact rowG_piece _ (k0_off93 k 3#32) (k0_off93_inb k 3) (16 * k.val + 3) 208 (k0_off93_eq k 3) hr3 _ hL3
    · exact rowG_piece _ (k0_off92 k 3#32) (k0_off92_inb k 3) (16 * k.val + 3) 192 (k0_off92_eq k 3) hr3 _ hL3
    · exact rowG_piece _ (k0_off91 k 3#32) (k0_off91_inb k 3) (16 * k.val + 3) 176 (k0_off91_eq k 3) hr3 _ hL3
    · exact rowG_piece _ (k0_off90 k 3#32) (k0_off90_inb k 3) (16 * k.val + 3) 160 (k0_off90_eq k 3) hr3 _ hL3
    · exact rowG_piece _ (k0_off89 k 3#32) (k0_off89_inb k 3) (16 * k.val + 3) 144 (k0_off89_eq k 3) hr3 _ hL3
    · exact rowG_piece _ (k0_off88 k 3#32) (k0_off88_inb k 3) (16 * k.val + 3) 128 (k0_off88_eq k 3) hr3 _ hL3
    · exact rowG_piece _ (k0_off87 k 3#32) (k0_off87_inb k 3) (16 * k.val + 3) 112 (k0_off87_eq k 3) hr3 _ hL3
    · exact rowG_piece _ (k0_off86 k 3#32) (k0_off86_inb k 3) (16 * k.val + 3) 96 (k0_off86_eq k 3) hr3 _ hL3
    · exact rowG_piece _ (k0_off85 k 3#32) (k0_off85_inb k 3) (16 * k.val + 3) 80 (k0_off85_eq k 3) hr3 _ hL3
    · exact rowG_piece _ (k0_off84 k 3#32) (k0_off84_inb k 3) (16 * k.val + 3) 64 (k0_off84_eq k 3) hr3 _ hL3
    · exact rowG_piece _ (k0_off83 k 3#32) (k0_off83_inb k 3) (16 * k.val + 3) 48 (k0_off83_eq k 3) hr3 _ hL3
    · exact rowG_piece _ (k0_off82 k 3#32) (k0_off82_inb k 3) (16 * k.val + 3) 32 (k0_off82_eq k 3) hr3 _ hL3
    · exact rowG_piece _ (k0_off81 k 3#32) (k0_off81_inb k 3) (16 * k.val + 3) 16 (k0_off81_eq k 3) hr3 _ hL3
    · exact rowG_piece _ (k0_off80 k 3#32) (k0_off80_inb k 3) (16 * k.val + 3) 0 (k0_off80_eq k 3) hr3 _ hL3
    · exact rowG_piece _ (k0_off95 k 2#32) (k0_off95_inb k 2) (16 * k.val + 2) 240 (k0_off95_eq k 2) hr2 _ hL2
    · exact rowG_piece _ (k0_off94 k 2#32) (k0_off94_inb k 2) (16 * k.val + 2) 224 (k0_off94_eq k 2) hr2 _ hL2
    · exact rowG_piece _ (k0_off93 k 2#32) (k0_off93_inb k 2) (16 * k.val + 2) 208 (k0_off93_eq k 2) hr2 _ hL2
    · exact rowG_piece _ (k0_off92 k 2#32) (k0_off92_inb k 2) (16 * k.val + 2) 192 (k0_off92_eq k 2) hr2 _ hL2
    · exact rowG_piece _ (k0_off91 k 2#32) (k0_off91_inb k 2) (16 * k.val + 2) 176 (k0_off91_eq k 2) hr2 _ hL2
    · exact rowG_piece _ (k0_off90 k 2#32) (k0_off90_inb k 2) (16 * k.val + 2) 160 (k0_off90_eq k 2) hr2 _ hL2
    · exact rowG_piece _ (k0_off89 k 2#32) (k0_off89_inb k 2) (16 * k.val + 2) 144 (k0_off89_eq k 2) hr2 _ hL2
    · exact rowG_piece _ (k0_off88 k 2#32) (k0_off88_inb k 2) (16 * k.val + 2) 128 (k0_off88_eq k 2) hr2 _ hL2
    · exact rowG_piece _ (k0_off87 k 2#32) (k0_off87_inb k 2) (16 * k.val + 2) 112 (k0_off87_eq k 2) hr2 _ hL2
    · exact rowG_piece _ (k0_off86 k 2#32) (k0_off86_inb k 2) (16 * k.val + 2) 96 (k0_off86_eq k 2) hr2 _ hL2
    · exact rowG_piece _ (k0_off85 k 2#32) (k0_off85_inb k 2) (16 * k.val + 2) 80 (k0_off85_eq k 2) hr2 _ hL2
    · exact rowG_piece _ (k0_off84 k 2#32) (k0_off84_inb k 2) (16 * k.val + 2) 64 (k0_off84_eq k 2) hr2 _ hL2
    · exact rowG_piece _ (k0_off83 k 2#32) (k0_off83_inb k 2) (16 * k.val + 2) 48 (k0_off83_eq k 2) hr2 _ hL2
    · exact rowG_piece _ (k0_off82 k 2#32) (k0_off82_inb k 2) (16 * k.val + 2) 32 (k0_off82_eq k 2) hr2 _ hL2
    · exact rowG_piece _ (k0_off81 k 2#32) (k0_off81_inb k 2) (16 * k.val + 2) 16 (k0_off81_eq k 2) hr2 _ hL2
    · exact rowG_piece _ (k0_off80 k 2#32) (k0_off80_inb k 2) (16 * k.val + 2) 0 (k0_off80_eq k 2) hr2 _ hL2
    · exact rowG_piece _ (k0_off95 k 1#32) (k0_off95_inb k 1) (16 * k.val + 1) 240 (k0_off95_eq k 1) hr1 _ hL1
    · exact rowG_piece _ (k0_off94 k 1#32) (k0_off94_inb k 1) (16 * k.val + 1) 224 (k0_off94_eq k 1) hr1 _ hL1
    · exact rowG_piece _ (k0_off93 k 1#32) (k0_off93_inb k 1) (16 * k.val + 1) 208 (k0_off93_eq k 1) hr1 _ hL1
    · exact rowG_piece _ (k0_off92 k 1#32) (k0_off92_inb k 1) (16 * k.val + 1) 192 (k0_off92_eq k 1) hr1 _ hL1
    · exact rowG_piece _ (k0_off91 k 1#32) (k0_off91_inb k 1) (16 * k.val + 1) 176 (k0_off91_eq k 1) hr1 _ hL1
    · exact rowG_piece _ (k0_off90 k 1#32) (k0_off90_inb k 1) (16 * k.val + 1) 160 (k0_off90_eq k 1) hr1 _ hL1
    · exact rowG_piece _ (k0_off89 k 1#32) (k0_off89_inb k 1) (16 * k.val + 1) 144 (k0_off89_eq k 1) hr1 _ hL1
    · exact rowG_piece _ (k0_off88 k 1#32) (k0_off88_inb k 1) (16 * k.val + 1) 128 (k0_off88_eq k 1) hr1 _ hL1
    · exact rowG_piece _ (k0_off87 k 1#32) (k0_off87_inb k 1) (16 * k.val + 1) 112 (k0_off87_eq k 1) hr1 _ hL1
    · exact rowG_piece _ (k0_off86 k 1#32) (k0_off86_inb k 1) (16 * k.val + 1) 96 (k0_off86_eq k 1) hr1 _ hL1
    · exact rowG_piece _ (k0_off85 k 1#32) (k0_off85_inb k 1) (16 * k.val + 1) 80 (k0_off85_eq k 1) hr1 _ hL1
    · exact rowG_piece _ (k0_off84 k 1#32) (k0_off84_inb k 1) (16 * k.val + 1) 64 (k0_off84_eq k 1) hr1 _ hL1
    · exact rowG_piece _ (k0_off83 k 1#32) (k0_off83_inb k 1) (16 * k.val + 1) 48 (k0_off83_eq k 1) hr1 _ hL1
    · exact rowG_piece _ (k0_off82 k 1#32) (k0_off82_inb k 1) (16 * k.val + 1) 32 (k0_off82_eq k 1) hr1 _ hL1
    · exact rowG_piece _ (k0_off81 k 1#32) (k0_off81_inb k 1) (16 * k.val + 1) 16 (k0_off81_eq k 1) hr1 _ hL1
    · exact rowG_piece _ (k0_off80 k 1#32) (k0_off80_inb k 1) (16 * k.val + 1) 0 (k0_off80_eq k 1) hr1 _ hL1
    · exact rowG_piece _ (k0_off95 k 0#32) (k0_off95_inb k 0) (16 * k.val + 0) 240 (k0_off95_eq k 0) hr0 _ hL0
    · exact rowG_piece _ (k0_off94 k 0#32) (k0_off94_inb k 0) (16 * k.val + 0) 224 (k0_off94_eq k 0) hr0 _ hL0
    · exact rowG_piece _ (k0_off93 k 0#32) (k0_off93_inb k 0) (16 * k.val + 0) 208 (k0_off93_eq k 0) hr0 _ hL0
    · exact rowG_piece _ (k0_off92 k 0#32) (k0_off92_inb k 0) (16 * k.val + 0) 192 (k0_off92_eq k 0) hr0 _ hL0
    · exact rowG_piece _ (k0_off91 k 0#32) (k0_off91_inb k 0) (16 * k.val + 0) 176 (k0_off91_eq k 0) hr0 _ hL0
    · exact rowG_piece _ (k0_off90 k 0#32) (k0_off90_inb k 0) (16 * k.val + 0) 160 (k0_off90_eq k 0) hr0 _ hL0
    · exact rowG_piece _ (k0_off89 k 0#32) (k0_off89_inb k 0) (16 * k.val + 0) 144 (k0_off89_eq k 0) hr0 _ hL0
    · exact rowG_piece _ (k0_off88 k 0#32) (k0_off88_inb k 0) (16 * k.val + 0) 128 (k0_off88_eq k 0) hr0 _ hL0
    · exact rowG_piece _ (k0_off87 k 0#32) (k0_off87_inb k 0) (16 * k.val + 0) 112 (k0_off87_eq k 0) hr0 _ hL0
    · exact rowG_piece _ (k0_off86 k 0#32) (k0_off86_inb k 0) (16 * k.val + 0) 96 (k0_off86_eq k 0) hr0 _ hL0
    · exact rowG_piece _ (k0_off85 k 0#32) (k0_off85_inb k 0) (16 * k.val + 0) 80 (k0_off85_eq k 0) hr0 _ hL0
    · exact rowG_piece _ (k0_off84 k 0#32) (k0_off84_inb k 0) (16 * k.val + 0) 64 (k0_off84_eq k 0) hr0 _ hL0
    · exact rowG_piece _ (k0_off83 k 0#32) (k0_off83_inb k 0) (16 * k.val + 0) 48 (k0_off83_eq k 0) hr0 _ hL0
    · exact rowG_piece _ (k0_off82 k 0#32) (k0_off82_inb k 0) (16 * k.val + 0) 32 (k0_off82_eq k 0) hr0 _ hL0
    · exact rowG_piece _ (k0_off81 k 0#32) (k0_off81_inb k 0) (16 * k.val + 0) 16 (k0_off81_eq k 0) hr0 _ hL0
    · exact rowG_piece _ (k0_off80 k 0#32) (k0_off80_inb k 0) (16 * k.val + 0) 0 (k0_off80_eq k 0) hr0 _ hL0
  case cover =>
    sl_unfold_run_names
    intro y hy
    refine cover_rows16 _ k.val (fun l j => ?_) y hy
    fin_cases l <;> fin_cases j
    · exact ⟨_, rfl, k0_off80_eq k 0, rfl, fun _ => rfl⟩
    · exact ⟨_, rfl, k0_off81_eq k 0, rfl, fun _ => rfl⟩
    · exact ⟨_, rfl, k0_off82_eq k 0, rfl, fun _ => rfl⟩
    · exact ⟨_, rfl, k0_off83_eq k 0, rfl, fun _ => rfl⟩
    · exact ⟨_, rfl, k0_off84_eq k 0, rfl, fun _ => rfl⟩
    · exact ⟨_, rfl, k0_off85_eq k 0, rfl, fun _ => rfl⟩
    · exact ⟨_, rfl, k0_off86_eq k 0, rfl, fun _ => rfl⟩
    · exact ⟨_, rfl, k0_off87_eq k 0, rfl, fun _ => rfl⟩
    · exact ⟨_, rfl, k0_off88_eq k 0, rfl, fun _ => rfl⟩
    · exact ⟨_, rfl, k0_off89_eq k 0, rfl, fun _ => rfl⟩
    · exact ⟨_, rfl, k0_off90_eq k 0, rfl, fun _ => rfl⟩
    · exact ⟨_, rfl, k0_off91_eq k 0, rfl, fun _ => rfl⟩
    · exact ⟨_, rfl, k0_off92_eq k 0, rfl, fun _ => rfl⟩
    · exact ⟨_, rfl, k0_off93_eq k 0, rfl, fun _ => rfl⟩
    · exact ⟨_, rfl, k0_off94_eq k 0, rfl, fun _ => rfl⟩
    · exact ⟨_, rfl, k0_off95_eq k 0, rfl, fun _ => rfl⟩
    · exact ⟨_, rfl, k0_off80_eq k 1, rfl, fun _ => rfl⟩
    · exact ⟨_, rfl, k0_off81_eq k 1, rfl, fun _ => rfl⟩
    · exact ⟨_, rfl, k0_off82_eq k 1, rfl, fun _ => rfl⟩
    · exact ⟨_, rfl, k0_off83_eq k 1, rfl, fun _ => rfl⟩
    · exact ⟨_, rfl, k0_off84_eq k 1, rfl, fun _ => rfl⟩
    · exact ⟨_, rfl, k0_off85_eq k 1, rfl, fun _ => rfl⟩
    · exact ⟨_, rfl, k0_off86_eq k 1, rfl, fun _ => rfl⟩
    · exact ⟨_, rfl, k0_off87_eq k 1, rfl, fun _ => rfl⟩
    · exact ⟨_, rfl, k0_off88_eq k 1, rfl, fun _ => rfl⟩
    · exact ⟨_, rfl, k0_off89_eq k 1, rfl, fun _ => rfl⟩
    · exact ⟨_, rfl, k0_off90_eq k 1, rfl, fun _ => rfl⟩
    · exact ⟨_, rfl, k0_off91_eq k 1, rfl, fun _ => rfl⟩
    · exact ⟨_, rfl, k0_off92_eq k 1, rfl, fun _ => rfl⟩
    · exact ⟨_, rfl, k0_off93_eq k 1, rfl, fun _ => rfl⟩
    · exact ⟨_, rfl, k0_off94_eq k 1, rfl, fun _ => rfl⟩
    · exact ⟨_, rfl, k0_off95_eq k 1, rfl, fun _ => rfl⟩
    · exact ⟨_, rfl, k0_off80_eq k 2, rfl, fun _ => rfl⟩
    · exact ⟨_, rfl, k0_off81_eq k 2, rfl, fun _ => rfl⟩
    · exact ⟨_, rfl, k0_off82_eq k 2, rfl, fun _ => rfl⟩
    · exact ⟨_, rfl, k0_off83_eq k 2, rfl, fun _ => rfl⟩
    · exact ⟨_, rfl, k0_off84_eq k 2, rfl, fun _ => rfl⟩
    · exact ⟨_, rfl, k0_off85_eq k 2, rfl, fun _ => rfl⟩
    · exact ⟨_, rfl, k0_off86_eq k 2, rfl, fun _ => rfl⟩
    · exact ⟨_, rfl, k0_off87_eq k 2, rfl, fun _ => rfl⟩
    · exact ⟨_, rfl, k0_off88_eq k 2, rfl, fun _ => rfl⟩
    · exact ⟨_, rfl, k0_off89_eq k 2, rfl, fun _ => rfl⟩
    · exact ⟨_, rfl, k0_off90_eq k 2, rfl, fun _ => rfl⟩
    · exact ⟨_, rfl, k0_off91_eq k 2, rfl, fun _ => rfl⟩
    · exact ⟨_, rfl, k0_off92_eq k 2, rfl, fun _ => rfl⟩
    · exact ⟨_, rfl, k0_off93_eq k 2, rfl, fun _ => rfl⟩
    · exact ⟨_, rfl, k0_off94_eq k 2, rfl, fun _ => rfl⟩
    · exact ⟨_, rfl, k0_off95_eq k 2, rfl, fun _ => rfl⟩
    · exact ⟨_, rfl, k0_off80_eq k 3, rfl, fun _ => rfl⟩
    · exact ⟨_, rfl, k0_off81_eq k 3, rfl, fun _ => rfl⟩
    · exact ⟨_, rfl, k0_off82_eq k 3, rfl, fun _ => rfl⟩
    · exact ⟨_, rfl, k0_off83_eq k 3, rfl, fun _ => rfl⟩
    · exact ⟨_, rfl, k0_off84_eq k 3, rfl, fun _ => rfl⟩
    · exact ⟨_, rfl, k0_off85_eq k 3, rfl, fun _ => rfl⟩
    · exact ⟨_, rfl, k0_off86_eq k 3, rfl, fun _ => rfl⟩
    · exact ⟨_, rfl, k0_off87_eq k 3, rfl, fun _ => rfl⟩
    · exact ⟨_, rfl, k0_off88_eq k 3, rfl, fun _ => rfl⟩
    · exact ⟨_, rfl, k0_off89_eq k 3, rfl, fun _ => rfl⟩
    · exact ⟨_, rfl, k0_off90_eq k 3, rfl, fun _ => rfl⟩
    · exact ⟨_, rfl, k0_off91_eq k 3, rfl, fun _ => rfl⟩
    · exact ⟨_, rfl, k0_off92_eq k 3, rfl, fun _ => rfl⟩
    · exact ⟨_, rfl, k0_off93_eq k 3, rfl, fun _ => rfl⟩
    · exact ⟨_, rfl, k0_off94_eq k 3, rfl, fun _ => rfl⟩
    · exact ⟨_, rfl, k0_off95_eq k 3, rfl, fun _ => rfl⟩
    · exact ⟨_, rfl, k0_off80_eq k 4, rfl, fun _ => rfl⟩
    · exact ⟨_, rfl, k0_off81_eq k 4, rfl, fun _ => rfl⟩
    · exact ⟨_, rfl, k0_off82_eq k 4, rfl, fun _ => rfl⟩
    · exact ⟨_, rfl, k0_off83_eq k 4, rfl, fun _ => rfl⟩
    · exact ⟨_, rfl, k0_off84_eq k 4, rfl, fun _ => rfl⟩
    · exact ⟨_, rfl, k0_off85_eq k 4, rfl, fun _ => rfl⟩
    · exact ⟨_, rfl, k0_off86_eq k 4, rfl, fun _ => rfl⟩
    · exact ⟨_, rfl, k0_off87_eq k 4, rfl, fun _ => rfl⟩
    · exact ⟨_, rfl, k0_off88_eq k 4, rfl, fun _ => rfl⟩
    · exact ⟨_, rfl, k0_off89_eq k 4, rfl, fun _ => rfl⟩
    · exact ⟨_, rfl, k0_off90_eq k 4, rfl, fun _ => rfl⟩
    · exact ⟨_, rfl, k0_off91_eq k 4, rfl, fun _ => rfl⟩
    · exact ⟨_, rfl, k0_off92_eq k 4, rfl, fun _ => rfl⟩
    · exact ⟨_, rfl, k0_off93_eq k 4, rfl, fun _ => rfl⟩
    · exact ⟨_, rfl, k0_off94_eq k 4, rfl, fun _ => rfl⟩
    · exact ⟨_, rfl, k0_off95_eq k 4, rfl, fun _ => rfl⟩
    · exact ⟨_, rfl, k0_off80_eq k 5, rfl, fun _ => rfl⟩
    · exact ⟨_, rfl, k0_off81_eq k 5, rfl, fun _ => rfl⟩
    · exact ⟨_, rfl, k0_off82_eq k 5, rfl, fun _ => rfl⟩
    · exact ⟨_, rfl, k0_off83_eq k 5, rfl, fun _ => rfl⟩
    · exact ⟨_, rfl, k0_off84_eq k 5, rfl, fun _ => rfl⟩
    · exact ⟨_, rfl, k0_off85_eq k 5, rfl, fun _ => rfl⟩
    · exact ⟨_, rfl, k0_off86_eq k 5, rfl, fun _ => rfl⟩
    · exact ⟨_, rfl, k0_off87_eq k 5, rfl, fun _ => rfl⟩
    · exact ⟨_, rfl, k0_off88_eq k 5, rfl, fun _ => rfl⟩
    · exact ⟨_, rfl, k0_off89_eq k 5, rfl, fun _ => rfl⟩
    · exact ⟨_, rfl, k0_off90_eq k 5, rfl, fun _ => rfl⟩
    · exact ⟨_, rfl, k0_off91_eq k 5, rfl, fun _ => rfl⟩
    · exact ⟨_, rfl, k0_off92_eq k 5, rfl, fun _ => rfl⟩
    · exact ⟨_, rfl, k0_off93_eq k 5, rfl, fun _ => rfl⟩
    · exact ⟨_, rfl, k0_off94_eq k 5, rfl, fun _ => rfl⟩
    · exact ⟨_, rfl, k0_off95_eq k 5, rfl, fun _ => rfl⟩
    · exact ⟨_, rfl, k0_off80_eq k 6, rfl, fun _ => rfl⟩
    · exact ⟨_, rfl, k0_off81_eq k 6, rfl, fun _ => rfl⟩
    · exact ⟨_, rfl, k0_off82_eq k 6, rfl, fun _ => rfl⟩
    · exact ⟨_, rfl, k0_off83_eq k 6, rfl, fun _ => rfl⟩
    · exact ⟨_, rfl, k0_off84_eq k 6, rfl, fun _ => rfl⟩
    · exact ⟨_, rfl, k0_off85_eq k 6, rfl, fun _ => rfl⟩
    · exact ⟨_, rfl, k0_off86_eq k 6, rfl, fun _ => rfl⟩
    · exact ⟨_, rfl, k0_off87_eq k 6, rfl, fun _ => rfl⟩
    · exact ⟨_, rfl, k0_off88_eq k 6, rfl, fun _ => rfl⟩
    · exact ⟨_, rfl, k0_off89_eq k 6, rfl, fun _ => rfl⟩
    · exact ⟨_, rfl, k0_off90_eq k 6, rfl, fun _ => rfl⟩
    · exact ⟨_, rfl, k0_off91_eq k 6, rfl, fun _ => rfl⟩
    · exact ⟨_, rfl, k0_off92_eq k 6, rfl, fun _ => rfl⟩
    · exact ⟨_, rfl, k0_off93_eq k 6, rfl, fun _ => rfl⟩
    · exact ⟨_, rfl, k0_off94_eq k 6, rfl, fun _ => rfl⟩
    · exact ⟨_, rfl, k0_off95_eq k 6, rfl, fun _ => rfl⟩
    · exact ⟨_, rfl, k0_off80_eq k 7, rfl, fun _ => rfl⟩
    · exact ⟨_, rfl, k0_off81_eq k 7, rfl, fun _ => rfl⟩
    · exact ⟨_, rfl, k0_off82_eq k 7, rfl, fun _ => rfl⟩
    · exact ⟨_, rfl, k0_off83_eq k 7, rfl, fun _ => rfl⟩
    · exact ⟨_, rfl, k0_off84_eq k 7, rfl, fun _ => rfl⟩
    · exact ⟨_, rfl, k0_off85_eq k 7, rfl, fun _ => rfl⟩
    · exact ⟨_, rfl, k0_off86_eq k 7, rfl, fun _ => rfl⟩
    · exact ⟨_, rfl, k0_off87_eq k 7, rfl, fun _ => rfl⟩
    · exact ⟨_, rfl, k0_off88_eq k 7, rfl, fun _ => rfl⟩
    · exact ⟨_, rfl, k0_off89_eq k 7, rfl, fun _ => rfl⟩
    · exact ⟨_, rfl, k0_off90_eq k 7, rfl, fun _ => rfl⟩
    · exact ⟨_, rfl, k0_off91_eq k 7, rfl, fun _ => rfl⟩
    · exact ⟨_, rfl, k0_off92_eq k 7, rfl, fun _ => rfl⟩
    · exact ⟨_, rfl, k0_off93_eq k 7, rfl, fun _ => rfl⟩
    · exact ⟨_, rfl, k0_off94_eq k 7, rfl, fun _ => rfl⟩
    · exact ⟨_, rfl, k0_off95_eq k 7, rfl, fun _ => rfl⟩
    · exact ⟨_, rfl, k0_off80_eq k 8, rfl, fun _ => rfl⟩
    · exact ⟨_, rfl, k0_off81_eq k 8, rfl, fun _ => rfl⟩
    · exact ⟨_, rfl, k0_off82_eq k 8, rfl, fun _ => rfl⟩
    · exact ⟨_, rfl, k0_off83_eq k 8, rfl, fun _ => rfl⟩
    · exact ⟨_, rfl, k0_off84_eq k 8, rfl, fun _ => rfl⟩
    · exact ⟨_, rfl, k0_off85_eq k 8, rfl, fun _ => rfl⟩
    · exact ⟨_, rfl, k0_off86_eq k 8, rfl, fun _ => rfl⟩
    · exact ⟨_, rfl, k0_off87_eq k 8, rfl, fun _ => rfl⟩
    · exact ⟨_, rfl, k0_off88_eq k 8, rfl, fun _ => rfl⟩
    · exact ⟨_, rfl, k0_off89_eq k 8, rfl, fun _ => rfl⟩
    · exact ⟨_, rfl, k0_off90_eq k 8, rfl, fun _ => rfl⟩
    · exact ⟨_, rfl, k0_off91_eq k 8, rfl, fun _ => rfl⟩
    · exact ⟨_, rfl, k0_off92_eq k 8, rfl, fun _ => rfl⟩
    · exact ⟨_, rfl, k0_off93_eq k 8, rfl, fun _ => rfl⟩
    · exact ⟨_, rfl, k0_off94_eq k 8, rfl, fun _ => rfl⟩
    · exact ⟨_, rfl, k0_off95_eq k 8, rfl, fun _ => rfl⟩
    · exact ⟨_, rfl, k0_off80_eq k 9, rfl, fun _ => rfl⟩
    · exact ⟨_, rfl, k0_off81_eq k 9, rfl, fun _ => rfl⟩
    · exact ⟨_, rfl, k0_off82_eq k 9, rfl, fun _ => rfl⟩
    · exact ⟨_, rfl, k0_off83_eq k 9, rfl, fun _ => rfl⟩
    · exact ⟨_, rfl, k0_off84_eq k 9, rfl, fun _ => rfl⟩
    · exact ⟨_, rfl, k0_off85_eq k 9, rfl, fun _ => rfl⟩
    · exact ⟨_, rfl, k0_off86_eq k 9, rfl, fun _ => rfl⟩
    · exact ⟨_, rfl, k0_off87_eq k 9, rfl, fun _ => rfl⟩
    · exact ⟨_, rfl, k0_off88_eq k 9, rfl, fun _ => rfl⟩
    · exact ⟨_, rfl, k0_off89_eq k 9, rfl, fun _ => rfl⟩
    · exact ⟨_, rfl, k0_off90_eq k 9, rfl, fun _ => rfl⟩
    · exact ⟨_, rfl, k0_off91_eq k 9, rfl, fun _ => rfl⟩
    · exact ⟨_, rfl, k0_off92_eq k 9, rfl, fun _ => rfl⟩
    · exact ⟨_, rfl, k0_off93_eq k 9, rfl, fun _ => rfl⟩
    · exact ⟨_, rfl, k0_off94_eq k 9, rfl, fun _ => rfl⟩
    · exact ⟨_, rfl, k0_off95_eq k 9, rfl, fun _ => rfl⟩
    · exact ⟨_, rfl, k0_off80_eq k 10, rfl, fun _ => rfl⟩
    · exact ⟨_, rfl, k0_off81_eq k 10, rfl, fun _ => rfl⟩
    · exact ⟨_, rfl, k0_off82_eq k 10, rfl, fun _ => rfl⟩
    · exact ⟨_, rfl, k0_off83_eq k 10, rfl, fun _ => rfl⟩
    · exact ⟨_, rfl, k0_off84_eq k 10, rfl, fun _ => rfl⟩
    · exact ⟨_, rfl, k0_off85_eq k 10, rfl, fun _ => rfl⟩
    · exact ⟨_, rfl, k0_off86_eq k 10, rfl, fun _ => rfl⟩
    · exact ⟨_, rfl, k0_off87_eq k 10, rfl, fun _ => rfl⟩
    · exact ⟨_, rfl, k0_off88_eq k 10, rfl, fun _ => rfl⟩
    · exact ⟨_, rfl, k0_off89_eq k 10, rfl, fun _ => rfl⟩
    · exact ⟨_, rfl, k0_off90_eq k 10, rfl, fun _ => rfl⟩
    · exact ⟨_, rfl, k0_off91_eq k 10, rfl, fun _ => rfl⟩
    · exact ⟨_, rfl, k0_off92_eq k 10, rfl, fun _ => rfl⟩
    · exact ⟨_, rfl, k0_off93_eq k 10, rfl, fun _ => rfl⟩
    · exact ⟨_, rfl, k0_off94_eq k 10, rfl, fun _ => rfl⟩
    · exact ⟨_, rfl, k0_off95_eq k 10, rfl, fun _ => rfl⟩
    · exact ⟨_, rfl, k0_off80_eq k 11, rfl, fun _ => rfl⟩
    · exact ⟨_, rfl, k0_off81_eq k 11, rfl, fun _ => rfl⟩
    · exact ⟨_, rfl, k0_off82_eq k 11, rfl, fun _ => rfl⟩
    · exact ⟨_, rfl, k0_off83_eq k 11, rfl, fun _ => rfl⟩
    · exact ⟨_, rfl, k0_off84_eq k 11, rfl, fun _ => rfl⟩
    · exact ⟨_, rfl, k0_off85_eq k 11, rfl, fun _ => rfl⟩
    · exact ⟨_, rfl, k0_off86_eq k 11, rfl, fun _ => rfl⟩
    · exact ⟨_, rfl, k0_off87_eq k 11, rfl, fun _ => rfl⟩
    · exact ⟨_, rfl, k0_off88_eq k 11, rfl, fun _ => rfl⟩
    · exact ⟨_, rfl, k0_off89_eq k 11, rfl, fun _ => rfl⟩
    · exact ⟨_, rfl, k0_off90_eq k 11, rfl, fun _ => rfl⟩
    · exact ⟨_, rfl, k0_off91_eq k 11, rfl, fun _ => rfl⟩
    · exact ⟨_, rfl, k0_off92_eq k 11, rfl, fun _ => rfl⟩
    · exact ⟨_, rfl, k0_off93_eq k 11, rfl, fun _ => rfl⟩
    · exact ⟨_, rfl, k0_off94_eq k 11, rfl, fun _ => rfl⟩
    · exact ⟨_, rfl, k0_off95_eq k 11, rfl, fun _ => rfl⟩
    · exact ⟨_, rfl, k0_off80_eq k 12, rfl, fun _ => rfl⟩
    · exact ⟨_, rfl, k0_off81_eq k 12, rfl, fun _ => rfl⟩
    · exact ⟨_, rfl, k0_off82_eq k 12, rfl, fun _ => rfl⟩
    · exact ⟨_, rfl, k0_off83_eq k 12, rfl, fun _ => rfl⟩
    · exact ⟨_, rfl, k0_off84_eq k 12, rfl, fun _ => rfl⟩
    · exact ⟨_, rfl, k0_off85_eq k 12, rfl, fun _ => rfl⟩
    · exact ⟨_, rfl, k0_off86_eq k 12, rfl, fun _ => rfl⟩
    · exact ⟨_, rfl, k0_off87_eq k 12, rfl, fun _ => rfl⟩
    · exact ⟨_, rfl, k0_off88_eq k 12, rfl, fun _ => rfl⟩
    · exact ⟨_, rfl, k0_off89_eq k 12, rfl, fun _ => rfl⟩
    · exact ⟨_, rfl, k0_off90_eq k 12, rfl, fun _ => rfl⟩
    · exact ⟨_, rfl, k0_off91_eq k 12, rfl, fun _ => rfl⟩
    · exact ⟨_, rfl, k0_off92_eq k 12, rfl, fun _ => rfl⟩
    · exact ⟨_, rfl, k0_off93_eq k 12, rfl, fun _ => rfl⟩
    · exact ⟨_, rfl, k0_off94_eq k 12, rfl, fun _ => rfl⟩
    · exact ⟨_, rfl, k0_off95_eq k 12, rfl, fun _ => rfl⟩
    · exact ⟨_, rfl, k0_off80_eq k 13, rfl, fun _ => rfl⟩
    · exact ⟨_, rfl, k0_off81_eq k 13, rfl, fun _ => rfl⟩
    · exact ⟨_, rfl, k0_off82_eq k 13, rfl, fun _ => rfl⟩
    · exact ⟨_, rfl, k0_off83_eq k 13, rfl, fun _ => rfl⟩
    · exact ⟨_, rfl, k0_off84_eq k 13, rfl, fun _ => rfl⟩
    · exact ⟨_, rfl, k0_off85_eq k 13, rfl, fun _ => rfl⟩
    · exact ⟨_, rfl, k0_off86_eq k 13, rfl, fun _ => rfl⟩
    · exact ⟨_, rfl, k0_off87_eq k 13, rfl, fun _ => rfl⟩
    · exact ⟨_, rfl, k0_off88_eq k 13, rfl, fun _ => rfl⟩
    · exact ⟨_, rfl, k0_off89_eq k 13, rfl, fun _ => rfl⟩
    · exact ⟨_, rfl, k0_off90_eq k 13, rfl, fun _ => rfl⟩
    · exact ⟨_, rfl, k0_off91_eq k 13, rfl, fun _ => rfl⟩
    · exact ⟨_, rfl, k0_off92_eq k 13, rfl, fun _ => rfl⟩
    · exact ⟨_, rfl, k0_off93_eq k 13, rfl, fun _ => rfl⟩
    · exact ⟨_, rfl, k0_off94_eq k 13, rfl, fun _ => rfl⟩
    · exact ⟨_, rfl, k0_off95_eq k 13, rfl, fun _ => rfl⟩
    · exact ⟨_, rfl, k0_off80_eq k 14, rfl, fun _ => rfl⟩
    · exact ⟨_, rfl, k0_off81_eq k 14, rfl, fun _ => rfl⟩
    · exact ⟨_, rfl, k0_off82_eq k 14, rfl, fun _ => rfl⟩
    · exact ⟨_, rfl, k0_off83_eq k 14, rfl, fun _ => rfl⟩
    · exact ⟨_, rfl, k0_off84_eq k 14, rfl, fun _ => rfl⟩
    · exact ⟨_, rfl, k0_off85_eq k 14, rfl, fun _ => rfl⟩
    · exact ⟨_, rfl, k0_off86_eq k 14, rfl, fun _ => rfl⟩
    · exact ⟨_, rfl, k0_off87_eq k 14, rfl, fun _ => rfl⟩
    · exact ⟨_, rfl, k0_off88_eq k 14, rfl, fun _ => rfl⟩
    · exact ⟨_, rfl, k0_off89_eq k 14, rfl, fun _ => rfl⟩
    · exact ⟨_, rfl, k0_off90_eq k 14, rfl, fun _ => rfl⟩
    · exact ⟨_, rfl, k0_off91_eq k 14, rfl, fun _ => rfl⟩
    · exact ⟨_, rfl, k0_off92_eq k 14, rfl, fun _ => rfl⟩
    · exact ⟨_, rfl, k0_off93_eq k 14, rfl, fun _ => rfl⟩
    · exact ⟨_, rfl, k0_off94_eq k 14, rfl, fun _ => rfl⟩
    · exact ⟨_, rfl, k0_off95_eq k 14, rfl, fun _ => rfl⟩
    · exact ⟨_, rfl, k0_off80_eq k 15, rfl, fun _ => rfl⟩
    · exact ⟨_, rfl, k0_off81_eq k 15, rfl, fun _ => rfl⟩
    · exact ⟨_, rfl, k0_off82_eq k 15, rfl, fun _ => rfl⟩
    · exact ⟨_, rfl, k0_off83_eq k 15, rfl, fun _ => rfl⟩
    · exact ⟨_, rfl, k0_off84_eq k 15, rfl, fun _ => rfl⟩
    · exact ⟨_, rfl, k0_off85_eq k 15, rfl, fun _ => rfl⟩
    · exact ⟨_, rfl, k0_off86_eq k 15, rfl, fun _ => rfl⟩
    · exact ⟨_, rfl, k0_off87_eq k 15, rfl, fun _ => rfl⟩
    · exact ⟨_, rfl, k0_off88_eq k 15, rfl, fun _ => rfl⟩
    · exact ⟨_, rfl, k0_off89_eq k 15, rfl, fun _ => rfl⟩
    · exact ⟨_, rfl, k0_off90_eq k 15, rfl, fun _ => rfl⟩
    · exact ⟨_, rfl, k0_off91_eq k 15, rfl, fun _ => rfl⟩
    · exact ⟨_, rfl, k0_off92_eq k 15, rfl, fun _ => rfl⟩
    · exact ⟨_, rfl, k0_off93_eq k 15, rfl, fun _ => rfl⟩
    · exact ⟨_, rfl, k0_off94_eq k 15, rfl, fun _ => rfl⟩
    · exact ⟨_, rfl, k0_off95_eq k 15, rfl, fun _ => rfl⟩

/-- The pieces of trip `k`. -/
abbrev tripL_t6 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (k : Fin k0_t6_loop.trips) : List (View.Piece (Elt F) S128x256 .f32) :=
  (trip_t6 (F := F) 𝒱 d bd i arg2 harg2 arg3 harg3 arg4 harg4 arg5 harg5 arg6 harg6 arg7 harg7 arg8 arg9 v7_r0 v7_r1 v2 k0_t4 v71 c2_i32_50 v101 v102 X_arg5 k).1

/-- Trip `k`'s pieces in front of those before it; past the last trip, nothing more. -/
@[irreducible] def pb_t6Step (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (k : ℕ) (prev : List (View.Piece (Elt F) S128x256 .f32)) : List (View.Piece (Elt F) S128x256 .f32) :=
  if h : k < k0_t6_loop.trips then (tripL_t6 (F := F) 𝒱 d bd i arg2 harg2 arg3 harg3 arg4 harg4 arg5 harg5 arg6 harg6 arg7 harg7 arg8 arg9 v7_r0 v7_r1 v2 k0_t4 v71 c2_i32_50 v101 v102 X_arg5 ⟨k, h⟩) ++ prev else prev

/-- The pieces of the trips before `k`, last first. -/
def pb_t6 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) : ℕ → List (View.Piece (Elt F) S128x256 .f32)
  | 0 => []
  | k + 1 => pb_t6Step 𝒱 d bd i arg2 harg2 arg3 harg3 arg4 harg4 arg5 harg5 arg6 harg6 arg7 harg7 arg8 arg9 v7_r0 v7_r1 v2 k0_t4 v71 c2_i32_50 v101 v102 X_arg5 k (pb_t6 𝒱 d bd i arg2 harg2 arg3 harg3 arg4 harg4 arg5 harg5 arg6 harg6 arg7 harg7 arg8 arg9 v7_r0 v7_r1 v2 k0_t4 v71 c2_i32_50 v101 v102 X_arg5 k)

theorem pb_t6_succ (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (k : Fin k0_t6_loop.trips) :
    pb_t6 (F := F) 𝒱 d bd i arg2 harg2 arg3 harg3 arg4 harg4 arg5 harg5 arg6 harg6 arg7 harg7 arg8 arg9 v7_r0 v7_r1 v2 k0_t4 v71 c2_i32_50 v101 v102 X_arg5 (k.val + 1) = (tripL_t6 (F := F) 𝒱 d bd i arg2 harg2 arg3 harg3 arg4 harg4 arg5 harg5 arg6 harg6 arg7 harg7 arg8 arg9 v7_r0 v7_r1 v2 k0_t4 v71 c2_i32_50 v101 v102 X_arg5 k) ++ (pb_t6 (F := F) 𝒱 d bd i arg2 harg2 arg3 harg3 arg4 harg4 arg5 harg5 arg6 harg6 arg7 harg7 arg8 arg9 v7_r0 v7_r1 v2 k0_t4 v71 c2_i32_50 v101 v102 X_arg5 k.val) := by
  rw [pb_t6.eq_2]; unfold pb_t6Step; exact dif_pos k.isLt

/-- Before trip `k` the written buffer holds the pieces of the trips before `k` over its contents `G` at the loop's entry. -/
abbrev inv_t6 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (G : BufTy.Contents (Elt F) arg7.view.ty) (k : ℕ) (_a : BitVec 32) : sProp 𝕄 :=
  iprop((arg5.view.loc (V d (cV i) (jV i)) ↦[arg5.view.set]{fullShare} X_arg5) ∗ (∃ f, (arg7.view.loc (V d (cV i) (jV i)) ↦[arg7.view.set]{fullShare} f) ∗ ⌜f = arg7.view.writes (Elt F) G (pb_t6 (F := F) 𝒱 d bd i arg2 harg2 arg3 harg3 arg4 harg4 arg5 harg5 arg6 harg6 arg7 harg7 arg8 arg9 v7_r0 v7_r1 v2 k0_t4 v71 c2_i32_50 v101 v102 X_arg5 k)⌝))

set_option warn.classDefReducibility false in
/-- The loop by that invariant. -/
@[sl_loop] def loopInv_t6 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (E : Set ℕ) (G : BufTy.Contents (Elt F) arg7.view.ty) :
    LoopInv (M := MT nD τ sig (HIx 1) (Elt F) ℕ UU ℕ) Idealize.ShloMosaic.frame (wpE (defs₀ (F := F)) 𝒱 (V d (cV i) (jV i)) bd) E
      k0_t6_loop.lb k0_t6_loop.ub k0_t6_loop.st k0_t6_ok (0#32) (k0_t6_body (F := F) i arg2 harg2 arg3 harg3 arg4 harg4 arg5 harg5 arg6 harg6 arg7 harg7 arg8 arg9 v7_r0 v7_r1 v2 k0_t4 v71 c2_i32_50 v101 v102) where
  inv := inv_t6 (F := F) 𝒱 d bd i arg2 harg2 arg3 harg3 arg4 harg4 arg5 harg5 arg6 harg6 arg7 harg7 arg8 arg9 v7_r0 v7_r1 v2 k0_t4 v71 c2_i32_50 v101 v102 X_arg5 G
  step k acc := by
    iintro ⟨HR, ⟨%fw, HW, %hw⟩⟩
    iapply (wp_wand_r Idealize.ShloMosaic.frame (wpE (defs₀ (F := F)) 𝒱 (V d (cV i) (jV i)) bd) E)
    isplitl [HR HW]
    · iapply ((trip_t6 (F := F) 𝒱 d bd i arg2 harg2 arg3 harg3 arg4 harg4 arg5 harg5 arg6 harg6 arg7 harg7 arg8 arg9 v7_r0 v7_r1 v2 k0_t4 v71 c2_i32_50 v101 v102 X_arg5 k).2.1 E fw acc)
      isplitl [HR]; · iexact HR
      iexact HW
    · iintro %_ ⟨HR, HW⟩
      unfold inv_t6
      isplitl [HR]; · iexact HR
      rw [pb_t6_succ]
      iexists _; isplitl [HW]; · iexact HW
      ipureintro; rw [hw, ← View.writes_append]

/-! ### What the loop leaves -/

/-- The loop runs eight trips, sixteen rows each. -/
theorem trips_t6 : k0_t6_loop.trips = 8 := by decide +kernel

/-- After the loop row `r` of the written buffer holds, at every column, entry `128 + r` of staged row `4 + t4`, whatever
    the buffer held before. -/
theorem fill_t6 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (G0 : BufTy.Contents (Elt F) arg7.view.ty) (y : S128x256.Idx) :
    arg7.view.read (Elt F) (arg7.view.writes (Elt F) G0 (pb_t6 (F := F) 𝒱 d bd i arg2 harg2 arg3 harg3 arg4 harg4 arg5 harg5 arg6 harg6 arg7 harg7 arg8 arg9 v7_r0 v7_r1 v2 k0_t4 v71 c2_i32_50 v101 v102 X_arg5 (Scf.trips k0_t6_loop.lb k0_t6_loop.ub k0_t6_loop.st))) y
      = arg5.view.read (Elt F) X_arg5 (ix2 (⟨4 + k0_t4.val, row_t4_lt k0_t4⟩ : Fin 8) (⟨128 + (y 0).val, by have := idx2_lt0 y; omega⟩ : Fin 256)) :=
  (read_of_trips arg7.view G0 (rowG (entRow arg5.view X_arg5 ⟨4 + k0_t4.val, row_t4_lt k0_t4⟩ 128 (by decide))) k0_t6_loop.trips (pb_t6 (F := F) 𝒱 d bd i arg2 harg2 arg3 harg3 arg4 harg4 arg5 harg5 arg6 harg6 arg7 harg7 arg8 arg9 v7_r0 v7_r1 v2 k0_t4 v71 c2_i32_50 v101 v102 X_arg5) (tripL_t6 (F := F) 𝒱 d bd i arg2 harg2 arg3 harg3 arg4 harg4 arg5 harg5 arg6 harg6 arg7 harg7 arg8 arg9 v7_r0 v7_r1 v2 k0_t4 v71 c2_i32_50 v101 v102 X_arg5) rfl
    (pb_t6_succ (F := F) 𝒱 d bd i arg2 harg2 arg3 harg3 arg4 harg4 arg5 harg5 arg6 harg6 arg7 harg7 arg8 arg9 v7_r0 v7_r1 v2 k0_t4 v71 c2_i32_50 v101 v102 X_arg5) (fun y => (y 0).val / 16)
    (fun k => (trip_t6 (F := F) 𝒱 d bd i arg2 harg2 arg3 harg3 arg4 harg4 arg5 harg5 arg6 harg6 arg7 harg7 arg8 arg9 v7_r0 v7_r1 v2 k0_t4 v71 c2_i32_50 v101 v102 X_arg5 k).2.2.1) (fun k => (trip_t6 (F := F) 𝒱 d bd i arg2 harg2 arg3 harg3 arg4 harg4 arg5 harg5 arg6 harg6 arg7 harg7 arg8 arg9 v7_r0 v7_r1 v2 k0_t4 v71 c2_i32_50 v101 v102 X_arg5 k).2.2.2) y
    (by rw [trips_t6]; have := idx2_lt0 y; omega)).trans
    (congrArg (fun c => arg5.view.read (Elt F) X_arg5 (ix2 (⟨4 + k0_t4.val, row_t4_lt k0_t4⟩ : Fin 8) c)) (Fin.ext (by rfl)))

end Cert.Proof.KB

end
-- ==== Proof.KBOut.lean ====
/-
  The result's entries of one worker, as the sixty-four half planes its task copies into.

  Worker w owns the channels c with (c mod 128) / 4 = w: the four column channels 4 w + k and the four row channels
  128 + 4 w + k, in each of the four batches. The task writes a channel's plane half a plane at a time (rows 0 .. 127,
  rows 128 .. 255), so its destinations are 4 x 8 x 2 = 64 half planes; the half plane at offsets (b, c, 128 h, 0) is
  the set of entries (b, c, y, x) with y / 128 = h. These sets are the fibres of the map that sends an entry of the
  worker to (channel, batch, half), so the worker's entries held at once are the half planes held one by one. An entry
  of a half plane is the entry of the result at the offsets plus its own coordinates, and after a copy of a whole
  128 x 256 buffer into a half plane that entry holds the buffer's entry.
-/
import proofs.«210098_g2860448219651_cont_9to1_994_18_alg».proof.Proof.KBOwn
import Idealize.ShloMosaic.Lib.ValueLayout
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "oV" => (Memref.whole Cert.Kernel.main_v2_scv : Memref Cert.Kernel.sig Kind.scVector Space.hbm Cert.Kernel.S4x256x256x256 EltTy.f32)

/-! ## One half plane -/

section Slice

variable (d : Dev nD) (L : grid0.Coords)
variable (off : Fin 4 → Nat) (inb : ∀ a, off a + S1x1x128x256.size a ≤ S4x256x256x256.size a)

/-- The half plane at offsets `off` of the result, held at contents `f`, in the spelling the task's copies read. -/
abbrev oPt (f : Buf (Elt F) (oLoc d)) : sProp 𝕄 :=
  (oSl off inb).view.loc (V d (cV L) (jV L)) ↦[(oSl off inb).view.set]{fullShare} f

/-- Its entries: the box of sizes (1, 1, 128, 256) at the offsets. -/
theorem set_oSl : (oSl off inb).view.set
    = Finset.univ.filter fun j : S4x256x256x256.Idx => ∀ a, off a ≤ (j a).val ∧ (j a).val < off a + S1x1x128x256.size a := by
  show (((View.whole (main_v2_scv : Ref sig .scVector)).slice (Rect.unit (s := S4x256x256x256) off S1x1x128x256.size inb)).reshape
    S128x256 Facts₀.squeezes_S1x1x128x256_S128x256.numel_eq).set = _
  rw [View.set_reshape, View.set_slice_whole]
  ext j
  rw [Rect.mem_set_unit]
  simp only [Finset.mem_filter, Finset.mem_univ, true_and]
  exact Iff.rfl

/-- Entry (y, x) of the half plane is entry (off 0, off 1, off 2 + y, off 3 + x) of the result. -/
theorem oSl_emb_val (y : S128x256.Idx) (a : Fin 4) :
    ((oSl off inb).view.emb y a).val = off a + (ValueIdx.ix4 (⟨0, Nat.one_pos⟩ : Fin 1) (⟨0, Nat.one_pos⟩ : Fin 1) (y 0) (y 1) a).val := by
  show ((Rect.unit (s := S4x256x256x256) off S1x1x128x256.size inb).emb
    (Shape.reshapeEquiv (s := S1x1x128x256) (s' := S128x256) Facts₀.squeezes_S1x1x128x256_S128x256.numel_eq y) a).val = _
  rw [Rect.emb_apply]
  have e : Shape.reshapeEquiv (s := S1x1x128x256) (s' := S128x256) Facts₀.squeezes_S1x1x128x256_S128x256.numel_eq y
      = ValueIdx.ix4 (⟨0, Nat.one_pos⟩ : Fin 1) (⟨0, Nat.one_pos⟩ : Fin 1) (y 0) (y 1) := by
    conv_lhs => rw [ValueIdx.eq_ix2 y]
    exact ValueIdx.reshapeEquiv_ix2_11ab (a := 128) (b := 256) _ (y 0) (y 1)
  rw [e]
  show off a + 1 * _ = _
  rw [Nat.one_mul]

theorem oSl_emb_0 (y : S128x256.Idx) : ((oSl off inb).view.emb y 0).val = off 0 := oSl_emb_val off inb y 0
theorem oSl_emb_1 (y : S128x256.Idx) : ((oSl off inb).view.emb y 1).val = off 1 := oSl_emb_val off inb y 1
theorem oSl_emb_2 (y : S128x256.Idx) : ((oSl off inb).view.emb y 2).val = off 2 + (y 0).val := oSl_emb_val off inb y 2
theorem oSl_emb_3 (y : S128x256.Idx) : ((oSl off inb).view.emb y 3).val = off 3 + (y 1).val := oSl_emb_val off inb y 3

/-- The same as one index of the result. -/
theorem oSl_emb (y : S128x256.Idx) :
    (oSl off inb).view.emb y
      = ValueIdx.ix4 (n0 := 4) (n1 := 256) (n2 := 256) (n3 := 256)
          ⟨off 0, by have h1 : off 0 + 1 ≤ 4 := inb 0; omega⟩
          ⟨off 1, by have h1 : off 1 + 1 ≤ 256 := inb 1; omega⟩
          ⟨off 2 + (y 0).val, by have h1 : off 2 + 128 ≤ 256 := inb 2; have h2 : (y 0).val < 128 := (y 0).isLt; omega⟩
          ⟨off 3 + (y 1).val, by have h1 : off 3 + 256 ≤ 256 := inb 3; have h2 : (y 1).val < 256 := (y 1).isLt; omega⟩ := by
  funext a
  match a with
  | ⟨0, _⟩ => exact Fin.ext (oSl_emb_0 off inb y)
  | ⟨1, _⟩ => exact Fin.ext (oSl_emb_1 off inb y)
  | ⟨2, _⟩ => exact Fin.ext (oSl_emb_2 off inb y)
  | ⟨3, _⟩ => exact Fin.ext (oSl_emb_3 off inb y)

/-- Contents that agree on the half plane are one assertion. -/
theorem oPt_congr (g G : Buf (Elt F) (oLoc d))
    (h : ∀ y : S128x256.Idx, g ((oSl off inb).view.emb y) = G ((oSl off inb).view.emb y)) :
    oPt d L off inb g = oPt d L off inb G :=
  pointsTo_congr fun i hi => by
    obtain ⟨y, -, rfl⟩ := Finset.mem_map.mp hi
    exact h y

/-- After a copy of a whole 128 x 256 buffer `X` into the half plane, its entry (y, x) holds `X (y, x)`. -/
theorem oSl_landed (fo : Buf (Elt F) (oLoc d)) (X : S128x256.Idx → Elt F .f32) (y : S128x256.Idx) :
    ((oSl off inb).view.writes (Elt F) fo [⟨Rect.whole S128x256, X⟩]) ((oSl off inb).view.emb y) = X y := by
  have h := View.read_writes_cons_emb (oSl off inb).view fo (Rect.whole S128x256) X [] y
  rw [Rect.emb_whole_apply] at h
  exact h

end Slice

/-! ## Fibres of a map to a small range -/

section Fibres

variable {ℓ : Loc nD τ sig}

theorem pts_set_congr {I J : Finset (Idx ℓ)} (h : I = J) (f : Buf (Elt F) ℓ) :
    (ℓ ↦[I]{fullShare} f : sProp 𝕄) = ℓ ↦[J]{fullShare} f := by rw [h]

theorem sep_congr2 {A A' B B' : sProp 𝕄} (hA : A = A') (hB : B = B') : iprop(A ∗ B) = iprop(A' ∗ B') := by rw [hA, hB]

theorem sep_assoc_eq (A B C : sProp 𝕄) : iprop((A ∗ B) ∗ C) = iprop(A ∗ B ∗ C) :=
  BI.equiv_iff.mp ⟨BI.sep_assoc, BI.sep_assoc'⟩

/-- A set of entries held at once is the fibres of a map from it to 0 .. n - 1 held one by one. -/
theorem pointsTo_fibresN (S : Finset (Idx ℓ)) (n : ℕ) (φ : Idx ℓ → ℕ) (hφ : ∀ j ∈ S, φ j < n) (f : Buf (Elt F) ℓ) :
    (ℓ ↦[S]{fullShare} f : sProp 𝕄) = bigSep Finset.univ fun i : Fin n => ℓ ↦[S.filter fun j => φ j = i.val]{fullShare} f := by
  have hS : S = (Finset.univ : Finset (Fin n)).biUnion fun i => S.filter fun j => φ j = i.val := by
    ext j
    simp only [Finset.mem_biUnion, Finset.mem_univ, true_and, Finset.mem_filter]
    exact ⟨fun hj => ⟨⟨φ j, hφ j hj⟩, hj, rfl⟩, fun ⟨_, hj, _⟩ => hj⟩
  exact (pts_set_congr hS f).trans (pointsTo_biUnion Finset.univ (fun i : Fin n => S.filter fun j => φ j = i.val)
    (fun i _ i' _ h => Finset.disjoint_filter.mpr fun j _ h1 h2 => h (Fin.ext (h1.symm.trans h2))))

theorem bigSep_univ_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- Two fibres, each under the name it is known by. -/
theorem pointsTo_split2 {S A0 A1 : Finset (Idx ℓ)} (φ : Idx ℓ → ℕ) (hφ : ∀ j ∈ S, φ j < 2)
    (h0 : (S.filter fun j => φ j = 0) = A0) (h1 : (S.filter fun j => φ j = 1) = A1) (f : Buf (Elt F) ℓ) :
    (ℓ ↦[S]{fullShare} f : sProp 𝕄) = iprop((ℓ ↦[A0]{fullShare} f) ∗ (ℓ ↦[A1]{fullShare} f)) := by
  subst h0 h1
  exact (pointsTo_fibresN S 2 φ hφ f).trans (bigSep_univ_two _)

/-- Four fibres. -/
theorem pointsTo_split4 {S A0 A1 A2 A3 : Finset (Idx ℓ)} (φ : Idx ℓ → ℕ) (hφ : ∀ j ∈ S, φ j < 4)
    (h0 : (S.filter fun j => φ j = 0) = A0) (h1 : (S.filter fun j => φ j = 1) = A1)
    (h2 : (S.filter fun j => φ j = 2) = A2) (h3 : (S.filter fun j => φ j = 3) = A3) (f : Buf (Elt F) ℓ) :
    (ℓ ↦[S]{fullShare} f : sProp 𝕄)
      = iprop((ℓ ↦[A0]{fullShare} f) ∗ (ℓ ↦[A1]{fullShare} f) ∗ (ℓ ↦[A2]{fullShare} f) ∗ (ℓ ↦[A3]{fullShare} f)) := by
  subst h0 h1 h2 h3
  exact (pointsTo_fibresN S 4 φ hφ f).trans (bigSep_univ_four _)

end Fibres

/-! ## The half planes of a channel -/

/-- The half plane of batch `b`, channel `ch`, half `h`; a channel; a half of a channel in every batch. -/
def hp (b ch h : ℕ) : Finset S4x256x256x256.Idx := Finset.univ.filter fun j => (j 0).val = b ∧ (j 1).val = ch ∧ (j 2).val / 128 = h
def chan (ch : ℕ) : Finset S4x256x256x256.Idx := Finset.univ.filter fun j => (j 1).val = ch
def chanHalf (ch h : ℕ) : Finset S4x256x256x256.Idx := Finset.univ.filter fun j => (j 1).val = ch ∧ (j 2).val / 128 = h

theorem leafA (ch b h : ℕ) :
    (((chan ch).filter fun j => (j 0).val = b).filter fun j => (j 2).val / 128 = h) = hp b ch h := by
  ext j
  simp only [chan, hp, Finset.mem_filter, Finset.mem_univ, true_and]
  tauto

theorem leafB (ch h b : ℕ) : ((chanHalf ch h).filter fun j => (j 0).val = b) = hp b ch h := by
  ext j
  simp only [chanHalf, hp, Finset.mem_filter, Finset.mem_univ, true_and]
  tauto

/-- The box at offsets (b, ch, 128 h, 0) is that half plane. -/
theorem set_oSl_hp (off : Fin 4 → Nat) (inb : ∀ a, off a + S1x1x128x256.size a ≤ S4x256x256x256.size a)
    (b ch o h : ℕ) (hoff : off = ![b, ch, o, 0]) (ho : o = 128 * h) : (oSl off inb).view.set = hp b ch h := by
  rw [set_oSl]
  subst hoff ho
  ext j
  have h3 : (j 3).val < 256 := (j 3).isLt
  simp only [hp, Finset.mem_filter, Finset.mem_univ, true_and]
  constructor
  · intro H
    have a0 : b ≤ (j 0).val ∧ (j 0).val < b + 1 := H 0
    have a1 : ch ≤ (j 1).val ∧ (j 1).val < ch + 1 := H 1
    have a2 : 128 * h ≤ (j 2).val ∧ (j 2).val < 128 * h + 128 := H 2
    omega
  · intro H a
    match a with
    | 0 => show b ≤ (j 0).val ∧ (j 0).val < b + 1; omega
    | 1 => show ch ≤ (j 1).val ∧ (j 1).val < ch + 1; omega
    | 2 => show 128 * h ≤ (j 2).val ∧ (j 2).val < 128 * h + 128; omega
    | 3 => show 0 ≤ (j 3).val ∧ (j 3).val < 0 + 256; omega

section Channel

variable (d : Dev nD) (L : grid0.Coords)

/-- A destination of the task whose offsets are (b, ch, 128 h, 0) is that half plane held. -/
theorem oPt_hp (off : Fin 4 → Nat) (inb : ∀ a, off a + S1x1x128x256.size a ≤ S4x256x256x256.size a)
    (b ch o h : ℕ) (hoff : off = ![b, ch, o, 0]) (ho : o = 128 * h) (f : Buf (Elt F) (oLoc d)) :
    oPt d L off inb f = (oLoc d ↦[hp b ch h]{fullShare} f) :=
  pts_set_congr (set_oSl_hp off inb b ch o h hoff ho) f

/-- A channel is its eight half planes: batch by batch, the upper half then the lower. -/
theorem chan_split (ch : ℕ) (f : Buf (Elt F) (oLoc d)) :
    (oLoc d ↦[chan ch]{fullShare} f : sProp 𝕄)
      = iprop((oLoc d ↦[hp 0 ch 0]{fullShare} f) ∗ (oLoc d ↦[hp 0 ch 1]{fullShare} f)
          ∗ (oLoc d ↦[hp 1 ch 0]{fullShare} f) ∗ (oLoc d ↦[hp 1 ch 1]{fullShare} f)
          ∗ (oLoc d ↦[hp 2 ch 0]{fullShare} f) ∗ (oLoc d ↦[hp 2 ch 1]{fullShare} f)
          ∗ (oLoc d ↦[hp 3 ch 0]{fullShare} f) ∗ (oLoc d ↦[hp 3 ch 1]{fullShare} f)) := by
  have e : ∀ b : ℕ, (oLoc d ↦[(chan ch).filter fun j => (j 0).val = b]{fullShare} f : sProp 𝕄)
      = iprop((oLoc d ↦[hp b ch 0]{fullShare} f) ∗ (oLoc d ↦[hp b ch 1]{fullShare} f)) := fun b =>
    pointsTo_split2 (ℓ := oLoc d) (fun j => (j 2).val / 128) (fun j _ => by have h2 : (j 2).val < 256 := (j 2).isLt; omega)
      (leafA ch b 0) (leafA ch b 1) f
  refine (pointsTo_split4 (ℓ := oLoc d) (S := chan ch) (fun j => (j 0).val) (fun j _ => (j 0).isLt) rfl rfl rfl rfl f).trans ?_
  refine (sep_congr2 (e 0) (sep_congr2 (e 1) (sep_congr2 (e 2) (e 3)))).trans ?_
  simp only [sep_assoc_eq]

/-- A half of a channel, in every batch, is its four half planes. -/
theorem chanHalf_split (ch h : ℕ) (f : Buf (Elt F) (oLoc d)) :
    (oLoc d ↦[chanHalf ch h]{fullShare} f : sProp 𝕄)
      = iprop((oLoc d ↦[hp 0 ch h]{fullShare} f) ∗ (oLoc d ↦[hp 1 ch h]{fullShare} f)
          ∗ (oLoc d ↦[hp 2 ch h]{fullShare} f) ∗ (oLoc d ↦[hp 3 ch h]{fullShare} f)) :=
  pointsTo_split4 (ℓ := oLoc d) (S := chanHalf ch h) (fun j => (j 0).val) (fun j _ => (j 0).isLt)
    (leafB ch h 0) (leafB ch h 1) (leafB ch h 2) (leafB ch h 3) f

end Channel

/-! ## The offsets of the row channels' copies, in closed form -/

theorem k0_off75_eq : ∀ (i : grid0.Coords) (k0_t4 : Fin k0_t4_loop.trips), ∀ (r : Fin 2),
    k0_off75 i k0_t4 (BitVec.ofNat 32 r.val) = ![0, 128 + (8 * (i 1).val + 4 * (i 0).val) + k0_t4.val, 128 * r.val, 0] := by decide +kernel
theorem k0_off76_eq : ∀ (i : grid0.Coords) (k0_t4 : Fin k0_t4_loop.trips), ∀ (r : Fin 2),
    k0_off76 i k0_t4 (BitVec.ofNat 32 r.val) = ![1, 128 + (8 * (i 1).val + 4 * (i 0).val) + k0_t4.val, 128 * r.val, 0] := by decide +kernel
theorem k0_off77_eq : ∀ (i : grid0.Coords) (k0_t4 : Fin k0_t4_loop.trips), ∀ (r : Fin 2),
    k0_off77 i k0_t4 (BitVec.ofNat 32 r.val) = ![2, 128 + (8 * (i 1).val + 4 * (i 0).val) + k0_t4.val, 128 * r.val, 0] := by decide +kernel
theorem k0_off78_eq : ∀ (i : grid0.Coords) (k0_t4 : Fin k0_t4_loop.trips), ∀ (r : Fin 2),
    k0_off78 i k0_t4 (BitVec.ofNat 32 r.val) = ![3, 128 + (8 * (i 1).val + 4 * (i 0).val) + k0_t4.val, 128 * r.val, 0] := by decide +kernel

/-! ## The worker's channels -/

section Worker

variable (d : Dev nD) (L : grid0.Coords)

/-- The worker's first table column: 4 w for worker w = 2 (L 1) + (L 0). -/
abbrev base (L : grid0.Coords) : ℕ := 8 * (L 1).val + 4 * (L 0).val

theorem colLeaf (k : ℕ) (hk : k < 4) :
    ((((tileSet (wL L)).filter fun j => (j 1).val / 128 = 0).filter fun j => (j 1).val % 4 = k)) = chan (base L + k) := by
  ext j
  have h0 : (L 0).val < 2 := (L 0).isLt
  have h1 : (L 1).val < 16 := (L 1).isLt
  have hj1 : (j 1).val < 256 := (j 1).isLt
  have hw : (wL L).val = 2 * (L 1).val + (L 0).val := rfl
  have hb : base L = 8 * (L 1).val + 4 * (L 0).val := rfl
  simp only [tileSet, chan, Finset.mem_filter, Finset.mem_univ, true_and, hw]
  omega

theorem rowLeaf (t r : ℕ) (ht : t < 4) :
    (((((tileSet (wL L)).filter fun j => (j 1).val / 128 = 1).filter fun j => (j 1).val % 4 = t)).filter fun j => (j 2).val / 128 = r)
      = chanHalf (128 + base L + t) r := by
  ext j
  have h0 : (L 0).val < 2 := (L 0).isLt
  have h1 : (L 1).val < 16 := (L 1).isLt
  have hj1 : (j 1).val < 256 := (j 1).isLt
  have hw : (wL L).val = 2 * (L 1).val + (L 0).val := rfl
  have hb : base L = 8 * (L 1).val + 4 * (L 0).val := rfl
  simp only [tileSet, chanHalf, Finset.mem_filter, Finset.mem_univ, true_and, hw]
  omega

/-- The worker's entries are its four column channels and the two halves of its four row channels. -/
theorem tile_split (f : Buf (Elt F) (oLoc d)) :
    (oLoc d ↦[tileSet (wL L)]{fullShare} f : sProp 𝕄)
      = iprop((oLoc d ↦[chan (base L + 0)]{fullShare} f) ∗ (oLoc d ↦[chan (base L + 1)]{fullShare} f)
          ∗ (oLoc d ↦[chan (base L + 2)]{fullShare} f) ∗ (oLoc d ↦[chan (base L + 3)]{fullShare} f)
          ∗ (oLoc d ↦[chanHalf (128 + base L + 0) 0]{fullShare} f) ∗ (oLoc d ↦[chanHalf (128 + base L + 0) 1]{fullShare} f)
          ∗ (oLoc d ↦[chanHalf (128 + base L + 1) 0]{fullShare} f) ∗ (oLoc d ↦[chanHalf (128 + base L + 1) 1]{fullShare} f)
          ∗ (oLoc d ↦[chanHalf (128 + base L + 2) 0]{fullShare} f) ∗ (oLoc d ↦[chanHalf (128 + base L + 2) 1]{fullShare} f)
          ∗ (oLoc d ↦[chanHalf (128 + base L + 3) 0]{fullShare} f) ∗ (oLoc d ↦[chanHalf (128 + base L + 3) 1]{fullShare} f)) := by
  have hh : ∀ j : S4x256x256x256.Idx, (j 2).val / 128 < 2 := fun j => by have h2 : (j 2).val < 256 := (j 2).isLt; omega
  have er : ∀ t : ℕ, t < 4 →
      (oLoc d ↦[((tileSet (wL L)).filter fun j => (j 1).val / 128 = 1).filter fun j => (j 1).val % 4 = t]{fullShare} f : sProp 𝕄)
        = iprop((oLoc d ↦[chanHalf (128 + base L + t) 0]{fullShare} f) ∗ (oLoc d ↦[chanHalf (128 + base L + t) 1]{fullShare} f)) := fun t ht =>
    pointsTo_split2 (ℓ := oLoc d) (fun j => (j 2).val / 128) (fun j _ => hh j) (rowLeaf L t 0 ht) (rowLeaf L t 1 ht) f
  have ec : (oLoc d ↦[(tileSet (wL L)).filter fun j => (j 1).val / 128 = 0]{fullShare} f : sProp 𝕄)
      = iprop((oLoc d ↦[chan (base L + 0)]{fullShare} f) ∗ (oLoc d ↦[chan (base L + 1)]{fullShare} f)
          ∗ (oLoc d ↦[chan (base L + 2)]{fullShare} f) ∗ (oLoc d ↦[chan (base L + 3)]{fullShare} f)) :=
    pointsTo_split4 (ℓ := oLoc d) (fun j => (j 1).val % 4) (fun j _ => Nat.mod_lt _ (by decide))
      (colLeaf L 0 (by decide)) (colLeaf L 1 (by decide)) (colLeaf L 2 (by decide)) (colLeaf L 3 (by decide)) f
  have err := (pointsTo_split4 (ℓ := oLoc d) (S := (tileSet (wL L)).filter fun j => (j 1).val / 128 = 1)
      (fun j => (j 1).val % 4) (fun j _ => Nat.mod_lt _ (by decide)) rfl rfl rfl rfl f).trans
    (sep_congr2 (er 0 (by decide)) (sep_congr2 (er 1 (by decide)) (sep_congr2 (er 2 (by decide)) (er 3 (by decide)))))
  refine (pointsTo_split2 (ℓ := oLoc d) (S := tileSet (wL L)) (fun j => (j 1).val / 128)
    (fun j _ => by have h1 : (j 1).val < 256 := (j 1).isLt; omega) rfl rfl f).trans ?_
  refine (sep_congr2 ec err).trans ?_
  simp only [sep_assoc_eq]

/-! ## The task's destinations, group by group -/

section Groups

/-- The eight copies of one column channel (trip `t` of two, second index 0): four batches, two halves. -/
abbrev grpA0 (t : Fin k0_t1_loop.trips) (f : Buf (Elt F) (oLoc d)) : sProp 𝕄 :=
  iprop(oPt d L (k0_off34 L t 0#32) (k0_off34_inb L t 0) f
    ∗ oPt d L (k0_off35 L t 0#32) (k0_off35_inb L t 0) f
    ∗ oPt d L (k0_off36 L t 0#32) (k0_off36_inb L t 0) f
    ∗ oPt d L (k0_off37 L t 0#32) (k0_off37_inb L t 0) f
    ∗ oPt d L (k0_off38 L t 0#32) (k0_off38_inb L t 0) f
    ∗ oPt d L (k0_off39 L t 0#32) (k0_off39_inb L t 0) f
    ∗ oPt d L (k0_off40 L t 0#32) (k0_off40_inb L t 0) f
    ∗ oPt d L (k0_off41 L t 0#32) (k0_off41_inb L t 0) f)
/-- The same at second index 1. -/
abbrev grpA1 (t : Fin k0_t1_loop.trips) (f : Buf (Elt F) (oLoc d)) : sProp 𝕄 :=
  iprop(oPt d L (k0_off34 L t 1#32) (k0_off34_inb L t 1) f
    ∗ oPt d L (k0_off35 L t 1#32) (k0_off35_inb L t 1) f
    ∗ oPt d L (k0_off36 L t 1#32) (k0_off36_inb L t 1) f
    ∗ oPt d L (k0_off37 L t 1#32) (k0_off37_inb L t 1) f
    ∗ oPt d L (k0_off38 L t 1#32) (k0_off38_inb L t 1) f
    ∗ oPt d L (k0_off39 L t 1#32) (k0_off39_inb L t 1) f
    ∗ oPt d L (k0_off40 L t 1#32) (k0_off40_inb L t 1) f
    ∗ oPt d L (k0_off41 L t 1#32) (k0_off41_inb L t 1) f)
/-- The four copies of one half of one row channel (trip `t` of four, half 0): four batches. -/
abbrev grpB0 (t : Fin k0_t4_loop.trips) (f : Buf (Elt F) (oLoc d)) : sProp 𝕄 :=
  iprop(oPt d L (k0_off75 L t 0#32) (k0_off75_inb L t 0) f
    ∗ oPt d L (k0_off76 L t 0#32) (k0_off76_inb L t 0) f
    ∗ oPt d L (k0_off77 L t 0#32) (k0_off77_inb L t 0) f
    ∗ oPt d L (k0_off78 L t 0#32) (k0_off78_inb L t 0) f)
/-- The same at half 1. -/
abbrev grpB1 (t : Fin k0_t4_loop.trips) (f : Buf (Elt F) (oLoc d)) : sProp 𝕄 :=
  iprop(oPt d L (k0_off75 L t 1#32) (k0_off75_inb L t 1) f
    ∗ oPt d L (k0_off76 L t 1#32) (k0_off76_inb L t 1) f
    ∗ oPt d L (k0_off77 L t 1#32) (k0_off77_inb L t 1) f
    ∗ oPt d L (k0_off78 L t 1#32) (k0_off78_inb L t 1) f)

theorem pA34 (t : Fin k0_t1_loop.trips) (r : Fin 2) (f : Buf (Elt F) (oLoc d)) :
    oPt d L (k0_off34 L t (BitVec.ofNat 32 r.val)) (k0_off34_inb L t r) f = (oLoc d ↦[hp 0 (base L + (2 * t.val + r.val)) 0]{fullShare} f) :=
  oPt_hp d L _ _ 0 (base L + (2 * t.val + r.val)) 0 0 ((k0_off34_eq L t r).trans (by rw [Nat.add_assoc])) rfl f
theorem pA35 (t : Fin k0_t1_loop.trips) (r : Fin 2) (f : Buf (Elt F) (oLoc d)) :
    oPt d L (k0_off35 L t (BitVec.ofNat 32 r.val)) (k0_off35_inb L t r) f = (oLoc d ↦[hp 0 (base L + (2 * t.val + r.val)) 1]{fullShare} f) :=
  oPt_hp d L _ _ 0 (base L + (2 * t.val + r.val)) 128 1 ((k0_off35_eq L t r).trans (by rw [Nat.add_assoc])) rfl f
theorem pA36 (t : Fin k0_t1_loop.trips) (r : Fin 2) (f : Buf (Elt F) (oLoc d)) :
    oPt d L (k0_off36 L t (BitVec.ofNat 32 r.val)) (k0_off36_inb L t r) f = (oLoc d ↦[hp 1 (base L + (2 * t.val + r.val)) 0]{fullShare} f) :=
  oPt_hp d L _ _ 1 (base L + (2 * t.val + r.val)) 0 0 ((k0_off36_eq L t r).trans (by rw [Nat.add_assoc])) rfl f
theorem pA37 (t : Fin k0_t1_loop.trips) (r : Fin 2) (f : Buf (Elt F) (oLoc d)) :
    oPt d L (k0_off37 L t (BitVec.ofNat 32 r.val)) (k0_off37_inb L t r) f = (oLoc d ↦[hp 1 (base L + (2 * t.val + r.val)) 1]{fullShare} f) :=
  oPt_hp d L _ _ 1 (base L + (2 * t.val + r.val)) 128 1 ((k0_off37_eq L t r).trans (by rw [Nat.add_assoc])) rfl f
theorem pA38 (t : Fin k0_t1_loop.trips) (r : Fin 2) (f : Buf (Elt F) (oLoc d)) :
    oPt d L (k0_off38 L t (BitVec.ofNat 32 r.val)) (k0_off38_inb L t r) f = (oLoc d ↦[hp 2 (base L + (2 * t.val + r.val)) 0]{fullShare} f) :=
  oPt_hp d L _ _ 2 (base L + (2 * t.val + r.val)) 0 0 ((k0_off38_eq L t r).trans (by rw [Nat.add_assoc])) rfl f
theorem pA39 (t : Fin k0_t1_loop.trips) (r : Fin 2) (f : Buf (Elt F) (oLoc d)) :
    oPt d L (k0_off39 L t (BitVec.ofNat 32 r.val)) (k0_off39_inb L t r) f = (oLoc d ↦[hp 2 (base L + (2 * t.val + r.val)) 1]{fullShare} f) :=
  oPt_hp d L _ _ 2 (base L + (2 * t.val + r.val)) 128 1 ((k0_off39_eq L t r).trans (by rw [Nat.add_assoc])) rfl f
theorem pA40 (t : Fin k0_t1_loop.trips) (r : Fin 2) (f : Buf (Elt F) (oLoc d)) :
    oPt d L (k0_off40 L t (BitVec.ofNat 32 r.val)) (k0_off40_inb L t r) f = (oLoc d ↦[hp 3 (base L + (2 * t.val + r.val)) 0]{fullShare} f) :=
  oPt_hp d L _ _ 3 (base L + (2 * t.val + r.val)) 0 0 ((k0_off40_eq L t r).trans (by rw [Nat.add_assoc])) rfl f
theorem pA41 (t : Fin k0_t1_loop.trips) (r : Fin 2) (f : Buf (Elt F) (oLoc d)) :
    oPt d L (k0_off41 L t (BitVec.ofNat 32 r.val)) (k0_off41_inb L t r) f = (oLoc d ↦[hp 3 (base L + (2 * t.val + r.val)) 1]{fullShare} f) :=
  oPt_hp d L _ _ 3 (base L + (2 * t.val + r.val)) 128 1 ((k0_off41_eq L t r).trans (by rw [Nat.add_assoc])) rfl f
theorem pB75 (t : Fin k0_t4_loop.trips) (r : Fin 2) (f : Buf (Elt F) (oLoc d)) :
    oPt d L (k0_off75 L t (BitVec.ofNat 32 r.val)) (k0_off75_inb L t r) f = (oLoc d ↦[hp 0 (128 + base L + t.val) r.val]{fullShare} f) :=
  oPt_hp d L _ _ 0 (128 + base L + t.val) (128 * r.val) r.val (k0_off75_eq L t r) rfl f
theorem pB76 (t : Fin k0_t4_loop.trips) (r : Fin 2) (f : Buf (Elt F) (oLoc d)) :
    oPt d L (k0_off76 L t (BitVec.ofNat 32 r.val)) (k0_off76_inb L t r) f = (oLoc d ↦[hp 1 (128 + base L + t.val) r.val]{fullShare} f) :=
  oPt_hp d L _ _ 1 (128 + base L + t.val) (128 * r.val) r.val (k0_off76_eq L t r) rfl f
theorem pB77 (t : Fin k0_t4_loop.trips) (r : Fin 2) (f : Buf (Elt F) (oLoc d)) :
    oPt d L (k0_off77 L t (BitVec.ofNat 32 r.val)) (k0_off77_inb L t r) f = (oLoc d ↦[hp 2 (128 + base L + t.val) r.val]{fullShare} f) :=
  oPt_hp d L _ _ 2 (128 + base L + t.val) (128 * r.val) r.val (k0_off77_eq L t r) rfl f
theorem pB78 (t : Fin k0_t4_loop.trips) (r : Fin 2) (f : Buf (Elt F) (oLoc d)) :
    oPt d L (k0_off78 L t (BitVec.ofNat 32 r.val)) (k0_off78_inb L t r) f = (oLoc d ↦[hp 3 (128 + base L + t.val) r.val]{fullShare} f) :=
  oPt_hp d L _ _ 3 (128 + base L + t.val) (128 * r.val) r.val (k0_off78_eq L t r) rfl f

/-- A column channel is the eight destinations of its copies. -/
theorem grpA_eq (t : Fin k0_t1_loop.trips) (r : Fin 2) (f : Buf (Elt F) (oLoc d)) :
    (oLoc d ↦[chan (base L + (2 * t.val + r.val))]{fullShare} f : sProp 𝕄)
      = iprop(oPt d L (k0_off34 L t (BitVec.ofNat 32 r.val)) (k0_off34_inb L t r) f
    ∗ oPt d L (k0_off35 L t (BitVec.ofNat 32 r.val)) (k0_off35_inb L t r) f
    ∗ oPt d L (k0_off36 L t (BitVec.ofNat 32 r.val)) (k0_off36_inb L t r) f
    ∗ oPt d L (k0_off37 L t (BitVec.ofNat 32 r.val)) (k0_off37_inb L t r) f
    ∗ oPt d L (k0_off38 L t (BitVec.ofNat 32 r.val)) (k0_off38_inb L t r) f
    ∗ oPt d L (k0_off39 L t (BitVec.ofNat 32 r.val)) (k0_off39_inb L t r) f
    ∗ oPt d L (k0_off40 L t (BitVec.ofNat 32 r.val)) (k0_off40_inb L t r) f
    ∗ oPt d L (k0_off41 L t (BitVec.ofNat 32 r.val)) (k0_off41_inb L t r) f) :=
  (chan_split d (base L + (2 * t.val + r.val)) f).trans
    (sep_congr2 (pA34 d L t r f) (sep_congr2 (pA35 d L t r f) (sep_congr2 (pA36 d L t r f) (sep_congr2 (pA37 d L t r f) (sep_congr2 (pA38 d L t r f) (sep_congr2 (pA39 d L t r f) (sep_congr2 (pA40 d L t r f) (pA41 d L t r f)))))))).symm

/-- A half of a row channel is the four destinations of its copies. -/
theorem grpB_eq (t : Fin k0_t4_loop.trips) (r : Fin 2) (f : Buf (Elt F) (oLoc d)) :
    (oLoc d ↦[chanHalf (128 + base L + t.val) r.val]{fullShare} f : sProp 𝕄)
      = iprop(oPt d L (k0_off75 L t (BitVec.ofNat 32 r.val)) (k0_off75_inb L t r) f
    ∗ oPt d L (k0_off76 L t (BitVec.ofNat 32 r.val)) (k0_off76_inb L t r) f
    ∗ oPt d L (k0_off77 L t (BitVec.ofNat 32 r.val)) (k0_off77_inb L t r) f
    ∗ oPt d L (k0_off78 L t (BitVec.ofNat 32 r.val)) (k0_off78_inb L t r) f) :=
  (chanHalf_split d (128 + base L + t.val) r.val f).trans
    (sep_congr2 (pB75 d L t r f) (sep_congr2 (pB76 d L t r f) (sep_congr2 (pB77 d L t r f) (pB78 d L t r f)))).symm

theorem grpA0_eq (t : Fin k0_t1_loop.trips) (f : Buf (Elt F) (oLoc d)) :
    (oLoc d ↦[chan (base L + (2 * t.val + 0))]{fullShare} f : sProp 𝕄) = grpA0 d L t f := grpA_eq d L t 0 f
theorem grpA1_eq (t : Fin k0_t1_loop.trips) (f : Buf (Elt F) (oLoc d)) :
    (oLoc d ↦[chan (base L + (2 * t.val + 1))]{fullShare} f : sProp 𝕄) = grpA1 d L t f := grpA_eq d L t 1 f
theorem grpB0_eq (t : Fin k0_t4_loop.trips) (f : Buf (Elt F) (oLoc d)) :
    (oLoc d ↦[chanHalf (128 + base L + t.val) 0]{fullShare} f : sProp 𝕄) = grpB0 d L t f := grpB_eq d L t 0 f
theorem grpB1_eq (t : Fin k0_t4_loop.trips) (f : Buf (Elt F) (oLoc d)) :
    (oLoc d ↦[chanHalf (128 + base L + t.val) 1]{fullShare} f : sProp 𝕄) = grpB1 d L t f := grpB_eq d L t 1 f

end Groups

/-- The trips of the two loops, by number. -/
abbrev tA (k : ℕ) (h : k < k0_t1_loop.trips := by decide) : Fin k0_t1_loop.trips := ⟨k, h⟩
abbrev tB (k : ℕ) (h : k < k0_t4_loop.trips := by decide) : Fin k0_t4_loop.trips := ⟨k, h⟩

/-- The worker's entries of the result are the sixty-four destinations of its task's copies. -/
theorem oSplit_eq (f : Buf (Elt F) (oLoc d)) :
    (oLoc d ↦[tileSet (wL L)]{fullShare} f : sProp 𝕄)
      = iprop(grpA0 d L (tA 0) f ∗ grpA1 d L (tA 0) f ∗ grpA0 d L (tA 1) f ∗ grpA1 d L (tA 1) f
          ∗ grpB0 d L (tB 0) f ∗ grpB1 d L (tB 0) f ∗ grpB0 d L (tB 1) f ∗ grpB1 d L (tB 1) f
          ∗ grpB0 d L (tB 2) f ∗ grpB1 d L (tB 2) f ∗ grpB0 d L (tB 3) f ∗ grpB1 d L (tB 3) f) :=
  (tile_split d L f).trans
    (sep_congr2 (grpA0_eq d L (tA 0) f) (sep_congr2 (grpA1_eq d L (tA 0) f) (sep_congr2 (grpA0_eq d L (tA 1) f) (sep_congr2 (grpA1_eq d L (tA 1) f) (sep_congr2 (grpB0_eq d L (tB 0) f) (sep_congr2 (grpB1_eq d L (tB 0) f) (sep_congr2 (grpB0_eq d L (tB 1) f) (sep_congr2 (grpB1_eq d L (tB 1) f) (sep_congr2 (grpB0_eq d L (tB 2) f) (sep_congr2 (grpB1_eq d L (tB 2) f) (sep_congr2 (grpB0_eq d L (tB 3) f) (grpB1_eq d L (tB 3) f))))))))))))

theorem oSplit (f : Buf (Elt F) (oLoc d)) :
    (oLoc d ↦[tileSet (wL L)]{fullShare} f : sProp 𝕄)
      ⊣⊢ iprop(grpA0 d L (tA 0) f ∗ grpA1 d L (tA 0) f ∗ grpA0 d L (tA 1) f ∗ grpA1 d L (tA 1) f
          ∗ grpB0 d L (tB 0) f ∗ grpB1 d L (tB 0) f ∗ grpB0 d L (tB 1) f ∗ grpB1 d L (tB 1) f
          ∗ grpB0 d L (tB 2) f ∗ grpB1 d L (tB 2) f ∗ grpB0 d L (tB 3) f ∗ grpB1 d L (tB 3) f) :=
  ⟨Entails.of_eq (oSplit_eq d L f), Entails.of_eq (oSplit_eq d L f).symm⟩

end Worker

end Cert.Proof.KB

end
-- ==== Proof.KBVal.lean ====
/-
  What a group of the task's destinations holds when its copies have landed.

  The eight copies of a column channel all carry one 128 x 256 buffer whose entry (y, x) is the staged row's entry x,
  that is the transposed column table's entry (channel, x); the four copies of a half of a row channel carry one
  buffer whose entry (y, x) is the transposed row table's entry (channel - 128, row), the row being y in the upper
  half and 128 + y in the lower. Entry (y, x) of the half plane at offsets (b, c, o, 0) is entry (b, c, o + y, x) of
  the result, where the position embedding read off the transposed tables is the column table's (c, x) for c < 128
  and the row table's (c - 128, o + y) otherwise: the same values. What a half plane held before the copy is
  overwritten everywhere, so it does not matter.
-/
import proofs.«210098_g2860448219651_cont_9to1_994_18_alg».proof.Proof.KBOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx (ix2 ix4)

/-! ## The embedding read off the transposed tables, at an entry of known coordinates -/

theorem posEmbedT_lt {α : Type} (colT rowT : (⟨2, ![128, 256]⟩ : Shape).Idx → α) (j : (⟨4, ![4, 256, 256, 256]⟩ : Shape).Idx)
    (c : Fin 128) (x : Fin 256) (h1 : (j 1).val = c.val) (h3 : (j 3).val = x.val) :
    Cert.PosEmbed.posEmbedT colT rowT j = colT (ix2 c x) := by
  have hlt : (j 1).val < 128 := h1 ▸ c.isLt
  unfold Cert.PosEmbed.posEmbedT
  rw [dif_pos hlt]
  exact congrArg₂ (fun a b => colT (ix2 a b)) (Fin.ext h1) (Fin.ext h3)

theorem posEmbedT_ge {α : Type} (colT rowT : (⟨2, ![128, 256]⟩ : Shape).Idx → α) (j : (⟨4, ![4, 256, 256, 256]⟩ : Shape).Idx)
    (c : Fin 128) (x : Fin 256) (h1 : (j 1).val = 128 + c.val) (h2 : (j 2).val = x.val) :
    Cert.PosEmbed.posEmbedT colT rowT j = rowT (ix2 c x) := by
  have hge : ¬ (j 1).val < 128 := by omega
  unfold Cert.PosEmbed.posEmbedT
  rw [dif_neg hge]
  exact congrArg₂ (fun a b => rowT (ix2 a b)) (Fin.ext (by show (j 1).val - 128 = c.val; omega)) (Fin.ext h2)

/-! ## One destination after its copy -/

section Slice

variable (d : Dev nD) (L : grid0.Coords) (ct : Buf (Elt F) (ctLoc d)) (rt : Buf (Elt F) (rtLoc d))
variable (off : Fin 4 → Nat) (inb : ∀ a, off a + S1x1x128x256.size a ≤ S4x256x256x256.size a)

/-- The rows of the upper and of the lower half of a plane, as rows of the plane. -/
abbrev rowLo (y : S128x256.Idx) : Fin 256 := ⟨(y 0).val, by have h : (y 0).val < 128 := (y 0).isLt; omega⟩
abbrev rowHi (y : S128x256.Idx) : Fin 256 := ⟨128 + (y 0).val, by have h : (y 0).val < 128 := (y 0).isLt; omega⟩

/-- A half plane of a column channel `ch`, after a copy of a buffer that repeats row `ch` of the transposed column
    table, holds the position embedding's entries. -/
theorem slice_col (X : S128x256.Idx → Elt F .f32) (g : Buf (Elt F) (oLoc d)) (ch : Fin 128)
    (h1 : off 1 = ch.val) (h3 : off 3 = 0) (hX : ∀ y : S128x256.Idx, X y = ct (ix2 ch (y 1))) :
    oPt d L off inb ((oSl off inb).view.writes (Elt F) g [⟨Rect.whole S128x256, X⟩]) = oPt d L off inb (Cert.PosEmbed.posEmbedT ct rt : Buf (Elt F) (oLoc d)) :=
  oPt_congr d L off inb _ _ fun y =>
    ((oSl_landed d off inb g X y).trans (hX y)).trans
      (posEmbedT_lt ct rt _ ch (y 1) ((oSl_emb_1 off inb y).trans h1)
        ((oSl_emb_3 off inb y).trans (by rw [h3, Nat.zero_add]))).symm

/-- A half plane of a row channel `128 + ch`, after a copy of a buffer whose row y repeats entry `row y` of row `ch` of
    the transposed row table, `row y` being the plane's row under the half plane's row y. -/
theorem slice_row (X : S128x256.Idx → Elt F .f32) (g : Buf (Elt F) (oLoc d)) (ch : Fin 128) (row : S128x256.Idx → Fin 256)
    (h1 : off 1 = 128 + ch.val) (h2 : ∀ y, off 2 + (y 0).val = (row y).val) (hX : ∀ y : S128x256.Idx, X y = rt (ix2 ch (row y))) :
    oPt d L off inb ((oSl off inb).view.writes (Elt F) g [⟨Rect.whole S128x256, X⟩]) = oPt d L off inb (Cert.PosEmbed.posEmbedT ct rt : Buf (Elt F) (oLoc d)) :=
  oPt_congr d L off inb _ _ fun y =>
    ((oSl_landed d off inb g X y).trans (hX y)).trans
      (posEmbedT_ge ct rt _ ch (row y) ((oSl_emb_1 off inb y).trans h1) ((oSl_emb_2 off inb y).trans (h2 y))).symm

end Slice

/-! ## The groups -/

section Groups

variable (d : Dev nD) (L : grid0.Coords) (ct : Buf (Elt F) (ctLoc d)) (rt : Buf (Elt F) (rtLoc d))

/-- The eight destinations of a column channel's copies, all of one buffer. -/
theorem grpA_val (t : Fin k0_t1_loop.trips) (r : Fin 2) (X : S128x256.Idx → Elt F .f32) (g0 g1 g2 g3 g4 g5 g6 g7 : Buf (Elt F) (oLoc d)) (ch : Fin 128)
    (hch : ch.val = 8 * (L 1).val + 4 * (L 0).val + 2 * t.val + r.val) (hX : ∀ y : S128x256.Idx, X y = ct (ix2 ch (y 1))) :
    iprop(oPt d L (k0_off34 L t (BitVec.ofNat 32 r.val)) (k0_off34_inb L t r)
        ((oSl (k0_off34 L t (BitVec.ofNat 32 r.val)) (k0_off34_inb L t r)).view.writes (Elt F) g0 [⟨Rect.whole S128x256, X⟩])
      ∗ oPt d L (k0_off35 L t (BitVec.ofNat 32 r.val)) (k0_off35_inb L t r)
        ((oSl (k0_off35 L t (BitVec.ofNat 32 r.val)) (k0_off35_inb L t r)).view.writes (Elt F) g1 [⟨Rect.whole S128x256, X⟩])
      ∗ oPt d L (k0_off36 L t (BitVec.ofNat 32 r.val)) (k0_off36_inb L t r)
        ((oSl (k0_off36 L t (BitVec.ofNat 32 r.val)) (k0_off36_inb L t r)).view.writes (Elt F) g2 [⟨Rect.whole S128x256, X⟩])
      ∗ oPt d L (k0_off37 L t (BitVec.ofNat 32 r.val)) (k0_off37_inb L t r)
        ((oSl (k0_off37 L t (BitVec.ofNat 32 r.val)) (k0_off37_inb L t r)).view.writes (Elt F) g3 [⟨Rect.whole S128x256, X⟩])
      ∗ oPt d L (k0_off38 L t (BitVec.ofNat 32 r.val)) (k0_off38_inb L t r)
        ((oSl (k0_off38 L t (BitVec.ofNat 32 r.val)) (k0_off38_inb L t r)).view.writes (Elt F) g4 [⟨Rect.whole S128x256, X⟩])
      ∗ oPt d L (k0_off39 L t (BitVec.ofNat 32 r.val)) (k0_off39_inb L t r)
        ((oSl (k0_off39 L t (BitVec.ofNat 32 r.val)) (k0_off39_inb L t r)).view.writes (Elt F) g5 [⟨Rect.whole S128x256, X⟩])
      ∗ oPt d L (k0_off40 L t (BitVec.ofNat 32 r.val)) (k0_off40_inb L t r)
        ((oSl (k0_off40 L t (BitVec.ofNat 32 r.val)) (k0_off40_inb L t r)).view.writes (Elt F) g6 [⟨Rect.whole S128x256, X⟩])
      ∗ oPt d L (k0_off41 L t (BitVec.ofNat 32 r.val)) (k0_off41_inb L t r)
        ((oSl (k0_off41 L t (BitVec.ofNat 32 r.val)) (k0_off41_inb L t r)).view.writes (Elt F) g7 [⟨Rect.whole S128x256, X⟩]))
      ⊢ iprop(oPt d L (k0_off34 L t (BitVec.ofNat 32 r.val)) (k0_off34_inb L t r) (Cert.PosEmbed.posEmbedT ct rt : Buf (Elt F) (oLoc d))
        ∗ oPt d L (k0_off35 L t (BitVec.ofNat 32 r.val)) (k0_off35_inb L t r) (Cert.PosEmbed.posEmbedT ct rt : Buf (Elt F) (oLoc d))
        ∗ oPt d L (k0_off36 L t (BitVec.ofNat 32 r.val)) (k0_off36_inb L t r) (Cert.PosEmbed.posEmbedT ct rt : Buf (Elt F) (oLoc d))
        ∗ oPt d L (k0_off37 L t (BitVec.ofNat 32 r.val)) (k0_off37_inb L t r) (Cert.PosEmbed.posEmbedT ct rt : Buf (Elt F) (oLoc d))
        ∗ oPt d L (k0_off38 L t (BitVec.ofNat 32 r.val)) (k0_off38_inb L t r) (Cert.PosEmbed.posEmbedT ct rt : Buf (Elt F) (oLoc d))
        ∗ oPt d L (k0_off39 L t (BitVec.ofNat 32 r.val)) (k0_off39_inb L t r) (Cert.PosEmbed.posEmbedT ct rt : Buf (Elt F) (oLoc d))
        ∗ oPt d L (k0_off40 L t (BitVec.ofNat 32 r.val)) (k0_off40_inb L t r) (Cert.PosEmbed.posEmbedT ct rt : Buf (Elt F) (oLoc d))
        ∗ oPt d L (k0_off41 L t (BitVec.ofNat 32 r.val)) (k0_off41_inb L t r) (Cert.PosEmbed.posEmbedT ct rt : Buf (Elt F) (oLoc d))) :=
  Entails.of_eq (sep_congr2 (slice_col d L ct rt _ (k0_off34_inb L t r) X g0 ch ((congrFun (k0_off34_eq L t r) 1).trans hch.symm) (congrFun (k0_off34_eq L t r) 3) hX) (sep_congr2 (slice_col d L ct rt _ (k0_off35_inb L t r) X g1 ch ((congrFun (k0_off35_eq L t r) 1).trans hch.symm) (congrFun (k0_off35_eq L t r) 3) hX) (sep_congr2 (slice_col d L ct rt _ (k0_off36_inb L t r) X g2 ch ((congrFun (k0_off36_eq L t r) 1).trans hch.symm) (congrFun (k0_off36_eq L t r) 3) hX) (sep_congr2 (slice_col d L ct rt _ (k0_off37_inb L t r) X g3 ch ((congrFun (k0_off37_eq L t r) 1).trans hch.symm) (congrFun (k0_off37_eq L t r) 3) hX) (sep_congr2 (slice_col d L ct rt _ (k0_off38_inb L t r) X g4 ch ((congrFun (k0_off38_eq L t r) 1).trans hch.symm) (congrFun (k0_off38_eq L t r) 3) hX) (sep_congr2 (slice_col d L ct rt _ (k0_off39_inb L t r) X g5 ch ((congrFun (k0_off39_eq L t r) 1).trans hch.symm) (congrFun (k0_off39_eq L t r) 3) hX) (sep_congr2 (slice_col d L ct rt _ (k0_off40_inb L t r) X g6 ch ((congrFun (k0_off40_eq L t r) 1).trans hch.symm) (congrFun (k0_off40_eq L t r) 3) hX) (slice_col d L ct rt _ (k0_off41_inb L t r) X g7 ch ((congrFun (k0_off41_eq L t r) 1).trans hch.symm) (congrFun (k0_off41_eq L t r) 3) hX))))))))

/-- The four destinations of the copies of one half of a row channel, all of one buffer. -/
theorem grpB_val (t : Fin k0_t4_loop.trips) (r : Fin 2) (X : S128x256.Idx → Elt F .f32) (g0 g1 g2 g3 : Buf (Elt F) (oLoc d)) (ch : Fin 128)
    (row : S128x256.Idx → Fin 256) (hrow : ∀ y, 128 * r.val + (y 0).val = (row y).val)
    (hch : ch.val = 8 * (L 1).val + 4 * (L 0).val + t.val) (hX : ∀ y : S128x256.Idx, X y = rt (ix2 ch (row y))) :
    iprop(oPt d L (k0_off75 L t (BitVec.ofNat 32 r.val)) (k0_off75_inb L t r)
        ((oSl (k0_off75 L t (BitVec.ofNat 32 r.val)) (k0_off75_inb L t r)).view.writes (Elt F) g0 [⟨Rect.whole S128x256, X⟩])
      ∗ oPt d L (k0_off76 L t (BitVec.ofNat 32 r.val)) (k0_off76_inb L t r)
        ((oSl (k0_off76 L t (BitVec.ofNat 32 r.val)) (k0_off76_inb L t r)).view.writes (Elt F) g1 [⟨Rect.whole S128x256, X⟩])
      ∗ oPt d L (k0_off77 L t (BitVec.ofNat 32 r.val)) (k0_off77_inb L t r)
        ((oSl (k0_off77 L t (BitVec.ofNat 32 r.val)) (k0_off77_inb L t r)).view.writes (Elt F) g2 [⟨Rect.whole S128x256, X⟩])
      ∗ oPt d L (k0_off78 L t (BitVec.ofNat 32 r.val)) (k0_off78_inb L t r)
        ((oSl (k0_off78 L t (BitVec.ofNat 32 r.val)) (k0_off78_inb L t r)).view.writes (Elt F) g3 [⟨Rect.whole S128x256, X⟩]))
      ⊢ iprop(oPt d L (k0_off75 L t (BitVec.ofNat 32 r.val)) (k0_off75_inb L t r) (Cert.PosEmbed.posEmbedT ct rt : Buf (Elt F) (oLoc d))
        ∗ oPt d L (k0_off76 L t (BitVec.ofNat 32 r.val)) (k0_off76_inb L t r) (Cert.PosEmbed.posEmbedT ct rt : Buf (Elt F) (oLoc d))
        ∗ oPt d L (k0_off77 L t (BitVec.ofNat 32 r.val)) (k0_off77_inb L t r) (Cert.PosEmbed.posEmbedT ct rt : Buf (Elt F) (oLoc d))
        ∗ oPt d L (k0_off78 L t (BitVec.ofNat 32 r.val)) (k0_off78_inb L t r) (Cert.PosEmbed.posEmbedT ct rt : Buf (Elt F) (oLoc d))) :=
  Entails.of_eq (sep_congr2 (slice_row d L ct rt _ (k0_off75_inb L t r) X g0 ch row ((congrFun (k0_off75_eq L t r) 1).trans (by show 128 + (8 * (L 1).val + 4 * (L 0).val) + t.val = 128 + ch.val; omega)) (fun y => (congrArg (· + (y 0).val) (congrFun (k0_off75_eq L t r) 2)).trans (hrow y)) hX) (sep_congr2 (slice_row d L ct rt _ (k0_off76_inb L t r) X g1 ch row ((congrFun (k0_off76_eq L t r) 1).trans (by show 128 + (8 * (L 1).val + 4 * (L 0).val) + t.val = 128 + ch.val; omega)) (fun y => (congrArg (· + (y 0).val) (congrFun (k0_off76_eq L t r) 2)).trans (hrow y)) hX) (sep_congr2 (slice_row d L ct rt _ (k0_off77_inb L t r) X g2 ch row ((congrFun (k0_off77_eq L t r) 1).trans (by show 128 + (8 * (L 1).val + 4 * (L 0).val) + t.val = 128 + ch.val; omega)) (fun y => (congrArg (· + (y 0).val) (congrFun (k0_off77_eq L t r) 2)).trans (hrow y)) hX) (slice_row d L ct rt _ (k0_off78_inb L t r) X g3 ch row ((congrFun (k0_off78_eq L t r) 1).trans (by show 128 + (8 * (L 1).val + 4 * (L 0).val) + t.val = 128 + ch.val; omega)) (fun y => (congrArg (· + (y 0).val) (congrFun (k0_off78_eq L t r) 2)).trans (hrow y)) hX))))

theorem grpA0_val (t : Fin k0_t1_loop.trips) (X : S128x256.Idx → Elt F .f32) (g0 g1 g2 g3 g4 g5 g6 g7 : Buf (Elt F) (oLoc d)) (ch : Fin 128)
    (hch : ch.val = 8 * (L 1).val + 4 * (L 0).val + 2 * t.val + 0) (hX : ∀ y : S128x256.Idx, X y = ct (ix2 ch (y 1))) :
    iprop(oPt d L (k0_off34 L t 0#32) (k0_off34_inb L t 0)
        ((oSl (k0_off34 L t 0#32) (k0_off34_inb L t 0)).view.writes (Elt F) g0 [⟨Rect.whole S128x256, X⟩])
      ∗ oPt d L (k0_off35 L t 0#32) (k0_off35_inb L t 0)
        ((oSl (k0_off35 L t 0#32) (k0_off35_inb L t 0)).view.writes (Elt F) g1 [⟨Rect.whole S128x256, X⟩])
      ∗ oPt d L (k0_off36 L t 0#32) (k0_off36_inb L t 0)
        ((oSl (k0_off36 L t 0#32) (k0_off36_inb L t 0)).view.writes (Elt F) g2 [⟨Rect.whole S128x256, X⟩])
      ∗ oPt d L (k0_off37 L t 0#32) (k0_off37_inb L t 0)
        ((oSl (k0_off37 L t 0#32) (k0_off37_inb L t 0)).view.writes (Elt F) g3 [⟨Rect.whole S128x256, X⟩])
      ∗ oPt d L (k0_off38 L t 0#32) (k0_off38_inb L t 0)
        ((oSl (k0_off38 L t 0#32) (k0_off38_inb L t 0)).view.writes (Elt F) g4 [⟨Rect.whole S128x256, X⟩])
      ∗ oPt d L (k0_off39 L t 0#32) (k0_off39_inb L t 0)
        ((oSl (k0_off39 L t 0#32) (k0_off39_inb L t 0)).view.writes (Elt F) g5 [⟨Rect.whole S128x256, X⟩])
      ∗ oPt d L (k0_off40 L t 0#32) (k0_off40_inb L t 0)
        ((oSl (k0_off40 L t 0#32) (k0_off40_inb L t 0)).view.writes (Elt F) g6 [⟨Rect.whole S128x256, X⟩])
      ∗ oPt d L (k0_off41 L t 0#32) (k0_off41_inb L t 0)
        ((oSl (k0_off41 L t 0#32) (k0_off41_inb L t 0)).view.writes (Elt F) g7 [⟨Rect.whole S128x256, X⟩]))
      ⊢ grpA0 d L t (Cert.PosEmbed.posEmbedT ct rt : Buf (Elt F) (oLoc d)) :=
  grpA_val d L ct rt t 0 X g0 g1 g2 g3 g4 g5 g6 g7 ch hch hX

theorem grpA1_val (t : Fin k0_t1_loop.trips) (X : S128x256.Idx → Elt F .f32) (g0 g1 g2 g3 g4 g5 g6 g7 : Buf (Elt F) (oLoc d)) (ch : Fin 128)
    (hch : ch.val = 8 * (L 1).val + 4 * (L 0).val + 2 * t.val + 1) (hX : ∀ y : S128x256.Idx, X y = ct (ix2 ch (y 1))) :
    iprop(oPt d L (k0_off34 L t 1#32) (k0_off34_inb L t 1)
        ((oSl (k0_off34 L t 1#32) (k0_off34_inb L t 1)).view.writes (Elt F) g0 [⟨Rect.whole S128x256, X⟩])
      ∗ oPt d L (k0_off35 L t 1#32) (k0_off35_inb L t 1)
        ((oSl (k0_off35 L t 1#32) (k0_off35_inb L t 1)).view.writes (Elt F) g1 [⟨Rect.whole S128x256, X⟩])
      ∗ oPt d L (k0_off36 L t 1#32) (k0_off36_inb L t 1)
        ((oSl (k0_off36 L t 1#32) (k0_off36_inb L t 1)).view.writes (Elt F) g2 [⟨Rect.whole S128x256, X⟩])
      ∗ oPt d L (k0_off37 L t 1#32) (k0_off37_inb L t 1)
        ((oSl (k0_off37 L t 1#32) (k0_off37_inb L t 1)).view.writes (Elt F) g3 [⟨Rect.whole S128x256, X⟩])
      ∗ oPt d L (k0_off38 L t 1#32) (k0_off38_inb L t 1)
        ((oSl (k0_off38 L t 1#32) (k0_off38_inb L t 1)).view.writes (Elt F) g4 [⟨Rect.whole S128x256, X⟩])
      ∗ oPt d L (k0_off39 L t 1#32) (k0_off39_inb L t 1)
        ((oSl (k0_off39 L t 1#32) (k0_off39_inb L t 1)).view.writes (Elt F) g5 [⟨Rect.whole S128x256, X⟩])
      ∗ oPt d L (k0_off40 L t 1#32) (k0_off40_inb L t 1)
        ((oSl (k0_off40 L t 1#32) (k0_off40_inb L t 1)).view.writes (Elt F) g6 [⟨Rect.whole S128x256, X⟩])
      ∗ oPt d L (k0_off41 L t 1#32) (k0_off41_inb L t 1)
        ((oSl (k0_off41 L t 1#32) (k0_off41_inb L t 1)).view.writes (Elt F) g7 [⟨Rect.whole S128x256, X⟩]))
      ⊢ grpA1 d L t (Cert.PosEmbed.posEmbedT ct rt : Buf (Elt F) (oLoc d)) :=
  grpA_val d L ct rt t 1 X g0 g1 g2 g3 g4 g5 g6 g7 ch hch hX

theorem grpB0_val (t : Fin k0_t4_loop.trips) (X : S128x256.Idx → Elt F .f32) (g0 g1 g2 g3 : Buf (Elt F) (oLoc d)) (ch : Fin 128)
    (hch : ch.val = 8 * (L 1).val + 4 * (L 0).val + t.val) (hX : ∀ y : S128x256.Idx, X y = rt (ix2 ch (rowLo y))) :
    iprop(oPt d L (k0_off75 L t 0#32) (k0_off75_inb L t 0)
        ((oSl (k0_off75 L t 0#32) (k0_off75_inb L t 0)).view.writes (Elt F) g0 [⟨Rect.whole S128x256, X⟩])
      ∗ oPt d L (k0_off76 L t 0#32) (k0_off76_inb L t 0)
        ((oSl (k0_off76 L t 0#32) (k0_off76_inb L t 0)).view.writes (Elt F) g1 [⟨Rect.whole S128x256, X⟩])
      ∗ oPt d L (k0_off77 L t 0#32) (k0_off77_inb L t 0)
        ((oSl (k0_off77 L t 0#32) (k0_off77_inb L t 0)).view.writes (Elt F) g2 [⟨Rect.whole S128x256, X⟩])
      ∗ oPt d L (k0_off78 L t 0#32) (k0_off78_inb L t 0)
        ((oSl (k0_off78 L t 0#32) (k0_off78_inb L t 0)).view.writes (Elt F) g3 [⟨Rect.whole S128x256, X⟩]))
      ⊢ grpB0 d L t (Cert.PosEmbed.posEmbedT ct rt : Buf (Elt F) (oLoc d)) :=
  grpB_val d L ct rt t 0 X g0 g1 g2 g3 ch rowLo (fun y => by show 128 * 0 + (y 0).val = (y 0).val; omega) hch hX

theorem grpB1_val (t : Fin k0_t4_loop.trips) (X : S128x256.Idx → Elt F .f32) (g0 g1 g2 g3 : Buf (Elt F) (oLoc d)) (ch : Fin 128)
    (hch : ch.val = 8 * (L 1).val + 4 * (L 0).val + t.val) (hX : ∀ y : S128x256.Idx, X y = rt (ix2 ch (rowHi y))) :
    iprop(oPt d L (k0_off75 L t 1#32) (k0_off75_inb L t 1)
        ((oSl (k0_off75 L t 1#32) (k0_off75_inb L t 1)).view.writes (Elt F) g0 [⟨Rect.whole S128x256, X⟩])
      ∗ oPt d L (k0_off76 L t 1#32) (k0_off76_inb L t 1)
        ((oSl (k0_off76 L t 1#32) (k0_off76_inb L t 1)).view.writes (Elt F) g1 [⟨Rect.whole S128x256, X⟩])
      ∗ oPt d L (k0_off77 L t 1#32) (k0_off77_inb L t 1)
        ((oSl (k0_off77 L t 1#32) (k0_off77_inb L t 1)).view.writes (Elt F) g2 [⟨Rect.whole S128x256, X⟩])
      ∗ oPt d L (k0_off78 L t 1#32) (k0_off78_inb L t 1)
        ((oSl (k0_off78 L t 1#32) (k0_off78_inb L t 1)).view.writes (Elt F) g3 [⟨Rect.whole S128x256, X⟩]))
      ⊢ grpB1 d L t (Cert.PosEmbed.posEmbedT ct rt : Buf (Elt F) (oLoc d)) :=
  grpB_val d L ct rt t 1 X g0 g1 g2 g3 ch rowHi (fun y => by show 128 * 1 + (y 0).val = 128 + (y 0).val; omega) hch hX

end Groups

end Cert.Proof.KB

end
-- ==== Proof.KBStage.lean ====
/-
  What the staging scratch holds after the two copies, as one function of the transposed tables: its rows 0 .. 3 are
  rows 4 w .. 4 w + 3 of the column table's transpose, its rows 4 .. 7 the same rows of the row table's transpose
  (worker w). The two copies' pieces both agree with that function and between them cover the scratch.
-/
import proofs.«210098_g2860448219651_cont_9to1_994_18_alg».proof.Proof.KBOwn
import Idealize.ShloMosaic.Lib.Pipeline.Value
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "ctV" => (Memref.whole Cert.Kernel.main_v0_scv : Memref Cert.Kernel.sig Kind.scVector Space.hbm Cert.Kernel.S128x256 EltTy.f32)
local notation "rtV" => (Memref.whole Cert.Kernel.main_v1_scv : Memref Cert.Kernel.sig Kind.scVector Space.hbm Cert.Kernel.S128x256 EltTy.f32)
local notation "oV" => (Memref.whole Cert.Kernel.main_v2_scv : Memref Cert.Kernel.sig Kind.scVector Space.hbm Cert.Kernel.S4x256x256x256 EltTy.f32)
local notation "stV" => (Memref.whole Cert.Kernel.cc0_scratch0 : Memref Cert.Kernel.sig Kind.scVector Space.vmem Cert.Kernel.S8x256 EltTy.f32)
local notation "b0V" => (Memref.whole Cert.Kernel.cc0_scratch1 : Memref Cert.Kernel.sig Kind.scVector Space.vmem Cert.Kernel.S128x256 EltTy.f32)
local notation "b1V" => (Memref.whole Cert.Kernel.cc0_scratch2 : Memref Cert.Kernel.sig Kind.scVector Space.vmem Cert.Kernel.S128x256 EltTy.f32)

open Idealize.ShloMosaic.ValueIdx

section Stage

variable (d : Dev nD) (L : grid0.Coords)

/-- The two pieces the copies leave in the staging scratch, the later copy first. -/
def stageL (ct : Buf (Elt F) (ctLoc d)) (rt : Buf (Elt F) (rtLoc d)) : List (View.Piece (Elt F) S8x256 .f32) :=
  [⟨Rect.unit ![4, 0] ![4, 256] inb_S8x256_S4x256_4_0, ReadAs.same.apply (View.read (Elt F) (rtRowK L).view rt)⟩,
   ⟨Rect.unit ![0, 0] ![4, 256] inb_S8x256_S4x256_0_0, ReadAs.same.apply (View.read (Elt F) (ctRowK L).view ct)⟩]

/-- Staged row r < 4 is row 4 w + r of the first table, staged row 4 + r row 4 w + r of the second. -/
def stageG (w : Fin 32) (ct rt : S128x256.Idx → Elt F .f32) : S8x256.Idx → Elt F .f32 := fun y =>
  if h : (y 0).val < 4 then ct (ix2 (n0 := 128) (n1 := 256) ⟨4 * w.val + (y 0).val, by have := w.isLt; omega⟩ (y 1))
  else rt (ix2 (n0 := 128) (n1 := 256) ⟨4 * w.val + ((y 0).val - 4), by have := w.isLt; have h8 : (y 0).val < 8 := (y 0).isLt; omega⟩ (y 1))

/-- A staged row below 4 reads the first table. -/
theorem stageG_lo (w : Fin 32) (ct rt : S128x256.Idx → Elt F .f32) (ρ : Fin 8) (hρ : ρ.val < 4) (c : Fin 256) :
    stageG (F := F) w ct rt (ix2 (n0 := 8) (n1 := 256) ρ c)
      = ct (ix2 (n0 := 128) (n1 := 256) ⟨4 * w.val + ρ.val, by have := w.isLt; omega⟩ c) := by
  unfold stageG
  exact dif_pos hρ

/-- A staged row from 4 up reads the second table. -/
theorem stageG_hi (w : Fin 32) (ct rt : S128x256.Idx → Elt F .f32) (ρ : Fin 8) (hρ : 4 ≤ ρ.val) (c : Fin 256) :
    stageG (F := F) w ct rt (ix2 (n0 := 8) (n1 := 256) ρ c)
      = rt (ix2 (n0 := 128) (n1 := 256) ⟨4 * w.val + (ρ.val - 4), by have := w.isLt; have := ρ.isLt; omega⟩ c) := by
  unfold stageG
  exact dif_neg (by show ¬ ρ.val < 4; omega)

variable [∀ e, Nonempty (Elt F e)]

theorem stage_canon (ct : Buf (Elt F) (ctLoc d)) (rt : Buf (Elt F) (rtLoc d)) (y : S8x256.Idx) :
    View.canon (stageL (F := F) d L ct rt) y = stageG (F := F) (wL L) ct rt y := by
  have h0 : (L 0).val < 2 := (L 0).isLt
  have h1 : (L 1).val < 16 := (L 1).isLt
  have hw : (wL L).val = 2 * (L 1).val + (L 0).val := rfl
  have hy0 : (y 0).val < 8 := (y 0).isLt
  have hy1 : (y 1).val < 256 := (y 1).isLt
  refine View.canon_apply_of_pieces (stageG (F := F) (wL L) ct rt) (stageL (F := F) d L ct rt) ?_ y ?_
  · intro p hp x
    simp only [stageL, List.mem_cons, List.mem_nil_iff, or_false] at hp
    rcases hp with rfl | rfl
    · -- rows 4 .. 7: the second table
      have hx0 : (x 0).val < 4 := (x 0).isLt
      show rt ((rtRowK L).view.emb x) = _
      unfold stageG
      have hn : ¬ ((Rect.unit (s := S8x256) ![4, 0] ![4, 256] inb_S8x256_S4x256_4_0).emb x 0).val < 4 := by
        show ¬ (4 + 1 * (x 0).val < 4); omega
      rw [dif_neg hn]
      congr 1
      funext a
      match a with
      | 0 => exact Fin.ext (by
          show (k0_off1 L) 0 + 1 * (x 0).val = 4 * (wL L).val + ((4 + 1 * (x 0).val) - 4)
          rw [k0_off1_eq, hw]; show 8 * (L 1).val + 4 * (L 0).val + 1 * (x 0).val = _; omega)
      | 1 => exact Fin.ext (by
          show (k0_off1 L) 1 + 1 * (x 1).val = 0 + 1 * (x 1).val
          rw [k0_off1_eq]; rfl)
    · -- rows 0 .. 3: the first table
      have hx0 : (x 0).val < 4 := (x 0).isLt
      show ct ((ctRowK L).view.emb x) = _
      unfold stageG
      have hp : ((Rect.unit (s := S8x256) ![0, 0] ![4, 256] inb_S8x256_S4x256_0_0).emb x 0).val < 4 := by
        show 0 + 1 * (x 0).val < 4; omega
      rw [dif_pos hp]
      congr 1
      funext a
      match a with
      | 0 => exact Fin.ext (by
          show (k0_off1 L) 0 + 1 * (x 0).val = 4 * (wL L).val + (0 + 1 * (x 0).val)
          rw [k0_off1_eq, hw]; show 8 * (L 1).val + 4 * (L 0).val + 1 * (x 0).val = _; omega)
      | 1 => exact Fin.ext (by
          show (k0_off1 L) 1 + 1 * (x 1).val = 0 + 1 * (x 1).val
          rw [k0_off1_eq]; rfl)
  · by_cases h : (y 0).val < 4
    · refine ⟨⟨Rect.unit ![0, 0] ![4, 256] inb_S8x256_S4x256_0_0, _⟩, List.mem_cons_of_mem _ List.mem_cons_self, ?_⟩
      show y ∈ (Rect.unit (s := S8x256) ![0, 0] ![4, 256] inb_S8x256_S4x256_0_0).set
      refine Rect.mem_set_unit.mpr fun a => ?_
      match a with
      | 0 => show 0 ≤ (y 0).val ∧ (y 0).val < 0 + 4; omega
      | 1 => show 0 ≤ (y 1).val ∧ (y 1).val < 0 + 256; omega
    · refine ⟨⟨Rect.unit ![4, 0] ![4, 256] inb_S8x256_S4x256_4_0, _⟩, List.mem_cons_self, ?_⟩
      show y ∈ (Rect.unit (s := S8x256) ![4, 0] ![4, 256] inb_S8x256_S4x256_4_0).set
      refine Rect.mem_set_unit.mpr fun a => ?_
      match a with
      | 0 => show 4 ≤ (y 0).val ∧ (y 0).val < 4 + 4; omega
      | 1 => show 0 ≤ (y 1).val ∧ (y 1).val < 0 + 256; omega

/-- The scratch's contents after the copies, read at an index. -/
theorem stage_contents (ct : Buf (Elt F) (ctLoc d)) (rt : Buf (Elt F) (rtLoc d)) (y : S8x256.Idx) :
    ((stV).view.writes (Elt F) (stV).view.junk (stageL (F := F) d L ct rt)) y = stageG (F := F) (wL L) ct rt y := by
  have h := View.read_writes_junk_apply_eq_canon (Val := Elt F) (stV).view y (stageL (F := F) d L ct rt)
  rw [stage_canon] at h
  exact h

/-- The same with the two pieces' payloads given by equations. -/
theorem stage_contents_of (ct : Buf (Elt F) (ctLoc d)) (rt : Buf (Elt F) (rtLoc d))
    (p4 p0 : S4x256.Idx → Elt F .f32)
    (h4 : p4 = ReadAs.same.apply (View.read (Elt F) (rtRowK L).view rt))
    (h0 : p0 = ReadAs.same.apply (View.read (Elt F) (ctRowK L).view ct)) (y : S8x256.Idx) :
    (stV).view.read (Elt F) ((stV).view.writes (Elt F) (stV).view.junk
      [⟨Rect.unit ![4, 0] ![4, 256] inb_S8x256_S4x256_4_0, p4⟩, ⟨Rect.unit ![0, 0] ![4, 256] inb_S8x256_S4x256_0_0, p0⟩]) y
      = stageG (F := F) (wL L) ct rt y := by
  subst h4 h0
  exact stage_contents d L ct rt y

/-- Sixteen staged entries of row ρ from column c₀ on, read back after the copies: lane x is the staged function at
    (ρ, c₀ + x). -/
theorem stage_read16 (ct : Buf (Elt F) (ctLoc d)) (rt : Buf (Elt F) (rtLoc d)) (ρ c₀ : Nat) (hρ : ρ < 8) (hc : c₀ + 16 ≤ 256)
    (inb : ∀ a, (![ρ, c₀] : Fin 2 → Nat) a + S1x16.size a ≤ S8x256.size a)
    (z : (Rect.unit (s := S8x256) ![ρ, c₀] S1x16.size inb).toLoadRect.shape.Idx) :
    (stV).view.readCov (stageL (F := F) d L ct rt) (Rect.unit (s := S8x256) ![ρ, c₀] S1x16.size inb).toLoadRect z
      = stageG (F := F) (wL L) ct rt (ix2 (n0 := 8) (n1 := 256) ⟨ρ, hρ⟩
          ⟨c₀ + (z 1).val, by have hz : (z 1).val < 16 := (z 1).isLt; omega⟩) := by
  rw [View.readCov_eq_canon']
  show View.canon (stageL (F := F) d L ct rt) ((Rect.unit (s := S8x256) ![ρ, c₀] S1x16.size inb).toLoadRect.idx z) = _
  rw [stage_canon]
  congr 1
  funext a
  have hz0 : (z 0).val < 1 := (z 0).isLt
  match a with
  | 0 => exact Fin.ext (by show ρ + 1 * (z 0).val = ρ; omega)
  | 1 => exact Fin.ext (by show c₀ + 1 * (z 1).val = c₀ + (z 1).val; omega)

/-- The same sixteen entries as a 16-vector (the unit row axis dropped). -/
theorem stage_read16_cast (ct : Buf (Elt F) (ctLoc d)) (rt : Buf (Elt F) (rtLoc d)) (ρ c₀ : Nat) (hρ : ρ < 8) (hc : c₀ + 16 ≤ 256)
    (inb : ∀ a, (![ρ, c₀] : Fin 2 → Nat) a + S1x16.size a ≤ S8x256.size a) (h : S1x16.ShapeCasts S16) (x : Fin 16) :
    shapeCast S16 ((stV).view.readCov (stageL (F := F) d L ct rt) (Rect.unit (s := S8x256) ![ρ, c₀] S1x16.size inb).toLoadRect) h (ix1 x)
      = stageG (F := F) (wL L) ct rt (ix2 (n0 := 8) (n1 := 256) ⟨ρ, hρ⟩ ⟨c₀ + x.val, by have hx := x.isLt; omega⟩) := by
  rw [shapeCast_1a_a_apply]
  exact stage_read16 d L ct rt ρ c₀ hρ hc inb (ix2 (0 : Fin 1) x)

end Stage

end Cert.Proof.KB

end
-- ==== Proof.KBColVal.lean ====
/-
  From the sixteen loaded pieces of a staged row to the plane a column fill leaves: if piece j of the sixteen is the
  staged row's entries 16 j .. 16 j + 15, the filled buffer reads the staged row's entry w at every (r, w).
-/
import proofs.«210098_g2860448219651_cont_9to1_994_18_alg».proof.Proof.KBLoopA0
import proofs.«210098_g2860448219651_cont_9to1_994_18_alg».proof.Proof.KBLoopA1
import proofs.«210098_g2860448219651_cont_9to1_994_18_alg».proof.Proof.KBFill

noncomputable section

namespace Cert.Proof.KB

open Cert.Kernel Cert.Kernel.Gen
open Idealize.ShloMosaic Idealize.ShloMosaic.ValueIdx

variable {F : FTy → Type} [FloatOps F]

/-! With lane x of piece j equal to `SG (ρ, 16 j + x)`, the plane a column fill leaves is `SG (ρ, w)` at every
    (r, w): for the first buffer's loop (twelve pieces arrive as 16-vectors, four as 1 x 16 rows) and for the second's
    (all sixteen as 16-vectors). -/

theorem colPlane2 (SG : S8x256.Idx → Elt F .f32) (ρ : Fin 8) (v15 v18 v21 v24 v27 v30 v33 v36 v39 v42 v45 v48 : FVec F S16 .f32) (v50 v53 v56 v59 : Vec F S1x16 .f32)
    (h0 : ∀ x : Fin 16, v15 (ix1 x) = SG (ix2 (n0 := 8) (n1 := 256) ρ ⟨0 + x.val, by have := x.isLt; omega⟩))
    (h1 : ∀ x : Fin 16, v18 (ix1 x) = SG (ix2 (n0 := 8) (n1 := 256) ρ ⟨16 + x.val, by have := x.isLt; omega⟩))
    (h2 : ∀ x : Fin 16, v21 (ix1 x) = SG (ix2 (n0 := 8) (n1 := 256) ρ ⟨32 + x.val, by have := x.isLt; omega⟩))
    (h3 : ∀ x : Fin 16, v24 (ix1 x) = SG (ix2 (n0 := 8) (n1 := 256) ρ ⟨48 + x.val, by have := x.isLt; omega⟩))
    (h4 : ∀ x : Fin 16, v27 (ix1 x) = SG (ix2 (n0 := 8) (n1 := 256) ρ ⟨64 + x.val, by have := x.isLt; omega⟩))
    (h5 : ∀ x : Fin 16, v30 (ix1 x) = SG (ix2 (n0 := 8) (n1 := 256) ρ ⟨80 + x.val, by have := x.isLt; omega⟩))
    (h6 : ∀ x : Fin 16, v33 (ix1 x) = SG (ix2 (n0 := 8) (n1 := 256) ρ ⟨96 + x.val, by have := x.isLt; omega⟩))
    (h7 : ∀ x : Fin 16, v36 (ix1 x) = SG (ix2 (n0 := 8) (n1 := 256) ρ ⟨112 + x.val, by have := x.isLt; omega⟩))
    (h8 : ∀ x : Fin 16, v39 (ix1 x) = SG (ix2 (n0 := 8) (n1 := 256) ρ ⟨128 + x.val, by have := x.isLt; omega⟩))
    (h9 : ∀ x : Fin 16, v42 (ix1 x) = SG (ix2 (n0 := 8) (n1 := 256) ρ ⟨144 + x.val, by have := x.isLt; omega⟩))
    (h10 : ∀ x : Fin 16, v45 (ix1 x) = SG (ix2 (n0 := 8) (n1 := 256) ρ ⟨160 + x.val, by have := x.isLt; omega⟩))
    (h11 : ∀ x : Fin 16, v48 (ix1 x) = SG (ix2 (n0 := 8) (n1 := 256) ρ ⟨176 + x.val, by have := x.isLt; omega⟩))
    (h12 : ∀ x : Fin 16, v50 (ix2 (0 : Fin 1) x) = SG (ix2 (n0 := 8) (n1 := 256) ρ ⟨192 + x.val, by have := x.isLt; omega⟩))
    (h13 : ∀ x : Fin 16, v53 (ix2 (0 : Fin 1) x) = SG (ix2 (n0 := 8) (n1 := 256) ρ ⟨208 + x.val, by have := x.isLt; omega⟩))
    (h14 : ∀ x : Fin 16, v56 (ix2 (0 : Fin 1) x) = SG (ix2 (n0 := 8) (n1 := 256) ρ ⟨224 + x.val, by have := x.isLt; omega⟩))
    (h15 : ∀ x : Fin 16, v59 (ix2 (0 : Fin 1) x) = SG (ix2 (n0 := 8) (n1 := 256) ρ ⟨240 + x.val, by have := x.isLt; omega⟩))
    (y : S128x256.Idx) : colG (u2 v15 v18 v21 v24 v27 v30 v33 v36 v39 v42 v45 v48 v50 v53 v56 v59) y = SG (ix2 (n0 := 8) (n1 := 256) ρ (y 1)) := by
  have h : ∀ (j x : Fin 16), (![v15 (ix1 x), v18 (ix1 x), v21 (ix1 x), v24 (ix1 x), v27 (ix1 x), v30 (ix1 x), v33 (ix1 x), v36 (ix1 x), v39 (ix1 x), v42 (ix1 x), v45 (ix1 x), v48 (ix1 x), v50 (ix2 (0 : Fin 1) x), v53 (ix2 (0 : Fin 1) x), v56 (ix2 (0 : Fin 1) x), v59 (ix2 (0 : Fin 1) x)] : Fin 16 → Elt F .f32) j
      = SG (ix2 (n0 := 8) (n1 := 256) ρ ⟨16 * j.val + x.val, by have := j.isLt; have := x.isLt; omega⟩) := by
    intro j x
    fin_cases j
    · exact h0 x
    · exact h1 x
    · exact h2 x
    · exact h3 x
    · exact h4 x
    · exact h5 x
    · exact h6 x
    · exact h7 x
    · exact h8 x
    · exact h9 x
    · exact h10 x
    · exact h11 x
    · exact h12 x
    · exact h13 x
    · exact h14 x
    · exact h15 x
  unfold colG
  rw [u2_apply, h]
  congr 2
  exact Fin.ext (Nat.div_add_mod _ _)

theorem colPlane3 (SG : S8x256.Idx → Elt F .f32) (ρ : Fin 8) (v103 v106 v109 v112 v115 v118 v121 v124 v127 v130 v133 v136 v139 v142 v145 v148 : FVec F S16 .f32)
    (h0 : ∀ x : Fin 16, v103 (ix1 x) = SG (ix2 (n0 := 8) (n1 := 256) ρ ⟨0 + x.val, by have := x.isLt; omega⟩))
    (h1 : ∀ x : Fin 16, v106 (ix1 x) = SG (ix2 (n0 := 8) (n1 := 256) ρ ⟨16 + x.val, by have := x.isLt; omega⟩))
    (h2 : ∀ x : Fin 16, v109 (ix1 x) = SG (ix2 (n0 := 8) (n1 := 256) ρ ⟨32 + x.val, by have := x.isLt; omega⟩))
    (h3 : ∀ x : Fin 16, v112 (ix1 x) = SG (ix2 (n0 := 8) (n1 := 256) ρ ⟨48 + x.val, by have := x.isLt; omega⟩))
    (h4 : ∀ x : Fin 16, v115 (ix1 x) = SG (ix2 (n0 := 8) (n1 := 256) ρ ⟨64 + x.val, by have := x.isLt; omega⟩))
    (h5 : ∀ x : Fin 16, v118 (ix1 x) = SG (ix2 (n0 := 8) (n1 := 256) ρ ⟨80 + x.val, by have := x.isLt; omega⟩))
    (h6 : ∀ x : Fin 16, v121 (ix1 x) = SG (ix2 (n0 := 8) (n1 := 256) ρ ⟨96 + x.val, by have := x.isLt; omega⟩))
    (h7 : ∀ x : Fin 16, v124 (ix1 x) = SG (ix2 (n0 := 8) (n1 := 256) ρ ⟨112 + x.val, by have := x.isLt; omega⟩))
    (h8 : ∀ x : Fin 16, v127 (ix1 x) = SG (ix2 (n0 := 8) (n1 := 256) ρ ⟨128 + x.val, by have := x.isLt; omega⟩))
    (h9 : ∀ x : Fin 16, v130 (ix1 x) = SG (ix2 (n0 := 8) (n1 := 256) ρ ⟨144 + x.val, by have := x.isLt; omega⟩))
    (h10 : ∀ x : Fin 16, v133 (ix1 x) = SG (ix2 (n0 := 8) (n1 := 256) ρ ⟨160 + x.val, by have := x.isLt; omega⟩))
    (h11 : ∀ x : Fin 16, v136 (ix1 x) = SG (ix2 (n0 := 8) (n1 := 256) ρ ⟨176 + x.val, by have := x.isLt; omega⟩))
    (h12 : ∀ x : Fin 16, v139 (ix1 x) = SG (ix2 (n0 := 8) (n1 := 256) ρ ⟨192 + x.val, by have := x.isLt; omega⟩))
    (h13 : ∀ x : Fin 16, v142 (ix1 x) = SG (ix2 (n0 := 8) (n1 := 256) ρ ⟨208 + x.val, by have := x.isLt; omega⟩))
    (h14 : ∀ x : Fin 16, v145 (ix1 x) = SG (ix2 (n0 := 8) (n1 := 256) ρ ⟨224 + x.val, by have := x.isLt; omega⟩))
    (h15 : ∀ x : Fin 16, v148 (ix1 x) = SG (ix2 (n0 := 8) (n1 := 256) ρ ⟨240 + x.val, by have := x.isLt; omega⟩))
    (y : S128x256.Idx) : colG (u3 v103 v106 v109 v112 v115 v118 v121 v124 v127 v130 v133 v136 v139 v142 v145 v148) y = SG (ix2 (n0 := 8) (n1 := 256) ρ (y 1)) := by
  have h : ∀ (j x : Fin 16), (![v103 (ix1 x), v106 (ix1 x), v109 (ix1 x), v112 (ix1 x), v115 (ix1 x), v118 (ix1 x), v121 (ix1 x), v124 (ix1 x), v127 (ix1 x), v130 (ix1 x), v133 (ix1 x), v136 (ix1 x), v139 (ix1 x), v142 (ix1 x), v145 (ix1 x), v148 (ix1 x)] : Fin 16 → Elt F .f32) j
      = SG (ix2 (n0 := 8) (n1 := 256) ρ ⟨16 * j.val + x.val, by have := j.isLt; have := x.isLt; omega⟩) := by
    intro j x
    fin_cases j
    · exact h0 x
    · exact h1 x
    · exact h2 x
    · exact h3 x
    · exact h4 x
    · exact h5 x
    · exact h6 x
    · exact h7 x
    · exact h8 x
    · exact h9 x
    · exact h10 x
    · exact h11 x
    · exact h12 x
    · exact h13 x
    · exact h14 x
    · exact h15 x
  unfold colG
  rw [u3_apply, h]
  congr 2
  exact Fin.ext (Nat.div_add_mod _ _)

end Cert.Proof.KB

end
-- ==== Proof.KBTile.lean ====
/-
  The task of one vector subcore, at a symbolic worker.

  Handed its four rows of each transposed table and its channels of the result, the worker copies the eight rows into
  its staging scratch, and for each of its four table columns fills a 128 x 256 buffer with the plane of that channel
  (a column channel repeats the staged row along the rows of the plane; a row channel repeats each staged entry along
  a row of the plane, half a plane at a time) and copies the buffer out to that channel's plane in every batch. Two
  buffers alternate, each with a semaphore of its own; a buffer is refilled only after every copy out of it has been
  waited for, so between a batch's first issue and its last wait nothing touches the buffer or the planes it lands in.
  The worker's entries of the result are held as the sixty-four half planes the copies land in; at the end each holds
  the copied buffer, which read at an index is the staged row (column channels) or the staged entry (row channels),
  that is the transposed tables' entry the position embedding names there. It hands back its rows unchanged and its
  channels at the position embedding of the transposed tables.
-/
import proofs.«210098_g2860448219651_cont_9to1_994_18_alg».proof.Proof.KBOwn
import proofs.«210098_g2860448219651_cont_9to1_994_18_alg».proof.Proof.KBLoopA0
import proofs.«210098_g2860448219651_cont_9to1_994_18_alg».proof.Proof.KBLoopA1
import proofs.«210098_g2860448219651_cont_9to1_994_18_alg».proof.Proof.KBLoopB0
import proofs.«210098_g2860448219651_cont_9to1_994_18_alg».proof.Proof.KBLoopB1
import proofs.«210098_g2860448219651_cont_9to1_994_18_alg».proof.Proof.KBOut
import proofs.«210098_g2860448219651_cont_9to1_994_18_alg».proof.Proof.KBVal
import proofs.«210098_g2860448219651_cont_9to1_994_18_alg».proof.Proof.KBStage
import proofs.«210098_g2860448219651_cont_9to1_994_18_alg».proof.Proof.KBColVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "ctV" => (Memref.whole Cert.Kernel.main_v0_scv : Memref Cert.Kernel.sig Kind.scVector Space.hbm Cert.Kernel.S128x256 EltTy.f32)
local notation "rtV" => (Memref.whole Cert.Kernel.main_v1_scv : Memref Cert.Kernel.sig Kind.scVector Space.hbm Cert.Kernel.S128x256 EltTy.f32)
local notation "oV" => (Memref.whole Cert.Kernel.main_v2_scv : Memref Cert.Kernel.sig Kind.scVector Space.hbm Cert.Kernel.S4x256x256x256 EltTy.f32)
local notation "stV" => (Memref.whole Cert.Kernel.cc0_scratch0 : Memref Cert.Kernel.sig Kind.scVector Space.vmem Cert.Kernel.S8x256 EltTy.f32)
local notation "b0V" => (Memref.whole Cert.Kernel.cc0_scratch1 : Memref Cert.Kernel.sig Kind.scVector Space.vmem Cert.Kernel.S128x256 EltTy.f32)
local notation "b1V" => (Memref.whole Cert.Kernel.cc0_scratch2 : Memref Cert.Kernel.sig Kind.scVector Space.vmem Cert.Kernel.S128x256 EltTy.f32)

open Idealize.ShloMosaic.ValueIdx

variable [FloatOps F] [∀ e, Nonempty (Elt F e)]

omit [FloatOps F] [∀ e, Nonempty (Elt F e)] in
/-- A recorded wait at no call index keeps the record within what the task may leave. -/
theorem waits_insert_none {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

set_option maxHeartbeats 16000000 in
set_option maxRecDepth 65536 in
/-- The task on vector subcore `(L 0, L 1)` of device `d`. -/
theorem tile_body (hF : (K (F := F)).Facts) (d : Dev nD) (L : grid0.Coords)
    (ct : Buf (Elt F) (ctLoc d)) (rt : Buf (Elt F) (rtLoc d)) (fo : Buf (Elt F) (oLoc d))
    (O : CellTallies nD τ sig (HIx 1)) (W : Waits sig (HIx 1)) (hO : ∀ g, O g none = 0) :
    iprop(levAts (K (F := F)).L (K (F := F)).lev ∗ emp ∗ tileIn d (wL L) ct rt fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L ctV (Memref.isWhole_whole _) rtV (Memref.isWhole_whole _) oV (Memref.isWhole_whole _)
            stV (Memref.isWhole_whole _) b0V (Memref.isWhole_whole _) b1V (Memref.isWhole_whole _)
            cc0_scratch3 cc0_scratch4 cc0_scoped0 cc0_scoped1)
          fun _ => iprop(tileOut d (wL L) ct rt ∗ scopedBufs (V d (cV L) (jV L)) ∗ scopedSems0 (V d (cV L) (jV L))
            ∗ ∃ W', ⌜∀ p ∈ W', p ∈ W ∨ p.2 = none⌝ ∗ owes (V d (cV L) (jV L)) O W') := by
  -- the program, with its two outer loops' regions and the four parts that hold the fill loops laid open
  simp only [cc0__sc_body_eq_skeleton]; unfold cc0__sc_body_skel
  simp only [k0_part99_eq_skeleton]; unfold k0_part99_skel
  unfold k0_t1_body k0_t4_body
  simp only [k0_part4_eq_skeleton, k0_part7_eq_skeleton, k0_part97_eq_skeleton, k0_part98_eq_skeleton]
  unfold k0_part4_skel k0_part7_skel k0_part97_skel k0_part98_skel
  -- what the subcore holds
  rw [(K (F := F)).scopedBufs_V hF d (cV L) (jV L), SparseCore.Cfg.scopedSems0_V (Val := Elt F) d (cV L) (jV L), ownSems0_V, ownBufs_V]
  unfold tileIn
  iintro ⟨#Hlv, -, ⟨Hct, Hrt, Ho⟩, ⟨⟨%fs, Hs⟩, ⟨%f0, Hb0⟩, ⟨%f1, Hb1⟩, Hbufs⟩, ⟨HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hct' := (Entails.of_eq (pts_ctRowK (F := F) d L _).symm) $$ Hct
  ihave Hrt' := (Entails.of_eq (pts_rtRowK (F := F) d L _).symm) $$ Hrt
  ihave Hs' := (Entails.of_eq (pts_stV (F := F) d L _).symm) $$ Hs
  ihave Hb0' := (Entails.of_eq (pts_b0V (F := F) d L _).symm) $$ Hb0
  ihave Hb1' := (Entails.of_eq (pts_b1V (F := F) d L _).symm) $$ Hb1
  -- the worker's entries of the result as the sixty-four half planes the copies land in
  ihave Hsl := (oSplit (F := F) d L fo).1 $$ Ho
  icases Hsl with ⟨⟨HoA00_0, HoA00_1, HoA00_2, HoA00_3, HoA00_4, HoA00_5, HoA00_6, HoA00_7⟩, ⟨HoA01_0, HoA01_1, HoA01_2, HoA01_3, HoA01_4, HoA01_5, HoA01_6, HoA01_7⟩, ⟨HoA10_0, HoA10_1, HoA10_2, HoA10_3, HoA10_4, HoA10_5, HoA10_6, HoA10_7⟩, ⟨HoA11_0, HoA11_1, HoA11_2, HoA11_3, HoA11_4, HoA11_5, HoA11_6, HoA11_7⟩, ⟨HoB00_0, HoB00_1, HoB00_2, HoB00_3⟩, ⟨HoB01_0, HoB01_1, HoB01_2, HoB01_3⟩, ⟨HoB10_0, HoB10_1, HoB10_2, HoB10_3⟩, ⟨HoB11_0, HoB11_1, HoB11_2, HoB11_3⟩, ⟨HoB20_0, HoB20_1, HoB20_2, HoB20_3⟩, ⟨HoB21_0, HoB21_1, HoB21_2, HoB21_3⟩, ⟨HoB30_0, HoB30_1, HoB30_2, HoB30_3⟩, ⟨HoB31_0, HoB31_1, HoB31_2, HoB31_3⟩⟩
  -- the first outer loop: batches of eight copies per buffer
  have hpA : Transfers.BatchOf (V d (cV L) (jV L)) (SemLoc.dma cc0_scratch3.sem) 8 (windows := true) := trivial
  have hpB : Transfers.BatchOf (V d (cV L) (jV L)) (SemLoc.dma cc0_scratch4.sem) 8 (windows := true) := trivial
  set_option sl_exec.unrollTrips 2 in
  sl_exec_parts
  -- the second: batches of four
  clear hpA hpB
  have hpA : Transfers.BatchOf (V d (cV L) (jV L)) (SemLoc.dma cc0_scratch3.sem) 4 (windows := true) := trivial
  have hpB : Transfers.BatchOf (V d (cV L) (jV L)) (SemLoc.dma cc0_scratch4.sem) 4 (windows := true) := trivial
  set_option sl_exec.unrollTrips 4 in
  sl_exec_parts
  -- what each copied buffer held: a column channel's plane is the staged row, a row channel's the staged entries
  have hXA00 : ∀ y : S128x256.Idx, tile_body.sl.dma0_2 (F := F) d L ct rt f0 y
      = ct (ix2 (n0 := 128) (n1 := 256) ⟨4 * (wL L).val + 0, by have := (wL L).isLt; omega⟩ (y 1)) := by
    intro y
    unfold tile_body.sl.dma0_2
    rw [ReadAs.apply_same, fill_t2]
    exact (colPlane2 (stageG (F := F) (wL L) ct rt) ⟨0, by decide⟩ _ _ _ _ _ _ _ _ _ _ _ _ _ _ _ _
      (fun x => stage_read16_cast d L ct rt 0 0 (by decide) (by decide) _ _ x)
      (fun x => stage_read16_cast d L ct rt 0 16 (by decide) (by decide) _ _ x)
      (fun x => stage_read16_cast d L ct rt 0 32 (by decide) (by decide) _ _ x)
      (fun x => stage_read16_cast d L ct rt 0 48 (by decide) (by decide) _ _ x)
      (fun x => stage_read16_cast d L ct rt 0 64 (by decide) (by decide) _ _ x)
      (fun x => stage_read16_cast d L ct rt 0 80 (by decide) (by decide) _ _ x)
      (fun x => stage_read16_cast d L ct rt 0 96 (by decide) (by decide) _ _ x)
      (fun x => stage_read16_cast d L ct rt 0 112 (by decide) (by decide) _ _ x)
      (fun x => stage_read16_cast d L ct rt 0 128 (by decide) (by decide) _ _ x)
      (fun x => stage_read16_cast d L ct rt 0 144 (by decide) (by decide) _ _ x)
      (fun x => stage_read16_cast d L ct rt 0 160 (by decide) (by decide) _ _ x)
      (fun x => stage_read16_cast d L ct rt 0 176 (by decide) (by decide) _ _ x)
      (fun x => stage_read16 d L ct rt 0 192 (by decide) (by decide) _ (ix2 (0 : Fin 1) x))
      (fun x => stage_read16 d L ct rt 0 208 (by decide) (by decide) _ (ix2 (0 : Fin 1) x))
      (fun x => stage_read16 d L ct rt 0 224 (by decide) (by decide) _ (ix2 (0 : Fin 1) x))
      (fun x => stage_read16 d L ct rt 0 240 (by decide) (by decide) _ (ix2 (0 : Fin 1) x))
      y).trans (stageG_lo _ _ _ _ (by decide) _)
  have hXA01 : ∀ y : S128x256.Idx, tile_body.sl.dma0_3 (F := F) d L ct rt f1 y
      = ct (ix2 (n0 := 128) (n1 := 256) ⟨4 * (wL L).val + 1, by have := (wL L).isLt; omega⟩ (y 1)) := by
    intro y
    unfold tile_body.sl.dma0_3
    rw [ReadAs.apply_same, fill_t3]
    exact (colPlane3 (stageG (F := F) (wL L) ct rt) ⟨1, by decide⟩ _ _ _ _ _ _ _ _ _ _ _ _ _ _ _ _
      (fun x => stage_read16_cast d L ct rt 1 0 (by decide) (by decide) _ _ x)
      (fun x => stage_read16_cast d L ct rt 1 16 (by decide) (by decide) _ _ x)
      (fun x => stage_read16_cast d L ct rt 1 32 (by decide) (by decide) _ _ x)
      (fun x => stage_read16_cast d L ct rt 1 48 (by decide) (by decide) _ _ x)
      (fun x => stage_read16_cast d L ct rt 1 64 (by decide) (by decide) _ _ x)
      (fun x => stage_read16_cast d L ct rt 1 80 (by decide) (by decide) _ _ x)
      (fun x => stage_read16_cast d L ct rt 1 96 (by decide) (by decide) _ _ x)
      (fun x => stage_read16_cast d L ct rt 1 112 (by decide) (by decide) _ _ x)
      (fun x => stage_read16_cast d L ct rt 1 128 (by decide) (by decide) _ _ x)
      (fun x => stage_read16_cast d L ct rt 1 144 (by decide) (by decide) _ _ x)
      (fun x => stage_read16_cast d L ct rt 1 160 (by decide) (by decide) _ _ x)
      (fun x => stage_read16_cast d L ct rt 1 176 (by decide) (by decide) _ _ x)
      (fun x => stage_read16_cast d L ct rt 1 192 (by decide) (by decide) _ _ x)
      (fun x => stage_read16_cast d L ct rt 1 208 (by decide) (by decide) _ _ x)
      (fun x => stage_read16_cast d L ct rt 1 224 (by decide) (by decide) _ _ x)
      (fun x => stage_read16_cast d L ct rt 1 240 (by decide) (by decide) _ _ x)
      y).trans (stageG_lo _ _ _ _ (by decide) _)
  have hXA10 : ∀ y : S128x256.Idx, tile_body.sl.dma0_4 (F := F) d L ct rt f0 y
      = ct (ix2 (n0 := 128) (n1 := 256) ⟨4 * (wL L).val + 2, by have := (wL L).isLt; omega⟩ (y 1)) := by
    intro y
    unfold tile_body.sl.dma0_4
    rw [ReadAs.apply_same, View.writes_append, fill_t2]
    exact (colPlane2 (stageG (F := F) (wL L) ct rt) ⟨2, by decide⟩ _ _ _ _ _ _ _ _ _ _ _ _ _ _ _ _
      (fun x => stage_read16_cast d L ct rt 2 0 (by decide) (by decide) _ _ x)
      (fun x => stage_read16_cast d L ct rt 2 16 (by decide) (by decide) _ _ x)
      (fun x => stage_read16_cast d L ct rt 2 32 (by decide) (by decide) _ _ x)
      (fun x => stage_read16_cast d L ct rt 2 48 (by decide) (by decide) _ _ x)
      (fun x => stage_read16_cast d L ct rt 2 64 (by decide) (by decide) _ _ x)
      (fun x => stage_read16_cast d L ct rt 2 80 (by decide) (by decide) _ _ x)
      (fun x => stage_read16_cast d L ct rt 2 96 (by decide) (by decide) _ _ x)
      (fun x => stage_read16_cast d L ct rt 2 112 (by decide) (by decide) _ _ x)
      (fun x => stage_read16_cast d L ct rt 2 128 (by decide) (by decide) _ _ x)
      (fun x => stage_read16_cast d L ct rt 2 144 (by decide) (by decide) _ _ x)
      (fun x => stage_read16_cast d L ct rt 2 160 (by decide) (by decide) _ _ x)
      (fun x => stage_read16_cast d L ct rt 2 176 (by decide) (by decide) _ _ x)
      (fun x => stage_read16 d L ct rt 2 192 (by decide) (by decide) _ (ix2 (0 : Fin 1) x))
      (fun x => stage_read16 d L ct rt 2 208 (by decide) (by decide) _ (ix2 (0 : Fin 1) x))
      (fun x => stage_read16 d L ct rt 2 224 (by decide) (by decide) _ (ix2 (0 : Fin 1) x))
      (fun x => stage_read16 d L ct rt 2 240 (by decide) (by decide) _ (ix2 (0 : Fin 1) x))
      y).trans (stageG_lo _ _ _ _ (by decide) _)
  have hXA11 : ∀ y : S128x256.Idx, tile_body.sl.dma0_5 (F := F) d L ct rt f1 y
      = ct (ix2 (n0 := 128) (n1 := 256) ⟨4 * (wL L).val + 3, by have := (wL L).isLt; omega⟩ (y 1)) := by
    intro y
    unfold tile_body.sl.dma0_5
    rw [ReadAs.apply_same, View.writes_append, fill_t3]
    exact (colPlane3 (stageG (F := F) (wL L) ct rt) ⟨3, by decide⟩ _ _ _ _ _ _ _ _ _ _ _ _ _ _ _ _
      (fun x => stage_read16_cast d L ct rt 3 0 (by decide) (by decide) _ _ x)
      (fun x => stage_read16_cast d L ct rt 3 16 (by decide) (by decide) _ _ x)
      (fun x => stage_read16_cast d L ct rt 3 32 (by decide) (by decide) _ _ x)
      (fun x => stage_read16_cast d L ct rt 3 48 (by decide) (by decide) _ _ x)
      (fun x => stage_read16_cast d L ct rt 3 64 (by decide) (by decide) _ _ x)
      (fun x => stage_read16_cast d L ct rt 3 80 (by decide) (by decide) _ _ x)
      (fun x => stage_read16_cast d L ct rt 3 96 (by decide) (by decide) _ _ x)
      (fun x => stage_read16_cast d L ct rt 3 112 (by decide) (by decide) _ _ x)
      (fun x => stage_read16_cast d L ct rt 3 128 (by decide) (by decide) _ _ x)
      (fun x => stage_read16_cast d L ct rt 3 144 (by decide) (by decide) _ _ x)
      (fun x => stage_read16_cast d L ct rt 3 160 (by decide) (by decide) _ _ x)
      (fun x => stage_read16_cast d L ct rt 3 176 (by decide) (by decide) _ _ x)
      (fun x => stage_read16_cast d L ct rt 3 192 (by decide) (by decide) _ _ x)
      (fun x => stage_read16_cast d L ct rt 3 208 (by decide) (by decide) _ _ x)
      (fun x => stage_read16_cast d L ct rt 3 224 (by decide) (by decide) _ _ x)
      (fun x => stage_read16_cast d L ct rt 3 240 (by decide) (by decide) _ _ x)
      y).trans (stageG_lo _ _ _ _ (by decide) _)
  have hXB00 : ∀ y : S128x256.Idx, tile_body.sl.dma0_6 (F := F) d L ct rt f0 y
      = rt (ix2 (n0 := 128) (n1 := 256) ⟨4 * (wL L).val + 0, by have := (wL L).isLt; omega⟩ (rowLo y)) := by
    intro y
    unfold tile_body.sl.dma0_6
    rw [ReadAs.apply_same, View.writes_append, fill_t5]
    exact (stage_contents_of (F := F) d L ct rt _ _ rfl rfl _).trans (stageG_hi _ _ _ _ (by show 4 ≤ 4 + _; omega) _)
  have hXB01 : ∀ y : S128x256.Idx, tile_body.sl.dma0_7 (F := F) d L ct rt f1 y
      = rt (ix2 (n0 := 128) (n1 := 256) ⟨4 * (wL L).val + 0, by have := (wL L).isLt; omega⟩ (rowHi y)) := by
    intro y
    unfold tile_body.sl.dma0_7
    rw [ReadAs.apply_same, View.writes_append, fill_t6]
    exact (stage_contents_of (F := F) d L ct rt _ _ rfl rfl _).trans (stageG_hi _ _ _ _ (by show 4 ≤ 4 + _; omega) _)
  have hXB10 : ∀ y : S128x256.Idx, tile_body.sl.dma0_8 (F := F) d L ct rt f0 y
      = rt (ix2 (n0 := 128) (n1 := 256) ⟨4 * (wL L).val + 1, by have := (wL L).isLt; omega⟩ (rowLo y)) := by
    intro y
    unfold tile_body.sl.dma0_8
    rw [ReadAs.apply_same, View.writes_append, fill_t5]
    exact (stage_contents_of (F := F) d L ct rt _ _ rfl rfl _).trans (stageG_hi _ _ _ _ (by show 4 ≤ 4 + _; omega) _)
  have hXB11 : ∀ y : S128x256.Idx, tile_body.sl.dma0_9 (F := F) d L ct rt f1 y
      = rt (ix2 (n0 := 128) (n1 := 256) ⟨4 * (wL L).val + 1, by have := (wL L).isLt; omega⟩ (rowHi y)) := by
    intro y
    unfold tile_body.sl.dma0_9
    rw [ReadAs.apply_same, View.writes_append, fill_t6]
    exact (stage_contents_of (F := F) d L ct rt _ _ rfl rfl _).trans (stageG_hi _ _ _ _ (by show 4 ≤ 4 + _; omega) _)
  have hXB20 : ∀ y : S128x256.Idx, tile_body.sl.dma0_10 (F := F) d L ct rt f0 y
      = rt (ix2 (n0 := 128) (n1 := 256) ⟨4 * (wL L).val + 2, by have := (wL L).isLt; omega⟩ (rowLo y)) := by
    intro y
    unfold tile_body.sl.dma0_10
    rw [ReadAs.apply_same, View.writes_append, fill_t5]
    exact (stage_contents_of (F := F) d L ct rt _ _ rfl rfl _).trans (stageG_hi _ _ _ _ (by show 4 ≤ 4 + _; omega) _)
  have hXB21 : ∀ y : S128x256.Idx, tile_body.sl.dma0_11 (F := F) d L ct rt f1 y
      = rt (ix2 (n0 := 128) (n1 := 256) ⟨4 * (wL L).val + 2, by have := (wL L).isLt; omega⟩ (rowHi y)) := by
    intro y
    unfold tile_body.sl.dma0_11
    rw [ReadAs.apply_same, View.writes_append, fill_t6]
    exact (stage_contents_of (F := F) d L ct rt _ _ rfl rfl _).trans (stageG_hi _ _ _ _ (by show 4 ≤ 4 + _; omega) _)
  have hXB30 : ∀ y : S128x256.Idx, tile_body.sl.dma0_12 (F := F) d L ct rt f0 y
      = rt (ix2 (n0 := 128) (n1 := 256) ⟨4 * (wL L).val + 3, by have := (wL L).isLt; omega⟩ (rowLo y)) := by
    intro y
    unfold tile_body.sl.dma0_12
    rw [ReadAs.apply_same, View.writes_append, fill_t5]
    exact (stage_contents_of (F := F) d L ct rt _ _ rfl rfl _).trans (stageG_hi _ _ _ _ (by show 4 ≤ 4 + _; omega) _)
  have hXB31 : ∀ y : S128x256.Idx, tile_body.sl.dma0_13 (F := F) d L ct rt f1 y
      = rt (ix2 (n0 := 128) (n1 := 256) ⟨4 * (wL L).val + 3, by have := (wL L).isLt; omega⟩ (rowHi y)) := by
    intro y
    unfold tile_body.sl.dma0_13
    rw [ReadAs.apply_same, View.writes_append, fill_t6]
    exact (stage_contents_of (F := F) d L ct rt _ _ rfl rfl _).trans (stageG_hi _ _ _ _ (by show 4 ≤ 4 + _; omega) _)
  sl_step
  isplitl [Hct' Hrt' HoA00_0 HoA00_1 HoA00_2 HoA00_3 HoA00_4 HoA00_5 HoA00_6 HoA00_7 HoA01_0 HoA01_1 HoA01_2 HoA01_3 HoA01_4 HoA01_5 HoA01_6 HoA01_7 HoA10_0 HoA10_1 HoA10_2 HoA10_3 HoA10_4 HoA10_5 HoA10_6 HoA10_7 HoA11_0 HoA11_1 HoA11_2 HoA11_3 HoA11_4 HoA11_5 HoA11_6 HoA11_7 HoB00_0 HoB00_1 HoB00_2 HoB00_3 HoB01_0 HoB01_1 HoB01_2 HoB01_3 HoB10_0 HoB10_1 HoB10_2 HoB10_3 HoB11_0 HoB11_1 HoB11_2 HoB11_3 HoB20_0 HoB20_1 HoB20_2 HoB20_3 HoB21_0 HoB21_1 HoB21_2 HoB21_3 HoB30_0 HoB30_1 HoB30_2 HoB30_3 HoB31_0 HoB31_1 HoB31_2 HoB31_3]
  · unfold tileOut
    isplitl [Hct']; · iapply (Entails.of_eq (pts_ctRowK (F := F) d L _)); iexact Hct'
    isplitl [Hrt']; · iapply (Entails.of_eq (pts_rtRowK (F := F) d L _)); iexact Hrt'
    ihave VA00 := (grpA0_val (F := F) d L ct rt (tA 0) _ _ _ _ _ _ _ _ _ ⟨4 * (wL L).val + 0, by have := (wL L).isLt; omega⟩ (by show 4 * (2 * (L 1).val + (L 0).val) + 0 = 8 * (L 1).val + 4 * (L 0).val + 2 * 0 + 0; omega) hXA00) $$ [HoA00_0 HoA00_1 HoA00_2 HoA00_3 HoA00_4 HoA00_5 HoA00_6 HoA00_7]
    · isplitl [HoA00_0]; · iexact HoA00_0
      isplitl [HoA00_1]; · iexact HoA00_1
      isplitl [HoA00_2]; · iexact HoA00_2
      isplitl [HoA00_3]; · iexact HoA00_3
      isplitl [HoA00_4]; · iexact HoA00_4
      isplitl [HoA00_5]; · iexact HoA00_5
      isplitl [HoA00_6]; · iexact HoA00_6
      iexact HoA00_7
    ihave VA01 := (grpA1_val (F := F) d L ct rt (tA 0) _ _ _ _ _ _ _ _ _ ⟨4 * (wL L).val + 1, by have := (wL L).isLt; omega⟩ (by show 4 * (2 * (L 1).val + (L 0).val) + 1 = 8 * (L 1).val + 4 * (L 0).val + 2 * 0 + 1; omega) hXA01) $$ [HoA01_0 HoA01_1 HoA01_2 HoA01_3 HoA01_4 HoA01_5 HoA01_6 HoA01_7]
    · isplitl [HoA01_0]; · iexact HoA01_0
      isplitl [HoA01_1]; · iexact HoA01_1
      isplitl [HoA01_2]; · iexact HoA01_2
      isplitl [HoA01_3]; · iexact HoA01_3
      isplitl [HoA01_4]; · iexact HoA01_4
      isplitl [HoA01_5]; · iexact HoA01_5
      isplitl [HoA01_6]; · iexact HoA01_6
      iexact HoA01_7
    ihave VA10 := (grpA0_val (F := F) d L ct rt (tA 1) _ _ _ _ _ _ _ _ _ ⟨4 * (wL L).val + 2, by have := (wL L).isLt; omega⟩ (by show 4 * (2 * (L 1).val + (L 0).val) + 2 = 8 * (L 1).val + 4 * (L 0).val + 2 * 1 + 0; omega) hXA10) $$ [HoA10_0 HoA10_1 HoA10_2 HoA10_3 HoA10_4 HoA10_5 HoA10_6 HoA10_7]
    · isplitl [HoA10_0]; · iexact HoA10_0
      isplitl [HoA10_1]; · iexact HoA10_1
      isplitl [HoA10_2]; · iexact HoA10_2
      isplitl [HoA10_3]; · iexact HoA10_3
      isplitl [HoA10_4]; · iexact HoA10_4
      isplitl [HoA10_5]; · iexact HoA10_5
      isplitl [HoA10_6]; · iexact HoA10_6
      iexact HoA10_7
    ihave VA11 := (grpA1_val (F := F) d L ct rt (tA 1) _ _ _ _ _ _ _ _ _ ⟨4 * (wL L).val + 3, by have := (wL L).isLt; omega⟩ (by show 4 * (2 * (L 1).val + (L 0).val) + 3 = 8 * (L 1).val + 4 * (L 0).val + 2 * 1 + 1; omega) hXA11) $$ [HoA11_0 HoA11_1 HoA11_2 HoA11_3 HoA11_4 HoA11_5 HoA11_6 HoA11_7]
    · isplitl [HoA11_0]; · iexact HoA11_0
      isplitl [HoA11_1]; · iexact HoA11_1
      isplitl [HoA11_2]; · iexact HoA11_2
      isplitl [HoA11_3]; · iexact HoA11_3
      isplitl [HoA11_4]; · iexact HoA11_4
      isplitl [HoA11_5]; · iexact HoA11_5
      isplitl [HoA11_6]; · iexact HoA11_6
      iexact HoA11_7
    ihave VB00 := (grpB0_val (F := F) d L ct rt (tB 0) _ _ _ _ _ ⟨4 * (wL L).val + 0, by have := (wL L).isLt; omega⟩ (by show 4 * (2 * (L 1).val + (L 0).val) + 0 = 8 * (L 1).val + 4 * (L 0).val + 0; omega) hXB00) $$ [HoB00_0 HoB00_1 HoB00_2 HoB00_3]
    · isplitl [HoB00_0]; · iexact HoB00_0
      isplitl [HoB00_1]; · iexact HoB00_1
      isplitl [HoB00_2]; · iexact HoB00_2
      iexact HoB00_3
    ihave VB01 := (grpB1_val (F := F) d L ct rt (tB 0) _ _ _ _ _ ⟨4 * (wL L).val + 0, by have := (wL L).isLt; omega⟩ (by show 4 * (2 * (L 1).val + (L 0).val) + 0 = 8 * (L 1).val + 4 * (L 0).val + 0; omega) hXB01) $$ [HoB01_0 HoB01_1 HoB01_2 HoB01_3]
    · isplitl [HoB01_0]; · iexact HoB01_0
      isplitl [HoB01_1]; · iexact HoB01_1
      isplitl [HoB01_2]; · iexact HoB01_2
      iexact HoB01_3
    ihave VB10 := (grpB0_val (F := F) d L ct rt (tB 1) _ _ _ _ _ ⟨4 * (wL L).val + 1, by have := (wL L).isLt; omega⟩ (by show 4 * (2 * (L 1).val + (L 0).val) + 1 = 8 * (L 1).val + 4 * (L 0).val + 1; omega) hXB10) $$ [HoB10_0 HoB10_1 HoB10_2 HoB10_3]
    · isplitl [HoB10_0]; · iexact HoB10_0
      isplitl [HoB10_1]; · iexact HoB10_1
      isplitl [HoB10_2]; · iexact HoB10_2
      iexact HoB10_3
    ihave VB11 := (grpB1_val (F := F) d L ct rt (tB 1) _ _ _ _ _ ⟨4 * (wL L).val + 1, by have := (wL L).isLt; omega⟩ (by show 4 * (2 * (L 1).val + (L 0).val) + 1 = 8 * (L 1).val + 4 * (L 0).val + 1; omega) hXB11) $$ [HoB11_0 HoB11_1 HoB11_2 HoB11_3]
    · isplitl [HoB11_0]; · iexact HoB11_0
      isplitl [HoB11_1]; · iexact HoB11_1
      isplitl [HoB11_2]; · iexact HoB11_2
      iexact HoB11_3
    ihave VB20 := (grpB0_val (F := F) d L ct rt (tB 2) _ _ _ _ _ ⟨4 * (wL L).val + 2, by have := (wL L).isLt; omega⟩ (by show 4 * (2 * (L 1).val + (L 0).val) + 2 = 8 * (L 1).val + 4 * (L 0).val + 2; omega) hXB20) $$ [HoB20_0 HoB20_1 HoB20_2 HoB20_3]
    · isplitl [HoB20_0]; · iexact HoB20_0
      isplitl [HoB20_1]; · iexact HoB20_1
      isplitl [HoB20_2]; · iexact HoB20_2
      iexact HoB20_3
    ihave VB21 := (grpB1_val (F := F) d L ct rt (tB 2) _ _ _ _ _ ⟨4 * (wL L).val + 2, by have := (wL L).isLt; omega⟩ (by show 4 * (2 * (L 1).val + (L 0).val) + 2 = 8 * (L 1).val + 4 * (L 0).val + 2; omega) hXB21) $$ [HoB21_0 HoB21_1 HoB21_2 HoB21_3]
    · isplitl [HoB21_0]; · iexact HoB21_0
      isplitl [HoB21_1]; · iexact HoB21_1
      isplitl [HoB21_2]; · iexact HoB21_2
      iexact HoB21_3
    ihave VB30 := (grpB0_val (F := F) d L ct rt (tB 3) _ _ _ _ _ ⟨4 * (wL L).val + 3, by have := (wL L).isLt; omega⟩ (by show 4 * (2 * (L 1).val + (L 0).val) + 3 = 8 * (L 1).val + 4 * (L 0).val + 3; omega) hXB30) $$ [HoB30_0 HoB30_1 HoB30_2 HoB30_3]
    · isplitl [HoB30_0]; · iexact HoB30_0
      isplitl [HoB30_1]; · iexact HoB30_1
      isplitl [HoB30_2]; · iexact HoB30_2
      iexact HoB30_3
    ihave VB31 := (grpB1_val (F := F) d L ct rt (tB 3) _ _ _ _ _ ⟨4 * (wL L).val + 3, by have := (wL L).isLt; omega⟩ (by show 4 * (2 * (L 1).val + (L 0).val) + 3 = 8 * (L 1).val + 4 * (L 0).val + 3; omega) hXB31) $$ [HoB31_0 HoB31_1 HoB31_2 HoB31_3]
    · isplitl [HoB31_0]; · iexact HoB31_0
      isplitl [HoB31_1]; · iexact HoB31_1
      isplitl [HoB31_2]; · iexact HoB31_2
      iexact HoB31_3
    iapply (oSplit (F := F) d L _).2
    isplitl [VA00]; · iexact VA00
    isplitl [VA01]; · iexact VA01
    isplitl [VA10]; · iexact VA10
    isplitl [VA11]; · iexact VA11
    isplitl [VB00]; · iexact VB00
    isplitl [VB01]; · iexact VB01
    isplitl [VB10]; · iexact VB10
    isplitl [VB11]; · iexact VB11
    isplitl [VB20]; · iexact VB20
    isplitl [VB21]; · iexact VB21
    isplitl [VB30]; · iexact VB30
    iexact VB31
  isplitl [Hs' Hb0' Hb1' Hbufs]
  · isplitl [Hs']; · iexists _; iapply (Entails.of_eq (pts_stV (F := F) d L _)); iexact Hs'
    isplitl [Hb0']; · iexists _; iapply (Entails.of_eq (pts_b0V (F := F) d L _)); iexact Hb0'
    isplitl [Hb1']; · iexists _; iapply (Entails.of_eq (pts_b1V (F := F) d L _)); iexact Hb1'
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro
  repeat (first | exact fun p hp => Or.inl hp | refine waits_insert_none ?_)

end Cert.Proof.KB

end
-- ==== Proof.KBLaunch.lean ====
/-
  From one vector subcore's task to the obligations of the call.

  The call's body on vector subcore (c, s) is the kernel at the grid coordinates (c, s); the worker those coordinates
  name is the worker the handshakes hand that subcore's part to, so the theorem about the task at a symbolic worker is
  the obligation of every subcore. A SparseCore's part is, by definition, the sixteen parts of its subcores, so the
  split of a SparseCore's operands among its tasks, and the gathering of its results from theirs, is a re-indexing.
  The kernel only copies locally and waits for its own copies, so the launch needs the handshakes' ghost state alone.
-/
import proofs.«210098_g2860448219651_cont_9to1_994_18_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "ctV" => (Memref.whole Cert.Kernel.main_v0_scv : Memref Cert.Kernel.sig Kind.scVector Space.hbm Cert.Kernel.S128x256 EltTy.f32)
local notation "rtV" => (Memref.whole Cert.Kernel.main_v1_scv : Memref Cert.Kernel.sig Kind.scVector Space.hbm Cert.Kernel.S128x256 EltTy.f32)
local notation "oV" => (Memref.whole Cert.Kernel.main_v2_scv : Memref Cert.Kernel.sig Kind.scVector Space.hbm Cert.Kernel.S4x256x256x256 EltTy.f32)
local notation "stV" => (Memref.whole Cert.Kernel.cc0_scratch0 : Memref Cert.Kernel.sig Kind.scVector Space.vmem Cert.Kernel.S8x256 EltTy.f32)
local notation "b0V" => (Memref.whole Cert.Kernel.cc0_scratch1 : Memref Cert.Kernel.sig Kind.scVector Space.vmem Cert.Kernel.S128x256 EltTy.f32)
local notation "b1V" => (Memref.whole Cert.Kernel.cc0_scratch2 : Memref Cert.Kernel.sig Kind.scVector Space.vmem Cert.Kernel.S128x256 EltTy.f32)

variable (m : (ℓ : Loc nD τ sig) → Buf (Elt F) ℓ) (ρ : Dev nD → PrngReg)

variable [FloatOps F]

/-! ## What the handshakes carry, field by field -/

theorem st_eq (d : Dev nD) (c : Fin ((K (F := F)).nCore 0)) :
    (P m).st 0 d c = bigSep Finset.univ fun s : Fin 16 => tileIn d (wid (Fin.cast nCore_zero c) s) (ctOf m d) (rtOf m d) (m (oLoc d)) := rfl
theorem dn_eq (d : Dev nD) (c : Fin ((K (F := F)).nCore 0)) :
    (P m).dn 0 d c = bigSep Finset.univ fun s : Fin 16 => tileOut d (wid (Fin.cast nCore_zero c) s) (ctOf m d) (rtOf m d) := rfl
theorem go_eq (d : Dev nD) (c : Fin ((K (F := F)).nCore 0)) (i : Fin ((K (F := F)).nSub 0)) :
    (P m).go 0 d c i = tileIn d (wid (Fin.cast nCore_zero c) (Fin.cast nSub_zero i)) (ctOf m d) (rtOf m d) (m (oLoc d)) := rfl
theorem td_eq (d : Dev nD) (c : Fin ((K (F := F)).nCore 0)) (i : Fin ((K (F := F)).nSub 0)) :
    (P m).td 0 d c i = tileOut d (wid (Fin.cast nCore_zero c) (Fin.cast nSub_zero i)) (ctOf m d) (rtOf m d) := rfl
theorem x_eq (q : Fin 1) (thr : Thread nD τ) : (P m).x q thr = (iprop(emp) : sProp 𝕄) := rfl

/-! ## The task of every vector subcore -/

theorem defs₀_vector (c : Fin τ.nSC) (s : Fin τ.nSub) :
    defs₀ (F := F) (.scVector c s) 0 ()
      = SparseCore.onTile hcore0 hsub0 (fun c s => cc0__sc_body (coordsV c s)
          ctV (Memref.isWhole_whole _) rtV (Memref.isWhole_whole _) oV (Memref.isWhole_whole _)
          stV (Memref.isWhole_whole _) b0V (Memref.isWhole_whole _) b1V (Memref.isWhole_whole _)
          cc0_scratch3 cc0_scratch4 cc0_scoped0 cc0_scoped1) ⟨⟩ c s := rfl

omit [FloatOps F] in
/-- The worker the grid coordinates of subcore `i` of SparseCore `c` name is the worker `2 i + c`. -/
theorem wL_coordsV (c : Fin ((K (F := F)).nCore 0)) (i : Fin ((K (F := F)).nSub 0))
    (h0 : ((K (F := F)).core 0 c).val < grid0.bound 0) (h1 : ((K (F := F)).sub 0 i).val < grid0.bound 1) :
    wL (coordsV ⟨((K (F := F)).core 0 c).val, h0⟩ ⟨((K (F := F)).sub 0 i).val, h1⟩)
      = wid (Fin.cast nCore_zero c) (Fin.cast nSub_zero i) := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [x_eq, go_eq, td_eq, ← wL_coordsV c i hci.1 hci.2]
  exact (tile_body hF d (coordsV ⟨_, hci.1⟩ ⟨_, hci.2⟩) (ctOf m d) (rtOf m d) (m (oLoc d)) O W hO).trans
    (wp_mono frame _ _ fun _ => obl_post)

/-! ## A SparseCore's part is its sixteen subcores' parts -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  rw [st_eq, dn_eq]
  simp only [go_eq, td_eq]
  rw [bigSep_tasks (F := F) (fun s => tileIn d (wid (Fin.cast nCore_zero c) s) (ctOf m d) (rtOf m d) (m (oLoc d))),
    bigSep_tasks (F := F) (fun s => tileOut d (wid (Fin.cast nCore_zero c) s) (ctOf m d) (rtOf m d))]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.KB

end
-- ==== Proof.KBSplit.lean ====
/-
  A whole array is the thirty-two workers' parts of it.

  Each array the call touches divides among the workers by a map from its indices to worker numbers: a transposed
  table by (row / 4), the result by ((channel mod 128) / 4). The parts are the fibres of that map, so they are pairwise
  disjoint and together are every index; and the workers are numbered 2 s + c over the two SparseCores c and their
  sixteen subcores s, which counts each of 0 .. 31 once. So the array held whole is, SparseCore by SparseCore and
  subcore by subcore, the parts held one by one.
-/
import proofs.«210098_g2860448219651_cont_9to1_994_18_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Worker numbers -/

theorem wid_val (c : Fin 2) (s : Fin 16) : (wid c s).val = 2 * s.val + c.val := rfl

/-- Different (SparseCore, subcore) pairs are different workers. -/
theorem wid_ne {c c' : Fin 2} {s s' : Fin 16} (h : c ≠ c' ∨ s ≠ s') : (wid c s).val ≠ (wid c' s').val := by
  rw [wid_val, wid_val]
  intro e
  have hc := c.isLt; have hc' := c'.isLt
  rcases h with h | h
  · exact h (Fin.ext (by omega))
  · exact h (Fin.ext (by omega))

/-! ## The fibres of a map to worker numbers -/

section Fibres

variable {ℓ : Loc nD τ sig} (φ : Idx ℓ → ℕ)

/-- The indices the map sends to worker `w`. -/
abbrev fibre (w : Fin 32) : Finset (Idx ℓ) := Finset.univ.filter fun j => φ j = w.val

theorem fibre_disjoint {c c' : Fin 2} {s s' : Fin 16} (h : c ≠ c' ∨ s ≠ s') :
    Disjoint (fibre φ (wid c s)) (fibre φ (wid c' s')) :=
  Finset.disjoint_filter.mpr fun _ _ h1 h2 => wid_ne h (h1.symm.trans h2)

theorem fibres_cover (hφ : ∀ j, φ j < 32) :
    ((Finset.univ : Finset (Fin 2)).biUnion fun c => (Finset.univ : Finset (Fin 16)).biUnion fun s => fibre φ (wid c s)) = Finset.univ := by
  refine Finset.eq_univ_iff_forall.mpr fun j => ?_
  have hj := hφ j
  refine Finset.mem_biUnion.mpr ⟨⟨φ j % 2, by omega⟩, Finset.mem_univ _, Finset.mem_biUnion.mpr ⟨⟨φ j / 2, by omega⟩, Finset.mem_univ _, ?_⟩⟩
  refine Finset.mem_filter.mpr ⟨Finset.mem_univ _, ?_⟩
  rw [wid_val]
  show φ j = 2 * (φ j / 2) + φ j % 2
  omega

/-- An array held whole is its thirty-two fibres held one by one. -/
theorem pointsTo_fibres (hφ : ∀ j, φ j < 32) (f : Buf (Elt F) ℓ) :
    (ℓ ↦{fullShare} f : sProp 𝕄)
      = bigSep Finset.univ fun c : Fin 2 => bigSep Finset.univ fun s : Fin 16 => ℓ ↦[fibre φ (wid c s)]{fullShare} f := by
  have inner : ∀ c : Fin 2, (bigSep Finset.univ fun s : Fin 16 => (ℓ ↦[fibre φ (wid c s)]{fullShare} f : sProp 𝕄))
      = ℓ ↦[(Finset.univ : Finset (Fin 16)).biUnion fun s => fibre φ (wid c s)]{fullShare} f := fun c =>
    (pointsTo_biUnion Finset.univ (fun s : Fin 16 => fibre φ (wid c s))
      fun s _ s' _ h => fibre_disjoint φ (Or.inr h)).symm
  rw [bigSep_congr fun c _ => inner c,
    ← pointsTo_biUnion Finset.univ (fun c : Fin 2 => (Finset.univ : Finset (Fin 16)).biUnion fun s => fibre φ (wid c s))
      (fun c _ c' _ h => (Finset.disjoint_biUnion_left _ _ _).mpr fun s _ => (Finset.disjoint_biUnion_right _ _ _).mpr fun s' _ =>
        fibre_disjoint φ (Or.inl h)),
    fibres_cover φ hφ]
  try rfl

end Fibres

/-! ## The two transposed tables and the result -/

theorem ct_split (d : Dev nD) (f : Buf (Elt F) (ctLoc d)) :
    (ctLoc d ↦{fullShare} f : sProp 𝕄)
      = bigSep Finset.univ fun c : Fin 2 => bigSep Finset.univ fun s : Fin 16 => ctLoc d ↦[tblSet (wid c s)]{fullShare} f :=
  pointsTo_fibres (ℓ := ctLoc d) (fun j => (j 0).val / 4) (fun j => by have h : (j 0).val < 128 := (j 0).isLt; omega) f

theorem rt_split (d : Dev nD) (f : Buf (Elt F) (rtLoc d)) :
    (rtLoc d ↦{fullShare} f : sProp 𝕄)
      = bigSep Finset.univ fun c : Fin 2 => bigSep Finset.univ fun s : Fin 16 => rtLoc d ↦[tblSet (wid c s)]{fullShare} f :=
  pointsTo_fibres (ℓ := rtLoc d) (fun j => (j 0).val / 4) (fun j => by have h : (j 0).val < 128 := (j 0).isLt; omega) f

theorem o_split (d : Dev nD) (f : Buf (Elt F) (oLoc d)) :
    (oLoc d ↦{fullShare} f : sProp 𝕄)
      = bigSep Finset.univ fun c : Fin 2 => bigSep Finset.univ fun s : Fin 16 => oLoc d ↦[tileSet (wid c s)]{fullShare} f :=
  pointsTo_fibres (ℓ := oLoc d) (fun j => ((j 1).val % 128) / 4) (fun j => by omega) f

end Cert.Proof.KB

end
-- ==== Proof.KBMain.lean ====
/-
  The whole program on the TensorCore, and the run with its result named.

  @main transposes the column table and the row table, calls the kernel on the two SparseCores, and returns. The two
  transposes are host operations over arrays the TensorCore holds whole; when the call starts it holds the two
  transposed tables at the transposes of the tables and the result at its launch contents, which divide among the
  thirty-two workers; when the call ends the workers' parts join to the transposed tables unchanged and the result at
  the position embedding read off the transposed tables. Entry (c, x) of a transposed table is entry (x, c) of the
  table, so that embedding is the position embedding of the two tables themselves; the three arguments are written
  by nothing.
-/
import proofs.«210098_g2860448219651_cont_9to1_994_18_alg».proof.Proof.KBLaunch
import proofs.«210098_g2860448219651_cont_9to1_994_18_alg».proof.Proof.KBSplit
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## Regrouping: the cores' parts of a call are the three arrays whole -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem bigSep2_sep3 (A B C : Fin 2 → Fin 16 → sProp 𝕄) :
    (bigSep Finset.univ fun c : Fin 2 => bigSep Finset.univ fun s : Fin 16 => iprop(A c s ∗ B c s ∗ C c s))
      = iprop((bigSep Finset.univ fun c : Fin 2 => bigSep Finset.univ fun s : Fin 16 => A c s)
          ∗ (bigSep Finset.univ fun c : Fin 2 => bigSep Finset.univ fun s : Fin 16 => B c s)
          ∗ (bigSep Finset.univ fun c : Fin 2 => bigSep Finset.univ fun s : Fin 16 => C c s)) := by
  have h1 : ∀ c : Fin 2, (bigSep Finset.univ fun s : Fin 16 => iprop(A c s ∗ B c s ∗ C c s))
      = iprop((bigSep Finset.univ fun s : Fin 16 => A c s) ∗ (bigSep Finset.univ fun s : Fin 16 => B c s) ∗ (bigSep Finset.univ fun s : Fin 16 => C c s)) :=
    fun c => by rw [bigSep_sep', bigSep_sep']
  rw [bigSep_congr fun c _ => h1 c, bigSep_sep', bigSep_sep']

variable [FloatOps F]

/-- What the call takes for the two SparseCores: the two transposed tables and the result, whole. -/
theorem st0_eq (d : Dev nD) :
    (bigSep Finset.univ fun c : Fin ((K (F := F)).nCore 0) => (P m).st 0 d c)
      = iprop((ctLoc d ↦{fullShare} ctOf m d) ∗ (rtLoc d ↦{fullShare} rtOf m d) ∗ (oLoc d ↦{fullShare} m (oLoc d))) :=
  calc (bigSep Finset.univ fun c : Fin ((K (F := F)).nCore 0) => (P m).st 0 d c)
      = bigSep Finset.univ fun c : Fin 2 => bigSep Finset.univ fun s : Fin 16 => tileIn d (wid c s) (ctOf m d) (rtOf m d) (m (oLoc d)) :=
        bigSep_cores (F := F) (fun c => bigSep Finset.univ fun s : Fin 16 => tileIn d (wid c s) (ctOf m d) (rtOf m d) (m (oLoc d)))
    _ = _ := by unfold tileIn; rw [bigSep2_sep3, ← ct_split, ← rt_split, ← o_split]

/-- What it hands back: the transposed tables unchanged, the result at the position embedding read off them. -/
theorem dn0_eq (d : Dev nD) :
    (bigSep Finset.univ fun c : Fin ((K (F := F)).nCore 0) => (P m).dn 0 d c)
      = iprop((ctLoc d ↦{fullShare} ctOf m d) ∗ (rtLoc d ↦{fullShare} rtOf m d)
          ∗ (oLoc d ↦{fullShare} (Cert.PosEmbed.posEmbedT (ctOf m d) (rtOf m d) : Buf (Elt F) (oLoc d)))) :=
  calc (bigSep Finset.univ fun c : Fin ((K (F := F)).nCore 0) => (P m).dn 0 d c)
      = bigSep Finset.univ fun c : Fin 2 => bigSep Finset.univ fun s : Fin 16 => tileOut d (wid c s) (ctOf m d) (rtOf m d) :=
        bigSep_cores (F := F) (fun c => bigSep Finset.univ fun s : Fin 16 => tileOut d (wid c s) (ctOf m d) (rtOf m d))
    _ = _ := by unfold tileOut; rw [bigSep2_sep3, ← ct_split, ← rt_split, ← o_split]

/-! ## The TensorCore's arrays and the two transposes -/

abbrev a' : DevRef τ sig := Proc.devRef .tc (main_arg0 : Ref sig .tc)
abbrev r' : DevRef τ sig := Proc.devRef .tc (main_arg1 : Ref sig .tc)
abbrev c' : DevRef τ sig := Proc.devRef .tc (main_arg2 : Ref sig .tc)
abbrev ct' : DevRef τ sig := Proc.devRef .tc (main_v0 : Ref sig .tc)
abbrev rt' : DevRef τ sig := Proc.devRef .tc (main_v1 : Ref sig .tc)
abbrev o' : DevRef τ sig := Proc.devRef .tc (main_v2 : Ref sig .tc)

/-- The transpose of the column table into the first transposed table, of the row table into the second. -/
abbrev opCt : HloOp τ sig (Elt F) :=
  StableHlo.unary main_arg2 main_v0 ((transpose S128x256 [1, 0] · Facts₀.transposes_S256x128_S128x256_1_0) : (⟨S256x128, .f32⟩ : BufTy).Contents (Elt F) → (⟨S128x256, .f32⟩ : BufTy).Contents (Elt F))
abbrev opRt : HloOp τ sig (Elt F) :=
  StableHlo.unary main_arg1 main_v1 ((transpose S128x256 [1, 0] · Facts₀.transposes_S256x128_S128x256_1_0) : (⟨S256x128, .f32⟩ : BufTy).Contents (Elt F) → (⟨S128x256, .f32⟩ : BufTy).Contents (Elt F))

/-- The TensorCore's arrays, all unscoped: the three arguments, the two transposed tables, the result. -/
abbrev S6 : Finset (DevRef τ sig) := {a', r', c', ct', rt', o'}

omit [FloatOps F] in
theorem held_S6 (d : Dev nD) (W : Valuation τ sig (Elt F)) :
    (held (T d) S6 W : sProp 𝕄) = iprop((aLoc d ↦{fullShare} W a') ∗ (rLoc d ↦{fullShare} W r') ∗ (cLoc d ↦{fullShare} W c')
      ∗ (ctLoc d ↦{fullShare} W ct') ∗ (rtLoc d ↦{fullShare} W rt') ∗ (oLoc d ↦{fullShare} W o')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (rLoc d ↦{fullShare} W main_arg1) ∗ (cLoc d ↦{fullShare} W main_arg2)
      ∗ (ctLoc d ↦{fullShare} W main_v0) ∗ (rtLoc d ↦{fullShare} W main_v1) ∗ (oLoc d ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the valuations after the first and after the second transpose. -/
def V0 (d : Dev nD) : Valuation τ sig (Elt F) := fun b => m (d, b)
def V1 (d : Dev nD) : Valuation τ sig (Elt F) := (opCt (F := F)).result (V0 m d)
def V2 (d : Dev nD) : Valuation τ sig (Elt F) := (opRt (F := F)).result (V1 m d)

omit [FloatOps F] in
theorem unscoped_held (d : Dev nD) : (unscopedBufs d (fun b => m ((SparseCore.T d).loc b)) : sProp 𝕄) = held (T d) S6 (V0 m d) := by
  rw [unscopedBufs_eq, held_S6]; rfl

theorem V2_a (d : Dev nD) : V2 m d a' = m (aLoc d) := by
  unfold V2 V1
  rw [StableHlo.unary_result_ne (h := show (main_arg0 : Ref sig .tc) ≠ main_v1 by decide),
    StableHlo.unary_result_ne (h := show (main_arg0 : Ref sig .tc) ≠ main_v0 by decide)]; rfl
theorem V2_r (d : Dev nD) : V2 m d r' = m (rLoc d) := by
  unfold V2 V1
  rw [StableHlo.unary_result_ne (h := show (main_arg1 : Ref sig .tc) ≠ main_v1 by decide),
    StableHlo.unary_result_ne (h := show (main_arg1 : Ref sig .tc) ≠ main_v0 by decide)]; rfl
theorem V2_c (d : Dev nD) : V2 m d c' = m (cLoc d) := by
  unfold V2 V1
  rw [StableHlo.unary_result_ne (h := show (main_arg2 : Ref sig .tc) ≠ main_v1 by decide),
    StableHlo.unary_result_ne (h := show (main_arg2 : Ref sig .tc) ≠ main_v0 by decide)]; rfl
theorem V2_o (d : Dev nD) : V2 m d o' = m (oLoc d) := by
  unfold V2 V1
  rw [StableHlo.unary_result_ne (h := show (main_v2 : Ref sig .tc) ≠ main_v1 by decide),
    StableHlo.unary_result_ne (h := show (main_v2 : Ref sig .tc) ≠ main_v0 by decide)]; rfl
theorem V2_ct (d : Dev nD) : V2 m d ct' = ctOf m d := by
  unfold V2 V1
  rw [StableHlo.unary_result_ne (h := show (main_v0 : Ref sig .tc) ≠ main_v1 by decide)]
  exact StableHlo.unary_result _ _ _ _ _ _
theorem V2_rt (d : Dev nD) : V2 m d rt' = rtOf m d := by
  unfold V2 V1
  refine (StableHlo.unary_result _ _ _ _ _ _).trans ?_
  rw [StableHlo.unary_result_ne (h := show (main_arg1 : Ref sig .tc) ≠ main_v0 by decide)]; rfl

/-- After the two transposes: the arguments and the result as launched, the transposed tables at the transposes. -/
theorem held_V2 (d : Dev nD) :
    (held (T d) S6 ((opRt (F := F)).result (V1 m d)) : sProp 𝕄)
      = iprop((aLoc d ↦{fullShare} m (aLoc d)) ∗ (rLoc d ↦{fullShare} m (rLoc d)) ∗ (cLoc d ↦{fullShare} m (cLoc d))
        ∗ (ctLoc d ↦{fullShare} ctOf m d) ∗ (rtLoc d ↦{fullShare} rtOf m d) ∗ (oLoc d ↦{fullShare} m (oLoc d))) := by
  rw [show (opRt (F := F)).result (V1 m d) = V2 m d from rfl, held_S6, V2_a, V2_r, V2_c, V2_o, V2_ct, V2_rt]

theorem hCt : (opCt (F := F)).bufs ⊆ S6 := show ({c', ct'} : Finset (DevRef τ sig)) ⊆ S6 by decide
theorem hRt : (opRt (F := F)).bufs ⊆ S6 := show ({r', rt'} : Finset (DevRef τ sig)) ⊆ S6 by decide

/-- What @main leaves the claim: the three arguments at their launch contents, the result at the position embedding
    read off the transposed tables. -/
abbrev FIN (d : Dev nD) : sProp 𝕄 :=
  iprop((aLoc d ↦{fullShare} m (aLoc d)) ∗ (rLoc d ↦{fullShare} m (rLoc d)) ∗ (cLoc d ↦{fullShare} m (cLoc d))
    ∗ (oLoc d ↦{fullShare} (Cert.PosEmbed.posEmbedT (ctOf m d) (rtOf m d) : Buf (Elt F) (oLoc d))))

/-- @main on device `d`'s TensorCore: the two transposes over the six arrays held whole, then the call from the
    transposed tables and the result; the arguments kept throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose of the column table
  iapply (wp_hlo_within 𝒱 (SparseCore.T d) none Set.univ (op := opCt) (S := S6) hCt (V := V0 m d)) $$ [Hb Hheld]
  · isplitl [Hb]; · iexact Hb
    iexact Hheld
  iintro ⟨Hb, Hheld⟩
  rw [wp_ret]; imodintro
  -- the transpose of the row table
  iapply (wp_hlo_within 𝒱 (SparseCore.T d) none Set.univ (op := opRt) (S := S6) hRt (V := V1 m d)) $$ [Hb Hheld]
  · isplitl [Hb]; · iexact Hb
    iexact Hheld
  iintro ⟨Hb, Hheld⟩
  rw [wp_ret]; imodintro
  ihave Hh := (Entails.of_eq (held_V2 m d)) $$ Hheld
  icases Hh with ⟨Ha, Hr, Hc, Hct, Hrt, Ho⟩
  -- the call
  iapply ((K (F := F)).wp_run (D (F := F)) 𝒱 (EH := EH) (P := P m) κ d 0) $$ [Hst Ha Hr Hc Hct Hrt Ho]
  isplitr; · iexact Hctx
  isplitl [Hst]; · iexact Hst
  isplitl [Hct Hrt Ho]
  · rw [st0_eq]
    isplitl [Hct]; · iexact Hct
    isplitl [Hrt]; · iexact Hrt
    iexact Ho
  iintro ⟨Hst, Hdn⟩
  ihave Hdn' := (Entails.of_eq (dn0_eq m d)) $$ Hdn
  icases Hdn' with ⟨-, -, Ho⟩
  imodintro
  isplitl [Hst]; · iexact Hst
  isplitl [Ha]; · iexact Ha
  isplitl [Hr]; · iexact Hr
  isplitl [Hc]; · iexact Hc
  iexact Ho

/-! ## What the final memory holds -/

def fq (d : Dev nD) (s' : Phys nD τ sig (Elt F)) : Prop :=
  s'.mem.mem (aLoc d) = m (aLoc d) ∧ s'.mem.mem (rLoc d) = m (rLoc d) ∧ s'.mem.mem (cLoc d) = m (cLoc d)
    ∧ s'.mem.mem (oLoc d) = (Cert.PosEmbed.posEmbedT (ctOf m d) (rtOf m d) : Buf (Elt F) (oLoc d))

set_option maxRecDepth 16384 in
theorem hfin (d : Dev nD) (s' : Phys nD τ sig (Elt F)) : iprop(FIN m d ∗ SI s') ⊢ (⌜fq m d s'⌝ : sProp 𝕄) := by
  iintro ⟨⟨Ha, Hr, Hc, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := rLoc d) (I := Finset.univ) (q := fullShare) (f := m (rLoc d)))) $$ [HSI Hr]
  · isplitl [HSI] <;> iassumption
  icases H with ⟨%h2, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h3, HSI, -⟩
  ihave H := (SI_pointsTo_agree (st := s') (ℓ := oLoc d) (I := Finset.univ) (q := fullShare)
    (f := (Cert.PosEmbed.posEmbedT (ctOf m d) (rtOf m d) : Buf (Elt F) (oLoc d)))) $$ [HSI Ho]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The value: the embedding read off the transposes is the embedding of the tables -/

omit [FloatOps F] in
theorem ctOf_apply (d : Dev nD) (c : Fin 128) (x : Fin 256) :
    ctOf m d (ValueIdx.ix2 c x) = m (cLoc d) (ValueIdx.ix2 x c) :=
  ValueIdx.transpose_ix2_apply (a := 256) (b := 128) _ _ c x
omit [FloatOps F] in
theorem rtOf_apply (d : Dev nD) (c : Fin 128) (x : Fin 256) :
    rtOf m d (ValueIdx.ix2 c x) = m (rLoc d) (ValueIdx.ix2 x c) :=
  ValueIdx.transpose_ix2_apply (a := 256) (b := 128) _ _ c x

omit [FloatOps F] in
theorem posEmbedT_tables (d : Dev nD) :
    (Cert.PosEmbed.posEmbedT (ctOf m d) (rtOf m d) : Buf (Elt F) (oLoc d)) = Cert.PosEmbed.posEmbed (m (rLoc d)) (m (cLoc d)) :=
  Cert.PosEmbed.posEmbedT_eq (m (rLoc d)) (m (cLoc d)) (ctOf m d) (rtOf m d) (ctOf_apply m d) (rtOf_apply m d)

/-! ## The program's run -/

def QC : PUnit × MemSt nD τ sig (Elt F) → Prop := fun r => ∀ c : Dev nD,
  r.2.mem (oLoc c) = (Cert.PosEmbed.posEmbed (m (rLoc c)) (m (cLoc c)) : Buf (Elt F) (oLoc c))
    ∧ r.2.mem (aLoc c) = m (aLoc c) ∧ r.2.mem (rLoc c) = m (rLoc c) ∧ r.2.mem (cLoc c) = m (cLoc c)

/-- Every weakly fair execution of the program terminates, nothing faulting, with the result at the position embedding
    of the two tables and the three arguments unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).2.2.2.trans (posEmbedT_tables m c), (h c).1, (h c).2.1, (h c).2.2.1⟩)

end Cert.Proof.KB

end
-- ==== Proof.KISetup.lean ====
/-
  The kernel as its launch sees it, and how its arrays divide among the thirty-two vector subcores.

  The device has two SparseCores of sixteen vector subcores. Subcore s of SparseCore c is WORKER w = 2 s + c and works on
  table columns 4 w .. 4 w + 3: it reads rows 4 w .. 4 w + 3 of each transposed table ([128, 256], one row per table
  column) and writes, for every batch, the four column channels 4 w + i and the four row channels 128 + 4 w + i of the
  result [4, 256, 256, 256]. So the transposed tables divide among the workers by blocks of four rows, the result by
  the channels each worker owns; nothing is shared. Each worker is handed its two blocks and its channels at the
  contents the call starts from, and hands them back with its channels holding the position embedding read off the
  transposed tables.
-/
import proofs.«210098_g2860448219651_cont_9to1_994_18_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«210098_g2860448219651_cont_9to1_994_18_alg».proof.Proof.Gen.KernelIdeal
import proofs.«210098_g2860448219651_cont_9to1_994_18_alg».proof.Proof.Gen.KernelIdeal.Skeleton
import proofs.«210098_g2860448219651_cont_9to1_994_18_alg».proof.Proof.PosEmbedSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its launch configuration -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The three arguments (the mask, the row table, the column table), the two transposed tables and the result, as
    locations of device `d`. -/
abbrev aLoc (d : Dev nD) : Loc nD τ sig := (SparseCore.T d).loc main_arg0
abbrev rLoc (d : Dev nD) : Loc nD τ sig := (SparseCore.T d).loc main_arg1
abbrev cLoc (d : Dev nD) : Loc nD τ sig := (SparseCore.T d).loc main_arg2
abbrev ctLoc (d : Dev nD) : Loc nD τ sig := (SparseCore.T d).loc main_v0
abbrev rtLoc (d : Dev nD) : Loc nD τ sig := (SparseCore.T d).loc main_v1
abbrev oLoc (d : Dev nD) : Loc nD τ sig := (SparseCore.T d).loc main_v2

/-- Worker number of vector subcore `s` of SparseCore `c`. -/
def wid (c : Fin 2) (s : Fin 16) : Fin 32 := ⟨2 * s.val + c.val, by have := c.isLt; have := s.isLt; omega⟩

/-- The rows of a transposed table worker `w` reads: rows 4 w .. 4 w + 3. -/
def tblSet (w : Fin 32) : Finset S128x256.Idx := Finset.univ.filter fun j => (j 0).val / 4 = w.val

/-- The entries of the result worker `w` writes: every batch, the channels c with (c mod 128) / 4 = w. -/
def tileSet (w : Fin 32) : Finset S4x256x256x256.Idx := Finset.univ.filter fun j => ((j 1).val % 128) / 4 = w.val

variable [FloatOps F]

/-- What a worker is handed: its rows of the two transposed tables at contents `ct`, `rt`, its entries of the
    result at contents `fo`. -/
def tileIn (d : Dev nD) (w : Fin 32) (ct : Buf (Elt F) (ctLoc d)) (rt : Buf (Elt F) (rtLoc d)) (fo : Buf (Elt F) (oLoc d)) : sProp 𝕄 :=
  iprop((ctLoc d ↦[tblSet w]{fullShare} ct) ∗ (rtLoc d ↦[tblSet w]{fullShare} rt) ∗ (oLoc d ↦[tileSet w]{fullShare} fo))

/-- What it hands back: the same rows unchanged, its entries of the result at the position embedding of the two
    transposed tables. -/
def tileOut (d : Dev nD) (w : Fin 32) (ct : Buf (Elt F) (ctLoc d)) (rt : Buf (Elt F) (rtLoc d)) : sProp 𝕄 :=
  iprop((ctLoc d ↦[tblSet w]{fullShare} ct) ∗ (rtLoc d ↦[tblSet w]{fullShare} rt)
    ∗ (oLoc d ↦[tileSet w]{fullShare} (Cert.PosEmbed.posEmbedT ct rt : Buf (Elt F) (oLoc d))))

instance tileIn_storable (d : Dev nD) (w : Fin 32) ct rt fo : BI.Storable (upEmb : UEmb _ 𝕄) (tileIn (F := F) d w ct rt fo) := by
  unfold tileIn; infer_instance
instance tileOut_storable (d : Dev nD) (w : Fin 32) ct rt : BI.Storable (upEmb : UEmb _ 𝕄) (tileOut (F := F) d w ct rt) := by
  unfold tileOut; infer_instance

/-- The transposed tables as @main computes them before the call. -/
def ctOf (d : Dev nD) : Buf (Elt F) (ctLoc d) :=
  (transpose S128x256 [1, 0] (m (cLoc d) : (⟨S256x128, .f32⟩ : BufTy).Contents (Elt F)) Facts₀.transposes_S256x128_S128x256_1_0 : (⟨S128x256, .f32⟩ : BufTy).Contents (Elt F))
def rtOf (d : Dev nD) : Buf (Elt F) (rtLoc d) :=
  (transpose S128x256 [1, 0] (m (rLoc d) : (⟨S256x128, .f32⟩ : BufTy).Contents (Elt F)) Facts₀.transposes_S256x128_S128x256_1_0 : (⟨S128x256, .f32⟩ : BufTy).Contents (Elt F))

/-! ## What the handshakes carry -/

/-- The one call hands SparseCore `c` its sixteen workers' parts, each subcore its worker's part, and takes them back
    with the result's entries written. -/
def P : (K (F := F)).Pay (nD := nD) (Val := Elt F) (Name := ℕ) (U := UU) where
  st := fun q d c => match q with
    | 0 => bigSep Finset.univ fun s : Fin 16 => tileIn d (wid (Fin.cast nCore_zero c) s) (ctOf m d) (rtOf m d) (m (oLoc d))
  dn := fun q d c => match q with
    | 0 => bigSep Finset.univ fun s : Fin 16 => tileOut d (wid (Fin.cast nCore_zero c) s) (ctOf m d) (rtOf m d)
  go := fun q d c i => match q with
    | 0 => tileIn d (wid (Fin.cast nCore_zero c) (Fin.cast nSub_zero i)) (ctOf m d) (rtOf m d) (m (oLoc d))
  td := fun q d c i => match q with
    | 0 => tileOut d (wid (Fin.cast nCore_zero c) (Fin.cast nSub_zero i)) (ctOf m d) (rtOf m d)
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-! ## A worker's thread and coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker at grid coordinates `L` (SparseCore `L 0`, subcore `L 1`). -/
abbrev wL (L : grid0.Coords) : Fin 32 := wid (Fin.cast bound_zero (L 0)) (Fin.cast bound_one (L 1))

def coordsV (c : Fin (grid0.bound 0)) (s : Fin (grid0.bound 1)) : grid0.Coords :=
  fun | 0 => c | 1 => s | ⟨_ + 2, h⟩ => absurd h (Nat.not_lt.2 (Nat.le_add_left _ _))

end Cert.Proof.KI

end
-- ==== Proof.KIOwn.lean ====
/-
  What a vector subcore owns during its task, in the spelling its body reads: its four DMA semaphores at zero, its
  three scratch buffers, and its four rows of each transposed table as the body slices them (rows 4 w .. 4 w + 3 for
  worker w = 2 s + c: the body's slice starts at row 8 s + 4 c).
-/
import proofs.«210098_g2860448219651_cont_9to1_994_18_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "ctV" => (Memref.whole Cert.KernelIdeal.main_v0_scv : Memref Cert.KernelIdeal.sig Kind.scVector Space.hbm Cert.KernelIdeal.S128x256 EltTy.f32)
local notation "rtV" => (Memref.whole Cert.KernelIdeal.main_v1_scv : Memref Cert.KernelIdeal.sig Kind.scVector Space.hbm Cert.KernelIdeal.S128x256 EltTy.f32)
local notation "oV" => (Memref.whole Cert.KernelIdeal.main_v2_scv : Memref Cert.KernelIdeal.sig Kind.scVector Space.hbm Cert.KernelIdeal.S4x256x256x256 EltTy.f32)
local notation "stV" => (Memref.whole Cert.KernelIdeal.cc0_scratch0 : Memref Cert.KernelIdeal.sig Kind.scVector Space.vmem Cert.KernelIdeal.S8x256 EltTy.f32)
local notation "b0V" => (Memref.whole Cert.KernelIdeal.cc0_scratch1 : Memref Cert.KernelIdeal.sig Kind.scVector Space.vmem Cert.KernelIdeal.S128x256 EltTy.f32)
local notation "b1V" => (Memref.whole Cert.KernelIdeal.cc0_scratch2 : Memref Cert.KernelIdeal.sig Kind.scVector Space.vmem Cert.KernelIdeal.S128x256 EltTy.f32)

/-! ## A worker's own semaphores and scratch -/

section Own

variable (d : Dev nD) (L : grid0.Coords)

abbrev sAcell (d : Dev nD) (c : Fin τ.nSC) (i : Fin τ.nSub) : GSem nD τ sig := (V d c i, .dma cc0_scratch3.sem)
abbrev sBcell (d : Dev nD) (c : Fin τ.nSC) (i : Fin τ.nSub) : GSem nD τ sig := (V d c i, .dma cc0_scratch4.sem)
abbrev sCcell (d : Dev nD) (c : Fin τ.nSC) (i : Fin τ.nSub) : GSem nD τ sig := (V d c i, .dma cc0_scoped0.sem)
abbrev sDcell (d : Dev nD) (c : Fin τ.nSC) (i : Fin τ.nSub) : GSem nD τ sig := (V d c i, .dma cc0_scoped1.sem)

/-- The four DMA semaphores the task names are among the subcore's own, each at zero; and the rest. -/
theorem ownSems0_V :
    (ownSems0 (V d (cV L) (jV L)) : sProp 𝕄)
      = iprop(semVal (sAcell d (cV L) (jV L)) 0 ∗ semVal (sBcell d (cV L) (jV L)) 0 ∗ semVal (sCcell d (cV L) (jV L)) 0 ∗ semVal (sDcell d (cV L) (jV L)) 0
          ∗ bigSep (((((ownCells (V d (cV L) (jV L))).erase (sAcell d (cV L) (jV L))).erase (sBcell d (cV L) (jV L))).erase (sCcell d (cV L) (jV L))).erase (sDcell d (cV L) (jV L))) fun g => semVal g 0) := by
  unfold SparseCore.Cfg.ownSems0
  rw [SparseCore.bigSep_erase' ((mem_ownCells (g := sAcell d (cV L) (jV L))).mpr ⟨rfl, by
      show (SemLoc.dma cc0_scratch3.sem : SemLoc sig).isScoped .scVector = true; decide⟩),
    SparseCore.bigSep_erase' (Finset.mem_erase.mpr ⟨by simp [sAcell, sBcell]; decide, (mem_ownCells (g := sBcell d (cV L) (jV L))).mpr ⟨rfl, by
      show (SemLoc.dma cc0_scratch4.sem : SemLoc sig).isScoped .scVector = true; decide⟩⟩),
    SparseCore.bigSep_erase' (Finset.mem_erase.mpr ⟨by simp [sBcell, sCcell]; decide, Finset.mem_erase.mpr ⟨by simp [sAcell, sCcell]; decide,
      (mem_ownCells (g := sCcell d (cV L) (jV L))).mpr ⟨rfl, by show (SemLoc.dma cc0_scoped0.sem : SemLoc sig).isScoped .scVector = true; decide⟩⟩⟩),
    SparseCore.bigSep_erase' (Finset.mem_erase.mpr ⟨by simp [sCcell, sDcell]; decide, Finset.mem_erase.mpr ⟨by simp [sBcell, sDcell]; decide, Finset.mem_erase.mpr ⟨by simp [sAcell, sDcell]; decide,
      (mem_ownCells (g := sDcell d (cV L) (jV L))).mpr ⟨rfl, by show (SemLoc.dma cc0_scoped1.sem : SemLoc sig).isScoped .scVector = true; decide⟩⟩⟩⟩)]

/-- The three scratch buffers are among the subcore's own, each at some contents; and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ## The worker's rows of the transposed tables, as the task slices them -/

abbrev tblRectK (L : grid0.Coords) : Rect S128x256 := Rect.unit (s := S128x256) (k0_off1 L) S4x256.size (k0_off1_inb L)
abbrev ctRowK (L : grid0.Coords) : Memref sig .scVector .hbm S4x256 .f32 := (ctV).slice (tblRectK L) (fun _ => rfl)
abbrev rtRowK (L : grid0.Coords) : Memref sig .scVector .hbm S4x256 .f32 := (rtV).slice (tblRectK L) (fun _ => rfl)

/-- The rows the task slices are the worker's rows: rows 4 w .. 4 w + 3 with w = 2 (L 1) + (L 0). -/
theorem tblRectK_set : (tblRectK L).set = tblSet (wL L) := by
  ext j
  have h0 : (L 0).val < 2 := (L 0).isLt
  have h1 : (L 1).val < 16 := (L 1).isLt
  have hj0 : (j 0).val < 128 := (j 0).isLt
  have hj1 : (j 1).val < 256 := (j 1).isLt
  have hw : (wL L).val = 2 * (L 1).val + (L 0).val := rfl
  rw [Rect.mem_set_unit]
  simp only [tblSet, Finset.mem_filter, Finset.mem_univ, true_and, k0_off1_eq, hw]
  constructor
  · intro h
    have a0 : 8 * (L 1).val + 4 * (L 0).val ≤ (j 0).val ∧ (j 0).val < 8 * (L 1).val + 4 * (L 0).val + 4 := h 0
    omega
  · intro h a
    match a with
    | 0 => show 8 * (L 1).val + 4 * (L 0).val ≤ (j 0).val ∧ (j 0).val < 8 * (L 1).val + 4 * (L 0).val + 4; omega
    | 1 => show 0 ≤ (j 1).val ∧ (j 1).val < 0 + 256; omega

theorem set_ctRowK : (ctRowK L).view.set = tblSet (wL L) := by
  show ((View.whole (main_v0_scv : Ref sig .scVector)).slice (tblRectK L)).set = _
  rw [View.set_slice_whole]; exact tblRectK_set L
theorem set_rtRowK : (rtRowK L).view.set = tblSet (wL L) := by
  show ((View.whole (main_v1_scv : Ref sig .scVector)).slice (tblRectK L)).set = _
  rw [View.set_slice_whole]; exact tblRectK_set L

theorem pts_ctRowK (f : Buf (Elt F) (ctLoc d)) :
    ((ctRowK L).view.loc (V d (cV L) (jV L)) ↦[(ctRowK L).view.set]{fullShare} f : sProp 𝕄) = ctLoc d ↦[tblSet (wL L)]{fullShare} f := by
  rw [set_ctRowK]
theorem pts_rtRowK (f : Buf (Elt F) (rtLoc d)) :
    ((rtRowK L).view.loc (V d (cV L) (jV L)) ↦[(rtRowK L).view.set]{fullShare} f : sProp 𝕄) = rtLoc d ↦[tblSet (wL L)]{fullShare} f := by
  rw [set_rtRowK]
theorem pts_stV (f : Buf (Elt F) ((V d (cV L) (jV L)).loc cc0_scratch0)) :
    ((stV).view.loc (V d (cV L) (jV L)) ↦[(stV).view.set]{fullShare} f : sProp 𝕄) = (V d (cV L) (jV L)).loc cc0_scratch0 ↦{fullShare} f := by
  simp only [Memref.view_whole, View.set_whole]
theorem pts_b0V (f : Buf (Elt F) ((V d (cV L) (jV L)).loc cc0_scratch1)) :
    ((b0V).view.loc (V d (cV L) (jV L)) ↦[(b0V).view.set]{fullShare} f : sProp 𝕄) = (V d (cV L) (jV L)).loc cc0_scratch1 ↦{fullShare} f := by
  simp only [Memref.view_whole, View.set_whole]
theorem pts_b1V (f : Buf (Elt F) ((V d (cV L) (jV L)).loc cc0_scratch2)) :
    ((b1V).view.loc (V d (cV L) (jV L)) ↦[(b1V).view.set]{fullShare} f : sProp 𝕄) = (V d (cV L) (jV L)).loc cc0_scratch2 ↦{fullShare} f := by
  simp only [Memref.view_whole, View.set_whole]

/-! ## The planes of the result, as the task slices them -/

/-- The 128 x 256 half plane at offsets `off` of the result, squeezed, as the body addresses a copy's destination. -/
abbrev oSl (off : Fin 4 → Nat) (inb : ∀ a, off a + S1x1x128x256.size a ≤ S4x256x256x256.size a) : Memref sig .scVector .hbm S128x256 .f32 :=
  ((oV).slice (Rect.unit (s := S4x256x256x256) off S1x1x128x256.size inb) (fun _ => rfl)).squeeze S128x256 squeezes_S1x1x128x256_S128x256

end Own

end Cert.Proof.KI

end
-- ==== Proof.KIFill.lean ====
/-
  What a fill loop leaves in its buffer, read at an index.

  A fill loop's trips write pieces that all agree with ONE function of the buffer's index, and between them the trips
  cover every row. So after the last trip the buffer reads as that function everywhere, whatever it held before.
  Here: the statement for any loop whose pieces are threaded trip by trip, and the geometry of one 16-lane store.
-/
import proofs.«210098_g2860448219651_cont_9to1_994_18_alg».proof.Proof.KISetup
import Idealize.ShloMosaic.Lib.Writes
import Idealize.ShloMosaic.Lib.ValueIdx

noncomputable section

namespace Cert.Proof.KI

open Cert.KernelIdeal Cert.KernelIdeal.Gen

open Idealize.ShloMosaic Idealize.ShloMosaic.ValueIdx

/-! ### Pieces threaded trip by trip -/

section Trips

variable {sig : RefSig} {κ : Kind} {sp : Space} {s : Shape} {e : EltTy} {Val : EltTy → Type}

/-- If the pieces of every trip agree with one function `G` of the buffer's index and trip `k` covers the indices
    whose trip number (`row`) is `k`, then the pieces of the trips before `m` agree with `G` and cover the indices
    of trip number below `m`. -/
theorem pieces_of_trips (G : s.Idx → Val e) (n : ℕ) (pb : ℕ → List (View.Piece Val s e))
    (tripL : Fin n → List (View.Piece Val s e)) (h0 : pb 0 = [])
    (hs : ∀ k : Fin n, pb (k.val + 1) = tripL k ++ pb k.val) (row : s.Idx → ℕ)
    (hagree : ∀ k : Fin n, ∀ p ∈ tripL k, ∀ x : p.1.shape.Idx, p.2 x = G (p.1.emb x))
    (hcover : ∀ k : Fin n, ∀ y : s.Idx, row y = k.val → ∃ p ∈ tripL k, y ∈ p.1.set) :
    ∀ m, m ≤ n → (∀ p ∈ pb m, ∀ x : p.1.shape.Idx, p.2 x = G (p.1.emb x))
      ∧ ∀ y : s.Idx, row y < m → ∃ p ∈ pb m, y ∈ p.1.set
  | 0, _ => by
    rw [h0]
    exact ⟨fun p hp => absurd hp List.not_mem_nil, fun y hy => absurd hy (Nat.not_lt_zero _)⟩
  | m + 1, hm => by
    have ih := pieces_of_trips G n pb tripL h0 hs row hagree hcover m (Nat.le_of_succ_le hm)
    have e := hs ⟨m, hm⟩
    simp only at e
    rw [e]
    refine ⟨fun p hp => ?_, fun y hy => ?_⟩
    · rcases List.mem_append.mp hp with h | h
      · exact hagree ⟨m, hm⟩ p h
      · exact ih.1 p h
    · by_cases hy' : row y = m
      · obtain ⟨p, hp, hyp⟩ := hcover ⟨m, hm⟩ y hy'
        exact ⟨p, List.mem_append_left _ hp, hyp⟩
      · obtain ⟨p, hp, hyp⟩ := ih.2 y (by omega)
        exact ⟨p, List.mem_append_right _ hp, hyp⟩

/-- So after all the trips the buffer reads `G` at every index whose trip number is below the trip count, whatever it
    held before. -/
theorem read_of_trips (v : View sig κ sp s e) (f : v.ty.Contents Val) (G : s.Idx → Val e) (n : ℕ)
    (pb : ℕ → List (View.Piece Val s e)) (tripL : Fin n → List (View.Piece Val s e)) (h0 : pb 0 = [])
    (hs : ∀ k : Fin n, pb (k.val + 1) = tripL k ++ pb k.val) (row : s.Idx → ℕ)
    (hagree : ∀ k : Fin n, ∀ p ∈ tripL k, ∀ x : p.1.shape.Idx, p.2 x = G (p.1.emb x))
    (hcover : ∀ k : Fin n, ∀ y : s.Idx, row y = k.val → ∃ p ∈ tripL k, y ∈ p.1.set)
    (y : s.Idx) (hy : row y < n) : v.read Val (v.writes Val f (pb n)) y = G y :=
  have h := pieces_of_trips G n pb tripL h0 hs row hagree hcover n (Nat.le_refl n)
  View.read_writes_apply_of_pieces v f G (pb n) h.1 y (h.2 y hy)

end Trips

variable {F : FTy → Type}

/-! ### A buffer whose rows are all one vector -/

/-- The buffer every row of which is the 256-entry vector given as sixteen 16-lane pieces `u 0 … u 15`. -/
def colG (u : Fin 16 → (S1x16.Idx → Elt F .f32)) : S128x256.Idx → Elt F .f32 :=
  fun y => u ⟨(y 1).val / 16, by have := idx2_lt1 y; omega⟩ (ix2 (0 : Fin 1) ⟨(y 1).val % 16, Nat.mod_lt _ (by decide)⟩)

/-- A 16-lane store at row `r`, column `c` (a multiple of 16) of the piece `u (c / 16)` agrees with `colG u`. -/
theorem colG_piece (u : Fin 16 → (S1x16.Idx → Elt F .f32)) (off : Fin 2 → ℕ)
    (inb : ∀ a, off a + S1x16.size a ≤ S128x256.size a) (r c : ℕ) (h : off = ![r, c]) (hc : c % 16 = 0) (hc' : c / 16 < 16)
    (w : S1x16.Idx → Elt F .f32) (hw : w = u ⟨c / 16, hc'⟩) (x : S1x16.Idx) :
    w x = colG u ((Rect.unit (s := S128x256) off S1x16.size inb).emb x) := by
  subst hw
  obtain ⟨a, b, rfl⟩ : ∃ (a : Fin 1) (b : Fin 16), x = ix2 a b := ⟨x 0, x 1, eq_ix2 x⟩
  have ha : a = 0 := Subsingleton.elim _ _
  subst ha
  have hv : (((Rect.unit (s := S128x256) off S1x16.size inb).emb (ix2 (0 : Fin 1) b)) 1).val = c + b.val := by
    rw [Rect.emb_apply]
    show off 1 + 1 * b.val = _
    rw [h, Nat.one_mul]; rfl
  have key : ∀ (n : ℕ) (hn : n = c + b.val) (p1 : n / 16 < 16) (p2 : n % 16 < 16),
      u ⟨c / 16, hc'⟩ (ix2 (0 : Fin 1) b) = u ⟨n / 16, p1⟩ (ix2 (0 : Fin 1) ⟨n % 16, p2⟩) := by
    intro n hn p1 p2
    have hb := b.isLt
    have e1 : (⟨n / 16, p1⟩ : Fin 16) = ⟨c / 16, hc'⟩ := Fin.ext (by simp only; omega)
    have e2 : (⟨n % 16, p2⟩ : Fin 16) = b := Fin.ext (by simp only; omega)
    rw [e1, e2]
  exact key _ hv _ _

/-- Sixteen 16-lane unit-stride pieces at row `r`, one per column block, cover row `r`. -/
theorem cover_row16 {Val : EltTy → Type} (L : List (View.Piece Val S128x256 .f32)) (r : ℕ)
    (h : ∀ j : Fin 16, ∃ p ∈ L, p.1.off = ![r, 16 * j.val] ∧ p.1.size = S1x16.size ∧ ∀ a, p.1.stride a = 1)
    (y : S128x256.Idx) (hy : (y 0).val = r) : ∃ p ∈ L, y ∈ p.1.set := by
  have h1 := idx2_lt1 y
  obtain ⟨p, hp, hoff, hsize, hstride⟩ := h ⟨(y 1).val / 16, by omega⟩
  refine ⟨p, hp, p.1.mem_set.mpr fun a => ?_⟩
  rw [hoff, hsize, hstride]
  match a with
  | ⟨0, _⟩ => exact ⟨0, Nat.one_pos, by show (y 0).val = r + 1 * 0; omega⟩
  | ⟨1, _⟩ =>
    exact ⟨(y 1).val % 16, Nat.mod_lt _ (by decide), by
      show (y 1).val = 16 * ((y 1).val / 16) + 1 * ((y 1).val % 16); omega⟩

end Cert.Proof.KI

end
-- ==== Proof.KILoopA0.lean ====
/-
  The fill loops of a worker's task, each by an invariant.

  A fill loop writes one of the two 128 x 256 buffers a row (or sixteen rows) per trip and touches nothing else, so
  before trip k the buffer is its contents at the loop's entry overwritten by the pieces of the trips before k. One
  trip is taken at a symbolic k, with the pieces its stores write.
-/
import proofs.«210098_g2860448219651_cont_9to1_994_18_alg».proof.Proof.KISetup
import proofs.«210098_g2860448219651_cont_9to1_994_18_alg».proof.Proof.KIFill
import Idealize.ShloMosaic.Lib.ValueLayout

set_option maxRecDepth 8192
set_option maxHeartbeats 4000000

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-! ### The loop `k0_t2_loop`: each trip stores sixteen fixed lane vectors across row k of the first buffer -/

/-- The sixteen 16-lane pieces a trip stores, in column-block order. -/
def u2 (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) : Fin 16 → (S1x16.Idx → Elt F .f32) :=
  ![k0_pay1 v15, k0_pay2 v18, k0_pay3 v21, k0_pay4 v24, k0_pay5 v27, k0_pay6 v30, k0_pay7 v33, k0_pay8 v36, k0_pay9 v39, k0_pay10 v42, k0_pay33 v45, k0_pay34 v48, k0_pay35 v50, k0_pay36 v53, k0_pay37 v56, k0_pay38 v59]

/-- One trip at a symbolic `k`, with the pieces its stores write; each is a block of the buffer whose rows are all
    the sixteen pieces side by side, and together they cover row `k`. -/
@[irreducible] def trip_t2 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (k : Fin k0_t2_loop.trips) :
    { Lw : List (View.Piece (Elt F) S128x256 .f32) // (∀ (E : Set ℕ) (fw : BufTy.Contents (Elt F) arg6.view.ty) (acc : BitVec 32),
      (iprop((arg6.view.loc (V d (cV i) (jV i)) ↦[arg6.view.set]{fullShare} fw)) : sProp 𝕄)
      ⊢ wp frame (wpE (defs₀ (F := F)) 𝒱 (V d (cV i) (jV i)) bd) E (k0_t2_body (F := F) i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k acc)
          (fun _ => iprop((arg6.view.loc (V d (cV i) (jV i)) ↦[arg6.view.set]{fullShare} arg6.view.writes (Elt F) fw Lw))))
      ∧ (∀ p ∈ Lw, ∀ x : p.1.shape.Idx, p.2 x = colG (u2 v15 v18 v21 v24 v27 v30 v33 v36 v39 v42 v45 v48 v50 v53 v56 v59) (p.1.emb x))
      ∧ (∀ y : S128x256.Idx, (y 0).val = k.val → ∃ p ∈ Lw, y ∈ p.1.set) } := by
  have hk : k.val < 128 := Nat.lt_of_lt_of_le k.isLt k0_t2_abs.2.1
  refine ⟨?_, fun E fw acc => ?run, ?agree, ?cover⟩
  case run =>
    unfold k0_t2_body
    iintro HW
    sl_exec
    sl_step
    sl_close
  case agree =>
    repeat' (first | exact fun _ h => absurd h List.not_mem_nil | refine List.forall_mem_cons.mpr ⟨?_, ?_⟩)
    · exact colG_piece _ (k0_off33 k) (k0_off33_inb k) _ _ (k0_off33_eq k) (by decide) (by decide) _ rfl
    · exact colG_piece _ (k0_off32 k) (k0_off32_inb k) _ _ (k0_off32_eq k) (by decide) (by decide) _ rfl
    · exact colG_piece _ (k0_off31 k) (k0_off31_inb k) _ _ (k0_off31_eq k) (by decide) (by decide) _ rfl
    · exact colG_piece _ (k0_off30 k) (k0_off30_inb k) _ _ (k0_off30_eq k) (by decide) (by decide) _ rfl
    · exact colG_piece _ (k0_off29 k) (k0_off29_inb k) _ _ (k0_off29_eq k) (by decide) (by decide) _ rfl
    · exact colG_piece _ (k0_off28 k) (k0_off28_inb k) _ _ (k0_off28_eq k) (by decide) (by decide) _ rfl
    · exact colG_piece _ (k0_off27 k) (k0_off27_inb k) _ _ (k0_off27_eq k) (by decide) (by decide) _ rfl
    · exact colG_piece _ (k0_off26 k) (k0_off26_inb k) _ _ (k0_off26_eq k) (by decide) (by decide) _ rfl
    · exact colG_piece _ (k0_off25 k) (k0_off25_inb k) _ _ (k0_off25_eq k) (by decide) (by decide) _ rfl
    · exact colG_piece _ (k0_off24 k) (k0_off24_inb k) _ _ (k0_off24_eq k) (by decide) (by decide) _ rfl
    · exact colG_piece _ (k0_off23 k) (k0_off23_inb k) _ _ (k0_off23_eq k) (by decide) (by decide) _ rfl
    · exact colG_piece _ (k0_off22 k) (k0_off22_inb k) _ _ (k0_off22_eq k) (by decide) (by decide) _ rfl
    · exact colG_piece _ (k0_off21 k) (k0_off21_inb k) _ _ (k0_off21_eq k) (by decide) (by decide) _ rfl
    · exact colG_piece _ (k0_off20 k) (k0_off20_inb k) _ _ (k0_off20_eq k) (by decide) (by decide) _ rfl
    · exact colG_piece _ (k0_off19 k) (k0_off19_inb k) _ _ (k0_off19_eq k) (by decide) (by decide) _ rfl
    · exact colG_piece _ (k0_off18 k) (k0_off18_inb k) _ _ (k0_off18_eq k) (by decide) (by decide) _ rfl
  case cover =>
    refine cover_row16 _ k.val fun j => ?_
    fin_cases j
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), k0_off18_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), k0_off19_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), k0_off20_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), k0_off21_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), k0_off22_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), k0_off23_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), k0_off24_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), k0_off25_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), k0_off26_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_self)))))), k0_off27_eq k, rfl, fun _ => rfl⟩
    · exact ⟨_, List.mem_cons_of_mem _ (List.mem_cons_of_mem _ (List.mem_cons_of_mem _ (List.mem_cons_of_mem _ (List.mem_cons_of_mem _ (List.mem_cons_self))))), k0_off28_eq k, rfl, fun _ => rfl⟩
    · exact ⟨_, List.mem_cons_of_mem _ (List.mem_cons_of_mem _ (List.mem_cons_of_mem _ (List.mem_cons_of_mem _ (List.mem_cons_self)))), k0_off29_eq k, rfl, fun _ => rfl⟩
    · exact ⟨_, List.mem_cons_of_mem _ (List.mem_cons_of_mem _ (List.mem_cons_of_mem _ (List.mem_cons_self))), k0_off30_eq k, rfl, fun _ => rfl⟩
    · exact ⟨_, List.mem_cons_of_mem _ (List.mem_cons_of_mem _ (List.mem_cons_self)), k0_off31_eq k, rfl, fun _ => rfl⟩
    · exact ⟨_, List.mem_cons_of_mem _ (List.mem_cons_self), k0_off32_eq k, rfl, fun _ => rfl⟩
    · exact ⟨_, List.mem_cons_self, k0_off33_eq k, rfl, fun _ => rfl⟩

/-- The pieces of trip `k`. -/
abbrev tripL_t2 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (k : Fin k0_t2_loop.trips) : List (View.Piece (Elt F) S128x256 .f32) :=
  (trip_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k).1

/-- Trip `k`'s pieces in front of those before it; past the last trip, nothing more. -/
@[irreducible] def pb_t2Step (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (k : ℕ) (prev : List (View.Piece (Elt F) S128x256 .f32)) : List (View.Piece (Elt F) S128x256 .f32) :=
  if h : k < k0_t2_loop.trips then (tripL_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 ⟨k, h⟩) ++ prev else prev

/-- The pieces of the trips before `k`, last first. -/
def pb_t2 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) : ℕ → List (View.Piece (Elt F) S128x256 .f32)
  | 0 => []
  | k + 1 => pb_t2Step 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k (pb_t2 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k)

theorem pb_t2_succ (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (k : Fin k0_t2_loop.trips) :
    pb_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 (k.val + 1) = (tripL_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k) ++ (pb_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k.val) := by
  rw [pb_t2.eq_2]; unfold pb_t2Step; exact dif_pos k.isLt

/-- Before trip `k` the written buffer holds the pieces of the trips before `k` over its contents `G` at the loop's entry. -/
abbrev inv_t2 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (G : BufTy.Contents (Elt F) arg6.view.ty) (k : ℕ) (_a : BitVec 32) : sProp 𝕄 :=
  iprop((∃ f, (arg6.view.loc (V d (cV i) (jV i)) ↦[arg6.view.set]{fullShare} f) ∗ ⌜f = arg6.view.writes (Elt F) G (pb_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k)⌝))

set_option warn.classDefReducibility false in
/-- The loop by that invariant. -/
@[sl_loop] def loopInv_t2 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (E : Set ℕ) (G : BufTy.Contents (Elt F) arg6.view.ty) :
    LoopInv (M := MT nD τ sig (HIx 1) (Elt F) ℕ UU ℕ) Idealize.ShloMosaic.frame (wpE (defs₀ (F := F)) 𝒱 (V d (cV i) (jV i)) bd) E
      k0_t2_loop.lb k0_t2_loop.ub k0_t2_loop.st k0_t2_ok (0#32) (k0_t2_body (F := F) i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59) where
  inv := inv_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 G
  step k acc := by
    iintro ⟨%fw, HW, %hw⟩
    iapply (wp_wand_r Idealize.ShloMosaic.frame (wpE (defs₀ (F := F)) 𝒱 (V d (cV i) (jV i)) bd) E)
    isplitl [HW]
    · iapply ((trip_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k).2.1 E fw acc)
      iexact HW
    · iintro %_ HW
      unfold inv_t2
      rw [pb_t2_succ]
      iexists _; isplitl [HW]; · iexact HW
      ipureintro; rw [hw, ← View.writes_append]

/-! ### What the loop leaves -/

/-- The loop runs 128 trips, one per row. -/
theorem trips_t2 : k0_t2_loop.trips = 128 := by decide +kernel

/-- After the loop every row of the written buffer is the sixteen pieces side by side, whatever it held before. -/
theorem fill_t2 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v11 : BitVec 32) (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (G0 : BufTy.Contents (Elt F) arg6.view.ty) (y : S128x256.Idx) :
    arg6.view.read (Elt F) (arg6.view.writes (Elt F) G0 (pb_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 (Scf.trips k0_t2_loop.lb k0_t2_loop.ub k0_t2_loop.st))) y
      = colG (u2 v15 v18 v21 v24 v27 v30 v33 v36 v39 v42 v45 v48 v50 v53 v56 v59) y :=
  read_of_trips arg6.view G0 (colG (u2 v15 v18 v21 v24 v27 v30 v33 v36 v39 v42 v45 v48 v50 v53 v56 v59)) k0_t2_loop.trips (pb_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59) (tripL_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59) rfl
    (pb_t2_succ (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59) (fun y => (y 0).val)
    (fun k => (trip_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k).2.2.1) (fun k => (trip_t2 (F := F) 𝒱 d bd i arg2 harg2 arg3 harg3 arg4 harg4 arg5 harg5 arg6 harg6 arg7 harg7 arg8 arg9 v7_r0 v7_r1 k0_t1 v11 v15 v18 v21 v24 v27 v30 v33 v36 v39 v42 v45 v48 v50 v53 v56 v59 k).2.2.2) y
    (by rw [trips_t2]; exact idx2_lt0 y)

/-- A lane of a piece, in terms of the vectors the loop was given. -/
theorem u2_apply (v15 : FVec F S16 .f32) (v18 : FVec F S16 .f32) (v21 : FVec F S16 .f32) (v24 : FVec F S16 .f32) (v27 : FVec F S16 .f32) (v30 : FVec F S16 .f32) (v33 : FVec F S16 .f32) (v36 : FVec F S16 .f32) (v39 : FVec F S16 .f32) (v42 : FVec F S16 .f32) (v45 : FVec F S16 .f32) (v48 : FVec F S16 .f32) (v50 : Vec F S1x16 .f32) (v53 : Vec F S1x16 .f32) (v56 : Vec F S1x16 .f32) (v59 : Vec F S1x16 .f32) (j : Fin 16) (x : Fin 16) :
    u2 v15 v18 v21 v24 v27 v30 v33 v36 v39 v42 v45 v48 v50 v53 v56 v59 j (ix2 (0 : Fin 1) x) = (![v15 (ix1 x), v18 (ix1 x), v21 (ix1 x), v24 (ix1 x), v27 (ix1 x), v30 (ix1 x), v33 (ix1 x), v36 (ix1 x), v39 (ix1 x), v42 (ix1 x), v45 (ix1 x), v48 (ix1 x), v50 (ix2 (0 : Fin 1) x), v53 (ix2 (0 : Fin 1) x), v56 (ix2 (0 : Fin 1) x), v59 (ix2 (0 : Fin 1) x)] : Fin 16 → Elt F .f32) j := by
  fin_cases j
  · exact shapeCast_a_1a_apply v15 _ 0 x
  · exact shapeCast_a_1a_apply v18 _ 0 x
  · exact shapeCast_a_1a_apply v21 _ 0 x
  · exact shapeCast_a_1a_apply v24 _ 0 x
  · exact shapeCast_a_1a_apply v27 _ 0 x
  · exact shapeCast_a_1a_apply v30 _ 0 x
  · exact shapeCast_a_1a_apply v33 _ 0 x
  · exact shapeCast_a_1a_apply v36 _ 0 x
  · exact shapeCast_a_1a_apply v39 _ 0 x
  · exact shapeCast_a_1a_apply v42 _ 0 x
  · exact shapeCast_a_1a_apply v45 _ 0 x
  · exact shapeCast_a_1a_apply v48 _ 0 x
  · exact (shapeCast_a_1a_apply _ _ 0 x).trans (shapeCast_1a_a_apply v50 _ x)
  · exact (shapeCast_a_1a_apply _ _ 0 x).trans (shapeCast_1a_a_apply v53 _ x)
  · exact (shapeCast_a_1a_apply _ _ 0 x).trans (shapeCast_1a_a_apply v56 _ x)
  · exact (shapeCast_a_1a_apply _ _ 0 x).trans (shapeCast_1a_a_apply v59 _ x)

end Cert.Proof.KI

end
-- ==== Proof.KILoopA1.lean ====
/-
  The fill loops of a worker's task, each by an invariant.

  A fill loop writes one of the two 128 x 256 buffers a row (or sixteen rows) per trip and touches nothing else, so
  before trip k the buffer is its contents at the loop's entry overwritten by the pieces of the trips before k. One
  trip is taken at a symbolic k, with the pieces its stores write.
-/
import proofs.«210098_g2860448219651_cont_9to1_994_18_alg».proof.Proof.KISetup
import proofs.«210098_g2860448219651_cont_9to1_994_18_alg».proof.Proof.KIFill
import Idealize.ShloMosaic.Lib.ValueLayout

set_option maxRecDepth 8192
set_option maxHeartbeats 4000000

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-! ### The loop `k0_t3_loop`: each trip stores sixteen fixed lane vectors across row k of the second buffer -/

/-- The sixteen 16-lane pieces a trip stores, in column-block order. -/
def u3 (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) : Fin 16 → (S1x16.Idx → Elt F .f32) :=
  ![k0_pay11 v103, k0_pay12 v106, k0_pay13 v109, k0_pay14 v112, k0_pay15 v115, k0_pay16 v118, k0_pay17 v121, k0_pay18 v124, k0_pay19 v127, k0_pay20 v130, k0_pay55 v133, k0_pay56 v136, k0_pay57 v139, k0_pay58 v142, k0_pay59 v145, k0_pay60 v148]

/-- One trip at a symbolic `k`, with the pieces its stores write; each is a block of the buffer whose rows are all
    the sixteen pieces side by side, and together they cover row `k`. -/
@[irreducible] def trip_t3 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (k : Fin k0_t3_loop.trips) :
    { Lw : List (View.Piece (Elt F) S128x256 .f32) // (∀ (E : Set ℕ) (fw : BufTy.Contents (Elt F) arg7.view.ty) (acc : BitVec 32),
      (iprop((arg7.view.loc (V d (cV i) (jV i)) ↦[arg7.view.set]{fullShare} fw)) : sProp 𝕄)
      ⊢ wp frame (wpE (defs₀ (F := F)) 𝒱 (V d (cV i) (jV i)) bd) E (k0_t3_body (F := F) i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k acc)
          (fun _ => iprop((arg7.view.loc (V d (cV i) (jV i)) ↦[arg7.view.set]{fullShare} arg7.view.writes (Elt F) fw Lw))))
      ∧ (∀ p ∈ Lw, ∀ x : p.1.shape.Idx, p.2 x = colG (u3 v103 v106 v109 v112 v115 v118 v121 v124 v127 v130 v133 v136 v139 v142 v145 v148) (p.1.emb x))
      ∧ (∀ y : S128x256.Idx, (y 0).val = k.val → ∃ p ∈ Lw, y ∈ p.1.set) } := by
  have hk : k.val < 128 := Nat.lt_of_lt_of_le k.isLt k0_t3_abs.2.1
  refine ⟨?_, fun E fw acc => ?run, ?agree, ?cover⟩
  case run =>
    unfold k0_t3_body
    iintro HW
    sl_exec
    sl_step
    sl_close
  case agree =>
    repeat' (first | exact fun _ h => absurd h List.not_mem_nil | refine List.forall_mem_cons.mpr ⟨?_, ?_⟩)
    · exact colG_piece _ (k0_off57 k) (k0_off57_inb k) _ _ (k0_off57_eq k) (by decide) (by decide) _ rfl
    · exact colG_piece _ (k0_off56 k) (k0_off56_inb k) _ _ (k0_off56_eq k) (by decide) (by decide) _ rfl
    · exact colG_piece _ (k0_off55 k) (k0_off55_inb k) _ _ (k0_off55_eq k) (by decide) (by decide) _ rfl
    · exact colG_piece _ (k0_off54 k) (k0_off54_inb k) _ _ (k0_off54_eq k) (by decide) (by decide) _ rfl
    · exact colG_piece _ (k0_off53 k) (k0_off53_inb k) _ _ (k0_off53_eq k) (by decide) (by decide) _ rfl
    · exact colG_piece _ (k0_off52 k) (k0_off52_inb k) _ _ (k0_off52_eq k) (by decide) (by decide) _ rfl
    · exact colG_piece _ (k0_off51 k) (k0_off51_inb k) _ _ (k0_off51_eq k) (by decide) (by decide) _ rfl
    · exact colG_piece _ (k0_off50 k) (k0_off50_inb k) _ _ (k0_off50_eq k) (by decide) (by decide) _ rfl
    · exact colG_piece _ (k0_off49 k) (k0_off49_inb k) _ _ (k0_off49_eq k) (by decide) (by decide) _ rfl
    · exact colG_piece _ (k0_off48 k) (k0_off48_inb k) _ _ (k0_off48_eq k) (by decide) (by decide) _ rfl
    · exact colG_piece _ (k0_off47 k) (k0_off47_inb k) _ _ (k0_off47_eq k) (by decide) (by decide) _ rfl
    · exact colG_piece _ (k0_off46 k) (k0_off46_inb k) _ _ (k0_off46_eq k) (by decide) (by decide) _ rfl
    · exact colG_piece _ (k0_off45 k) (k0_off45_inb k) _ _ (k0_off45_eq k) (by decide) (by decide) _ rfl
    · exact colG_piece _ (k0_off44 k) (k0_off44_inb k) _ _ (k0_off44_eq k) (by decide) (by decide) _ rfl
    · exact colG_piece _ (k0_off43 k) (k0_off43_inb k) _ _ (k0_off43_eq k) (by decide) (by decide) _ rfl
    · exact colG_piece _ (k0_off42 k) (k0_off42_inb k) _ _ (k0_off42_eq k) (by decide) (by decide) _ rfl
  case cover =>
    refine cover_row16 _ k.val fun j => ?_
    fin_cases j
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), k0_off42_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), k0_off43_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), k0_off44_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), k0_off45_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), k0_off46_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), k0_off47_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), k0_off48_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), k0_off49_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), k0_off50_eq k, rfl, fun _ => rfl⟩
    · exact ⟨_, List.mem_cons_of_mem _ (List.mem_cons_of_mem _ (List.mem_cons_of_mem _ (List.mem_cons_of_mem _ (List.mem_cons_of_mem _ (List.mem_cons_of_mem _ (List.mem_cons_self)))))), k0_off51_eq k, rfl, fun _ => rfl⟩
    · exact ⟨_, List.mem_cons_of_mem _ (List.mem_cons_of_mem _ (List.mem_cons_of_mem _ (List.mem_cons_of_mem _ (List.mem_cons_of_mem _ (List.mem_cons_self))))), k0_off52_eq k, rfl, fun _ => rfl⟩
    · exact ⟨_, List.mem_cons_of_mem _ (List.mem_cons_of_mem _ (List.mem_cons_of_mem _ (List.mem_cons_of_mem _ (List.mem_cons_self)))), k0_off53_eq k, rfl, fun _ => rfl⟩
    · exact ⟨_, List.mem_cons_of_mem _ (List.mem_cons_of_mem _ (List.mem_cons_of_mem _ (List.mem_cons_self))), k0_off54_eq k, rfl, fun _ => rfl⟩
    · exact ⟨_, List.mem_cons_of_mem _ (List.mem_cons_of_mem _ (List.mem_cons_self)), k0_off55_eq k, rfl, fun _ => rfl⟩
    · exact ⟨_, List.mem_cons_of_mem _ (List.mem_cons_self), k0_off56_eq k, rfl, fun _ => rfl⟩
    · exact ⟨_, List.mem_cons_self, k0_off57_eq k, rfl, fun _ => rfl⟩

/-- The pieces of trip `k`. -/
abbrev tripL_t3 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (k : Fin k0_t3_loop.trips) : List (View.Piece (Elt F) S128x256 .f32) :=
  (trip_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k).1

/-- Trip `k`'s pieces in front of those before it; past the last trip, nothing more. -/
@[irreducible] def pb_t3Step (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (k : ℕ) (prev : List (View.Piece (Elt F) S128x256 .f32)) : List (View.Piece (Elt F) S128x256 .f32) :=
  if h : k < k0_t3_loop.trips then (tripL_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 ⟨k, h⟩) ++ prev else prev

/-- The pieces of the trips before `k`, last first. -/
def pb_t3 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) : ℕ → List (View.Piece (Elt F) S128x256 .f32)
  | 0 => []
  | k + 1 => pb_t3Step 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k (pb_t3 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k)

theorem pb_t3_succ (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (k : Fin k0_t3_loop.trips) :
    pb_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 (k.val + 1) = (tripL_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k) ++ (pb_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k.val) := by
  rw [pb_t3.eq_2]; unfold pb_t3Step; exact dif_pos k.isLt

/-- Before trip `k` the written buffer holds the pieces of the trips before `k` over its contents `G` at the loop's entry. -/
abbrev inv_t3 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (G : BufTy.Contents (Elt F) arg7.view.ty) (k : ℕ) (_a : BitVec 32) : sProp 𝕄 :=
  iprop((∃ f, (arg7.view.loc (V d (cV i) (jV i)) ↦[arg7.view.set]{fullShare} f) ∗ ⌜f = arg7.view.writes (Elt F) G (pb_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k)⌝))

set_option warn.classDefReducibility false in
/-- The loop by that invariant. -/
@[sl_loop] def loopInv_t3 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (E : Set ℕ) (G : BufTy.Contents (Elt F) arg7.view.ty) :
    LoopInv (M := MT nD τ sig (HIx 1) (Elt F) ℕ UU ℕ) Idealize.ShloMosaic.frame (wpE (defs₀ (F := F)) 𝒱 (V d (cV i) (jV i)) bd) E
      k0_t3_loop.lb k0_t3_loop.ub k0_t3_loop.st k0_t3_ok (c0_i32_75) (k0_t3_body (F := F) i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76) where
  inv := inv_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 G
  step k acc := by
    iintro ⟨%fw, HW, %hw⟩
    iapply (wp_wand_r Idealize.ShloMosaic.frame (wpE (defs₀ (F := F)) 𝒱 (V d (cV i) (jV i)) bd) E)
    isplitl [HW]
    · iapply ((trip_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k).2.1 E fw acc)
      iexact HW
    · iintro %_ HW
      unfold inv_t3
      rw [pb_t3_succ]
      iexists _; isplitl [HW]; · iexact HW
      ipureintro; rw [hw, ← View.writes_append]

/-! ### What the loop leaves -/

/-- The loop runs 128 trips, one per row. -/
theorem trips_t3 : k0_t3_loop.trips = 128 := by decide +kernel

/-- After the loop every row of the written buffer is the sixteen pieces side by side, whatever it held before. -/
theorem fill_t3 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t1 : Fin k0_t1_loop.trips) (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (c0_i32_75 : BitVec 32) (c0_i32_76 : BitVec 32) (G0 : BufTy.Contents (Elt F) arg7.view.ty) (y : S128x256.Idx) :
    arg7.view.read (Elt F) (arg7.view.writes (Elt F) G0 (pb_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 (Scf.trips k0_t3_loop.lb k0_t3_loop.ub k0_t3_loop.st))) y
      = colG (u3 v103 v106 v109 v112 v115 v118 v121 v124 v127 v130 v133 v136 v139 v142 v145 v148) y :=
  read_of_trips arg7.view G0 (colG (u3 v103 v106 v109 v112 v115 v118 v121 v124 v127 v130 v133 v136 v139 v142 v145 v148)) k0_t3_loop.trips (pb_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76) (tripL_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76) rfl
    (pb_t3_succ (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76) (fun y => (y 0).val)
    (fun k => (trip_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k).2.2.1) (fun k => (trip_t3 (F := F) 𝒱 d bd i arg2 harg2 arg3 harg3 arg4 harg4 arg5 harg5 arg6 harg6 arg7 harg7 arg8 arg9 v7_r0 v7_r1 k0_t1 v103 v106 v109 v112 v115 v118 v121 v124 v127 v130 v133 v136 v139 v142 v145 v148 c0_i32_75 c0_i32_76 k).2.2.2) y
    (by rw [trips_t3]; exact idx2_lt0 y)

/-- A lane of a piece, in terms of the vectors the loop was given. -/
theorem u3_apply (v103 : FVec F S16 .f32) (v106 : FVec F S16 .f32) (v109 : FVec F S16 .f32) (v112 : FVec F S16 .f32) (v115 : FVec F S16 .f32) (v118 : FVec F S16 .f32) (v121 : FVec F S16 .f32) (v124 : FVec F S16 .f32) (v127 : FVec F S16 .f32) (v130 : FVec F S16 .f32) (v133 : FVec F S16 .f32) (v136 : FVec F S16 .f32) (v139 : FVec F S16 .f32) (v142 : FVec F S16 .f32) (v145 : FVec F S16 .f32) (v148 : FVec F S16 .f32) (j : Fin 16) (x : Fin 16) :
    u3 v103 v106 v109 v112 v115 v118 v121 v124 v127 v130 v133 v136 v139 v142 v145 v148 j (ix2 (0 : Fin 1) x) = (![v103 (ix1 x), v106 (ix1 x), v109 (ix1 x), v112 (ix1 x), v115 (ix1 x), v118 (ix1 x), v121 (ix1 x), v124 (ix1 x), v127 (ix1 x), v130 (ix1 x), v133 (ix1 x), v136 (ix1 x), v139 (ix1 x), v142 (ix1 x), v145 (ix1 x), v148 (ix1 x)] : Fin 16 → Elt F .f32) j := by
  fin_cases j
  · exact shapeCast_a_1a_apply v103 _ 0 x
  · exact shapeCast_a_1a_apply v106 _ 0 x
  · exact shapeCast_a_1a_apply v109 _ 0 x
  · exact shapeCast_a_1a_apply v112 _ 0 x
  · exact shapeCast_a_1a_apply v115 _ 0 x
  · exact shapeCast_a_1a_apply v118 _ 0 x
  · exact shapeCast_a_1a_apply v121 _ 0 x
  · exact shapeCast_a_1a_apply v124 _ 0 x
  · exact shapeCast_a_1a_apply v127 _ 0 x
  · exact shapeCast_a_1a_apply v130 _ 0 x
  · exact shapeCast_a_1a_apply v133 _ 0 x
  · exact shapeCast_a_1a_apply v136 _ 0 x
  · exact shapeCast_a_1a_apply v139 _ 0 x
  · exact shapeCast_a_1a_apply v142 _ 0 x
  · exact shapeCast_a_1a_apply v145 _ 0 x
  · exact shapeCast_a_1a_apply v148 _ 0 x

end Cert.Proof.KI

end
-- ==== Proof.KIFillRow.lean ====
/-
  A buffer filled row by row with one entry per row, and the value of one splat lane.

  A row-fill trip loads sixteen staged entries once and, for each lane, stores that entry splat across one row of the
  buffer in sixteen 16-lane pieces. So the buffer reads, at row r and any column, entry r of the staged vector.
-/
import proofs.«210098_g2860448219651_cont_9to1_994_18_alg».proof.Proof.KIFill
import Idealize.ShloMosaic.Lib.ValueLayout

noncomputable section

namespace Cert.Proof.KI

open Cert.KernelIdeal Cert.KernelIdeal.Gen

open Idealize.ShloMosaic Idealize.ShloMosaic.ValueIdx

variable {F : FTy → Type}

/-- The buffer whose row `r` holds entry `r` of a 128-entry vector at every column. -/
def rowG (ent : Fin 128 → Elt F .f32) : S128x256.Idx → Elt F .f32 := fun y => ent ⟨(y 0).val, idx2_lt0 y⟩

/-- A 16-lane store at row `r` of a payload that is entry `r` at every lane agrees with `rowG ent`. -/
theorem rowG_piece (ent : Fin 128 → Elt F .f32) (off : Fin 2 → ℕ)
    (inb : ∀ a, off a + S1x16.size a ≤ S128x256.size a) (r c : ℕ) (h : off = ![r, c]) (hr : r < 128)
    (w : S1x16.Idx → Elt F .f32) (hw : ∀ x, w x = ent ⟨r, hr⟩) (x : S1x16.Idx) :
    w x = rowG ent ((Rect.unit (s := S128x256) off S1x16.size inb).emb x) := by
  rw [hw x]
  obtain ⟨a, b, rfl⟩ : ∃ (a : Fin 1) (b : Fin 16), x = ix2 a b := ⟨x 0, x 1, eq_ix2 x⟩
  have hv : (((Rect.unit (s := S128x256) off S1x16.size inb).emb (ix2 a b)) 0).val = r := by
    rw [Rect.emb_apply]
    show off 0 + 1 * a.val = _
    have ha := a.isLt
    rw [h]; show r + 1 * a.val = r; omega
  have key : ∀ (n : ℕ) (hn : n = r) (p : n < 128), ent ⟨r, hr⟩ = ent ⟨n, p⟩ := by
    intro n hn p; subst hn; rfl
  exact key _ hv _

/-- Sixteen rows from `r0` (a multiple of 16), each in sixteen 16-lane unit-stride pieces, cover every index whose row is
    in that block of sixteen. The piece of row `r0 + l`, column block `j` is looked up at position
    `(15 - l) * 16 + (15 - j)` of the list (the last store first). -/
theorem cover_rows16 {Val : EltTy → Type} (L : List (View.Piece Val S128x256 .f32)) (k : ℕ)
    (h : ∀ l j : Fin 16, ∃ p, L[(15 - l.val) * 16 + (15 - j.val)]? = some p ∧ p.1.off = ![16 * k + l.val, 16 * j.val]
      ∧ p.1.size = S1x16.size ∧ ∀ a, p.1.stride a = 1)
    (y : S128x256.Idx) (hy : (y 0).val / 16 = k) : ∃ p ∈ L, y ∈ p.1.set := by
  refine cover_row16 L (y 0).val (fun j => ?_) y rfl
  obtain ⟨p, hp, hoff, hsize, hstride⟩ := h ⟨(y 0).val % 16, Nat.mod_lt _ (by decide)⟩ j
  refine ⟨p, List.mem_of_getElem? hp, ?_, hsize, hstride⟩
  rw [hoff]
  have e : 16 * k + (y 0).val % 16 = (y 0).val := by omega
  show ![16 * k + (y 0).val % 16, 16 * j.val] = _
  rw [e]

/-- Lane `l` of a 16-lane vector, extracted and splat over sixteen lanes, is that lane's entry at every lane. -/
theorem lane_splat_apply {α : Type} (v : S1x16.Idx → α) (l : ℕ) (hl : l < 16) (hc1 : S1x16.ShapeCasts S16)
    (hs : S16.Slices ![l] S1) (hp : ∀ a, (![0] : Fin S1.rank → ℕ) a < S1.size a) (hc2 : S16.ShapeCasts S1x16)
    (x : S1x16.Idx) :
    shapeCast S1x16 (broadcast S16 (extractAt ![0] (extractStridedSlice S1 ![l] (shapeCast S16 v hc1) hs) hp)) hc2 x
      = v (ix2 (0 : Fin 1) ⟨l, hl⟩) := by
  show extractStridedSlice S1 ![l] (shapeCast S16 v hc1) hs (fun a => ⟨![0] a, hp a⟩) = v (ix2 (0 : Fin 1) ⟨l, hl⟩)
  rw [extractStridedSlice_apply ![l] (shapeCast S16 v hc1) hs _ (ix1 (⟨l, hl⟩ : Fin 16))
    (fun a => by match a with | ⟨0, _⟩ => rfl)]
  exact shapeCast_1a_a_apply v hc1 ⟨l, hl⟩

/-! ### The staged entries a row fill spreads -/

/-- The outer loop runs four trips, one per staged row of the second table. -/
theorem trips_t4 : k0_t4_loop.trips = 4 := by decide +kernel

/-- Its trip `t4` uses staged row `4 + t4` of the eight. -/
theorem row_t4_lt (t4 : Fin k0_t4_loop.trips) : 4 + t4.val < 8 := by
  have h : t4.val < 4 := Nat.lt_of_lt_of_eq t4.isLt trips_t4
  omega

section Staged

variable {sig : RefSig} {κ : Kind} {sp : Space} {Val : EltTy → Type}

/-- Entries `c0 .. c0 + 127` of row `r` of the staging scratch as it reads at contents `X`. -/
def entRow (v : View sig κ sp S8x256 .f32) (X : v.ty.Contents Val) (r : Fin 8) (c0 : ℕ) (hc0 : c0 + 128 ≤ 256) :
    Fin 128 → Val .f32 :=
  fun n => v.read Val X (ix2 r ⟨c0 + n.val, by have := n.isLt; omega⟩)

/-- Lane `l` of a 16-lane load at row `r`, column `c` of the staging scratch is its entry at column `c + l`. -/
theorem readAt_lane (v : View sig κ sp S8x256 .f32) (X : v.ty.Contents Val) (off : Fin 2 → ℕ)
    (inb : ∀ a, off a + S1x16.size a ≤ S8x256.size a) (r c : ℕ) (h : off = ![r, c]) (l : ℕ) (hl : l < 16) (hr : r < 8)
    (hc : c + l < 256) :
    v.readAt Val (Rect.unit (s := S8x256) off S1x16.size inb).toLoadRect X (ix2 (0 : Fin 1) ⟨l, hl⟩)
      = v.read Val X (ix2 ⟨r, hr⟩ ⟨c + l, hc⟩) := by
  rw [View.readAt_apply]
  refine congrArg _ (funext fun a => Fin.ext ?_)
  match a with
  | ⟨0, _⟩ => show off 0 + 1 * 0 = r; rw [h]; rfl
  | ⟨1, _⟩ => show off 1 + 1 * l = c + l; rw [h, Nat.one_mul]; rfl

end Staged

end Cert.Proof.KI

end
-- ==== Proof.KILoopB0.lean ====
/-
  The fill loops of a worker's task, each by an invariant.

  A fill loop writes one of the two 128 x 256 buffers a row (or sixteen rows) per trip and touches nothing else, so
  before trip k the buffer is its contents at the loop's entry overwritten by the pieces of the trips before k. One
  trip is taken at a symbolic k, with the pieces its stores write.
-/
import proofs.«210098_g2860448219651_cont_9to1_994_18_alg».proof.Proof.KISetup
import proofs.«210098_g2860448219651_cont_9to1_994_18_alg».proof.Proof.KIFillRow

set_option maxRecDepth 8192
set_option maxHeartbeats 4000000

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-! ### The loop `k0_t5_loop`: each trip reads sixteen staged entries and spreads each along one of rows 16 k .. 16 k + 15 of the first buffer -/

/-- The trip's one load reads sixteen entries of staged row `4 + t4` from column `16 k`. -/
theorem k0_off58_eq' : ∀ (t4 : Fin k0_t4_loop.trips) (k : Fin k0_t5_loop.trips), k0_off58 t4 k = ![4 + t4.val, 16 * k.val] := by
  decide +kernel

/-- The sixteen staged entries trip `k` loads. -/
abbrev ld_t5 (arg5 : Memref sig .scVector .vmem S8x256 .f32) (k0_t4 : Fin k0_t4_loop.trips) (X_arg5 : BufTy.Contents (Elt F) arg5.view.ty) (k : Fin k0_t5_loop.trips) : S1x16.Idx → Elt F .f32 :=
  View.readAt (Elt F) arg5.view (Rect.unit (s := S8x256) (k0_off58 k0_t4 k) S1x16.size (k0_off58_inb k0_t4 k)).toLoadRect X_arg5

/-- Lane `l` of them, extracted and splat, is staged entry `16 k + l` at every lane. -/
theorem lane_t5 (arg5 : Memref sig .scVector .vmem S8x256 .f32) (k0_t4 : Fin k0_t4_loop.trips) (X_arg5 : BufTy.Contents (Elt F) arg5.view.ty) (k : Fin k0_t5_loop.trips)
    (l : ℕ) (hl : l < 16) (hr : 16 * k.val + l < 128) (hc1 : S1x16.ShapeCasts S16) (hs : S16.Slices ![l] S1) (hp : ∀ a, (![0] : Fin S1.rank → ℕ) a < S1.size a)
    (hc2 : S16.ShapeCasts S1x16) (x : S1x16.Idx) :
    shapeCast S1x16 (broadcast S16 (extractAt ![0] (extractStridedSlice S1 ![l] (shapeCast S16 (ld_t5 (F := F) arg5 k0_t4 X_arg5 k) hc1) hs) hp)) hc2 x
      = entRow arg5.view X_arg5 ⟨4 + k0_t4.val, row_t4_lt k0_t4⟩ 0 (by decide) ⟨16 * k.val + l, hr⟩ :=
  (lane_splat_apply _ l hl hc1 hs hp hc2 x).trans
    ((readAt_lane arg5.view X_arg5 _ _ (4 + k0_t4.val) (16 * k.val) (k0_off58_eq' k0_t4 k) l hl (row_t4_lt k0_t4) (by omega)).trans
      (congrArg (fun c => arg5.view.read (Elt F) X_arg5 (ix2 (⟨4 + k0_t4.val, row_t4_lt k0_t4⟩ : Fin 8) c)) (Fin.ext (by simp only; omega))))

/-- One trip at a symbolic `k`, with the pieces its stores write; each is a block of the buffer whose row `r` holds
    staged entry `r` at every column, and together they cover rows `16 k .. 16 k + 15`. -/
@[irreducible] def trip_t5 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (k : Fin k0_t5_loop.trips) :
    { Lw : List (View.Piece (Elt F) S128x256 .f32) // (∀ (E : Set ℕ) (fw : BufTy.Contents (Elt F) arg6.view.ty) (acc : BitVec 32),
      (iprop((arg5.view.loc (V d (cV i) (jV i)) ↦[arg5.view.set]{fullShare} X_arg5) ∗ (arg6.view.loc (V d (cV i) (jV i)) ↦[arg6.view.set]{fullShare} fw)) : sProp 𝕄)
      ⊢ wp frame (wpE (defs₀ (F := F)) 𝒱 (V d (cV i) (jV i)) bd) E (k0_t5_body (F := F) i arg2 harg2 arg3 harg3 arg4 harg4 arg5 harg5 arg6 harg6 arg7 harg7 arg8 arg9 v7_r0 v7_r1 k0_t4 arg10 v31 v43 v44 v45 k acc)
          (fun _ => iprop((arg5.view.loc (V d (cV i) (jV i)) ↦[arg5.view.set]{fullShare} X_arg5) ∗ (arg6.view.loc (V d (cV i) (jV i)) ↦[arg6.view.set]{fullShare} arg6.view.writes (Elt F) fw Lw))))
      ∧ (∀ p ∈ Lw, ∀ x : p.1.shape.Idx, p.2 x = rowG (entRow arg5.view X_arg5 ⟨4 + k0_t4.val, row_t4_lt k0_t4⟩ 0 (by decide)) (p.1.emb x))
      ∧ (∀ y : S128x256.Idx, (y 0).val / 16 = k.val → ∃ p ∈ Lw, y ∈ p.1.set) } := by
  have hk : k.val < 8 := Nat.lt_of_lt_of_le k.isLt k0_t5_abs.2.1
  refine ⟨?_, fun E fw acc => ?run, ?agree, ?cover⟩
  case run =>
    unfold k0_t5_body
    iintro ⟨HR, HW⟩
    sl_exec_parts
    sl_step
    sl_close
  case agree =>
    sl_unfold_run_names
    have hr0 : 16 * k.val + 0 < 128 := by omega
    have hr1 : 16 * k.val + 1 < 128 := by omega
    have hr2 : 16 * k.val + 2 < 128 := by omega
    have hr3 : 16 * k.val + 3 < 128 := by omega
    have hr4 : 16 * k.val + 4 < 128 := by omega
    have hr5 : 16 * k.val + 5 < 128 := by omega
    have hr6 : 16 * k.val + 6 < 128 := by omega
    have hr7 : 16 * k.val + 7 < 128 := by omega
    have hr8 : 16 * k.val + 8 < 128 := by omega
    have hr9 : 16 * k.val + 9 < 128 := by omega
    have hr10 : 16 * k.val + 10 < 128 := by omega
    have hr11 : 16 * k.val + 11 < 128 := by omega
    have hr12 : 16 * k.val + 12 < 128 := by omega
    have hr13 : 16 * k.val + 13 < 128 := by omega
    have hr14 : 16 * k.val + 14 < 128 := by omega
    have hr15 : 16 * k.val + 15 < 128 := by omega
    have hL0 := lane_t5 (F := F) arg5 k0_t4 X_arg5 k 0 (by decide) hr0 (by decide) (by decide) (by decide) (by decide)
    have hL1 := lane_t5 (F := F) arg5 k0_t4 X_arg5 k 1 (by decide) hr1 (by decide) (by decide) (by decide) (by decide)
    have hL2 := lane_t5 (F := F) arg5 k0_t4 X_arg5 k 2 (by decide) hr2 (by decide) (by decide) (by decide) (by decide)
    have hL3 := lane_t5 (F := F) arg5 k0_t4 X_arg5 k 3 (by decide) hr3 (by decide) (by decide) (by decide) (by decide)
    have hL4 := lane_t5 (F := F) arg5 k0_t4 X_arg5 k 4 (by decide) hr4 (by decide) (by decide) (by decide) (by decide)
    have hL5 := lane_t5 (F := F) arg5 k0_t4 X_arg5 k 5 (by decide) hr5 (by decide) (by decide) (by decide) (by decide)
    have hL6 := lane_t5 (F := F) arg5 k0_t4 X_arg5 k 6 (by decide) hr6 (by decide) (by decide) (by decide) (by decide)
    have hL7 := lane_t5 (F := F) arg5 k0_t4 X_arg5 k 7 (by decide) hr7 (by decide) (by decide) (by decide) (by decide)
    have hL8 := lane_t5 (F := F) arg5 k0_t4 X_arg5 k 8 (by decide) hr8 (by decide) (by decide) (by decide) (by decide)
    have hL9 := lane_t5 (F := F) arg5 k0_t4 X_arg5 k 9 (by decide) hr9 (by decide) (by decide) (by decide) (by decide)
    have hL10 := lane_t5 (F := F) arg5 k0_t4 X_arg5 k 10 (by decide) hr10 (by decide) (by decide) (by decide) (by decide)
    have hL11 := lane_t5 (F := F) arg5 k0_t4 X_arg5 k 11 (by decide) hr11 (by decide) (by decide) (by decide) (by decide)
    have hL12 := lane_t5 (F := F) arg5 k0_t4 X_arg5 k 12 (by decide) hr12 (by decide) (by decide) (by decide) (by decide)
    have hL13 := lane_t5 (F := F) arg5 k0_t4 X_arg5 k 13 (by decide) hr13 (by decide) (by decide) (by decide) (by decide)
    have hL14 := lane_t5 (F := F) arg5 k0_t4 X_arg5 k 14 (by decide) hr14 (by decide) (by decide) (by decide) (by decide)
    have hL15 := lane_t5 (F := F) arg5 k0_t4 X_arg5 k 15 (by decide) hr15 (by decide) (by decide) (by decide) (by decide)
    repeat' (first | exact fun _ h => absurd h List.not_mem_nil | refine List.forall_mem_cons.mpr ⟨?_, ?_⟩)
    · exact rowG_piece _ (k0_off74 k 15#32) (k0_off74_inb k 15) (16 * k.val + 15) 240 (k0_off74_eq k 15) hr15 _ hL15
    · exact rowG_piece _ (k0_off73 k 15#32) (k0_off73_inb k 15) (16 * k.val + 15) 224 (k0_off73_eq k 15) hr15 _ hL15
    · exact rowG_piece _ (k0_off72 k 15#32) (k0_off72_inb k 15) (16 * k.val + 15) 208 (k0_off72_eq k 15) hr15 _ hL15
    · exact rowG_piece _ (k0_off71 k 15#32) (k0_off71_inb k 15) (16 * k.val + 15) 192 (k0_off71_eq k 15) hr15 _ hL15
    · exact rowG_piece _ (k0_off70 k 15#32) (k0_off70_inb k 15) (16 * k.val + 15) 176 (k0_off70_eq k 15) hr15 _ hL15
    · exact rowG_piece _ (k0_off69 k 15#32) (k0_off69_inb k 15) (16 * k.val + 15) 160 (k0_off69_eq k 15) hr15 _ hL15
    · exact rowG_piece _ (k0_off68 k 15#32) (k0_off68_inb k 15) (16 * k.val + 15) 144 (k0_off68_eq k 15) hr15 _ hL15
    · exact rowG_piece _ (k0_off67 k 15#32) (k0_off67_inb k 15) (16 * k.val + 15) 128 (k0_off67_eq k 15) hr15 _ hL15
    · exact rowG_piece _ (k0_off66 k 15#32) (k0_off66_inb k 15) (16 * k.val + 15) 112 (k0_off66_eq k 15) hr15 _ hL15
    · exact rowG_piece _ (k0_off65 k 15#32) (k0_off65_inb k 15) (16 * k.val + 15) 96 (k0_off65_eq k 15) hr15 _ hL15
    · exact rowG_piece _ (k0_off64 k 15#32) (k0_off64_inb k 15) (16 * k.val + 15) 80 (k0_off64_eq k 15) hr15 _ hL15
    · exact rowG_piece _ (k0_off63 k 15#32) (k0_off63_inb k 15) (16 * k.val + 15) 64 (k0_off63_eq k 15) hr15 _ hL15
    · exact rowG_piece _ (k0_off62 k 15#32) (k0_off62_inb k 15) (16 * k.val + 15) 48 (k0_off62_eq k 15) hr15 _ hL15
    · exact rowG_piece _ (k0_off61 k 15#32) (k0_off61_inb k 15) (16 * k.val + 15) 32 (k0_off61_eq k 15) hr15 _ hL15
    · exact rowG_piece _ (k0_off60 k 15#32) (k0_off60_inb k 15) (16 * k.val + 15) 16 (k0_off60_eq k 15) hr15 _ hL15
    · exact rowG_piece _ (k0_off59 k 15#32) (k0_off59_inb k 15) (16 * k.val + 15) 0 (k0_off59_eq k 15) hr15 _ hL15
    · exact rowG_piece _ (k0_off74 k 14#32) (k0_off74_inb k 14) (16 * k.val + 14) 240 (k0_off74_eq k 14) hr14 _ hL14
    · exact rowG_piece _ (k0_off73 k 14#32) (k0_off73_inb k 14) (16 * k.val + 14) 224 (k0_off73_eq k 14) hr14 _ hL14
    · exact rowG_piece _ (k0_off72 k 14#32) (k0_off72_inb k 14) (16 * k.val + 14) 208 (k0_off72_eq k 14) hr14 _ hL14
    · exact rowG_piece _ (k0_off71 k 14#32) (k0_off71_inb k 14) (16 * k.val + 14) 192 (k0_off71_eq k 14) hr14 _ hL14
    · exact rowG_piece _ (k0_off70 k 14#32) (k0_off70_inb k 14) (16 * k.val + 14) 176 (k0_off70_eq k 14) hr14 _ hL14
    · exact rowG_piece _ (k0_off69 k 14#32) (k0_off69_inb k 14) (16 * k.val + 14) 160 (k0_off69_eq k 14) hr14 _ hL14
    · exact rowG_piece _ (k0_off68 k 14#32) (k0_off68_inb k 14) (16 * k.val + 14) 144 (k0_off68_eq k 14) hr14 _ hL14
    · exact rowG_piece _ (k0_off67 k 14#32) (k0_off67_inb k 14) (16 * k.val + 14) 128 (k0_off67_eq k 14) hr14 _ hL14
    · exact rowG_piece _ (k0_off66 k 14#32) (k0_off66_inb k 14) (16 * k.val + 14) 112 (k0_off66_eq k 14) hr14 _ hL14
    · exact rowG_piece _ (k0_off65 k 14#32) (k0_off65_inb k 14) (16 * k.val + 14) 96 (k0_off65_eq k 14) hr14 _ hL14
    · exact rowG_piece _ (k0_off64 k 14#32) (k0_off64_inb k 14) (16 * k.val + 14) 80 (k0_off64_eq k 14) hr14 _ hL14
    · exact rowG_piece _ (k0_off63 k 14#32) (k0_off63_inb k 14) (16 * k.val + 14) 64 (k0_off63_eq k 14) hr14 _ hL14
    · exact rowG_piece _ (k0_off62 k 14#32) (k0_off62_inb k 14) (16 * k.val + 14) 48 (k0_off62_eq k 14) hr14 _ hL14
    · exact rowG_piece _ (k0_off61 k 14#32) (k0_off61_inb k 14) (16 * k.val + 14) 32 (k0_off61_eq k 14) hr14 _ hL14
    · exact rowG_piece _ (k0_off60 k 14#32) (k0_off60_inb k 14) (16 * k.val + 14) 16 (k0_off60_eq k 14) hr14 _ hL14
    · exact rowG_piece _ (k0_off59 k 14#32) (k0_off59_inb k 14) (16 * k.val + 14) 0 (k0_off59_eq k 14) hr14 _ hL14
    · exact rowG_piece _ (k0_off74 k 13#32) (k0_off74_inb k 13) (16 * k.val + 13) 240 (k0_off74_eq k 13) hr13 _ hL13
    · exact rowG_piece _ (k0_off73 k 13#32) (k0_off73_inb k 13) (16 * k.val + 13) 224 (k0_off73_eq k 13) hr13 _ hL13
    · exact rowG_piece _ (k0_off72 k 13#32) (k0_off72_inb k 13) (16 * k.val + 13) 208 (k0_off72_eq k 13) hr13 _ hL13
    · exact rowG_piece _ (k0_off71 k 13#32) (k0_off71_inb k 13) (16 * k.val + 13) 192 (k0_off71_eq k 13) hr13 _ hL13
    · exact rowG_piece _ (k0_off70 k 13#32) (k0_off70_inb k 13) (16 * k.val + 13) 176 (k0_off70_eq k 13) hr13 _ hL13
    · exact rowG_piece _ (k0_off69 k 13#32) (k0_off69_inb k 13) (16 * k.val + 13) 160 (k0_off69_eq k 13) hr13 _ hL13
    · exact rowG_piece _ (k0_off68 k 13#32) (k0_off68_inb k 13) (16 * k.val + 13) 144 (k0_off68_eq k 13) hr13 _ hL13
    · exact rowG_piece _ (k0_off67 k 13#32) (k0_off67_inb k 13) (16 * k.val + 13) 128 (k0_off67_eq k 13) hr13 _ hL13
    · exact rowG_piece _ (k0_off66 k 13#32) (k0_off66_inb k 13) (16 * k.val + 13) 112 (k0_off66_eq k 13) hr13 _ hL13
    · exact rowG_piece _ (k0_off65 k 13#32) (k0_off65_inb k 13) (16 * k.val + 13) 96 (k0_off65_eq k 13) hr13 _ hL13
    · exact rowG_piece _ (k0_off64 k 13#32) (k0_off64_inb k 13) (16 * k.val + 13) 80 (k0_off64_eq k 13) hr13 _ hL13
    · exact rowG_piece _ (k0_off63 k 13#32) (k0_off63_inb k 13) (16 * k.val + 13) 64 (k0_off63_eq k 13) hr13 _ hL13
    · exact rowG_piece _ (k0_off62 k 13#32) (k0_off62_inb k 13) (16 * k.val + 13) 48 (k0_off62_eq k 13) hr13 _ hL13
    · exact rowG_piece _ (k0_off61 k 13#32) (k0_off61_inb k 13) (16 * k.val + 13) 32 (k0_off61_eq k 13) hr13 _ hL13
    · exact rowG_piece _ (k0_off60 k 13#32) (k0_off60_inb k 13) (16 * k.val + 13) 16 (k0_off60_eq k 13) hr13 _ hL13
    · exact rowG_piece _ (k0_off59 k 13#32) (k0_off59_inb k 13) (16 * k.val + 13) 0 (k0_off59_eq k 13) hr13 _ hL13
    · exact rowG_piece _ (k0_off74 k 12#32) (k0_off74_inb k 12) (16 * k.val + 12) 240 (k0_off74_eq k 12) hr12 _ hL12
    · exact rowG_piece _ (k0_off73 k 12#32) (k0_off73_inb k 12) (16 * k.val + 12) 224 (k0_off73_eq k 12) hr12 _ hL12
    · exact rowG_piece _ (k0_off72 k 12#32) (k0_off72_inb k 12) (16 * k.val + 12) 208 (k0_off72_eq k 12) hr12 _ hL12
    · exact rowG_piece _ (k0_off71 k 12#32) (k0_off71_inb k 12) (16 * k.val + 12) 192 (k0_off71_eq k 12) hr12 _ hL12
    · exact rowG_piece _ (k0_off70 k 12#32) (k0_off70_inb k 12) (16 * k.val + 12) 176 (k0_off70_eq k 12) hr12 _ hL12
    · exact rowG_piece _ (k0_off69 k 12#32) (k0_off69_inb k 12) (16 * k.val + 12) 160 (k0_off69_eq k 12) hr12 _ hL12
    · exact rowG_piece _ (k0_off68 k 12#32) (k0_off68_inb k 12) (16 * k.val + 12) 144 (k0_off68_eq k 12) hr12 _ hL12
    · exact rowG_piece _ (k0_off67 k 12#32) (k0_off67_inb k 12) (16 * k.val + 12) 128 (k0_off67_eq k 12) hr12 _ hL12
    · exact rowG_piece _ (k0_off66 k 12#32) (k0_off66_inb k 12) (16 * k.val + 12) 112 (k0_off66_eq k 12) hr12 _ hL12
    · exact rowG_piece _ (k0_off65 k 12#32) (k0_off65_inb k 12) (16 * k.val + 12) 96 (k0_off65_eq k 12) hr12 _ hL12
    · exact rowG_piece _ (k0_off64 k 12#32) (k0_off64_inb k 12) (16 * k.val + 12) 80 (k0_off64_eq k 12) hr12 _ hL12
    · exact rowG_piece _ (k0_off63 k 12#32) (k0_off63_inb k 12) (16 * k.val + 12) 64 (k0_off63_eq k 12) hr12 _ hL12
    · exact rowG_piece _ (k0_off62 k 12#32) (k0_off62_inb k 12) (16 * k.val + 12) 48 (k0_off62_eq k 12) hr12 _ hL12
    · exact rowG_piece _ (k0_off61 k 12#32) (k0_off61_inb k 12) (16 * k.val + 12) 32 (k0_off61_eq k 12) hr12 _ hL12
    · exact rowG_piece _ (k0_off60 k 12#32) (k0_off60_inb k 12) (16 * k.val + 12) 16 (k0_off60_eq k 12) hr12 _ hL12
    · exact rowG_piece _ (k0_off59 k 12#32) (k0_off59_inb k 12) (16 * k.val + 12) 0 (k0_off59_eq k 12) hr12 _ hL12
    · exact rowG_piece _ (k0_off74 k 11#32) (k0_off74_inb k 11) (16 * k.val + 11) 240 (k0_off74_eq k 11) hr11 _ hL11
    · exact rowG_piece _ (k0_off73 k 11#32) (k0_off73_inb k 11) (16 * k.val + 11) 224 (k0_off73_eq k 11) hr11 _ hL11
    · exact rowG_piece _ (k0_off72 k 11#32) (k0_off72_inb k 11) (16 * k.val + 11) 208 (k0_off72_eq k 11) hr11 _ hL11
    · exact rowG_piece _ (k0_off71 k 11#32) (k0_off71_inb k 11) (16 * k.val + 11) 192 (k0_off71_eq k 11) hr11 _ hL11
    · exact rowG_piece _ (k0_off70 k 11#32) (k0_off70_inb k 11) (16 * k.val + 11) 176 (k0_off70_eq k 11) hr11 _ hL11
    · exact rowG_piece _ (k0_off69 k 11#32) (k0_off69_inb k 11) (16 * k.val + 11) 160 (k0_off69_eq k 11) hr11 _ hL11
    · exact rowG_piece _ (k0_off68 k 11#32) (k0_off68_inb k 11) (16 * k.val + 11) 144 (k0_off68_eq k 11) hr11 _ hL11
    · exact rowG_piece _ (k0_off67 k 11#32) (k0_off67_inb k 11) (16 * k.val + 11) 128 (k0_off67_eq k 11) hr11 _ hL11
    · exact rowG_piece _ (k0_off66 k 11#32) (k0_off66_inb k 11) (16 * k.val + 11) 112 (k0_off66_eq k 11) hr11 _ hL11
    · exact rowG_piece _ (k0_off65 k 11#32) (k0_off65_inb k 11) (16 * k.val + 11) 96 (k0_off65_eq k 11) hr11 _ hL11
    · exact rowG_piece _ (k0_off64 k 11#32) (k0_off64_inb k 11) (16 * k.val + 11) 80 (k0_off64_eq k 11) hr11 _ hL11
    · exact rowG_piece _ (k0_off63 k 11#32) (k0_off63_inb k 11) (16 * k.val + 11) 64 (k0_off63_eq k 11) hr11 _ hL11
    · exact rowG_piece _ (k0_off62 k 11#32) (k0_off62_inb k 11) (16 * k.val + 11) 48 (k0_off62_eq k 11) hr11 _ hL11
    · exact rowG_piece _ (k0_off61 k 11#32) (k0_off61_inb k 11) (16 * k.val + 11) 32 (k0_off61_eq k 11) hr11 _ hL11
    · exact rowG_piece _ (k0_off60 k 11#32) (k0_off60_inb k 11) (16 * k.val + 11) 16 (k0_off60_eq k 11) hr11 _ hL11
    · exact rowG_piece _ (k0_off59 k 11#32) (k0_off59_inb k 11) (16 * k.val + 11) 0 (k0_off59_eq k 11) hr11 _ hL11
    · exact rowG_piece _ (k0_off74 k 10#32) (k0_off74_inb k 10) (16 * k.val + 10) 240 (k0_off74_eq k 10) hr10 _ hL10
    · exact rowG_piece _ (k0_off73 k 10#32) (k0_off73_inb k 10) (16 * k.val + 10) 224 (k0_off73_eq k 10) hr10 _ hL10
    · exact rowG_piece _ (k0_off72 k 10#32) (k0_off72_inb k 10) (16 * k.val + 10) 208 (k0_off72_eq k 10) hr10 _ hL10
    · exact rowG_piece _ (k0_off71 k 10#32) (k0_off71_inb k 10) (16 * k.val + 10) 192 (k0_off71_eq k 10) hr10 _ hL10
    · exact rowG_piece _ (k0_off70 k 10#32) (k0_off70_inb k 10) (16 * k.val + 10) 176 (k0_off70_eq k 10) hr10 _ hL10
    · exact rowG_piece _ (k0_off69 k 10#32) (k0_off69_inb k 10) (16 * k.val + 10) 160 (k0_off69_eq k 10) hr10 _ hL10
    · exact rowG_piece _ (k0_off68 k 10#32) (k0_off68_inb k 10) (16 * k.val + 10) 144 (k0_off68_eq k 10) hr10 _ hL10
    · exact rowG_piece _ (k0_off67 k 10#32) (k0_off67_inb k 10) (16 * k.val + 10) 128 (k0_off67_eq k 10) hr10 _ hL10
    · exact rowG_piece _ (k0_off66 k 10#32) (k0_off66_inb k 10) (16 * k.val + 10) 112 (k0_off66_eq k 10) hr10 _ hL10
    · exact rowG_piece _ (k0_off65 k 10#32) (k0_off65_inb k 10) (16 * k.val + 10) 96 (k0_off65_eq k 10) hr10 _ hL10
    · exact rowG_piece _ (k0_off64 k 10#32) (k0_off64_inb k 10) (16 * k.val + 10) 80 (k0_off64_eq k 10) hr10 _ hL10
    · exact rowG_piece _ (k0_off63 k 10#32) (k0_off63_inb k 10) (16 * k.val + 10) 64 (k0_off63_eq k 10) hr10 _ hL10
    · exact rowG_piece _ (k0_off62 k 10#32) (k0_off62_inb k 10) (16 * k.val + 10) 48 (k0_off62_eq k 10) hr10 _ hL10
    · exact rowG_piece _ (k0_off61 k 10#32) (k0_off61_inb k 10) (16 * k.val + 10) 32 (k0_off61_eq k 10) hr10 _ hL10
    · exact rowG_piece _ (k0_off60 k 10#32) (k0_off60_inb k 10) (16 * k.val + 10) 16 (k0_off60_eq k 10) hr10 _ hL10
    · exact rowG_piece _ (k0_off59 k 10#32) (k0_off59_inb k 10) (16 * k.val + 10) 0 (k0_off59_eq k 10) hr10 _ hL10
    · exact rowG_piece _ (k0_off74 k 9#32) (k0_off74_inb k 9) (16 * k.val + 9) 240 (k0_off74_eq k 9) hr9 _ hL9
    · exact rowG_piece _ (k0_off73 k 9#32) (k0_off73_inb k 9) (16 * k.val + 9) 224 (k0_off73_eq k 9) hr9 _ hL9
    · exact rowG_piece _ (k0_off72 k 9#32) (k0_off72_inb k 9) (16 * k.val + 9) 208 (k0_off72_eq k 9) hr9 _ hL9
    · exact rowG_piece _ (k0_off71 k 9#32) (k0_off71_inb k 9) (16 * k.val + 9) 192 (k0_off71_eq k 9) hr9 _ hL9
    · exact rowG_piece _ (k0_off70 k 9#32) (k0_off70_inb k 9) (16 * k.val + 9) 176 (k0_off70_eq k 9) hr9 _ hL9
    · exact rowG_piece _ (k0_off69 k 9#32) (k0_off69_inb k 9) (16 * k.val + 9) 160 (k0_off69_eq k 9) hr9 _ hL9
    · exact rowG_piece _ (k0_off68 k 9#32) (k0_off68_inb k 9) (16 * k.val + 9) 144 (k0_off68_eq k 9) hr9 _ hL9
    · exact rowG_piece _ (k0_off67 k 9#32) (k0_off67_inb k 9) (16 * k.val + 9) 128 (k0_off67_eq k 9) hr9 _ hL9
    · exact rowG_piece _ (k0_off66 k 9#32) (k0_off66_inb k 9) (16 * k.val + 9) 112 (k0_off66_eq k 9) hr9 _ hL9
    · exact rowG_piece _ (k0_off65 k 9#32) (k0_off65_inb k 9) (16 * k.val + 9) 96 (k0_off65_eq k 9) hr9 _ hL9
    · exact rowG_piece _ (k0_off64 k 9#32) (k0_off64_inb k 9) (16 * k.val + 9) 80 (k0_off64_eq k 9) hr9 _ hL9
    · exact rowG_piece _ (k0_off63 k 9#32) (k0_off63_inb k 9) (16 * k.val + 9) 64 (k0_off63_eq k 9) hr9 _ hL9
    · exact rowG_piece _ (k0_off62 k 9#32) (k0_off62_inb k 9) (16 * k.val + 9) 48 (k0_off62_eq k 9) hr9 _ hL9
    · exact rowG_piece _ (k0_off61 k 9#32) (k0_off61_inb k 9) (16 * k.val + 9) 32 (k0_off61_eq k 9) hr9 _ hL9
    · exact rowG_piece _ (k0_off60 k 9#32) (k0_off60_inb k 9) (16 * k.val + 9) 16 (k0_off60_eq k 9) hr9 _ hL9
    · exact rowG_piece _ (k0_off59 k 9#32) (k0_off59_inb k 9) (16 * k.val + 9) 0 (k0_off59_eq k 9) hr9 _ hL9
    · exact rowG_piece _ (k0_off74 k 8#32) (k0_off74_inb k 8) (16 * k.val + 8) 240 (k0_off74_eq k 8) hr8 _ hL8
    · exact rowG_piece _ (k0_off73 k 8#32) (k0_off73_inb k 8) (16 * k.val + 8) 224 (k0_off73_eq k 8) hr8 _ hL8
    · exact rowG_piece _ (k0_off72 k 8#32) (k0_off72_inb k 8) (16 * k.val + 8) 208 (k0_off72_eq k 8) hr8 _ hL8
    · exact rowG_piece _ (k0_off71 k 8#32) (k0_off71_inb k 8) (16 * k.val + 8) 192 (k0_off71_eq k 8) hr8 _ hL8
    · exact rowG_piece _ (k0_off70 k 8#32) (k0_off70_inb k 8) (16 * k.val + 8) 176 (k0_off70_eq k 8) hr8 _ hL8
    · exact rowG_piece _ (k0_off69 k 8#32) (k0_off69_inb k 8) (16 * k.val + 8) 160 (k0_off69_eq k 8) hr8 _ hL8
    · exact rowG_piece _ (k0_off68 k 8#32) (k0_off68_inb k 8) (16 * k.val + 8) 144 (k0_off68_eq k 8) hr8 _ hL8
    · exact rowG_piece _ (k0_off67 k 8#32) (k0_off67_inb k 8) (16 * k.val + 8) 128 (k0_off67_eq k 8) hr8 _ hL8
    · exact rowG_piece _ (k0_off66 k 8#32) (k0_off66_inb k 8) (16 * k.val + 8) 112 (k0_off66_eq k 8) hr8 _ hL8
    · exact rowG_piece _ (k0_off65 k 8#32) (k0_off65_inb k 8) (16 * k.val + 8) 96 (k0_off65_eq k 8) hr8 _ hL8
    · exact rowG_piece _ (k0_off64 k 8#32) (k0_off64_inb k 8) (16 * k.val + 8) 80 (k0_off64_eq k 8) hr8 _ hL8
    · exact rowG_piece _ (k0_off63 k 8#32) (k0_off63_inb k 8) (16 * k.val + 8) 64 (k0_off63_eq k 8) hr8 _ hL8
    · exact rowG_piece _ (k0_off62 k 8#32) (k0_off62_inb k 8) (16 * k.val + 8) 48 (k0_off62_eq k 8) hr8 _ hL8
    · exact rowG_piece _ (k0_off61 k 8#32) (k0_off61_inb k 8) (16 * k.val + 8) 32 (k0_off61_eq k 8) hr8 _ hL8
    · exact rowG_piece _ (k0_off60 k 8#32) (k0_off60_inb k 8) (16 * k.val + 8) 16 (k0_off60_eq k 8) hr8 _ hL8
    · exact rowG_piece _ (k0_off59 k 8#32) (k0_off59_inb k 8) (16 * k.val + 8) 0 (k0_off59_eq k 8) hr8 _ hL8
    · exact rowG_piece _ (k0_off74 k 7#32) (k0_off74_inb k 7) (16 * k.val + 7) 240 (k0_off74_eq k 7) hr7 _ hL7
    · exact rowG_piece _ (k0_off73 k 7#32) (k0_off73_inb k 7) (16 * k.val + 7) 224 (k0_off73_eq k 7) hr7 _ hL7
    · exact rowG_piece _ (k0_off72 k 7#32) (k0_off72_inb k 7) (16 * k.val + 7) 208 (k0_off72_eq k 7) hr7 _ hL7
    · exact rowG_piece _ (k0_off71 k 7#32) (k0_off71_inb k 7) (16 * k.val + 7) 192 (k0_off71_eq k 7) hr7 _ hL7
    · exact rowG_piece _ (k0_off70 k 7#32) (k0_off70_inb k 7) (16 * k.val + 7) 176 (k0_off70_eq k 7) hr7 _ hL7
    · exact rowG_piece _ (k0_off69 k 7#32) (k0_off69_inb k 7) (16 * k.val + 7) 160 (k0_off69_eq k 7) hr7 _ hL7
    · exact rowG_piece _ (k0_off68 k 7#32) (k0_off68_inb k 7) (16 * k.val + 7) 144 (k0_off68_eq k 7) hr7 _ hL7
    · exact rowG_piece _ (k0_off67 k 7#32) (k0_off67_inb k 7) (16 * k.val + 7) 128 (k0_off67_eq k 7) hr7 _ hL7
    · exact rowG_piece _ (k0_off66 k 7#32) (k0_off66_inb k 7) (16 * k.val + 7) 112 (k0_off66_eq k 7) hr7 _ hL7
    · exact rowG_piece _ (k0_off65 k 7#32) (k0_off65_inb k 7) (16 * k.val + 7) 96 (k0_off65_eq k 7) hr7 _ hL7
    · exact rowG_piece _ (k0_off64 k 7#32) (k0_off64_inb k 7) (16 * k.val + 7) 80 (k0_off64_eq k 7) hr7 _ hL7
    · exact rowG_piece _ (k0_off63 k 7#32) (k0_off63_inb k 7) (16 * k.val + 7) 64 (k0_off63_eq k 7) hr7 _ hL7
    · exact rowG_piece _ (k0_off62 k 7#32) (k0_off62_inb k 7) (16 * k.val + 7) 48 (k0_off62_eq k 7) hr7 _ hL7
    · exact rowG_piece _ (k0_off61 k 7#32) (k0_off61_inb k 7) (16 * k.val + 7) 32 (k0_off61_eq k 7) hr7 _ hL7
    · exact rowG_piece _ (k0_off60 k 7#32) (k0_off60_inb k 7) (16 * k.val + 7) 16 (k0_off60_eq k 7) hr7 _ hL7
    · exact rowG_piece _ (k0_off59 k 7#32) (k0_off59_inb k 7) (16 * k.val + 7) 0 (k0_off59_eq k 7) hr7 _ hL7
    · exact rowG_piece _ (k0_off74 k 6#32) (k0_off74_inb k 6) (16 * k.val + 6) 240 (k0_off74_eq k 6) hr6 _ hL6
    · exact rowG_piece _ (k0_off73 k 6#32) (k0_off73_inb k 6) (16 * k.val + 6) 224 (k0_off73_eq k 6) hr6 _ hL6
    · exact rowG_piece _ (k0_off72 k 6#32) (k0_off72_inb k 6) (16 * k.val + 6) 208 (k0_off72_eq k 6) hr6 _ hL6
    · exact rowG_piece _ (k0_off71 k 6#32) (k0_off71_inb k 6) (16 * k.val + 6) 192 (k0_off71_eq k 6) hr6 _ hL6
    · exact rowG_piece _ (k0_off70 k 6#32) (k0_off70_inb k 6) (16 * k.val + 6) 176 (k0_off70_eq k 6) hr6 _ hL6
    · exact rowG_piece _ (k0_off69 k 6#32) (k0_off69_inb k 6) (16 * k.val + 6) 160 (k0_off69_eq k 6) hr6 _ hL6
    · exact rowG_piece _ (k0_off68 k 6#32) (k0_off68_inb k 6) (16 * k.val + 6) 144 (k0_off68_eq k 6) hr6 _ hL6
    · exact rowG_piece _ (k0_off67 k 6#32) (k0_off67_inb k 6) (16 * k.val + 6) 128 (k0_off67_eq k 6) hr6 _ hL6
    · exact rowG_piece _ (k0_off66 k 6#32) (k0_off66_inb k 6) (16 * k.val + 6) 112 (k0_off66_eq k 6) hr6 _ hL6
    · exact rowG_piece _ (k0_off65 k 6#32) (k0_off65_inb k 6) (16 * k.val + 6) 96 (k0_off65_eq k 6) hr6 _ hL6
    · exact rowG_piece _ (k0_off64 k 6#32) (k0_off64_inb k 6) (16 * k.val + 6) 80 (k0_off64_eq k 6) hr6 _ hL6
    · exact rowG_piece _ (k0_off63 k 6#32) (k0_off63_inb k 6) (16 * k.val + 6) 64 (k0_off63_eq k 6) hr6 _ hL6
    · exact rowG_piece _ (k0_off62 k 6#32) (k0_off62_inb k 6) (16 * k.val + 6) 48 (k0_off62_eq k 6) hr6 _ hL6
    · exact rowG_piece _ (k0_off61 k 6#32) (k0_off61_inb k 6) (16 * k.val + 6) 32 (k0_off61_eq k 6) hr6 _ hL6
    · exact rowG_piece _ (k0_off60 k 6#32) (k0_off60_inb k 6) (16 * k.val + 6) 16 (k0_off60_eq k 6) hr6 _ hL6
    · exact rowG_piece _ (k0_off59 k 6#32) (k0_off59_inb k 6) (16 * k.val + 6) 0 (k0_off59_eq k 6) hr6 _ hL6
    · exact rowG_piece _ (k0_off74 k 5#32) (k0_off74_inb k 5) (16 * k.val + 5) 240 (k0_off74_eq k 5) hr5 _ hL5
    · exact rowG_piece _ (k0_off73 k 5#32) (k0_off73_inb k 5) (16 * k.val + 5) 224 (k0_off73_eq k 5) hr5 _ hL5
    · exact rowG_piece _ (k0_off72 k 5#32) (k0_off72_inb k 5) (16 * k.val + 5) 208 (k0_off72_eq k 5) hr5 _ hL5
    · exact rowG_piece _ (k0_off71 k 5#32) (k0_off71_inb k 5) (16 * k.val + 5) 192 (k0_off71_eq k 5) hr5 _ hL5
    · exact rowG_piece _ (k0_off70 k 5#32) (k0_off70_inb k 5) (16 * k.val + 5) 176 (k0_off70_eq k 5) hr5 _ hL5
    · exact rowG_piece _ (k0_off69 k 5#32) (k0_off69_inb k 5) (16 * k.val + 5) 160 (k0_off69_eq k 5) hr5 _ hL5
    · exact rowG_piece _ (k0_off68 k 5#32) (k0_off68_inb k 5) (16 * k.val + 5) 144 (k0_off68_eq k 5) hr5 _ hL5
    · exact rowG_piece _ (k0_off67 k 5#32) (k0_off67_inb k 5) (16 * k.val + 5) 128 (k0_off67_eq k 5) hr5 _ hL5
    · exact rowG_piece _ (k0_off66 k 5#32) (k0_off66_inb k 5) (16 * k.val + 5) 112 (k0_off66_eq k 5) hr5 _ hL5
    · exact rowG_piece _ (k0_off65 k 5#32) (k0_off65_inb k 5) (16 * k.val + 5) 96 (k0_off65_eq k 5) hr5 _ hL5
    · exact rowG_piece _ (k0_off64 k 5#32) (k0_off64_inb k 5) (16 * k.val + 5) 80 (k0_off64_eq k 5) hr5 _ hL5
    · exact rowG_piece _ (k0_off63 k 5#32) (k0_off63_inb k 5) (16 * k.val + 5) 64 (k0_off63_eq k 5) hr5 _ hL5
    · exact rowG_piece _ (k0_off62 k 5#32) (k0_off62_inb k 5) (16 * k.val + 5) 48 (k0_off62_eq k 5) hr5 _ hL5
    · exact rowG_piece _ (k0_off61 k 5#32) (k0_off61_inb k 5) (16 * k.val + 5) 32 (k0_off61_eq k 5) hr5 _ hL5
    · exact rowG_piece _ (k0_off60 k 5#32) (k0_off60_inb k 5) (16 * k.val + 5) 16 (k0_off60_eq k 5) hr5 _ hL5
    · exact rowG_piece _ (k0_off59 k 5#32) (k0_off59_inb k 5) (16 * k.val + 5) 0 (k0_off59_eq k 5) hr5 _ hL5
    · exact rowG_piece _ (k0_off74 k 4#32) (k0_off74_inb k 4) (16 * k.val + 4) 240 (k0_off74_eq k 4) hr4 _ hL4
    · exact rowG_piece _ (k0_off73 k 4#32) (k0_off73_inb k 4) (16 * k.val + 4) 224 (k0_off73_eq k 4) hr4 _ hL4
    · exact rowG_piece _ (k0_off72 k 4#32) (k0_off72_inb k 4) (16 * k.val + 4) 208 (k0_off72_eq k 4) hr4 _ hL4
    · exact rowG_piece _ (k0_off71 k 4#32) (k0_off71_inb k 4) (16 * k.val + 4) 192 (k0_off71_eq k 4) hr4 _ hL4
    · exact rowG_piece _ (k0_off70 k 4#32) (k0_off70_inb k 4) (16 * k.val + 4) 176 (k0_off70_eq k 4) hr4 _ hL4
    · exact rowG_piece _ (k0_off69 k 4#32) (k0_off69_inb k 4) (16 * k.val + 4) 160 (k0_off69_eq k 4) hr4 _ hL4
    · exact rowG_piece _ (k0_off68 k 4#32) (k0_off68_inb k 4) (16 * k.val + 4) 144 (k0_off68_eq k 4) hr4 _ hL4
    · exact rowG_piece _ (k0_off67 k 4#32) (k0_off67_inb k 4) (16 * k.val + 4) 128 (k0_off67_eq k 4) hr4 _ hL4
    · exact rowG_piece _ (k0_off66 k 4#32) (k0_off66_inb k 4) (16 * k.val + 4) 112 (k0_off66_eq k 4) hr4 _ hL4
    · exact rowG_piece _ (k0_off65 k 4#32) (k0_off65_inb k 4) (16 * k.val + 4) 96 (k0_off65_eq k 4) hr4 _ hL4
    · exact rowG_piece _ (k0_off64 k 4#32) (k0_off64_inb k 4) (16 * k.val + 4) 80 (k0_off64_eq k 4) hr4 _ hL4
    · exact rowG_piece _ (k0_off63 k 4#32) (k0_off63_inb k 4) (16 * k.val + 4) 64 (k0_off63_eq k 4) hr4 _ hL4
    · exact rowG_piece _ (k0_off62 k 4#32) (k0_off62_inb k 4) (16 * k.val + 4) 48 (k0_off62_eq k 4) hr4 _ hL4
    · exact rowG_piece _ (k0_off61 k 4#32) (k0_off61_inb k 4) (16 * k.val + 4) 32 (k0_off61_eq k 4) hr4 _ hL4
    · exact rowG_piece _ (k0_off60 k 4#32) (k0_off60_inb k 4) (16 * k.val + 4) 16 (k0_off60_eq k 4) hr4 _ hL4
    · exact rowG_piece _ (k0_off59 k 4#32) (k0_off59_inb k 4) (16 * k.val + 4) 0 (k0_off59_eq k 4) hr4 _ hL4
    · exact rowG_piece _ (k0_off74 k 3#32) (k0_off74_inb k 3) (16 * k.val + 3) 240 (k0_off74_eq k 3) hr3 _ hL3
    · exact rowG_piece _ (k0_off73 k 3#32) (k0_off73_inb k 3) (16 * k.val + 3) 224 (k0_off73_eq k 3) hr3 _ hL3
    · exact rowG_piece _ (k0_off72 k 3#32) (k0_off72_inb k 3) (16 * k.val + 3) 208 (k0_off72_eq k 3) hr3 _ hL3
    · exact rowG_piece _ (k0_off71 k 3#32) (k0_off71_inb k 3) (16 * k.val + 3) 192 (k0_off71_eq k 3) hr3 _ hL3
    · exact rowG_piece _ (k0_off70 k 3#32) (k0_off70_inb k 3) (16 * k.val + 3) 176 (k0_off70_eq k 3) hr3 _ hL3
    · exact rowG_piece _ (k0_off69 k 3#32) (k0_off69_inb k 3) (16 * k.val + 3) 160 (k0_off69_eq k 3) hr3 _ hL3
    · exact rowG_piece _ (k0_off68 k 3#32) (k0_off68_inb k 3) (16 * k.val + 3) 144 (k0_off68_eq k 3) hr3 _ hL3
    · exact rowG_piece _ (k0_off67 k 3#32) (k0_off67_inb k 3) (16 * k.val + 3) 128 (k0_off67_eq k 3) hr3 _ hL3
    · exact rowG_piece _ (k0_off66 k 3#32) (k0_off66_inb k 3) (16 * k.val + 3) 112 (k0_off66_eq k 3) hr3 _ hL3
    · exact rowG_piece _ (k0_off65 k 3#32) (k0_off65_inb k 3) (16 * k.val + 3) 96 (k0_off65_eq k 3) hr3 _ hL3
    · exact rowG_piece _ (k0_off64 k 3#32) (k0_off64_inb k 3) (16 * k.val + 3) 80 (k0_off64_eq k 3) hr3 _ hL3
    · exact rowG_piece _ (k0_off63 k 3#32) (k0_off63_inb k 3) (16 * k.val + 3) 64 (k0_off63_eq k 3) hr3 _ hL3
    · exact rowG_piece _ (k0_off62 k 3#32) (k0_off62_inb k 3) (16 * k.val + 3) 48 (k0_off62_eq k 3) hr3 _ hL3
    · exact rowG_piece _ (k0_off61 k 3#32) (k0_off61_inb k 3) (16 * k.val + 3) 32 (k0_off61_eq k 3) hr3 _ hL3
    · exact rowG_piece _ (k0_off60 k 3#32) (k0_off60_inb k 3) (16 * k.val + 3) 16 (k0_off60_eq k 3) hr3 _ hL3
    · exact rowG_piece _ (k0_off59 k 3#32) (k0_off59_inb k 3) (16 * k.val + 3) 0 (k0_off59_eq k 3) hr3 _ hL3
    · exact rowG_piece _ (k0_off74 k 2#32) (k0_off74_inb k 2) (16 * k.val + 2) 240 (k0_off74_eq k 2) hr2 _ hL2
    · exact rowG_piece _ (k0_off73 k 2#32) (k0_off73_inb k 2) (16 * k.val + 2) 224 (k0_off73_eq k 2) hr2 _ hL2
    · exact rowG_piece _ (k0_off72 k 2#32) (k0_off72_inb k 2) (16 * k.val + 2) 208 (k0_off72_eq k 2) hr2 _ hL2
    · exact rowG_piece _ (k0_off71 k 2#32) (k0_off71_inb k 2) (16 * k.val + 2) 192 (k0_off71_eq k 2) hr2 _ hL2
    · exact rowG_piece _ (k0_off70 k 2#32) (k0_off70_inb k 2) (16 * k.val + 2) 176 (k0_off70_eq k 2) hr2 _ hL2
    · exact rowG_piece _ (k0_off69 k 2#32) (k0_off69_inb k 2) (16 * k.val + 2) 160 (k0_off69_eq k 2) hr2 _ hL2
    · exact rowG_piece _ (k0_off68 k 2#32) (k0_off68_inb k 2) (16 * k.val + 2) 144 (k0_off68_eq k 2) hr2 _ hL2
    · exact rowG_piece _ (k0_off67 k 2#32) (k0_off67_inb k 2) (16 * k.val + 2) 128 (k0_off67_eq k 2) hr2 _ hL2
    · exact rowG_piece _ (k0_off66 k 2#32) (k0_off66_inb k 2) (16 * k.val + 2) 112 (k0_off66_eq k 2) hr2 _ hL2
    · exact rowG_piece _ (k0_off65 k 2#32) (k0_off65_inb k 2) (16 * k.val + 2) 96 (k0_off65_eq k 2) hr2 _ hL2
    · exact rowG_piece _ (k0_off64 k 2#32) (k0_off64_inb k 2) (16 * k.val + 2) 80 (k0_off64_eq k 2) hr2 _ hL2
    · exact rowG_piece _ (k0_off63 k 2#32) (k0_off63_inb k 2) (16 * k.val + 2) 64 (k0_off63_eq k 2) hr2 _ hL2
    · exact rowG_piece _ (k0_off62 k 2#32) (k0_off62_inb k 2) (16 * k.val + 2) 48 (k0_off62_eq k 2) hr2 _ hL2
    · exact rowG_piece _ (k0_off61 k 2#32) (k0_off61_inb k 2) (16 * k.val + 2) 32 (k0_off61_eq k 2) hr2 _ hL2
    · exact rowG_piece _ (k0_off60 k 2#32) (k0_off60_inb k 2) (16 * k.val + 2) 16 (k0_off60_eq k 2) hr2 _ hL2
    · exact rowG_piece _ (k0_off59 k 2#32) (k0_off59_inb k 2) (16 * k.val + 2) 0 (k0_off59_eq k 2) hr2 _ hL2
    · exact rowG_piece _ (k0_off74 k 1#32) (k0_off74_inb k 1) (16 * k.val + 1) 240 (k0_off74_eq k 1) hr1 _ hL1
    · exact rowG_piece _ (k0_off73 k 1#32) (k0_off73_inb k 1) (16 * k.val + 1) 224 (k0_off73_eq k 1) hr1 _ hL1
    · exact rowG_piece _ (k0_off72 k 1#32) (k0_off72_inb k 1) (16 * k.val + 1) 208 (k0_off72_eq k 1) hr1 _ hL1
    · exact rowG_piece _ (k0_off71 k 1#32) (k0_off71_inb k 1) (16 * k.val + 1) 192 (k0_off71_eq k 1) hr1 _ hL1
    · exact rowG_piece _ (k0_off70 k 1#32) (k0_off70_inb k 1) (16 * k.val + 1) 176 (k0_off70_eq k 1) hr1 _ hL1
    · exact rowG_piece _ (k0_off69 k 1#32) (k0_off69_inb k 1) (16 * k.val + 1) 160 (k0_off69_eq k 1) hr1 _ hL1
    · exact rowG_piece _ (k0_off68 k 1#32) (k0_off68_inb k 1) (16 * k.val + 1) 144 (k0_off68_eq k 1) hr1 _ hL1
    · exact rowG_piece _ (k0_off67 k 1#32) (k0_off67_inb k 1) (16 * k.val + 1) 128 (k0_off67_eq k 1) hr1 _ hL1
    · exact rowG_piece _ (k0_off66 k 1#32) (k0_off66_inb k 1) (16 * k.val + 1) 112 (k0_off66_eq k 1) hr1 _ hL1
    · exact rowG_piece _ (k0_off65 k 1#32) (k0_off65_inb k 1) (16 * k.val + 1) 96 (k0_off65_eq k 1) hr1 _ hL1
    · exact rowG_piece _ (k0_off64 k 1#32) (k0_off64_inb k 1) (16 * k.val + 1) 80 (k0_off64_eq k 1) hr1 _ hL1
    · exact rowG_piece _ (k0_off63 k 1#32) (k0_off63_inb k 1) (16 * k.val + 1) 64 (k0_off63_eq k 1) hr1 _ hL1
    · exact rowG_piece _ (k0_off62 k 1#32) (k0_off62_inb k 1) (16 * k.val + 1) 48 (k0_off62_eq k 1) hr1 _ hL1
    · exact rowG_piece _ (k0_off61 k 1#32) (k0_off61_inb k 1) (16 * k.val + 1) 32 (k0_off61_eq k 1) hr1 _ hL1
    · exact rowG_piece _ (k0_off60 k 1#32) (k0_off60_inb k 1) (16 * k.val + 1) 16 (k0_off60_eq k 1) hr1 _ hL1
    · exact rowG_piece _ (k0_off59 k 1#32) (k0_off59_inb k 1) (16 * k.val + 1) 0 (k0_off59_eq k 1) hr1 _ hL1
    · exact rowG_piece _ (k0_off74 k 0#32) (k0_off74_inb k 0) (16 * k.val + 0) 240 (k0_off74_eq k 0) hr0 _ hL0
    · exact rowG_piece _ (k0_off73 k 0#32) (k0_off73_inb k 0) (16 * k.val + 0) 224 (k0_off73_eq k 0) hr0 _ hL0
    · exact rowG_piece _ (k0_off72 k 0#32) (k0_off72_inb k 0) (16 * k.val + 0) 208 (k0_off72_eq k 0) hr0 _ hL0
    · exact rowG_piece _ (k0_off71 k 0#32) (k0_off71_inb k 0) (16 * k.val + 0) 192 (k0_off71_eq k 0) hr0 _ hL0
    · exact rowG_piece _ (k0_off70 k 0#32) (k0_off70_inb k 0) (16 * k.val + 0) 176 (k0_off70_eq k 0) hr0 _ hL0
    · exact rowG_piece _ (k0_off69 k 0#32) (k0_off69_inb k 0) (16 * k.val + 0) 160 (k0_off69_eq k 0) hr0 _ hL0
    · exact rowG_piece _ (k0_off68 k 0#32) (k0_off68_inb k 0) (16 * k.val + 0) 144 (k0_off68_eq k 0) hr0 _ hL0
    · exact rowG_piece _ (k0_off67 k 0#32) (k0_off67_inb k 0) (16 * k.val + 0) 128 (k0_off67_eq k 0) hr0 _ hL0
    · exact rowG_piece _ (k0_off66 k 0#32) (k0_off66_inb k 0) (16 * k.val + 0) 112 (k0_off66_eq k 0) hr0 _ hL0
    · exact rowG_piece _ (k0_off65 k 0#32) (k0_off65_inb k 0) (16 * k.val + 0) 96 (k0_off65_eq k 0) hr0 _ hL0
    · exact rowG_piece _ (k0_off64 k 0#32) (k0_off64_inb k 0) (16 * k.val + 0) 80 (k0_off64_eq k 0) hr0 _ hL0
    · exact rowG_piece _ (k0_off63 k 0#32) (k0_off63_inb k 0) (16 * k.val + 0) 64 (k0_off63_eq k 0) hr0 _ hL0
    · exact rowG_piece _ (k0_off62 k 0#32) (k0_off62_inb k 0) (16 * k.val + 0) 48 (k0_off62_eq k 0) hr0 _ hL0
    · exact rowG_piece _ (k0_off61 k 0#32) (k0_off61_inb k 0) (16 * k.val + 0) 32 (k0_off61_eq k 0) hr0 _ hL0
    · exact rowG_piece _ (k0_off60 k 0#32) (k0_off60_inb k 0) (16 * k.val + 0) 16 (k0_off60_eq k 0) hr0 _ hL0
    · exact rowG_piece _ (k0_off59 k 0#32) (k0_off59_inb k 0) (16 * k.val + 0) 0 (k0_off59_eq k 0) hr0 _ hL0
  case cover =>
    sl_unfold_run_names
    intro y hy
    refine cover_rows16 _ k.val (fun l j => ?_) y hy
    fin_cases l <;> fin_cases j
    · exact ⟨_, rfl, k0_off59_eq k 0, rfl, fun _ => rfl⟩
    · exact ⟨_, rfl, k0_off60_eq k 0, rfl, fun _ => rfl⟩
    · exact ⟨_, rfl, k0_off61_eq k 0, rfl, fun _ => rfl⟩
    · exact ⟨_, rfl, k0_off62_eq k 0, rfl, fun _ => rfl⟩
    · exact ⟨_, rfl, k0_off63_eq k 0, rfl, fun _ => rfl⟩
    · exact ⟨_, rfl, k0_off64_eq k 0, rfl, fun _ => rfl⟩
    · exact ⟨_, rfl, k0_off65_eq k 0, rfl, fun _ => rfl⟩
    · exact ⟨_, rfl, k0_off66_eq k 0, rfl, fun _ => rfl⟩
    · exact ⟨_, rfl, k0_off67_eq k 0, rfl, fun _ => rfl⟩
    · exact ⟨_, rfl, k0_off68_eq k 0, rfl, fun _ => rfl⟩
    · exact ⟨_, rfl, k0_off69_eq k 0, rfl, fun _ => rfl⟩
    · exact ⟨_, rfl, k0_off70_eq k 0, rfl, fun _ => rfl⟩
    · exact ⟨_, rfl, k0_off71_eq k 0, rfl, fun _ => rfl⟩
    · exact ⟨_, rfl, k0_off72_eq k 0, rfl, fun _ => rfl⟩
    · exact ⟨_, rfl, k0_off73_eq k 0, rfl, fun _ => rfl⟩
    · exact ⟨_, rfl, k0_off74_eq k 0, rfl, fun _ => rfl⟩
    · exact ⟨_, rfl, k0_off59_eq k 1, rfl, fun _ => rfl⟩
    · exact ⟨_, rfl, k0_off60_eq k 1, rfl, fun _ => rfl⟩
    · exact ⟨_, rfl, k0_off61_eq k 1, rfl, fun _ => rfl⟩
    · exact ⟨_, rfl, k0_off62_eq k 1, rfl, fun _ => rfl⟩
    · exact ⟨_, rfl, k0_off63_eq k 1, rfl, fun _ => rfl⟩
    · exact ⟨_, rfl, k0_off64_eq k 1, rfl, fun _ => rfl⟩
    · exact ⟨_, rfl, k0_off65_eq k 1, rfl, fun _ => rfl⟩
    · exact ⟨_, rfl, k0_off66_eq k 1, rfl, fun _ => rfl⟩
    · exact ⟨_, rfl, k0_off67_eq k 1, rfl, fun _ => rfl⟩
    · exact ⟨_, rfl, k0_off68_eq k 1, rfl, fun _ => rfl⟩
    · exact ⟨_, rfl, k0_off69_eq k 1, rfl, fun _ => rfl⟩
    · exact ⟨_, rfl, k0_off70_eq k 1, rfl, fun _ => rfl⟩
    · exact ⟨_, rfl, k0_off71_eq k 1, rfl, fun _ => rfl⟩
    · exact ⟨_, rfl, k0_off72_eq k 1, rfl, fun _ => rfl⟩
    · exact ⟨_, rfl, k0_off73_eq k 1, rfl, fun _ => rfl⟩
    · exact ⟨_, rfl, k0_off74_eq k 1, rfl, fun _ => rfl⟩
    · exact ⟨_, rfl, k0_off59_eq k 2, rfl, fun _ => rfl⟩
    · exact ⟨_, rfl, k0_off60_eq k 2, rfl, fun _ => rfl⟩
    · exact ⟨_, rfl, k0_off61_eq k 2, rfl, fun _ => rfl⟩
    · exact ⟨_, rfl, k0_off62_eq k 2, rfl, fun _ => rfl⟩
    · exact ⟨_, rfl, k0_off63_eq k 2, rfl, fun _ => rfl⟩
    · exact ⟨_, rfl, k0_off64_eq k 2, rfl, fun _ => rfl⟩
    · exact ⟨_, rfl, k0_off65_eq k 2, rfl, fun _ => rfl⟩
    · exact ⟨_, rfl, k0_off66_eq k 2, rfl, fun _ => rfl⟩
    · exact ⟨_, rfl, k0_off67_eq k 2, rfl, fun _ => rfl⟩
    · exact ⟨_, rfl, k0_off68_eq k 2, rfl, fun _ => rfl⟩
    · exact ⟨_, rfl, k0_off69_eq k 2, rfl, fun _ => rfl⟩
    · exact ⟨_, rfl, k0_off70_eq k 2, rfl, fun _ => rfl⟩
    · exact ⟨_, rfl, k0_off71_eq k 2, rfl, fun _ => rfl⟩
    · exact ⟨_, rfl, k0_off72_eq k 2, rfl, fun _ => rfl⟩
    · exact ⟨_, rfl, k0_off73_eq k 2, rfl, fun _ => rfl⟩
    · exact ⟨_, rfl, k0_off74_eq k 2, rfl, fun _ => rfl⟩
    · exact ⟨_, rfl, k0_off59_eq k 3, rfl, fun _ => rfl⟩
    · exact ⟨_, rfl, k0_off60_eq k 3, rfl, fun _ => rfl⟩
    · exact ⟨_, rfl, k0_off61_eq k 3, rfl, fun _ => rfl⟩
    · exact ⟨_, rfl, k0_off62_eq k 3, rfl, fun _ => rfl⟩
    · exact ⟨_, rfl, k0_off63_eq k 3, rfl, fun _ => rfl⟩
    · exact ⟨_, rfl, k0_off64_eq k 3, rfl, fun _ => rfl⟩
    · exact ⟨_, rfl, k0_off65_eq k 3, rfl, fun _ => rfl⟩
    · exact ⟨_, rfl, k0_off66_eq k 3, rfl, fun _ => rfl⟩
    · exact ⟨_, rfl, k0_off67_eq k 3, rfl, fun _ => rfl⟩
    · exact ⟨_, rfl, k0_off68_eq k 3, rfl, fun _ => rfl⟩
    · exact ⟨_, rfl, k0_off69_eq k 3, rfl, fun _ => rfl⟩
    · exact ⟨_, rfl, k0_off70_eq k 3, rfl, fun _ => rfl⟩
    · exact ⟨_, rfl, k0_off71_eq k 3, rfl, fun _ => rfl⟩
    · exact ⟨_, rfl, k0_off72_eq k 3, rfl, fun _ => rfl⟩
    · exact ⟨_, rfl, k0_off73_eq k 3, rfl, fun _ => rfl⟩
    · exact ⟨_, rfl, k0_off74_eq k 3, rfl, fun _ => rfl⟩
    · exact ⟨_, rfl, k0_off59_eq k 4, rfl, fun _ => rfl⟩
    · exact ⟨_, rfl, k0_off60_eq k 4, rfl, fun _ => rfl⟩
    · exact ⟨_, rfl, k0_off61_eq k 4, rfl, fun _ => rfl⟩
    · exact ⟨_, rfl, k0_off62_eq k 4, rfl, fun _ => rfl⟩
    · exact ⟨_, rfl, k0_off63_eq k 4, rfl, fun _ => rfl⟩
    · exact ⟨_, rfl, k0_off64_eq k 4, rfl, fun _ => rfl⟩
    · exact ⟨_, rfl, k0_off65_eq k 4, rfl, fun _ => rfl⟩
    · exact ⟨_, rfl, k0_off66_eq k 4, rfl, fun _ => rfl⟩
    · exact ⟨_, rfl, k0_off67_eq k 4, rfl, fun _ => rfl⟩
    · exact ⟨_, rfl, k0_off68_eq k 4, rfl, fun _ => rfl⟩
    · exact ⟨_, rfl, k0_off69_eq k 4, rfl, fun _ => rfl⟩
    · exact ⟨_, rfl, k0_off70_eq k 4, rfl, fun _ => rfl⟩
    · exact ⟨_, rfl, k0_off71_eq k 4, rfl, fun _ => rfl⟩
    · exact ⟨_, rfl, k0_off72_eq k 4, rfl, fun _ => rfl⟩
    · exact ⟨_, rfl, k0_off73_eq k 4, rfl, fun _ => rfl⟩
    · exact ⟨_, rfl, k0_off74_eq k 4, rfl, fun _ => rfl⟩
    · exact ⟨_, rfl, k0_off59_eq k 5, rfl, fun _ => rfl⟩
    · exact ⟨_, rfl, k0_off60_eq k 5, rfl, fun _ => rfl⟩
    · exact ⟨_, rfl, k0_off61_eq k 5, rfl, fun _ => rfl⟩
    · exact ⟨_, rfl, k0_off62_eq k 5, rfl, fun _ => rfl⟩
    · exact ⟨_, rfl, k0_off63_eq k 5, rfl, fun _ => rfl⟩
    · exact ⟨_, rfl, k0_off64_eq k 5, rfl, fun _ => rfl⟩
    · exact ⟨_, rfl, k0_off65_eq k 5, rfl, fun _ => rfl⟩
    · exact ⟨_, rfl, k0_off66_eq k 5, rfl, fun _ => rfl⟩
    · exact ⟨_, rfl, k0_off67_eq k 5, rfl, fun _ => rfl⟩
    · exact ⟨_, rfl, k0_off68_eq k 5, rfl, fun _ => rfl⟩
    · exact ⟨_, rfl, k0_off69_eq k 5, rfl, fun _ => rfl⟩
    · exact ⟨_, rfl, k0_off70_eq k 5, rfl, fun _ => rfl⟩
    · exact ⟨_, rfl, k0_off71_eq k 5, rfl, fun _ => rfl⟩
    · exact ⟨_, rfl, k0_off72_eq k 5, rfl, fun _ => rfl⟩
    · exact ⟨_, rfl, k0_off73_eq k 5, rfl, fun _ => rfl⟩
    · exact ⟨_, rfl, k0_off74_eq k 5, rfl, fun _ => rfl⟩
    · exact ⟨_, rfl, k0_off59_eq k 6, rfl, fun _ => rfl⟩
    · exact ⟨_, rfl, k0_off60_eq k 6, rfl, fun _ => rfl⟩
    · exact ⟨_, rfl, k0_off61_eq k 6, rfl, fun _ => rfl⟩
    · exact ⟨_, rfl, k0_off62_eq k 6, rfl, fun _ => rfl⟩
    · exact ⟨_, rfl, k0_off63_eq k 6, rfl, fun _ => rfl⟩
    · exact ⟨_, rfl, k0_off64_eq k 6, rfl, fun _ => rfl⟩
    · exact ⟨_, rfl, k0_off65_eq k 6, rfl, fun _ => rfl⟩
    · exact ⟨_, rfl, k0_off66_eq k 6, rfl, fun _ => rfl⟩
    · exact ⟨_, rfl, k0_off67_eq k 6, rfl, fun _ => rfl⟩
    · exact ⟨_, rfl, k0_off68_eq k 6, rfl, fun _ => rfl⟩
    · exact ⟨_, rfl, k0_off69_eq k 6, rfl, fun _ => rfl⟩
    · exact ⟨_, rfl, k0_off70_eq k 6, rfl, fun _ => rfl⟩
    · exact ⟨_, rfl, k0_off71_eq k 6, rfl, fun _ => rfl⟩
    · exact ⟨_, rfl, k0_off72_eq k 6, rfl, fun _ => rfl⟩
    · exact ⟨_, rfl, k0_off73_eq k 6, rfl, fun _ => rfl⟩
    · exact ⟨_, rfl, k0_off74_eq k 6, rfl, fun _ => rfl⟩
    · exact ⟨_, rfl, k0_off59_eq k 7, rfl, fun _ => rfl⟩
    · exact ⟨_, rfl, k0_off60_eq k 7, rfl, fun _ => rfl⟩
    · exact ⟨_, rfl, k0_off61_eq k 7, rfl, fun _ => rfl⟩
    · exact ⟨_, rfl, k0_off62_eq k 7, rfl, fun _ => rfl⟩
    · exact ⟨_, rfl, k0_off63_eq k 7, rfl, fun _ => rfl⟩
    · exact ⟨_, rfl, k0_off64_eq k 7, rfl, fun _ => rfl⟩
    · exact ⟨_, rfl, k0_off65_eq k 7, rfl, fun _ => rfl⟩
    · exact ⟨_, rfl, k0_off66_eq k 7, rfl, fun _ => rfl⟩
    · exact ⟨_, rfl, k0_off67_eq k 7, rfl, fun _ => rfl⟩
    · exact ⟨_, rfl, k0_off68_eq k 7, rfl, fun _ => rfl⟩
    · exact ⟨_, rfl, k0_off69_eq k 7, rfl, fun _ => rfl⟩
    · exact ⟨_, rfl, k0_off70_eq k 7, rfl, fun _ => rfl⟩
    · exact ⟨_, rfl, k0_off71_eq k 7, rfl, fun _ => rfl⟩
    · exact ⟨_, rfl, k0_off72_eq k 7, rfl, fun _ => rfl⟩
    · exact ⟨_, rfl, k0_off73_eq k 7, rfl, fun _ => rfl⟩
    · exact ⟨_, rfl, k0_off74_eq k 7, rfl, fun _ => rfl⟩
    · exact ⟨_, rfl, k0_off59_eq k 8, rfl, fun _ => rfl⟩
    · exact ⟨_, rfl, k0_off60_eq k 8, rfl, fun _ => rfl⟩
    · exact ⟨_, rfl, k0_off61_eq k 8, rfl, fun _ => rfl⟩
    · exact ⟨_, rfl, k0_off62_eq k 8, rfl, fun _ => rfl⟩
    · exact ⟨_, rfl, k0_off63_eq k 8, rfl, fun _ => rfl⟩
    · exact ⟨_, rfl, k0_off64_eq k 8, rfl, fun _ => rfl⟩
    · exact ⟨_, rfl, k0_off65_eq k 8, rfl, fun _ => rfl⟩
    · exact ⟨_, rfl, k0_off66_eq k 8, rfl, fun _ => rfl⟩
    · exact ⟨_, rfl, k0_off67_eq k 8, rfl, fun _ => rfl⟩
    · exact ⟨_, rfl, k0_off68_eq k 8, rfl, fun _ => rfl⟩
    · exact ⟨_, rfl, k0_off69_eq k 8, rfl, fun _ => rfl⟩
    · exact ⟨_, rfl, k0_off70_eq k 8, rfl, fun _ => rfl⟩
    · exact ⟨_, rfl, k0_off71_eq k 8, rfl, fun _ => rfl⟩
    · exact ⟨_, rfl, k0_off72_eq k 8, rfl, fun _ => rfl⟩
    · exact ⟨_, rfl, k0_off73_eq k 8, rfl, fun _ => rfl⟩
    · exact ⟨_, rfl, k0_off74_eq k 8, rfl, fun _ => rfl⟩
    · exact ⟨_, rfl, k0_off59_eq k 9, rfl, fun _ => rfl⟩
    · exact ⟨_, rfl, k0_off60_eq k 9, rfl, fun _ => rfl⟩
    · exact ⟨_, rfl, k0_off61_eq k 9, rfl, fun _ => rfl⟩
    · exact ⟨_, rfl, k0_off62_eq k 9, rfl, fun _ => rfl⟩
    · exact ⟨_, rfl, k0_off63_eq k 9, rfl, fun _ => rfl⟩
    · exact ⟨_, rfl, k0_off64_eq k 9, rfl, fun _ => rfl⟩
    · exact ⟨_, rfl, k0_off65_eq k 9, rfl, fun _ => rfl⟩
    · exact ⟨_, rfl, k0_off66_eq k 9, rfl, fun _ => rfl⟩
    · exact ⟨_, rfl, k0_off67_eq k 9, rfl, fun _ => rfl⟩
    · exact ⟨_, rfl, k0_off68_eq k 9, rfl, fun _ => rfl⟩
    · exact ⟨_, rfl, k0_off69_eq k 9, rfl, fun _ => rfl⟩
    · exact ⟨_, rfl, k0_off70_eq k 9, rfl, fun _ => rfl⟩
    · exact ⟨_, rfl, k0_off71_eq k 9, rfl, fun _ => rfl⟩
    · exact ⟨_, rfl, k0_off72_eq k 9, rfl, fun _ => rfl⟩
    · exact ⟨_, rfl, k0_off73_eq k 9, rfl, fun _ => rfl⟩
    · exact ⟨_, rfl, k0_off74_eq k 9, rfl, fun _ => rfl⟩
    · exact ⟨_, rfl, k0_off59_eq k 10, rfl, fun _ => rfl⟩
    · exact ⟨_, rfl, k0_off60_eq k 10, rfl, fun _ => rfl⟩
    · exact ⟨_, rfl, k0_off61_eq k 10, rfl, fun _ => rfl⟩
    · exact ⟨_, rfl, k0_off62_eq k 10, rfl, fun _ => rfl⟩
    · exact ⟨_, rfl, k0_off63_eq k 10, rfl, fun _ => rfl⟩
    · exact ⟨_, rfl, k0_off64_eq k 10, rfl, fun _ => rfl⟩
    · exact ⟨_, rfl, k0_off65_eq k 10, rfl, fun _ => rfl⟩
    · exact ⟨_, rfl, k0_off66_eq k 10, rfl, fun _ => rfl⟩
    · exact ⟨_, rfl, k0_off67_eq k 10, rfl, fun _ => rfl⟩
    · exact ⟨_, rfl, k0_off68_eq k 10, rfl, fun _ => rfl⟩
    · exact ⟨_, rfl, k0_off69_eq k 10, rfl, fun _ => rfl⟩
    · exact ⟨_, rfl, k0_off70_eq k 10, rfl, fun _ => rfl⟩
    · exact ⟨_, rfl, k0_off71_eq k 10, rfl, fun _ => rfl⟩
    · exact ⟨_, rfl, k0_off72_eq k 10, rfl, fun _ => rfl⟩
    · exact ⟨_, rfl, k0_off73_eq k 10, rfl, fun _ => rfl⟩
    · exact ⟨_, rfl, k0_off74_eq k 10, rfl, fun _ => rfl⟩
    · exact ⟨_, rfl, k0_off59_eq k 11, rfl, fun _ => rfl⟩
    · exact ⟨_, rfl, k0_off60_eq k 11, rfl, fun _ => rfl⟩
    · exact ⟨_, rfl, k0_off61_eq k 11, rfl, fun _ => rfl⟩
    · exact ⟨_, rfl, k0_off62_eq k 11, rfl, fun _ => rfl⟩
    · exact ⟨_, rfl, k0_off63_eq k 11, rfl, fun _ => rfl⟩
    · exact ⟨_, rfl, k0_off64_eq k 11, rfl, fun _ => rfl⟩
    · exact ⟨_, rfl, k0_off65_eq k 11, rfl, fun _ => rfl⟩
    · exact ⟨_, rfl, k0_off66_eq k 11, rfl, fun _ => rfl⟩
    · exact ⟨_, rfl, k0_off67_eq k 11, rfl, fun _ => rfl⟩
    · exact ⟨_, rfl, k0_off68_eq k 11, rfl, fun _ => rfl⟩
    · exact ⟨_, rfl, k0_off69_eq k 11, rfl, fun _ => rfl⟩
    · exact ⟨_, rfl, k0_off70_eq k 11, rfl, fun _ => rfl⟩
    · exact ⟨_, rfl, k0_off71_eq k 11, rfl, fun _ => rfl⟩
    · exact ⟨_, rfl, k0_off72_eq k 11, rfl, fun _ => rfl⟩
    · exact ⟨_, rfl, k0_off73_eq k 11, rfl, fun _ => rfl⟩
    · exact ⟨_, rfl, k0_off74_eq k 11, rfl, fun _ => rfl⟩
    · exact ⟨_, rfl, k0_off59_eq k 12, rfl, fun _ => rfl⟩
    · exact ⟨_, rfl, k0_off60_eq k 12, rfl, fun _ => rfl⟩
    · exact ⟨_, rfl, k0_off61_eq k 12, rfl, fun _ => rfl⟩
    · exact ⟨_, rfl, k0_off62_eq k 12, rfl, fun _ => rfl⟩
    · exact ⟨_, rfl, k0_off63_eq k 12, rfl, fun _ => rfl⟩
    · exact ⟨_, rfl, k0_off64_eq k 12, rfl, fun _ => rfl⟩
    · exact ⟨_, rfl, k0_off65_eq k 12, rfl, fun _ => rfl⟩
    · exact ⟨_, rfl, k0_off66_eq k 12, rfl, fun _ => rfl⟩
    · exact ⟨_, rfl, k0_off67_eq k 12, rfl, fun _ => rfl⟩
    · exact ⟨_, rfl, k0_off68_eq k 12, rfl, fun _ => rfl⟩
    · exact ⟨_, rfl, k0_off69_eq k 12, rfl, fun _ => rfl⟩
    · exact ⟨_, rfl, k0_off70_eq k 12, rfl, fun _ => rfl⟩
    · exact ⟨_, rfl, k0_off71_eq k 12, rfl, fun _ => rfl⟩
    · exact ⟨_, rfl, k0_off72_eq k 12, rfl, fun _ => rfl⟩
    · exact ⟨_, rfl, k0_off73_eq k 12, rfl, fun _ => rfl⟩
    · exact ⟨_, rfl, k0_off74_eq k 12, rfl, fun _ => rfl⟩
    · exact ⟨_, rfl, k0_off59_eq k 13, rfl, fun _ => rfl⟩
    · exact ⟨_, rfl, k0_off60_eq k 13, rfl, fun _ => rfl⟩
    · exact ⟨_, rfl, k0_off61_eq k 13, rfl, fun _ => rfl⟩
    · exact ⟨_, rfl, k0_off62_eq k 13, rfl, fun _ => rfl⟩
    · exact ⟨_, rfl, k0_off63_eq k 13, rfl, fun _ => rfl⟩
    · exact ⟨_, rfl, k0_off64_eq k 13, rfl, fun _ => rfl⟩
    · exact ⟨_, rfl, k0_off65_eq k 13, rfl, fun _ => rfl⟩
    · exact ⟨_, rfl, k0_off66_eq k 13, rfl, fun _ => rfl⟩
    · exact ⟨_, rfl, k0_off67_eq k 13, rfl, fun _ => rfl⟩
    · exact ⟨_, rfl, k0_off68_eq k 13, rfl, fun _ => rfl⟩
    · exact ⟨_, rfl, k0_off69_eq k 13, rfl, fun _ => rfl⟩
    · exact ⟨_, rfl, k0_off70_eq k 13, rfl, fun _ => rfl⟩
    · exact ⟨_, rfl, k0_off71_eq k 13, rfl, fun _ => rfl⟩
    · exact ⟨_, rfl, k0_off72_eq k 13, rfl, fun _ => rfl⟩
    · exact ⟨_, rfl, k0_off73_eq k 13, rfl, fun _ => rfl⟩
    · exact ⟨_, rfl, k0_off74_eq k 13, rfl, fun _ => rfl⟩
    · exact ⟨_, rfl, k0_off59_eq k 14, rfl, fun _ => rfl⟩
    · exact ⟨_, rfl, k0_off60_eq k 14, rfl, fun _ => rfl⟩
    · exact ⟨_, rfl, k0_off61_eq k 14, rfl, fun _ => rfl⟩
    · exact ⟨_, rfl, k0_off62_eq k 14, rfl, fun _ => rfl⟩
    · exact ⟨_, rfl, k0_off63_eq k 14, rfl, fun _ => rfl⟩
    · exact ⟨_, rfl, k0_off64_eq k 14, rfl, fun _ => rfl⟩
    · exact ⟨_, rfl, k0_off65_eq k 14, rfl, fun _ => rfl⟩
    · exact ⟨_, rfl, k0_off66_eq k 14, rfl, fun _ => rfl⟩
    · exact ⟨_, rfl, k0_off67_eq k 14, rfl, fun _ => rfl⟩
    · exact ⟨_, rfl, k0_off68_eq k 14, rfl, fun _ => rfl⟩
    · exact ⟨_, rfl, k0_off69_eq k 14, rfl, fun _ => rfl⟩
    · exact ⟨_, rfl, k0_off70_eq k 14, rfl, fun _ => rfl⟩
    · exact ⟨_, rfl, k0_off71_eq k 14, rfl, fun _ => rfl⟩
    · exact ⟨_, rfl, k0_off72_eq k 14, rfl, fun _ => rfl⟩
    · exact ⟨_, rfl, k0_off73_eq k 14, rfl, fun _ => rfl⟩
    · exact ⟨_, rfl, k0_off74_eq k 14, rfl, fun _ => rfl⟩
    · exact ⟨_, rfl, k0_off59_eq k 15, rfl, fun _ => rfl⟩
    · exact ⟨_, rfl, k0_off60_eq k 15, rfl, fun _ => rfl⟩
    · exact ⟨_, rfl, k0_off61_eq k 15, rfl, fun _ => rfl⟩
    · exact ⟨_, rfl, k0_off62_eq k 15, rfl, fun _ => rfl⟩
    · exact ⟨_, rfl, k0_off63_eq k 15, rfl, fun _ => rfl⟩
    · exact ⟨_, rfl, k0_off64_eq k 15, rfl, fun _ => rfl⟩
    · exact ⟨_, rfl, k0_off65_eq k 15, rfl, fun _ => rfl⟩
    · exact ⟨_, rfl, k0_off66_eq k 15, rfl, fun _ => rfl⟩
    · exact ⟨_, rfl, k0_off67_eq k 15, rfl, fun _ => rfl⟩
    · exact ⟨_, rfl, k0_off68_eq k 15, rfl, fun _ => rfl⟩
    · exact ⟨_, rfl, k0_off69_eq k 15, rfl, fun _ => rfl⟩
    · exact ⟨_, rfl, k0_off70_eq k 15, rfl, fun _ => rfl⟩
    · exact ⟨_, rfl, k0_off71_eq k 15, rfl, fun _ => rfl⟩
    · exact ⟨_, rfl, k0_off72_eq k 15, rfl, fun _ => rfl⟩
    · exact ⟨_, rfl, k0_off73_eq k 15, rfl, fun _ => rfl⟩
    · exact ⟨_, rfl, k0_off74_eq k 15, rfl, fun _ => rfl⟩

/-- The pieces of trip `k`. -/
abbrev tripL_t5 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (k : Fin k0_t5_loop.trips) : List (View.Piece (Elt F) S128x256 .f32) :=
  (trip_t5 (F := F) 𝒱 d bd i arg2 harg2 arg3 harg3 arg4 harg4 arg5 harg5 arg6 harg6 arg7 harg7 arg8 arg9 v7_r0 v7_r1 k0_t4 arg10 v31 v43 v44 v45 X_arg5 k).1

/-- Trip `k`'s pieces in front of those before it; past the last trip, nothing more. -/
@[irreducible] def pb_t5Step (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (k : ℕ) (prev : List (View.Piece (Elt F) S128x256 .f32)) : List (View.Piece (Elt F) S128x256 .f32) :=
  if h : k < k0_t5_loop.trips then (tripL_t5 (F := F) 𝒱 d bd i arg2 harg2 arg3 harg3 arg4 harg4 arg5 harg5 arg6 harg6 arg7 harg7 arg8 arg9 v7_r0 v7_r1 k0_t4 arg10 v31 v43 v44 v45 X_arg5 ⟨k, h⟩) ++ prev else prev

/-- The pieces of the trips before `k`, last first. -/
def pb_t5 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) : ℕ → List (View.Piece (Elt F) S128x256 .f32)
  | 0 => []
  | k + 1 => pb_t5Step 𝒱 d bd i arg2 harg2 arg3 harg3 arg4 harg4 arg5 harg5 arg6 harg6 arg7 harg7 arg8 arg9 v7_r0 v7_r1 k0_t4 arg10 v31 v43 v44 v45 X_arg5 k (pb_t5 𝒱 d bd i arg2 harg2 arg3 harg3 arg4 harg4 arg5 harg5 arg6 harg6 arg7 harg7 arg8 arg9 v7_r0 v7_r1 k0_t4 arg10 v31 v43 v44 v45 X_arg5 k)

theorem pb_t5_succ (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (k : Fin k0_t5_loop.trips) :
    pb_t5 (F := F) 𝒱 d bd i arg2 harg2 arg3 harg3 arg4 harg4 arg5 harg5 arg6 harg6 arg7 harg7 arg8 arg9 v7_r0 v7_r1 k0_t4 arg10 v31 v43 v44 v45 X_arg5 (k.val + 1) = (tripL_t5 (F := F) 𝒱 d bd i arg2 harg2 arg3 harg3 arg4 harg4 arg5 harg5 arg6 harg6 arg7 harg7 arg8 arg9 v7_r0 v7_r1 k0_t4 arg10 v31 v43 v44 v45 X_arg5 k) ++ (pb_t5 (F := F) 𝒱 d bd i arg2 harg2 arg3 harg3 arg4 harg4 arg5 harg5 arg6 harg6 arg7 harg7 arg8 arg9 v7_r0 v7_r1 k0_t4 arg10 v31 v43 v44 v45 X_arg5 k.val) := by
  rw [pb_t5.eq_2]; unfold pb_t5Step; exact dif_pos k.isLt

/-- Before trip `k` the written buffer holds the pieces of the trips before `k` over its contents `G` at the loop's entry. -/
abbrev inv_t5 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (G : BufTy.Contents (Elt F) arg6.view.ty) (k : ℕ) (_a : BitVec 32) : sProp 𝕄 :=
  iprop((arg5.view.loc (V d (cV i) (jV i)) ↦[arg5.view.set]{fullShare} X_arg5) ∗ (∃ f, (arg6.view.loc (V d (cV i) (jV i)) ↦[arg6.view.set]{fullShare} f) ∗ ⌜f = arg6.view.writes (Elt F) G (pb_t5 (F := F) 𝒱 d bd i arg2 harg2 arg3 harg3 arg4 harg4 arg5 harg5 arg6 harg6 arg7 harg7 arg8 arg9 v7_r0 v7_r1 k0_t4 arg10 v31 v43 v44 v45 X_arg5 k)⌝))

set_option warn.classDefReducibility false in
/-- The loop by that invariant. -/
@[sl_loop] def loopInv_t5 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (E : Set ℕ) (G : BufTy.Contents (Elt F) arg6.view.ty) :
    LoopInv (M := MT nD τ sig (HIx 1) (Elt F) ℕ UU ℕ) Idealize.ShloMosaic.frame (wpE (defs₀ (F := F)) 𝒱 (V d (cV i) (jV i)) bd) E
      k0_t5_loop.lb k0_t5_loop.ub k0_t5_loop.st k0_t5_ok (0#32) (k0_t5_body (F := F) i arg2 harg2 arg3 harg3 arg4 harg4 arg5 harg5 arg6 harg6 arg7 harg7 arg8 arg9 v7_r0 v7_r1 k0_t4 arg10 v31 v43 v44 v45) where
  inv := inv_t5 (F := F) 𝒱 d bd i arg2 harg2 arg3 harg3 arg4 harg4 arg5 harg5 arg6 harg6 arg7 harg7 arg8 arg9 v7_r0 v7_r1 k0_t4 arg10 v31 v43 v44 v45 X_arg5 G
  step k acc := by
    iintro ⟨HR, ⟨%fw, HW, %hw⟩⟩
    iapply (wp_wand_r Idealize.ShloMosaic.frame (wpE (defs₀ (F := F)) 𝒱 (V d (cV i) (jV i)) bd) E)
    isplitl [HR HW]
    · iapply ((trip_t5 (F := F) 𝒱 d bd i arg2 harg2 arg3 harg3 arg4 harg4 arg5 harg5 arg6 harg6 arg7 harg7 arg8 arg9 v7_r0 v7_r1 k0_t4 arg10 v31 v43 v44 v45 X_arg5 k).2.1 E fw acc)
      isplitl [HR]; · iexact HR
      iexact HW
    · iintro %_ ⟨HR, HW⟩
      unfold inv_t5
      isplitl [HR]; · iexact HR
      rw [pb_t5_succ]
      iexists _; isplitl [HW]; · iexact HW
      ipureintro; rw [hw, ← View.writes_append]

/-! ### What the loop leaves -/

/-- The loop runs eight trips, sixteen rows each. -/
theorem trips_t5 : k0_t5_loop.trips = 8 := by decide +kernel

/-- After the loop row `r` of the written buffer holds, at every column, entry `r` of staged row `4 + t4`, whatever
    the buffer held before. -/
theorem fill_t5 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (k0_t4 : Fin k0_t4_loop.trips) (arg10 : BitVec 32) (v31 : BitVec 32) (v43 : BitVec 32) (v44 : BitVec 32) (v45 : BitVec 32) (X_arg5 : BufTy.Contents (Elt F) arg5.view.ty) (G0 : BufTy.Contents (Elt F) arg6.view.ty) (y : S128x256.Idx) :
    arg6.view.read (Elt F) (arg6.view.writes (Elt F) G0 (pb_t5 (F := F) 𝒱 d bd i arg2 harg2 arg3 harg3 arg4 harg4 arg5 harg5 arg6 harg6 arg7 harg7 arg8 arg9 v7_r0 v7_r1 k0_t4 arg10 v31 v43 v44 v45 X_arg5 (Scf.trips k0_t5_loop.lb k0_t5_loop.ub k0_t5_loop.st))) y
      = arg5.view.read (Elt F) X_arg5 (ix2 (⟨4 + k0_t4.val, row_t4_lt k0_t4⟩ : Fin 8) (⟨(y 0).val, by have := idx2_lt0 y; omega⟩ : Fin 256)) :=
  (read_of_trips arg6.view G0 (rowG (entRow arg5.view X_arg5 ⟨4 + k0_t4.val, row_t4_lt k0_t4⟩ 0 (by decide))) k0_t5_loop.trips (pb_t5 (F := F) 𝒱 d bd i arg2 harg2 arg3 harg3 arg4 harg4 arg5 harg5 arg6 harg6 arg7 harg7 arg8 arg9 v7_r0 v7_r1 k0_t4 arg10 v31 v43 v44 v45 X_arg5) (tripL_t5 (F := F) 𝒱 d bd i arg2 harg2 arg3 harg3 arg4 harg4 arg5 harg5 arg6 harg6 arg7 harg7 arg8 arg9 v7_r0 v7_r1 k0_t4 arg10 v31 v43 v44 v45 X_arg5) rfl
    (pb_t5_succ (F := F) 𝒱 d bd i arg2 harg2 arg3 harg3 arg4 harg4 arg5 harg5 arg6 harg6 arg7 harg7 arg8 arg9 v7_r0 v7_r1 k0_t4 arg10 v31 v43 v44 v45 X_arg5) (fun y => (y 0).val / 16)
    (fun k => (trip_t5 (F := F) 𝒱 d bd i arg2 harg2 arg3 harg3 arg4 harg4 arg5 harg5 arg6 harg6 arg7 harg7 arg8 arg9 v7_r0 v7_r1 k0_t4 arg10 v31 v43 v44 v45 X_arg5 k).2.2.1) (fun k => (trip_t5 (F := F) 𝒱 d bd i arg2 harg2 arg3 harg3 arg4 harg4 arg5 harg5 arg6 harg6 arg7 harg7 arg8 arg9 v7_r0 v7_r1 k0_t4 arg10 v31 v43 v44 v45 X_arg5 k).2.2.2) y
    (by rw [trips_t5]; have := idx2_lt0 y; omega)).trans
    (congrArg (fun c => arg5.view.read (Elt F) X_arg5 (ix2 (⟨4 + k0_t4.val, row_t4_lt k0_t4⟩ : Fin 8) c)) (Fin.ext (by simp only; omega)))

end Cert.Proof.KI

end
-- ==== Proof.KILoopB1.lean ====
/-
  The fill loops of a worker's task, each by an invariant.

  A fill loop writes one of the two 128 x 256 buffers a row (or sixteen rows) per trip and touches nothing else, so
  before trip k the buffer is its contents at the loop's entry overwritten by the pieces of the trips before k. One
  trip is taken at a symbolic k, with the pieces its stores write.
-/
import proofs.«210098_g2860448219651_cont_9to1_994_18_alg».proof.Proof.KISetup
import proofs.«210098_g2860448219651_cont_9to1_994_18_alg».proof.Proof.KIFillRow

set_option maxRecDepth 8192
set_option maxHeartbeats 4000000

noncomputable section

namespace Cert.Proof.KI

open Cert.KernelIdeal Cert.KernelIdeal.Gen

open Idealize.ShloMosaic Idealize.ShloMosaic.Tactic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 1) (Elt F) ℕ UU ℕ

/-! ### The loop `k0_t6_loop`: each trip reads sixteen staged entries and spreads each along one of rows 16 k .. 16 k + 15 of the second buffer -/

/-- The trip's one load reads sixteen entries of staged row `4 + t4` from column `128 + 16 k`. -/
theorem k0_off79_eq' : ∀ (t4 : Fin k0_t4_loop.trips) (k : Fin k0_t6_loop.trips), k0_off79 t4 k = ![4 + t4.val, 128 + 16 * k.val] := by
  decide +kernel

/-- The sixteen staged entries trip `k` loads. -/
abbrev ld_t6 (arg5 : Memref sig .scVector .vmem S8x256 .f32) (k0_t4 : Fin k0_t4_loop.trips) (X_arg5 : BufTy.Contents (Elt F) arg5.view.ty) (k : Fin k0_t6_loop.trips) : S1x16.Idx → Elt F .f32 :=
  View.readAt (Elt F) arg5.view (Rect.unit (s := S8x256) (k0_off79 k0_t4 k) S1x16.size (k0_off79_inb k0_t4 k)).toLoadRect X_arg5

/-- Lane `l` of them, extracted and splat, is staged entry `128 + 16 k + l` at every lane. -/
theorem lane_t6 (arg5 : Memref sig .scVector .vmem S8x256 .f32) (k0_t4 : Fin k0_t4_loop.trips) (X_arg5 : BufTy.Contents (Elt F) arg5.view.ty) (k : Fin k0_t6_loop.trips)
    (l : ℕ) (hl : l < 16) (hr : 16 * k.val + l < 128) (hc1 : S1x16.ShapeCasts S16) (hs : S16.Slices ![l] S1) (hp : ∀ a, (![0] : Fin S1.rank → ℕ) a < S1.size a)
    (hc2 : S16.ShapeCasts S1x16) (x : S1x16.Idx) :
    shapeCast S1x16 (broadcast S16 (extractAt ![0] (extractStridedSlice S1 ![l] (shapeCast S16 (ld_t6 (F := F) arg5 k0_t4 X_arg5 k) hc1) hs) hp)) hc2 x
      = entRow arg5.view X_arg5 ⟨4 + k0_t4.val, row_t4_lt k0_t4⟩ 128 (by decide) ⟨16 * k.val + l, hr⟩ :=
  (lane_splat_apply _ l hl hc1 hs hp hc2 x).trans
    ((readAt_lane arg5.view X_arg5 _ _ (4 + k0_t4.val) (128 + 16 * k.val) (k0_off79_eq' k0_t4 k) l hl (row_t4_lt k0_t4) (by omega)).trans
      (congrArg (fun c => arg5.view.read (Elt F) X_arg5 (ix2 (⟨4 + k0_t4.val, row_t4_lt k0_t4⟩ : Fin 8) c)) (Fin.ext (by simp only; omega))))

/-- One trip at a symbolic `k`, with the pieces its stores write; each is a block of the buffer whose row `r` holds
    staged entry `128 + r` at every column, and together they cover rows `16 k .. 16 k + 15`. -/
@[irreducible] def trip_t6 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (k : Fin k0_t6_loop.trips) :
    { Lw : List (View.Piece (Elt F) S128x256 .f32) // (∀ (E : Set ℕ) (fw : BufTy.Contents (Elt F) arg7.view.ty) (acc : BitVec 32),
      (iprop((arg5.view.loc (V d (cV i) (jV i)) ↦[arg5.view.set]{fullShare} X_arg5) ∗ (arg7.view.loc (V d (cV i) (jV i)) ↦[arg7.view.set]{fullShare} fw)) : sProp 𝕄)
      ⊢ wp frame (wpE (defs₀ (F := F)) 𝒱 (V d (cV i) (jV i)) bd) E (k0_t6_body (F := F) i arg2 harg2 arg3 harg3 arg4 harg4 arg5 harg5 arg6 harg6 arg7 harg7 arg8 arg9 v7_r0 v7_r1 v2 k0_t4 v71 c2_i32_50 v101 v102 k acc)
          (fun _ => iprop((arg5.view.loc (V d (cV i) (jV i)) ↦[arg5.view.set]{fullShare} X_arg5) ∗ (arg7.view.loc (V d (cV i) (jV i)) ↦[arg7.view.set]{fullShare} arg7.view.writes (Elt F) fw Lw))))
      ∧ (∀ p ∈ Lw, ∀ x : p.1.shape.Idx, p.2 x = rowG (entRow arg5.view X_arg5 ⟨4 + k0_t4.val, row_t4_lt k0_t4⟩ 128 (by decide)) (p.1.emb x))
      ∧ (∀ y : S128x256.Idx, (y 0).val / 16 = k.val → ∃ p ∈ Lw, y ∈ p.1.set) } := by
  have hk : k.val < 8 := Nat.lt_of_lt_of_le k.isLt k0_t6_abs.2.1
  refine ⟨?_, fun E fw acc => ?run, ?agree, ?cover⟩
  case run =>
    unfold k0_t6_body
    iintro ⟨HR, HW⟩
    sl_exec_parts
    sl_step
    sl_close
  case agree =>
    sl_unfold_run_names
    have hr0 : 16 * k.val + 0 < 128 := by omega
    have hr1 : 16 * k.val + 1 < 128 := by omega
    have hr2 : 16 * k.val + 2 < 128 := by omega
    have hr3 : 16 * k.val + 3 < 128 := by omega
    have hr4 : 16 * k.val + 4 < 128 := by omega
    have hr5 : 16 * k.val + 5 < 128 := by omega
    have hr6 : 16 * k.val + 6 < 128 := by omega
    have hr7 : 16 * k.val + 7 < 128 := by omega
    have hr8 : 16 * k.val + 8 < 128 := by omega
    have hr9 : 16 * k.val + 9 < 128 := by omega
    have hr10 : 16 * k.val + 10 < 128 := by omega
    have hr11 : 16 * k.val + 11 < 128 := by omega
    have hr12 : 16 * k.val + 12 < 128 := by omega
    have hr13 : 16 * k.val + 13 < 128 := by omega
    have hr14 : 16 * k.val + 14 < 128 := by omega
    have hr15 : 16 * k.val + 15 < 128 := by omega
    have hL0 := lane_t6 (F := F) arg5 k0_t4 X_arg5 k 0 (by decide) hr0 (by decide) (by decide) (by decide) (by decide)
    have hL1 := lane_t6 (F := F) arg5 k0_t4 X_arg5 k 1 (by decide) hr1 (by decide) (by decide) (by decide) (by decide)
    have hL2 := lane_t6 (F := F) arg5 k0_t4 X_arg5 k 2 (by decide) hr2 (by decide) (by decide) (by decide) (by decide)
    have hL3 := lane_t6 (F := F) arg5 k0_t4 X_arg5 k 3 (by decide) hr3 (by decide) (by decide) (by decide) (by decide)
    have hL4 := lane_t6 (F := F) arg5 k0_t4 X_arg5 k 4 (by decide) hr4 (by decide) (by decide) (by decide) (by decide)
    have hL5 := lane_t6 (F := F) arg5 k0_t4 X_arg5 k 5 (by decide) hr5 (by decide) (by decide) (by decide) (by decide)
    have hL6 := lane_t6 (F := F) arg5 k0_t4 X_arg5 k 6 (by decide) hr6 (by decide) (by decide) (by decide) (by decide)
    have hL7 := lane_t6 (F := F) arg5 k0_t4 X_arg5 k 7 (by decide) hr7 (by decide) (by decide) (by decide) (by decide)
    have hL8 := lane_t6 (F := F) arg5 k0_t4 X_arg5 k 8 (by decide) hr8 (by decide) (by decide) (by decide) (by decide)
    have hL9 := lane_t6 (F := F) arg5 k0_t4 X_arg5 k 9 (by decide) hr9 (by decide) (by decide) (by decide) (by decide)
    have hL10 := lane_t6 (F := F) arg5 k0_t4 X_arg5 k 10 (by decide) hr10 (by decide) (by decide) (by decide) (by decide)
    have hL11 := lane_t6 (F := F) arg5 k0_t4 X_arg5 k 11 (by decide) hr11 (by decide) (by decide) (by decide) (by decide)
    have hL12 := lane_t6 (F := F) arg5 k0_t4 X_arg5 k 12 (by decide) hr12 (by decide) (by decide) (by decide) (by decide)
    have hL13 := lane_t6 (F := F) arg5 k0_t4 X_arg5 k 13 (by decide) hr13 (by decide) (by decide) (by decide) (by decide)
    have hL14 := lane_t6 (F := F) arg5 k0_t4 X_arg5 k 14 (by decide) hr14 (by decide) (by decide) (by decide) (by decide)
    have hL15 := lane_t6 (F := F) arg5 k0_t4 X_arg5 k 15 (by decide) hr15 (by decide) (by decide) (by decide) (by decide)
    repeat' (first | exact fun _ h => absurd h List.not_mem_nil | refine List.forall_mem_cons.mpr ⟨?_, ?_⟩)
    · exact rowG_piece _ (k0_off95 k 15#32) (k0_off95_inb k 15) (16 * k.val + 15) 240 (k0_off95_eq k 15) hr15 _ hL15
    · exact rowG_piece _ (k0_off94 k 15#32) (k0_off94_inb k 15) (16 * k.val + 15) 224 (k0_off94_eq k 15) hr15 _ hL15
    · exact rowG_piece _ (k0_off93 k 15#32) (k0_off93_inb k 15) (16 * k.val + 15) 208 (k0_off93_eq k 15) hr15 _ hL15
    · exact rowG_piece _ (k0_off92 k 15#32) (k0_off92_inb k 15) (16 * k.val + 15) 192 (k0_off92_eq k 15) hr15 _ hL15
    · exact rowG_piece _ (k0_off91 k 15#32) (k0_off91_inb k 15) (16 * k.val + 15) 176 (k0_off91_eq k 15) hr15 _ hL15
    · exact rowG_piece _ (k0_off90 k 15#32) (k0_off90_inb k 15) (16 * k.val + 15) 160 (k0_off90_eq k 15) hr15 _ hL15
    · exact rowG_piece _ (k0_off89 k 15#32) (k0_off89_inb k 15) (16 * k.val + 15) 144 (k0_off89_eq k 15) hr15 _ hL15
    · exact rowG_piece _ (k0_off88 k 15#32) (k0_off88_inb k 15) (16 * k.val + 15) 128 (k0_off88_eq k 15) hr15 _ hL15
    · exact rowG_piece _ (k0_off87 k 15#32) (k0_off87_inb k 15) (16 * k.val + 15) 112 (k0_off87_eq k 15) hr15 _ hL15
    · exact rowG_piece _ (k0_off86 k 15#32) (k0_off86_inb k 15) (16 * k.val + 15) 96 (k0_off86_eq k 15) hr15 _ hL15
    · exact rowG_piece _ (k0_off85 k 15#32) (k0_off85_inb k 15) (16 * k.val + 15) 80 (k0_off85_eq k 15) hr15 _ hL15
    · exact rowG_piece _ (k0_off84 k 15#32) (k0_off84_inb k 15) (16 * k.val + 15) 64 (k0_off84_eq k 15) hr15 _ hL15
    · exact rowG_piece _ (k0_off83 k 15#32) (k0_off83_inb k 15) (16 * k.val + 15) 48 (k0_off83_eq k 15) hr15 _ hL15
    · exact rowG_piece _ (k0_off82 k 15#32) (k0_off82_inb k 15) (16 * k.val + 15) 32 (k0_off82_eq k 15) hr15 _ hL15
    · exact rowG_piece _ (k0_off81 k 15#32) (k0_off81_inb k 15) (16 * k.val + 15) 16 (k0_off81_eq k 15) hr15 _ hL15
    · exact rowG_piece _ (k0_off80 k 15#32) (k0_off80_inb k 15) (16 * k.val + 15) 0 (k0_off80_eq k 15) hr15 _ hL15
    · exact rowG_piece _ (k0_off95 k 14#32) (k0_off95_inb k 14) (16 * k.val + 14) 240 (k0_off95_eq k 14) hr14 _ hL14
    · exact rowG_piece _ (k0_off94 k 14#32) (k0_off94_inb k 14) (16 * k.val + 14) 224 (k0_off94_eq k 14) hr14 _ hL14
    · exact rowG_piece _ (k0_off93 k 14#32) (k0_off93_inb k 14) (16 * k.val + 14) 208 (k0_off93_eq k 14) hr14 _ hL14
    · exact rowG_piece _ (k0_off92 k 14#32) (k0_off92_inb k 14) (16 * k.val + 14) 192 (k0_off92_eq k 14) hr14 _ hL14
    · exact rowG_piece _ (k0_off91 k 14#32) (k0_off91_inb k 14) (16 * k.val + 14) 176 (k0_off91_eq k 14) hr14 _ hL14
    · exact rowG_piece _ (k0_off90 k 14#32) (k0_off90_inb k 14) (16 * k.val + 14) 160 (k0_off90_eq k 14) hr14 _ hL14
    · exact rowG_piece _ (k0_off89 k 14#32) (k0_off89_inb k 14) (16 * k.val + 14) 144 (k0_off89_eq k 14) hr14 _ hL14
    · exact rowG_piece _ (k0_off88 k 14#32) (k0_off88_inb k 14) (16 * k.val + 14) 128 (k0_off88_eq k 14) hr14 _ hL14
    · exact rowG_piece _ (k0_off87 k 14#32) (k0_off87_inb k 14) (16 * k.val + 14) 112 (k0_off87_eq k 14) hr14 _ hL14
    · exact rowG_piece _ (k0_off86 k 14#32) (k0_off86_inb k 14) (16 * k.val + 14) 96 (k0_off86_eq k 14) hr14 _ hL14
    · exact rowG_piece _ (k0_off85 k 14#32) (k0_off85_inb k 14) (16 * k.val + 14) 80 (k0_off85_eq k 14) hr14 _ hL14
    · exact rowG_piece _ (k0_off84 k 14#32) (k0_off84_inb k 14) (16 * k.val + 14) 64 (k0_off84_eq k 14) hr14 _ hL14
    · exact rowG_piece _ (k0_off83 k 14#32) (k0_off83_inb k 14) (16 * k.val + 14) 48 (k0_off83_eq k 14) hr14 _ hL14
    · exact rowG_piece _ (k0_off82 k 14#32) (k0_off82_inb k 14) (16 * k.val + 14) 32 (k0_off82_eq k 14) hr14 _ hL14
    · exact rowG_piece _ (k0_off81 k 14#32) (k0_off81_inb k 14) (16 * k.val + 14) 16 (k0_off81_eq k 14) hr14 _ hL14
    · exact rowG_piece _ (k0_off80 k 14#32) (k0_off80_inb k 14) (16 * k.val + 14) 0 (k0_off80_eq k 14) hr14 _ hL14
    · exact rowG_piece _ (k0_off95 k 13#32) (k0_off95_inb k 13) (16 * k.val + 13) 240 (k0_off95_eq k 13) hr13 _ hL13
    · exact rowG_piece _ (k0_off94 k 13#32) (k0_off94_inb k 13) (16 * k.val + 13) 224 (k0_off94_eq k 13) hr13 _ hL13
    · exact rowG_piece _ (k0_off93 k 13#32) (k0_off93_inb k 13) (16 * k.val + 13) 208 (k0_off93_eq k 13) hr13 _ hL13
    · exact rowG_piece _ (k0_off92 k 13#32) (k0_off92_inb k 13) (16 * k.val + 13) 192 (k0_off92_eq k 13) hr13 _ hL13
    · exact rowG_piece _ (k0_off91 k 13#32) (k0_off91_inb k 13) (16 * k.val + 13) 176 (k0_off91_eq k 13) hr13 _ hL13
    · exact rowG_piece _ (k0_off90 k 13#32) (k0_off90_inb k 13) (16 * k.val + 13) 160 (k0_off90_eq k 13) hr13 _ hL13
    · exact rowG_piece _ (k0_off89 k 13#32) (k0_off89_inb k 13) (16 * k.val + 13) 144 (k0_off89_eq k 13) hr13 _ hL13
    · exact rowG_piece _ (k0_off88 k 13#32) (k0_off88_inb k 13) (16 * k.val + 13) 128 (k0_off88_eq k 13) hr13 _ hL13
    · exact rowG_piece _ (k0_off87 k 13#32) (k0_off87_inb k 13) (16 * k.val + 13) 112 (k0_off87_eq k 13) hr13 _ hL13
    · exact rowG_piece _ (k0_off86 k 13#32) (k0_off86_inb k 13) (16 * k.val + 13) 96 (k0_off86_eq k 13) hr13 _ hL13
    · exact rowG_piece _ (k0_off85 k 13#32) (k0_off85_inb k 13) (16 * k.val + 13) 80 (k0_off85_eq k 13) hr13 _ hL13
    · exact rowG_piece _ (k0_off84 k 13#32) (k0_off84_inb k 13) (16 * k.val + 13) 64 (k0_off84_eq k 13) hr13 _ hL13
    · exact rowG_piece _ (k0_off83 k 13#32) (k0_off83_inb k 13) (16 * k.val + 13) 48 (k0_off83_eq k 13) hr13 _ hL13
    · exact rowG_piece _ (k0_off82 k 13#32) (k0_off82_inb k 13) (16 * k.val + 13) 32 (k0_off82_eq k 13) hr13 _ hL13
    · exact rowG_piece _ (k0_off81 k 13#32) (k0_off81_inb k 13) (16 * k.val + 13) 16 (k0_off81_eq k 13) hr13 _ hL13
    · exact rowG_piece _ (k0_off80 k 13#32) (k0_off80_inb k 13) (16 * k.val + 13) 0 (k0_off80_eq k 13) hr13 _ hL13
    · exact rowG_piece _ (k0_off95 k 12#32) (k0_off95_inb k 12) (16 * k.val + 12) 240 (k0_off95_eq k 12) hr12 _ hL12
    · exact rowG_piece _ (k0_off94 k 12#32) (k0_off94_inb k 12) (16 * k.val + 12) 224 (k0_off94_eq k 12) hr12 _ hL12
    · exact rowG_piece _ (k0_off93 k 12#32) (k0_off93_inb k 12) (16 * k.val + 12) 208 (k0_off93_eq k 12) hr12 _ hL12
    · exact rowG_piece _ (k0_off92 k 12#32) (k0_off92_inb k 12) (16 * k.val + 12) 192 (k0_off92_eq k 12) hr12 _ hL12
    · exact rowG_piece _ (k0_off91 k 12#32) (k0_off91_inb k 12) (16 * k.val + 12) 176 (k0_off91_eq k 12) hr12 _ hL12
    · exact rowG_piece _ (k0_off90 k 12#32) (k0_off90_inb k 12) (16 * k.val + 12) 160 (k0_off90_eq k 12) hr12 _ hL12
    · exact rowG_piece _ (k0_off89 k 12#32) (k0_off89_inb k 12) (16 * k.val + 12) 144 (k0_off89_eq k 12) hr12 _ hL12
    · exact rowG_piece _ (k0_off88 k 12#32) (k0_off88_inb k 12) (16 * k.val + 12) 128 (k0_off88_eq k 12) hr12 _ hL12
    · exact rowG_piece _ (k0_off87 k 12#32) (k0_off87_inb k 12) (16 * k.val + 12) 112 (k0_off87_eq k 12) hr12 _ hL12
    · exact rowG_piece _ (k0_off86 k 12#32) (k0_off86_inb k 12) (16 * k.val + 12) 96 (k0_off86_eq k 12) hr12 _ hL12
    · exact rowG_piece _ (k0_off85 k 12#32) (k0_off85_inb k 12) (16 * k.val + 12) 80 (k0_off85_eq k 12) hr12 _ hL12
    · exact rowG_piece _ (k0_off84 k 12#32) (k0_off84_inb k 12) (16 * k.val + 12) 64 (k0_off84_eq k 12) hr12 _ hL12
    · exact rowG_piece _ (k0_off83 k 12#32) (k0_off83_inb k 12) (16 * k.val + 12) 48 (k0_off83_eq k 12) hr12 _ hL12
    · exact rowG_piece _ (k0_off82 k 12#32) (k0_off82_inb k 12) (16 * k.val + 12) 32 (k0_off82_eq k 12) hr12 _ hL12
    · exact rowG_piece _ (k0_off81 k 12#32) (k0_off81_inb k 12) (16 * k.val + 12) 16 (k0_off81_eq k 12) hr12 _ hL12
    · exact rowG_piece _ (k0_off80 k 12#32) (k0_off80_inb k 12) (16 * k.val + 12) 0 (k0_off80_eq k 12) hr12 _ hL12
    · exact rowG_piece _ (k0_off95 k 11#32) (k0_off95_inb k 11) (16 * k.val + 11) 240 (k0_off95_eq k 11) hr11 _ hL11
    · exact rowG_piece _ (k0_off94 k 11#32) (k0_off94_inb k 11) (16 * k.val + 11) 224 (k0_off94_eq k 11) hr11 _ hL11
    · exact rowG_piece _ (k0_off93 k 11#32) (k0_off93_inb k 11) (16 * k.val + 11) 208 (k0_off93_eq k 11) hr11 _ hL11
    · exact rowG_piece _ (k0_off92 k 11#32) (k0_off92_inb k 11) (16 * k.val + 11) 192 (k0_off92_eq k 11) hr11 _ hL11
    · exact rowG_piece _ (k0_off91 k 11#32) (k0_off91_inb k 11) (16 * k.val + 11) 176 (k0_off91_eq k 11) hr11 _ hL11
    · exact rowG_piece _ (k0_off90 k 11#32) (k0_off90_inb k 11) (16 * k.val + 11) 160 (k0_off90_eq k 11) hr11 _ hL11
    · exact rowG_piece _ (k0_off89 k 11#32) (k0_off89_inb k 11) (16 * k.val + 11) 144 (k0_off89_eq k 11) hr11 _ hL11
    · exact rowG_piece _ (k0_off88 k 11#32) (k0_off88_inb k 11) (16 * k.val + 11) 128 (k0_off88_eq k 11) hr11 _ hL11
    · exact rowG_piece _ (k0_off87 k 11#32) (k0_off87_inb k 11) (16 * k.val + 11) 112 (k0_off87_eq k 11) hr11 _ hL11
    · exact rowG_piece _ (k0_off86 k 11#32) (k0_off86_inb k 11) (16 * k.val + 11) 96 (k0_off86_eq k 11) hr11 _ hL11
    · exact rowG_piece _ (k0_off85 k 11#32) (k0_off85_inb k 11) (16 * k.val + 11) 80 (k0_off85_eq k 11) hr11 _ hL11
    · exact rowG_piece _ (k0_off84 k 11#32) (k0_off84_inb k 11) (16 * k.val + 11) 64 (k0_off84_eq k 11) hr11 _ hL11
    · exact rowG_piece _ (k0_off83 k 11#32) (k0_off83_inb k 11) (16 * k.val + 11) 48 (k0_off83_eq k 11) hr11 _ hL11
    · exact rowG_piece _ (k0_off82 k 11#32) (k0_off82_inb k 11) (16 * k.val + 11) 32 (k0_off82_eq k 11) hr11 _ hL11
    · exact rowG_piece _ (k0_off81 k 11#32) (k0_off81_inb k 11) (16 * k.val + 11) 16 (k0_off81_eq k 11) hr11 _ hL11
    · exact rowG_piece _ (k0_off80 k 11#32) (k0_off80_inb k 11) (16 * k.val + 11) 0 (k0_off80_eq k 11) hr11 _ hL11
    · exact rowG_piece _ (k0_off95 k 10#32) (k0_off95_inb k 10) (16 * k.val + 10) 240 (k0_off95_eq k 10) hr10 _ hL10
    · exact rowG_piece _ (k0_off94 k 10#32) (k0_off94_inb k 10) (16 * k.val + 10) 224 (k0_off94_eq k 10) hr10 _ hL10
    · exact rowG_piece _ (k0_off93 k 10#32) (k0_off93_inb k 10) (16 * k.val + 10) 208 (k0_off93_eq k 10) hr10 _ hL10
    · exact rowG_piece _ (k0_off92 k 10#32) (k0_off92_inb k 10) (16 * k.val + 10) 192 (k0_off92_eq k 10) hr10 _ hL10
    · exact rowG_piece _ (k0_off91 k 10#32) (k0_off91_inb k 10) (16 * k.val + 10) 176 (k0_off91_eq k 10) hr10 _ hL10
    · exact rowG_piece _ (k0_off90 k 10#32) (k0_off90_inb k 10) (16 * k.val + 10) 160 (k0_off90_eq k 10) hr10 _ hL10
    · exact rowG_piece _ (k0_off89 k 10#32) (k0_off89_inb k 10) (16 * k.val + 10) 144 (k0_off89_eq k 10) hr10 _ hL10
    · exact rowG_piece _ (k0_off88 k 10#32) (k0_off88_inb k 10) (16 * k.val + 10) 128 (k0_off88_eq k 10) hr10 _ hL10
    · exact rowG_piece _ (k0_off87 k 10#32) (k0_off87_inb k 10) (16 * k.val + 10) 112 (k0_off87_eq k 10) hr10 _ hL10
    · exact rowG_piece _ (k0_off86 k 10#32) (k0_off86_inb k 10) (16 * k.val + 10) 96 (k0_off86_eq k 10) hr10 _ hL10
    · exact rowG_piece _ (k0_off85 k 10#32) (k0_off85_inb k 10) (16 * k.val + 10) 80 (k0_off85_eq k 10) hr10 _ hL10
    · exact rowG_piece _ (k0_off84 k 10#32) (k0_off84_inb k 10) (16 * k.val + 10) 64 (k0_off84_eq k 10) hr10 _ hL10
    · exact rowG_piece _ (k0_off83 k 10#32) (k0_off83_inb k 10) (16 * k.val + 10) 48 (k0_off83_eq k 10) hr10 _ hL10
    · exact rowG_piece _ (k0_off82 k 10#32) (k0_off82_inb k 10) (16 * k.val + 10) 32 (k0_off82_eq k 10) hr10 _ hL10
    · exact rowG_piece _ (k0_off81 k 10#32) (k0_off81_inb k 10) (16 * k.val + 10) 16 (k0_off81_eq k 10) hr10 _ hL10
    · exact rowG_piece _ (k0_off80 k 10#32) (k0_off80_inb k 10) (16 * k.val + 10) 0 (k0_off80_eq k 10) hr10 _ hL10
    · exact rowG_piece _ (k0_off95 k 9#32) (k0_off95_inb k 9) (16 * k.val + 9) 240 (k0_off95_eq k 9) hr9 _ hL9
    · exact rowG_piece _ (k0_off94 k 9#32) (k0_off94_inb k 9) (16 * k.val + 9) 224 (k0_off94_eq k 9) hr9 _ hL9
    · exact rowG_piece _ (k0_off93 k 9#32) (k0_off93_inb k 9) (16 * k.val + 9) 208 (k0_off93_eq k 9) hr9 _ hL9
    · exact rowG_piece _ (k0_off92 k 9#32) (k0_off92_inb k 9) (16 * k.val + 9) 192 (k0_off92_eq k 9) hr9 _ hL9
    · exact rowG_piece _ (k0_off91 k 9#32) (k0_off91_inb k 9) (16 * k.val + 9) 176 (k0_off91_eq k 9) hr9 _ hL9
    · exact rowG_piece _ (k0_off90 k 9#32) (k0_off90_inb k 9) (16 * k.val + 9) 160 (k0_off90_eq k 9) hr9 _ hL9
    · exact rowG_piece _ (k0_off89 k 9#32) (k0_off89_inb k 9) (16 * k.val + 9) 144 (k0_off89_eq k 9) hr9 _ hL9
    · exact rowG_piece _ (k0_off88 k 9#32) (k0_off88_inb k 9) (16 * k.val + 9) 128 (k0_off88_eq k 9) hr9 _ hL9
    · exact rowG_piece _ (k0_off87 k 9#32) (k0_off87_inb k 9) (16 * k.val + 9) 112 (k0_off87_eq k 9) hr9 _ hL9
    · exact rowG_piece _ (k0_off86 k 9#32) (k0_off86_inb k 9) (16 * k.val + 9) 96 (k0_off86_eq k 9) hr9 _ hL9
    · exact rowG_piece _ (k0_off85 k 9#32) (k0_off85_inb k 9) (16 * k.val + 9) 80 (k0_off85_eq k 9) hr9 _ hL9
    · exact rowG_piece _ (k0_off84 k 9#32) (k0_off84_inb k 9) (16 * k.val + 9) 64 (k0_off84_eq k 9) hr9 _ hL9
    · exact rowG_piece _ (k0_off83 k 9#32) (k0_off83_inb k 9) (16 * k.val + 9) 48 (k0_off83_eq k 9) hr9 _ hL9
    · exact rowG_piece _ (k0_off82 k 9#32) (k0_off82_inb k 9) (16 * k.val + 9) 32 (k0_off82_eq k 9) hr9 _ hL9
    · exact rowG_piece _ (k0_off81 k 9#32) (k0_off81_inb k 9) (16 * k.val + 9) 16 (k0_off81_eq k 9) hr9 _ hL9
    · exact rowG_piece _ (k0_off80 k 9#32) (k0_off80_inb k 9) (16 * k.val + 9) 0 (k0_off80_eq k 9) hr9 _ hL9
    · exact rowG_piece _ (k0_off95 k 8#32) (k0_off95_inb k 8) (16 * k.val + 8) 240 (k0_off95_eq k 8) hr8 _ hL8
    · exact rowG_piece _ (k0_off94 k 8#32) (k0_off94_inb k 8) (16 * k.val + 8) 224 (k0_off94_eq k 8) hr8 _ hL8
    · exact rowG_piece _ (k0_off93 k 8#32) (k0_off93_inb k 8) (16 * k.val + 8) 208 (k0_off93_eq k 8) hr8 _ hL8
    · exact rowG_piece _ (k0_off92 k 8#32) (k0_off92_inb k 8) (16 * k.val + 8) 192 (k0_off92_eq k 8) hr8 _ hL8
    · exact rowG_piece _ (k0_off91 k 8#32) (k0_off91_inb k 8) (16 * k.val + 8) 176 (k0_off91_eq k 8) hr8 _ hL8
    · exact rowG_piece _ (k0_off90 k 8#32) (k0_off90_inb k 8) (16 * k.val + 8) 160 (k0_off90_eq k 8) hr8 _ hL8
    · exact rowG_piece _ (k0_off89 k 8#32) (k0_off89_inb k 8) (16 * k.val + 8) 144 (k0_off89_eq k 8) hr8 _ hL8
    · exact rowG_piece _ (k0_off88 k 8#32) (k0_off88_inb k 8) (16 * k.val + 8) 128 (k0_off88_eq k 8) hr8 _ hL8
    · exact rowG_piece _ (k0_off87 k 8#32) (k0_off87_inb k 8) (16 * k.val + 8) 112 (k0_off87_eq k 8) hr8 _ hL8
    · exact rowG_piece _ (k0_off86 k 8#32) (k0_off86_inb k 8) (16 * k.val + 8) 96 (k0_off86_eq k 8) hr8 _ hL8
    · exact rowG_piece _ (k0_off85 k 8#32) (k0_off85_inb k 8) (16 * k.val + 8) 80 (k0_off85_eq k 8) hr8 _ hL8
    · exact rowG_piece _ (k0_off84 k 8#32) (k0_off84_inb k 8) (16 * k.val + 8) 64 (k0_off84_eq k 8) hr8 _ hL8
    · exact rowG_piece _ (k0_off83 k 8#32) (k0_off83_inb k 8) (16 * k.val + 8) 48 (k0_off83_eq k 8) hr8 _ hL8
    · exact rowG_piece _ (k0_off82 k 8#32) (k0_off82_inb k 8) (16 * k.val + 8) 32 (k0_off82_eq k 8) hr8 _ hL8
    · exact rowG_piece _ (k0_off81 k 8#32) (k0_off81_inb k 8) (16 * k.val + 8) 16 (k0_off81_eq k 8) hr8 _ hL8
    · exact rowG_piece _ (k0_off80 k 8#32) (k0_off80_inb k 8) (16 * k.val + 8) 0 (k0_off80_eq k 8) hr8 _ hL8
    · exact rowG_piece _ (k0_off95 k 7#32) (k0_off95_inb k 7) (16 * k.val + 7) 240 (k0_off95_eq k 7) hr7 _ hL7
    · exact rowG_piece _ (k0_off94 k 7#32) (k0_off94_inb k 7) (16 * k.val + 7) 224 (k0_off94_eq k 7) hr7 _ hL7
    · exact rowG_piece _ (k0_off93 k 7#32) (k0_off93_inb k 7) (16 * k.val + 7) 208 (k0_off93_eq k 7) hr7 _ hL7
    · exact rowG_piece _ (k0_off92 k 7#32) (k0_off92_inb k 7) (16 * k.val + 7) 192 (k0_off92_eq k 7) hr7 _ hL7
    · exact rowG_piece _ (k0_off91 k 7#32) (k0_off91_inb k 7) (16 * k.val + 7) 176 (k0_off91_eq k 7) hr7 _ hL7
    · exact rowG_piece _ (k0_off90 k 7#32) (k0_off90_inb k 7) (16 * k.val + 7) 160 (k0_off90_eq k 7) hr7 _ hL7
    · exact rowG_piece _ (k0_off89 k 7#32) (k0_off89_inb k 7) (16 * k.val + 7) 144 (k0_off89_eq k 7) hr7 _ hL7
    · exact rowG_piece _ (k0_off88 k 7#32) (k0_off88_inb k 7) (16 * k.val + 7) 128 (k0_off88_eq k 7) hr7 _ hL7
    · exact rowG_piece _ (k0_off87 k 7#32) (k0_off87_inb k 7) (16 * k.val + 7) 112 (k0_off87_eq k 7) hr7 _ hL7
    · exact rowG_piece _ (k0_off86 k 7#32) (k0_off86_inb k 7) (16 * k.val + 7) 96 (k0_off86_eq k 7) hr7 _ hL7
    · exact rowG_piece _ (k0_off85 k 7#32) (k0_off85_inb k 7) (16 * k.val + 7) 80 (k0_off85_eq k 7) hr7 _ hL7
    · exact rowG_piece _ (k0_off84 k 7#32) (k0_off84_inb k 7) (16 * k.val + 7) 64 (k0_off84_eq k 7) hr7 _ hL7
    · exact rowG_piece _ (k0_off83 k 7#32) (k0_off83_inb k 7) (16 * k.val + 7) 48 (k0_off83_eq k 7) hr7 _ hL7
    · exact rowG_piece _ (k0_off82 k 7#32) (k0_off82_inb k 7) (16 * k.val + 7) 32 (k0_off82_eq k 7) hr7 _ hL7
    · exact rowG_piece _ (k0_off81 k 7#32) (k0_off81_inb k 7) (16 * k.val + 7) 16 (k0_off81_eq k 7) hr7 _ hL7
    · exact rowG_piece _ (k0_off80 k 7#32) (k0_off80_inb k 7) (16 * k.val + 7) 0 (k0_off80_eq k 7) hr7 _ hL7
    · exact rowG_piece _ (k0_off95 k 6#32) (k0_off95_inb k 6) (16 * k.val + 6) 240 (k0_off95_eq k 6) hr6 _ hL6
    · exact rowG_piece _ (k0_off94 k 6#32) (k0_off94_inb k 6) (16 * k.val + 6) 224 (k0_off94_eq k 6) hr6 _ hL6
    · exact rowG_piece _ (k0_off93 k 6#32) (k0_off93_inb k 6) (16 * k.val + 6) 208 (k0_off93_eq k 6) hr6 _ hL6
    · exact rowG_piece _ (k0_off92 k 6#32) (k0_off92_inb k 6) (16 * k.val + 6) 192 (k0_off92_eq k 6) hr6 _ hL6
    · exact rowG_piece _ (k0_off91 k 6#32) (k0_off91_inb k 6) (16 * k.val + 6) 176 (k0_off91_eq k 6) hr6 _ hL6
    · exact rowG_piece _ (k0_off90 k 6#32) (k0_off90_inb k 6) (16 * k.val + 6) 160 (k0_off90_eq k 6) hr6 _ hL6
    · exact rowG_piece _ (k0_off89 k 6#32) (k0_off89_inb k 6) (16 * k.val + 6) 144 (k0_off89_eq k 6) hr6 _ hL6
    · exact rowG_piece _ (k0_off88 k 6#32) (k0_off88_inb k 6) (16 * k.val + 6) 128 (k0_off88_eq k 6) hr6 _ hL6
    · exact rowG_piece _ (k0_off87 k 6#32) (k0_off87_inb k 6) (16 * k.val + 6) 112 (k0_off87_eq k 6) hr6 _ hL6
    · exact rowG_piece _ (k0_off86 k 6#32) (k0_off86_inb k 6) (16 * k.val + 6) 96 (k0_off86_eq k 6) hr6 _ hL6
    · exact rowG_piece _ (k0_off85 k 6#32) (k0_off85_inb k 6) (16 * k.val + 6) 80 (k0_off85_eq k 6) hr6 _ hL6
    · exact rowG_piece _ (k0_off84 k 6#32) (k0_off84_inb k 6) (16 * k.val + 6) 64 (k0_off84_eq k 6) hr6 _ hL6
    · exact rowG_piece _ (k0_off83 k 6#32) (k0_off83_inb k 6) (16 * k.val + 6) 48 (k0_off83_eq k 6) hr6 _ hL6
    · exact rowG_piece _ (k0_off82 k 6#32) (k0_off82_inb k 6) (16 * k.val + 6) 32 (k0_off82_eq k 6) hr6 _ hL6
    · exact rowG_piece _ (k0_off81 k 6#32) (k0_off81_inb k 6) (16 * k.val + 6) 16 (k0_off81_eq k 6) hr6 _ hL6
    · exact rowG_piece _ (k0_off80 k 6#32) (k0_off80_inb k 6) (16 * k.val + 6) 0 (k0_off80_eq k 6) hr6 _ hL6
    · exact rowG_piece _ (k0_off95 k 5#32) (k0_off95_inb k 5) (16 * k.val + 5) 240 (k0_off95_eq k 5) hr5 _ hL5
    · exact rowG_piece _ (k0_off94 k 5#32) (k0_off94_inb k 5) (16 * k.val + 5) 224 (k0_off94_eq k 5) hr5 _ hL5
    · exact rowG_piece _ (k0_off93 k 5#32) (k0_off93_inb k 5) (16 * k.val + 5) 208 (k0_off93_eq k 5) hr5 _ hL5
    · exact rowG_piece _ (k0_off92 k 5#32) (k0_off92_inb k 5) (16 * k.val + 5) 192 (k0_off92_eq k 5) hr5 _ hL5
    · exact rowG_piece _ (k0_off91 k 5#32) (k0_off91_inb k 5) (16 * k.val + 5) 176 (k0_off91_eq k 5) hr5 _ hL5
    · exact rowG_piece _ (k0_off90 k 5#32) (k0_off90_inb k 5) (16 * k.val + 5) 160 (k0_off90_eq k 5) hr5 _ hL5
    · exact rowG_piece _ (k0_off89 k 5#32) (k0_off89_inb k 5) (16 * k.val + 5) 144 (k0_off89_eq k 5) hr5 _ hL5
    · exact rowG_piece _ (k0_off88 k 5#32) (k0_off88_inb k 5) (16 * k.val + 5) 128 (k0_off88_eq k 5) hr5 _ hL5
    · exact rowG_piece _ (k0_off87 k 5#32) (k0_off87_inb k 5) (16 * k.val + 5) 112 (k0_off87_eq k 5) hr5 _ hL5
    · exact rowG_piece _ (k0_off86 k 5#32) (k0_off86_inb k 5) (16 * k.val + 5) 96 (k0_off86_eq k 5) hr5 _ hL5
    · exact rowG_piece _ (k0_off85 k 5#32) (k0_off85_inb k 5) (16 * k.val + 5) 80 (k0_off85_eq k 5) hr5 _ hL5
    · exact rowG_piece _ (k0_off84 k 5#32) (k0_off84_inb k 5) (16 * k.val + 5) 64 (k0_off84_eq k 5) hr5 _ hL5
    · exact rowG_piece _ (k0_off83 k 5#32) (k0_off83_inb k 5) (16 * k.val + 5) 48 (k0_off83_eq k 5) hr5 _ hL5
    · exact rowG_piece _ (k0_off82 k 5#32) (k0_off82_inb k 5) (16 * k.val + 5) 32 (k0_off82_eq k 5) hr5 _ hL5
    · exact rowG_piece _ (k0_off81 k 5#32) (k0_off81_inb k 5) (16 * k.val + 5) 16 (k0_off81_eq k 5) hr5 _ hL5
    · exact rowG_piece _ (k0_off80 k 5#32) (k0_off80_inb k 5) (16 * k.val + 5) 0 (k0_off80_eq k 5) hr5 _ hL5
    · exact rowG_piece _ (k0_off95 k 4#32) (k0_off95_inb k 4) (16 * k.val + 4) 240 (k0_off95_eq k 4) hr4 _ hL4
    · exact rowG_piece _ (k0_off94 k 4#32) (k0_off94_inb k 4) (16 * k.val + 4) 224 (k0_off94_eq k 4) hr4 _ hL4
    · exact rowG_piece _ (k0_off93 k 4#32) (k0_off93_inb k 4) (16 * k.val + 4) 208 (k0_off93_eq k 4) hr4 _ hL4
    · exact rowG_piece _ (k0_off92 k 4#32) (k0_off92_inb k 4) (16 * k.val + 4) 192 (k0_off92_eq k 4) hr4 _ hL4
    · exact rowG_piece _ (k0_off91 k 4#32) (k0_off91_inb k 4) (16 * k.val + 4) 176 (k0_off91_eq k 4) hr4 _ hL4
    · exact rowG_piece _ (k0_off90 k 4#32) (k0_off90_inb k 4) (16 * k.val + 4) 160 (k0_off90_eq k 4) hr4 _ hL4
    · exact rowG_piece _ (k0_off89 k 4#32) (k0_off89_inb k 4) (16 * k.val + 4) 144 (k0_off89_eq k 4) hr4 _ hL4
    · exact rowG_piece _ (k0_off88 k 4#32) (k0_off88_inb k 4) (16 * k.val + 4) 128 (k0_off88_eq k 4) hr4 _ hL4
    · exact rowG_piece _ (k0_off87 k 4#32) (k0_off87_inb k 4) (16 * k.val + 4) 112 (k0_off87_eq k 4) hr4 _ hL4
    · exact rowG_piece _ (k0_off86 k 4#32) (k0_off86_inb k 4) (16 * k.val + 4) 96 (k0_off86_eq k 4) hr4 _ hL4
    · exact rowG_piece _ (k0_off85 k 4#32) (k0_off85_inb k 4) (16 * k.val + 4) 80 (k0_off85_eq k 4) hr4 _ hL4
    · exact rowG_piece _ (k0_off84 k 4#32) (k0_off84_inb k 4) (16 * k.val + 4) 64 (k0_off84_eq k 4) hr4 _ hL4
    · exact rowG_piece _ (k0_off83 k 4#32) (k0_off83_inb k 4) (16 * k.val + 4) 48 (k0_off83_eq k 4) hr4 _ hL4
    · exact rowG_piece _ (k0_off82 k 4#32) (k0_off82_inb k 4) (16 * k.val + 4) 32 (k0_off82_eq k 4) hr4 _ hL4
    · exact rowG_piece _ (k0_off81 k 4#32) (k0_off81_inb k 4) (16 * k.val + 4) 16 (k0_off81_eq k 4) hr4 _ hL4
    · exact rowG_piece _ (k0_off80 k 4#32) (k0_off80_inb k 4) (16 * k.val + 4) 0 (k0_off80_eq k 4) hr4 _ hL4
    · exact rowG_piece _ (k0_off95 k 3#32) (k0_off95_inb k 3) (16 * k.val + 3) 240 (k0_off95_eq k 3) hr3 _ hL3
    · exact rowG_piece _ (k0_off94 k 3#32) (k0_off94_inb k 3) (16 * k.val + 3) 224 (k0_off94_eq k 3) hr3 _ hL3
    · exact rowG_piece _ (k0_off93 k 3#32) (k0_off93_inb k 3) (16 * k.val + 3) 208 (k0_off93_eq k 3) hr3 _ hL3
    · exact rowG_piece _ (k0_off92 k 3#32) (k0_off92_inb k 3) (16 * k.val + 3) 192 (k0_off92_eq k 3) hr3 _ hL3
    · exact rowG_piece _ (k0_off91 k 3#32) (k0_off91_inb k 3) (16 * k.val + 3) 176 (k0_off91_eq k 3) hr3 _ hL3
    · exact rowG_piece _ (k0_off90 k 3#32) (k0_off90_inb k 3) (16 * k.val + 3) 160 (k0_off90_eq k 3) hr3 _ hL3
    · exact rowG_piece _ (k0_off89 k 3#32) (k0_off89_inb k 3) (16 * k.val + 3) 144 (k0_off89_eq k 3) hr3 _ hL3
    · exact rowG_piece _ (k0_off88 k 3#32) (k0_off88_inb k 3) (16 * k.val + 3) 128 (k0_off88_eq k 3) hr3 _ hL3
    · exact rowG_piece _ (k0_off87 k 3#32) (k0_off87_inb k 3) (16 * k.val + 3) 112 (k0_off87_eq k 3) hr3 _ hL3
    · exact rowG_piece _ (k0_off86 k 3#32) (k0_off86_inb k 3) (16 * k.val + 3) 96 (k0_off86_eq k 3) hr3 _ hL3
    · exact rowG_piece _ (k0_off85 k 3#32) (k0_off85_inb k 3) (16 * k.val + 3) 80 (k0_off85_eq k 3) hr3 _ hL3
    · exact rowG_piece _ (k0_off84 k 3#32) (k0_off84_inb k 3) (16 * k.val + 3) 64 (k0_off84_eq k 3) hr3 _ hL3
    · exact rowG_piece _ (k0_off83 k 3#32) (k0_off83_inb k 3) (16 * k.val + 3) 48 (k0_off83_eq k 3) hr3 _ hL3
    · exact rowG_piece _ (k0_off82 k 3#32) (k0_off82_inb k 3) (16 * k.val + 3) 32 (k0_off82_eq k 3) hr3 _ hL3
    · exact rowG_piece _ (k0_off81 k 3#32) (k0_off81_inb k 3) (16 * k.val + 3) 16 (k0_off81_eq k 3) hr3 _ hL3
    · exact rowG_piece _ (k0_off80 k 3#32) (k0_off80_inb k 3) (16 * k.val + 3) 0 (k0_off80_eq k 3) hr3 _ hL3
    · exact rowG_piece _ (k0_off95 k 2#32) (k0_off95_inb k 2) (16 * k.val + 2) 240 (k0_off95_eq k 2) hr2 _ hL2
    · exact rowG_piece _ (k0_off94 k 2#32) (k0_off94_inb k 2) (16 * k.val + 2) 224 (k0_off94_eq k 2) hr2 _ hL2
    · exact rowG_piece _ (k0_off93 k 2#32) (k0_off93_inb k 2) (16 * k.val + 2) 208 (k0_off93_eq k 2) hr2 _ hL2
    · exact rowG_piece _ (k0_off92 k 2#32) (k0_off92_inb k 2) (16 * k.val + 2) 192 (k0_off92_eq k 2) hr2 _ hL2
    · exact rowG_piece _ (k0_off91 k 2#32) (k0_off91_inb k 2) (16 * k.val + 2) 176 (k0_off91_eq k 2) hr2 _ hL2
    · exact rowG_piece _ (k0_off90 k 2#32) (k0_off90_inb k 2) (16 * k.val + 2) 160 (k0_off90_eq k 2) hr2 _ hL2
    · exact rowG_piece _ (k0_off89 k 2#32) (k0_off89_inb k 2) (16 * k.val + 2) 144 (k0_off89_eq k 2) hr2 _ hL2
    · exact rowG_piece _ (k0_off88 k 2#32) (k0_off88_inb k 2) (16 * k.val + 2) 128 (k0_off88_eq k 2) hr2 _ hL2
    · exact rowG_piece _ (k0_off87 k 2#32) (k0_off87_inb k 2) (16 * k.val + 2) 112 (k0_off87_eq k 2) hr2 _ hL2
    · exact rowG_piece _ (k0_off86 k 2#32) (k0_off86_inb k 2) (16 * k.val + 2) 96 (k0_off86_eq k 2) hr2 _ hL2
    · exact rowG_piece _ (k0_off85 k 2#32) (k0_off85_inb k 2) (16 * k.val + 2) 80 (k0_off85_eq k 2) hr2 _ hL2
    · exact rowG_piece _ (k0_off84 k 2#32) (k0_off84_inb k 2) (16 * k.val + 2) 64 (k0_off84_eq k 2) hr2 _ hL2
    · exact rowG_piece _ (k0_off83 k 2#32) (k0_off83_inb k 2) (16 * k.val + 2) 48 (k0_off83_eq k 2) hr2 _ hL2
    · exact rowG_piece _ (k0_off82 k 2#32) (k0_off82_inb k 2) (16 * k.val + 2) 32 (k0_off82_eq k 2) hr2 _ hL2
    · exact rowG_piece _ (k0_off81 k 2#32) (k0_off81_inb k 2) (16 * k.val + 2) 16 (k0_off81_eq k 2) hr2 _ hL2
    · exact rowG_piece _ (k0_off80 k 2#32) (k0_off80_inb k 2) (16 * k.val + 2) 0 (k0_off80_eq k 2) hr2 _ hL2
    · exact rowG_piece _ (k0_off95 k 1#32) (k0_off95_inb k 1) (16 * k.val + 1) 240 (k0_off95_eq k 1) hr1 _ hL1
    · exact rowG_piece _ (k0_off94 k 1#32) (k0_off94_inb k 1) (16 * k.val + 1) 224 (k0_off94_eq k 1) hr1 _ hL1
    · exact rowG_piece _ (k0_off93 k 1#32) (k0_off93_inb k 1) (16 * k.val + 1) 208 (k0_off93_eq k 1) hr1 _ hL1
    · exact rowG_piece _ (k0_off92 k 1#32) (k0_off92_inb k 1) (16 * k.val + 1) 192 (k0_off92_eq k 1) hr1 _ hL1
    · exact rowG_piece _ (k0_off91 k 1#32) (k0_off91_inb k 1) (16 * k.val + 1) 176 (k0_off91_eq k 1) hr1 _ hL1
    · exact rowG_piece _ (k0_off90 k 1#32) (k0_off90_inb k 1) (16 * k.val + 1) 160 (k0_off90_eq k 1) hr1 _ hL1
    · exact rowG_piece _ (k0_off89 k 1#32) (k0_off89_inb k 1) (16 * k.val + 1) 144 (k0_off89_eq k 1) hr1 _ hL1
    · exact rowG_piece _ (k0_off88 k 1#32) (k0_off88_inb k 1) (16 * k.val + 1) 128 (k0_off88_eq k 1) hr1 _ hL1
    · exact rowG_piece _ (k0_off87 k 1#32) (k0_off87_inb k 1) (16 * k.val + 1) 112 (k0_off87_eq k 1) hr1 _ hL1
    · exact rowG_piece _ (k0_off86 k 1#32) (k0_off86_inb k 1) (16 * k.val + 1) 96 (k0_off86_eq k 1) hr1 _ hL1
    · exact rowG_piece _ (k0_off85 k 1#32) (k0_off85_inb k 1) (16 * k.val + 1) 80 (k0_off85_eq k 1) hr1 _ hL1
    · exact rowG_piece _ (k0_off84 k 1#32) (k0_off84_inb k 1) (16 * k.val + 1) 64 (k0_off84_eq k 1) hr1 _ hL1
    · exact rowG_piece _ (k0_off83 k 1#32) (k0_off83_inb k 1) (16 * k.val + 1) 48 (k0_off83_eq k 1) hr1 _ hL1
    · exact rowG_piece _ (k0_off82 k 1#32) (k0_off82_inb k 1) (16 * k.val + 1) 32 (k0_off82_eq k 1) hr1 _ hL1
    · exact rowG_piece _ (k0_off81 k 1#32) (k0_off81_inb k 1) (16 * k.val + 1) 16 (k0_off81_eq k 1) hr1 _ hL1
    · exact rowG_piece _ (k0_off80 k 1#32) (k0_off80_inb k 1) (16 * k.val + 1) 0 (k0_off80_eq k 1) hr1 _ hL1
    · exact rowG_piece _ (k0_off95 k 0#32) (k0_off95_inb k 0) (16 * k.val + 0) 240 (k0_off95_eq k 0) hr0 _ hL0
    · exact rowG_piece _ (k0_off94 k 0#32) (k0_off94_inb k 0) (16 * k.val + 0) 224 (k0_off94_eq k 0) hr0 _ hL0
    · exact rowG_piece _ (k0_off93 k 0#32) (k0_off93_inb k 0) (16 * k.val + 0) 208 (k0_off93_eq k 0) hr0 _ hL0
    · exact rowG_piece _ (k0_off92 k 0#32) (k0_off92_inb k 0) (16 * k.val + 0) 192 (k0_off92_eq k 0) hr0 _ hL0
    · exact rowG_piece _ (k0_off91 k 0#32) (k0_off91_inb k 0) (16 * k.val + 0) 176 (k0_off91_eq k 0) hr0 _ hL0
    · exact rowG_piece _ (k0_off90 k 0#32) (k0_off90_inb k 0) (16 * k.val + 0) 160 (k0_off90_eq k 0) hr0 _ hL0
    · exact rowG_piece _ (k0_off89 k 0#32) (k0_off89_inb k 0) (16 * k.val + 0) 144 (k0_off89_eq k 0) hr0 _ hL0
    · exact rowG_piece _ (k0_off88 k 0#32) (k0_off88_inb k 0) (16 * k.val + 0) 128 (k0_off88_eq k 0) hr0 _ hL0
    · exact rowG_piece _ (k0_off87 k 0#32) (k0_off87_inb k 0) (16 * k.val + 0) 112 (k0_off87_eq k 0) hr0 _ hL0
    · exact rowG_piece _ (k0_off86 k 0#32) (k0_off86_inb k 0) (16 * k.val + 0) 96 (k0_off86_eq k 0) hr0 _ hL0
    · exact rowG_piece _ (k0_off85 k 0#32) (k0_off85_inb k 0) (16 * k.val + 0) 80 (k0_off85_eq k 0) hr0 _ hL0
    · exact rowG_piece _ (k0_off84 k 0#32) (k0_off84_inb k 0) (16 * k.val + 0) 64 (k0_off84_eq k 0) hr0 _ hL0
    · exact rowG_piece _ (k0_off83 k 0#32) (k0_off83_inb k 0) (16 * k.val + 0) 48 (k0_off83_eq k 0) hr0 _ hL0
    · exact rowG_piece _ (k0_off82 k 0#32) (k0_off82_inb k 0) (16 * k.val + 0) 32 (k0_off82_eq k 0) hr0 _ hL0
    · exact rowG_piece _ (k0_off81 k 0#32) (k0_off81_inb k 0) (16 * k.val + 0) 16 (k0_off81_eq k 0) hr0 _ hL0
    · exact rowG_piece _ (k0_off80 k 0#32) (k0_off80_inb k 0) (16 * k.val + 0) 0 (k0_off80_eq k 0) hr0 _ hL0
  case cover =>
    sl_unfold_run_names
    intro y hy
    refine cover_rows16 _ k.val (fun l j => ?_) y hy
    fin_cases l <;> fin_cases j
    · exact ⟨_, rfl, k0_off80_eq k 0, rfl, fun _ => rfl⟩
    · exact ⟨_, rfl, k0_off81_eq k 0, rfl, fun _ => rfl⟩
    · exact ⟨_, rfl, k0_off82_eq k 0, rfl, fun _ => rfl⟩
    · exact ⟨_, rfl, k0_off83_eq k 0, rfl, fun _ => rfl⟩
    · exact ⟨_, rfl, k0_off84_eq k 0, rfl, fun _ => rfl⟩
    · exact ⟨_, rfl, k0_off85_eq k 0, rfl, fun _ => rfl⟩
    · exact ⟨_, rfl, k0_off86_eq k 0, rfl, fun _ => rfl⟩
    · exact ⟨_, rfl, k0_off87_eq k 0, rfl, fun _ => rfl⟩
    · exact ⟨_, rfl, k0_off88_eq k 0, rfl, fun _ => rfl⟩
    · exact ⟨_, rfl, k0_off89_eq k 0, rfl, fun _ => rfl⟩
    · exact ⟨_, rfl, k0_off90_eq k 0, rfl, fun _ => rfl⟩
    · exact ⟨_, rfl, k0_off91_eq k 0, rfl, fun _ => rfl⟩
    · exact ⟨_, rfl, k0_off92_eq k 0, rfl, fun _ => rfl⟩
    · exact ⟨_, rfl, k0_off93_eq k 0, rfl, fun _ => rfl⟩
    · exact ⟨_, rfl, k0_off94_eq k 0, rfl, fun _ => rfl⟩
    · exact ⟨_, rfl, k0_off95_eq k 0, rfl, fun _ => rfl⟩
    · exact ⟨_, rfl, k0_off80_eq k 1, rfl, fun _ => rfl⟩
    · exact ⟨_, rfl, k0_off81_eq k 1, rfl, fun _ => rfl⟩
    · exact ⟨_, rfl, k0_off82_eq k 1, rfl, fun _ => rfl⟩
    · exact ⟨_, rfl, k0_off83_eq k 1, rfl, fun _ => rfl⟩
    · exact ⟨_, rfl, k0_off84_eq k 1, rfl, fun _ => rfl⟩
    · exact ⟨_, rfl, k0_off85_eq k 1, rfl, fun _ => rfl⟩
    · exact ⟨_, rfl, k0_off86_eq k 1, rfl, fun _ => rfl⟩
    · exact ⟨_, rfl, k0_off87_eq k 1, rfl, fun _ => rfl⟩
    · exact ⟨_, rfl, k0_off88_eq k 1, rfl, fun _ => rfl⟩
    · exact ⟨_, rfl, k0_off89_eq k 1, rfl, fun _ => rfl⟩
    · exact ⟨_, rfl, k0_off90_eq k 1, rfl, fun _ => rfl⟩
    · exact ⟨_, rfl, k0_off91_eq k 1, rfl, fun _ => rfl⟩
    · exact ⟨_, rfl, k0_off92_eq k 1, rfl, fun _ => rfl⟩
    · exact ⟨_, rfl, k0_off93_eq k 1, rfl, fun _ => rfl⟩
    · exact ⟨_, rfl, k0_off94_eq k 1, rfl, fun _ => rfl⟩
    · exact ⟨_, rfl, k0_off95_eq k 1, rfl, fun _ => rfl⟩
    · exact ⟨_, rfl, k0_off80_eq k 2, rfl, fun _ => rfl⟩
    · exact ⟨_, rfl, k0_off81_eq k 2, rfl, fun _ => rfl⟩
    · exact ⟨_, rfl, k0_off82_eq k 2, rfl, fun _ => rfl⟩
    · exact ⟨_, rfl, k0_off83_eq k 2, rfl, fun _ => rfl⟩
    · exact ⟨_, rfl, k0_off84_eq k 2, rfl, fun _ => rfl⟩
    · exact ⟨_, rfl, k0_off85_eq k 2, rfl, fun _ => rfl⟩
    · exact ⟨_, rfl, k0_off86_eq k 2, rfl, fun _ => rfl⟩
    · exact ⟨_, rfl, k0_off87_eq k 2, rfl, fun _ => rfl⟩
    · exact ⟨_, rfl, k0_off88_eq k 2, rfl, fun _ => rfl⟩
    · exact ⟨_, rfl, k0_off89_eq k 2, rfl, fun _ => rfl⟩
    · exact ⟨_, rfl, k0_off90_eq k 2, rfl, fun _ => rfl⟩
    · exact ⟨_, rfl, k0_off91_eq k 2, rfl, fun _ => rfl⟩
    · exact ⟨_, rfl, k0_off92_eq k 2, rfl, fun _ => rfl⟩
    · exact ⟨_, rfl, k0_off93_eq k 2, rfl, fun _ => rfl⟩
    · exact ⟨_, rfl, k0_off94_eq k 2, rfl, fun _ => rfl⟩
    · exact ⟨_, rfl, k0_off95_eq k 2, rfl, fun _ => rfl⟩
    · exact ⟨_, rfl, k0_off80_eq k 3, rfl, fun _ => rfl⟩
    · exact ⟨_, rfl, k0_off81_eq k 3, rfl, fun _ => rfl⟩
    · exact ⟨_, rfl, k0_off82_eq k 3, rfl, fun _ => rfl⟩
    · exact ⟨_, rfl, k0_off83_eq k 3, rfl, fun _ => rfl⟩
    · exact ⟨_, rfl, k0_off84_eq k 3, rfl, fun _ => rfl⟩
    · exact ⟨_, rfl, k0_off85_eq k 3, rfl, fun _ => rfl⟩
    · exact ⟨_, rfl, k0_off86_eq k 3, rfl, fun _ => rfl⟩
    · exact ⟨_, rfl, k0_off87_eq k 3, rfl, fun _ => rfl⟩
    · exact ⟨_, rfl, k0_off88_eq k 3, rfl, fun _ => rfl⟩
    · exact ⟨_, rfl, k0_off89_eq k 3, rfl, fun _ => rfl⟩
    · exact ⟨_, rfl, k0_off90_eq k 3, rfl, fun _ => rfl⟩
    · exact ⟨_, rfl, k0_off91_eq k 3, rfl, fun _ => rfl⟩
    · exact ⟨_, rfl, k0_off92_eq k 3, rfl, fun _ => rfl⟩
    · exact ⟨_, rfl, k0_off93_eq k 3, rfl, fun _ => rfl⟩
    · exact ⟨_, rfl, k0_off94_eq k 3, rfl, fun _ => rfl⟩
    · exact ⟨_, rfl, k0_off95_eq k 3, rfl, fun _ => rfl⟩
    · exact ⟨_, rfl, k0_off80_eq k 4, rfl, fun _ => rfl⟩
    · exact ⟨_, rfl, k0_off81_eq k 4, rfl, fun _ => rfl⟩
    · exact ⟨_, rfl, k0_off82_eq k 4, rfl, fun _ => rfl⟩
    · exact ⟨_, rfl, k0_off83_eq k 4, rfl, fun _ => rfl⟩
    · exact ⟨_, rfl, k0_off84_eq k 4, rfl, fun _ => rfl⟩
    · exact ⟨_, rfl, k0_off85_eq k 4, rfl, fun _ => rfl⟩
    · exact ⟨_, rfl, k0_off86_eq k 4, rfl, fun _ => rfl⟩
    · exact ⟨_, rfl, k0_off87_eq k 4, rfl, fun _ => rfl⟩
    · exact ⟨_, rfl, k0_off88_eq k 4, rfl, fun _ => rfl⟩
    · exact ⟨_, rfl, k0_off89_eq k 4, rfl, fun _ => rfl⟩
    · exact ⟨_, rfl, k0_off90_eq k 4, rfl, fun _ => rfl⟩
    · exact ⟨_, rfl, k0_off91_eq k 4, rfl, fun _ => rfl⟩
    · exact ⟨_, rfl, k0_off92_eq k 4, rfl, fun _ => rfl⟩
    · exact ⟨_, rfl, k0_off93_eq k 4, rfl, fun _ => rfl⟩
    · exact ⟨_, rfl, k0_off94_eq k 4, rfl, fun _ => rfl⟩
    · exact ⟨_, rfl, k0_off95_eq k 4, rfl, fun _ => rfl⟩
    · exact ⟨_, rfl, k0_off80_eq k 5, rfl, fun _ => rfl⟩
    · exact ⟨_, rfl, k0_off81_eq k 5, rfl, fun _ => rfl⟩
    · exact ⟨_, rfl, k0_off82_eq k 5, rfl, fun _ => rfl⟩
    · exact ⟨_, rfl, k0_off83_eq k 5, rfl, fun _ => rfl⟩
    · exact ⟨_, rfl, k0_off84_eq k 5, rfl, fun _ => rfl⟩
    · exact ⟨_, rfl, k0_off85_eq k 5, rfl, fun _ => rfl⟩
    · exact ⟨_, rfl, k0_off86_eq k 5, rfl, fun _ => rfl⟩
    · exact ⟨_, rfl, k0_off87_eq k 5, rfl, fun _ => rfl⟩
    · exact ⟨_, rfl, k0_off88_eq k 5, rfl, fun _ => rfl⟩
    · exact ⟨_, rfl, k0_off89_eq k 5, rfl, fun _ => rfl⟩
    · exact ⟨_, rfl, k0_off90_eq k 5, rfl, fun _ => rfl⟩
    · exact ⟨_, rfl, k0_off91_eq k 5, rfl, fun _ => rfl⟩
    · exact ⟨_, rfl, k0_off92_eq k 5, rfl, fun _ => rfl⟩
    · exact ⟨_, rfl, k0_off93_eq k 5, rfl, fun _ => rfl⟩
    · exact ⟨_, rfl, k0_off94_eq k 5, rfl, fun _ => rfl⟩
    · exact ⟨_, rfl, k0_off95_eq k 5, rfl, fun _ => rfl⟩
    · exact ⟨_, rfl, k0_off80_eq k 6, rfl, fun _ => rfl⟩
    · exact ⟨_, rfl, k0_off81_eq k 6, rfl, fun _ => rfl⟩
    · exact ⟨_, rfl, k0_off82_eq k 6, rfl, fun _ => rfl⟩
    · exact ⟨_, rfl, k0_off83_eq k 6, rfl, fun _ => rfl⟩
    · exact ⟨_, rfl, k0_off84_eq k 6, rfl, fun _ => rfl⟩
    · exact ⟨_, rfl, k0_off85_eq k 6, rfl, fun _ => rfl⟩
    · exact ⟨_, rfl, k0_off86_eq k 6, rfl, fun _ => rfl⟩
    · exact ⟨_, rfl, k0_off87_eq k 6, rfl, fun _ => rfl⟩
    · exact ⟨_, rfl, k0_off88_eq k 6, rfl, fun _ => rfl⟩
    · exact ⟨_, rfl, k0_off89_eq k 6, rfl, fun _ => rfl⟩
    · exact ⟨_, rfl, k0_off90_eq k 6, rfl, fun _ => rfl⟩
    · exact ⟨_, rfl, k0_off91_eq k 6, rfl, fun _ => rfl⟩
    · exact ⟨_, rfl, k0_off92_eq k 6, rfl, fun _ => rfl⟩
    · exact ⟨_, rfl, k0_off93_eq k 6, rfl, fun _ => rfl⟩
    · exact ⟨_, rfl, k0_off94_eq k 6, rfl, fun _ => rfl⟩
    · exact ⟨_, rfl, k0_off95_eq k 6, rfl, fun _ => rfl⟩
    · exact ⟨_, rfl, k0_off80_eq k 7, rfl, fun _ => rfl⟩
    · exact ⟨_, rfl, k0_off81_eq k 7, rfl, fun _ => rfl⟩
    · exact ⟨_, rfl, k0_off82_eq k 7, rfl, fun _ => rfl⟩
    · exact ⟨_, rfl, k0_off83_eq k 7, rfl, fun _ => rfl⟩
    · exact ⟨_, rfl, k0_off84_eq k 7, rfl, fun _ => rfl⟩
    · exact ⟨_, rfl, k0_off85_eq k 7, rfl, fun _ => rfl⟩
    · exact ⟨_, rfl, k0_off86_eq k 7, rfl, fun _ => rfl⟩
    · exact ⟨_, rfl, k0_off87_eq k 7, rfl, fun _ => rfl⟩
    · exact ⟨_, rfl, k0_off88_eq k 7, rfl, fun _ => rfl⟩
    · exact ⟨_, rfl, k0_off89_eq k 7, rfl, fun _ => rfl⟩
    · exact ⟨_, rfl, k0_off90_eq k 7, rfl, fun _ => rfl⟩
    · exact ⟨_, rfl, k0_off91_eq k 7, rfl, fun _ => rfl⟩
    · exact ⟨_, rfl, k0_off92_eq k 7, rfl, fun _ => rfl⟩
    · exact ⟨_, rfl, k0_off93_eq k 7, rfl, fun _ => rfl⟩
    · exact ⟨_, rfl, k0_off94_eq k 7, rfl, fun _ => rfl⟩
    · exact ⟨_, rfl, k0_off95_eq k 7, rfl, fun _ => rfl⟩
    · exact ⟨_, rfl, k0_off80_eq k 8, rfl, fun _ => rfl⟩
    · exact ⟨_, rfl, k0_off81_eq k 8, rfl, fun _ => rfl⟩
    · exact ⟨_, rfl, k0_off82_eq k 8, rfl, fun _ => rfl⟩
    · exact ⟨_, rfl, k0_off83_eq k 8, rfl, fun _ => rfl⟩
    · exact ⟨_, rfl, k0_off84_eq k 8, rfl, fun _ => rfl⟩
    · exact ⟨_, rfl, k0_off85_eq k 8, rfl, fun _ => rfl⟩
    · exact ⟨_, rfl, k0_off86_eq k 8, rfl, fun _ => rfl⟩
    · exact ⟨_, rfl, k0_off87_eq k 8, rfl, fun _ => rfl⟩
    · exact ⟨_, rfl, k0_off88_eq k 8, rfl, fun _ => rfl⟩
    · exact ⟨_, rfl, k0_off89_eq k 8, rfl, fun _ => rfl⟩
    · exact ⟨_, rfl, k0_off90_eq k 8, rfl, fun _ => rfl⟩
    · exact ⟨_, rfl, k0_off91_eq k 8, rfl, fun _ => rfl⟩
    · exact ⟨_, rfl, k0_off92_eq k 8, rfl, fun _ => rfl⟩
    · exact ⟨_, rfl, k0_off93_eq k 8, rfl, fun _ => rfl⟩
    · exact ⟨_, rfl, k0_off94_eq k 8, rfl, fun _ => rfl⟩
    · exact ⟨_, rfl, k0_off95_eq k 8, rfl, fun _ => rfl⟩
    · exact ⟨_, rfl, k0_off80_eq k 9, rfl, fun _ => rfl⟩
    · exact ⟨_, rfl, k0_off81_eq k 9, rfl, fun _ => rfl⟩
    · exact ⟨_, rfl, k0_off82_eq k 9, rfl, fun _ => rfl⟩
    · exact ⟨_, rfl, k0_off83_eq k 9, rfl, fun _ => rfl⟩
    · exact ⟨_, rfl, k0_off84_eq k 9, rfl, fun _ => rfl⟩
    · exact ⟨_, rfl, k0_off85_eq k 9, rfl, fun _ => rfl⟩
    · exact ⟨_, rfl, k0_off86_eq k 9, rfl, fun _ => rfl⟩
    · exact ⟨_, rfl, k0_off87_eq k 9, rfl, fun _ => rfl⟩
    · exact ⟨_, rfl, k0_off88_eq k 9, rfl, fun _ => rfl⟩
    · exact ⟨_, rfl, k0_off89_eq k 9, rfl, fun _ => rfl⟩
    · exact ⟨_, rfl, k0_off90_eq k 9, rfl, fun _ => rfl⟩
    · exact ⟨_, rfl, k0_off91_eq k 9, rfl, fun _ => rfl⟩
    · exact ⟨_, rfl, k0_off92_eq k 9, rfl, fun _ => rfl⟩
    · exact ⟨_, rfl, k0_off93_eq k 9, rfl, fun _ => rfl⟩
    · exact ⟨_, rfl, k0_off94_eq k 9, rfl, fun _ => rfl⟩
    · exact ⟨_, rfl, k0_off95_eq k 9, rfl, fun _ => rfl⟩
    · exact ⟨_, rfl, k0_off80_eq k 10, rfl, fun _ => rfl⟩
    · exact ⟨_, rfl, k0_off81_eq k 10, rfl, fun _ => rfl⟩
    · exact ⟨_, rfl, k0_off82_eq k 10, rfl, fun _ => rfl⟩
    · exact ⟨_, rfl, k0_off83_eq k 10, rfl, fun _ => rfl⟩
    · exact ⟨_, rfl, k0_off84_eq k 10, rfl, fun _ => rfl⟩
    · exact ⟨_, rfl, k0_off85_eq k 10, rfl, fun _ => rfl⟩
    · exact ⟨_, rfl, k0_off86_eq k 10, rfl, fun _ => rfl⟩
    · exact ⟨_, rfl, k0_off87_eq k 10, rfl, fun _ => rfl⟩
    · exact ⟨_, rfl, k0_off88_eq k 10, rfl, fun _ => rfl⟩
    · exact ⟨_, rfl, k0_off89_eq k 10, rfl, fun _ => rfl⟩
    · exact ⟨_, rfl, k0_off90_eq k 10, rfl, fun _ => rfl⟩
    · exact ⟨_, rfl, k0_off91_eq k 10, rfl, fun _ => rfl⟩
    · exact ⟨_, rfl, k0_off92_eq k 10, rfl, fun _ => rfl⟩
    · exact ⟨_, rfl, k0_off93_eq k 10, rfl, fun _ => rfl⟩
    · exact ⟨_, rfl, k0_off94_eq k 10, rfl, fun _ => rfl⟩
    · exact ⟨_, rfl, k0_off95_eq k 10, rfl, fun _ => rfl⟩
    · exact ⟨_, rfl, k0_off80_eq k 11, rfl, fun _ => rfl⟩
    · exact ⟨_, rfl, k0_off81_eq k 11, rfl, fun _ => rfl⟩
    · exact ⟨_, rfl, k0_off82_eq k 11, rfl, fun _ => rfl⟩
    · exact ⟨_, rfl, k0_off83_eq k 11, rfl, fun _ => rfl⟩
    · exact ⟨_, rfl, k0_off84_eq k 11, rfl, fun _ => rfl⟩
    · exact ⟨_, rfl, k0_off85_eq k 11, rfl, fun _ => rfl⟩
    · exact ⟨_, rfl, k0_off86_eq k 11, rfl, fun _ => rfl⟩
    · exact ⟨_, rfl, k0_off87_eq k 11, rfl, fun _ => rfl⟩
    · exact ⟨_, rfl, k0_off88_eq k 11, rfl, fun _ => rfl⟩
    · exact ⟨_, rfl, k0_off89_eq k 11, rfl, fun _ => rfl⟩
    · exact ⟨_, rfl, k0_off90_eq k 11, rfl, fun _ => rfl⟩
    · exact ⟨_, rfl, k0_off91_eq k 11, rfl, fun _ => rfl⟩
    · exact ⟨_, rfl, k0_off92_eq k 11, rfl, fun _ => rfl⟩
    · exact ⟨_, rfl, k0_off93_eq k 11, rfl, fun _ => rfl⟩
    · exact ⟨_, rfl, k0_off94_eq k 11, rfl, fun _ => rfl⟩
    · exact ⟨_, rfl, k0_off95_eq k 11, rfl, fun _ => rfl⟩
    · exact ⟨_, rfl, k0_off80_eq k 12, rfl, fun _ => rfl⟩
    · exact ⟨_, rfl, k0_off81_eq k 12, rfl, fun _ => rfl⟩
    · exact ⟨_, rfl, k0_off82_eq k 12, rfl, fun _ => rfl⟩
    · exact ⟨_, rfl, k0_off83_eq k 12, rfl, fun _ => rfl⟩
    · exact ⟨_, rfl, k0_off84_eq k 12, rfl, fun _ => rfl⟩
    · exact ⟨_, rfl, k0_off85_eq k 12, rfl, fun _ => rfl⟩
    · exact ⟨_, rfl, k0_off86_eq k 12, rfl, fun _ => rfl⟩
    · exact ⟨_, rfl, k0_off87_eq k 12, rfl, fun _ => rfl⟩
    · exact ⟨_, rfl, k0_off88_eq k 12, rfl, fun _ => rfl⟩
    · exact ⟨_, rfl, k0_off89_eq k 12, rfl, fun _ => rfl⟩
    · exact ⟨_, rfl, k0_off90_eq k 12, rfl, fun _ => rfl⟩
    · exact ⟨_, rfl, k0_off91_eq k 12, rfl, fun _ => rfl⟩
    · exact ⟨_, rfl, k0_off92_eq k 12, rfl, fun _ => rfl⟩
    · exact ⟨_, rfl, k0_off93_eq k 12, rfl, fun _ => rfl⟩
    · exact ⟨_, rfl, k0_off94_eq k 12, rfl, fun _ => rfl⟩
    · exact ⟨_, rfl, k0_off95_eq k 12, rfl, fun _ => rfl⟩
    · exact ⟨_, rfl, k0_off80_eq k 13, rfl, fun _ => rfl⟩
    · exact ⟨_, rfl, k0_off81_eq k 13, rfl, fun _ => rfl⟩
    · exact ⟨_, rfl, k0_off82_eq k 13, rfl, fun _ => rfl⟩
    · exact ⟨_, rfl, k0_off83_eq k 13, rfl, fun _ => rfl⟩
    · exact ⟨_, rfl, k0_off84_eq k 13, rfl, fun _ => rfl⟩
    · exact ⟨_, rfl, k0_off85_eq k 13, rfl, fun _ => rfl⟩
    · exact ⟨_, rfl, k0_off86_eq k 13, rfl, fun _ => rfl⟩
    · exact ⟨_, rfl, k0_off87_eq k 13, rfl, fun _ => rfl⟩
    · exact ⟨_, rfl, k0_off88_eq k 13, rfl, fun _ => rfl⟩
    · exact ⟨_, rfl, k0_off89_eq k 13, rfl, fun _ => rfl⟩
    · exact ⟨_, rfl, k0_off90_eq k 13, rfl, fun _ => rfl⟩
    · exact ⟨_, rfl, k0_off91_eq k 13, rfl, fun _ => rfl⟩
    · exact ⟨_, rfl, k0_off92_eq k 13, rfl, fun _ => rfl⟩
    · exact ⟨_, rfl, k0_off93_eq k 13, rfl, fun _ => rfl⟩
    · exact ⟨_, rfl, k0_off94_eq k 13, rfl, fun _ => rfl⟩
    · exact ⟨_, rfl, k0_off95_eq k 13, rfl, fun _ => rfl⟩
    · exact ⟨_, rfl, k0_off80_eq k 14, rfl, fun _ => rfl⟩
    · exact ⟨_, rfl, k0_off81_eq k 14, rfl, fun _ => rfl⟩
    · exact ⟨_, rfl, k0_off82_eq k 14, rfl, fun _ => rfl⟩
    · exact ⟨_, rfl, k0_off83_eq k 14, rfl, fun _ => rfl⟩
    · exact ⟨_, rfl, k0_off84_eq k 14, rfl, fun _ => rfl⟩
    · exact ⟨_, rfl, k0_off85_eq k 14, rfl, fun _ => rfl⟩
    · exact ⟨_, rfl, k0_off86_eq k 14, rfl, fun _ => rfl⟩
    · exact ⟨_, rfl, k0_off87_eq k 14, rfl, fun _ => rfl⟩
    · exact ⟨_, rfl, k0_off88_eq k 14, rfl, fun _ => rfl⟩
    · exact ⟨_, rfl, k0_off89_eq k 14, rfl, fun _ => rfl⟩
    · exact ⟨_, rfl, k0_off90_eq k 14, rfl, fun _ => rfl⟩
    · exact ⟨_, rfl, k0_off91_eq k 14, rfl, fun _ => rfl⟩
    · exact ⟨_, rfl, k0_off92_eq k 14, rfl, fun _ => rfl⟩
    · exact ⟨_, rfl, k0_off93_eq k 14, rfl, fun _ => rfl⟩
    · exact ⟨_, rfl, k0_off94_eq k 14, rfl, fun _ => rfl⟩
    · exact ⟨_, rfl, k0_off95_eq k 14, rfl, fun _ => rfl⟩
    · exact ⟨_, rfl, k0_off80_eq k 15, rfl, fun _ => rfl⟩
    · exact ⟨_, rfl, k0_off81_eq k 15, rfl, fun _ => rfl⟩
    · exact ⟨_, rfl, k0_off82_eq k 15, rfl, fun _ => rfl⟩
    · exact ⟨_, rfl, k0_off83_eq k 15, rfl, fun _ => rfl⟩
    · exact ⟨_, rfl, k0_off84_eq k 15, rfl, fun _ => rfl⟩
    · exact ⟨_, rfl, k0_off85_eq k 15, rfl, fun _ => rfl⟩
    · exact ⟨_, rfl, k0_off86_eq k 15, rfl, fun _ => rfl⟩
    · exact ⟨_, rfl, k0_off87_eq k 15, rfl, fun _ => rfl⟩
    · exact ⟨_, rfl, k0_off88_eq k 15, rfl, fun _ => rfl⟩
    · exact ⟨_, rfl, k0_off89_eq k 15, rfl, fun _ => rfl⟩
    · exact ⟨_, rfl, k0_off90_eq k 15, rfl, fun _ => rfl⟩
    · exact ⟨_, rfl, k0_off91_eq k 15, rfl, fun _ => rfl⟩
    · exact ⟨_, rfl, k0_off92_eq k 15, rfl, fun _ => rfl⟩
    · exact ⟨_, rfl, k0_off93_eq k 15, rfl, fun _ => rfl⟩
    · exact ⟨_, rfl, k0_off94_eq k 15, rfl, fun _ => rfl⟩
    · exact ⟨_, rfl, k0_off95_eq k 15, rfl, fun _ => rfl⟩

/-- The pieces of trip `k`. -/
abbrev tripL_t6 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (k : Fin k0_t6_loop.trips) : List (View.Piece (Elt F) S128x256 .f32) :=
  (trip_t6 (F := F) 𝒱 d bd i arg2 harg2 arg3 harg3 arg4 harg4 arg5 harg5 arg6 harg6 arg7 harg7 arg8 arg9 v7_r0 v7_r1 v2 k0_t4 v71 c2_i32_50 v101 v102 X_arg5 k).1

/-- Trip `k`'s pieces in front of those before it; past the last trip, nothing more. -/
@[irreducible] def pb_t6Step (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (k : ℕ) (prev : List (View.Piece (Elt F) S128x256 .f32)) : List (View.Piece (Elt F) S128x256 .f32) :=
  if h : k < k0_t6_loop.trips then (tripL_t6 (F := F) 𝒱 d bd i arg2 harg2 arg3 harg3 arg4 harg4 arg5 harg5 arg6 harg6 arg7 harg7 arg8 arg9 v7_r0 v7_r1 v2 k0_t4 v71 c2_i32_50 v101 v102 X_arg5 ⟨k, h⟩) ++ prev else prev

/-- The pieces of the trips before `k`, last first. -/
def pb_t6 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) : ℕ → List (View.Piece (Elt F) S128x256 .f32)
  | 0 => []
  | k + 1 => pb_t6Step 𝒱 d bd i arg2 harg2 arg3 harg3 arg4 harg4 arg5 harg5 arg6 harg6 arg7 harg7 arg8 arg9 v7_r0 v7_r1 v2 k0_t4 v71 c2_i32_50 v101 v102 X_arg5 k (pb_t6 𝒱 d bd i arg2 harg2 arg3 harg3 arg4 harg4 arg5 harg5 arg6 harg6 arg7 harg7 arg8 arg9 v7_r0 v7_r1 v2 k0_t4 v71 c2_i32_50 v101 v102 X_arg5 k)

theorem pb_t6_succ (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (k : Fin k0_t6_loop.trips) :
    pb_t6 (F := F) 𝒱 d bd i arg2 harg2 arg3 harg3 arg4 harg4 arg5 harg5 arg6 harg6 arg7 harg7 arg8 arg9 v7_r0 v7_r1 v2 k0_t4 v71 c2_i32_50 v101 v102 X_arg5 (k.val + 1) = (tripL_t6 (F := F) 𝒱 d bd i arg2 harg2 arg3 harg3 arg4 harg4 arg5 harg5 arg6 harg6 arg7 harg7 arg8 arg9 v7_r0 v7_r1 v2 k0_t4 v71 c2_i32_50 v101 v102 X_arg5 k) ++ (pb_t6 (F := F) 𝒱 d bd i arg2 harg2 arg3 harg3 arg4 harg4 arg5 harg5 arg6 harg6 arg7 harg7 arg8 arg9 v7_r0 v7_r1 v2 k0_t4 v71 c2_i32_50 v101 v102 X_arg5 k.val) := by
  rw [pb_t6.eq_2]; unfold pb_t6Step; exact dif_pos k.isLt

/-- Before trip `k` the written buffer holds the pieces of the trips before `k` over its contents `G` at the loop's entry. -/
abbrev inv_t6 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (G : BufTy.Contents (Elt F) arg7.view.ty) (k : ℕ) (_a : BitVec 32) : sProp 𝕄 :=
  iprop((arg5.view.loc (V d (cV i) (jV i)) ↦[arg5.view.set]{fullShare} X_arg5) ∗ (∃ f, (arg7.view.loc (V d (cV i) (jV i)) ↦[arg7.view.set]{fullShare} f) ∗ ⌜f = arg7.view.writes (Elt F) G (pb_t6 (F := F) 𝒱 d bd i arg2 harg2 arg3 harg3 arg4 harg4 arg5 harg5 arg6 harg6 arg7 harg7 arg8 arg9 v7_r0 v7_r1 v2 k0_t4 v71 c2_i32_50 v101 v102 X_arg5 k)⌝))

set_option warn.classDefReducibility false in
/-- The loop by that invariant. -/
@[sl_loop] def loopInv_t6 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (E : Set ℕ) (G : BufTy.Contents (Elt F) arg7.view.ty) :
    LoopInv (M := MT nD τ sig (HIx 1) (Elt F) ℕ UU ℕ) Idealize.ShloMosaic.frame (wpE (defs₀ (F := F)) 𝒱 (V d (cV i) (jV i)) bd) E
      k0_t6_loop.lb k0_t6_loop.ub k0_t6_loop.st k0_t6_ok (0#32) (k0_t6_body (F := F) i arg2 harg2 arg3 harg3 arg4 harg4 arg5 harg5 arg6 harg6 arg7 harg7 arg8 arg9 v7_r0 v7_r1 v2 k0_t4 v71 c2_i32_50 v101 v102) where
  inv := inv_t6 (F := F) 𝒱 d bd i arg2 harg2 arg3 harg3 arg4 harg4 arg5 harg5 arg6 harg6 arg7 harg7 arg8 arg9 v7_r0 v7_r1 v2 k0_t4 v71 c2_i32_50 v101 v102 X_arg5 G
  step k acc := by
    iintro ⟨HR, ⟨%fw, HW, %hw⟩⟩
    iapply (wp_wand_r Idealize.ShloMosaic.frame (wpE (defs₀ (F := F)) 𝒱 (V d (cV i) (jV i)) bd) E)
    isplitl [HR HW]
    · iapply ((trip_t6 (F := F) 𝒱 d bd i arg2 harg2 arg3 harg3 arg4 harg4 arg5 harg5 arg6 harg6 arg7 harg7 arg8 arg9 v7_r0 v7_r1 v2 k0_t4 v71 c2_i32_50 v101 v102 X_arg5 k).2.1 E fw acc)
      isplitl [HR]; · iexact HR
      iexact HW
    · iintro %_ ⟨HR, HW⟩
      unfold inv_t6
      isplitl [HR]; · iexact HR
      rw [pb_t6_succ]
      iexists _; isplitl [HW]; · iexact HW
      ipureintro; rw [hw, ← View.writes_append]

/-! ### What the loop leaves -/

/-- The loop runs eight trips, sixteen rows each. -/
theorem trips_t6 : k0_t6_loop.trips = 8 := by decide +kernel

/-- After the loop row `r` of the written buffer holds, at every column, entry `128 + r` of staged row `4 + t4`, whatever
    the buffer held before. -/
theorem fill_t6 (𝒱 : Variants) (d : Dev nD) (bd : Option 𝒱.V) (i : grid0.Coords) (arg2 : Memref sig .scVector .hbm S128x256 .f32) (harg2 : arg2.IsWhole) (arg3 : Memref sig .scVector .hbm S128x256 .f32) (harg3 : arg3.IsWhole) (arg4 : Memref sig .scVector .hbm S4x256x256x256 .f32) (harg4 : arg4.IsWhole) (arg5 : Memref sig .scVector .vmem S8x256 .f32) (harg5 : arg5.IsWhole) (arg6 : Memref sig .scVector .vmem S128x256 .f32) (harg6 : arg6.IsWhole) (arg7 : Memref sig .scVector .vmem S128x256 .f32) (harg7 : arg7.IsWhole) (arg8 : DmaSems sig S_) (arg9 : DmaSems sig S_) (v7_r0 : DmaSems sig S_) (v7_r1 : DmaSems sig S_) (v2 : BitVec 32) (k0_t4 : Fin k0_t4_loop.trips) (v71 : BitVec 32) (c2_i32_50 : BitVec 32) (v101 : BitVec 32) (v102 : BitVec 32) (X_arg5 : BufTy.Contents (Elt F) arg5.view.ty) (G0 : BufTy.Contents (Elt F) arg7.view.ty) (y : S128x256.Idx) :
    arg7.view.read (Elt F) (arg7.view.writes (Elt F) G0 (pb_t6 (F := F) 𝒱 d bd i arg2 harg2 arg3 harg3 arg4 harg4 arg5 harg5 arg6 harg6 arg7 harg7 arg8 arg9 v7_r0 v7_r1 v2 k0_t4 v71 c2_i32_50 v101 v102 X_arg5 (Scf.trips k0_t6_loop.lb k0_t6_loop.ub k0_t6_loop.st))) y
      = arg5.view.read (Elt F) X_arg5 (ix2 (⟨4 + k0_t4.val, row_t4_lt k0_t4⟩ : Fin 8) (⟨128 + (y 0).val, by have := idx2_lt0 y; omega⟩ : Fin 256)) :=
  (read_of_trips arg7.view G0 (rowG (entRow arg5.view X_arg5 ⟨4 + k0_t4.val, row_t4_lt k0_t4⟩ 128 (by decide))) k0_t6_loop.trips (pb_t6 (F := F) 𝒱 d bd i arg2 harg2 arg3 harg3 arg4 harg4 arg5 harg5 arg6 harg6 arg7 harg7 arg8 arg9 v7_r0 v7_r1 v2 k0_t4 v71 c2_i32_50 v101 v102 X_arg5) (tripL_t6 (F := F) 𝒱 d bd i arg2 harg2 arg3 harg3 arg4 harg4 arg5 harg5 arg6 harg6 arg7 harg7 arg8 arg9 v7_r0 v7_r1 v2 k0_t4 v71 c2_i32_50 v101 v102 X_arg5) rfl
    (pb_t6_succ (F := F) 𝒱 d bd i arg2 harg2 arg3 harg3 arg4 harg4 arg5 harg5 arg6 harg6 arg7 harg7 arg8 arg9 v7_r0 v7_r1 v2 k0_t4 v71 c2_i32_50 v101 v102 X_arg5) (fun y => (y 0).val / 16)
    (fun k => (trip_t6 (F := F) 𝒱 d bd i arg2 harg2 arg3 harg3 arg4 harg4 arg5 harg5 arg6 harg6 arg7 harg7 arg8 arg9 v7_r0 v7_r1 v2 k0_t4 v71 c2_i32_50 v101 v102 X_arg5 k).2.2.1) (fun k => (trip_t6 (F := F) 𝒱 d bd i arg2 harg2 arg3 harg3 arg4 harg4 arg5 harg5 arg6 harg6 arg7 harg7 arg8 arg9 v7_r0 v7_r1 v2 k0_t4 v71 c2_i32_50 v101 v102 X_arg5 k).2.2.2) y
    (by rw [trips_t6]; have := idx2_lt0 y; omega)).trans
    (congrArg (fun c => arg5.view.read (Elt F) X_arg5 (ix2 (⟨4 + k0_t4.val, row_t4_lt k0_t4⟩ : Fin 8) c)) (Fin.ext (by rfl)))

end Cert.Proof.KI

end
-- ==== Proof.KIOut.lean ====
/-
  The result's entries of one worker, as the sixty-four half planes its task copies into.

  Worker w owns the channels c with (c mod 128) / 4 = w: the four column channels 4 w + k and the four row channels
  128 + 4 w + k, in each of the four batches. The task writes a channel's plane half a plane at a time (rows 0 .. 127,
  rows 128 .. 255), so its destinations are 4 x 8 x 2 = 64 half planes; the half plane at offsets (b, c, 128 h, 0) is
  the set of entries (b, c, y, x) with y / 128 = h. These sets are the fibres of the map that sends an entry of the
  worker to (channel, batch, half), so the worker's entries held at once are the half planes held one by one. An entry
  of a half plane is the entry of the result at the offsets plus its own coordinates, and after a copy of a whole
  128 x 256 buffer into a half plane that entry holds the buffer's entry.
-/
import proofs.«210098_g2860448219651_cont_9to1_994_18_alg».proof.Proof.KIOwn
import Idealize.ShloMosaic.Lib.ValueLayout
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "oV" => (Memref.whole Cert.KernelIdeal.main_v2_scv : Memref Cert.KernelIdeal.sig Kind.scVector Space.hbm Cert.KernelIdeal.S4x256x256x256 EltTy.f32)

/-! ## One half plane -/

section Slice

variable (d : Dev nD) (L : grid0.Coords)
variable (off : Fin 4 → Nat) (inb : ∀ a, off a + S1x1x128x256.size a ≤ S4x256x256x256.size a)

/-- The half plane at offsets `off` of the result, held at contents `f`, in the spelling the task's copies read. -/
abbrev oPt (f : Buf (Elt F) (oLoc d)) : sProp 𝕄 :=
  (oSl off inb).view.loc (V d (cV L) (jV L)) ↦[(oSl off inb).view.set]{fullShare} f

/-- Its entries: the box of sizes (1, 1, 128, 256) at the offsets. -/
theorem set_oSl : (oSl off inb).view.set
    = Finset.univ.filter fun j : S4x256x256x256.Idx => ∀ a, off a ≤ (j a).val ∧ (j a).val < off a + S1x1x128x256.size a := by
  show (((View.whole (main_v2_scv : Ref sig .scVector)).slice (Rect.unit (s := S4x256x256x256) off S1x1x128x256.size inb)).reshape
    S128x256 Facts₀.squeezes_S1x1x128x256_S128x256.numel_eq).set = _
  rw [View.set_reshape, View.set_slice_whole]
  ext j
  rw [Rect.mem_set_unit]
  simp only [Finset.mem_filter, Finset.mem_univ, true_and]
  exact Iff.rfl

/-- Entry (y, x) of the half plane is entry (off 0, off 1, off 2 + y, off 3 + x) of the result. -/
theorem oSl_emb_val (y : S128x256.Idx) (a : Fin 4) :
    ((oSl off inb).view.emb y a).val = off a + (ValueIdx.ix4 (⟨0, Nat.one_pos⟩ : Fin 1) (⟨0, Nat.one_pos⟩ : Fin 1) (y 0) (y 1) a).val := by
  show ((Rect.unit (s := S4x256x256x256) off S1x1x128x256.size inb).emb
    (Shape.reshapeEquiv (s := S1x1x128x256) (s' := S128x256) Facts₀.squeezes_S1x1x128x256_S128x256.numel_eq y) a).val = _
  rw [Rect.emb_apply]
  have e : Shape.reshapeEquiv (s := S1x1x128x256) (s' := S128x256) Facts₀.squeezes_S1x1x128x256_S128x256.numel_eq y
      = ValueIdx.ix4 (⟨0, Nat.one_pos⟩ : Fin 1) (⟨0, Nat.one_pos⟩ : Fin 1) (y 0) (y 1) := by
    conv_lhs => rw [ValueIdx.eq_ix2 y]
    exact ValueIdx.reshapeEquiv_ix2_11ab (a := 128) (b := 256) _ (y 0) (y 1)
  rw [e]
  show off a + 1 * _ = _
  rw [Nat.one_mul]

theorem oSl_emb_0 (y : S128x256.Idx) : ((oSl off inb).view.emb y 0).val = off 0 := oSl_emb_val off inb y 0
theorem oSl_emb_1 (y : S128x256.Idx) : ((oSl off inb).view.emb y 1).val = off 1 := oSl_emb_val off inb y 1
theorem oSl_emb_2 (y : S128x256.Idx) : ((oSl off inb).view.emb y 2).val = off 2 + (y 0).val := oSl_emb_val off inb y 2
theorem oSl_emb_3 (y : S128x256.Idx) : ((oSl off inb).view.emb y 3).val = off 3 + (y 1).val := oSl_emb_val off inb y 3

/-- The same as one index of the result. -/
theorem oSl_emb (y : S128x256.Idx) :
    (oSl off inb).view.emb y
      = ValueIdx.ix4 (n0 := 4) (n1 := 256) (n2 := 256) (n3 := 256)
          ⟨off 0, by have h1 : off 0 + 1 ≤ 4 := inb 0; omega⟩
          ⟨off 1, by have h1 : off 1 + 1 ≤ 256 := inb 1; omega⟩
          ⟨off 2 + (y 0).val, by have h1 : off 2 + 128 ≤ 256 := inb 2; have h2 : (y 0).val < 128 := (y 0).isLt; omega⟩
          ⟨off 3 + (y 1).val, by have h1 : off 3 + 256 ≤ 256 := inb 3; have h2 : (y 1).val < 256 := (y 1).isLt; omega⟩ := by
  funext a
  match a with
  | ⟨0, _⟩ => exact Fin.ext (oSl_emb_0 off inb y)
  | ⟨1, _⟩ => exact Fin.ext (oSl_emb_1 off inb y)
  | ⟨2, _⟩ => exact Fin.ext (oSl_emb_2 off inb y)
  | ⟨3, _⟩ => exact Fin.ext (oSl_emb_3 off inb y)

/-- Contents that agree on the half plane are one assertion. -/
theorem oPt_congr (g G : Buf (Elt F) (oLoc d))
    (h : ∀ y : S128x256.Idx, g ((oSl off inb).view.emb y) = G ((oSl off inb).view.emb y)) :
    oPt d L off inb g = oPt d L off inb G :=
  pointsTo_congr fun i hi => by
    obtain ⟨y, -, rfl⟩ := Finset.mem_map.mp hi
    exact h y

/-- After a copy of a whole 128 x 256 buffer `X` into the half plane, its entry (y, x) holds `X (y, x)`. -/
theorem oSl_landed (fo : Buf (Elt F) (oLoc d)) (X : S128x256.Idx → Elt F .f32) (y : S128x256.Idx) :
    ((oSl off inb).view.writes (Elt F) fo [⟨Rect.whole S128x256, X⟩]) ((oSl off inb).view.emb y) = X y := by
  have h := View.read_writes_cons_emb (oSl off inb).view fo (Rect.whole S128x256) X [] y
  rw [Rect.emb_whole_apply] at h
  exact h

end Slice

/-! ## Fibres of a map to a small range -/

section Fibres

variable {ℓ : Loc nD τ sig}

theorem pts_set_congr {I J : Finset (Idx ℓ)} (h : I = J) (f : Buf (Elt F) ℓ) :
    (ℓ ↦[I]{fullShare} f : sProp 𝕄) = ℓ ↦[J]{fullShare} f := by rw [h]

theorem sep_congr2 {A A' B B' : sProp 𝕄} (hA : A = A') (hB : B = B') : iprop(A ∗ B) = iprop(A' ∗ B') := by rw [hA, hB]

theorem sep_assoc_eq (A B C : sProp 𝕄) : iprop((A ∗ B) ∗ C) = iprop(A ∗ B ∗ C) :=
  BI.equiv_iff.mp ⟨BI.sep_assoc, BI.sep_assoc'⟩

/-- A set of entries held at once is the fibres of a map from it to 0 .. n - 1 held one by one. -/
theorem pointsTo_fibresN (S : Finset (Idx ℓ)) (n : ℕ) (φ : Idx ℓ → ℕ) (hφ : ∀ j ∈ S, φ j < n) (f : Buf (Elt F) ℓ) :
    (ℓ ↦[S]{fullShare} f : sProp 𝕄) = bigSep Finset.univ fun i : Fin n => ℓ ↦[S.filter fun j => φ j = i.val]{fullShare} f := by
  have hS : S = (Finset.univ : Finset (Fin n)).biUnion fun i => S.filter fun j => φ j = i.val := by
    ext j
    simp only [Finset.mem_biUnion, Finset.mem_univ, true_and, Finset.mem_filter]
    exact ⟨fun hj => ⟨⟨φ j, hφ j hj⟩, hj, rfl⟩, fun ⟨_, hj, _⟩ => hj⟩
  exact (pts_set_congr hS f).trans (pointsTo_biUnion Finset.univ (fun i : Fin n => S.filter fun j => φ j = i.val)
    (fun i _ i' _ h => Finset.disjoint_filter.mpr fun j _ h1 h2 => h (Fin.ext (h1.symm.trans h2))))

theorem bigSep_univ_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- Two fibres, each under the name it is known by. -/
theorem pointsTo_split2 {S A0 A1 : Finset (Idx ℓ)} (φ : Idx ℓ → ℕ) (hφ : ∀ j ∈ S, φ j < 2)
    (h0 : (S.filter fun j => φ j = 0) = A0) (h1 : (S.filter fun j => φ j = 1) = A1) (f : Buf (Elt F) ℓ) :
    (ℓ ↦[S]{fullShare} f : sProp 𝕄) = iprop((ℓ ↦[A0]{fullShare} f) ∗ (ℓ ↦[A1]{fullShare} f)) := by
  subst h0 h1
  exact (pointsTo_fibresN S 2 φ hφ f).trans (bigSep_univ_two _)

/-- Four fibres. -/
theorem pointsTo_split4 {S A0 A1 A2 A3 : Finset (Idx ℓ)} (φ : Idx ℓ → ℕ) (hφ : ∀ j ∈ S, φ j < 4)
    (h0 : (S.filter fun j => φ j = 0) = A0) (h1 : (S.filter fun j => φ j = 1) = A1)
    (h2 : (S.filter fun j => φ j = 2) = A2) (h3 : (S.filter fun j => φ j = 3) = A3) (f : Buf (Elt F) ℓ) :
    (ℓ ↦[S]{fullShare} f : sProp 𝕄)
      = iprop((ℓ ↦[A0]{fullShare} f) ∗ (ℓ ↦[A1]{fullShare} f) ∗ (ℓ ↦[A2]{fullShare} f) ∗ (ℓ ↦[A3]{fullShare} f)) := by
  subst h0 h1 h2 h3
  exact (pointsTo_fibresN S 4 φ hφ f).trans (bigSep_univ_four _)

end Fibres

/-! ## The half planes of a channel -/

/-- The half plane of batch `b`, channel `ch`, half `h`; a channel; a half of a channel in every batch. -/
def hp (b ch h : ℕ) : Finset S4x256x256x256.Idx := Finset.univ.filter fun j => (j 0).val = b ∧ (j 1).val = ch ∧ (j 2).val / 128 = h
def chan (ch : ℕ) : Finset S4x256x256x256.Idx := Finset.univ.filter fun j => (j 1).val = ch
def chanHalf (ch h : ℕ) : Finset S4x256x256x256.Idx := Finset.univ.filter fun j => (j 1).val = ch ∧ (j 2).val / 128 = h

theorem leafA (ch b h : ℕ) :
    (((chan ch).filter fun j => (j 0).val = b).filter fun j => (j 2).val / 128 = h) = hp b ch h := by
  ext j
  simp only [chan, hp, Finset.mem_filter, Finset.mem_univ, true_and]
  tauto

theorem leafB (ch h b : ℕ) : ((chanHalf ch h).filter fun j => (j 0).val = b) = hp b ch h := by
  ext j
  simp only [chanHalf, hp, Finset.mem_filter, Finset.mem_univ, true_and]
  tauto

/-- The box at offsets (b, ch, 128 h, 0) is that half plane. -/
theorem set_oSl_hp (off : Fin 4 → Nat) (inb : ∀ a, off a + S1x1x128x256.size a ≤ S4x256x256x256.size a)
    (b ch o h : ℕ) (hoff : off = ![b, ch, o, 0]) (ho : o = 128 * h) : (oSl off inb).view.set = hp b ch h := by
  rw [set_oSl]
  subst hoff ho
  ext j
  have h3 : (j 3).val < 256 := (j 3).isLt
  simp only [hp, Finset.mem_filter, Finset.mem_univ, true_and]
  constructor
  · intro H
    have a0 : b ≤ (j 0).val ∧ (j 0).val < b + 1 := H 0
    have a1 : ch ≤ (j 1).val ∧ (j 1).val < ch + 1 := H 1
    have a2 : 128 * h ≤ (j 2).val ∧ (j 2).val < 128 * h + 128 := H 2
    omega
  · intro H a
    match a with
    | 0 => show b ≤ (j 0).val ∧ (j 0).val < b + 1; omega
    | 1 => show ch ≤ (j 1).val ∧ (j 1).val < ch + 1; omega
    | 2 => show 128 * h ≤ (j 2).val ∧ (j 2).val < 128 * h + 128; omega
    | 3 => show 0 ≤ (j 3).val ∧ (j 3).val < 0 + 256; omega

section Channel

variable (d : Dev nD) (L : grid0.Coords)

/-- A destination of the task whose offsets are (b, ch, 128 h, 0) is that half plane held. -/
theorem oPt_hp (off : Fin 4 → Nat) (inb : ∀ a, off a + S1x1x128x256.size a ≤ S4x256x256x256.size a)
    (b ch o h : ℕ) (hoff : off = ![b, ch, o, 0]) (ho : o = 128 * h) (f : Buf (Elt F) (oLoc d)) :
    oPt d L off inb f = (oLoc d ↦[hp b ch h]{fullShare} f) :=
  pts_set_congr (set_oSl_hp off inb b ch o h hoff ho) f

/-- A channel is its eight half planes: batch by batch, the upper half then the lower. -/
theorem chan_split (ch : ℕ) (f : Buf (Elt F) (oLoc d)) :
    (oLoc d ↦[chan ch]{fullShare} f : sProp 𝕄)
      = iprop((oLoc d ↦[hp 0 ch 0]{fullShare} f) ∗ (oLoc d ↦[hp 0 ch 1]{fullShare} f)
          ∗ (oLoc d ↦[hp 1 ch 0]{fullShare} f) ∗ (oLoc d ↦[hp 1 ch 1]{fullShare} f)
          ∗ (oLoc d ↦[hp 2 ch 0]{fullShare} f) ∗ (oLoc d ↦[hp 2 ch 1]{fullShare} f)
          ∗ (oLoc d ↦[hp 3 ch 0]{fullShare} f) ∗ (oLoc d ↦[hp 3 ch 1]{fullShare} f)) := by
  have e : ∀ b : ℕ, (oLoc d ↦[(chan ch).filter fun j => (j 0).val = b]{fullShare} f : sProp 𝕄)
      = iprop((oLoc d ↦[hp b ch 0]{fullShare} f) ∗ (oLoc d ↦[hp b ch 1]{fullShare} f)) := fun b =>
    pointsTo_split2 (ℓ := oLoc d) (fun j => (j 2).val / 128) (fun j _ => by have h2 : (j 2).val < 256 := (j 2).isLt; omega)
      (leafA ch b 0) (leafA ch b 1) f
  refine (pointsTo_split4 (ℓ := oLoc d) (S := chan ch) (fun j => (j 0).val) (fun j _ => (j 0).isLt) rfl rfl rfl rfl f).trans ?_
  refine (sep_congr2 (e 0) (sep_congr2 (e 1) (sep_congr2 (e 2) (e 3)))).trans ?_
  simp only [sep_assoc_eq]

/-- A half of a channel, in every batch, is its four half planes. -/
theorem chanHalf_split (ch h : ℕ) (f : Buf (Elt F) (oLoc d)) :
    (oLoc d ↦[chanHalf ch h]{fullShare} f : sProp 𝕄)
      = iprop((oLoc d ↦[hp 0 ch h]{fullShare} f) ∗ (oLoc d ↦[hp 1 ch h]{fullShare} f)
          ∗ (oLoc d ↦[hp 2 ch h]{fullShare} f) ∗ (oLoc d ↦[hp 3 ch h]{fullShare} f)) :=
  pointsTo_split4 (ℓ := oLoc d) (S := chanHalf ch h) (fun j => (j 0).val) (fun j _ => (j 0).isLt)
    (leafB ch h 0) (leafB ch h 1) (leafB ch h 2) (leafB ch h 3) f

end Channel

/-! ## The offsets of the row channels' copies, in closed form -/

theorem k0_off75_eq : ∀ (i : grid0.Coords) (k0_t4 : Fin k0_t4_loop.trips), ∀ (r : Fin 2),
    k0_off75 i k0_t4 (BitVec.ofNat 32 r.val) = ![0, 128 + (8 * (i 1).val + 4 * (i 0).val) + k0_t4.val, 128 * r.val, 0] := by decide +kernel
theorem k0_off76_eq : ∀ (i : grid0.Coords) (k0_t4 : Fin k0_t4_loop.trips), ∀ (r : Fin 2),
    k0_off76 i k0_t4 (BitVec.ofNat 32 r.val) = ![1, 128 + (8 * (i 1).val + 4 * (i 0).val) + k0_t4.val, 128 * r.val, 0] := by decide +kernel
theorem k0_off77_eq : ∀ (i : grid0.Coords) (k0_t4 : Fin k0_t4_loop.trips), ∀ (r : Fin 2),
    k0_off77 i k0_t4 (BitVec.ofNat 32 r.val) = ![2, 128 + (8 * (i 1).val + 4 * (i 0).val) + k0_t4.val, 128 * r.val, 0] := by decide +kernel
theorem k0_off78_eq : ∀ (i : grid0.Coords) (k0_t4 : Fin k0_t4_loop.trips), ∀ (r : Fin 2),
    k0_off78 i k0_t4 (BitVec.ofNat 32 r.val) = ![3, 128 + (8 * (i 1).val + 4 * (i 0).val) + k0_t4.val, 128 * r.val, 0] := by decide +kernel

/-! ## The worker's channels -/

section Worker

variable (d : Dev nD) (L : grid0.Coords)

/-- The worker's first table column: 4 w for worker w = 2 (L 1) + (L 0). -/
abbrev base (L : grid0.Coords) : ℕ := 8 * (L 1).val + 4 * (L 0).val

theorem colLeaf (k : ℕ) (hk : k < 4) :
    ((((tileSet (wL L)).filter fun j => (j 1).val / 128 = 0).filter fun j => (j 1).val % 4 = k)) = chan (base L + k) := by
  ext j
  have h0 : (L 0).val < 2 := (L 0).isLt
  have h1 : (L 1).val < 16 := (L 1).isLt
  have hj1 : (j 1).val < 256 := (j 1).isLt
  have hw : (wL L).val = 2 * (L 1).val + (L 0).val := rfl
  have hb : base L = 8 * (L 1).val + 4 * (L 0).val := rfl
  simp only [tileSet, chan, Finset.mem_filter, Finset.mem_univ, true_and, hw]
  omega

theorem rowLeaf (t r : ℕ) (ht : t < 4) :
    (((((tileSet (wL L)).filter fun j => (j 1).val / 128 = 1).filter fun j => (j 1).val % 4 = t)).filter fun j => (j 2).val / 128 = r)
      = chanHalf (128 + base L + t) r := by
  ext j
  have h0 : (L 0).val < 2 := (L 0).isLt
  have h1 : (L 1).val < 16 := (L 1).isLt
  have hj1 : (j 1).val < 256 := (j 1).isLt
  have hw : (wL L).val = 2 * (L 1).val + (L 0).val := rfl
  have hb : base L = 8 * (L 1).val + 4 * (L 0).val := rfl
  simp only [tileSet, chanHalf, Finset.mem_filter, Finset.mem_univ, true_and, hw]
  omega

/-- The worker's entries are its four column channels and the two halves of its four row channels. -/
theorem tile_split (f : Buf (Elt F) (oLoc d)) :
    (oLoc d ↦[tileSet (wL L)]{fullShare} f : sProp 𝕄)
      = iprop((oLoc d ↦[chan (base L + 0)]{fullShare} f) ∗ (oLoc d ↦[chan (base L + 1)]{fullShare} f)
          ∗ (oLoc d ↦[chan (base L + 2)]{fullShare} f) ∗ (oLoc d ↦[chan (base L + 3)]{fullShare} f)
          ∗ (oLoc d ↦[chanHalf (128 + base L + 0) 0]{fullShare} f) ∗ (oLoc d ↦[chanHalf (128 + base L + 0) 1]{fullShare} f)
          ∗ (oLoc d ↦[chanHalf (128 + base L + 1) 0]{fullShare} f) ∗ (oLoc d ↦[chanHalf (128 + base L + 1) 1]{fullShare} f)
          ∗ (oLoc d ↦[chanHalf (128 + base L + 2) 0]{fullShare} f) ∗ (oLoc d ↦[chanHalf (128 + base L + 2) 1]{fullShare} f)
          ∗ (oLoc d ↦[chanHalf (128 + base L + 3) 0]{fullShare} f) ∗ (oLoc d ↦[chanHalf (128 + base L + 3) 1]{fullShare} f)) := by
  have hh : ∀ j : S4x256x256x256.Idx, (j 2).val / 128 < 2 := fun j => by have h2 : (j 2).val < 256 := (j 2).isLt; omega
  have er : ∀ t : ℕ, t < 4 →
      (oLoc d ↦[((tileSet (wL L)).filter fun j => (j 1).val / 128 = 1).filter fun j => (j 1).val % 4 = t]{fullShare} f : sProp 𝕄)
        = iprop((oLoc d ↦[chanHalf (128 + base L + t) 0]{fullShare} f) ∗ (oLoc d ↦[chanHalf (128 + base L + t) 1]{fullShare} f)) := fun t ht =>
    pointsTo_split2 (ℓ := oLoc d) (fun j => (j 2).val / 128) (fun j _ => hh j) (rowLeaf L t 0 ht) (rowLeaf L t 1 ht) f
  have ec : (oLoc d ↦[(tileSet (wL L)).filter fun j => (j 1).val / 128 = 0]{fullShare} f : sProp 𝕄)
      = iprop((oLoc d ↦[chan (base L + 0)]{fullShare} f) ∗ (oLoc d ↦[chan (base L + 1)]{fullShare} f)
          ∗ (oLoc d ↦[chan (base L + 2)]{fullShare} f) ∗ (oLoc d ↦[chan (base L + 3)]{fullShare} f)) :=
    pointsTo_split4 (ℓ := oLoc d) (fun j => (j 1).val % 4) (fun j _ => Nat.mod_lt _ (by decide))
      (colLeaf L 0 (by decide)) (colLeaf L 1 (by decide)) (colLeaf L 2 (by decide)) (colLeaf L 3 (by decide)) f
  have err := (pointsTo_split4 (ℓ := oLoc d) (S := (tileSet (wL L)).filter fun j => (j 1).val / 128 = 1)
      (fun j => (j 1).val % 4) (fun j _ => Nat.mod_lt _ (by decide)) rfl rfl rfl rfl f).trans
    (sep_congr2 (er 0 (by decide)) (sep_congr2 (er 1 (by decide)) (sep_congr2 (er 2 (by decide)) (er 3 (by decide)))))
  refine (pointsTo_split2 (ℓ := oLoc d) (S := tileSet (wL L)) (fun j => (j 1).val / 128)
    (fun j _ => by have h1 : (j 1).val < 256 := (j 1).isLt; omega) rfl rfl f).trans ?_
  refine (sep_congr2 ec err).trans ?_
  simp only [sep_assoc_eq]

/-! ## The task's destinations, group by group -/

section Groups

/-- The eight copies of one column channel (trip `t` of two, second index 0): four batches, two halves. -/
abbrev grpA0 (t : Fin k0_t1_loop.trips) (f : Buf (Elt F) (oLoc d)) : sProp 𝕄 :=
  iprop(oPt d L (k0_off34 L t 0#32) (k0_off34_inb L t 0) f
    ∗ oPt d L (k0_off35 L t 0#32) (k0_off35_inb L t 0) f
    ∗ oPt d L (k0_off36 L t 0#32) (k0_off36_inb L t 0) f
    ∗ oPt d L (k0_off37 L t 0#32) (k0_off37_inb L t 0) f
    ∗ oPt d L (k0_off38 L t 0#32) (k0_off38_inb L t 0) f
    ∗ oPt d L (k0_off39 L t 0#32) (k0_off39_inb L t 0) f
    ∗ oPt d L (k0_off40 L t 0#32) (k0_off40_inb L t 0) f
    ∗ oPt d L (k0_off41 L t 0#32) (k0_off41_inb L t 0) f)
/-- The same at second index 1. -/
abbrev grpA1 (t : Fin k0_t1_loop.trips) (f : Buf (Elt F) (oLoc d)) : sProp 𝕄 :=
  iprop(oPt d L (k0_off34 L t 1#32) (k0_off34_inb L t 1) f
    ∗ oPt d L (k0_off35 L t 1#32) (k0_off35_inb L t 1) f
    ∗ oPt d L (k0_off36 L t 1#32) (k0_off36_inb L t 1) f
    ∗ oPt d L (k0_off37 L t 1#32) (k0_off37_inb L t 1) f
    ∗ oPt d L (k0_off38 L t 1#32) (k0_off38_inb L t 1) f
    ∗ oPt d L (k0_off39 L t 1#32) (k0_off39_inb L t 1) f
    ∗ oPt d L (k0_off40 L t 1#32) (k0_off40_inb L t 1) f
    ∗ oPt d L (k0_off41 L t 1#32) (k0_off41_inb L t 1) f)
/-- The four copies of one half of one row channel (trip `t` of four, half 0): four batches. -/
abbrev grpB0 (t : Fin k0_t4_loop.trips) (f : Buf (Elt F) (oLoc d)) : sProp 𝕄 :=
  iprop(oPt d L (k0_off75 L t 0#32) (k0_off75_inb L t 0) f
    ∗ oPt d L (k0_off76 L t 0#32) (k0_off76_inb L t 0) f
    ∗ oPt d L (k0_off77 L t 0#32) (k0_off77_inb L t 0) f
    ∗ oPt d L (k0_off78 L t 0#32) (k0_off78_inb L t 0) f)
/-- The same at half 1. -/
abbrev grpB1 (t : Fin k0_t4_loop.trips) (f : Buf (Elt F) (oLoc d)) : sProp 𝕄 :=
  iprop(oPt d L (k0_off75 L t 1#32) (k0_off75_inb L t 1) f
    ∗ oPt d L (k0_off76 L t 1#32) (k0_off76_inb L t 1) f
    ∗ oPt d L (k0_off77 L t 1#32) (k0_off77_inb L t 1) f
    ∗ oPt d L (k0_off78 L t 1#32) (k0_off78_inb L t 1) f)

theorem pA34 (t : Fin k0_t1_loop.trips) (r : Fin 2) (f : Buf (Elt F) (oLoc d)) :
    oPt d L (k0_off34 L t (BitVec.ofNat 32 r.val)) (k0_off34_inb L t r) f = (oLoc d ↦[hp 0 (base L + (2 * t.val + r.val)) 0]{fullShare} f) :=
  oPt_hp d L _ _ 0 (base L + (2 * t.val + r.val)) 0 0 ((k0_off34_eq L t r).trans (by rw [Nat.add_assoc])) rfl f
theorem pA35 (t : Fin k0_t1_loop.trips) (r : Fin 2) (f : Buf (Elt F) (oLoc d)) :
    oPt d L (k0_off35 L t (BitVec.ofNat 32 r.val)) (k0_off35_inb L t r) f = (oLoc d ↦[hp 0 (base L + (2 * t.val + r.val)) 1]{fullShare} f) :=
  oPt_hp d L _ _ 0 (base L + (2 * t.val + r.val)) 128 1 ((k0_off35_eq L t r).trans (by rw [Nat.add_assoc])) rfl f
theorem pA36 (t : Fin k0_t1_loop.trips) (r : Fin 2) (f : Buf (Elt F) (oLoc d)) :
    oPt d L (k0_off36 L t (BitVec.ofNat 32 r.val)) (k0_off36_inb L t r) f = (oLoc d ↦[hp 1 (base L + (2 * t.val + r.val)) 0]{fullShare} f) :=
  oPt_hp d L _ _ 1 (base L + (2 * t.val + r.val)) 0 0 ((k0_off36_eq L t r).trans (by rw [Nat.add_assoc])) rfl f
theorem pA37 (t : Fin k0_t1_loop.trips) (r : Fin 2) (f : Buf (Elt F) (oLoc d)) :
    oPt d L (k0_off37 L t (BitVec.ofNat 32 r.val)) (k0_off37_inb L t r) f = (oLoc d ↦[hp 1 (base L + (2 * t.val + r.val)) 1]{fullShare} f) :=
  oPt_hp d L _ _ 1 (base L + (2 * t.val + r.val)) 128 1 ((k0_off37_eq L t r).trans (by rw [Nat.add_assoc])) rfl f
theorem pA38 (t : Fin k0_t1_loop.trips) (r : Fin 2) (f : Buf (Elt F) (oLoc d)) :
    oPt d L (k0_off38 L t (BitVec.ofNat 32 r.val)) (k0_off38_inb L t r) f = (oLoc d ↦[hp 2 (base L + (2 * t.val + r.val)) 0]{fullShare} f) :=
  oPt_hp d L _ _ 2 (base L + (2 * t.val + r.val)) 0 0 ((k0_off38_eq L t r).trans (by rw [Nat.add_assoc])) rfl f
theorem pA39 (t : Fin k0_t1_loop.trips) (r : Fin 2) (f : Buf (Elt F) (oLoc d)) :
    oPt d L (k0_off39 L t (BitVec.ofNat 32 r.val)) (k0_off39_inb L t r) f = (oLoc d ↦[hp 2 (base L + (2 * t.val + r.val)) 1]{fullShare} f) :=
  oPt_hp d L _ _ 2 (base L + (2 * t.val + r.val)) 128 1 ((k0_off39_eq L t r).trans (by rw [Nat.add_assoc])) rfl f
theorem pA40 (t : Fin k0_t1_loop.trips) (r : Fin 2) (f : Buf (Elt F) (oLoc d)) :
    oPt d L (k0_off40 L t (BitVec.ofNat 32 r.val)) (k0_off40_inb L t r) f = (oLoc d ↦[hp 3 (base L + (2 * t.val + r.val)) 0]{fullShare} f) :=
  oPt_hp d L _ _ 3 (base L + (2 * t.val + r.val)) 0 0 ((k0_off40_eq L t r).trans (by rw [Nat.add_assoc])) rfl f
theorem pA41 (t : Fin k0_t1_loop.trips) (r : Fin 2) (f : Buf (Elt F) (oLoc d)) :
    oPt d L (k0_off41 L t (BitVec.ofNat 32 r.val)) (k0_off41_inb L t r) f = (oLoc d ↦[hp 3 (base L + (2 * t.val + r.val)) 1]{fullShare} f) :=
  oPt_hp d L _ _ 3 (base L + (2 * t.val + r.val)) 128 1 ((k0_off41_eq L t r).trans (by rw [Nat.add_assoc])) rfl f
theorem pB75 (t : Fin k0_t4_loop.trips) (r : Fin 2) (f : Buf (Elt F) (oLoc d)) :
    oPt d L (k0_off75 L t (BitVec.ofNat 32 r.val)) (k0_off75_inb L t r) f = (oLoc d ↦[hp 0 (128 + base L + t.val) r.val]{fullShare} f) :=
  oPt_hp d L _ _ 0 (128 + base L + t.val) (128 * r.val) r.val (k0_off75_eq L t r) rfl f
theorem pB76 (t : Fin k0_t4_loop.trips) (r : Fin 2) (f : Buf (Elt F) (oLoc d)) :
    oPt d L (k0_off76 L t (BitVec.ofNat 32 r.val)) (k0_off76_inb L t r) f = (oLoc d ↦[hp 1 (128 + base L + t.val) r.val]{fullShare} f) :=
  oPt_hp d L _ _ 1 (128 + base L + t.val) (128 * r.val) r.val (k0_off76_eq L t r) rfl f
theorem pB77 (t : Fin k0_t4_loop.trips) (r : Fin 2) (f : Buf (Elt F) (oLoc d)) :
    oPt d L (k0_off77 L t (BitVec.ofNat 32 r.val)) (k0_off77_inb L t r) f = (oLoc d ↦[hp 2 (128 + base L + t.val) r.val]{fullShare} f) :=
  oPt_hp d L _ _ 2 (128 + base L + t.val) (128 * r.val) r.val (k0_off77_eq L t r) rfl f
theorem pB78 (t : Fin k0_t4_loop.trips) (r : Fin 2) (f : Buf (Elt F) (oLoc d)) :
    oPt d L (k0_off78 L t (BitVec.ofNat 32 r.val)) (k0_off78_inb L t r) f = (oLoc d ↦[hp 3 (128 + base L + t.val) r.val]{fullShare} f) :=
  oPt_hp d L _ _ 3 (128 + base L + t.val) (128 * r.val) r.val (k0_off78_eq L t r) rfl f

/-- A column channel is the eight destinations of its copies. -/
theorem grpA_eq (t : Fin k0_t1_loop.trips) (r : Fin 2) (f : Buf (Elt F) (oLoc d)) :
    (oLoc d ↦[chan (base L + (2 * t.val + r.val))]{fullShare} f : sProp 𝕄)
      = iprop(oPt d L (k0_off34 L t (BitVec.ofNat 32 r.val)) (k0_off34_inb L t r) f
    ∗ oPt d L (k0_off35 L t (BitVec.ofNat 32 r.val)) (k0_off35_inb L t r) f
    ∗ oPt d L (k0_off36 L t (BitVec.ofNat 32 r.val)) (k0_off36_inb L t r) f
    ∗ oPt d L (k0_off37 L t (BitVec.ofNat 32 r.val)) (k0_off37_inb L t r) f
    ∗ oPt d L (k0_off38 L t (BitVec.ofNat 32 r.val)) (k0_off38_inb L t r) f
    ∗ oPt d L (k0_off39 L t (BitVec.ofNat 32 r.val)) (k0_off39_inb L t r) f
    ∗ oPt d L (k0_off40 L t (BitVec.ofNat 32 r.val)) (k0_off40_inb L t r) f
    ∗ oPt d L (k0_off41 L t (BitVec.ofNat 32 r.val)) (k0_off41_inb L t r) f) :=
  (chan_split d (base L + (2 * t.val + r.val)) f).trans
    (sep_congr2 (pA34 d L t r f) (sep_congr2 (pA35 d L t r f) (sep_congr2 (pA36 d L t r f) (sep_congr2 (pA37 d L t r f) (sep_congr2 (pA38 d L t r f) (sep_congr2 (pA39 d L t r f) (sep_congr2 (pA40 d L t r f) (pA41 d L t r f)))))))).symm

/-- A half of a row channel is the four destinations of its copies. -/
theorem grpB_eq (t : Fin k0_t4_loop.trips) (r : Fin 2) (f : Buf (Elt F) (oLoc d)) :
    (oLoc d ↦[chanHalf (128 + base L + t.val) r.val]{fullShare} f : sProp 𝕄)
      = iprop(oPt d L (k0_off75 L t (BitVec.ofNat 32 r.val)) (k0_off75_inb L t r) f
    ∗ oPt d L (k0_off76 L t (BitVec.ofNat 32 r.val)) (k0_off76_inb L t r) f
    ∗ oPt d L (k0_off77 L t (BitVec.ofNat 32 r.val)) (k0_off77_inb L t r) f
    ∗ oPt d L (k0_off78 L t (BitVec.ofNat 32 r.val)) (k0_off78_inb L t r) f) :=
  (chanHalf_split d (128 + base L + t.val) r.val f).trans
    (sep_congr2 (pB75 d L t r f) (sep_congr2 (pB76 d L t r f) (sep_congr2 (pB77 d L t r f) (pB78 d L t r f)))).symm

theorem grpA0_eq (t : Fin k0_t1_loop.trips) (f : Buf (Elt F) (oLoc d)) :
    (oLoc d ↦[chan (base L + (2 * t.val + 0))]{fullShare} f : sProp 𝕄) = grpA0 d L t f := grpA_eq d L t 0 f
theorem grpA1_eq (t : Fin k0_t1_loop.trips) (f : Buf (Elt F) (oLoc d)) :
    (oLoc d ↦[chan (base L + (2 * t.val + 1))]{fullShare} f : sProp 𝕄) = grpA1 d L t f := grpA_eq d L t 1 f
theorem grpB0_eq (t : Fin k0_t4_loop.trips) (f : Buf (Elt F) (oLoc d)) :
    (oLoc d ↦[chanHalf (128 + base L + t.val) 0]{fullShare} f : sProp 𝕄) = grpB0 d L t f := grpB_eq d L t 0 f
theorem grpB1_eq (t : Fin k0_t4_loop.trips) (f : Buf (Elt F) (oLoc d)) :
    (oLoc d ↦[chanHalf (128 + base L + t.val) 1]{fullShare} f : sProp 𝕄) = grpB1 d L t f := grpB_eq d L t 1 f

end Groups

/-- The trips of the two loops, by number. -/
abbrev tA (k : ℕ) (h : k < k0_t1_loop.trips := by decide) : Fin k0_t1_loop.trips := ⟨k, h⟩
abbrev tB (k : ℕ) (h : k < k0_t4_loop.trips := by decide) : Fin k0_t4_loop.trips := ⟨k, h⟩

/-- The worker's entries of the result are the sixty-four destinations of its task's copies. -/
theorem oSplit_eq (f : Buf (Elt F) (oLoc d)) :
    (oLoc d ↦[tileSet (wL L)]{fullShare} f : sProp 𝕄)
      = iprop(grpA0 d L (tA 0) f ∗ grpA1 d L (tA 0) f ∗ grpA0 d L (tA 1) f ∗ grpA1 d L (tA 1) f
          ∗ grpB0 d L (tB 0) f ∗ grpB1 d L (tB 0) f ∗ grpB0 d L (tB 1) f ∗ grpB1 d L (tB 1) f
          ∗ grpB0 d L (tB 2) f ∗ grpB1 d L (tB 2) f ∗ grpB0 d L (tB 3) f ∗ grpB1 d L (tB 3) f) :=
  (tile_split d L f).trans
    (sep_congr2 (grpA0_eq d L (tA 0) f) (sep_congr2 (grpA1_eq d L (tA 0) f) (sep_congr2 (grpA0_eq d L (tA 1) f) (sep_congr2 (grpA1_eq d L (tA 1) f) (sep_congr2 (grpB0_eq d L (tB 0) f) (sep_congr2 (grpB1_eq d L (tB 0) f) (sep_congr2 (grpB0_eq d L (tB 1) f) (sep_congr2 (grpB1_eq d L (tB 1) f) (sep_congr2 (grpB0_eq d L (tB 2) f) (sep_congr2 (grpB1_eq d L (tB 2) f) (sep_congr2 (grpB0_eq d L (tB 3) f) (grpB1_eq d L (tB 3) f))))))))))))

theorem oSplit (f : Buf (Elt F) (oLoc d)) :
    (oLoc d ↦[tileSet (wL L)]{fullShare} f : sProp 𝕄)
      ⊣⊢ iprop(grpA0 d L (tA 0) f ∗ grpA1 d L (tA 0) f ∗ grpA0 d L (tA 1) f ∗ grpA1 d L (tA 1) f
          ∗ grpB0 d L (tB 0) f ∗ grpB1 d L (tB 0) f ∗ grpB0 d L (tB 1) f ∗ grpB1 d L (tB 1) f
          ∗ grpB0 d L (tB 2) f ∗ grpB1 d L (tB 2) f ∗ grpB0 d L (tB 3) f ∗ grpB1 d L (tB 3) f) :=
  ⟨Entails.of_eq (oSplit_eq d L f), Entails.of_eq (oSplit_eq d L f).symm⟩

end Worker

end Cert.Proof.KI

end
-- ==== Proof.KIVal.lean ====
/-
  What a group of the task's destinations holds when its copies have landed.

  The eight copies of a column channel all carry one 128 x 256 buffer whose entry (y, x) is the staged row's entry x,
  that is the transposed column table's entry (channel, x); the four copies of a half of a row channel carry one
  buffer whose entry (y, x) is the transposed row table's entry (channel - 128, row), the row being y in the upper
  half and 128 + y in the lower. Entry (y, x) of the half plane at offsets (b, c, o, 0) is entry (b, c, o + y, x) of
  the result, where the position embedding read off the transposed tables is the column table's (c, x) for c < 128
  and the row table's (c - 128, o + y) otherwise: the same values. What a half plane held before the copy is
  overwritten everywhere, so it does not matter.
-/
import proofs.«210098_g2860448219651_cont_9to1_994_18_alg».proof.Proof.KIOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx (ix2 ix4)

/-! ## The embedding read off the transposed tables, at an entry of known coordinates -/

theorem posEmbedT_lt {α : Type} (colT rowT : (⟨2, ![128, 256]⟩ : Shape).Idx → α) (j : (⟨4, ![4, 256, 256, 256]⟩ : Shape).Idx)
    (c : Fin 128) (x : Fin 256) (h1 : (j 1).val = c.val) (h3 : (j 3).val = x.val) :
    Cert.PosEmbed.posEmbedT colT rowT j = colT (ix2 c x) := by
  have hlt : (j 1).val < 128 := h1 ▸ c.isLt
  unfold Cert.PosEmbed.posEmbedT
  rw [dif_pos hlt]
  exact congrArg₂ (fun a b => colT (ix2 a b)) (Fin.ext h1) (Fin.ext h3)

theorem posEmbedT_ge {α : Type} (colT rowT : (⟨2, ![128, 256]⟩ : Shape).Idx → α) (j : (⟨4, ![4, 256, 256, 256]⟩ : Shape).Idx)
    (c : Fin 128) (x : Fin 256) (h1 : (j 1).val = 128 + c.val) (h2 : (j 2).val = x.val) :
    Cert.PosEmbed.posEmbedT colT rowT j = rowT (ix2 c x) := by
  have hge : ¬ (j 1).val < 128 := by omega
  unfold Cert.PosEmbed.posEmbedT
  rw [dif_neg hge]
  exact congrArg₂ (fun a b => rowT (ix2 a b)) (Fin.ext (by show (j 1).val - 128 = c.val; omega)) (Fin.ext h2)

/-! ## One destination after its copy -/

section Slice

variable (d : Dev nD) (L : grid0.Coords) (ct : Buf (Elt F) (ctLoc d)) (rt : Buf (Elt F) (rtLoc d))
variable (off : Fin 4 → Nat) (inb : ∀ a, off a + S1x1x128x256.size a ≤ S4x256x256x256.size a)

/-- The rows of the upper and of the lower half of a plane, as rows of the plane. -/
abbrev rowLo (y : S128x256.Idx) : Fin 256 := ⟨(y 0).val, by have h : (y 0).val < 128 := (y 0).isLt; omega⟩
abbrev rowHi (y : S128x256.Idx) : Fin 256 := ⟨128 + (y 0).val, by have h : (y 0).val < 128 := (y 0).isLt; omega⟩

/-- A half plane of a column channel `ch`, after a copy of a buffer that repeats row `ch` of the transposed column
    table, holds the position embedding's entries. -/
theorem slice_col (X : S128x256.Idx → Elt F .f32) (g : Buf (Elt F) (oLoc d)) (ch : Fin 128)
    (h1 : off 1 = ch.val) (h3 : off 3 = 0) (hX : ∀ y : S128x256.Idx, X y = ct (ix2 ch (y 1))) :
    oPt d L off inb ((oSl off inb).view.writes (Elt F) g [⟨Rect.whole S128x256, X⟩]) = oPt d L off inb (Cert.PosEmbed.posEmbedT ct rt : Buf (Elt F) (oLoc d)) :=
  oPt_congr d L off inb _ _ fun y =>
    ((oSl_landed d off inb g X y).trans (hX y)).trans
      (posEmbedT_lt ct rt _ ch (y 1) ((oSl_emb_1 off inb y).trans h1)
        ((oSl_emb_3 off inb y).trans (by rw [h3, Nat.zero_add]))).symm

/-- A half plane of a row channel `128 + ch`, after a copy of a buffer whose row y repeats entry `row y` of row `ch` of
    the transposed row table, `row y` being the plane's row under the half plane's row y. -/
theorem slice_row (X : S128x256.Idx → Elt F .f32) (g : Buf (Elt F) (oLoc d)) (ch : Fin 128) (row : S128x256.Idx → Fin 256)
    (h1 : off 1 = 128 + ch.val) (h2 : ∀ y, off 2 + (y 0).val = (row y).val) (hX : ∀ y : S128x256.Idx, X y = rt (ix2 ch (row y))) :
    oPt d L off inb ((oSl off inb).view.writes (Elt F) g [⟨Rect.whole S128x256, X⟩]) = oPt d L off inb (Cert.PosEmbed.posEmbedT ct rt : Buf (Elt F) (oLoc d)) :=
  oPt_congr d L off inb _ _ fun y =>
    ((oSl_landed d off inb g X y).trans (hX y)).trans
      (posEmbedT_ge ct rt _ ch (row y) ((oSl_emb_1 off inb y).trans h1) ((oSl_emb_2 off inb y).trans (h2 y))).symm

end Slice

/-! ## The groups -/

section Groups

variable (d : Dev nD) (L : grid0.Coords) (ct : Buf (Elt F) (ctLoc d)) (rt : Buf (Elt F) (rtLoc d))

/-- The eight destinations of a column channel's copies, all of one buffer. -/
theorem grpA_val (t : Fin k0_t1_loop.trips) (r : Fin 2) (X : S128x256.Idx → Elt F .f32) (g0 g1 g2 g3 g4 g5 g6 g7 : Buf (Elt F) (oLoc d)) (ch : Fin 128)
    (hch : ch.val = 8 * (L 1).val + 4 * (L 0).val + 2 * t.val + r.val) (hX : ∀ y : S128x256.Idx, X y = ct (ix2 ch (y 1))) :
    iprop(oPt d L (k0_off34 L t (BitVec.ofNat 32 r.val)) (k0_off34_inb L t r)
        ((oSl (k0_off34 L t (BitVec.ofNat 32 r.val)) (k0_off34_inb L t r)).view.writes (Elt F) g0 [⟨Rect.whole S128x256, X⟩])
      ∗ oPt d L (k0_off35 L t (BitVec.ofNat 32 r.val)) (k0_off35_inb L t r)
        ((oSl (k0_off35 L t (BitVec.ofNat 32 r.val)) (k0_off35_inb L t r)).view.writes (Elt F) g1 [⟨Rect.whole S128x256, X⟩])
      ∗ oPt d L (k0_off36 L t (BitVec.ofNat 32 r.val)) (k0_off36_inb L t r)
        ((oSl (k0_off36 L t (BitVec.ofNat 32 r.val)) (k0_off36_inb L t r)).view.writes (Elt F) g2 [⟨Rect.whole S128x256, X⟩])
      ∗ oPt d L (k0_off37 L t (BitVec.ofNat 32 r.val)) (k0_off37_inb L t r)
        ((oSl (k0_off37 L t (BitVec.ofNat 32 r.val)) (k0_off37_inb L t r)).view.writes (Elt F) g3 [⟨Rect.whole S128x256, X⟩])
      ∗ oPt d L (k0_off38 L t (BitVec.ofNat 32 r.val)) (k0_off38_inb L t r)
        ((oSl (k0_off38 L t (BitVec.ofNat 32 r.val)) (k0_off38_inb L t r)).view.writes (Elt F) g4 [⟨Rect.whole S128x256, X⟩])
      ∗ oPt d L (k0_off39 L t (BitVec.ofNat 32 r.val)) (k0_off39_inb L t r)
        ((oSl (k0_off39 L t (BitVec.ofNat 32 r.val)) (k0_off39_inb L t r)).view.writes (Elt F) g5 [⟨Rect.whole S128x256, X⟩])
      ∗ oPt d L (k0_off40 L t (BitVec.ofNat 32 r.val)) (k0_off40_inb L t r)
        ((oSl (k0_off40 L t (BitVec.ofNat 32 r.val)) (k0_off40_inb L t r)).view.writes (Elt F) g6 [⟨Rect.whole S128x256, X⟩])
      ∗ oPt d L (k0_off41 L t (BitVec.ofNat 32 r.val)) (k0_off41_inb L t r)
        ((oSl (k0_off41 L t (BitVec.ofNat 32 r.val)) (k0_off41_inb L t r)).view.writes (Elt F) g7 [⟨Rect.whole S128x256, X⟩]))
      ⊢ iprop(oPt d L (k0_off34 L t (BitVec.ofNat 32 r.val)) (k0_off34_inb L t r) (Cert.PosEmbed.posEmbedT ct rt : Buf (Elt F) (oLoc d))
        ∗ oPt d L (k0_off35 L t (BitVec.ofNat 32 r.val)) (k0_off35_inb L t r) (Cert.PosEmbed.posEmbedT ct rt : Buf (Elt F) (oLoc d))
        ∗ oPt d L (k0_off36 L t (BitVec.ofNat 32 r.val)) (k0_off36_inb L t r) (Cert.PosEmbed.posEmbedT ct rt : Buf (Elt F) (oLoc d))
        ∗ oPt d L (k0_off37 L t (BitVec.ofNat 32 r.val)) (k0_off37_inb L t r) (Cert.PosEmbed.posEmbedT ct rt : Buf (Elt F) (oLoc d))
        ∗ oPt d L (k0_off38 L t (BitVec.ofNat 32 r.val)) (k0_off38_inb L t r) (Cert.PosEmbed.posEmbedT ct rt : Buf (Elt F) (oLoc d))
        ∗ oPt d L (k0_off39 L t (BitVec.ofNat 32 r.val)) (k0_off39_inb L t r) (Cert.PosEmbed.posEmbedT ct rt : Buf (Elt F) (oLoc d))
        ∗ oPt d L (k0_off40 L t (BitVec.ofNat 32 r.val)) (k0_off40_inb L t r) (Cert.PosEmbed.posEmbedT ct rt : Buf (Elt F) (oLoc d))
        ∗ oPt d L (k0_off41 L t (BitVec.ofNat 32 r.val)) (k0_off41_inb L t r) (Cert.PosEmbed.posEmbedT ct rt : Buf (Elt F) (oLoc d))) :=
  Entails.of_eq (sep_congr2 (slice_col d L ct rt _ (k0_off34_inb L t r) X g0 ch ((congrFun (k0_off34_eq L t r) 1).trans hch.symm) (congrFun (k0_off34_eq L t r) 3) hX) (sep_congr2 (slice_col d L ct rt _ (k0_off35_inb L t r) X g1 ch ((congrFun (k0_off35_eq L t r) 1).trans hch.symm) (congrFun (k0_off35_eq L t r) 3) hX) (sep_congr2 (slice_col d L ct rt _ (k0_off36_inb L t r) X g2 ch ((congrFun (k0_off36_eq L t r) 1).trans hch.symm) (congrFun (k0_off36_eq L t r) 3) hX) (sep_congr2 (slice_col d L ct rt _ (k0_off37_inb L t r) X g3 ch ((congrFun (k0_off37_eq L t r) 1).trans hch.symm) (congrFun (k0_off37_eq L t r) 3) hX) (sep_congr2 (slice_col d L ct rt _ (k0_off38_inb L t r) X g4 ch ((congrFun (k0_off38_eq L t r) 1).trans hch.symm) (congrFun (k0_off38_eq L t r) 3) hX) (sep_congr2 (slice_col d L ct rt _ (k0_off39_inb L t r) X g5 ch ((congrFun (k0_off39_eq L t r) 1).trans hch.symm) (congrFun (k0_off39_eq L t r) 3) hX) (sep_congr2 (slice_col d L ct rt _ (k0_off40_inb L t r) X g6 ch ((congrFun (k0_off40_eq L t r) 1).trans hch.symm) (congrFun (k0_off40_eq L t r) 3) hX) (slice_col d L ct rt _ (k0_off41_inb L t r) X g7 ch ((congrFun (k0_off41_eq L t r) 1).trans hch.symm) (congrFun (k0_off41_eq L t r) 3) hX))))))))

/-- The four destinations of the copies of one half of a row channel, all of one buffer. -/
theorem grpB_val (t : Fin k0_t4_loop.trips) (r : Fin 2) (X : S128x256.Idx → Elt F .f32) (g0 g1 g2 g3 : Buf (Elt F) (oLoc d)) (ch : Fin 128)
    (row : S128x256.Idx → Fin 256) (hrow : ∀ y, 128 * r.val + (y 0).val = (row y).val)
    (hch : ch.val = 8 * (L 1).val + 4 * (L 0).val + t.val) (hX : ∀ y : S128x256.Idx, X y = rt (ix2 ch (row y))) :
    iprop(oPt d L (k0_off75 L t (BitVec.ofNat 32 r.val)) (k0_off75_inb L t r)
        ((oSl (k0_off75 L t (BitVec.ofNat 32 r.val)) (k0_off75_inb L t r)).view.writes (Elt F) g0 [⟨Rect.whole S128x256, X⟩])
      ∗ oPt d L (k0_off76 L t (BitVec.ofNat 32 r.val)) (k0_off76_inb L t r)
        ((oSl (k0_off76 L t (BitVec.ofNat 32 r.val)) (k0_off76_inb L t r)).view.writes (Elt F) g1 [⟨Rect.whole S128x256, X⟩])
      ∗ oPt d L (k0_off77 L t (BitVec.ofNat 32 r.val)) (k0_off77_inb L t r)
        ((oSl (k0_off77 L t (BitVec.ofNat 32 r.val)) (k0_off77_inb L t r)).view.writes (Elt F) g2 [⟨Rect.whole S128x256, X⟩])
      ∗ oPt d L (k0_off78 L t (BitVec.ofNat 32 r.val)) (k0_off78_inb L t r)
        ((oSl (k0_off78 L t (BitVec.ofNat 32 r.val)) (k0_off78_inb L t r)).view.writes (Elt F) g3 [⟨Rect.whole S128x256, X⟩]))
      ⊢ iprop(oPt d L (k0_off75 L t (BitVec.ofNat 32 r.val)) (k0_off75_inb L t r) (Cert.PosEmbed.posEmbedT ct rt : Buf (Elt F) (oLoc d))
        ∗ oPt d L (k0_off76 L t (BitVec.ofNat 32 r.val)) (k0_off76_inb L t r) (Cert.PosEmbed.posEmbedT ct rt : Buf (Elt F) (oLoc d))
        ∗ oPt d L (k0_off77 L t (BitVec.ofNat 32 r.val)) (k0_off77_inb L t r) (Cert.PosEmbed.posEmbedT ct rt : Buf (Elt F) (oLoc d))
        ∗ oPt d L (k0_off78 L t (BitVec.ofNat 32 r.val)) (k0_off78_inb L t r) (Cert.PosEmbed.posEmbedT ct rt : Buf (Elt F) (oLoc d))) :=
  Entails.of_eq (sep_congr2 (slice_row d L ct rt _ (k0_off75_inb L t r) X g0 ch row ((congrFun (k0_off75_eq L t r) 1).trans (by show 128 + (8 * (L 1).val + 4 * (L 0).val) + t.val = 128 + ch.val; omega)) (fun y => (congrArg (· + (y 0).val) (congrFun (k0_off75_eq L t r) 2)).trans (hrow y)) hX) (sep_congr2 (slice_row d L ct rt _ (k0_off76_inb L t r) X g1 ch row ((congrFun (k0_off76_eq L t r) 1).trans (by show 128 + (8 * (L 1).val + 4 * (L 0).val) + t.val = 128 + ch.val; omega)) (fun y => (congrArg (· + (y 0).val) (congrFun (k0_off76_eq L t r) 2)).trans (hrow y)) hX) (sep_congr2 (slice_row d L ct rt _ (k0_off77_inb L t r) X g2 ch row ((congrFun (k0_off77_eq L t r) 1).trans (by show 128 + (8 * (L 1).val + 4 * (L 0).val) + t.val = 128 + ch.val; omega)) (fun y => (congrArg (· + (y 0).val) (congrFun (k0_off77_eq L t r) 2)).trans (hrow y)) hX) (slice_row d L ct rt _ (k0_off78_inb L t r) X g3 ch row ((congrFun (k0_off78_eq L t r) 1).trans (by show 128 + (8 * (L 1).val + 4 * (L 0).val) + t.val = 128 + ch.val; omega)) (fun y => (congrArg (· + (y 0).val) (congrFun (k0_off78_eq L t r) 2)).trans (hrow y)) hX))))

theorem grpA0_val (t : Fin k0_t1_loop.trips) (X : S128x256.Idx → Elt F .f32) (g0 g1 g2 g3 g4 g5 g6 g7 : Buf (Elt F) (oLoc d)) (ch : Fin 128)
    (hch : ch.val = 8 * (L 1).val + 4 * (L 0).val + 2 * t.val + 0) (hX : ∀ y : S128x256.Idx, X y = ct (ix2 ch (y 1))) :
    iprop(oPt d L (k0_off34 L t 0#32) (k0_off34_inb L t 0)
        ((oSl (k0_off34 L t 0#32) (k0_off34_inb L t 0)).view.writes (Elt F) g0 [⟨Rect.whole S128x256, X⟩])
      ∗ oPt d L (k0_off35 L t 0#32) (k0_off35_inb L t 0)
        ((oSl (k0_off35 L t 0#32) (k0_off35_inb L t 0)).view.writes (Elt F) g1 [⟨Rect.whole S128x256, X⟩])
      ∗ oPt d L (k0_off36 L t 0#32) (k0_off36_inb L t 0)
        ((oSl (k0_off36 L t 0#32) (k0_off36_inb L t 0)).view.writes (Elt F) g2 [⟨Rect.whole S128x256, X⟩])
      ∗ oPt d L (k0_off37 L t 0#32) (k0_off37_inb L t 0)
        ((oSl (k0_off37 L t 0#32) (k0_off37_inb L t 0)).view.writes (Elt F) g3 [⟨Rect.whole S128x256, X⟩])
      ∗ oPt d L (k0_off38 L t 0#32) (k0_off38_inb L t 0)
        ((oSl (k0_off38 L t 0#32) (k0_off38_inb L t 0)).view.writes (Elt F) g4 [⟨Rect.whole S128x256, X⟩])
      ∗ oPt d L (k0_off39 L t 0#32) (k0_off39_inb L t 0)
        ((oSl (k0_off39 L t 0#32) (k0_off39_inb L t 0)).view.writes (Elt F) g5 [⟨Rect.whole S128x256, X⟩])
      ∗ oPt d L (k0_off40 L t 0#32) (k0_off40_inb L t 0)
        ((oSl (k0_off40 L t 0#32) (k0_off40_inb L t 0)).view.writes (Elt F) g6 [⟨Rect.whole S128x256, X⟩])
      ∗ oPt d L (k0_off41 L t 0#32) (k0_off41_inb L t 0)
        ((oSl (k0_off41 L t 0#32) (k0_off41_inb L t 0)).view.writes (Elt F) g7 [⟨Rect.whole S128x256, X⟩]))
      ⊢ grpA0 d L t (Cert.PosEmbed.posEmbedT ct rt : Buf (Elt F) (oLoc d)) :=
  grpA_val d L ct rt t 0 X g0 g1 g2 g3 g4 g5 g6 g7 ch hch hX

theorem grpA1_val (t : Fin k0_t1_loop.trips) (X : S128x256.Idx → Elt F .f32) (g0 g1 g2 g3 g4 g5 g6 g7 : Buf (Elt F) (oLoc d)) (ch : Fin 128)
    (hch : ch.val = 8 * (L 1).val + 4 * (L 0).val + 2 * t.val + 1) (hX : ∀ y : S128x256.Idx, X y = ct (ix2 ch (y 1))) :
    iprop(oPt d L (k0_off34 L t 1#32) (k0_off34_inb L t 1)
        ((oSl (k0_off34 L t 1#32) (k0_off34_inb L t 1)).view.writes (Elt F) g0 [⟨Rect.whole S128x256, X⟩])
      ∗ oPt d L (k0_off35 L t 1#32) (k0_off35_inb L t 1)
        ((oSl (k0_off35 L t 1#32) (k0_off35_inb L t 1)).view.writes (Elt F) g1 [⟨Rect.whole S128x256, X⟩])
      ∗ oPt d L (k0_off36 L t 1#32) (k0_off36_inb L t 1)
        ((oSl (k0_off36 L t 1#32) (k0_off36_inb L t 1)).view.writes (Elt F) g2 [⟨Rect.whole S128x256, X⟩])
      ∗ oPt d L (k0_off37 L t 1#32) (k0_off37_inb L t 1)
        ((oSl (k0_off37 L t 1#32) (k0_off37_inb L t 1)).view.writes (Elt F) g3 [⟨Rect.whole S128x256, X⟩])
      ∗ oPt d L (k0_off38 L t 1#32) (k0_off38_inb L t 1)
        ((oSl (k0_off38 L t 1#32) (k0_off38_inb L t 1)).view.writes (Elt F) g4 [⟨Rect.whole S128x256, X⟩])
      ∗ oPt d L (k0_off39 L t 1#32) (k0_off39_inb L t 1)
        ((oSl (k0_off39 L t 1#32) (k0_off39_inb L t 1)).view.writes (Elt F) g5 [⟨Rect.whole S128x256, X⟩])
      ∗ oPt d L (k0_off40 L t 1#32) (k0_off40_inb L t 1)
        ((oSl (k0_off40 L t 1#32) (k0_off40_inb L t 1)).view.writes (Elt F) g6 [⟨Rect.whole S128x256, X⟩])
      ∗ oPt d L (k0_off41 L t 1#32) (k0_off41_inb L t 1)
        ((oSl (k0_off41 L t 1#32) (k0_off41_inb L t 1)).view.writes (Elt F) g7 [⟨Rect.whole S128x256, X⟩]))
      ⊢ grpA1 d L t (Cert.PosEmbed.posEmbedT ct rt : Buf (Elt F) (oLoc d)) :=
  grpA_val d L ct rt t 1 X g0 g1 g2 g3 g4 g5 g6 g7 ch hch hX

theorem grpB0_val (t : Fin k0_t4_loop.trips) (X : S128x256.Idx → Elt F .f32) (g0 g1 g2 g3 : Buf (Elt F) (oLoc d)) (ch : Fin 128)
    (hch : ch.val = 8 * (L 1).val + 4 * (L 0).val + t.val) (hX : ∀ y : S128x256.Idx, X y = rt (ix2 ch (rowLo y))) :
    iprop(oPt d L (k0_off75 L t 0#32) (k0_off75_inb L t 0)
        ((oSl (k0_off75 L t 0#32) (k0_off75_inb L t 0)).view.writes (Elt F) g0 [⟨Rect.whole S128x256, X⟩])
      ∗ oPt d L (k0_off76 L t 0#32) (k0_off76_inb L t 0)
        ((oSl (k0_off76 L t 0#32) (k0_off76_inb L t 0)).view.writes (Elt F) g1 [⟨Rect.whole S128x256, X⟩])
      ∗ oPt d L (k0_off77 L t 0#32) (k0_off77_inb L t 0)
        ((oSl (k0_off77 L t 0#32) (k0_off77_inb L t 0)).view.writes (Elt F) g2 [⟨Rect.whole S128x256, X⟩])
      ∗ oPt d L (k0_off78 L t 0#32) (k0_off78_inb L t 0)
        ((oSl (k0_off78 L t 0#32) (k0_off78_inb L t 0)).view.writes (Elt F) g3 [⟨Rect.whole S128x256, X⟩]))
      ⊢ grpB0 d L t (Cert.PosEmbed.posEmbedT ct rt : Buf (Elt F) (oLoc d)) :=
  grpB_val d L ct rt t 0 X g0 g1 g2 g3 ch rowLo (fun y => by show 128 * 0 + (y 0).val = (y 0).val; omega) hch hX

theorem grpB1_val (t : Fin k0_t4_loop.trips) (X : S128x256.Idx → Elt F .f32) (g0 g1 g2 g3 : Buf (Elt F) (oLoc d)) (ch : Fin 128)
    (hch : ch.val = 8 * (L 1).val + 4 * (L 0).val + t.val) (hX : ∀ y : S128x256.Idx, X y = rt (ix2 ch (rowHi y))) :
    iprop(oPt d L (k0_off75 L t 1#32) (k0_off75_inb L t 1)
        ((oSl (k0_off75 L t 1#32) (k0_off75_inb L t 1)).view.writes (Elt F) g0 [⟨Rect.whole S128x256, X⟩])
      ∗ oPt d L (k0_off76 L t 1#32) (k0_off76_inb L t 1)
        ((oSl (k0_off76 L t 1#32) (k0_off76_inb L t 1)).view.writes (Elt F) g1 [⟨Rect.whole S128x256, X⟩])
      ∗ oPt d L (k0_off77 L t 1#32) (k0_off77_inb L t 1)
        ((oSl (k0_off77 L t 1#32) (k0_off77_inb L t 1)).view.writes (Elt F) g2 [⟨Rect.whole S128x256, X⟩])
      ∗ oPt d L (k0_off78 L t 1#32) (k0_off78_inb L t 1)
        ((oSl (k0_off78 L t 1#32) (k0_off78_inb L t 1)).view.writes (Elt F) g3 [⟨Rect.whole S128x256, X⟩]))
      ⊢ grpB1 d L t (Cert.PosEmbed.posEmbedT ct rt : Buf (Elt F) (oLoc d)) :=
  grpB_val d L ct rt t 1 X g0 g1 g2 g3 ch rowHi (fun y => by show 128 * 1 + (y 0).val = 128 + (y 0).val; omega) hch hX

end Groups

end Cert.Proof.KI

end
-- ==== Proof.KIStage.lean ====
/-
  What the staging scratch holds after the two copies, as one function of the transposed tables: its rows 0 .. 3 are
  rows 4 w .. 4 w + 3 of the column table's transpose, its rows 4 .. 7 the same rows of the row table's transpose
  (worker w). The two copies' pieces both agree with that function and between them cover the scratch.
-/
import proofs.«210098_g2860448219651_cont_9to1_994_18_alg».proof.Proof.KIOwn
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "ctV" => (Memref.whole Cert.KernelIdeal.main_v0_scv : Memref Cert.KernelIdeal.sig Kind.scVector Space.hbm Cert.KernelIdeal.S128x256 EltTy.f32)
local notation "rtV" => (Memref.whole Cert.KernelIdeal.main_v1_scv : Memref Cert.KernelIdeal.sig Kind.scVector Space.hbm Cert.KernelIdeal.S128x256 EltTy.f32)
local notation "oV" => (Memref.whole Cert.KernelIdeal.main_v2_scv : Memref Cert.KernelIdeal.sig Kind.scVector Space.hbm Cert.KernelIdeal.S4x256x256x256 EltTy.f32)
local notation "stV" => (Memref.whole Cert.KernelIdeal.cc0_scratch0 : Memref Cert.KernelIdeal.sig Kind.scVector Space.vmem Cert.KernelIdeal.S8x256 EltTy.f32)
local notation "b0V" => (Memref.whole Cert.KernelIdeal.cc0_scratch1 : Memref Cert.KernelIdeal.sig Kind.scVector Space.vmem Cert.KernelIdeal.S128x256 EltTy.f32)
local notation "b1V" => (Memref.whole Cert.KernelIdeal.cc0_scratch2 : Memref Cert.KernelIdeal.sig Kind.scVector Space.vmem Cert.KernelIdeal.S128x256 EltTy.f32)

open Idealize.ShloMosaic.ValueIdx

section Stage

variable (d : Dev nD) (L : grid0.Coords)

/-- The two pieces the copies leave in the staging scratch, the later copy first. -/
def stageL (ct : Buf (Elt F) (ctLoc d)) (rt : Buf (Elt F) (rtLoc d)) : List (View.Piece (Elt F) S8x256 .f32) :=
  [⟨Rect.unit ![4, 0] ![4, 256] inb_S8x256_S4x256_4_0, ReadAs.same.apply (View.read (Elt F) (rtRowK L).view rt)⟩,
   ⟨Rect.unit ![0, 0] ![4, 256] inb_S8x256_S4x256_0_0, ReadAs.same.apply (View.read (Elt F) (ctRowK L).view ct)⟩]

/-- Staged row r < 4 is row 4 w + r of the first table, staged row 4 + r row 4 w + r of the second. -/
def stageG (w : Fin 32) (ct rt : S128x256.Idx → Elt F .f32) : S8x256.Idx → Elt F .f32 := fun y =>
  if h : (y 0).val < 4 then ct (ix2 (n0 := 128) (n1 := 256) ⟨4 * w.val + (y 0).val, by have := w.isLt; omega⟩ (y 1))
  else rt (ix2 (n0 := 128) (n1 := 256) ⟨4 * w.val + ((y 0).val - 4), by have := w.isLt; have h8 : (y 0).val < 8 := (y 0).isLt; omega⟩ (y 1))

/-- A staged row below 4 reads the first table. -/
theorem stageG_lo (w : Fin 32) (ct rt : S128x256.Idx → Elt F .f32) (ρ : Fin 8) (hρ : ρ.val < 4) (c : Fin 256) :
    stageG (F := F) w ct rt (ix2 (n0 := 8) (n1 := 256) ρ c)
      = ct (ix2 (n0 := 128) (n1 := 256) ⟨4 * w.val + ρ.val, by have := w.isLt; omega⟩ c) := by
  unfold stageG
  exact dif_pos hρ

/-- A staged row from 4 up reads the second table. -/
theorem stageG_hi (w : Fin 32) (ct rt : S128x256.Idx → Elt F .f32) (ρ : Fin 8) (hρ : 4 ≤ ρ.val) (c : Fin 256) :
    stageG (F := F) w ct rt (ix2 (n0 := 8) (n1 := 256) ρ c)
      = rt (ix2 (n0 := 128) (n1 := 256) ⟨4 * w.val + (ρ.val - 4), by have := w.isLt; have := ρ.isLt; omega⟩ c) := by
  unfold stageG
  exact dif_neg (by show ¬ ρ.val < 4; omega)

variable [∀ e, Nonempty (Elt F e)]

theorem stage_canon (ct : Buf (Elt F) (ctLoc d)) (rt : Buf (Elt F) (rtLoc d)) (y : S8x256.Idx) :
    View.canon (stageL (F := F) d L ct rt) y = stageG (F := F) (wL L) ct rt y := by
  have h0 : (L 0).val < 2 := (L 0).isLt
  have h1 : (L 1).val < 16 := (L 1).isLt
  have hw : (wL L).val = 2 * (L 1).val + (L 0).val := rfl
  have hy0 : (y 0).val < 8 := (y 0).isLt
  have hy1 : (y 1).val < 256 := (y 1).isLt
  refine View.canon_apply_of_pieces (stageG (F := F) (wL L) ct rt) (stageL (F := F) d L ct rt) ?_ y ?_
  · intro p hp x
    simp only [stageL, List.mem_cons, List.mem_nil_iff, or_false] at hp
    rcases hp with rfl | rfl
    · -- rows 4 .. 7: the second table
      have hx0 : (x 0).val < 4 := (x 0).isLt
      show rt ((rtRowK L).view.emb x) = _
      unfold stageG
      have hn : ¬ ((Rect.unit (s := S8x256) ![4, 0] ![4, 256] inb_S8x256_S4x256_4_0).emb x 0).val < 4 := by
        show ¬ (4 + 1 * (x 0).val < 4); omega
      rw [dif_neg hn]
      congr 1
      funext a
      match a with
      | 0 => exact Fin.ext (by
          show (k0_off1 L) 0 + 1 * (x 0).val = 4 * (wL L).val + ((4 + 1 * (x 0).val) - 4)
          rw [k0_off1_eq, hw]; show 8 * (L 1).val + 4 * (L 0).val + 1 * (x 0).val = _; omega)
      | 1 => exact Fin.ext (by
          show (k0_off1 L) 1 + 1 * (x 1).val = 0 + 1 * (x 1).val
          rw [k0_off1_eq]; rfl)
    · -- rows 0 .. 3: the first table
      have hx0 : (x 0).val < 4 := (x 0).isLt
      show ct ((ctRowK L).view.emb x) = _
      unfold stageG
      have hp : ((Rect.unit (s := S8x256) ![0, 0] ![4, 256] inb_S8x256_S4x256_0_0).emb x 0).val < 4 := by
        show 0 + 1 * (x 0).val < 4; omega
      rw [dif_pos hp]
      congr 1
      funext a
      match a with
      | 0 => exact Fin.ext (by
          show (k0_off1 L) 0 + 1 * (x 0).val = 4 * (wL L).val + (0 + 1 * (x 0).val)
          rw [k0_off1_eq, hw]; show 8 * (L 1).val + 4 * (L 0).val + 1 * (x 0).val = _; omega)
      | 1 => exact Fin.ext (by
          show (k0_off1 L) 1 + 1 * (x 1).val = 0 + 1 * (x 1).val
          rw [k0_off1_eq]; rfl)
  · by_cases h : (y 0).val < 4
    · refine ⟨⟨Rect.unit ![0, 0] ![4, 256] inb_S8x256_S4x256_0_0, _⟩, List.mem_cons_of_mem _ List.mem_cons_self, ?_⟩
      show y ∈ (Rect.unit (s := S8x256) ![0, 0] ![4, 256] inb_S8x256_S4x256_0_0).set
      refine Rect.mem_set_unit.mpr fun a => ?_
      match a with
      | 0 => show 0 ≤ (y 0).val ∧ (y 0).val < 0 + 4; omega
      | 1 => show 0 ≤ (y 1).val ∧ (y 1).val < 0 + 256; omega
    · refine ⟨⟨Rect.unit ![4, 0] ![4, 256] inb_S8x256_S4x256_4_0, _⟩, List.mem_cons_self, ?_⟩
      show y ∈ (Rect.unit (s := S8x256) ![4, 0] ![4, 256] inb_S8x256_S4x256_4_0).set
      refine Rect.mem_set_unit.mpr fun a => ?_
      match a with
      | 0 => show 4 ≤ (y 0).val ∧ (y 0).val < 4 + 4; omega
      | 1 => show 0 ≤ (y 1).val ∧ (y 1).val < 0 + 256; omega

/-- The scratch's contents after the copies, read at an index. -/
theorem stage_contents (ct : Buf (Elt F) (ctLoc d)) (rt : Buf (Elt F) (rtLoc d)) (y : S8x256.Idx) :
    ((stV).view.writes (Elt F) (stV).view.junk (stageL (F := F) d L ct rt)) y = stageG (F := F) (wL L) ct rt y := by
  have h := View.read_writes_junk_apply_eq_canon (Val := Elt F) (stV).view y (stageL (F := F) d L ct rt)
  rw [stage_canon] at h
  exact h

/-- The same with the two pieces' payloads given by equations. -/
theorem stage_contents_of (ct : Buf (Elt F) (ctLoc d)) (rt : Buf (Elt F) (rtLoc d))
    (p4 p0 : S4x256.Idx → Elt F .f32)
    (h4 : p4 = ReadAs.same.apply (View.read (Elt F) (rtRowK L).view rt))
    (h0 : p0 = ReadAs.same.apply (View.read (Elt F) (ctRowK L).view ct)) (y : S8x256.Idx) :
    (stV).view.read (Elt F) ((stV).view.writes (Elt F) (stV).view.junk
      [⟨Rect.unit ![4, 0] ![4, 256] inb_S8x256_S4x256_4_0, p4⟩, ⟨Rect.unit ![0, 0] ![4, 256] inb_S8x256_S4x256_0_0, p0⟩]) y
      = stageG (F := F) (wL L) ct rt y := by
  subst h4 h0
  exact stage_contents d L ct rt y

/-- Sixteen staged entries of row ρ from column c₀ on, read back after the copies: lane x is the staged function at
    (ρ, c₀ + x). -/
theorem stage_read16 (ct : Buf (Elt F) (ctLoc d)) (rt : Buf (Elt F) (rtLoc d)) (ρ c₀ : Nat) (hρ : ρ < 8) (hc : c₀ + 16 ≤ 256)
    (inb : ∀ a, (![ρ, c₀] : Fin 2 → Nat) a + S1x16.size a ≤ S8x256.size a)
    (z : (Rect.unit (s := S8x256) ![ρ, c₀] S1x16.size inb).toLoadRect.shape.Idx) :
    (stV).view.readCov (stageL (F := F) d L ct rt) (Rect.unit (s := S8x256) ![ρ, c₀] S1x16.size inb).toLoadRect z
      = stageG (F := F) (wL L) ct rt (ix2 (n0 := 8) (n1 := 256) ⟨ρ, hρ⟩
          ⟨c₀ + (z 1).val, by have hz : (z 1).val < 16 := (z 1).isLt; omega⟩) := by
  rw [View.readCov_eq_canon']
  show View.canon (stageL (F := F) d L ct rt) ((Rect.unit (s := S8x256) ![ρ, c₀] S1x16.size inb).toLoadRect.idx z) = _
  rw [stage_canon]
  congr 1
  funext a
  have hz0 : (z 0).val < 1 := (z 0).isLt
  match a with
  | 0 => exact Fin.ext (by show ρ + 1 * (z 0).val = ρ; omega)
  | 1 => exact Fin.ext (by show c₀ + 1 * (z 1).val = c₀ + (z 1).val; omega)

/-- The same sixteen entries as a 16-vector (the unit row axis dropped). -/
theorem stage_read16_cast (ct : Buf (Elt F) (ctLoc d)) (rt : Buf (Elt F) (rtLoc d)) (ρ c₀ : Nat) (hρ : ρ < 8) (hc : c₀ + 16 ≤ 256)
    (inb : ∀ a, (![ρ, c₀] : Fin 2 → Nat) a + S1x16.size a ≤ S8x256.size a) (h : S1x16.ShapeCasts S16) (x : Fin 16) :
    shapeCast S16 ((stV).view.readCov (stageL (F := F) d L ct rt) (Rect.unit (s := S8x256) ![ρ, c₀] S1x16.size inb).toLoadRect) h (ix1 x)
      = stageG (F := F) (wL L) ct rt (ix2 (n0 := 8) (n1 := 256) ⟨ρ, hρ⟩ ⟨c₀ + x.val, by have hx := x.isLt; omega⟩) := by
  rw [shapeCast_1a_a_apply]
  exact stage_read16 d L ct rt ρ c₀ hρ hc inb (ix2 (0 : Fin 1) x)

end Stage

end Cert.Proof.KI

end
-- ==== Proof.KIColVal.lean ====
/-
  From the sixteen loaded pieces of a staged row to the plane a column fill leaves: if piece j of the sixteen is the
  staged row's entries 16 j .. 16 j + 15, the filled buffer reads the staged row's entry w at every (r, w).
-/
import proofs.«210098_g2860448219651_cont_9to1_994_18_alg».proof.Proof.KILoopA0
import proofs.«210098_g2860448219651_cont_9to1_994_18_alg».proof.Proof.KILoopA1
import proofs.«210098_g2860448219651_cont_9to1_994_18_alg».proof.Proof.KIFill

noncomputable section

namespace Cert.Proof.KI

open Cert.KernelIdeal Cert.KernelIdeal.Gen
open Idealize.ShloMosaic Idealize.ShloMosaic.ValueIdx

variable {F : FTy → Type} [FloatOps F]

/-! With lane x of piece j equal to `SG (ρ, 16 j + x)`, the plane a column fill leaves is `SG (ρ, w)` at every
    (r, w): for the first buffer's loop (twelve pieces arrive as 16-vectors, four as 1 x 16 rows) and for the second's
    (all sixteen as 16-vectors). -/

theorem colPlane2 (SG : S8x256.Idx → Elt F .f32) (ρ : Fin 8) (v15 v18 v21 v24 v27 v30 v33 v36 v39 v42 v45 v48 : FVec F S16 .f32) (v50 v53 v56 v59 : Vec F S1x16 .f32)
    (h0 : ∀ x : Fin 16, v15 (ix1 x) = SG (ix2 (n0 := 8) (n1 := 256) ρ ⟨0 + x.val, by have := x.isLt; omega⟩))
    (h1 : ∀ x : Fin 16, v18 (ix1 x) = SG (ix2 (n0 := 8) (n1 := 256) ρ ⟨16 + x.val, by have := x.isLt; omega⟩))
    (h2 : ∀ x : Fin 16, v21 (ix1 x) = SG (ix2 (n0 := 8) (n1 := 256) ρ ⟨32 + x.val, by have := x.isLt; omega⟩))
    (h3 : ∀ x : Fin 16, v24 (ix1 x) = SG (ix2 (n0 := 8) (n1 := 256) ρ ⟨48 + x.val, by have := x.isLt; omega⟩))
    (h4 : ∀ x : Fin 16, v27 (ix1 x) = SG (ix2 (n0 := 8) (n1 := 256) ρ ⟨64 + x.val, by have := x.isLt; omega⟩))
    (h5 : ∀ x : Fin 16, v30 (ix1 x) = SG (ix2 (n0 := 8) (n1 := 256) ρ ⟨80 + x.val, by have := x.isLt; omega⟩))
    (h6 : ∀ x : Fin 16, v33 (ix1 x) = SG (ix2 (n0 := 8) (n1 := 256) ρ ⟨96 + x.val, by have := x.isLt; omega⟩))
    (h7 : ∀ x : Fin 16, v36 (ix1 x) = SG (ix2 (n0 := 8) (n1 := 256) ρ ⟨112 + x.val, by have := x.isLt; omega⟩))
    (h8 : ∀ x : Fin 16, v39 (ix1 x) = SG (ix2 (n0 := 8) (n1 := 256) ρ ⟨128 + x.val, by have := x.isLt; omega⟩))
    (h9 : ∀ x : Fin 16, v42 (ix1 x) = SG (ix2 (n0 := 8) (n1 := 256) ρ ⟨144 + x.val, by have := x.isLt; omega⟩))
    (h10 : ∀ x : Fin 16, v45 (ix1 x) = SG (ix2 (n0 := 8) (n1 := 256) ρ ⟨160 + x.val, by have := x.isLt; omega⟩))
    (h11 : ∀ x : Fin 16, v48 (ix1 x) = SG (ix2 (n0 := 8) (n1 := 256) ρ ⟨176 + x.val, by have := x.isLt; omega⟩))
    (h12 : ∀ x : Fin 16, v50 (ix2 (0 : Fin 1) x) = SG (ix2 (n0 := 8) (n1 := 256) ρ ⟨192 + x.val, by have := x.isLt; omega⟩))
    (h13 : ∀ x : Fin 16, v53 (ix2 (0 : Fin 1) x) = SG (ix2 (n0 := 8) (n1 := 256) ρ ⟨208 + x.val, by have := x.isLt; omega⟩))
    (h14 : ∀ x : Fin 16, v56 (ix2 (0 : Fin 1) x) = SG (ix2 (n0 := 8) (n1 := 256) ρ ⟨224 + x.val, by have := x.isLt; omega⟩))
    (h15 : ∀ x : Fin 16, v59 (ix2 (0 : Fin 1) x) = SG (ix2 (n0 := 8) (n1 := 256) ρ ⟨240 + x.val, by have := x.isLt; omega⟩))
    (y : S128x256.Idx) : colG (u2 v15 v18 v21 v24 v27 v30 v33 v36 v39 v42 v45 v48 v50 v53 v56 v59) y = SG (ix2 (n0 := 8) (n1 := 256) ρ (y 1)) := by
  have h : ∀ (j x : Fin 16), (![v15 (ix1 x), v18 (ix1 x), v21 (ix1 x), v24 (ix1 x), v27 (ix1 x), v30 (ix1 x), v33 (ix1 x), v36 (ix1 x), v39 (ix1 x), v42 (ix1 x), v45 (ix1 x), v48 (ix1 x), v50 (ix2 (0 : Fin 1) x), v53 (ix2 (0 : Fin 1) x), v56 (ix2 (0 : Fin 1) x), v59 (ix2 (0 : Fin 1) x)] : Fin 16 → Elt F .f32) j
      = SG (ix2 (n0 := 8) (n1 := 256) ρ ⟨16 * j.val + x.val, by have := j.isLt; have := x.isLt; omega⟩) := by
    intro j x
    fin_cases j
    · exact h0 x
    · exact h1 x
    · exact h2 x
    · exact h3 x
    · exact h4 x
    · exact h5 x
    · exact h6 x
    · exact h7 x
    · exact h8 x
    · exact h9 x
    · exact h10 x
    · exact h11 x
    · exact h12 x
    · exact h13 x
    · exact h14 x
    · exact h15 x
  unfold colG
  rw [u2_apply, h]
  congr 2
  exact Fin.ext (Nat.div_add_mod _ _)

theorem colPlane3 (SG : S8x256.Idx → Elt F .f32) (ρ : Fin 8) (v103 v106 v109 v112 v115 v118 v121 v124 v127 v130 v133 v136 v139 v142 v145 v148 : FVec F S16 .f32)
    (h0 : ∀ x : Fin 16, v103 (ix1 x) = SG (ix2 (n0 := 8) (n1 := 256) ρ ⟨0 + x.val, by have := x.isLt; omega⟩))
    (h1 : ∀ x : Fin 16, v106 (ix1 x) = SG (ix2 (n0 := 8) (n1 := 256) ρ ⟨16 + x.val, by have := x.isLt; omega⟩))
    (h2 : ∀ x : Fin 16, v109 (ix1 x) = SG (ix2 (n0 := 8) (n1 := 256) ρ ⟨32 + x.val, by have := x.isLt; omega⟩))
    (h3 : ∀ x : Fin 16, v112 (ix1 x) = SG (ix2 (n0 := 8) (n1 := 256) ρ ⟨48 + x.val, by have := x.isLt; omega⟩))
    (h4 : ∀ x : Fin 16, v115 (ix1 x) = SG (ix2 (n0 := 8) (n1 := 256) ρ ⟨64 + x.val, by have := x.isLt; omega⟩))
    (h5 : ∀ x : Fin 16, v118 (ix1 x) = SG (ix2 (n0 := 8) (n1 := 256) ρ ⟨80 + x.val, by have := x.isLt; omega⟩))
    (h6 : ∀ x : Fin 16, v121 (ix1 x) = SG (ix2 (n0 := 8) (n1 := 256) ρ ⟨96 + x.val, by have := x.isLt; omega⟩))
    (h7 : ∀ x : Fin 16, v124 (ix1 x) = SG (ix2 (n0 := 8) (n1 := 256) ρ ⟨112 + x.val, by have := x.isLt; omega⟩))
    (h8 : ∀ x : Fin 16, v127 (ix1 x) = SG (ix2 (n0 := 8) (n1 := 256) ρ ⟨128 + x.val, by have := x.isLt; omega⟩))
    (h9 : ∀ x : Fin 16, v130 (ix1 x) = SG (ix2 (n0 := 8) (n1 := 256) ρ ⟨144 + x.val, by have := x.isLt; omega⟩))
    (h10 : ∀ x : Fin 16, v133 (ix1 x) = SG (ix2 (n0 := 8) (n1 := 256) ρ ⟨160 + x.val, by have := x.isLt; omega⟩))
    (h11 : ∀ x : Fin 16, v136 (ix1 x) = SG (ix2 (n0 := 8) (n1 := 256) ρ ⟨176 + x.val, by have := x.isLt; omega⟩))
    (h12 : ∀ x : Fin 16, v139 (ix1 x) = SG (ix2 (n0 := 8) (n1 := 256) ρ ⟨192 + x.val, by have := x.isLt; omega⟩))
    (h13 : ∀ x : Fin 16, v142 (ix1 x) = SG (ix2 (n0 := 8) (n1 := 256) ρ ⟨208 + x.val, by have := x.isLt; omega⟩))
    (h14 : ∀ x : Fin 16, v145 (ix1 x) = SG (ix2 (n0 := 8) (n1 := 256) ρ ⟨224 + x.val, by have := x.isLt; omega⟩))
    (h15 : ∀ x : Fin 16, v148 (ix1 x) = SG (ix2 (n0 := 8) (n1 := 256) ρ ⟨240 + x.val, by have := x.isLt; omega⟩))
    (y : S128x256.Idx) : colG (u3 v103 v106 v109 v112 v115 v118 v121 v124 v127 v130 v133 v136 v139 v142 v145 v148) y = SG (ix2 (n0 := 8) (n1 := 256) ρ (y 1)) := by
  have h : ∀ (j x : Fin 16), (![v103 (ix1 x), v106 (ix1 x), v109 (ix1 x), v112 (ix1 x), v115 (ix1 x), v118 (ix1 x), v121 (ix1 x), v124 (ix1 x), v127 (ix1 x), v130 (ix1 x), v133 (ix1 x), v136 (ix1 x), v139 (ix1 x), v142 (ix1 x), v145 (ix1 x), v148 (ix1 x)] : Fin 16 → Elt F .f32) j
      = SG (ix2 (n0 := 8) (n1 := 256) ρ ⟨16 * j.val + x.val, by have := j.isLt; have := x.isLt; omega⟩) := by
    intro j x
    fin_cases j
    · exact h0 x
    · exact h1 x
    · exact h2 x
    · exact h3 x
    · exact h4 x
    · exact h5 x
    · exact h6 x
    · exact h7 x
    · exact h8 x
    · exact h9 x
    · exact h10 x
    · exact h11 x
    · exact h12 x
    · exact h13 x
    · exact h14 x
    · exact h15 x
  unfold colG
  rw [u3_apply, h]
  congr 2
  exact Fin.ext (Nat.div_add_mod _ _)

end Cert.Proof.KI

end
-- ==== Proof.KITile.lean ====
/-
  The task of one vector subcore, at a symbolic worker.

  Handed its four rows of each transposed table and its channels of the result, the worker copies the eight rows into
  its staging scratch, and for each of its four table columns fills a 128 x 256 buffer with the plane of that channel
  (a column channel repeats the staged row along the rows of the plane; a row channel repeats each staged entry along
  a row of the plane, half a plane at a time) and copies the buffer out to that channel's plane in every batch. Two
  buffers alternate, each with a semaphore of its own; a buffer is refilled only after every copy out of it has been
  waited for, so between a batch's first issue and its last wait nothing touches the buffer or the planes it lands in.
  The worker's entries of the result are held as the sixty-four half planes the copies land in; at the end each holds
  the copied buffer, which read at an index is the staged row (column channels) or the staged entry (row channels),
  that is the transposed tables' entry the position embedding names there. It hands back its rows unchanged and its
  channels at the position embedding of the transposed tables.
-/
import proofs.«210098_g2860448219651_cont_9to1_994_18_alg».proof.Proof.KIOwn
import proofs.«210098_g2860448219651_cont_9to1_994_18_alg».proof.Proof.KILoopA0
import proofs.«210098_g2860448219651_cont_9to1_994_18_alg».proof.Proof.KILoopA1
import proofs.«210098_g2860448219651_cont_9to1_994_18_alg».proof.Proof.KILoopB0
import proofs.«210098_g2860448219651_cont_9to1_994_18_alg».proof.Proof.KILoopB1
import proofs.«210098_g2860448219651_cont_9to1_994_18_alg».proof.Proof.KIOut
import proofs.«210098_g2860448219651_cont_9to1_994_18_alg».proof.Proof.KIVal
import proofs.«210098_g2860448219651_cont_9to1_994_18_alg».proof.Proof.KIStage
import proofs.«210098_g2860448219651_cont_9to1_994_18_alg».proof.Proof.KIColVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "ctV" => (Memref.whole Cert.KernelIdeal.main_v0_scv : Memref Cert.KernelIdeal.sig Kind.scVector Space.hbm Cert.KernelIdeal.S128x256 EltTy.f32)
local notation "rtV" => (Memref.whole Cert.KernelIdeal.main_v1_scv : Memref Cert.KernelIdeal.sig Kind.scVector Space.hbm Cert.KernelIdeal.S128x256 EltTy.f32)
local notation "oV" => (Memref.whole Cert.KernelIdeal.main_v2_scv : Memref Cert.KernelIdeal.sig Kind.scVector Space.hbm Cert.KernelIdeal.S4x256x256x256 EltTy.f32)
local notation "stV" => (Memref.whole Cert.KernelIdeal.cc0_scratch0 : Memref Cert.KernelIdeal.sig Kind.scVector Space.vmem Cert.KernelIdeal.S8x256 EltTy.f32)
local notation "b0V" => (Memref.whole Cert.KernelIdeal.cc0_scratch1 : Memref Cert.KernelIdeal.sig Kind.scVector Space.vmem Cert.KernelIdeal.S128x256 EltTy.f32)
local notation "b1V" => (Memref.whole Cert.KernelIdeal.cc0_scratch2 : Memref Cert.KernelIdeal.sig Kind.scVector Space.vmem Cert.KernelIdeal.S128x256 EltTy.f32)

open Idealize.ShloMosaic.ValueIdx

variable [FloatOps F] [∀ e, Nonempty (Elt F e)]

omit [FloatOps F] [∀ e, Nonempty (Elt F e)] in
/-- A recorded wait at no call index keeps the record within what the task may leave. -/
theorem waits_insert_none {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

set_option maxHeartbeats 16000000 in
set_option maxRecDepth 65536 in
/-- The task on vector subcore `(L 0, L 1)` of device `d`. -/
theorem tile_body (hF : (K (F := F)).Facts) (d : Dev nD) (L : grid0.Coords)
    (ct : Buf (Elt F) (ctLoc d)) (rt : Buf (Elt F) (rtLoc d)) (fo : Buf (Elt F) (oLoc d))
    (O : CellTallies nD τ sig (HIx 1)) (W : Waits sig (HIx 1)) (hO : ∀ g, O g none = 0) :
    iprop(levAts (K (F := F)).L (K (F := F)).lev ∗ emp ∗ tileIn d (wL L) ct rt fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L ctV (Memref.isWhole_whole _) rtV (Memref.isWhole_whole _) oV (Memref.isWhole_whole _)
            stV (Memref.isWhole_whole _) b0V (Memref.isWhole_whole _) b1V (Memref.isWhole_whole _)
            cc0_scratch3 cc0_scratch4 cc0_scoped0 cc0_scoped1)
          fun _ => iprop(tileOut d (wL L) ct rt ∗ scopedBufs (V d (cV L) (jV L)) ∗ scopedSems0 (V d (cV L) (jV L))
            ∗ ∃ W', ⌜∀ p ∈ W', p ∈ W ∨ p.2 = none⌝ ∗ owes (V d (cV L) (jV L)) O W') := by
  -- the program, with its two outer loops' regions and the four parts that hold the fill loops laid open
  simp only [cc0__sc_body_eq_skeleton]; unfold cc0__sc_body_skel
  simp only [k0_part99_eq_skeleton]; unfold k0_part99_skel
  unfold k0_t1_body k0_t4_body
  simp only [k0_part4_eq_skeleton, k0_part7_eq_skeleton, k0_part97_eq_skeleton, k0_part98_eq_skeleton]
  unfold k0_part4_skel k0_part7_skel k0_part97_skel k0_part98_skel
  -- what the subcore holds
  rw [(K (F := F)).scopedBufs_V hF d (cV L) (jV L), SparseCore.Cfg.scopedSems0_V (Val := Elt F) d (cV L) (jV L), ownSems0_V, ownBufs_V]
  unfold tileIn
  iintro ⟨#Hlv, -, ⟨Hct, Hrt, Ho⟩, ⟨⟨%fs, Hs⟩, ⟨%f0, Hb0⟩, ⟨%f1, Hb1⟩, Hbufs⟩, ⟨HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hct' := (Entails.of_eq (pts_ctRowK (F := F) d L _).symm) $$ Hct
  ihave Hrt' := (Entails.of_eq (pts_rtRowK (F := F) d L _).symm) $$ Hrt
  ihave Hs' := (Entails.of_eq (pts_stV (F := F) d L _).symm) $$ Hs
  ihave Hb0' := (Entails.of_eq (pts_b0V (F := F) d L _).symm) $$ Hb0
  ihave Hb1' := (Entails.of_eq (pts_b1V (F := F) d L _).symm) $$ Hb1
  -- the worker's entries of the result as the sixty-four half planes the copies land in
  ihave Hsl := (oSplit (F := F) d L fo).1 $$ Ho
  icases Hsl with ⟨⟨HoA00_0, HoA00_1, HoA00_2, HoA00_3, HoA00_4, HoA00_5, HoA00_6, HoA00_7⟩, ⟨HoA01_0, HoA01_1, HoA01_2, HoA01_3, HoA01_4, HoA01_5, HoA01_6, HoA01_7⟩, ⟨HoA10_0, HoA10_1, HoA10_2, HoA10_3, HoA10_4, HoA10_5, HoA10_6, HoA10_7⟩, ⟨HoA11_0, HoA11_1, HoA11_2, HoA11_3, HoA11_4, HoA11_5, HoA11_6, HoA11_7⟩, ⟨HoB00_0, HoB00_1, HoB00_2, HoB00_3⟩, ⟨HoB01_0, HoB01_1, HoB01_2, HoB01_3⟩, ⟨HoB10_0, HoB10_1, HoB10_2, HoB10_3⟩, ⟨HoB11_0, HoB11_1, HoB11_2, HoB11_3⟩, ⟨HoB20_0, HoB20_1, HoB20_2, HoB20_3⟩, ⟨HoB21_0, HoB21_1, HoB21_2, HoB21_3⟩, ⟨HoB30_0, HoB30_1, HoB30_2, HoB30_3⟩, ⟨HoB31_0, HoB31_1, HoB31_2, HoB31_3⟩⟩
  -- the first outer loop: batches of eight copies per buffer
  have hpA : Transfers.BatchOf (V d (cV L) (jV L)) (SemLoc.dma cc0_scratch3.sem) 8 (windows := true) := trivial
  have hpB : Transfers.BatchOf (V d (cV L) (jV L)) (SemLoc.dma cc0_scratch4.sem) 8 (windows := true) := trivial
  set_option sl_exec.unrollTrips 2 in
  sl_exec_parts
  -- the second: batches of four
  clear hpA hpB
  have hpA : Transfers.BatchOf (V d (cV L) (jV L)) (SemLoc.dma cc0_scratch3.sem) 4 (windows := true) := trivial
  have hpB : Transfers.BatchOf (V d (cV L) (jV L)) (SemLoc.dma cc0_scratch4.sem) 4 (windows := true) := trivial
  set_option sl_exec.unrollTrips 4 in
  sl_exec_parts
  -- what each copied buffer held: a column channel's plane is the staged row, a row channel's the staged entries
  have hXA00 : ∀ y : S128x256.Idx, tile_body.sl.dma0_2 (F := F) d L ct rt f0 y
      = ct (ix2 (n0 := 128) (n1 := 256) ⟨4 * (wL L).val + 0, by have := (wL L).isLt; omega⟩ (y 1)) := by
    intro y
    unfold tile_body.sl.dma0_2
    rw [ReadAs.apply_same, fill_t2]
    exact (colPlane2 (stageG (F := F) (wL L) ct rt) ⟨0, by decide⟩ _ _ _ _ _ _ _ _ _ _ _ _ _ _ _ _
      (fun x => stage_read16_cast d L ct rt 0 0 (by decide) (by decide) _ _ x)
      (fun x => stage_read16_cast d L ct rt 0 16 (by decide) (by decide) _ _ x)
      (fun x => stage_read16_cast d L ct rt 0 32 (by decide) (by decide) _ _ x)
      (fun x => stage_read16_cast d L ct rt 0 48 (by decide) (by decide) _ _ x)
      (fun x => stage_read16_cast d L ct rt 0 64 (by decide) (by decide) _ _ x)
      (fun x => stage_read16_cast d L ct rt 0 80 (by decide) (by decide) _ _ x)
      (fun x => stage_read16_cast d L ct rt 0 96 (by decide) (by decide) _ _ x)
      (fun x => stage_read16_cast d L ct rt 0 112 (by decide) (by decide) _ _ x)
      (fun x => stage_read16_cast d L ct rt 0 128 (by decide) (by decide) _ _ x)
      (fun x => stage_read16_cast d L ct rt 0 144 (by decide) (by decide) _ _ x)
      (fun x => stage_read16_cast d L ct rt 0 160 (by decide) (by decide) _ _ x)
      (fun x => stage_read16_cast d L ct rt 0 176 (by decide) (by decide) _ _ x)
      (fun x => stage_read16 d L ct rt 0 192 (by decide) (by decide) _ (ix2 (0 : Fin 1) x))
      (fun x => stage_read16 d L ct rt 0 208 (by decide) (by decide) _ (ix2 (0 : Fin 1) x))
      (fun x => stage_read16 d L ct rt 0 224 (by decide) (by decide) _ (ix2 (0 : Fin 1) x))
      (fun x => stage_read16 d L ct rt 0 240 (by decide) (by decide) _ (ix2 (0 : Fin 1) x))
      y).trans (stageG_lo _ _ _ _ (by decide) _)
  have hXA01 : ∀ y : S128x256.Idx, tile_body.sl.dma0_3 (F := F) d L ct rt f1 y
      = ct (ix2 (n0 := 128) (n1 := 256) ⟨4 * (wL L).val + 1, by have := (wL L).isLt; omega⟩ (y 1)) := by
    intro y
    unfold tile_body.sl.dma0_3
    rw [ReadAs.apply_same, fill_t3]
    exact (colPlane3 (stageG (F := F) (wL L) ct rt) ⟨1, by decide⟩ _ _ _ _ _ _ _ _ _ _ _ _ _ _ _ _
      (fun x => stage_read16_cast d L ct rt 1 0 (by decide) (by decide) _ _ x)
      (fun x => stage_read16_cast d L ct rt 1 16 (by decide) (by decide) _ _ x)
      (fun x => stage_read16_cast d L ct rt 1 32 (by decide) (by decide) _ _ x)
      (fun x => stage_read16_cast d L ct rt 1 48 (by decide) (by decide) _ _ x)
      (fun x => stage_read16_cast d L ct rt 1 64 (by decide) (by decide) _ _ x)
      (fun x => stage_read16_cast d L ct rt 1 80 (by decide) (by decide) _ _ x)
      (fun x => stage_read16_cast d L ct rt 1 96 (by decide) (by decide) _ _ x)
      (fun x => stage_read16_cast d L ct rt 1 112 (by decide) (by decide) _ _ x)
      (fun x => stage_read16_cast d L ct rt 1 128 (by decide) (by decide) _ _ x)
      (fun x => stage_read16_cast d L ct rt 1 144 (by decide) (by decide) _ _ x)
      (fun x => stage_read16_cast d L ct rt 1 160 (by decide) (by decide) _ _ x)
      (fun x => stage_read16_cast d L ct rt 1 176 (by decide) (by decide) _ _ x)
      (fun x => stage_read16_cast d L ct rt 1 192 (by decide) (by decide) _ _ x)
      (fun x => stage_read16_cast d L ct rt 1 208 (by decide) (by decide) _ _ x)
      (fun x => stage_read16_cast d L ct rt 1 224 (by decide) (by decide) _ _ x)
      (fun x => stage_read16_cast d L ct rt 1 240 (by decide) (by decide) _ _ x)
      y).trans (stageG_lo _ _ _ _ (by decide) _)
  have hXA10 : ∀ y : S128x256.Idx, tile_body.sl.dma0_4 (F := F) d L ct rt f0 y
      = ct (ix2 (n0 := 128) (n1 := 256) ⟨4 * (wL L).val + 2, by have := (wL L).isLt; omega⟩ (y 1)) := by
    intro y
    unfold tile_body.sl.dma0_4
    rw [ReadAs.apply_same, View.writes_append, fill_t2]
    exact (colPlane2 (stageG (F := F) (wL L) ct rt) ⟨2, by decide⟩ _ _ _ _ _ _ _ _ _ _ _ _ _ _ _ _
      (fun x => stage_read16_cast d L ct rt 2 0 (by decide) (by decide) _ _ x)
      (fun x => stage_read16_cast d L ct rt 2 16 (by decide) (by decide) _ _ x)
      (fun x => stage_read16_cast d L ct rt 2 32 (by decide) (by decide) _ _ x)
      (fun x => stage_read16_cast d L ct rt 2 48 (by decide) (by decide) _ _ x)
      (fun x => stage_read16_cast d L ct rt 2 64 (by decide) (by decide) _ _ x)
      (fun x => stage_read16_cast d L ct rt 2 80 (by decide) (by decide) _ _ x)
      (fun x => stage_read16_cast d L ct rt 2 96 (by decide) (by decide) _ _ x)
      (fun x => stage_read16_cast d L ct rt 2 112 (by decide) (by decide) _ _ x)
      (fun x => stage_read16_cast d L ct rt 2 128 (by decide) (by decide) _ _ x)
      (fun x => stage_read16_cast d L ct rt 2 144 (by decide) (by decide) _ _ x)
      (fun x => stage_read16_cast d L ct rt 2 160 (by decide) (by decide) _ _ x)
      (fun x => stage_read16_cast d L ct rt 2 176 (by decide) (by decide) _ _ x)
      (fun x => stage_read16 d L ct rt 2 192 (by decide) (by decide) _ (ix2 (0 : Fin 1) x))
      (fun x => stage_read16 d L ct rt 2 208 (by decide) (by decide) _ (ix2 (0 : Fin 1) x))
      (fun x => stage_read16 d L ct rt 2 224 (by decide) (by decide) _ (ix2 (0 : Fin 1) x))
      (fun x => stage_read16 d L ct rt 2 240 (by decide) (by decide) _ (ix2 (0 : Fin 1) x))
      y).trans (stageG_lo _ _ _ _ (by decide) _)
  have hXA11 : ∀ y : S128x256.Idx, tile_body.sl.dma0_5 (F := F) d L ct rt f1 y
      = ct (ix2 (n0 := 128) (n1 := 256) ⟨4 * (wL L).val + 3, by have := (wL L).isLt; omega⟩ (y 1)) := by
    intro y
    unfold tile_body.sl.dma0_5
    rw [ReadAs.apply_same, View.writes_append, fill_t3]
    exact (colPlane3 (stageG (F := F) (wL L) ct rt) ⟨3, by decide⟩ _ _ _ _ _ _ _ _ _ _ _ _ _ _ _ _
      (fun x => stage_read16_cast d L ct rt 3 0 (by decide) (by decide) _ _ x)
      (fun x => stage_read16_cast d L ct rt 3 16 (by decide) (by decide) _ _ x)
      (fun x => stage_read16_cast d L ct rt 3 32 (by decide) (by decide) _ _ x)
      (fun x => stage_read16_cast d L ct rt 3 48 (by decide) (by decide) _ _ x)
      (fun x => stage_read16_cast d L ct rt 3 64 (by decide) (by decide) _ _ x)
      (fun x => stage_read16_cast d L ct rt 3 80 (by decide) (by decide) _ _ x)
      (fun x => stage_read16_cast d L ct rt 3 96 (by decide) (by decide) _ _ x)
      (fun x => stage_read16_cast d L ct rt 3 112 (by decide) (by decide) _ _ x)
      (fun x => stage_read16_cast d L ct rt 3 128 (by decide) (by decide) _ _ x)
      (fun x => stage_read16_cast d L ct rt 3 144 (by decide) (by decide) _ _ x)
      (fun x => stage_read16_cast d L ct rt 3 160 (by decide) (by decide) _ _ x)
      (fun x => stage_read16_cast d L ct rt 3 176 (by decide) (by decide) _ _ x)
      (fun x => stage_read16_cast d L ct rt 3 192 (by decide) (by decide) _ _ x)
      (fun x => stage_read16_cast d L ct rt 3 208 (by decide) (by decide) _ _ x)
      (fun x => stage_read16_cast d L ct rt 3 224 (by decide) (by decide) _ _ x)
      (fun x => stage_read16_cast d L ct rt 3 240 (by decide) (by decide) _ _ x)
      y).trans (stageG_lo _ _ _ _ (by decide) _)
  have hXB00 : ∀ y : S128x256.Idx, tile_body.sl.dma0_6 (F := F) d L ct rt f0 y
      = rt (ix2 (n0 := 128) (n1 := 256) ⟨4 * (wL L).val + 0, by have := (wL L).isLt; omega⟩ (rowLo y)) := by
    intro y
    unfold tile_body.sl.dma0_6
    rw [ReadAs.apply_same, View.writes_append, fill_t5]
    exact (stage_contents_of (F := F) d L ct rt _ _ rfl rfl _).trans (stageG_hi _ _ _ _ (by show 4 ≤ 4 + _; omega) _)
  have hXB01 : ∀ y : S128x256.Idx, tile_body.sl.dma0_7 (F := F) d L ct rt f1 y
      = rt (ix2 (n0 := 128) (n1 := 256) ⟨4 * (wL L).val + 0, by have := (wL L).isLt; omega⟩ (rowHi y)) := by
    intro y
    unfold tile_body.sl.dma0_7
    rw [ReadAs.apply_same, View.writes_append, fill_t6]
    exact (stage_contents_of (F := F) d L ct rt _ _ rfl rfl _).trans (stageG_hi _ _ _ _ (by show 4 ≤ 4 + _; omega) _)
  have hXB10 : ∀ y : S128x256.Idx, tile_body.sl.dma0_8 (F := F) d L ct rt f0 y
      = rt (ix2 (n0 := 128) (n1 := 256) ⟨4 * (wL L).val + 1, by have := (wL L).isLt; omega⟩ (rowLo y)) := by
    intro y
    unfold tile_body.sl.dma0_8
    rw [ReadAs.apply_same, View.writes_append, fill_t5]
    exact (stage_contents_of (F := F) d L ct rt _ _ rfl rfl _).trans (stageG_hi _ _ _ _ (by show 4 ≤ 4 + _; omega) _)
  have hXB11 : ∀ y : S128x256.Idx, tile_body.sl.dma0_9 (F := F) d L ct rt f1 y
      = rt (ix2 (n0 := 128) (n1 := 256) ⟨4 * (wL L).val + 1, by have := (wL L).isLt; omega⟩ (rowHi y)) := by
    intro y
    unfold tile_body.sl.dma0_9
    rw [ReadAs.apply_same, View.writes_append, fill_t6]
    exact (stage_contents_of (F := F) d L ct rt _ _ rfl rfl _).trans (stageG_hi _ _ _ _ (by show 4 ≤ 4 + _; omega) _)
  have hXB20 : ∀ y : S128x256.Idx, tile_body.sl.dma0_10 (F := F) d L ct rt f0 y
      = rt (ix2 (n0 := 128) (n1 := 256) ⟨4 * (wL L).val + 2, by have := (wL L).isLt; omega⟩ (rowLo y)) := by
    intro y
    unfold tile_body.sl.dma0_10
    rw [ReadAs.apply_same, View.writes_append, fill_t5]
    exact (stage_contents_of (F := F) d L ct rt _ _ rfl rfl _).trans (stageG_hi _ _ _ _ (by show 4 ≤ 4 + _; omega) _)
  have hXB21 : ∀ y : S128x256.Idx, tile_body.sl.dma0_11 (F := F) d L ct rt f1 y
      = rt (ix2 (n0 := 128) (n1 := 256) ⟨4 * (wL L).val + 2, by have := (wL L).isLt; omega⟩ (rowHi y)) := by
    intro y
    unfold tile_body.sl.dma0_11
    rw [ReadAs.apply_same, View.writes_append, fill_t6]
    exact (stage_contents_of (F := F) d L ct rt _ _ rfl rfl _).trans (stageG_hi _ _ _ _ (by show 4 ≤ 4 + _; omega) _)
  have hXB30 : ∀ y : S128x256.Idx, tile_body.sl.dma0_12 (F := F) d L ct rt f0 y
      = rt (ix2 (n0 := 128) (n1 := 256) ⟨4 * (wL L).val + 3, by have := (wL L).isLt; omega⟩ (rowLo y)) := by
    intro y
    unfold tile_body.sl.dma0_12
    rw [ReadAs.apply_same, View.writes_append, fill_t5]
    exact (stage_contents_of (F := F) d L ct rt _ _ rfl rfl _).trans (stageG_hi _ _ _ _ (by show 4 ≤ 4 + _; omega) _)
  have hXB31 : ∀ y : S128x256.Idx, tile_body.sl.dma0_13 (F := F) d L ct rt f1 y
      = rt (ix2 (n0 := 128) (n1 := 256) ⟨4 * (wL L).val + 3, by have := (wL L).isLt; omega⟩ (rowHi y)) := by
    intro y
    unfold tile_body.sl.dma0_13
    rw [ReadAs.apply_same, View.writes_append, fill_t6]
    exact (stage_contents_of (F := F) d L ct rt _ _ rfl rfl _).trans (stageG_hi _ _ _ _ (by show 4 ≤ 4 + _; omega) _)
  sl_step
  isplitl [Hct' Hrt' HoA00_0 HoA00_1 HoA00_2 HoA00_3 HoA00_4 HoA00_5 HoA00_6 HoA00_7 HoA01_0 HoA01_1 HoA01_2 HoA01_3 HoA01_4 HoA01_5 HoA01_6 HoA01_7 HoA10_0 HoA10_1 HoA10_2 HoA10_3 HoA10_4 HoA10_5 HoA10_6 HoA10_7 HoA11_0 HoA11_1 HoA11_2 HoA11_3 HoA11_4 HoA11_5 HoA11_6 HoA11_7 HoB00_0 HoB00_1 HoB00_2 HoB00_3 HoB01_0 HoB01_1 HoB01_2 HoB01_3 HoB10_0 HoB10_1 HoB10_2 HoB10_3 HoB11_0 HoB11_1 HoB11_2 HoB11_3 HoB20_0 HoB20_1 HoB20_2 HoB20_3 HoB21_0 HoB21_1 HoB21_2 HoB21_3 HoB30_0 HoB30_1 HoB30_2 HoB30_3 HoB31_0 HoB31_1 HoB31_2 HoB31_3]
  · unfold tileOut
    isplitl [Hct']; · iapply (Entails.of_eq (pts_ctRowK (F := F) d L _)); iexact Hct'
    isplitl [Hrt']; · iapply (Entails.of_eq (pts_rtRowK (F := F) d L _)); iexact Hrt'
    ihave VA00 := (grpA0_val (F := F) d L ct rt (tA 0) _ _ _ _ _ _ _ _ _ ⟨4 * (wL L).val + 0, by have := (wL L).isLt; omega⟩ (by show 4 * (2 * (L 1).val + (L 0).val) + 0 = 8 * (L 1).val + 4 * (L 0).val + 2 * 0 + 0; omega) hXA00) $$ [HoA00_0 HoA00_1 HoA00_2 HoA00_3 HoA00_4 HoA00_5 HoA00_6 HoA00_7]
    · isplitl [HoA00_0]; · iexact HoA00_0
      isplitl [HoA00_1]; · iexact HoA00_1
      isplitl [HoA00_2]; · iexact HoA00_2
      isplitl [HoA00_3]; · iexact HoA00_3
      isplitl [HoA00_4]; · iexact HoA00_4
      isplitl [HoA00_5]; · iexact HoA00_5
      isplitl [HoA00_6]; · iexact HoA00_6
      iexact HoA00_7
    ihave VA01 := (grpA1_val (F := F) d L ct rt (tA 0) _ _ _ _ _ _ _ _ _ ⟨4 * (wL L).val + 1, by have := (wL L).isLt; omega⟩ (by show 4 * (2 * (L 1).val + (L 0).val) + 1 = 8 * (L 1).val + 4 * (L 0).val + 2 * 0 + 1; omega) hXA01) $$ [HoA01_0 HoA01_1 HoA01_2 HoA01_3 HoA01_4 HoA01_5 HoA01_6 HoA01_7]
    · isplitl [HoA01_0]; · iexact HoA01_0
      isplitl [HoA01_1]; · iexact HoA01_1
      isplitl [HoA01_2]; · iexact HoA01_2
      isplitl [HoA01_3]; · iexact HoA01_3
      isplitl [HoA01_4]; · iexact HoA01_4
      isplitl [HoA01_5]; · iexact HoA01_5
      isplitl [HoA01_6]; · iexact HoA01_6
      iexact HoA01_7
    ihave VA10 := (grpA0_val (F := F) d L ct rt (tA 1) _ _ _ _ _ _ _ _ _ ⟨4 * (wL L).val + 2, by have := (wL L).isLt; omega⟩ (by show 4 * (2 * (L 1).val + (L 0).val) + 2 = 8 * (L 1).val + 4 * (L 0).val + 2 * 1 + 0; omega) hXA10) $$ [HoA10_0 HoA10_1 HoA10_2 HoA10_3 HoA10_4 HoA10_5 HoA10_6 HoA10_7]
    · isplitl [HoA10_0]; · iexact HoA10_0
      isplitl [HoA10_1]; · iexact HoA10_1
      isplitl [HoA10_2]; · iexact HoA10_2
      isplitl [HoA10_3]; · iexact HoA10_3
      isplitl [HoA10_4]; · iexact HoA10_4
      isplitl [HoA10_5]; · iexact HoA10_5
      isplitl [HoA10_6]; · iexact HoA10_6
      iexact HoA10_7
    ihave VA11 := (grpA1_val (F := F) d L ct rt (tA 1) _ _ _ _ _ _ _ _ _ ⟨4 * (wL L).val + 3, by have := (wL L).isLt; omega⟩ (by show 4 * (2 * (L 1).val + (L 0).val) + 3 = 8 * (L 1).val + 4 * (L 0).val + 2 * 1 + 1; omega) hXA11) $$ [HoA11_0 HoA11_1 HoA11_2 HoA11_3 HoA11_4 HoA11_5 HoA11_6 HoA11_7]
    · isplitl [HoA11_0]; · iexact HoA11_0
      isplitl [HoA11_1]; · iexact HoA11_1
      isplitl [HoA11_2]; · iexact HoA11_2
      isplitl [HoA11_3]; · iexact HoA11_3
      isplitl [HoA11_4]; · iexact HoA11_4
      isplitl [HoA11_5]; · iexact HoA11_5
      isplitl [HoA11_6]; · iexact HoA11_6
      iexact HoA11_7
    ihave VB00 := (grpB0_val (F := F) d L ct rt (tB 0) _ _ _ _ _ ⟨4 * (wL L).val + 0, by have := (wL L).isLt; omega⟩ (by show 4 * (2 * (L 1).val + (L 0).val) + 0 = 8 * (L 1).val + 4 * (L 0).val + 0; omega) hXB00) $$ [HoB00_0 HoB00_1 HoB00_2 HoB00_3]
    · isplitl [HoB00_0]; · iexact HoB00_0
      isplitl [HoB00_1]; · iexact HoB00_1
      isplitl [HoB00_2]; · iexact HoB00_2
      iexact HoB00_3
    ihave VB01 := (grpB1_val (F := F) d L ct rt (tB 0) _ _ _ _ _ ⟨4 * (wL L).val + 0, by have := (wL L).isLt; omega⟩ (by show 4 * (2 * (L 1).val + (L 0).val) + 0 = 8 * (L 1).val + 4 * (L 0).val + 0; omega) hXB01) $$ [HoB01_0 HoB01_1 HoB01_2 HoB01_3]
    · isplitl [HoB01_0]; · iexact HoB01_0
      isplitl [HoB01_1]; · iexact HoB01_1
      isplitl [HoB01_2]; · iexact HoB01_2
      iexact HoB01_3
    ihave VB10 := (grpB0_val (F := F) d L ct rt (tB 1) _ _ _ _ _ ⟨4 * (wL L).val + 1, by have := (wL L).isLt; omega⟩ (by show 4 * (2 * (L 1).val + (L 0).val) + 1 = 8 * (L 1).val + 4 * (L 0).val + 1; omega) hXB10) $$ [HoB10_0 HoB10_1 HoB10_2 HoB10_3]
    · isplitl [HoB10_0]; · iexact HoB10_0
      isplitl [HoB10_1]; · iexact HoB10_1
      isplitl [HoB10_2]; · iexact HoB10_2
      iexact HoB10_3
    ihave VB11 := (grpB1_val (F := F) d L ct rt (tB 1) _ _ _ _ _ ⟨4 * (wL L).val + 1, by have := (wL L).isLt; omega⟩ (by show 4 * (2 * (L 1).val + (L 0).val) + 1 = 8 * (L 1).val + 4 * (L 0).val + 1; omega) hXB11) $$ [HoB11_0 HoB11_1 HoB11_2 HoB11_3]
    · isplitl [HoB11_0]; · iexact HoB11_0
      isplitl [HoB11_1]; · iexact HoB11_1
      isplitl [HoB11_2]; · iexact HoB11_2
      iexact HoB11_3
    ihave VB20 := (grpB0_val (F := F) d L ct rt (tB 2) _ _ _ _ _ ⟨4 * (wL L).val + 2, by have := (wL L).isLt; omega⟩ (by show 4 * (2 * (L 1).val + (L 0).val) + 2 = 8 * (L 1).val + 4 * (L 0).val + 2; omega) hXB20) $$ [HoB20_0 HoB20_1 HoB20_2 HoB20_3]
    · isplitl [HoB20_0]; · iexact HoB20_0
      isplitl [HoB20_1]; · iexact HoB20_1
      isplitl [HoB20_2]; · iexact HoB20_2
      iexact HoB20_3
    ihave VB21 := (grpB1_val (F := F) d L ct rt (tB 2) _ _ _ _ _ ⟨4 * (wL L).val + 2, by have := (wL L).isLt; omega⟩ (by show 4 * (2 * (L 1).val + (L 0).val) + 2 = 8 * (L 1).val + 4 * (L 0).val + 2; omega) hXB21) $$ [HoB21_0 HoB21_1 HoB21_2 HoB21_3]
    · isplitl [HoB21_0]; · iexact HoB21_0
      isplitl [HoB21_1]; · iexact HoB21_1
      isplitl [HoB21_2]; · iexact HoB21_2
      iexact HoB21_3
    ihave VB30 := (grpB0_val (F := F) d L ct rt (tB 3) _ _ _ _ _ ⟨4 * (wL L).val + 3, by have := (wL L).isLt; omega⟩ (by show 4 * (2 * (L 1).val + (L 0).val) + 3 = 8 * (L 1).val + 4 * (L 0).val + 3; omega) hXB30) $$ [HoB30_0 HoB30_1 HoB30_2 HoB30_3]
    · isplitl [HoB30_0]; · iexact HoB30_0
      isplitl [HoB30_1]; · iexact HoB30_1
      isplitl [HoB30_2]; · iexact HoB30_2
      iexact HoB30_3
    ihave VB31 := (grpB1_val (F := F) d L ct rt (tB 3) _ _ _ _ _ ⟨4 * (wL L).val + 3, by have := (wL L).isLt; omega⟩ (by show 4 * (2 * (L 1).val + (L 0).val) + 3 = 8 * (L 1).val + 4 * (L 0).val + 3; omega) hXB31) $$ [HoB31_0 HoB31_1 HoB31_2 HoB31_3]
    · isplitl [HoB31_0]; · iexact HoB31_0
      isplitl [HoB31_1]; · iexact HoB31_1
      isplitl [HoB31_2]; · iexact HoB31_2
      iexact HoB31_3
    iapply (oSplit (F := F) d L _).2
    isplitl [VA00]; · iexact VA00
    isplitl [VA01]; · iexact VA01
    isplitl [VA10]; · iexact VA10
    isplitl [VA11]; · iexact VA11
    isplitl [VB00]; · iexact VB00
    isplitl [VB01]; · iexact VB01
    isplitl [VB10]; · iexact VB10
    isplitl [VB11]; · iexact VB11
    isplitl [VB20]; · iexact VB20
    isplitl [VB21]; · iexact VB21
    isplitl [VB30]; · iexact VB30
    iexact VB31
  isplitl [Hs' Hb0' Hb1' Hbufs]
  · isplitl [Hs']; · iexists _; iapply (Entails.of_eq (pts_stV (F := F) d L _)); iexact Hs'
    isplitl [Hb0']; · iexists _; iapply (Entails.of_eq (pts_b0V (F := F) d L _)); iexact Hb0'
    isplitl [Hb1']; · iexists _; iapply (Entails.of_eq (pts_b1V (F := F) d L _)); iexact Hb1'
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro
  repeat (first | exact fun p hp => Or.inl hp | refine waits_insert_none ?_)

end Cert.Proof.KI

end
-- ==== Proof.KILaunch.lean ====
/-
  From one vector subcore's task to the obligations of the call.

  The call's body on vector subcore (c, s) is the kernel at the grid coordinates (c, s); the worker those coordinates
  name is the worker the handshakes hand that subcore's part to, so the theorem about the task at a symbolic worker is
  the obligation of every subcore. A SparseCore's part is, by definition, the sixteen parts of its subcores, so the
  split of a SparseCore's operands among its tasks, and the gathering of its results from theirs, is a re-indexing.
  The kernel only copies locally and waits for its own copies, so the launch needs the handshakes' ghost state alone.
-/
import proofs.«210098_g2860448219651_cont_9to1_994_18_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "ctV" => (Memref.whole Cert.KernelIdeal.main_v0_scv : Memref Cert.KernelIdeal.sig Kind.scVector Space.hbm Cert.KernelIdeal.S128x256 EltTy.f32)
local notation "rtV" => (Memref.whole Cert.KernelIdeal.main_v1_scv : Memref Cert.KernelIdeal.sig Kind.scVector Space.hbm Cert.KernelIdeal.S128x256 EltTy.f32)
local notation "oV" => (Memref.whole Cert.KernelIdeal.main_v2_scv : Memref Cert.KernelIdeal.sig Kind.scVector Space.hbm Cert.KernelIdeal.S4x256x256x256 EltTy.f32)
local notation "stV" => (Memref.whole Cert.KernelIdeal.cc0_scratch0 : Memref Cert.KernelIdeal.sig Kind.scVector Space.vmem Cert.KernelIdeal.S8x256 EltTy.f32)
local notation "b0V" => (Memref.whole Cert.KernelIdeal.cc0_scratch1 : Memref Cert.KernelIdeal.sig Kind.scVector Space.vmem Cert.KernelIdeal.S128x256 EltTy.f32)
local notation "b1V" => (Memref.whole Cert.KernelIdeal.cc0_scratch2 : Memref Cert.KernelIdeal.sig Kind.scVector Space.vmem Cert.KernelIdeal.S128x256 EltTy.f32)

variable (m : (ℓ : Loc nD τ sig) → Buf (Elt F) ℓ) (ρ : Dev nD → PrngReg)

variable [FloatOps F]

/-! ## What the handshakes carry, field by field -/

theorem st_eq (d : Dev nD) (c : Fin ((K (F := F)).nCore 0)) :
    (P m).st 0 d c = bigSep Finset.univ fun s : Fin 16 => tileIn d (wid (Fin.cast nCore_zero c) s) (ctOf m d) (rtOf m d) (m (oLoc d)) := rfl
theorem dn_eq (d : Dev nD) (c : Fin ((K (F := F)).nCore 0)) :
    (P m).dn 0 d c = bigSep Finset.univ fun s : Fin 16 => tileOut d (wid (Fin.cast nCore_zero c) s) (ctOf m d) (rtOf m d) := rfl
theorem go_eq (d : Dev nD) (c : Fin ((K (F := F)).nCore 0)) (i : Fin ((K (F := F)).nSub 0)) :
    (P m).go 0 d c i = tileIn d (wid (Fin.cast nCore_zero c) (Fin.cast nSub_zero i)) (ctOf m d) (rtOf m d) (m (oLoc d)) := rfl
theorem td_eq (d : Dev nD) (c : Fin ((K (F := F)).nCore 0)) (i : Fin ((K (F := F)).nSub 0)) :
    (P m).td 0 d c i = tileOut d (wid (Fin.cast nCore_zero c) (Fin.cast nSub_zero i)) (ctOf m d) (rtOf m d) := rfl
theorem x_eq (q : Fin 1) (thr : Thread nD τ) : (P m).x q thr = (iprop(emp) : sProp 𝕄) := rfl

/-! ## The task of every vector subcore -/

theorem defs₀_vector (c : Fin τ.nSC) (s : Fin τ.nSub) :
    defs₀ (F := F) (.scVector c s) 0 ()
      = SparseCore.onTile hcore0 hsub0 (fun c s => cc0__sc_body (coordsV c s)
          ctV (Memref.isWhole_whole _) rtV (Memref.isWhole_whole _) oV (Memref.isWhole_whole _)
          stV (Memref.isWhole_whole _) b0V (Memref.isWhole_whole _) b1V (Memref.isWhole_whole _)
          cc0_scratch3 cc0_scratch4 cc0_scoped0 cc0_scoped1) ⟨⟩ c s := rfl

omit [FloatOps F] in
/-- The worker the grid coordinates of subcore `i` of SparseCore `c` name is the worker `2 i + c`. -/
theorem wL_coordsV (c : Fin ((K (F := F)).nCore 0)) (i : Fin ((K (F := F)).nSub 0))
    (h0 : ((K (F := F)).core 0 c).val < grid0.bound 0) (h1 : ((K (F := F)).sub 0 i).val < grid0.bound 1) :
    wL (coordsV ⟨((K (F := F)).core 0 c).val, h0⟩ ⟨((K (F := F)).sub 0 i).val, h1⟩)
      = wid (Fin.cast nCore_zero c) (Fin.cast nSub_zero i) := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [x_eq, go_eq, td_eq, ← wL_coordsV c i hci.1 hci.2]
  exact (tile_body hF d (coordsV ⟨_, hci.1⟩ ⟨_, hci.2⟩) (ctOf m d) (rtOf m d) (m (oLoc d)) O W hO).trans
    (wp_mono frame _ _ fun _ => obl_post)

/-! ## A SparseCore's part is its sixteen subcores' parts -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  rw [st_eq, dn_eq]
  simp only [go_eq, td_eq]
  rw [bigSep_tasks (F := F) (fun s => tileIn d (wid (Fin.cast nCore_zero c) s) (ctOf m d) (rtOf m d) (m (oLoc d))),
    bigSep_tasks (F := F) (fun s => tileOut d (wid (Fin.cast nCore_zero c) s) (ctOf m d) (rtOf m d))]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.KI

end
-- ==== Proof.KISplit.lean ====
/-
  A whole array is the thirty-two workers' parts of it.

  Each array the call touches divides among the workers by a map from its indices to worker numbers: a transposed
  table by (row / 4), the result by ((channel mod 128) / 4). The parts are the fibres of that map, so they are pairwise
  disjoint and together are every index; and the workers are numbered 2 s + c over the two SparseCores c and their
  sixteen subcores s, which counts each of 0 .. 31 once. So the array held whole is, SparseCore by SparseCore and
  subcore by subcore, the parts held one by one.
-/
import proofs.«210098_g2860448219651_cont_9to1_994_18_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Worker numbers -/

theorem wid_val (c : Fin 2) (s : Fin 16) : (wid c s).val = 2 * s.val + c.val := rfl

/-- Different (SparseCore, subcore) pairs are different workers. -/
theorem wid_ne {c c' : Fin 2} {s s' : Fin 16} (h : c ≠ c' ∨ s ≠ s') : (wid c s).val ≠ (wid c' s').val := by
  rw [wid_val, wid_val]
  intro e
  have hc := c.isLt; have hc' := c'.isLt
  rcases h with h | h
  · exact h (Fin.ext (by omega))
  · exact h (Fin.ext (by omega))

/-! ## The fibres of a map to worker numbers -/

section Fibres

variable {ℓ : Loc nD τ sig} (φ : Idx ℓ → ℕ)

/-- The indices the map sends to worker `w`. -/
abbrev fibre (w : Fin 32) : Finset (Idx ℓ) := Finset.univ.filter fun j => φ j = w.val

theorem fibre_disjoint {c c' : Fin 2} {s s' : Fin 16} (h : c ≠ c' ∨ s ≠ s') :
    Disjoint (fibre φ (wid c s)) (fibre φ (wid c' s')) :=
  Finset.disjoint_filter.mpr fun _ _ h1 h2 => wid_ne h (h1.symm.trans h2)

theorem fibres_cover (hφ : ∀ j, φ j < 32) :
    ((Finset.univ : Finset (Fin 2)).biUnion fun c => (Finset.univ : Finset (Fin 16)).biUnion fun s => fibre φ (wid c s)) = Finset.univ := by
  refine Finset.eq_univ_iff_forall.mpr fun j => ?_
  have hj := hφ j
  refine Finset.mem_biUnion.mpr ⟨⟨φ j % 2, by omega⟩, Finset.mem_univ _, Finset.mem_biUnion.mpr ⟨⟨φ j / 2, by omega⟩, Finset.mem_univ _, ?_⟩⟩
  refine Finset.mem_filter.mpr ⟨Finset.mem_univ _, ?_⟩
  rw [wid_val]
  show φ j = 2 * (φ j / 2) + φ j % 2
  omega

/-- An array held whole is its thirty-two fibres held one by one. -/
theorem pointsTo_fibres (hφ : ∀ j, φ j < 32) (f : Buf (Elt F) ℓ) :
    (ℓ ↦{fullShare} f : sProp 𝕄)
      = bigSep Finset.univ fun c : Fin 2 => bigSep Finset.univ fun s : Fin 16 => ℓ ↦[fibre φ (wid c s)]{fullShare} f := by
  have inner : ∀ c : Fin 2, (bigSep Finset.univ fun s : Fin 16 => (ℓ ↦[fibre φ (wid c s)]{fullShare} f : sProp 𝕄))
      = ℓ ↦[(Finset.univ : Finset (Fin 16)).biUnion fun s => fibre φ (wid c s)]{fullShare} f := fun c =>
    (pointsTo_biUnion Finset.univ (fun s : Fin 16 => fibre φ (wid c s))
      fun s _ s' _ h => fibre_disjoint φ (Or.inr h)).symm
  rw [bigSep_congr fun c _ => inner c,
    ← pointsTo_biUnion Finset.univ (fun c : Fin 2 => (Finset.univ : Finset (Fin 16)).biUnion fun s => fibre φ (wid c s))
      (fun c _ c' _ h => (Finset.disjoint_biUnion_left _ _ _).mpr fun s _ => (Finset.disjoint_biUnion_right _ _ _).mpr fun s' _ =>
        fibre_disjoint φ (Or.inl h)),
    fibres_cover φ hφ]
  try rfl

end Fibres

/-! ## The two transposed tables and the result -/

theorem ct_split (d : Dev nD) (f : Buf (Elt F) (ctLoc d)) :
    (ctLoc d ↦{fullShare} f : sProp 𝕄)
      = bigSep Finset.univ fun c : Fin 2 => bigSep Finset.univ fun s : Fin 16 => ctLoc d ↦[tblSet (wid c s)]{fullShare} f :=
  pointsTo_fibres (ℓ := ctLoc d) (fun j => (j 0).val / 4) (fun j => by have h : (j 0).val < 128 := (j 0).isLt; omega) f

theorem rt_split (d : Dev nD) (f : Buf (Elt F) (rtLoc d)) :
    (rtLoc d ↦{fullShare} f : sProp 𝕄)
      = bigSep Finset.univ fun c : Fin 2 => bigSep Finset.univ fun s : Fin 16 => rtLoc d ↦[tblSet (wid c s)]{fullShare} f :=
  pointsTo_fibres (ℓ := rtLoc d) (fun j => (j 0).val / 4) (fun j => by have h : (j 0).val < 128 := (j 0).isLt; omega) f

theorem o_split (d : Dev nD) (f : Buf (Elt F) (oLoc d)) :
    (oLoc d ↦{fullShare} f : sProp 𝕄)
      = bigSep Finset.univ fun c : Fin 2 => bigSep Finset.univ fun s : Fin 16 => oLoc d ↦[tileSet (wid c s)]{fullShare} f :=
  pointsTo_fibres (ℓ := oLoc d) (fun j => ((j 1).val % 128) / 4) (fun j => by omega) f

end Cert.Proof.KI

end
-- ==== Proof.KIMain.lean ====
/-
  The whole program on the TensorCore, and the run with its result named.

  @main transposes the column table and the row table, calls the kernel on the two SparseCores, and returns. The two
  transposes are host operations over arrays the TensorCore holds whole; when the call starts it holds the two
  transposed tables at the transposes of the tables and the result at its launch contents, which divide among the
  thirty-two workers; when the call ends the workers' parts join to the transposed tables unchanged and the result at
  the position embedding read off the transposed tables. Entry (c, x) of a transposed table is entry (x, c) of the
  table, so that embedding is the position embedding of the two tables themselves; the three arguments are written
  by nothing.
-/
import proofs.«210098_g2860448219651_cont_9to1_994_18_alg».proof.Proof.KILaunch
import proofs.«210098_g2860448219651_cont_9to1_994_18_alg».proof.Proof.KISplit
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## Regrouping: the cores' parts of a call are the three arrays whole -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem bigSep2_sep3 (A B C : Fin 2 → Fin 16 → sProp 𝕄) :
    (bigSep Finset.univ fun c : Fin 2 => bigSep Finset.univ fun s : Fin 16 => iprop(A c s ∗ B c s ∗ C c s))
      = iprop((bigSep Finset.univ fun c : Fin 2 => bigSep Finset.univ fun s : Fin 16 => A c s)
          ∗ (bigSep Finset.univ fun c : Fin 2 => bigSep Finset.univ fun s : Fin 16 => B c s)
          ∗ (bigSep Finset.univ fun c : Fin 2 => bigSep Finset.univ fun s : Fin 16 => C c s)) := by
  have h1 : ∀ c : Fin 2, (bigSep Finset.univ fun s : Fin 16 => iprop(A c s ∗ B c s ∗ C c s))
      = iprop((bigSep Finset.univ fun s : Fin 16 => A c s) ∗ (bigSep Finset.univ fun s : Fin 16 => B c s) ∗ (bigSep Finset.univ fun s : Fin 16 => C c s)) :=
    fun c => by rw [bigSep_sep', bigSep_sep']
  rw [bigSep_congr fun c _ => h1 c, bigSep_sep', bigSep_sep']

variable [FloatOps F]

/-- What the call takes for the two SparseCores: the two transposed tables and the result, whole. -/
theorem st0_eq (d : Dev nD) :
    (bigSep Finset.univ fun c : Fin ((K (F := F)).nCore 0) => (P m).st 0 d c)
      = iprop((ctLoc d ↦{fullShare} ctOf m d) ∗ (rtLoc d ↦{fullShare} rtOf m d) ∗ (oLoc d ↦{fullShare} m (oLoc d))) :=
  calc (bigSep Finset.univ fun c : Fin ((K (F := F)).nCore 0) => (P m).st 0 d c)
      = bigSep Finset.univ fun c : Fin 2 => bigSep Finset.univ fun s : Fin 16 => tileIn d (wid c s) (ctOf m d) (rtOf m d) (m (oLoc d)) :=
        bigSep_cores (F := F) (fun c => bigSep Finset.univ fun s : Fin 16 => tileIn d (wid c s) (ctOf m d) (rtOf m d) (m (oLoc d)))
    _ = _ := by unfold tileIn; rw [bigSep2_sep3, ← ct_split, ← rt_split, ← o_split]

/-- What it hands back: the transposed tables unchanged, the result at the position embedding read off them. -/
theorem dn0_eq (d : Dev nD) :
    (bigSep Finset.univ fun c : Fin ((K (F := F)).nCore 0) => (P m).dn 0 d c)
      = iprop((ctLoc d ↦{fullShare} ctOf m d) ∗ (rtLoc d ↦{fullShare} rtOf m d)
          ∗ (oLoc d ↦{fullShare} (Cert.PosEmbed.posEmbedT (ctOf m d) (rtOf m d) : Buf (Elt F) (oLoc d)))) :=
  calc (bigSep Finset.univ fun c : Fin ((K (F := F)).nCore 0) => (P m).dn 0 d c)
      = bigSep Finset.univ fun c : Fin 2 => bigSep Finset.univ fun s : Fin 16 => tileOut d (wid c s) (ctOf m d) (rtOf m d) :=
        bigSep_cores (F := F) (fun c => bigSep Finset.univ fun s : Fin 16 => tileOut d (wid c s) (ctOf m d) (rtOf m d))
    _ = _ := by unfold tileOut; rw [bigSep2_sep3, ← ct_split, ← rt_split, ← o_split]

/-! ## The TensorCore's arrays and the two transposes -/

abbrev a' : DevRef τ sig := Proc.devRef .tc (main_arg0 : Ref sig .tc)
abbrev r' : DevRef τ sig := Proc.devRef .tc (main_arg1 : Ref sig .tc)
abbrev c' : DevRef τ sig := Proc.devRef .tc (main_arg2 : Ref sig .tc)
abbrev ct' : DevRef τ sig := Proc.devRef .tc (main_v0 : Ref sig .tc)
abbrev rt' : DevRef τ sig := Proc.devRef .tc (main_v1 : Ref sig .tc)
abbrev o' : DevRef τ sig := Proc.devRef .tc (main_v2 : Ref sig .tc)

/-- The transpose of the column table into the first transposed table, of the row table into the second. -/
abbrev opCt : HloOp τ sig (Elt F) :=
  StableHlo.unary main_arg2 main_v0 ((transpose S128x256 [1, 0] · Facts₀.transposes_S256x128_S128x256_1_0) : (⟨S256x128, .f32⟩ : BufTy).Contents (Elt F) → (⟨S128x256, .f32⟩ : BufTy).Contents (Elt F))
abbrev opRt : HloOp τ sig (Elt F) :=
  StableHlo.unary main_arg1 main_v1 ((transpose S128x256 [1, 0] · Facts₀.transposes_S256x128_S128x256_1_0) : (⟨S256x128, .f32⟩ : BufTy).Contents (Elt F) → (⟨S128x256, .f32⟩ : BufTy).Contents (Elt F))

/-- The TensorCore's arrays, all unscoped: the three arguments, the two transposed tables, the result. -/
abbrev S6 : Finset (DevRef τ sig) := {a', r', c', ct', rt', o'}

omit [FloatOps F] in
theorem held_S6 (d : Dev nD) (W : Valuation τ sig (Elt F)) :
    (held (T d) S6 W : sProp 𝕄) = iprop((aLoc d ↦{fullShare} W a') ∗ (rLoc d ↦{fullShare} W r') ∗ (cLoc d ↦{fullShare} W c')
      ∗ (ctLoc d ↦{fullShare} W ct') ∗ (rtLoc d ↦{fullShare} W rt') ∗ (oLoc d ↦{fullShare} W o')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (rLoc d ↦{fullShare} W main_arg1) ∗ (cLoc d ↦{fullShare} W main_arg2)
      ∗ (ctLoc d ↦{fullShare} W main_v0) ∗ (rtLoc d ↦{fullShare} W main_v1) ∗ (oLoc d ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the valuations after the first and after the second transpose. -/
def V0 (d : Dev nD) : Valuation τ sig (Elt F) := fun b => m (d, b)
def V1 (d : Dev nD) : Valuation τ sig (Elt F) := (opCt (F := F)).result (V0 m d)
def V2 (d : Dev nD) : Valuation τ sig (Elt F) := (opRt (F := F)).result (V1 m d)

omit [FloatOps F] in
theorem unscoped_held (d : Dev nD) : (unscopedBufs d (fun b => m ((SparseCore.T d).loc b)) : sProp 𝕄) = held (T d) S6 (V0 m d) := by
  rw [unscopedBufs_eq, held_S6]; rfl

theorem V2_a (d : Dev nD) : V2 m d a' = m (aLoc d) := by
  unfold V2 V1
  rw [StableHlo.unary_result_ne (h := show (main_arg0 : Ref sig .tc) ≠ main_v1 by decide),
    StableHlo.unary_result_ne (h := show (main_arg0 : Ref sig .tc) ≠ main_v0 by decide)]; rfl
theorem V2_r (d : Dev nD) : V2 m d r' = m (rLoc d) := by
  unfold V2 V1
  rw [StableHlo.unary_result_ne (h := show (main_arg1 : Ref sig .tc) ≠ main_v1 by decide),
    StableHlo.unary_result_ne (h := show (main_arg1 : Ref sig .tc) ≠ main_v0 by decide)]; rfl
theorem V2_c (d : Dev nD) : V2 m d c' = m (cLoc d) := by
  unfold V2 V1
  rw [StableHlo.unary_result_ne (h := show (main_arg2 : Ref sig .tc) ≠ main_v1 by decide),
    StableHlo.unary_result_ne (h := show (main_arg2 : Ref sig .tc) ≠ main_v0 by decide)]; rfl
theorem V2_o (d : Dev nD) : V2 m d o' = m (oLoc d) := by
  unfold V2 V1
  rw [StableHlo.unary_result_ne (h := show (main_v2 : Ref sig .tc) ≠ main_v1 by decide),
    StableHlo.unary_result_ne (h := show (main_v2 : Ref sig .tc) ≠ main_v0 by decide)]; rfl
theorem V2_ct (d : Dev nD) : V2 m d ct' = ctOf m d := by
  unfold V2 V1
  rw [StableHlo.unary_result_ne (h := show (main_v0 : Ref sig .tc) ≠ main_v1 by decide)]
  exact StableHlo.unary_result _ _ _ _ _ _
theorem V2_rt (d : Dev nD) : V2 m d rt' = rtOf m d := by
  unfold V2 V1
  refine (StableHlo.unary_result _ _ _ _ _ _).trans ?_
  rw [StableHlo.unary_result_ne (h := show (main_arg1 : Ref sig .tc) ≠ main_v0 by decide)]; rfl

/-- After the two transposes: the arguments and the result as launched, the transposed tables at the transposes. -/
theorem held_V2 (d : Dev nD) :
    (held (T d) S6 ((opRt (F := F)).result (V1 m d)) : sProp 𝕄)
      = iprop((aLoc d ↦{fullShare} m (aLoc d)) ∗ (rLoc d ↦{fullShare} m (rLoc d)) ∗ (cLoc d ↦{fullShare} m (cLoc d))
        ∗ (ctLoc d ↦{fullShare} ctOf m d) ∗ (rtLoc d ↦{fullShare} rtOf m d) ∗ (oLoc d ↦{fullShare} m (oLoc d))) := by
  rw [show (opRt (F := F)).result (V1 m d) = V2 m d from rfl, held_S6, V2_a, V2_r, V2_c, V2_o, V2_ct, V2_rt]

theorem hCt : (opCt (F := F)).bufs ⊆ S6 := show ({c', ct'} : Finset (DevRef τ sig)) ⊆ S6 by decide
theorem hRt : (opRt (F := F)).bufs ⊆ S6 := show ({r', rt'} : Finset (DevRef τ sig)) ⊆ S6 by decide

/-- What @main leaves the claim: the three arguments at their launch contents, the result at the position embedding
    read off the transposed tables. -/
abbrev FIN (d : Dev nD) : sProp 𝕄 :=
  iprop((aLoc d ↦{fullShare} m (aLoc d)) ∗ (rLoc d ↦{fullShare} m (rLoc d)) ∗ (cLoc d ↦{fullShare} m (cLoc d))
    ∗ (oLoc d ↦{fullShare} (Cert.PosEmbed.posEmbedT (ctOf m d) (rtOf m d) : Buf (Elt F) (oLoc d))))

/-- @main on device `d`'s TensorCore: the two transposes over the six arrays held whole, then the call from the
    transposed tables and the result; the arguments kept throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose of the column table
  iapply (wp_hlo_within 𝒱 (SparseCore.T d) none Set.univ (op := opCt) (S := S6) hCt (V := V0 m d)) $$ [Hb Hheld]
  · isplitl [Hb]; · iexact Hb
    iexact Hheld
  iintro ⟨Hb, Hheld⟩
  rw [wp_ret]; imodintro
  -- the transpose of the row table
  iapply (wp_hlo_within 𝒱 (SparseCore.T d) none Set.univ (op := opRt) (S := S6) hRt (V := V1 m d)) $$ [Hb Hheld]
  · isplitl [Hb]; · iexact Hb
    iexact Hheld
  iintro ⟨Hb, Hheld⟩
  rw [wp_ret]; imodintro
  ihave Hh := (Entails.of_eq (held_V2 m d)) $$ Hheld
  icases Hh with ⟨Ha, Hr, Hc, Hct, Hrt, Ho⟩
  -- the call
  iapply ((K (F := F)).wp_run (D (F := F)) 𝒱 (EH := EH) (P := P m) κ d 0) $$ [Hst Ha Hr Hc Hct Hrt Ho]
  isplitr; · iexact Hctx
  isplitl [Hst]; · iexact Hst
  isplitl [Hct Hrt Ho]
  · rw [st0_eq]
    isplitl [Hct]; · iexact Hct
    isplitl [Hrt]; · iexact Hrt
    iexact Ho
  iintro ⟨Hst, Hdn⟩
  ihave Hdn' := (Entails.of_eq (dn0_eq m d)) $$ Hdn
  icases Hdn' with ⟨-, -, Ho⟩
  imodintro
  isplitl [Hst]; · iexact Hst
  isplitl [Ha]; · iexact Ha
  isplitl [Hr]; · iexact Hr
  isplitl [Hc]; · iexact Hc
  iexact Ho

/-! ## What the final memory holds -/

def fq (d : Dev nD) (s' : Phys nD τ sig (Elt F)) : Prop :=
  s'.mem.mem (aLoc d) = m (aLoc d) ∧ s'.mem.mem (rLoc d) = m (rLoc d) ∧ s'.mem.mem (cLoc d) = m (cLoc d)
    ∧ s'.mem.mem (oLoc d) = (Cert.PosEmbed.posEmbedT (ctOf m d) (rtOf m d) : Buf (Elt F) (oLoc d))

set_option maxRecDepth 16384 in
theorem hfin (d : Dev nD) (s' : Phys nD τ sig (Elt F)) : iprop(FIN m d ∗ SI s') ⊢ (⌜fq m d s'⌝ : sProp 𝕄) := by
  iintro ⟨⟨Ha, Hr, Hc, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := rLoc d) (I := Finset.univ) (q := fullShare) (f := m (rLoc d)))) $$ [HSI Hr]
  · isplitl [HSI] <;> iassumption
  icases H with ⟨%h2, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h3, HSI, -⟩
  ihave H := (SI_pointsTo_agree (st := s') (ℓ := oLoc d) (I := Finset.univ) (q := fullShare)
    (f := (Cert.PosEmbed.posEmbedT (ctOf m d) (rtOf m d) : Buf (Elt F) (oLoc d)))) $$ [HSI Ho]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The value: the embedding read off the transposes is the embedding of the tables -/

omit [FloatOps F] in
theorem ctOf_apply (d : Dev nD) (c : Fin 128) (x : Fin 256) :
    ctOf m d (ValueIdx.ix2 c x) = m (cLoc d) (ValueIdx.ix2 x c) :=
  ValueIdx.transpose_ix2_apply (a := 256) (b := 128) _ _ c x
omit [FloatOps F] in
theorem rtOf_apply (d : Dev nD) (c : Fin 128) (x : Fin 256) :
    rtOf m d (ValueIdx.ix2 c x) = m (rLoc d) (ValueIdx.ix2 x c) :=
  ValueIdx.transpose_ix2_apply (a := 256) (b := 128) _ _ c x

omit [FloatOps F] in
theorem posEmbedT_tables (d : Dev nD) :
    (Cert.PosEmbed.posEmbedT (ctOf m d) (rtOf m d) : Buf (Elt F) (oLoc d)) = Cert.PosEmbed.posEmbed (m (rLoc d)) (m (cLoc d)) :=
  Cert.PosEmbed.posEmbedT_eq (m (rLoc d)) (m (cLoc d)) (ctOf m d) (rtOf m d) (ctOf_apply m d) (rtOf_apply m d)

/-! ## The program's run -/

def QC : PUnit × MemSt nD τ sig (Elt F) → Prop := fun r => ∀ c : Dev nD,
  r.2.mem (oLoc c) = (Cert.PosEmbed.posEmbed (m (rLoc c)) (m (cLoc c)) : Buf (Elt F) (oLoc c))
    ∧ r.2.mem (aLoc c) = m (aLoc c) ∧ r.2.mem (rLoc c) = m (rLoc c) ∧ r.2.mem (cLoc c) = m (cLoc c)

/-- Every weakly fair execution of the program terminates, nothing faulting, with the result at the position embedding
    of the two tables and the three arguments unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).2.2.2.trans (posEmbedT_tables m c), (h c).1, (h c).2.1, (h c).2.2.1⟩)

end Cert.Proof.KI

end
-- ==== Proof.RefOps.lean ====
/-
  The reference program's @main as ONE list of host operations, and its run.

  @main makes two calls of the outlined gather function (a take of table rows by an index vector), which itself calls
  the outlined select. A call executes the callee's body on the call's own buffers, so the whole program is one straight
  line: the two index vectors, the twenty-three operations of each take (the select's one among them), and the eight layout
  operations after them: fifty-six operations. The run theorem says that every weakly fair execution terminates with
  every buffer at the fold of these operations over the launch contents.
-/
import proofs.«210098_g2860448219651_cont_9to1_994_18_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Two [256, 256, 128] arrays laid side by side along the last axis: the program's concatenation as a function of its
    two operands. -/
def sideBySide (a b : (⟨S256x256x128, .f32⟩ : BufTy).Contents (Elt F)) : (⟨S256x256x256, .f32⟩ : BufTy).Contents (Elt F) :=
  concatenate S256x256x256 2 [⟨S256x256x128, a⟩, ⟨S256x256x128, b⟩] concatenates_S256x256x128_S256x256x128_S256x256x256_d2

/-- @main's fifty-six operations in order, the two calls of the take (each with its inner select) unfolded over the
    calls' own buffers. Each operation is written over the buffers themselves, its function at the buffers' own types:
    a call site's typed references carry these same types, so their transports are the identity. -/
abbrev ops : List (HloOp τ sig (Elt F)) :=
  [ nullary main_v0 (iotaInDim S256 32 0 : (⟨S256, .i32⟩ : BufTy).Contents (Elt F)),
    nullary main_v1 (iotaInDim S256 32 0 : (⟨S256, .i32⟩ : BufTy).Contents (Elt F)),
    nullary main_call0_c (constantI S_ 32 0#32 : (⟨S_, .i32⟩ : BufTy).Contents (Elt F)),
    unary main_call0_c main_call0_v0 (broadcastInDim S256 ![] bcast_S_S256 : (⟨S_, .i32⟩ : BufTy).Contents (Elt F) → (⟨S256, .i32⟩ : BufTy).Contents (Elt F)),
    binary main_v0 main_call0_v0 main_call0_v1 (cmpi .slt : (⟨S256, .i32⟩ : BufTy).Contents (Elt F) → (⟨S256, .i32⟩ : BufTy).Contents (Elt F) → (⟨S256, .i1⟩ : BufTy).Contents (Elt F)),
    nullary main_call0_c_0 (constantI S_ 32 256#32 : (⟨S_, .i32⟩ : BufTy).Contents (Elt F)),
    unary main_call0_c_0 main_call0_v2 (broadcastInDim S256 ![] bcast_S_S256 : (⟨S_, .i32⟩ : BufTy).Contents (Elt F) → (⟨S256, .i32⟩ : BufTy).Contents (Elt F)),
    binary main_v0 main_call0_v2 main_call0_v3 (addi : (⟨S256, .i32⟩ : BufTy).Contents (Elt F) → (⟨S256, .i32⟩ : BufTy).Contents (Elt F) → (⟨S256, .i32⟩ : BufTy).Contents (Elt F)),
    ternary main_call0_v1 main_call0_v3 main_v0 main_call0_v4 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_call0_v4 main_call0_v5 (broadcastInDim S256x1 ![0] bcast_S256_S256x1_0 : (⟨S256, .i32⟩ : BufTy).Contents (Elt F) → (⟨S256x1, .i32⟩ : BufTy).Contents (Elt F)),
    nullary main_call0_c_1 (constantI S1 32 255#32 : (⟨S1, .i32⟩ : BufTy).Contents (Elt F)),
    nullary main_call0_c_2 (constantI S_ 32 0#32 : (⟨S_, .i32⟩ : BufTy).Contents (Elt F)),
    unary main_call0_c_2 main_call0_v6 (broadcastInDim S256x1 ![] bcast_S_S256x1 : (⟨S_, .i32⟩ : BufTy).Contents (Elt F) → (⟨S256x1, .i32⟩ : BufTy).Contents (Elt F)),
    binary main_call0_v5 main_call0_v6 main_call0_v7 (cmpi .sge : (⟨S256x1, .i32⟩ : BufTy).Contents (Elt F) → (⟨S256x1, .i32⟩ : BufTy).Contents (Elt F) → (⟨S256x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S256x1 ![0, 1] bcast_S1x1_S256x1_0_1 : (⟨S1x1, .i32⟩ : BufTy).Contents (Elt F) → (⟨S256x1, .i32⟩ : BufTy).Contents (Elt F)),
    binary main_call0_v5 main_call0_v9 main_call0_v10 (cmpi .sle : (⟨S256x1, .i32⟩ : BufTy).Contents (Elt F) → (⟨S256x1, .i32⟩ : BufTy).Contents (Elt F) → (⟨S256x1, .i1⟩ : BufTy).Contents (Elt F)),
    binary main_call0_v7 main_call0_v10 main_call0_v11 (andi : (⟨S256x1, .i1⟩ : BufTy).Contents (Elt F) → (⟨S256x1, .i1⟩ : BufTy).Contents (Elt F) → (⟨S256x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S256x1_S256_d1 h_S_ : (⟨S256x1, .i1⟩ : BufTy).Contents (Elt F) → (⟨S_, .i1⟩ : BufTy).Contents (Elt F) → (⟨S256, .i1⟩ : BufTy).Contents (Elt F)),
    binary main_arg1 main_call0_v5 main_call0_v13 (fun x i => Host.gather gather_S256x128_S256x1_S256x128_1_0_n_n_0_1_1128 x i : (⟨S256x128, .f32⟩ : BufTy).Contents (Elt F) → (⟨S256x1, .i32⟩ : BufTy).Contents (Elt F) → (⟨S256x128, .f32⟩ : BufTy).Contents (Elt F)),
    unary main_call0_v12 main_call0_v14 (broadcastInDim S256x128 ![0] bcast_S256_S256x128_0 : (⟨S256, .i1⟩ : BufTy).Contents (Elt F) → (⟨S256x128, .i1⟩ : BufTy).Contents (Elt F)),
    nullary main_call0_cst (constant S_ .f32 0x7FC00000#32 : (⟨S_, .f32⟩ : BufTy).Contents (Elt F)),
    unary main_call0_cst main_call0_v15 (broadcastInDim S256x128 ![] bcast_S_S256x128 : (⟨S_, .f32⟩ : BufTy).Contents (Elt F) → (⟨S256x128, .f32⟩ : BufTy).Contents (Elt F)),
    ternary main_call0_v14 main_call0_v13 main_call0_v15 main_v2 (select : (⟨S256x128, .i1⟩ : BufTy).Contents (Elt F) → (⟨S256x128, .f32⟩ : BufTy).Contents (Elt F) → (⟨S256x128, .f32⟩ : BufTy).Contents (Elt F) → (⟨S256x128, .f32⟩ : BufTy).Contents (Elt F)),
    nullary main_call1_c (constantI S_ 32 0#32 : (⟨S_, .i32⟩ : BufTy).Contents (Elt F)),
    unary main_call1_c main_call1_v0 (broadcastInDim S256 ![] bcast_S_S256 : (⟨S_, .i32⟩ : BufTy).Contents (Elt F) → (⟨S256, .i32⟩ : BufTy).Contents (Elt F)),
    binary main_v1 main_call1_v0 main_call1_v1 (cmpi .slt : (⟨S256, .i32⟩ : BufTy).Contents (Elt F) → (⟨S256, .i32⟩ : BufTy).Contents (Elt F) → (⟨S256, .i1⟩ : BufTy).Contents (Elt F)),
    nullary main_call1_c_0 (constantI S_ 32 256#32 : (⟨S_, .i32⟩ : BufTy).Contents (Elt F)),
    unary main_call1_c_0 main_call1_v2 (broadcastInDim S256 ![] bcast_S_S256 : (⟨S_, .i32⟩ : BufTy).Contents (Elt F) → (⟨S256, .i32⟩ : BufTy).Contents (Elt F)),
    binary main_v1 main_call1_v2 main_call1_v3 (addi : (⟨S256, .i32⟩ : BufTy).Contents (Elt F) → (⟨S256, .i32⟩ : BufTy).Contents (Elt F) → (⟨S256, .i32⟩ : BufTy).Contents (Elt F)),
    ternary main_call1_v1 main_call1_v3 main_v1 main_call1_v4 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_call1_v4 main_call1_v5 (broadcastInDim S256x1 ![0] bcast_S256_S256x1_0 : (⟨S256, .i32⟩ : BufTy).Contents (Elt F) → (⟨S256x1, .i32⟩ : BufTy).Contents (Elt F)),
    nullary main_call1_c_1 (constantI S1 32 255#32 : (⟨S1, .i32⟩ : BufTy).Contents (Elt F)),
    nullary main_call1_c_2 (constantI S_ 32 0#32 : (⟨S_, .i32⟩ : BufTy).Contents (Elt F)),
    unary main_call1_c_2 main_call1_v6 (broadcastInDim S256x1 ![] bcast_S_S256x1 : (⟨S_, .i32⟩ : BufTy).Contents (Elt F) → (⟨S256x1, .i32⟩ : BufTy).Contents (Elt F)),
    binary main_call1_v5 main_call1_v6 main_call1_v7 (cmpi .sge : (⟨S256x1, .i32⟩ : BufTy).Contents (Elt F) → (⟨S256x1, .i32⟩ : BufTy).Contents (Elt F) → (⟨S256x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S256x1 ![0, 1] bcast_S1x1_S256x1_0_1 : (⟨S1x1, .i32⟩ : BufTy).Contents (Elt F) → (⟨S256x1, .i32⟩ : BufTy).Contents (Elt F)),
    binary main_call1_v5 main_call1_v9 main_call1_v10 (cmpi .sle : (⟨S256x1, .i32⟩ : BufTy).Contents (Elt F) → (⟨S256x1, .i32⟩ : BufTy).Contents (Elt F) → (⟨S256x1, .i1⟩ : BufTy).Contents (Elt F)),
    binary main_call1_v7 main_call1_v10 main_call1_v11 (andi : (⟨S256x1, .i1⟩ : BufTy).Contents (Elt F) → (⟨S256x1, .i1⟩ : BufTy).Contents (Elt F) → (⟨S256x1, .i1⟩ : BufTy).Contents (Elt F)),
    nullary main_call1_c_3 (constantI S_ 1 1#1 : (⟨S_, .i1⟩ : BufTy).Contents (Elt F)),
    binary main_call1_v11 main_call1_c_3 main_call1_v12 (fun x v => Host.reduce IntOp.andi x v reducesTo_S256x1_S256_d1 h_S_ : (⟨S256x1, .i1⟩ : BufTy).Contents (Elt F) → (⟨S_, .i1⟩ : BufTy).Contents (Elt F) → (⟨S256, .i1⟩ : BufTy).Contents (Elt F)),
    binary main_arg2 main_call1_v5 main_call1_v13 (fun x i => Host.gather gather_S256x128_S256x1_S256x128_1_0_n_n_0_1_1128 x i : (⟨S256x128, .f32⟩ : BufTy).Contents (Elt F) → (⟨S256x1, .i32⟩ : BufTy).Contents (Elt F) → (⟨S256x128, .f32⟩ : BufTy).Contents (Elt F)),
    unary main_call1_v12 main_call1_v14 (broadcastInDim S256x128 ![0] bcast_S256_S256x128_0 : (⟨S256, .i1⟩ : BufTy).Contents (Elt F) → (⟨S256x128, .i1⟩ : BufTy).Contents (Elt F)),
    nullary main_call1_cst (constant S_ .f32 0x7FC00000#32 : (⟨S_, .f32⟩ : BufTy).Contents (Elt F)),
    unary main_call1_cst main_call1_v15 (broadcastInDim S256x128 ![] bcast_S_S256x128 : (⟨S_, .f32⟩ : BufTy).Contents (Elt F) → (⟨S256x128, .f32⟩ : BufTy).Contents (Elt F)),
    ternary main_call1_v14 main_call1_v13 main_call1_v15 main_v3 (select : (⟨S256x128, .i1⟩ : BufTy).Contents (Elt F) → (⟨S256x128, .f32⟩ : BufTy).Contents (Elt F) → (⟨S256x128, .f32⟩ : BufTy).Contents (Elt F) → (⟨S256x128, .f32⟩ : BufTy).Contents (Elt F)),
    unary main_v3 main_v4 (broadcastInDim S1x256x128 ![1, 2] bcast_S256x128_S1x256x128_1_2 : (⟨S256x128, .f32⟩ : BufTy).Contents (Elt F) → (⟨S1x256x128, .f32⟩ : BufTy).Contents (Elt F)),
    unary main_v4 main_v5 (broadcastInDim S256x256x128 ![0, 1, 2] bcast_S1x256x128_S256x256x128_0_1_2 : (⟨S1x256x128, .f32⟩ : BufTy).Contents (Elt F) → (⟨S256x256x128, .f32⟩ : BufTy).Contents (Elt F)),
    unary main_v2 main_v6 (broadcastInDim S256x1x128 ![0, 2] bcast_S256x128_S256x1x128_0_2 : (⟨S256x128, .f32⟩ : BufTy).Contents (Elt F) → (⟨S256x1x128, .f32⟩ : BufTy).Contents (Elt F)),
    unary main_v6 main_v7 (broadcastInDim S256x256x128 ![0, 1, 2] bcast_S256x1x128_S256x256x128_0_1_2 : (⟨S256x1x128, .f32⟩ : BufTy).Contents (Elt F) → (⟨S256x256x128, .f32⟩ : BufTy).Contents (Elt F)),
    binary main_v5 main_v7 main_v8 (sideBySide : (⟨S256x256x128, .f32⟩ : BufTy).Contents (Elt F) → (⟨S256x256x128, .f32⟩ : BufTy).Contents (Elt F) → (⟨S256x256x256, .f32⟩ : BufTy).Contents (Elt F)),
    unary main_v8 main_v9 ((transpose S256x256x256 [2, 0, 1] · transposes_S256x256x256_S256x256x256_2_0_1) : (⟨S256x256x256, .f32⟩ : BufTy).Contents (Elt F) → (⟨S256x256x256, .f32⟩ : BufTy).Contents (Elt F)),
    unary main_v9 main_v10 (broadcastInDim S1x256x256x256 ![1, 2, 3] bcast_S256x256x256_S1x256x256x256_1_2_3 : (⟨S256x256x256, .f32⟩ : BufTy).Contents (Elt F) → (⟨S1x256x256x256, .f32⟩ : BufTy).Contents (Elt F)),
    unary main_v10 main_v11 (broadcastInDim S4x256x256x256 ![0, 1, 2, 3] bcast_S1x256x256x256_S4x256x256x256_0_1_2_3 : (⟨S1x256x256x256, .f32⟩ : BufTy).Contents (Elt F) → (⟨S4x256x256x256, .f32⟩ : BufTy).Contents (Elt F)) ]

-- the straight line has fifty-six statements
set_option maxRecDepth 2048 in
/-- @main is that straight line: the callees' bodies unfolded at their calls, the sequencing re-associated; operation by
    operation the typed references' builders are the plain ones, their transports being the identity. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., unary_bufs_sub .., binary_bufs_sub .., unary_bufs_sub .., unary_bufs_sub .., unary_bufs_sub ..⟩

/-- From any memory with zero counters every weakly fair execution of @main terminates, and every buffer ends at the
    fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTake.lean ====
/-
  The gather-by-rows function read as a function of its table: taking rows 0, 1, …, 255 of a [256, 128] table returns
  the table.

  One call of the take normalises its index vector (a negative index has the table's height added), checks each
  normalised index against the bounds 0 and 255, gathers one table row per index (the start row clamped into the
  table), and keeps the gathered row where the index was in bounds, a fill value elsewhere. At the index vector
  0, 1, …, 255 no index is negative, every index is in bounds and the clamp does nothing, so row i of the result is
  row i of the table.
-/
import proofs.«210098_g2860448219651_cont_9to1_994_18_alg».proof.Proof.Gen.ReferenceIdeal
import Idealize.ShloMosaic.Lib.ValueIdx
import Idealize.ShloMosaic.Lib.IdealHost
import Idealize.ShloMosaic.Lib.Pipeline.Value
import Idealize.ShloMosaic.Lib.ReduceAll

noncomputable section

namespace Cert.ReferenceIdeal.RefValue

open Cert.ReferenceIdeal Cert.ReferenceIdeal.Gen Idealize.ShloMosaic Idealize.ShloMosaic.ValueIdx

/-! ## Words -/

/-- A row number below 256, as a 32-bit word, reads back signed as itself. -/
theorem toInt_ofNat_row (n : Nat) (h : n < 256) : (BitVec.ofNat 32 n).toInt = (n : Int) := by
  rw [BitVec.toInt_eq_toNat_cond, BitVec.toNat_ofNat, Nat.mod_eq_of_lt (by omega)]
  split <;> omega

/-- A left fold by `and` over one-bit words that starts at 1 and meets only 1s ends at 1. -/
theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_all_one f hf l

/-- A reduction by `and` of an array of 1s, from the initial value 1, is 1 at every result index. -/
theorem reduce_andi_all_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_all_one x hx _

/-! ## The gather of table rows at an index -/

/-- The gather read at (i, k): the table at column k of the row the start index `idx[i, 0]` names, read signed and
    clamped into the table's rows. -/
theorem gather_rows_apply {α : Type} (x : S256x128.Idx → α) (idx : IVec S256x1 32) (i : Fin 256) (k : Fin 128) :
    Host.gather gather_S256x128_S256x1_S256x128_1_0_n_n_0_1_1128 x idx (ix2 i k)
      = x (ix2 (⟨min (idx (ix2 i (0 : Fin 1))).toInt.toNat 255, by omega⟩ : Fin 256) k) := by
  unfold Host.gather
  congr 1
  funext a
  refine Fin.ext ?_
  show gather_S256x128_S256x1_S256x128_1_0_n_n_0_1_1128.start (ix2 i k) idx a
      + gather_S256x128_S256x1_S256x128_1_0_n_n_0_1_1128.batchCoord (ix2 i k) a
      + gather_S256x128_S256x1_S256x128_1_0_n_n_0_1_1128.offCoord (ix2 i k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin S256x128.rank) ∈ gather_S256x128_S256x1_S256x128_1_0_n_n_0_1_1128.startIndexMap from
      List.mem_singleton.mpr rfl)]
    have hsi : gather_S256x128_S256x1_S256x128_1_0_n_n_0_1_1128.siIdx (ix2 i k)
        ⟨List.idxOf (⟨0, by decide⟩ : Fin S256x128.rank) gather_S256x128_S256x1_S256x128_1_0_n_n_0_1_1128.startIndexMap,
          List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    unfold GatherDims.start
    rw [dif_neg (show (⟨1, by decide⟩ : Fin S256x128.rank) ∉ gather_S256x128_S256x1_S256x128_1_0_n_n_0_1_1128.startIndexMap from by decide)]
    unfold GatherDims.offCoord
    rw [dif_pos (show (⟨1, by decide⟩ : Fin S256x128.rank) ∈ gather_S256x128_S256x1_S256x128_1_0_n_n_0_1_1128.sKept from by decide)]
    simp only [Nat.zero_add]
    rfl

/-! ## One call of the take, as a function of the table and the index vector -/

variable {F : FTy → Type} [FloatOps F]

/-- The index vector with the table's height added to each negative index. -/
def normIdx (idx : IVec S256 32) : IVec S256 32 :=
  select (cmpi .slt idx (broadcastInDim S256 ![] bcast_S_S256 (constantI S_ 32 0#32)))
    (addi idx (broadcastInDim S256 ![] bcast_S_S256 (constantI S_ 32 256#32))) idx

/-- The normalised indices as a column of start indices. -/
def startCol (idx : IVec S256 32) : IVec S256x1 32 :=
  broadcastInDim S256x1 ![0] bcast_S256_S256x1_0 (normIdx idx)

/-- Per index: is the normalised index between 0 and 255? -/
def inBounds (idx : IVec S256 32) : IVec S256 1 :=
  Host.reduce IntOp.andi
    (andi (cmpi .sge (startCol idx) (broadcastInDim S256x1 ![] bcast_S_S256x1 (constantI S_ 32 0#32)))
      (cmpi .sle (startCol idx)
        (broadcastInDim S256x1 ![0, 1] bcast_S1x1_S256x1_0_1 (broadcastInDim S1x1 ![1] bcast_S1_S1x1_1 (constantI S1 32 255#32)))))
    (constantI S_ 1 1#1) reducesTo_S256x1_S256_d1 h_S_

/-- What one call of the take returns: the gathered rows where the index is in bounds, the fill value elsewhere. -/
def takeVal (tbl : FVec F S256x128 .f32) (idx : IVec S256 32) : FVec F S256x128 .f32 :=
  select (broadcastInDim S256x128 ![0] bcast_S256_S256x128_0 (inBounds idx))
    (Host.gather gather_S256x128_S256x1_S256x128_1_0_n_n_0_1_1128 tbl (startCol idx))
    (broadcastInDim S256x128 ![] bcast_S_S256x128 (constant S_ .f32 0x7FC00000#32))

/-- The index vector 0, 1, …, 255. -/
abbrev rowNumbers : IVec S256 32 := iotaInDim S256 32 0

/-- No row number is negative: normalising leaves it. -/
theorem normIdx_rowNumbers (i : Fin 256) : normIdx rowNumbers (ix1 i) = BitVec.ofNat 32 i.val := by
  show Scalar.select (IntOp.cmpi .slt (BitVec.ofNat 32 i.val) 0#32) _ (BitVec.ofNat 32 i.val) = _
  have hn : ¬ IntOp.cmpi .slt (BitVec.ofNat 32 i.val) 0#32 = 1#1 := by
    rw [IntOp.cmpi_slt, toInt_ofNat_row _ i.isLt]
    have : (0#32 : BitVec 32).toInt = 0 := by decide
    omega
  exact if_neg hn

/-- The start index of row i is the word i. -/
theorem startCol_rowNumbers (i : Fin 256) (u : Fin 1) : startCol rowNumbers (ix2 i u) = BitVec.ofNat 32 i.val := by
  unfold startCol
  rw [broadcastInDim_apply _ _ _ _ (ix1 i) (fun a => by match a with | ⟨0, _⟩ => rfl)]
  exact normIdx_rowNumbers i

/-- Every row number is in bounds. -/
theorem inBounds_rowNumbers (i : Fin 256) : inBounds rowNumbers (ix1 i) = 1#1 := by
  unfold inBounds
  refine reduce_andi_all_one _ _ _ _ (fun j => ?_) (fun _ => rfl) _
  obtain ⟨r, u, rfl⟩ : ∃ (r : Fin 256) (u : Fin 1), j = ix2 r u := ⟨j 0, j 1, eq_ix2 j⟩
  show IntOp.andi (IntOp.cmpi .sge (startCol rowNumbers (ix2 r u)) 0#32) (IntOp.cmpi .sle (startCol rowNumbers (ix2 r u)) 255#32) = 1#1
  rw [startCol_rowNumbers, IntOp.andi_eq_one, IntOp.cmpi_sge, IntOp.cmpi_sle, toInt_ofNat_row _ r.isLt]
  have h0 : (0#32 : BitVec 32).toInt = 0 := by decide
  have h255 : (255#32 : BitVec 32).toInt = 255 := by decide
  have := r.isLt
  omega

/-- TAKING ROWS 0, 1, …, 255 RETURNS THE TABLE. -/
theorem takeVal_rowNumbers (tbl : FVec F S256x128 .f32) : takeVal tbl rowNumbers = tbl := by
  funext j
  obtain ⟨i, k, rfl⟩ : ∃ (i : Fin 256) (k : Fin 128), j = ix2 i k := ⟨j 0, j 1, eq_ix2 j⟩
  unfold takeVal
  rw [select_apply, broadcastInDim_apply _ _ _ _ (ix1 i) (fun a => by match a with | ⟨0, _⟩ => rfl),
    inBounds_rowNumbers, select_one, gather_rows_apply]
  congr 1
  funext a
  match a with
  | ⟨0, _⟩ =>
    refine Fin.ext ?_
    show min (startCol rowNumbers (ix2 i (0 : Fin 1))).toInt.toNat 255 = i.val
    rw [startCol_rowNumbers, toInt_ofNat_row _ i.isLt]
    have := i.isLt
    omega
  | ⟨1, _⟩ => rfl

end Cert.ReferenceIdeal.RefValue

end
-- ==== Proof.RefLayout.lean ====
/-
  The reference's eight layout operations as one function of two tables, read at an index: the position embedding.

  The column table is repeated along a new leading axis, the row table along a new middle axis, the two
  [256, 256, 128] arrays are laid side by side along the last axis, the last axis is brought to the front, and the
  result is repeated four times along a new batch axis. Read at (b, c, h, w): the batch coordinate is dropped, the
  transposition reads (h, w, c) of the concatenation, which for c < 128 is the column table at (w, c) and for c ≥ 128
  the row table at (h, c - 128).
-/
import proofs.«210098_g2860448219651_cont_9to1_994_18_alg».proof.Proof.Gen.ReferenceIdeal
import proofs.«210098_g2860448219651_cont_9to1_994_18_alg».proof.Proof.PosEmbedSpec
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx Cert.PosEmbed

/-- The eight layout operations applied to a row table and a column table. -/
def layout {α : Type} (rowT colT : S256x128.Idx → α) : S4x256x256x256.Idx → α :=
  broadcastInDim S4x256x256x256 ![0, 1, 2, 3] bcast_S1x256x256x256_S4x256x256x256_0_1_2_3
    (broadcastInDim S1x256x256x256 ![1, 2, 3] bcast_S256x256x256_S1x256x256x256_1_2_3
      (transpose S256x256x256 [2, 0, 1]
        (concatenate S256x256x256 2
          [⟨S256x256x128, broadcastInDim S256x256x128 ![0, 1, 2] bcast_S1x256x128_S256x256x128_0_1_2
              (broadcastInDim S1x256x128 ![1, 2] bcast_S256x128_S1x256x128_1_2 colT)⟩,
           ⟨S256x256x128, broadcastInDim S256x256x128 ![0, 1, 2] bcast_S256x1x128_S256x256x128_0_1_2
              (broadcastInDim S256x1x128 ![0, 2] bcast_S256x128_S256x1x128_0_2 rowT)⟩]
          concatenates_S256x256x128_S256x256x128_S256x256x256_d2)
        transposes_S256x256x256_S256x256x256_2_0_1))

/-- The layout read at (b, c, h, w): the transposed concatenation at (h, w, c). -/
theorem layout_apply {α : Type} (rowT colT : S256x128.Idx → α) (b : Fin 4) (c h w : Fin 256) :
    layout rowT colT (ix4 b c h w)
      = concatenate S256x256x256 2
          [⟨S256x256x128, broadcastInDim S256x256x128 ![0, 1, 2] bcast_S1x256x128_S256x256x128_0_1_2
              (broadcastInDim S1x256x128 ![1, 2] bcast_S256x128_S1x256x128_1_2 colT)⟩,
           ⟨S256x256x128, broadcastInDim S256x256x128 ![0, 1, 2] bcast_S256x1x128_S256x256x128_0_1_2
              (broadcastInDim S256x1x128 ![0, 2] bcast_S256x128_S256x1x128_0_2 rowT)⟩]
          concatenates_S256x256x128_S256x256x128_S256x256x256_d2 (ix3 h w c) := by
  unfold layout
  rw [broadcastInDim_apply _ _ _ _ (ix4 (0 : Fin 1) c h w)
      (fun a => by match a with | ⟨0, _⟩ => rfl | ⟨1, _⟩ => rfl | ⟨2, _⟩ => rfl | ⟨3, _⟩ => rfl),
    broadcastInDim_apply _ _ _ _ (ix3 c h w)
      (fun a => by match a with | ⟨0, _⟩ => rfl | ⟨1, _⟩ => rfl | ⟨2, _⟩ => rfl),
    transpose_apply _ _ _ _ (ix3 h w c)
      (fun a => by match a with | ⟨0, _⟩ => rfl | ⟨1, _⟩ => rfl | ⟨2, _⟩ => rfl)]

/-- A column channel (c < 128) reads the column table at (w, c). -/
theorem layout_apply_col {α : Type} (rowT colT : S256x128.Idx → α) (b : Fin 4) (c h w : Fin 256) (hc : c.val < 128) :
    layout rowT colT (ix4 b c h w) = colT (ix2 w (⟨c.val, hc⟩ : Fin 128)) := by
  rw [layout_apply,
    concatenate_pair_apply_left (t := S256x256x256) (s₁ := S256x256x128) (s₂ := S256x256x128) 2 _ _ _ (ix3 h w c) rfl (ix3 h w (⟨c.val, hc⟩ : Fin 128))
      (fun a => by match a with | ⟨0, _⟩ => rfl | ⟨1, _⟩ => rfl | ⟨2, _⟩ => rfl),
    broadcastInDim_apply _ _ _ _ (ix3 (0 : Fin 1) w (⟨c.val, hc⟩ : Fin 128))
      (fun a => by match a with | ⟨0, _⟩ => rfl | ⟨1, _⟩ => rfl | ⟨2, _⟩ => rfl),
    broadcastInDim_apply _ _ _ _ (ix2 w (⟨c.val, hc⟩ : Fin 128))
      (fun a => by match a with | ⟨0, _⟩ => rfl | ⟨1, _⟩ => rfl)]

/-- A row channel (c ≥ 128) reads the row table at (h, c - 128). -/
theorem layout_apply_row {α : Type} (rowT colT : S256x128.Idx → α) (b : Fin 4) (c h w : Fin 256) (hc : ¬ c.val < 128) :
    layout rowT colT (ix4 b c h w) = rowT (ix2 h (⟨c.val - 128, by have := c.isLt; omega⟩ : Fin 128)) := by
  have hc' : c.val - 128 < 128 := by have := c.isLt; omega
  rw [layout_apply,
    concatenate_pair_apply_right (t := S256x256x256) (s₁ := S256x256x128) (s₂ := S256x256x128) 2 _ _ _ (ix3 h w c) rfl rfl (ix3 h w (⟨c.val - 128, hc'⟩ : Fin 128))
      (fun a => by match a with | ⟨0, _⟩ => exact fun _ => rfl | ⟨1, _⟩ => exact fun _ => rfl | ⟨2, _⟩ => exact fun hne => absurd rfl hne)
      (by show c.val - 128 + 128 = c.val; omega),
    broadcastInDim_apply _ _ _ _ (ix3 h (0 : Fin 1) (⟨c.val - 128, hc'⟩ : Fin 128))
      (fun a => by match a with | ⟨0, _⟩ => rfl | ⟨1, _⟩ => rfl | ⟨2, _⟩ => rfl),
    broadcastInDim_apply _ _ _ _ (ix2 h (⟨c.val - 128, hc'⟩ : Fin 128))
      (fun a => by match a with | ⟨0, _⟩ => rfl | ⟨1, _⟩ => rfl)]

/-- The layout of two tables is their position embedding. -/
theorem layout_eq_posEmbed {α : Type} (rowT colT : S256x128.Idx → α) : layout rowT colT = posEmbed rowT colT := by
  funext j
  obtain ⟨b, c, h, w, rfl⟩ : ∃ (b : Fin 4) (c h w : Fin 256), j = ix4 b c h w := ⟨j 0, j 1, j 2, j 3, eq_ix4 j⟩
  by_cases hc : c.val < 128
  · rw [layout_apply_col _ _ _ _ _ _ hc, posEmbed_col _ _ _ _ _ _ hc]
  · rw [layout_apply_row _ _ _ _ _ _ hc, posEmbed_row _ _ _ _ _ _ hc]

end Cert.ReferenceIdeal.RefValue

end
-- ==== Proof.RefFold.lean ====
/-
  The fold of the reference's operations at the result buffer and at the arguments.

  The result buffer ends at the eight layout operations applied to the two takes' results, each take applied to its
  table and to the index vector 0, 1, …, 255; the takes return their tables, and the layout of the two tables is the
  position embedding. The three argument buffers are written by no operation.
-/
import proofs.«210098_g2860448219651_cont_9to1_994_18_alg».proof.Proof.RefOps
import proofs.«210098_g2860448219651_cont_9to1_994_18_alg».proof.Proof.RefTake
import proofs.«210098_g2860448219651_cont_9to1_994_18_alg».proof.Proof.RefLayout

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.PosEmbed

variable {F : FTy → Type} [FloatOps F]

/-- The program's result as a term of its two table arguments: the layout of the two takes. -/
def refTerm (row col : FVec F S256x128 .f32) : FVec F S4x256x256x256 .f32 :=
  layout (takeVal row rowNumbers) (takeVal col rowNumbers)

/-- The takes return the tables, and the layout of the tables is the position embedding. -/
theorem refTerm_eq_posEmbed (row col : FVec F S256x128 .f32) : refTerm row col = posEmbed row col := by
  unfold refTerm
  rw [takeVal_rowNumbers, takeVal_rowNumbers]
  exact layout_eq_posEmbed row col

set_option maxRecDepth 8192 in
/-- The fold at the result buffer is the result term: an operation changes its own result buffer to its function's value
    and leaves every other buffer as it was, so the last operation's value, read through its operands, is the term. -/
theorem after_v11 (V : Valuation τ sig (Elt F)) :
    after ops V (main_v11 : DevRef τ sig) = refTerm (V (main_arg1 : DevRef τ sig)) (V (main_arg2 : DevRef τ sig)) := by
  after_results_simp
  rfl

set_option maxRecDepth 8192 in
theorem after_arg0 (V : Valuation τ sig (Elt F)) : after ops V (main_arg0 : DevRef τ sig) = V (main_arg0 : DevRef τ sig) := by
  after_results_simp

set_option maxRecDepth 8192 in
theorem after_arg1 (V : Valuation τ sig (Elt F)) : after ops V (main_arg1 : DevRef τ sig) = V (main_arg1 : DevRef τ sig) := by
  after_results_simp

set_option maxRecDepth 8192 in
theorem after_arg2 (V : Valuation τ sig (Elt F)) : after ops V (main_arg2 : DevRef τ sig) = V (main_arg2 : DevRef τ sig) := by
  after_results_simp

end Cert.ReferenceIdeal.RefValue

end
-- ==== Proof.RefValue.lean ====
/-
  The reference's run with its result as one closed function of the two tables.

  Every weakly fair execution of the reference program terminates with every buffer at the fold of its fifty-six
  operations over the launch contents; at the result buffer that fold is the position embedding of the row table and
  the column table, and at the three arguments it is what was there.
-/
import proofs.«210098_g2860448219651_cont_9to1_994_18_alg».proof.Proof.RefFold

noncomputable section

open Idealize.ShloMosaic Idealize.SL.Sem Cert.ReferenceIdeal in
/-- At the ideal instance, from any memory with zero counters: every weakly fair execution of @main terminates with the
    result buffer at the position embedding of the row table and the column table, and the three arguments unchanged. -/
theorem Cert.ReferenceIdeal.RefValue.run
    (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v11)
            = Cert.PosEmbed.posEmbed (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono
    (fun _ h c =>
      ⟨(h c Cert.ReferenceIdeal.main_v11).trans
          ((Cert.ReferenceIdeal.RefValue.after_v11 _).trans (Cert.ReferenceIdeal.RefValue.refTerm_eq_posEmbed _ _)),
        (h c Cert.ReferenceIdeal.main_arg0).trans (Cert.ReferenceIdeal.RefValue.after_arg0 _),
        (h c Cert.ReferenceIdeal.main_arg1).trans (Cert.ReferenceIdeal.RefValue.after_arg1 _),
        (h c Cert.ReferenceIdeal.main_arg2).trans (Cert.ReferenceIdeal.RefValue.after_arg2 _)⟩)
    (Cert.ReferenceIdeal.RefValue.run_after m ρ)

end
-- ==== Proof.lean ====
/-
  The position embedding of a row table and a column table, both [256, 128], is the array [4, 256, 256, 256] whose
  entry (b, c, h, w) is col[w, c] for a channel c < 128 and row[h, c - 128] for a channel c ≥ 128. The kernel, read at
  either instance, ends with its result at that array and its three arguments unchanged: each of its thirty-two
  workers writes its own channels from its rows of the transposed tables, and entry (c, x) of a transposed table is
  entry (x, c) of the table. The reference ends with its result at the same array, so the three frames are these runs
  with the value dropped, and the two idealized programs, run from memories that agree on the arguments, end with
  equal results entry by entry.
-/
import proofs.«210098_g2860448219651_cont_9to1_994_18_alg».proof.Defs
import proofs.«210098_g2860448219651_cont_9to1_994_18_alg».proof.Proof.Gen.Kernel
import proofs.«210098_g2860448219651_cont_9to1_994_18_alg».proof.Proof.Gen.Kernel.Skeleton
import proofs.«210098_g2860448219651_cont_9to1_994_18_alg».proof.Proof.Gen.KernelIdeal
import proofs.«210098_g2860448219651_cont_9to1_994_18_alg».proof.Proof.Gen.KernelIdeal.Skeleton
import proofs.«210098_g2860448219651_cont_9to1_994_18_alg».proof.Proof.Gen.ReferenceIdeal
import proofs.«210098_g2860448219651_cont_9to1_994_18_alg».proof.Proof.Gen.Pre_finite_inputs
import proofs.«210098_g2860448219651_cont_9to1_994_18_alg».proof.Proof.KBMain
import proofs.«210098_g2860448219651_cont_9to1_994_18_alg».proof.Proof.KIMain
import proofs.«210098_g2860448219651_cont_9to1_994_18_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_Kernel : Cert.frame_Kernel := fun m g _ =>
  (θ_run Cert.Kernel.defs _ _).mono (fun _ h c => (h c).2) (KB.run_main (F := Bits) m g)

/-- So does the idealized kernel. -/
theorem frame_KernelIdeal : Cert.frame_KernelIdeal := fun m g _ =>
  (θ_run Cert.KernelIdeal.defs _ _).mono (fun _ h c => (h c).2) (KI.run_main (F := Ideal) m g)

/-- And the idealized reference. -/
theorem frame_ReferenceIdeal : Cert.frame_ReferenceIdeal := fun m g _ =>
  (θ_run Cert.ReferenceIdeal.defs _ _).mono (fun _ h c => (h c).2) (Cert.ReferenceIdeal.RefValue.run m g)

/-- Both idealized programs end with the position embedding of the two tables; from memories that agree on the
    tables these are one array. -/
theorem algebraic : Cert.algebraic_KernelIdeal_ReferenceIdeal := fun m g m' g' _ hagree =>
  ⟨fun c => Cert.PosEmbed.posEmbed (m (KI.rLoc c)) (m (KI.cLoc c)),
    (θ_run Cert.KernelIdeal.defs _ _).mono (fun _ h c => h c) (KI.run_main (F := Ideal) m g),
    (θ_run Cert.ReferenceIdeal.defs _ _).mono
      (fun _ h c => ⟨(h c).1.trans (by rw [(hagree c).2.1, (hagree c).2.2]), (h c).2⟩)
      (Cert.ReferenceIdeal.RefValue.run m' g')⟩

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
